-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v134)) (v1 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_v135) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_v239) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S15000x64 : Shape := ⟨2, ![15000, 64]⟩
abbrev S3x64x64 : Shape := ⟨3, ![3, 64, 64]⟩
abbrev S3x64 : Shape := ⟨2, ![3, 64]⟩
abbrev S4000x64 : Shape := ⟨2, ![4000, 64]⟩
abbrev S3000x64 : Shape := ⟨2, ![3000, 64]⟩
abbrev S20000x4000 : Shape := ⟨2, ![20000, 4000]⟩
abbrev S15000x3000 : Shape := ⟨2, ![15000, 3000]⟩
abbrev S1000000 : Shape := ⟨1, ![1000000]⟩
abbrev S200000 : Shape := ⟨1, ![200000]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S15000x64 : S_.BroadcastsInDim S15000x64 (![] : Fin 0 → Fin S15000x64.rank)
  reducesTo_S15000x64_S_d0_1 : S15000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S4000x64 : S_.BroadcastsInDim S4000x64 (![] : Fin 0 → Fin S4000x64.rank)
  reducesTo_S4000x64_S_d0_1 : S4000x64.ReducesTo [0, 1] S_
  bcast_S_S3000x64 : S_.BroadcastsInDim S3000x64 (![] : Fin 0 → Fin S3000x64.rank)
  reducesTo_S3000x64_S_d0_1 : S3000x64.ReducesTo [0, 1] S_
  bcast_S_S20000x4000 : S_.BroadcastsInDim S20000x4000 (![] : Fin 0 → Fin S20000x4000.rank)
  reducesTo_S20000x4000_S_d0_1 : S20000x4000.ReducesTo [0, 1] S_
  bcast_S_S15000x3000 : S_.BroadcastsInDim S15000x3000 (![] : Fin 0 → Fin S15000x3000.rank)
  reducesTo_S15000x3000_S_d0_1 : S15000x3000.ReducesTo [0, 1] S_
  bcast_S_S1000000 : S_.BroadcastsInDim S1000000 (![] : Fin 0 → Fin S1000000.rank)
  reducesTo_S1000000_S_d0 : S1000000.ReducesTo [0] S_
  bcast_S_S200000 : S_.BroadcastsInDim S200000 (![] : Fin 0 → Fin S200000.rank)
  reducesTo_S200000_S_d0 : S200000.ReducesTo [0] S_

variable [Facts]

def fn_part4 {F : FTy → Type} [FloatOps F] (main_arg14 : FVec F S1000000 .f32) (main_arg15 : FVec F S200000 .f32) (main_v63 : IVec S_ 1) (main_v67 : IVec S_ 1) : IVec S_ 1 :=
  let main_v68 : IVec S_ 1 := andi main_v63 main_v67
  let main_v69 : FVec F S1000000 .f32 := Host.absf main_arg14
  let main_cst_26 : FVec F S_ .f32 := constant S_ .f32 0x7F800000#32
  let main_v70 : FVec F S1000000 .f32 := broadcastInDim S1000000 ![] bcast_S_S1000000 main_cst_26
  let main_v71 : IVec S1000000 1 := cmpf .olt main_v69 main_v70
  let main_c_27 : IVec S_ 1 := constantI S_ 1 1#1
  let main_v72 : IVec S_ 1 := (fun x v => Host.reduce IntOp.andi x v reducesTo_S1000000_S_d0 h_S_) main_v71 main_c_27
  let main_v73 : IVec S_ 1 := andi main_v68 main_v72
  let main_v74 : FVec F S200000 .f32 := Host.absf main_arg15
  let main_cst_28 : FVec F S_ .f32 := constant S_ .f32 0x7F800000#32
  let main_v75 : FVec F S200000 .f32 := broadcastInDim S200000 ![] bcast_S_S200000 main_cst_28
  let main_v76 : IVec S200000 1 := cmpf .olt main_v74 main_v75
  let main_c_29 : IVec S_ 1 := constantI S_ 1 1#1
  let main_v77 : IVec S_ 1 := (fun x v => Host.reduce IntOp.andi x v reducesTo_S200000_S_d0 h_S_) main_v76 main_c_29
  let main_v78 : IVec S_ 1 := andi main_v73 main_v77
  main_v78

def fn_part3 {F : FTy → Type} [FloatOps F] (main_arg11 : FVec F S3x64 .f32) (main_arg12 : FVec F S20000x4000 .f32) (main_arg13 : FVec F S15000x3000 .f32) (main_arg14 : FVec F S1000000 .f32) (main_arg15 : FVec F S200000 .f32) (main_v48 : IVec S_ 1) (main_v49 : FVec F S3x64x64 .f32) (main_v50 : FVec F S3x64x64 .f32) : IVec S_ 1 :=
  let main_v51 : IVec S3x64x64 1 := cmpf .olt main_v49 main_v50
  let main_c_19 : IVec S_ 1 := constantI S_ 1 1#1
  let main_v52 : IVec S_ 1 := (fun x v => Host.reduce IntOp.andi x v reducesTo_S3x64x64_S_d0_1_2 h_S_) main_v51 main_c_19
  let main_v53 : IVec S_ 1 := andi main_v48 main_v52
  let main_v54 : FVec F S3x64 .f32 := Host.absf main_arg11
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S20000x4000 .f32 := Host.absf main_arg12
  let main_cst_22 : FVec F S_ .f32 := constant S_ .f32 0x7F800000#32
  let main_v60 : FVec F S20000x4000 .f32 := broadcastInDim S20000x4000 ![] bcast_S_S20000x4000 main_cst_22
  let main_v61 : IVec S20000x4000 1 := cmpf .olt main_v59 main_v60
  let main_c_23 : IVec S_ 1 := constantI S_ 1 1#1
  let main_v62 : IVec S_ 1 := (fun x v => Host.reduce IntOp.andi x v reducesTo_S20000x4000_S_d0_1 h_S_) main_v61 main_c_23
  let main_v63 : IVec S_ 1 := andi main_v58 main_v62
  let main_v64 : FVec F S15000x3000 .f32 := Host.absf main_arg13
  let main_cst_24 : FVec F S_ .f32 := constant S_ .f32 0x7F800000#32
  let main_v65 : FVec F S15000x3000 .f32 := broadcastInDim S15000x3000 ![] bcast_S_S15000x3000 main_cst_24
  let main_v66 : IVec S15000x3000 1 := cmpf .olt main_v64 main_v65
  let main_c_25 : IVec S_ 1 := constantI S_ 1 1#1
  let main_v67 : IVec S_ 1 := (fun x v => Host.reduce IntOp.andi x v reducesTo_S15000x3000_S_d0_1 h_S_) main_v66 main_c_25
  fn_part4 (F := F) main_arg14 main_arg15 main_v63 main_v67

def fn_part2 {F : FTy → Type} [FloatOps F] (main_arg7 : FVec F S3000x64 .f32) (main_arg8 : FVec F S3x64x64 .f32) (main_arg9 : FVec F S3x64 .f32) (main_arg10 : FVec F S3x64x64 .f32) (main_arg11 : FVec F S3x64 .f32) (main_arg12 : FVec F S20000x4000 .f32) (main_arg13 : FVec F S15000x3000 .f32) (main_arg14 : FVec F S1000000 .f32) (main_arg15 : FVec F S200000 .f32) (main_v33 : IVec S_ 1) : IVec S_ 1 :=
  let main_v34 : FVec F S3000x64 .f32 := Host.absf main_arg7
  let main_cst_12 : FVec F S_ .f32 := constant S_ .f32 0x7F800000#32
  let main_v35 : FVec F S3000x64 .f32 := broadcastInDim S3000x64 ![] bcast_S_S3000x64 main_cst_12
  let main_v36 : IVec S3000x64 1 := cmpf .olt main_v34 main_v35
  let main_c_13 : IVec S_ 1 := constantI S_ 1 1#1
  let main_v37 : IVec S_ 1 := (fun x v => Host.reduce IntOp.andi x v reducesTo_S3000x64_S_d0_1 h_S_) main_v36 main_c_13
  let main_v38 : IVec S_ 1 := andi main_v33 main_v37
  let main_v39 : FVec F S3x64x64 .f32 := Host.absf main_arg8
  let main_cst_14 : FVec F S_ .f32 := constant S_ .f32 0x7F800000#32
  let main_v40 : FVec F S3x64x64 .f32 := broadcastInDim S3x64x64 ![] bcast_S_S3x64x64 main_cst_14
  let main_v41 : IVec S3x64x64 1 := cmpf .olt main_v39 main_v40
  let main_c_15 : IVec S_ 1 := constantI S_ 1 1#1
  let main_v42 : IVec S_ 1 := (fun x v => Host.reduce IntOp.andi x v reducesTo_S3x64x64_S_d0_1_2 h_S_) main_v41 main_c_15
  let main_v43 : IVec S_ 1 := andi main_v38 main_v42
  let main_v44 : FVec F S3x64 .f32 := Host.absf main_arg9
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64x64 .f32 := Host.absf main_arg10
  let main_cst_18 : FVec F S_ .f32 := constant S_ .f32 0x7F800000#32
  let main_v50 : FVec F S3x64x64 .f32 := broadcastInDim S3x64x64 ![] bcast_S_S3x64x64 main_cst_18
  fn_part3 (F := F) main_arg11 main_arg12 main_arg13 main_arg14 main_arg15 main_v48 main_v49 main_v50

def fn_part1 {F : FTy → Type} [FloatOps F] (main_arg4 : FVec F S3x64x64 .f32) (main_arg5 : FVec F S3x64 .f32) (main_arg6 : FVec F S4000x64 .f32) (main_arg7 : FVec F S3000x64 .f32) (main_arg8 : FVec F S3x64x64 .f32) (main_arg9 : FVec F S3x64 .f32) (main_arg10 : FVec F S3x64x64 .f32) (main_arg11 : FVec F S3x64 .f32) (main_arg12 : FVec F S20000x4000 .f32) (main_arg13 : FVec F S15000x3000 .f32) (main_arg14 : FVec F S1000000 .f32) (main_arg15 : FVec F S200000 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg5
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S4000x64 .f32 := Host.absf main_arg6
  let main_cst_10 : FVec F S_ .f32 := constant S_ .f32 0x7F800000#32
  let main_v30 : FVec F S4000x64 .f32 := broadcastInDim S4000x64 ![] bcast_S_S4000x64 main_cst_10
  let main_v31 : IVec S4000x64 1 := cmpf .olt main_v29 main_v30
  let main_c_11 : IVec S_ 1 := constantI S_ 1 1#1
  let main_v32 : IVec S_ 1 := (fun x v => Host.reduce IntOp.andi x v reducesTo_S4000x64_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S20000x64 .f32) (main_arg1 : FVec F S15000x64 .f32) (main_arg2 : FVec F S3x64x64 .f32) (main_arg3 : FVec F S3x64 .f32) (main_arg4 : FVec F S3x64x64 .f32) (main_arg5 : FVec F S3x64 .f32) (main_arg6 : FVec F S4000x64 .f32) (main_arg7 : FVec F S3000x64 .f32) (main_arg8 : FVec F S3x64x64 .f32) (main_arg9 : FVec F S3x64 .f32) (main_arg10 : FVec F S3x64x64 .f32) (main_arg11 : FVec F S3x64 .f32) (main_arg12 : FVec F S20000x4000 .f32) (main_arg13 : FVec F S15000x3000 .f32) (main_arg14 : FVec F S1000000 .f32) (main_arg15 : FVec F S200000 .f32) (main_arg16 : IVec S1000000 32) (main_arg17 : IVec S1000000 32) (main_arg18 : IVec S200000 32) (main_arg19 : IVec S200000 32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S15000x64 .f32 := Host.absf main_arg1
  let main_cst_0 : FVec F S_ .f32 := constant S_ .f32 0x7F800000#32
  let main_v5 : FVec F S15000x64 .f32 := broadcastInDim S15000x64 ![] bcast_S_S15000x64 main_cst_0
  let main_v6 : IVec S15000x64 1 := cmpf .olt main_v4 main_v5
  let main_c_1 : IVec S_ 1 := constantI S_ 1 1#1
  let main_v7 : IVec S_ 1 := (fun x v => Host.reduce IntOp.andi x v reducesTo_S15000x64_S_d0_1 h_S_) main_v6 main_c_1
  let main_v8 : IVec S_ 1 := andi main_v3 main_v7
  let main_v9 : FVec F S3x64x64 .f32 := Host.absf main_arg2
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg3
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S20000x64 : Shape := ⟨2, ![20000, 64]⟩
abbrev S15000x64 : Shape := ⟨2, ![15000, 64]⟩
abbrev S3x64x64 : Shape := ⟨3, ![3, 64, 64]⟩
abbrev S3x64 : Shape := ⟨2, ![3, 64]⟩
abbrev S4000x64 : Shape := ⟨2, ![4000, 64]⟩
abbrev S3000x64 : Shape := ⟨2, ![3000, 64]⟩
abbrev S20000x4000 : Shape := ⟨2, ![20000, 4000]⟩
abbrev S15000x3000 : Shape := ⟨2, ![15000, 3000]⟩
abbrev S1000000 : Shape := ⟨1, ![1000000]⟩
abbrev S200000 : Shape := ⟨1, ![200000]⟩
abbrev S35000x64 : Shape := ⟨2, ![35000, 64]⟩
abbrev S_ : Shape := ⟨0, ![]⟩
abbrev S3x64x128 : Shape := ⟨3, ![3, 64, 128]⟩
abbrev S3x128x128 : Shape := ⟨3, ![3, 128, 128]⟩
abbrev S3x128 : Shape := ⟨2, ![3, 128]⟩
abbrev S1000000x1 : Shape := ⟨2, ![1000000, 1]⟩
abbrev S1000000x64 : Shape := ⟨2, ![1000000, 64]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩
abbrev S35000x256 : Shape := ⟨2, ![35000, 256]⟩
abbrev S20000x256 : Shape := ⟨2, ![20000, 256]⟩
abbrev S15000x256 : Shape := ⟨2, ![15000, 256]⟩
abbrev S7000x64 : Shape := ⟨2, ![7000, 64]⟩
abbrev S200000x1 : Shape := ⟨2, ![200000, 1]⟩
abbrev S200000x64 : Shape := ⟨2, ![200000, 64]⟩
abbrev S1000x64 : Shape := ⟨2, ![1000, 64]⟩
abbrev S1000x128 : Shape := ⟨2, ![1000, 128]⟩
abbrev S1000 : Shape := ⟨1, ![1000]⟩
abbrev S1000x1 : Shape := ⟨2, ![1000, 1]⟩
abbrev S7000x256 : Shape := ⟨2, ![7000, 256]⟩
abbrev S4000x256 : Shape := ⟨2, ![4000, 256]⟩
abbrev S3000x256 : Shape := ⟨2, ![3000, 256]⟩
abbrev S1000x4000 : Shape := ⟨2, ![1000, 4000]⟩
abbrev S1000x256 : Shape := ⟨2, ![1000, 256]⟩
abbrev S1000x3000 : Shape := ⟨2, ![1000, 3000]⟩

abbrev nBuf : Space → Nat
  | .hbm => 182
  | .vmem => 74
  | .smem => 0
  | _ => 0

abbrev hbmTy0_0 (i : Nat) : BufTy := match i % 128 with
  | 0 => ⟨S20000x64, .f32⟩
  | 1 => ⟨S15000x64, .f32⟩
  | 2 => ⟨S3x64x64, .f32⟩
  | 3 => ⟨S3x64, .f32⟩
  | 4 => ⟨S3x64x64, .f32⟩
  | 5 => ⟨S3x64, .f32⟩
  | 6 => ⟨S4000x64, .f32⟩
  | 7 => ⟨S3000x64, .f32⟩
  | 8 => ⟨S3x64x64, .f32⟩
  | 9 => ⟨S3x64, .f32⟩
  | 10 => ⟨S3x64x64, .f32⟩
  | 11 => ⟨S3x64, .f32⟩
  | 12 => ⟨S20000x4000, .f32⟩
  | 13 => ⟨S15000x3000, .f32⟩
  | 14 => ⟨S1000000, .f32⟩
  | 15 => ⟨S200000, .f32⟩
  | 16 => ⟨S1000000, .i32⟩
  | 17 => ⟨S1000000, .i32⟩
  | 18 => ⟨S200000, .i32⟩
  | 19 => ⟨S200000, .i32⟩
  | 20 => ⟨S35000x64, .f32⟩
  | 21 => ⟨S_, .f32⟩
  | 22 => ⟨S3x64x64, .f32⟩
  | 23 => ⟨S3x64x128, .f32⟩
  | 24 => ⟨S3x64x128, .f32⟩
  | 25 => ⟨S3x128x128, .f32⟩
  | 26 => ⟨S3x128, .f32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S1000000x1, .i32⟩
  | 35 => ⟨S1000000x64, .f32⟩
  | 36 => ⟨S1000000x1, .f32⟩
  | 37 => ⟨S1000000x64, .f32⟩
  | 38 => ⟨S1000000x64, .f32⟩
  | 39 => ⟨S_, .f32⟩
  | 40 => ⟨S35000x64, .f32⟩
  | 41 => ⟨S1000000x1, .i32⟩
  | 42 => ⟨S35000x64, .f32⟩
  | 43 => ⟨S1x128x128, .f32⟩
  | 44 => ⟨S128x128, .f32⟩
  | 45 => ⟨S1x128, .f32⟩
  | 46 => ⟨S128, .f32⟩
  | 47 => ⟨S1x128, .f32⟩
  | 48 => ⟨S35000x64, .f32⟩
  | 49 => ⟨S35000x64, .f32⟩
  | 50 => ⟨S_, .i32⟩
  | 51 => ⟨S1000000, .i32⟩
  | 52 => ⟨S1000000, .i1⟩
  | 53 => ⟨S_, .i32⟩
  | 54 => ⟨S1000000, .i32⟩
  | 55 => ⟨S1000000, .i32⟩
  | 56 => ⟨S1000000, .i32⟩
  | 57 => ⟨S1000000x1, .i32⟩
  | 58 => ⟨S1000000x64, .f32⟩
  | 59 => ⟨S1000000x1, .f32⟩
  | 60 => ⟨S1000000x64, .f32⟩
  | 61 => ⟨S1000000x64, .f32⟩
  | 62 => ⟨S_, .f32⟩
  | 63 => ⟨S35000x64, .f32⟩
  | 64 => ⟨S1000000x1, .i32⟩
  | 65 => ⟨S35000x64, .f32⟩
  | 66 => ⟨S1x128x128, .f32⟩
  | 67 => ⟨S128x128, .f32⟩
  | 68 => ⟨S1x128, .f32⟩
  | 69 => ⟨S128, .f32⟩
  | 70 => ⟨S1x128, .f32⟩
  | 71 => ⟨S35000x64, .f32⟩
  | 72 => ⟨S35000x64, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000x64, .f32⟩
  | 82 => ⟨S1000000x1, .f32⟩
  | 83 => ⟨S1000000x64, .f32⟩
  | 84 => ⟨S1000000x64, .f32⟩
  | 85 => ⟨S_, .f32⟩
  | 86 => ⟨S35000x64, .f32⟩
  | 87 => ⟨S1000000x1, .i32⟩
  | 88 => ⟨S35000x64, .f32⟩
  | 89 => ⟨S1x128x128, .f32⟩
  | 90 => ⟨S128x128, .f32⟩
  | 91 => ⟨S1x128, .f32⟩
  | 92 => ⟨S128, .f32⟩
  | 93 => ⟨S1x128, .f32⟩
  | 94 => ⟨S35000x64, .f32⟩
  | 95 => ⟨S35000x64, .f32⟩
  | 96 => ⟨S35000x256, .f32⟩
  | 97 => ⟨S20000x256, .f32⟩
  | 98 => ⟨S15000x256, .f32⟩
  | 99 => ⟨S7000x64, .f32⟩
  | 100 => ⟨S_, .f32⟩
  | 101 => ⟨S3x64x64, .f32⟩
  | 102 => ⟨S3x64x128, .f32⟩
  | 103 => ⟨S3x64x128, .f32⟩
  | 104 => ⟨S3x128x128, .f32⟩
  | 105 => ⟨S3x128, .f32⟩
  | 106 => ⟨S_, .i32⟩
  | 107 => ⟨S200000, .i32⟩
  | 108 => ⟨S200000, .i1⟩
  | 109 => ⟨S_, .i32⟩
  | 110 => ⟨S200000, .i32⟩
  | 111 => ⟨S200000, .i32⟩
  | 112 => ⟨S200000, .i32⟩
  | 113 => ⟨S200000x1, .i32⟩
  | 114 => ⟨S200000x64, .f32⟩
  | 115 => ⟨S200000x1, .f32⟩
  | 116 => ⟨S200000x64, .f32⟩
  | 117 => ⟨S200000x64, .f32⟩
  | 118 => ⟨S_, .f32⟩
  | 119 => ⟨S7000x64, .f32⟩
  | 120 => ⟨S200000x1, .i32⟩
  | 121 => ⟨S7000x64, .f32⟩
  | 122 => ⟨S1x128x128, .f32⟩
  | 123 => ⟨S128x128, .f32⟩
  | 124 => ⟨S1x128, .f32⟩
  | 125 => ⟨S128, .f32⟩
  | 126 => ⟨S1x128, .f32⟩
  | 127 => ⟨S7000x64, .f32⟩
  | _ => ⟨S20000x64, .f32⟩

abbrev hbmTy0_1 (i : Nat) : BufTy := match i % 128 with
  | 0 => ⟨S7000x64, .f32⟩
  | 1 => ⟨S_, .i32⟩
  | 2 => ⟨S200000, .i32⟩
  | 3 => ⟨S200000, .i1⟩
  | 4 => ⟨S_, .i32⟩
  | 5 => ⟨S200000, .i32⟩
  | 6 => ⟨S200000, .i32⟩
  | 7 => ⟨S200000, .i32⟩
  | 8 => ⟨S200000x1, .i32⟩
  | 9 => ⟨S200000x64, .f32⟩
  | 10 => ⟨S200000x1, .f32⟩
  | 11 => ⟨S200000x64, .f32⟩
  | 12 => ⟨S200000x64, .f32⟩
  | 13 => ⟨S_, .f32⟩
  | 14 => ⟨S7000x64, .f32⟩
  | 15 => ⟨S200000x1, .i32⟩
  | 16 => ⟨S7000x64, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S7000x64, .f32⟩
  | 23 => ⟨S7000x64, .f32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S200000x64, .f32⟩
  | 33 => ⟨S200000x1, .f32⟩
  | 34 => ⟨S200000x64, .f32⟩
  | 35 => ⟨S200000x64, .f32⟩
  | 36 => ⟨S_, .f32⟩
  | 37 => ⟨S7000x64, .f32⟩
  | 38 => ⟨S200000x1, .i32⟩
  | 39 => ⟨S7000x64, .f32⟩
  | 40 => ⟨S1x128x128, .f32⟩
  | 41 => ⟨S128x128, .f32⟩
  | 42 => ⟨S1x128, .f32⟩
  | 43 => ⟨S128, .f32⟩
  | 44 => ⟨S1x128, .f32⟩
  | 45 => ⟨S7000x64, .f32⟩
  | 46 => ⟨S7000x64, .f32⟩
  | 47 => ⟨S7000x256, .f32⟩
  | 48 => ⟨S4000x256, .f32⟩
  | 49 => ⟨S3000x256, .f32⟩
  | 50 => ⟨S4000x256, .bf16⟩
  | 51 => ⟨S3000x256, .bf16⟩
  | 52 => ⟨S20000x256, .f32⟩
  | 53 => ⟨S15000x256, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x128, .f32⟩
  | .local _ .vmem, ⟨5, _⟩ => ⟨S1x128, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S128x128, .f32⟩
  | .local _ .vmem, ⟨15, _⟩ => ⟨S1x128, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S128x128, .f32⟩
  | .local _ .vmem, ⟨25, _⟩ => ⟨S1x128, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S1000x64, .f32⟩
  | .local _ .vmem, ⟨31, _⟩ => ⟨S1000x64, .f32⟩
  | .local _ .vmem, ⟨32, _⟩ => ⟨S1000x64, .f32⟩
  | .local _ .vmem, ⟨33, _⟩ => ⟨S1000x64, .f32⟩
  | .local _ .vmem, ⟨34, _⟩ => ⟨S128x128, .f32⟩
  | .local _ .vmem, ⟨35, _⟩ => ⟨S1x128, .f32⟩
  | .local _ .vmem, ⟨36, _⟩ => ⟨S1000x64, .f32⟩
  | .local _ .vmem, ⟨37, _⟩ => ⟨S1000x64, .f32⟩
  | .local _ .vmem, ⟨38, _⟩ => ⟨S1000x64, .f32⟩
  | .local _ .vmem, ⟨39, _⟩ => ⟨S1000x64, .f32⟩
  | .local _ .vmem, ⟨40, _⟩ => ⟨S1000x64, .f32⟩
  | .local _ .vmem, ⟨41, _⟩ => ⟨S1000x64, .f32⟩
  | .local _ .vmem, ⟨42, _⟩ => ⟨S1000x64, .f32⟩
  | .local _ .vmem, ⟨43, _⟩ => ⟨S1000x64, .f32⟩
  | .local _ .vmem, ⟨44, _⟩ => ⟨S128x128, .f32⟩
  | .local _ .vmem, ⟨45, _⟩ => ⟨S1x128, .f32⟩
  | .local _ .vmem, ⟨46, _⟩ => ⟨S1000x64, .f32⟩
  | .local _ .vmem, ⟨47, _⟩ => ⟨S1000x64, .f32⟩
  | .local _ .vmem, ⟨48, _⟩ => ⟨S1000x64, .f32⟩
  | .local _ .vmem, ⟨49, _⟩ => ⟨S1000x64, .f32⟩
  | .local _ .vmem, ⟨50, _⟩ => ⟨S1000x64, .f32⟩
  | .local _ .vmem, ⟨51, _⟩ => ⟨S1000x64, .f32⟩
  | .local _ .vmem, ⟨52, _⟩ => ⟨S1000x64, .f32⟩
  | .local _ .vmem, ⟨53, _⟩ => ⟨S1000x64, .f32⟩
  | .local _ .vmem, ⟨54, _⟩ => ⟨S128x128, .f32⟩
  | .local _ .vmem, ⟨55, _⟩ => ⟨S1x128, .f32⟩
  | .local _ .vmem, ⟨56, _⟩ => ⟨S1000x64, .f32⟩
  | .local _ .vmem, ⟨57, _⟩ => ⟨S1000x64, .f32⟩
  | .local _ .vmem, ⟨58, _⟩ => ⟨S1000x64, .f32⟩
  | .local _ .vmem, ⟨59, _⟩ => ⟨S1000x64, .f32⟩
  | .local _ .vmem, ⟨60, _⟩ => ⟨S1000x4000, .f32⟩
  | .local _ .vmem, ⟨61, _⟩ => ⟨S1000x4000, .f32⟩
  | .local _ .vmem, ⟨62, _⟩ => ⟨S4000x256, .bf16⟩
  | .local _ .vmem, ⟨63, _⟩ => ⟨S1000x256, .f32⟩
  | .local _ .vmem, ⟨64, _⟩ => ⟨S1000x256, .f32⟩
  | .local _ .vmem, ⟨65, _⟩ => ⟨S1000x256, .f32⟩
  | .local _ .vmem, ⟨66, _⟩ => ⟨S1000x256, .f32⟩
  | .local _ .vmem, ⟨67, _⟩ => ⟨S1000x3000, .f32⟩
  | .local _ .vmem, ⟨68, _⟩ => ⟨S1000x3000, .f32⟩
  | .local _ .vmem, ⟨69, _⟩ => ⟨S3000x256, .bf16⟩
  | .local _ .vmem, ⟨70, _⟩ => ⟨S1000x256, .f32⟩
  | .local _ .vmem, ⟨71, _⟩ => ⟨S1000x256, .f32⟩
  | .local _ .vmem, ⟨72, _⟩ => ⟨S1000x256, .f32⟩
  | .local _ .vmem, ⟨73, _⟩ => ⟨S1000x256, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_c : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24_0 : Ref sig .tc := ⟨.hbm, 48, rfl⟩
abbrev main_v24_1 : Ref sig .tc := ⟨.hbm, 49, rfl⟩
abbrev main_c_2 : Ref sig .tc := ⟨.hbm, 50, rfl⟩
abbrev main_v25 : Ref sig .tc := ⟨.hbm, 51, rfl⟩
abbrev main_v26 : Ref sig .tc := ⟨.hbm, 52, rfl⟩
abbrev main_c_3 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43_0 : Ref sig .tc := ⟨.hbm, 71, rfl⟩
abbrev main_v43_1 : Ref sig .tc := ⟨.hbm, 72, rfl⟩
abbrev main_c_5 : Ref sig .tc := ⟨.hbm, 73, rfl⟩
abbrev main_v44 : Ref sig .tc := ⟨.hbm, 74, rfl⟩
abbrev main_v45 : Ref sig .tc := ⟨.hbm, 75, rfl⟩
abbrev main_c_6 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_7 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62_0 : Ref sig .tc := ⟨.hbm, 94, rfl⟩
abbrev main_v62_1 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_8 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_9 : Ref sig .tc := ⟨.hbm, 106, rfl⟩
abbrev main_v72 : Ref sig .tc := ⟨.hbm, 107, rfl⟩
abbrev main_v73 : Ref sig .tc := ⟨.hbm, 108, rfl⟩
abbrev main_c_10 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_11 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90_0 : Ref sig .tc := ⟨.hbm, 127, rfl⟩
abbrev main_v90_1 : Ref sig .tc := ⟨.hbm, 128, rfl⟩
abbrev main_c_12 : Ref sig .tc := ⟨.hbm, 129, rfl⟩
abbrev main_v91 : Ref sig .tc := ⟨.hbm, 130, rfl⟩
abbrev main_v92 : Ref sig .tc := ⟨.hbm, 131, rfl⟩
abbrev main_c_13 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_14 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109_0 : Ref sig .tc := ⟨.hbm, 150, rfl⟩
abbrev main_v109_1 : Ref sig .tc := ⟨.hbm, 151, rfl⟩
abbrev main_c_15 : Ref sig .tc := ⟨.hbm, 152, rfl⟩
abbrev main_v110 : Ref sig .tc := ⟨.hbm, 153, rfl⟩
abbrev main_v111 : Ref sig .tc := ⟨.hbm, 154, rfl⟩
abbrev main_c_16 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_17 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128_0 : Ref sig .tc := ⟨.hbm, 173, rfl⟩
abbrev main_v128_1 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg5_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg4_1 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg2_1 : Ref sig .tc := ⟨.vmem, 64, rfl⟩
abbrev cc6_stg3_0 : Ref sig .tc := ⟨.vmem, 65, rfl⟩
abbrev cc6_stg3_1 : Ref sig .tc := ⟨.vmem, 66, rfl⟩
abbrev cc7_stg0_0 : Ref sig .tc := ⟨.vmem, 67, rfl⟩
abbrev cc7_stg0_1 : Ref sig .tc := ⟨.vmem, 68, rfl⟩
abbrev cc7_stg1_0 : Ref sig .tc := ⟨.vmem, 69, rfl⟩
abbrev cc7_stg2_0 : Ref sig .tc := ⟨.vmem, 70, rfl⟩
abbrev cc7_stg2_1 : Ref sig .tc := ⟨.vmem, 71, rfl⟩
abbrev cc7_stg3_0 : Ref sig .tc := ⟨.vmem, 72, rfl⟩
abbrev cc7_stg3_1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem4_1 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem4_1 : DmaSem sig := 47
abbrev cc4_sem5_0 : DmaSem sig := 48
abbrev cc4_sem5_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem4_1 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem2_1 : DmaSem sig := 64
abbrev cc6_sem3_0 : DmaSem sig := 65
abbrev cc6_sem3_1 : DmaSem sig := 66
abbrev cc7_sem0_0 : DmaSem sig := 67
abbrev cc7_sem0_1 : DmaSem sig := 68
abbrev cc7_sem1_0 : DmaSem sig := 69
abbrev cc7_sem2_0 : DmaSem sig := 70
abbrev cc7_sem2_1 : DmaSem sig := 71
abbrev cc7_sem3_0 : DmaSem sig := 72
abbrev cc7_sem3_1 : DmaSem sig := 73

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![7], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![7], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![7], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![7], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![7], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x4000 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S4000x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1000x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![15], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x3000 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S3000x256 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S1000x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1000x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  concatenates_S20000x64_S15000x64_S35000x64_d0 : Shape.Concatenates [S20000x64, S15000x64] S35000x64 0
  bcast_S_S3x64x64 : S_.BroadcastsInDim S3x64x64 (![] : Fin 0 → Fin S3x64x64.rank)
  concatenates_S3x64x64_S3x64x64_S3x64x128_d2 : Shape.Concatenates [S3x64x64, S3x64x64] S3x64x128 2
  concatenates_S3x64x128_S3x64x128_S3x128x128_d1 : Shape.Concatenates [S3x64x128, S3x64x128] S3x128x128 1
  concatenates_S3x64_S3x64_S3x128_d1 : Shape.Concatenates [S3x64, S3x64] S3x128 1
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S35000x64 : S_.BroadcastsInDim S35000x64 (![] : Fin 0 → Fin S35000x64.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  concatenates_S5000x64_S5000x64_S5000x128_d1 : Shape.Concatenates [S5000x64, S5000x64] S5000x128 1
  broadcasts_S1x128_S5000x128 : S1x128.Broadcasts S5000x128
  slices_S5000x128_o0_0_S5000x64 : S5000x128.Slices ![0, 0] S5000x64
  slices_S5000x128_o0_64_S5000x64 : S5000x128.Slices ![0, 64] S5000x64
  reduces_S5000x64_S5000 : S5000x64.Reduces [1] S5000
  shapeCasts_S5000_S5000x1 : S5000.ShapeCasts S5000x1
  broadcasts_S5000x1_S5000x64 : S5000x1.Broadcasts S5000x64
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S35000x64_S35000x64_S35000x64_S35000x64_S35000x256_d1 : Shape.Concatenates [S35000x64, S35000x64, S35000x64, S35000x64] S35000x256 1
  slices_S35000x256_S20000x256_0_0 : S35000x256.Slices ![0, 0] S20000x256
  slices_S35000x256_S15000x256_20000_0 : S35000x256.Slices ![20000, 0] S15000x256
  concatenates_S4000x64_S3000x64_S7000x64_d0 : Shape.Concatenates [S4000x64, S3000x64] S7000x64 0
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S_S7000x64 : S_.BroadcastsInDim S7000x64 (![] : Fin 0 → Fin S7000x64.rank)
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  concatenates_S1000x64_S1000x64_S1000x128_d1 : Shape.Concatenates [S1000x64, S1000x64] S1000x128 1
  broadcasts_S1x128_S1000x128 : S1x128.Broadcasts S1000x128
  slices_S1000x128_o0_0_S1000x64 : S1000x128.Slices ![0, 0] S1000x64
  slices_S1000x128_o0_64_S1000x64 : S1000x128.Slices ![0, 64] S1000x64
  reduces_S1000x64_S1000 : S1000x64.Reduces [1] S1000
  shapeCasts_S1000_S1000x1 : S1000.ShapeCasts S1000x1
  broadcasts_S1000x1_S1000x64 : S1000x1.Broadcasts S1000x64
  concatenates_S7000x64_S7000x64_S7000x64_S7000x64_S7000x256_d1 : Shape.Concatenates [S7000x64, S7000x64, S7000x64, S7000x64] S7000x256 1
  slices_S7000x256_S4000x256_0_0 : S7000x256.Slices ![0, 0] S4000x256
  slices_S7000x256_S3000x256_4000_0 : S7000x256.Slices ![4000, 0] S3000x256
  bitsLt_bf16_f32 : FTy.bits .bf16 < FTy.bits .f32
  inb_S1000x4000_S1000x4000_0_0 : ∀ a, (![0, 0] : Fin 2 → Nat) a + S1000x4000.size a ≤ S1000x4000.size a
  h_S1000x4000 : 0 < S1000x4000.numel
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S1000x3000_S1000x3000_0_0 : ∀ a, (![0, 0] : Fin 2 → Nat) a + S1000x3000.size a ≤ S1000x3000.size a
  h_S1000x3000 : 0 < S1000x3000.numel
  inb_S3000x256_S3000x256_0_0 : ∀ a, (![0, 0] : Fin 2 → Nat) a + S3000x256.size a ≤ S3000x256.size a
  h_S3000x256 : 0 < S3000x256.numel
  shapeCasts_S3000x256_S3000x256 : S3000x256.ShapeCasts S3000x256
  gather_S35000x64_S1000000x1_S1000000x64_1_0_n_n_0_1_164_wf : GatherDims.WF S35000x64 S1000000x1 S1000000x64 [1] [0] [] [0] [] 1 ![1, 64]
  scatter_S35000x64_S1000000x1_S1000000x64_1_0_0_1_wf : ScatterDims.WF S35000x64 S1000000x1 S1000000x64 [1] [0] [0] 1
  dot_S5000x128_S128x128_S5000x128_1_0_0_1_n_n_wf : DotDims.WF S5000x128 S128x128 S5000x128 [1] [0] [0] [1] [] []
  gather_S7000x64_S200000x1_S200000x64_1_0_n_n_0_1_164_wf : GatherDims.WF S7000x64 S200000x1 S200000x64 [1] [0] [] [0] [] 1 ![1, 64]
  scatter_S7000x64_S200000x1_S200000x64_1_0_0_1_wf : ScatterDims.WF S7000x64 S200000x1 S200000x64 [1] [0] [0] 1
  dot_S1000x128_S128x128_S1000x128_1_0_0_1_n_n_wf : DotDims.WF S1000x128 S128x128 S1000x128 [1] [0] [0] [1] [] []
  dot_S1000x4000_S4000x256_S1000x256_1_0_0_1_n_n_wf : DotDims.WF S1000x4000 S4000x256 S1000x256 [1] [0] [0] [1] [] []
  dot_S1000x3000_S3000x256_S1000x256_1_0_0_1_n_n_wf : DotDims.WF S1000x3000 S3000x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S35000x64.size a
  hwx0_0 : ∀ i : grid0.Coords, EltTy.bits .f32 = 32 ∨ (Rect.block (s := S35000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S35000x64.size a
  hwx0_1 : ∀ i : grid0.Coords, EltTy.bits .f32 = 32 ∨ (Rect.block (s := S35000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S35000x64.size a
  hwx0_4 : ∀ i : grid0.Coords, EltTy.bits .f32 = 32 ∨ (Rect.block (s := S35000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S35000x64.size a
  hwx0_5 : ∀ i : grid0.Coords, EltTy.bits .f32 = 32 ∨ (Rect.block (s := S35000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S35000x64.size a
  hwx1_0 : ∀ i : grid1.Coords, EltTy.bits .f32 = 32 ∨ (Rect.block (s := S35000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S35000x64.size a
  hwx1_1 : ∀ i : grid1.Coords, EltTy.bits .f32 = 32 ∨ (Rect.block (s := S35000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S35000x64.size a
  hwx1_4 : ∀ i : grid1.Coords, EltTy.bits .f32 = 32 ∨ (Rect.block (s := S35000x64) S5000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S35000x64.size a
  hwx1_5 : ∀ i : grid1.Coords, EltTy.bits .f32 = 32 ∨ (Rect.block (s := S35000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S35000x64.size a
  hwx2_0 : ∀ i : grid2.Coords, EltTy.bits .f32 = 32 ∨ (Rect.block (s := S35000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S35000x64.size a
  hwx2_1 : ∀ i : grid2.Coords, EltTy.bits .f32 = 32 ∨ (Rect.block (s := S35000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S35000x64.size a
  hwx2_4 : ∀ i : grid2.Coords, EltTy.bits .f32 = 32 ∨ (Rect.block (s := S35000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S35000x64.size a
  hwx2_5 : ∀ i : grid2.Coords, EltTy.bits .f32 = 32 ∨ (Rect.block (s := S35000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x64.size a ≤ S7000x64.size a
  hwx3_0 : ∀ i : grid3.Coords, EltTy.bits .f32 = 32 ∨ (Rect.block (s := S7000x64) S1000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x64.size a ≤ S7000x64.size a
  hwx3_1 : ∀ i : grid3.Coords, EltTy.bits .f32 = 32 ∨ (Rect.block (s := S7000x64) S1000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x64.size a ≤ S7000x64.size a
  hwx3_4 : ∀ i : grid3.Coords, EltTy.bits .f32 = 32 ∨ (Rect.block (s := S7000x64) S1000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x64.size a ≤ S7000x64.size a
  hwx3_5 : ∀ i : grid3.Coords, EltTy.bits .f32 = 32 ∨ (Rect.block (s := S7000x64) S1000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x64.size a ≤ S7000x64.size a
  hwx4_0 : ∀ i : grid4.Coords, EltTy.bits .f32 = 32 ∨ (Rect.block (s := S7000x64) S1000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x64.size a ≤ S7000x64.size a
  hwx4_1 : ∀ i : grid4.Coords, EltTy.bits .f32 = 32 ∨ (Rect.block (s := S7000x64) S1000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1000x64.size a ≤ S7000x64.size a
  hwx4_4 : ∀ i : grid4.Coords, EltTy.bits .f32 = 32 ∨ (Rect.block (s := S7000x64) S1000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x64.size a ≤ S7000x64.size a
  hwx4_5 : ∀ i : grid4.Coords, EltTy.bits .f32 = 32 ∨ (Rect.block (s := S7000x64) S1000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x64.size a ≤ S7000x64.size a
  hwx5_0 : ∀ i : grid5.Coords, EltTy.bits .f32 = 32 ∨ (Rect.block (s := S7000x64) S1000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x64.size a ≤ S7000x64.size a
  hwx5_1 : ∀ i : grid5.Coords, EltTy.bits .f32 = 32 ∨ (Rect.block (s := S7000x64) S1000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1000x64.size a ≤ S7000x64.size a
  hwx5_4 : ∀ i : grid5.Coords, EltTy.bits .f32 = 32 ∨ (Rect.block (s := S7000x64) S1000x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x64.size a ≤ S7000x64.size a
  hwx5_5 : ∀ i : grid5.Coords, EltTy.bits .f32 = 32 ∨ (Rect.block (s := S7000x64) S1000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x4000.size a ≤ S20000x4000.size a
  hwx6_0 : ∀ i : grid6.Coords, EltTy.bits .f32 = 32 ∨ (Rect.block (s := S20000x4000) S1000x4000.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S4000x256.size a ≤ S4000x256.size a
  hwx6_1 : ∀ i : grid6.Coords, EltTy.bits .bf16 = 32 ∨ (Rect.block (s := S4000x256) S4000x256.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x256.size a ≤ S20000x256.size a
  hwx6_2 : ∀ i : grid6.Coords, EltTy.bits .f32 = 32 ∨ (Rect.block (s := S20000x256) S1000x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1000x256.size a ≤ S20000x256.size a
  hwx6_3 : ∀ i : grid6.Coords, EltTy.bits .f32 = 32 ∨ (Rect.block (s := S20000x256) S1000x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x3000.size a ≤ S15000x3000.size a
  hwx7_0 : ∀ i : grid7.Coords, EltTy.bits .f32 = 32 ∨ (Rect.block (s := S15000x3000) S1000x3000.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S3000x256.size a ≤ S3000x256.size a
  hwx7_1 : ∀ i : grid7.Coords, EltTy.bits .bf16 = 32 ∨ (Rect.block (s := S3000x256) S3000x256.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1000x256.size a ≤ S15000x256.size a
  hwx7_2 : ∀ i : grid7.Coords, EltTy.bits .f32 = 32 ∨ (Rect.block (s := S15000x256) S1000x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1000x256.size a ≤ S15000x256.size a
  hwx7_3 : ∀ i : grid7.Coords, EltTy.bits .f32 = 32 ∨ (Rect.block (s := S15000x256) S1000x256.size (cc7_transform_3 i) (hinb7_3 i)).WholeWords (EltTy.packing .f32)

variable [Facts₀]

def gather_S35000x64_S1000000x1_S1000000x64_1_0_n_n_0_1_164 : GatherDims S35000x64 S1000000x1 S1000000x64 where
  offsetDims := [1]
  collapsedSliceDims := [0]
  operandBatchingDims := []
  startIndicesBatchingDims := []
  startIndexMap := [0]
  indexVectorDim := 1
  sliceSizes := ![1, 64]
  wf := gather_S35000x64_S1000000x1_S1000000x64_1_0_n_n_0_1_164_wf
def scatter_S35000x64_S1000000x1_S1000000x64_1_0_0_1 : ScatterDims S35000x64 S1000000x1 S1000000x64 where
  updateWindowDims := [1]
  insertedWindowDims := [0]
  scatterDimsToOperandDims := [0]
  indexVectorDim := 1
  wf := scatter_S35000x64_S1000000x1_S1000000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S7000x64_S200000x1_S200000x64_1_0_n_n_0_1_164 : GatherDims S7000x64 S200000x1 S200000x64 where
  offsetDims := [1]
  collapsedSliceDims := [0]
  operandBatchingDims := []
  startIndicesBatchingDims := []
  startIndexMap := [0]
  indexVectorDim := 1
  sliceSizes := ![1, 64]
  wf := gather_S7000x64_S200000x1_S200000x64_1_0_n_n_0_1_164_wf
def scatter_S7000x64_S200000x1_S200000x64_1_0_0_1 : ScatterDims S7000x64 S200000x1 S200000x64 where
  updateWindowDims := [1]
  insertedWindowDims := [0]
  scatterDimsToOperandDims := [0]
  indexVectorDim := 1
  wf := scatter_S7000x64_S200000x1_S200000x64_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x4000_S4000x256_S1000x256_1_0_0_1_n_n : DotDims S1000x4000 S4000x256 S1000x256 where
  lhsContracting := [1]
  rhsContracting := [0]
  lhsNonContracting := [0]
  rhsNonContracting := [1]
  lhsBatch := []
  rhsBatch := []
  wf := dot_S1000x4000_S4000x256_S1000x256_1_0_0_1_n_n_wf
def dot_S1000x3000_S3000x256_S1000x256_1_0_0_1_n_n : DotDims S1000x3000 S3000x256 S1000x256 where
  lhsContracting := [1]
  rhsContracting := [0]
  lhsNonContracting := [0]
  rhsNonContracting := [1]
  lhsBatch := []
  rhsBatch := []
  wf := dot_S1000x3000_S3000x256_S1000x256_1_0_0_1_n_n_wf

abbrev win0_0 : Pipeline.Window sig grid0 :=
  Pipeline.Window.ofSpec (Memref.whole main_v18) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24_1) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24_0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43_0) S5000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43_1) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43_0) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v62_1) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v84) S1000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v86) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90_0) S1000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v90_1) S1000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v103) S1000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90_0) S1000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v105) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v108) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v109_0) S1000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v109_1) S1000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v122) S1000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v109_0) S1000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v124) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v127) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v128_0) S1000x64.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v128_1) S1000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_arg12) S1000x4000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v132) S4000x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v64) S1000x256.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v134) S1000x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_arg13) S1000x3000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v133) S3000x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v65) S1000x256.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v135) S1000x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S20000x64 : Shape := ⟨2, ![20000, 64]⟩
abbrev S15000x64 : Shape := ⟨2, ![15000, 64]⟩
abbrev S3x64x64 : Shape := ⟨3, ![3, 64, 64]⟩
abbrev S3x64 : Shape := ⟨2, ![3, 64]⟩
abbrev S4000x64 : Shape := ⟨2, ![4000, 64]⟩
abbrev S3000x64 : Shape := ⟨2, ![3000, 64]⟩
abbrev S20000x4000 : Shape := ⟨2, ![20000, 4000]⟩
abbrev S15000x3000 : Shape := ⟨2, ![15000, 3000]⟩
abbrev S1000000 : Shape := ⟨1, ![1000000]⟩
abbrev S200000 : Shape := ⟨1, ![200000]⟩
abbrev S35000x64 : Shape := ⟨2, ![35000, 64]⟩
abbrev S1000000x1 : Shape := ⟨2, ![1000000, 1]⟩
abbrev S_ : Shape := ⟨0, ![]⟩
abbrev S1000000x64 : Shape := ⟨2, ![1000000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S35000 : Shape := ⟨1, ![35000]⟩
abbrev S35000x1 : Shape := ⟨2, ![35000, 1]⟩
abbrev S35000x256 : Shape := ⟨2, ![35000, 256]⟩
abbrev S20000x256 : Shape := ⟨2, ![20000, 256]⟩
abbrev S15000x256 : Shape := ⟨2, ![15000, 256]⟩
abbrev S7000x64 : Shape := ⟨2, ![7000, 64]⟩
abbrev S200000x1 : Shape := ⟨2, ![200000, 1]⟩
abbrev S200000x64 : Shape := ⟨2, ![200000, 64]⟩
abbrev S7000 : Shape := ⟨1, ![7000]⟩
abbrev S7000x1 : Shape := ⟨2, ![7000, 1]⟩
abbrev S7000x256 : Shape := ⟨2, ![7000, 256]⟩
abbrev S4000x256 : Shape := ⟨2, ![4000, 256]⟩
abbrev S3000x256 : Shape := ⟨2, ![3000, 256]⟩

abbrev nBuf : Space → Nat
  | .hbm => 392
  | .vmem => 0
  | .smem => 0
  | _ => 0

abbrev hbmTy0_0 (i : Nat) : BufTy := match i % 128 with
  | 0 => ⟨S20000x64, .f32⟩
  | 1 => ⟨S15000x64, .f32⟩
  | 2 => ⟨S3x64x64, .f32⟩
  | 3 => ⟨S3x64, .f32⟩
  | 4 => ⟨S3x64x64, .f32⟩
  | 5 => ⟨S3x64, .f32⟩
  | 6 => ⟨S4000x64, .f32⟩
  | 7 => ⟨S3000x64, .f32⟩
  | 8 => ⟨S3x64x64, .f32⟩
  | 9 => ⟨S3x64, .f32⟩
  | 10 => ⟨S3x64x64, .f32⟩
  | 11 => ⟨S3x64, .f32⟩
  | 12 => ⟨S20000x4000, .f32⟩
  | 13 => ⟨S15000x3000, .f32⟩
  | 14 => ⟨S1000000, .f32⟩
  | 15 => ⟨S200000, .f32⟩
  | 16 => ⟨S1000000, .i32⟩
  | 17 => ⟨S1000000, .i32⟩
  | 18 => ⟨S200000, .i32⟩
  | 19 => ⟨S200000, .i32⟩
  | 20 => ⟨S35000x64, .f32⟩
  | 21 => ⟨S1000000x1, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000x64, .f32⟩
  | 31 => ⟨S1000000x64, .f32⟩
  | 32 => ⟨S1000000x64, .f32⟩
  | 33 => ⟨S_, .f32⟩
  | 34 => ⟨S35000x64, .f32⟩
  | 35 => ⟨S1000000x1, .i32⟩
  | 36 => ⟨S35000x64, .f32⟩
  | 37 => ⟨S1x64x64, .f32⟩
  | 38 => ⟨S64x64, .f32⟩
  | 39 => ⟨S35000x64, .f32⟩
  | 40 => ⟨S1x64, .f32⟩
  | 41 => ⟨S64, .f32⟩
  | 42 => ⟨S1x64, .f32⟩
  | 43 => ⟨S35000x64, .f32⟩
  | 44 => ⟨S35000x64, .f32⟩
  | 45 => ⟨S_, .f32⟩
  | 46 => ⟨S_, .f32⟩
  | 47 => ⟨S35000x64, .f32⟩
  | 48 => ⟨S35000x64, .i1⟩
  | 49 => ⟨S_, .f32⟩
  | 50 => ⟨S35000x64, .f32⟩
  | 51 => ⟨S35000x64, .f32⟩
  | 52 => ⟨S35000x64, .f32⟩
  | 53 => ⟨S35000x64, .f32⟩
  | 54 => ⟨S1x64x64, .f32⟩
  | 55 => ⟨S64x64, .f32⟩
  | 56 => ⟨S35000x64, .f32⟩
  | 57 => ⟨S1x64, .f32⟩
  | 58 => ⟨S64, .f32⟩
  | 59 => ⟨S1x64, .f32⟩
  | 60 => ⟨S35000x64, .f32⟩
  | 61 => ⟨S35000x64, .f32⟩
  | 62 => ⟨S_, .f32⟩
  | 63 => ⟨S_, .f32⟩
  | 64 => ⟨S35000x64, .f32⟩
  | 65 => ⟨S35000x64, .i1⟩
  | 66 => ⟨S_, .f32⟩
  | 67 => ⟨S35000x64, .f32⟩
  | 68 => ⟨S35000x64, .f32⟩
  | 69 => ⟨S35000x64, .f32⟩
  | 70 => ⟨S35000x64, .f32⟩
  | 71 => ⟨S35000x64, .f32⟩
  | 72 => ⟨S_, .f32⟩
  | 73 => ⟨S35000, .f32⟩
  | 74 => ⟨S35000x1, .f32⟩
  | 75 => ⟨S35000x1, .f32⟩
  | 76 => ⟨S_, .f32⟩
  | 77 => ⟨S35000x1, .f32⟩
  | 78 => ⟨S35000x1, .f32⟩
  | 79 => ⟨S35000x64, .f32⟩
  | 80 => ⟨S35000x64, .f32⟩
  | 81 => ⟨S1000000x1, .f32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000x64, .f32⟩
  | 91 => ⟨S1000000x64, .f32⟩
  | 92 => ⟨S1000000x64, .f32⟩
  | 93 => ⟨S_, .f32⟩
  | 94 => ⟨S35000x64, .f32⟩
  | 95 => ⟨S1000000x1, .i32⟩
  | 96 => ⟨S35000x64, .f32⟩
  | 97 => ⟨S1x64x64, .f32⟩
  | 98 => ⟨S64x64, .f32⟩
  | 99 => ⟨S35000x64, .f32⟩
  | 100 => ⟨S1x64, .f32⟩
  | 101 => ⟨S64, .f32⟩
  | 102 => ⟨S1x64, .f32⟩
  | 103 => ⟨S35000x64, .f32⟩
  | 104 => ⟨S35000x64, .f32⟩
  | 105 => ⟨S_, .f32⟩
  | 106 => ⟨S_, .f32⟩
  | 107 => ⟨S35000x64, .f32⟩
  | 108 => ⟨S35000x64, .i1⟩
  | 109 => ⟨S_, .f32⟩
  | 110 => ⟨S35000x64, .f32⟩
  | 111 => ⟨S35000x64, .f32⟩
  | 112 => ⟨S35000x64, .f32⟩
  | 113 => ⟨S35000x64, .f32⟩
  | 114 => ⟨S1x64x64, .f32⟩
  | 115 => ⟨S64x64, .f32⟩
  | 116 => ⟨S35000x64, .f32⟩
  | 117 => ⟨S1x64, .f32⟩
  | 118 => ⟨S64, .f32⟩
  | 119 => ⟨S1x64, .f32⟩
  | 120 => ⟨S35000x64, .f32⟩
  | 121 => ⟨S35000x64, .f32⟩
  | 122 => ⟨S_, .f32⟩
  | 123 => ⟨S_, .f32⟩
  | 124 => ⟨S35000x64, .f32⟩
  | 125 => ⟨S35000x64, .i1⟩
  | 126 => ⟨S_, .f32⟩
  | 127 => ⟨S35000x64, .f32⟩
  | _ => ⟨S20000x64, .f32⟩

abbrev hbmTy0_1 (i : Nat) : BufTy := match i % 128 with
  | 0 => ⟨S35000x64, .f32⟩
  | 1 => ⟨S35000x64, .f32⟩
  | 2 => ⟨S35000x64, .f32⟩
  | 3 => ⟨S35000x64, .f32⟩
  | 4 => ⟨S_, .f32⟩
  | 5 => ⟨S35000, .f32⟩
  | 6 => ⟨S35000x1, .f32⟩
  | 7 => ⟨S35000x1, .f32⟩
  | 8 => ⟨S_, .f32⟩
  | 9 => ⟨S35000x1, .f32⟩
  | 10 => ⟨S35000x1, .f32⟩
  | 11 => ⟨S35000x64, .f32⟩
  | 12 => ⟨S35000x64, .f32⟩
  | 13 => ⟨S1000000x1, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x64, .f32⟩
  | 23 => ⟨S1000000x64, .f32⟩
  | 24 => ⟨S1000000x64, .f32⟩
  | 25 => ⟨S_, .f32⟩
  | 26 => ⟨S35000x64, .f32⟩
  | 27 => ⟨S1000000x1, .i32⟩
  | 28 => ⟨S35000x64, .f32⟩
  | 29 => ⟨S1x64x64, .f32⟩
  | 30 => ⟨S64x64, .f32⟩
  | 31 => ⟨S35000x64, .f32⟩
  | 32 => ⟨S1x64, .f32⟩
  | 33 => ⟨S64, .f32⟩
  | 34 => ⟨S1x64, .f32⟩
  | 35 => ⟨S35000x64, .f32⟩
  | 36 => ⟨S35000x64, .f32⟩
  | 37 => ⟨S_, .f32⟩
  | 38 => ⟨S_, .f32⟩
  | 39 => ⟨S35000x64, .f32⟩
  | 40 => ⟨S35000x64, .i1⟩
  | 41 => ⟨S_, .f32⟩
  | 42 => ⟨S35000x64, .f32⟩
  | 43 => ⟨S35000x64, .f32⟩
  | 44 => ⟨S35000x64, .f32⟩
  | 45 => ⟨S35000x64, .f32⟩
  | 46 => ⟨S1x64x64, .f32⟩
  | 47 => ⟨S64x64, .f32⟩
  | 48 => ⟨S35000x64, .f32⟩
  | 49 => ⟨S1x64, .f32⟩
  | 50 => ⟨S64, .f32⟩
  | 51 => ⟨S1x64, .f32⟩
  | 52 => ⟨S35000x64, .f32⟩
  | 53 => ⟨S35000x64, .f32⟩
  | 54 => ⟨S_, .f32⟩
  | 55 => ⟨S_, .f32⟩
  | 56 => ⟨S35000x64, .f32⟩
  | 57 => ⟨S35000x64, .i1⟩
  | 58 => ⟨S_, .f32⟩
  | 59 => ⟨S35000x64, .f32⟩
  | 60 => ⟨S35000x64, .f32⟩
  | 61 => ⟨S35000x64, .f32⟩
  | 62 => ⟨S35000x64, .f32⟩
  | 63 => ⟨S35000x64, .f32⟩
  | 64 => ⟨S_, .f32⟩
  | 65 => ⟨S35000, .f32⟩
  | 66 => ⟨S35000x1, .f32⟩
  | 67 => ⟨S35000x1, .f32⟩
  | 68 => ⟨S_, .f32⟩
  | 69 => ⟨S35000x1, .f32⟩
  | 70 => ⟨S35000x1, .f32⟩
  | 71 => ⟨S35000x64, .f32⟩
  | 72 => ⟨S35000x64, .f32⟩
  | 73 => ⟨S35000x256, .f32⟩
  | 74 => ⟨S20000x256, .f32⟩
  | 75 => ⟨S15000x256, .f32⟩
  | 76 => ⟨S7000x64, .f32⟩
  | 77 => ⟨S200000x1, .f32⟩
  | 78 => ⟨S_, .i32⟩
  | 79 => ⟨S200000, .i32⟩
  | 80 => ⟨S200000, .i1⟩
  | 81 => ⟨S_, .i32⟩
  | 82 => ⟨S200000, .i32⟩
  | 83 => ⟨S200000, .i32⟩
  | 84 => ⟨S200000, .i32⟩
  | 85 => ⟨S200000x1, .i32⟩
  | 86 => ⟨S200000x64, .f32⟩
  | 87 => ⟨S200000x64, .f32⟩
  | 88 => ⟨S200000x64, .f32⟩
  | 89 => ⟨S_, .f32⟩
  | 90 => ⟨S7000x64, .f32⟩
  | 91 => ⟨S200000x1, .i32⟩
  | 92 => ⟨S7000x64, .f32⟩
  | 93 => ⟨S1x64x64, .f32⟩
  | 94 => ⟨S64x64, .f32⟩
  | 95 => ⟨S7000x64, .f32⟩
  | 96 => ⟨S1x64, .f32⟩
  | 97 => ⟨S64, .f32⟩
  | 98 => ⟨S1x64, .f32⟩
  | 99 => ⟨S7000x64, .f32⟩
  | 100 => ⟨S7000x64, .f32⟩
  | 101 => ⟨S_, .f32⟩
  | 102 => ⟨S_, .f32⟩
  | 103 => ⟨S7000x64, .f32⟩
  | 104 => ⟨S7000x64, .i1⟩
  | 105 => ⟨S_, .f32⟩
  | 106 => ⟨S7000x64, .f32⟩
  | 107 => ⟨S7000x64, .f32⟩
  | 108 => ⟨S7000x64, .f32⟩
  | 109 => ⟨S7000x64, .f32⟩
  | 110 => ⟨S1x64x64, .f32⟩
  | 111 => ⟨S64x64, .f32⟩
  | 112 => ⟨S7000x64, .f32⟩
  | 113 => ⟨S1x64, .f32⟩
  | 114 => ⟨S64, .f32⟩
  | 115 => ⟨S1x64, .f32⟩
  | 116 => ⟨S7000x64, .f32⟩
  | 117 => ⟨S7000x64, .f32⟩
  | 118 => ⟨S_, .f32⟩
  | 119 => ⟨S_, .f32⟩
  | 120 => ⟨S7000x64, .f32⟩
  | 121 => ⟨S7000x64, .i1⟩
  | 122 => ⟨S_, .f32⟩
  | 123 => ⟨S7000x64, .f32⟩
  | 124 => ⟨S7000x64, .f32⟩
  | 125 => ⟨S7000x64, .f32⟩
  | 126 => ⟨S7000x64, .f32⟩
  | 127 => ⟨S7000x64, .f32⟩
  | _ => ⟨S20000x64, .f32⟩

abbrev hbmTy0_2 (i : Nat) : BufTy := match i % 128 with
  | 0 => ⟨S_, .f32⟩
  | 1 => ⟨S7000, .f32⟩
  | 2 => ⟨S7000x1, .f32⟩
  | 3 => ⟨S7000x1, .f32⟩
  | 4 => ⟨S_, .f32⟩
  | 5 => ⟨S7000x1, .f32⟩
  | 6 => ⟨S7000x1, .f32⟩
  | 7 => ⟨S7000x64, .f32⟩
  | 8 => ⟨S7000x64, .f32⟩
  | 9 => ⟨S200000x1, .f32⟩
  | 10 => ⟨S_, .i32⟩
  | 11 => ⟨S200000, .i32⟩
  | 12 => ⟨S200000, .i1⟩
  | 13 => ⟨S_, .i32⟩
  | 14 => ⟨S200000, .i32⟩
  | 15 => ⟨S200000, .i32⟩
  | 16 => ⟨S200000, .i32⟩
  | 17 => ⟨S200000x1, .i32⟩
  | 18 => ⟨S200000x64, .f32⟩
  | 19 => ⟨S200000x64, .f32⟩
  | 20 => ⟨S200000x64, .f32⟩
  | 21 => ⟨S_, .f32⟩
  | 22 => ⟨S7000x64, .f32⟩
  | 23 => ⟨S200000x1, .i32⟩
  | 24 => ⟨S7000x64, .f32⟩
  | 25 => ⟨S1x64x64, .f32⟩
  | 26 => ⟨S64x64, .f32⟩
  | 27 => ⟨S7000x64, .f32⟩
  | 28 => ⟨S1x64, .f32⟩
  | 29 => ⟨S64, .f32⟩
  | 30 => ⟨S1x64, .f32⟩
  | 31 => ⟨S7000x64, .f32⟩
  | 32 => ⟨S7000x64, .f32⟩
  | 33 => ⟨S_, .f32⟩
  | 34 => ⟨S_, .f32⟩
  | 35 => ⟨S7000x64, .f32⟩
  | 36 => ⟨S7000x64, .i1⟩
  | 37 => ⟨S_, .f32⟩
  | 38 => ⟨S7000x64, .f32⟩
  | 39 => ⟨S7000x64, .f32⟩
  | 40 => ⟨S7000x64, .f32⟩
  | 41 => ⟨S7000x64, .f32⟩
  | 42 => ⟨S1x64x64, .f32⟩
  | 43 => ⟨S64x64, .f32⟩
  | 44 => ⟨S7000x64, .f32⟩
  | 45 => ⟨S1x64, .f32⟩
  | 46 => ⟨S64, .f32⟩
  | 47 => ⟨S1x64, .f32⟩
  | 48 => ⟨S7000x64, .f32⟩
  | 49 => ⟨S7000x64, .f32⟩
  | 50 => ⟨S_, .f32⟩
  | 51 => ⟨S_, .f32⟩
  | 52 => ⟨S7000x64, .f32⟩
  | 53 => ⟨S7000x64, .i1⟩
  | 54 => ⟨S_, .f32⟩
  | 55 => ⟨S7000x64, .f32⟩
  | 56 => ⟨S7000x64, .f32⟩
  | 57 => ⟨S7000x64, .f32⟩
  | 58 => ⟨S7000x64, .f32⟩
  | 59 => ⟨S7000x64, .f32⟩
  | 60 => ⟨S_, .f32⟩
  | 61 => ⟨S7000, .f32⟩
  | 62 => ⟨S7000x1, .f32⟩
  | 63 => ⟨S7000x1, .f32⟩
  | 64 => ⟨S_, .f32⟩
  | 65 => ⟨S7000x1, .f32⟩
  | 66 => ⟨S7000x1, .f32⟩
  | 67 => ⟨S7000x64, .f32⟩
  | 68 => ⟨S7000x64, .f32⟩
  | 69 => ⟨S200000x1, .f32⟩
  | 70 => ⟨S_, .i32⟩
  | 71 => ⟨S200000, .i32⟩
  | 72 => ⟨S200000, .i1⟩
  | 73 => ⟨S_, .i32⟩
  | 74 => ⟨S200000, .i32⟩
  | 75 => ⟨S200000, .i32⟩
  | 76 => ⟨S200000, .i32⟩
  | 77 => ⟨S200000x1, .i32⟩
  | 78 => ⟨S200000x64, .f32⟩
  | 79 => ⟨S200000x64, .f32⟩
  | 80 => ⟨S200000x64, .f32⟩
  | 81 => ⟨S_, .f32⟩
  | 82 => ⟨S7000x64, .f32⟩
  | 83 => ⟨S200000x1, .i32⟩
  | 84 => ⟨S7000x64, .f32⟩
  | 85 => ⟨S1x64x64, .f32⟩
  | 86 => ⟨S64x64, .f32⟩
  | 87 => ⟨S7000x64, .f32⟩
  | 88 => ⟨S1x64, .f32⟩
  | 89 => ⟨S64, .f32⟩
  | 90 => ⟨S1x64, .f32⟩
  | 91 => ⟨S7000x64, .f32⟩
  | 92 => ⟨S7000x64, .f32⟩
  | 93 => ⟨S_, .f32⟩
  | 94 => ⟨S_, .f32⟩
  | 95 => ⟨S7000x64, .f32⟩
  | 96 => ⟨S7000x64, .i1⟩
  | 97 => ⟨S_, .f32⟩
  | 98 => ⟨S7000x64, .f32⟩
  | 99 => ⟨S7000x64, .f32⟩
  | 100 => ⟨S7000x64, .f32⟩
  | 101 => ⟨S7000x64, .f32⟩
  | 102 => ⟨S1x64x64, .f32⟩
  | 103 => ⟨S64x64, .f32⟩
  | 104 => ⟨S7000x64, .f32⟩
  | 105 => ⟨S1x64, .f32⟩
  | 106 => ⟨S64, .f32⟩
  | 107 => ⟨S1x64, .f32⟩
  | 108 => ⟨S7000x64, .f32⟩
  | 109 => ⟨S7000x64, .f32⟩
  | 110 => ⟨S_, .f32⟩
  | 111 => ⟨S_, .f32⟩
  | 112 => ⟨S7000x64, .f32⟩
  | 113 => ⟨S7000x64, .i1⟩
  | 114 => ⟨S_, .f32⟩
  | 115 => ⟨S7000x64, .f32⟩
  | 116 => ⟨S7000x64, .f32⟩
  | 117 => ⟨S7000x64, .f32⟩
  | 118 => ⟨S7000x64, .f32⟩
  | 119 => ⟨S7000x64, .f32⟩
  | 120 => ⟨S_, .f32⟩
  | 121 => ⟨S7000, .f32⟩
  | 122 => ⟨S7000x1, .f32⟩
  | 123 => ⟨S7000x1, .f32⟩
  | 124 => ⟨S_, .f32⟩
  | 125 => ⟨S7000x1, .f32⟩
  | 126 => ⟨S7000x1, .f32⟩
  | 127 => ⟨S7000x64, .f32⟩
  | _ => ⟨S20000x64, .f32⟩

abbrev hbmTy0_3 (i : Nat) : BufTy := match i % 128 with
  | 0 => ⟨S7000x64, .f32⟩
  | 1 => ⟨S7000x256, .f32⟩
  | 2 => ⟨S4000x256, .f32⟩
  | 3 => ⟨S3000x256, .f32⟩
  | 4 => ⟨S20000x256, .f32⟩
  | 5 => ⟨S20000x256, .f32⟩
  | 6 => ⟨S15000x256, .f32⟩
  | 7 => ⟨S15000x256, .f32⟩
  | _ => ⟨S20000x64, .f32⟩

abbrev hbmTy (i : Nat) : BufTy := match i / 128 with
  | 0 => hbmTy0_0 i
  | 1 => hbmTy0_1 i
  | 2 => hbmTy0_2 i
  | 3 => hbmTy0_3 i
  | _ => ⟨S20000x64, .f32⟩

abbrev bufTy : (tb : Table) → Fin (tcTables nBuf tb) → BufTy
  | .hbm, ⟨i, _⟩ => hbmTy i
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_c : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_1 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_2 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v32 : Ref sig .tc := ⟨.hbm, 69, rfl⟩
abbrev main_v33 : Ref sig .tc := ⟨.hbm, 70, rfl⟩
abbrev main_call2_v0 : Ref sig .tc := ⟨.hbm, 71, rfl⟩
abbrev main_call2_cst : Ref sig .tc := ⟨.hbm, 72, rfl⟩
abbrev main_call2_v1 : Ref sig .tc := ⟨.hbm, 73, rfl⟩
abbrev main_call2_v2 : Ref sig .tc := ⟨.hbm, 74, rfl⟩
abbrev main_v34 : Ref sig .tc := ⟨.hbm, 75, rfl⟩
abbrev main_cst_3 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_c_4 : Ref sig .tc := ⟨.hbm, 82, rfl⟩
abbrev main_v40 : Ref sig .tc := ⟨.hbm, 83, rfl⟩
abbrev main_v41 : Ref sig .tc := ⟨.hbm, 84, rfl⟩
abbrev main_c_5 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_6 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_7 : Ref sig .tc := ⟨.hbm, 105, rfl⟩
abbrev main_call3_cst : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_cst_8 : Ref sig .tc := ⟨.hbm, 122, rfl⟩
abbrev main_call4_cst : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_v70 : Ref sig .tc := ⟨.hbm, 129, rfl⟩
abbrev main_v71 : Ref sig .tc := ⟨.hbm, 130, rfl⟩
abbrev main_call5_v0 : Ref sig .tc := ⟨.hbm, 131, rfl⟩
abbrev main_call5_cst : Ref sig .tc := ⟨.hbm, 132, rfl⟩
abbrev main_call5_v1 : Ref sig .tc := ⟨.hbm, 133, rfl⟩
abbrev main_call5_v2 : Ref sig .tc := ⟨.hbm, 134, rfl⟩
abbrev main_v72 : Ref sig .tc := ⟨.hbm, 135, rfl⟩
abbrev main_cst_9 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_c_10 : Ref sig .tc := ⟨.hbm, 142, rfl⟩
abbrev main_v78 : Ref sig .tc := ⟨.hbm, 143, rfl⟩
abbrev main_v79 : Ref sig .tc := ⟨.hbm, 144, rfl⟩
abbrev main_c_11 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_cst_12 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_cst_13 : Ref sig .tc := ⟨.hbm, 165, rfl⟩
abbrev main_call6_cst : Ref sig .tc := ⟨.hbm, 166, rfl⟩
abbrev main_call6_v0 : Ref sig .tc := ⟨.hbm, 167, rfl⟩
abbrev main_call6_v1 : Ref sig .tc := ⟨.hbm, 168, rfl⟩
abbrev main_call6_v2 : Ref sig .tc := ⟨.hbm, 169, rfl⟩
abbrev main_call6_v3 : Ref sig .tc := ⟨.hbm, 170, rfl⟩
abbrev main_call6_v4 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_cst_14 : Ref sig .tc := ⟨.hbm, 182, rfl⟩
abbrev main_call7_cst : Ref sig .tc := ⟨.hbm, 183, rfl⟩
abbrev main_call7_v0 : Ref sig .tc := ⟨.hbm, 184, rfl⟩
abbrev main_call7_v1 : Ref sig .tc := ⟨.hbm, 185, rfl⟩
abbrev main_call7_v2 : Ref sig .tc := ⟨.hbm, 186, rfl⟩
abbrev main_call7_v3 : Ref sig .tc := ⟨.hbm, 187, rfl⟩
abbrev main_call7_v4 : Ref sig .tc := ⟨.hbm, 188, rfl⟩
abbrev main_v108 : Ref sig .tc := ⟨.hbm, 189, rfl⟩
abbrev main_v109 : Ref sig .tc := ⟨.hbm, 190, rfl⟩
abbrev main_call8_v0 : Ref sig .tc := ⟨.hbm, 191, rfl⟩
abbrev main_call8_cst : Ref sig .tc := ⟨.hbm, 192, rfl⟩
abbrev main_call8_v1 : Ref sig .tc := ⟨.hbm, 193, rfl⟩
abbrev main_call8_v2 : Ref sig .tc := ⟨.hbm, 194, rfl⟩
abbrev main_v110 : Ref sig .tc := ⟨.hbm, 195, rfl⟩
abbrev main_cst_15 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_c_16 : Ref sig .tc := ⟨.hbm, 206, rfl⟩
abbrev main_v120 : Ref sig .tc := ⟨.hbm, 207, rfl⟩
abbrev main_v121 : Ref sig .tc := ⟨.hbm, 208, rfl⟩
abbrev main_c_17 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_cst_18 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_cst_19 : Ref sig .tc := ⟨.hbm, 229, rfl⟩
abbrev main_call9_cst : Ref sig .tc := ⟨.hbm, 230, rfl⟩
abbrev main_call9_v0 : Ref sig .tc := ⟨.hbm, 231, rfl⟩
abbrev main_call9_v1 : Ref sig .tc := ⟨.hbm, 232, rfl⟩
abbrev main_call9_v2 : Ref sig .tc := ⟨.hbm, 233, rfl⟩
abbrev main_call9_v3 : Ref sig .tc := ⟨.hbm, 234, rfl⟩
abbrev main_call9_v4 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_cst_20 : Ref sig .tc := ⟨.hbm, 246, rfl⟩
abbrev main_call10_cst : Ref sig .tc := ⟨.hbm, 247, rfl⟩
abbrev main_call10_v0 : Ref sig .tc := ⟨.hbm, 248, rfl⟩
abbrev main_call10_v1 : Ref sig .tc := ⟨.hbm, 249, rfl⟩
abbrev main_call10_v2 : Ref sig .tc := ⟨.hbm, 250, rfl⟩
abbrev main_call10_v3 : Ref sig .tc := ⟨.hbm, 251, rfl⟩
abbrev main_call10_v4 : Ref sig .tc := ⟨.hbm, 252, rfl⟩
abbrev main_v150 : Ref sig .tc := ⟨.hbm, 253, rfl⟩
abbrev main_v151 : Ref sig .tc := ⟨.hbm, 254, rfl⟩
abbrev main_call11_v0 : Ref sig .tc := ⟨.hbm, 255, rfl⟩
abbrev main_call11_cst : Ref sig .tc := ⟨.hbm, 256, rfl⟩
abbrev main_call11_v1 : Ref sig .tc := ⟨.hbm, 257, rfl⟩
abbrev main_call11_v2 : Ref sig .tc := ⟨.hbm, 258, rfl⟩
abbrev main_v152 : Ref sig .tc := ⟨.hbm, 259, rfl⟩
abbrev main_cst_21 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_v156 : Ref sig .tc := ⟨.hbm, 264, rfl⟩
abbrev main_v157 : Ref sig .tc := ⟨.hbm, 265, rfl⟩
abbrev main_c_22 : Ref sig .tc := ⟨.hbm, 266, rfl⟩
abbrev main_v158 : Ref sig .tc := ⟨.hbm, 267, rfl⟩
abbrev main_v159 : Ref sig .tc := ⟨.hbm, 268, rfl⟩
abbrev main_c_23 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_cst_24 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_cst_25 : Ref sig .tc := ⟨.hbm, 289, rfl⟩
abbrev main_call12_cst : Ref sig .tc := ⟨.hbm, 290, rfl⟩
abbrev main_call12_v0 : Ref sig .tc := ⟨.hbm, 291, rfl⟩
abbrev main_call12_v1 : Ref sig .tc := ⟨.hbm, 292, rfl⟩
abbrev main_call12_v2 : Ref sig .tc := ⟨.hbm, 293, rfl⟩
abbrev main_call12_v3 : Ref sig .tc := ⟨.hbm, 294, rfl⟩
abbrev main_call12_v4 : Ref sig .tc := ⟨.hbm, 295, rfl⟩
abbrev main_v178 : Ref sig .tc := ⟨.hbm, 296, rfl⟩
abbrev main_v179 : Ref sig .tc := ⟨.hbm, 297, rfl⟩
abbrev main_v180 : Ref sig .tc := ⟨.hbm, 298, rfl⟩
abbrev main_v181 : Ref sig .tc := ⟨.hbm, 299, rfl⟩
abbrev main_v182 : Ref sig .tc := ⟨.hbm, 300, rfl⟩
abbrev main_v183 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_v187 : Ref sig .tc := ⟨.hbm, 305, rfl⟩
abbrev main_cst_26 : Ref sig .tc := ⟨.hbm, 306, rfl⟩
abbrev main_call13_cst : Ref sig .tc := ⟨.hbm, 307, rfl⟩
abbrev main_call13_v0 : Ref sig .tc := ⟨.hbm, 308, rfl⟩
abbrev main_call13_v1 : Ref sig .tc := ⟨.hbm, 309, rfl⟩
abbrev main_call13_v2 : Ref sig .tc := ⟨.hbm, 310, rfl⟩
abbrev main_call13_v3 : Ref sig .tc := ⟨.hbm, 311, rfl⟩
abbrev main_call13_v4 : Ref sig .tc := ⟨.hbm, 312, rfl⟩
abbrev main_v188 : Ref sig .tc := ⟨.hbm, 313, rfl⟩
abbrev main_v189 : Ref sig .tc := ⟨.hbm, 314, rfl⟩
abbrev main_call14_v0 : Ref sig .tc := ⟨.hbm, 315, rfl⟩
abbrev main_call14_cst : Ref sig .tc := ⟨.hbm, 316, rfl⟩
abbrev main_call14_v1 : Ref sig .tc := ⟨.hbm, 317, rfl⟩
abbrev main_call14_v2 : Ref sig .tc := ⟨.hbm, 318, rfl⟩
abbrev main_v190 : Ref sig .tc := ⟨.hbm, 319, rfl⟩
abbrev main_cst_27 : Ref sig .tc := ⟨.hbm, 320, rfl⟩
abbrev main_v191 : Ref sig .tc := ⟨.hbm, 321, rfl⟩
abbrev main_v192 : Ref sig .tc := ⟨.hbm, 322, rfl⟩
abbrev main_v193 : Ref sig .tc := ⟨.hbm, 323, rfl⟩
abbrev main_v194 : Ref sig .tc := ⟨.hbm, 324, rfl⟩
abbrev main_v195 : Ref sig .tc := ⟨.hbm, 325, rfl⟩
abbrev main_c_28 : Ref sig .tc := ⟨.hbm, 326, rfl⟩
abbrev main_v196 : Ref sig .tc := ⟨.hbm, 327, rfl⟩
abbrev main_v197 : Ref sig .tc := ⟨.hbm, 328, rfl⟩
abbrev main_c_29 : Ref sig .tc := ⟨.hbm, 329, rfl⟩
abbrev main_v198 : Ref sig .tc := ⟨.hbm, 330, rfl⟩
abbrev main_v199 : Ref sig .tc := ⟨.hbm, 331, rfl⟩
abbrev main_v200 : Ref sig .tc := ⟨.hbm, 332, rfl⟩
abbrev main_v201 : Ref sig .tc := ⟨.hbm, 333, rfl⟩
abbrev main_v202 : Ref sig .tc := ⟨.hbm, 334, rfl⟩
abbrev main_v203 : Ref sig .tc := ⟨.hbm, 335, rfl⟩
abbrev main_v204 : Ref sig .tc := ⟨.hbm, 336, rfl⟩
abbrev main_cst_30 : Ref sig .tc := ⟨.hbm, 337, rfl⟩
abbrev main_v205 : Ref sig .tc := ⟨.hbm, 338, rfl⟩
abbrev main_v206 : Ref sig .tc := ⟨.hbm, 339, rfl⟩
abbrev main_v207 : Ref sig .tc := ⟨.hbm, 340, rfl⟩
abbrev main_v208 : Ref sig .tc := ⟨.hbm, 341, rfl⟩
abbrev main_v209 : Ref sig .tc := ⟨.hbm, 342, rfl⟩
abbrev main_v210 : Ref sig .tc := ⟨.hbm, 343, rfl⟩
abbrev main_v211 : Ref sig .tc := ⟨.hbm, 344, rfl⟩
abbrev main_v212 : Ref sig .tc := ⟨.hbm, 345, rfl⟩
abbrev main_v213 : Ref sig .tc := ⟨.hbm, 346, rfl⟩
abbrev main_v214 : Ref sig .tc := ⟨.hbm, 347, rfl⟩
abbrev main_v215 : Ref sig .tc := ⟨.hbm, 348, rfl⟩
abbrev main_cst_31 : Ref sig .tc := ⟨.hbm, 349, rfl⟩
abbrev main_call15_cst : Ref sig .tc := ⟨.hbm, 350, rfl⟩
abbrev main_call15_v0 : Ref sig .tc := ⟨.hbm, 351, rfl⟩
abbrev main_call15_v1 : Ref sig .tc := ⟨.hbm, 352, rfl⟩
abbrev main_call15_v2 : Ref sig .tc := ⟨.hbm, 353, rfl⟩
abbrev main_call15_v3 : Ref sig .tc := ⟨.hbm, 354, rfl⟩
abbrev main_call15_v4 : Ref sig .tc := ⟨.hbm, 355, rfl⟩
abbrev main_v216 : Ref sig .tc := ⟨.hbm, 356, rfl⟩
abbrev main_v217 : Ref sig .tc := ⟨.hbm, 357, rfl⟩
abbrev main_v218 : Ref sig .tc := ⟨.hbm, 358, rfl⟩
abbrev main_v219 : Ref sig .tc := ⟨.hbm, 359, rfl⟩
abbrev main_v220 : Ref sig .tc := ⟨.hbm, 360, rfl⟩
abbrev main_v221 : Ref sig .tc := ⟨.hbm, 361, rfl⟩
abbrev main_v222 : Ref sig .tc := ⟨.hbm, 362, rfl⟩
abbrev main_v223 : Ref sig .tc := ⟨.hbm, 363, rfl⟩
abbrev main_v224 : Ref sig .tc := ⟨.hbm, 364, rfl⟩
abbrev main_v225 : Ref sig .tc := ⟨.hbm, 365, rfl⟩
abbrev main_cst_32 : Ref sig .tc := ⟨.hbm, 366, rfl⟩
abbrev main_call16_cst : Ref sig .tc := ⟨.hbm, 367, rfl⟩
abbrev main_call16_v0 : Ref sig .tc := ⟨.hbm, 368, rfl⟩
abbrev main_call16_v1 : Ref sig .tc := ⟨.hbm, 369, rfl⟩
abbrev main_call16_v2 : Ref sig .tc := ⟨.hbm, 370, rfl⟩
abbrev main_call16_v3 : Ref sig .tc := ⟨.hbm, 371, rfl⟩
abbrev main_call16_v4 : Ref sig .tc := ⟨.hbm, 372, rfl⟩
abbrev main_v226 : Ref sig .tc := ⟨.hbm, 373, rfl⟩
abbrev main_v227 : Ref sig .tc := ⟨.hbm, 374, rfl⟩
abbrev main_call17_v0 : Ref sig .tc := ⟨.hbm, 375, rfl⟩
abbrev main_call17_cst : Ref sig .tc := ⟨.hbm, 376, rfl⟩
abbrev main_call17_v1 : Ref sig .tc := ⟨.hbm, 377, rfl⟩
abbrev main_call17_v2 : Ref sig .tc := ⟨.hbm, 378, rfl⟩
abbrev main_v228 : Ref sig .tc := ⟨.hbm, 379, rfl⟩
abbrev main_cst_33 : Ref sig .tc := ⟨.hbm, 380, rfl⟩
abbrev main_v229 : Ref sig .tc := ⟨.hbm, 381, rfl⟩
abbrev main_v230 : Ref sig .tc := ⟨.hbm, 382, rfl⟩
abbrev main_v231 : Ref sig .tc := ⟨.hbm, 383, rfl⟩
abbrev main_v232 : Ref sig .tc := ⟨.hbm, 384, rfl⟩
abbrev main_v233 : Ref sig .tc := ⟨.hbm, 385, rfl⟩
abbrev main_v234 : Ref sig .tc := ⟨.hbm, 386, rfl⟩
abbrev main_v235 : Ref sig .tc := ⟨.hbm, 387, rfl⟩
abbrev main_v236 : Ref sig .tc := ⟨.hbm, 388, rfl⟩
abbrev main_v237 : Ref sig .tc := ⟨.hbm, 389, rfl⟩
abbrev main_v238 : Ref sig .tc := ⟨.hbm, 390, rfl⟩
abbrev main_v239 : Ref sig .tc := ⟨.hbm, 391, rfl⟩

abbrev nD : Nat := 1
abbrev τ : Topo := Topo.v7x

variable {F : FTy → Type} [FloatOps F]

class Facts₀ : Prop where
  concatenates_S20000x64_S15000x64_S35000x64_d0 : Shape.Concatenates [S20000x64, S15000x64] S35000x64 0
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S35000x64 : S_.BroadcastsInDim S35000x64 (![] : Fin 0 → Fin S35000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S35000x64_0_1 : S1x64.BroadcastsInDim S35000x64 (![0, 1] : Fin 2 → Fin S35000x64.rank)
  reducesTo_S35000x64_S35000_d1 : S35000x64.ReducesTo [1] S35000
  h_S_ : 0 < S_.numel
  bcast_S35000_S35000x1_0 : S35000.BroadcastsInDim S35000x1 (![0] : Fin 1 → Fin S35000x1.rank)
  bcast_S_S35000x1 : S_.BroadcastsInDim S35000x1 (![] : Fin 0 → Fin S35000x1.rank)
  bcast_S35000x1_S35000x64_0_1 : S35000x1.BroadcastsInDim S35000x64 (![0, 1] : Fin 2 → Fin S35000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S35000x64_S35000x64_S35000x64_S35000x64_S35000x256_d1 : Shape.Concatenates [S35000x64, S35000x64, S35000x64, S35000x64] S35000x256 1
  slices_S35000x256_S20000x256_0_0 : S35000x256.Slices ![0, 0] S20000x256
  slices_S35000x256_S15000x256_20000_0 : S35000x256.Slices ![20000, 0] S15000x256
  concatenates_S4000x64_S3000x64_S7000x64_d0 : Shape.Concatenates [S4000x64, S3000x64] S7000x64 0
  bcast_S200000_S200000x1_0 : S200000.BroadcastsInDim S200000x1 (![0] : Fin 1 → Fin S200000x1.rank)
  bcast_S_S200000 : S_.BroadcastsInDim S200000 (![] : Fin 0 → Fin S200000.rank)
  bcast_S200000x1_S200000x64_0_1 : S200000x1.BroadcastsInDim S200000x64 (![0, 1] : Fin 2 → Fin S200000x64.rank)
  bcast_S_S7000x64 : S_.BroadcastsInDim S7000x64 (![] : Fin 0 → Fin S7000x64.rank)
  bcast_S1x64_S7000x64_0_1 : S1x64.BroadcastsInDim S7000x64 (![0, 1] : Fin 2 → Fin S7000x64.rank)
  reducesTo_S7000x64_S7000_d1 : S7000x64.ReducesTo [1] S7000
  bcast_S7000_S7000x1_0 : S7000.BroadcastsInDim S7000x1 (![0] : Fin 1 → Fin S7000x1.rank)
  bcast_S_S7000x1 : S_.BroadcastsInDim S7000x1 (![] : Fin 0 → Fin S7000x1.rank)
  bcast_S7000x1_S7000x64_0_1 : S7000x1.BroadcastsInDim S7000x64 (![0, 1] : Fin 2 → Fin S7000x64.rank)
  concatenates_S7000x64_S7000x64_S7000x64_S7000x64_S7000x256_d1 : Shape.Concatenates [S7000x64, S7000x64, S7000x64, S7000x64] S7000x256 1
  slices_S7000x256_S4000x256_0_0 : S7000x256.Slices ![0, 0] S4000x256
  slices_S7000x256_S3000x256_4000_0 : S7000x256.Slices ![4000, 0] S3000x256
  gather_S35000x64_S1000000x1_S1000000x64_1_0_n_n_0_1_164_wf : GatherDims.WF S35000x64 S1000000x1 S1000000x64 [1] [0] [] [0] [] 1 ![1, 64]
  scatter_S35000x64_S1000000x1_S1000000x64_1_0_0_1_wf : ScatterDims.WF S35000x64 S1000000x1 S1000000x64 [1] [0] [0] 1
  dot_S35000x64_S64x64_S35000x64_1_0_0_1_n_n_wf : DotDims.WF S35000x64 S64x64 S35000x64 [1] [0] [0] [1] [] []
  gather_S7000x64_S200000x1_S200000x64_1_0_n_n_0_1_164_wf : GatherDims.WF S7000x64 S200000x1 S200000x64 [1] [0] [] [0] [] 1 ![1, 64]
  scatter_S7000x64_S200000x1_S200000x64_1_0_0_1_wf : ScatterDims.WF S7000x64 S200000x1 S200000x64 [1] [0] [0] 1
  dot_S7000x64_S64x64_S7000x64_1_0_0_1_n_n_wf : DotDims.WF S7000x64 S64x64 S7000x64 [1] [0] [0] [1] [] []
  dot_S20000x4000_S4000x256_S20000x256_1_0_0_1_n_n_wf : DotDims.WF S20000x4000 S4000x256 S20000x256 [1] [0] [0] [1] [] []
  dot_S15000x3000_S3000x256_S15000x256_1_0_0_1_n_n_wf : DotDims.WF S15000x3000 S3000x256 S15000x256 [1] [0] [0] [1] [] []

variable [Facts₀]

def gather_S35000x64_S1000000x1_S1000000x64_1_0_n_n_0_1_164 : GatherDims S35000x64 S1000000x1 S1000000x64 where
  offsetDims := [1]
  collapsedSliceDims := [0]
  operandBatchingDims := []
  startIndicesBatchingDims := []
  startIndexMap := [0]
  indexVectorDim := 1
  sliceSizes := ![1, 64]
  wf := gather_S35000x64_S1000000x1_S1000000x64_1_0_n_n_0_1_164_wf
def scatter_S35000x64_S1000000x1_S1000000x64_1_0_0_1 : ScatterDims S35000x64 S1000000x1 S1000000x64 where
  updateWindowDims := [1]
  insertedWindowDims := [0]
  scatterDimsToOperandDims := [0]
  indexVectorDim := 1
  wf := scatter_S35000x64_S1000000x1_S1000000x64_1_0_0_1_wf
def dot_S35000x64_S64x64_S35000x64_1_0_0_1_n_n : DotDims S35000x64 S64x64 S35000x64 where
  lhsContracting := [1]
  rhsContracting := [0]
  lhsNonContracting := [0]
  rhsNonContracting := [1]
  lhsBatch := []
  rhsBatch := []
  wf := dot_S35000x64_S64x64_S35000x64_1_0_0_1_n_n_wf
def gather_S7000x64_S200000x1_S200000x64_1_0_n_n_0_1_164 : GatherDims S7000x64 S200000x1 S200000x64 where
  offsetDims := [1]
  collapsedSliceDims := [0]
  operandBatchingDims := []
  startIndicesBatchingDims := []
  startIndexMap := [0]
  indexVectorDim := 1
  sliceSizes := ![1, 64]
  wf := gather_S7000x64_S200000x1_S200000x64_1_0_n_n_0_1_164_wf
def scatter_S7000x64_S200000x1_S200000x64_1_0_0_1 : ScatterDims S7000x64 S200000x1 S200000x64 where
  updateWindowDims := [1]
  insertedWindowDims := [0]
  scatterDimsToOperandDims := [0]
  indexVectorDim := 1
  wf := scatter_S7000x64_S200000x1_S200000x64_1_0_0_1_wf
def dot_S7000x64_S64x64_S7000x64_1_0_0_1_n_n : DotDims S7000x64 S64x64 S7000x64 where
  lhsContracting := [1]
  rhsContracting := [0]
  lhsNonContracting := [0]
  rhsNonContracting := [1]
  lhsBatch := []
  rhsBatch := []
  wf := dot_S7000x64_S64x64_S7000x64_1_0_0_1_n_n_wf
def dot_S20000x4000_S4000x256_S20000x256_1_0_0_1_n_n : DotDims S20000x4000 S4000x256 S20000x256 where
  lhsContracting := [1]
  rhsContracting := [0]
  lhsNonContracting := [0]
  rhsNonContracting := [1]
  lhsBatch := []
  rhsBatch := []
  wf := dot_S20000x4000_S4000x256_S20000x256_1_0_0_1_n_n_wf
def dot_S15000x3000_S3000x256_S15000x256_1_0_0_1_n_n : DotDims S15000x3000 S3000x256 S15000x256 where
  lhsContracting := [1]
  rhsContracting := [0]
  lhsNonContracting := [0]
  rhsNonContracting := [1]
  lhsBatch := []
  rhsBatch := []
  wf := dot_S15000x3000_S3000x256_S15000x256_1_0_0_1_n_n_wf

class Facts : Prop extends Facts₀ where

variable [Facts]
-- ==== Proof.KBody0.lean ====
/- Region 0 of the kernel program's entry function: the layer kernel's body on one row tile.
   At any contents `V` of the TensorCore's buffers on entry: the block of each window at a grid point,
   what the body leaves in its two output blocks as a function of the four input blocks, the body's
   triple, the pipeline's proof data and the per-point obligation. Generic in the float instance. -/
import proofs.«120809_j78615081386430_2_alg».proof.Proof.Gen.Kernel.Launch
import proofs.«120809_j78615081386430_2_alg».proof.Proof.Gen.Kernel.Skeleton
import proofs.«120809_j78615081386430_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the window's array as it stands in `V`. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever proof data has `V`'s array for it and leaves its block untouched, the
    staging buffer the body sees at a point holds the window's block there, whether or not that point fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: whatever proof data has `V`'s array for it and leaves its block untouched, the
    staging buffer the body sees at a point holds the window's block there, whether or not that point fetched it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: whatever proof data has `V`'s array for it and leaves its block untouched, the
    staging buffer the body sees at a point holds the window's block there, whether or not that point fetched it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: whatever proof data has `V`'s array for it and leaves its block untouched, the
    staging buffer the body sees at a point holds the window's block there, whether or not that point fetched it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The three whole-block rectangles the body reads and writes through. -/
abbrev r0_0 : Rect S5000x64 := Rect.unit (s := S5000x64) ![0, 0] S5000x64.size inb_S5000x64_S5000x64_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-- The new embedding block (window 4) after the body: the single whole-block store of the first payload,
    evaluated at the four input blocks. -/
noncomputable def out0_4 (x0 : Vec F S5000x64 .f32) (x1 : Vec F S5000x64 .f32) (x2 : Vec F S128x128 .f32) (x3 : Vec F S1x128 .f32) : Vec F S5000x64 .f32 :=
  View.canon [⟨r0_0, k0_pay1 (View.ld x0 r0_0) (View.ld x1 r0_0) (View.ld x2 r0_1) (View.ld x3 r0_2)⟩]

/-- The row-normalized block (window 5) after the body: the single whole-block store of the second payload. -/
noncomputable def out0_5 (x0 : Vec F S5000x64 .f32) (x1 : Vec F S5000x64 .f32) (x2 : Vec F S128x128 .f32) (x3 : Vec F S1x128 .f32) : Vec F S5000x64 .f32 :=
  View.canon [⟨r0_0, k0_pay2 (View.ld x0 r0_0) (View.ld x1 r0_0) (View.ld x2 r0_1) (View.ld x3 r0_2)⟩]

/-- One whole-block piece covers every index of the block. -/
theorem cover0_o (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

set_option maxHeartbeats 400000 in
/-- The body's triple: started with the four input buffers at contents `x0 … x3` and the two output buffers at
    anything, it ends with the inputs as they were and the outputs at `out0_4`, `out0_5` of the inputs. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x64 .f32) (harg5 : arg5.IsWhole) (arg6 : Memref sig .tc .vmem S5000x64 .f32) (harg6 : arg6.IsWhole)
    (x0 : Vec F S5000x64 .f32) (x1 : Vec F S5000x64 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E (cc0__layer_kernel i arg1 harg1 arg2 harg2 arg3 harg3 arg4 harg4 arg5 harg5 arg6 harg6) K := by
  simp only [cc0__layer_kernel_eq_skeleton]; unfold cc0__layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-- The proof data of pipeline 0 on core `c`: the arrays as `V` has them; after the body at a point each input
    buffer still at its block and each output buffer at its `out0_w` of the input blocks; the invariant is the
    untouched rest; full shares; nothing owed. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is entered with at point `t`, window by window, -/
noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back. -/
noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the body's triple applies; the invariant and
    the debt term pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.KF

end
-- ==== Proof.KBody1.lean ====
/- Region 1 of the kernel program's entry function: the layer kernel's body on one row tile.
   At any contents `V` of the TensorCore's buffers on entry: the block of each window at a grid point,
   what the body leaves in its two output blocks as a function of the four input blocks, the body's
   triple, the pipeline's proof data and the per-point obligation. Generic in the float instance. -/
import proofs.«120809_j78615081386430_2_alg».proof.Proof.Gen.Kernel.Launch
import proofs.«120809_j78615081386430_2_alg».proof.Proof.Gen.Kernel.Skeleton
import proofs.«120809_j78615081386430_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the window's array as it stands in `V`. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whatever proof data has `V`'s array for it and leaves its block untouched, the
    staging buffer the body sees at a point holds the window's block there, whether or not that point fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: whatever proof data has `V`'s array for it and leaves its block untouched, the
    staging buffer the body sees at a point holds the window's block there, whether or not that point fetched it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: whatever proof data has `V`'s array for it and leaves its block untouched, the
    staging buffer the body sees at a point holds the window's block there, whether or not that point fetched it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: whatever proof data has `V`'s array for it and leaves its block untouched, the
    staging buffer the body sees at a point holds the window's block there, whether or not that point fetched it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The three whole-block rectangles the body reads and writes through. -/
abbrev r1_0 : Rect S5000x64 := Rect.unit (s := S5000x64) ![0, 0] S5000x64.size inb_S5000x64_S5000x64_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-- The new embedding block (window 4) after the body: the single whole-block store of the first payload,
    evaluated at the four input blocks. -/
noncomputable def out1_4 (x0 : Vec F S5000x64 .f32) (x1 : Vec F S5000x64 .f32) (x2 : Vec F S128x128 .f32) (x3 : Vec F S1x128 .f32) : Vec F S5000x64 .f32 :=
  View.canon [⟨r1_0, k1_pay1 (View.ld x0 r1_0) (View.ld x1 r1_0) (View.ld x2 r1_1) (View.ld x3 r1_2)⟩]

/-- The row-normalized block (window 5) after the body: the single whole-block store of the second payload. -/
noncomputable def out1_5 (x0 : Vec F S5000x64 .f32) (x1 : Vec F S5000x64 .f32) (x2 : Vec F S128x128 .f32) (x3 : Vec F S1x128 .f32) : Vec F S5000x64 .f32 :=
  View.canon [⟨r1_0, k1_pay2 (View.ld x0 r1_0) (View.ld x1 r1_0) (View.ld x2 r1_1) (View.ld x3 r1_2)⟩]

/-- One whole-block piece covers every index of the block. -/
theorem cover1_o (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

set_option maxHeartbeats 400000 in
/-- The body's triple: started with the four input buffers at contents `x0 … x3` and the two output buffers at
    anything, it ends with the inputs as they were and the outputs at `out1_4`, `out1_5` of the inputs. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x64 .f32) (harg5 : arg5.IsWhole) (arg6 : Memref sig .tc .vmem S5000x64 .f32) (harg6 : arg6.IsWhole)
    (x0 : Vec F S5000x64 .f32) (x1 : Vec F S5000x64 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3) ∗ owns (c : Thread nD τ) arg6 fullShare (out1_5 x0 x1 x2 x3)) -∗ K ⟨⟩))
      ⊢ wp frame (wpE (defs₀ (F := F)) Variants.none c none) E (cc1__layer_kernel i arg1 harg1 arg2 harg2 arg3 harg3 arg4 harg4 arg5 harg5 arg6 harg6) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_o _)
  iexists _; isplitr
  swap; · iexact H5
  ipureintro
  exact View.read_writes_eq_canon _ _ _ (cover1_o _)

/-- The proof data of pipeline 1 on core `c`: the arrays as `V` has them; after the body at a point each input
    buffer still at its block and each output buffer at its `out1_w` of the input blocks; the invariant is the
    untouched rest; full shares; nothing owed. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is entered with at point `t`, window by window, -/
noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it hands back. -/
noncomputable def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the body's triple applies; the invariant and
    the debt term pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.KF

end
-- ==== Proof.KBody2.lean ====
/- Region 2 of the kernel program's entry function: the layer kernel's body on one row tile.
   At any contents `V` of the TensorCore's buffers on entry: the block of each window at a grid point,
   what the body leaves in its two output blocks as a function of the four input blocks, the body's
   triple, the pipeline's proof data and the per-point obligation. Generic in the float instance. -/
import proofs.«120809_j78615081386430_2_alg».proof.Proof.Gen.Kernel.Launch
import proofs.«120809_j78615081386430_2_alg».proof.Proof.Gen.Kernel.Skeleton
import proofs.«120809_j78615081386430_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the window's array as it stands in `V`. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: whatever proof data has `V`'s array for it and leaves its block untouched, the
    staging buffer the body sees at a point holds the window's block there, whether or not that point fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: whatever proof data has `V`'s array for it and leaves its block untouched, the
    staging buffer the body sees at a point holds the window's block there, whether or not that point fetched it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: whatever proof data has `V`'s array for it and leaves its block untouched, the
    staging buffer the body sees at a point holds the window's block there, whether or not that point fetched it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: whatever proof data has `V`'s array for it and leaves its block untouched, the
    staging buffer the body sees at a point holds the window's block there, whether or not that point fetched it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The three whole-block rectangles the body reads and writes through. -/
abbrev r2_0 : Rect S5000x64 := Rect.unit (s := S5000x64) ![0, 0] S5000x64.size inb_S5000x64_S5000x64_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

/-- The new embedding block (window 4) after the body: the single whole-block store of the first payload,
    evaluated at the four input blocks. -/
noncomputable def out2_4 (x0 : Vec F S5000x64 .f32) (x1 : Vec F S5000x64 .f32) (x2 : Vec F S128x128 .f32) (x3 : Vec F S1x128 .f32) : Vec F S5000x64 .f32 :=
  View.canon [⟨r2_0, k2_pay1 (View.ld x0 r2_0) (View.ld x1 r2_0) (View.ld x2 r2_1) (View.ld x3 r2_2)⟩]

/-- The row-normalized block (window 5) after the body: the single whole-block store of the second payload. -/
noncomputable def out2_5 (x0 : Vec F S5000x64 .f32) (x1 : Vec F S5000x64 .f32) (x2 : Vec F S128x128 .f32) (x3 : Vec F S1x128 .f32) : Vec F S5000x64 .f32 :=
  View.canon [⟨r2_0, k2_pay2 (View.ld x0 r2_0) (View.ld x1 r2_0) (View.ld x2 r2_1) (View.ld x3 r2_2)⟩]

/-- One whole-block piece covers every index of the block. -/
theorem cover2_o (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

set_option maxHeartbeats 400000 in
/-- The body's triple: started with the four input buffers at contents `x0 … x3` and the two output buffers at
    anything, it ends with the inputs as they were and the outputs at `out2_4`, `out2_5` of the inputs. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x64 .f32) (harg5 : arg5.IsWhole) (arg6 : Memref sig .tc .vmem S5000x64 .f32) (harg6 : arg6.IsWhole)
    (x0 : Vec F S5000x64 .f32) (x1 : Vec F S5000x64 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3) ∗ owns (c : Thread nD τ) arg6 fullShare (out2_5 x0 x1 x2 x3)) -∗ K ⟨⟩))
      ⊢ wp frame (wpE (defs₀ (F := F)) Variants.none c none) E (cc2__layer_kernel i arg1 harg1 arg2 harg2 arg3 harg3 arg4 harg4 arg5 harg5 arg6 harg6) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_o _)
  iexists _; isplitr
  swap; · iexact H5
  ipureintro
  exact View.read_writes_eq_canon _ _ _ (cover2_o _)

/-- The proof data of pipeline 2 on core `c`: the arrays as `V` has them; after the body at a point each input
    buffer still at its block and each output buffer at its `out2_w` of the input blocks; the invariant is the
    untouched rest; full shares; nothing owed. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is entered with at point `t`, window by window, -/
noncomputable def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it hands back. -/
noncomputable def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the body's triple applies; the invariant and
    the debt term pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.KF

end
-- ==== Proof.KBody3.lean ====
/- Region 3 of the kernel program's entry function: the layer kernel's body on one row tile.
   At any contents `V` of the TensorCore's buffers on entry: the block of each window at a grid point,
   what the body leaves in its two output blocks as a function of the four input blocks, the body's
   triple, the pipeline's proof data and the per-point obligation. Generic in the float instance. -/
import proofs.«120809_j78615081386430_2_alg».proof.Proof.Gen.Kernel.Launch
import proofs.«120809_j78615081386430_2_alg».proof.Proof.Gen.Kernel.Skeleton
import proofs.«120809_j78615081386430_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the window's array as it stands in `V`. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whatever proof data has `V`'s array for it and leaves its block untouched, the
    staging buffer the body sees at a point holds the window's block there, whether or not that point fetched it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: whatever proof data has `V`'s array for it and leaves its block untouched, the
    staging buffer the body sees at a point holds the window's block there, whether or not that point fetched it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: whatever proof data has `V`'s array for it and leaves its block untouched, the
    staging buffer the body sees at a point holds the window's block there, whether or not that point fetched it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: whatever proof data has `V`'s array for it and leaves its block untouched, the
    staging buffer the body sees at a point holds the window's block there, whether or not that point fetched it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The three whole-block rectangles the body reads and writes through. -/
abbrev r3_0 : Rect S1000x64 := Rect.unit (s := S1000x64) ![0, 0] S1000x64.size inb_S1000x64_S1000x64_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-- The new embedding block (window 4) after the body: the single whole-block store of the first payload,
    evaluated at the four input blocks. -/
noncomputable def out3_4 (x0 : Vec F S1000x64 .f32) (x1 : Vec F S1000x64 .f32) (x2 : Vec F S128x128 .f32) (x3 : Vec F S1x128 .f32) : Vec F S1000x64 .f32 :=
  View.canon [⟨r3_0, k3_pay1 (View.ld x0 r3_0) (View.ld x1 r3_0) (View.ld x2 r3_1) (View.ld x3 r3_2)⟩]

/-- The row-normalized block (window 5) after the body: the single whole-block store of the second payload. -/
noncomputable def out3_5 (x0 : Vec F S1000x64 .f32) (x1 : Vec F S1000x64 .f32) (x2 : Vec F S128x128 .f32) (x3 : Vec F S1x128 .f32) : Vec F S1000x64 .f32 :=
  View.canon [⟨r3_0, k3_pay2 (View.ld x0 r3_0) (View.ld x1 r3_0) (View.ld x2 r3_1) (View.ld x3 r3_2)⟩]

/-- One whole-block piece covers every index of the block. -/
theorem cover3_o (p0 : Vec F S1000x64 .f32) (y : S1000x64.Idx) :
    ∃ pc ∈ ([⟨r3_0, p0⟩] : List (View.Piece (Elt F) S1000x64 .f32)), y ∈ pc.1.set :=
  View.cover_of_tiled [⟨r3_0, p0⟩] S1000x64.size (by rfl) y

set_option maxHeartbeats 400000 in
/-- The body's triple: started with the four input buffers at contents `x0 … x3` and the two output buffers at
    anything, it ends with the inputs as they were and the outputs at `out3_4`, `out3_5` of the inputs. -/
theorem sound_kernel3 (c : Dev nD) (E : Set ℕ) (i : grid3.Coords)
    (arg1 : Memref sig .tc .vmem S1000x64 .f32) (harg1 : arg1.IsWhole) (arg2 : Memref sig .tc .vmem S1000x64 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1000x64 .f32) (harg5 : arg5.IsWhole) (arg6 : Memref sig .tc .vmem S1000x64 .f32) (harg6 : arg6.IsWhole)
    (x0 : Vec F S1000x64 .f32) (x1 : Vec F S1000x64 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 x0 x1 x2 x3) ∗ owns (c : Thread nD τ) arg6 fullShare (out3_5 x0 x1 x2 x3)) -∗ K ⟨⟩))
      ⊢ wp frame (wpE (defs₀ (F := F)) Variants.none c none) E (cc3__layer_kernel i arg1 harg1 arg2 harg2 arg3 harg3 arg4 harg4 arg5 harg5 arg6 harg6) K := by
  simp only [cc3__layer_kernel_eq_skeleton]; unfold cc3__layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_o _)
  iexists _; isplitr
  swap; · iexact H5
  ipureintro
  exact View.read_writes_eq_canon _ _ _ (cover3_o _)

/-- The proof data of pipeline 3 on core `c`: the arrays as `V` has them; after the body at a point each input
    buffer still at its block and each output buffer at its `out3_w` of the input blocks; the invariant is the
    untouched rest; full shares; nothing owed. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is entered with at point `t`, window by window, -/
noncomputable def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it hands back. -/
noncomputable def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the input buffers hold their blocks, so the body's triple applies; the invariant and
    the debt term pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.KF

end
-- ==== Proof.KBody4.lean ====
/- Region 4 of the kernel program's entry function: the layer kernel's body on one row tile.
   At any contents `V` of the TensorCore's buffers on entry: the block of each window at a grid point,
   what the body leaves in its two output blocks as a function of the four input blocks, the body's
   triple, the pipeline's proof data and the per-point obligation. Generic in the float instance. -/
import proofs.«120809_j78615081386430_2_alg».proof.Proof.Gen.Kernel.Launch
import proofs.«120809_j78615081386430_2_alg».proof.Proof.Gen.Kernel.Skeleton
import proofs.«120809_j78615081386430_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the window's array as it stands in `V`. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0: whatever proof data has `V`'s array for it and leaves its block untouched, the
    staging buffer the body sees at a point holds the window's block there, whether or not that point fetched it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1: whatever proof data has `V`'s array for it and leaves its block untouched, the
    staging buffer the body sees at a point holds the window's block there, whether or not that point fetched it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2: whatever proof data has `V`'s array for it and leaves its block untouched, the
    staging buffer the body sees at a point holds the window's block there, whether or not that point fetched it. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3: whatever proof data has `V`'s array for it and leaves its block untouched, the
    staging buffer the body sees at a point holds the window's block there, whether or not that point fetched it. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The three whole-block rectangles the body reads and writes through. -/
abbrev r4_0 : Rect S1000x64 := Rect.unit (s := S1000x64) ![0, 0] S1000x64.size inb_S1000x64_S1000x64_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0

/-- The new embedding block (window 4) after the body: the single whole-block store of the first payload,
    evaluated at the four input blocks. -/
noncomputable def out4_4 (x0 : Vec F S1000x64 .f32) (x1 : Vec F S1000x64 .f32) (x2 : Vec F S128x128 .f32) (x3 : Vec F S1x128 .f32) : Vec F S1000x64 .f32 :=
  View.canon [⟨r4_0, k4_pay1 (View.ld x0 r4_0) (View.ld x1 r4_0) (View.ld x2 r4_1) (View.ld x3 r4_2)⟩]

/-- The row-normalized block (window 5) after the body: the single whole-block store of the second payload. -/
noncomputable def out4_5 (x0 : Vec F S1000x64 .f32) (x1 : Vec F S1000x64 .f32) (x2 : Vec F S128x128 .f32) (x3 : Vec F S1x128 .f32) : Vec F S1000x64 .f32 :=
  View.canon [⟨r4_0, k4_pay2 (View.ld x0 r4_0) (View.ld x1 r4_0) (View.ld x2 r4_1) (View.ld x3 r4_2)⟩]

/-- One whole-block piece covers every index of the block. -/
theorem cover4_o (p0 : Vec F S1000x64 .f32) (y : S1000x64.Idx) :
    ∃ pc ∈ ([⟨r4_0, p0⟩] : List (View.Piece (Elt F) S1000x64 .f32)), y ∈ pc.1.set :=
  View.cover_of_tiled [⟨r4_0, p0⟩] S1000x64.size (by rfl) y

set_option maxHeartbeats 400000 in
/-- The body's triple: started with the four input buffers at contents `x0 … x3` and the two output buffers at
    anything, it ends with the inputs as they were and the outputs at `out4_4`, `out4_5` of the inputs. -/
theorem sound_kernel4 (c : Dev nD) (E : Set ℕ) (i : grid4.Coords)
    (arg1 : Memref sig .tc .vmem S1000x64 .f32) (harg1 : arg1.IsWhole) (arg2 : Memref sig .tc .vmem S1000x64 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1000x64 .f32) (harg5 : arg5.IsWhole) (arg6 : Memref sig .tc .vmem S1000x64 .f32) (harg6 : arg6.IsWhole)
    (x0 : Vec F S1000x64 .f32) (x1 : Vec F S1000x64 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 x0 x1 x2 x3) ∗ owns (c : Thread nD τ) arg6 fullShare (out4_5 x0 x1 x2 x3)) -∗ K ⟨⟩))
      ⊢ wp frame (wpE (defs₀ (F := F)) Variants.none c none) E (cc4__layer_kernel i arg1 harg1 arg2 harg2 arg3 harg3 arg4 harg4 arg5 harg5 arg6 harg6) K := by
  simp only [cc4__layer_kernel_eq_skeleton]; unfold cc4__layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4_o _)
  iexists _; isplitr
  swap; · iexact H5
  ipureintro
  exact View.read_writes_eq_canon _ _ _ (cover4_o _)

/-- The proof data of pipeline 4 on core `c`: the arrays as `V` has them; after the body at a point each input
    buffer still at its block and each output buffer at its `out4_w` of the input blocks; the invariant is the
    untouched rest; full shares; nothing owed. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
    | ⟨5, _⟩ => out4_5 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]
theorem after4_5 (c : Dev nD) (t : Fin cfg4.N) : (dat4 V c).after 5 t = out4_5 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is entered with at point `t`, window by window, -/
noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it hands back. -/
noncomputable def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the input buffers hold their blocks, so the body's triple applies; the invariant and
    the debt term pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.KF

end
-- ==== Proof.KBody5.lean ====
/- Region 5 of the kernel program's entry function: the layer kernel's body on one row tile.
   At any contents `V` of the TensorCore's buffers on entry: the block of each window at a grid point,
   what the body leaves in its two output blocks as a function of the four input blocks, the body's
   triple, the pipeline's proof data and the per-point obligation. Generic in the float instance. -/
import proofs.«120809_j78615081386430_2_alg».proof.Proof.Gen.Kernel.Launch
import proofs.«120809_j78615081386430_2_alg».proof.Proof.Gen.Kernel.Skeleton
import proofs.«120809_j78615081386430_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the window's array as it stands in `V`. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0: whatever proof data has `V`'s array for it and leaves its block untouched, the
    staging buffer the body sees at a point holds the window's block there, whether or not that point fetched it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1: whatever proof data has `V`'s array for it and leaves its block untouched, the
    staging buffer the body sees at a point holds the window's block there, whether or not that point fetched it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2: whatever proof data has `V`'s array for it and leaves its block untouched, the
    staging buffer the body sees at a point holds the window's block there, whether or not that point fetched it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3: whatever proof data has `V`'s array for it and leaves its block untouched, the
    staging buffer the body sees at a point holds the window's block there, whether or not that point fetched it. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The three whole-block rectangles the body reads and writes through. -/
abbrev r5_0 : Rect S1000x64 := Rect.unit (s := S1000x64) ![0, 0] S1000x64.size inb_S1000x64_S1000x64_0_0
abbrev r5_1 : Rect S128x128 := Rect.unit (s := S128x128) ![0, 0] S128x128.size inb_S128x128_S128x128_0_0
abbrev r5_2 : Rect S1x128 := Rect.unit (s := S1x128) ![0, 0] S1x128.size inb_S1x128_S1x128_0_0

/-- The new embedding block (window 4) after the body: the single whole-block store of the first payload,
    evaluated at the four input blocks. -/
noncomputable def out5_4 (x0 : Vec F S1000x64 .f32) (x1 : Vec F S1000x64 .f32) (x2 : Vec F S128x128 .f32) (x3 : Vec F S1x128 .f32) : Vec F S1000x64 .f32 :=
  View.canon [⟨r5_0, k5_pay1 (View.ld x0 r5_0) (View.ld x1 r5_0) (View.ld x2 r5_1) (View.ld x3 r5_2)⟩]

/-- The row-normalized block (window 5) after the body: the single whole-block store of the second payload. -/
noncomputable def out5_5 (x0 : Vec F S1000x64 .f32) (x1 : Vec F S1000x64 .f32) (x2 : Vec F S128x128 .f32) (x3 : Vec F S1x128 .f32) : Vec F S1000x64 .f32 :=
  View.canon [⟨r5_0, k5_pay2 (View.ld x0 r5_0) (View.ld x1 r5_0) (View.ld x2 r5_1) (View.ld x3 r5_2)⟩]

/-- One whole-block piece covers every index of the block. -/
theorem cover5_o (p0 : Vec F S1000x64 .f32) (y : S1000x64.Idx) :
    ∃ pc ∈ ([⟨r5_0, p0⟩] : List (View.Piece (Elt F) S1000x64 .f32)), y ∈ pc.1.set :=
  View.cover_of_tiled [⟨r5_0, p0⟩] S1000x64.size (by rfl) y

set_option maxHeartbeats 400000 in
/-- The body's triple: started with the four input buffers at contents `x0 … x3` and the two output buffers at
    anything, it ends with the inputs as they were and the outputs at `out5_4`, `out5_5` of the inputs. -/
theorem sound_kernel5 (c : Dev nD) (E : Set ℕ) (i : grid5.Coords)
    (arg1 : Memref sig .tc .vmem S1000x64 .f32) (harg1 : arg1.IsWhole) (arg2 : Memref sig .tc .vmem S1000x64 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1000x64 .f32) (harg5 : arg5.IsWhole) (arg6 : Memref sig .tc .vmem S1000x64 .f32) (harg6 : arg6.IsWhole)
    (x0 : Vec F S1000x64 .f32) (x1 : Vec F S1000x64 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out5_4 x0 x1 x2 x3) ∗ owns (c : Thread nD τ) arg6 fullShare (out5_5 x0 x1 x2 x3)) -∗ K ⟨⟩))
      ⊢ wp frame (wpE (defs₀ (F := F)) Variants.none c none) E (cc5__layer_kernel i arg1 harg1 arg2 harg2 arg3 harg3 arg4 harg4 arg5 harg5 arg6 harg6) K := by
  simp only [cc5__layer_kernel_eq_skeleton]; unfold cc5__layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover5_o _)
  iexists _; isplitr
  swap; · iexact H5
  ipureintro
  exact View.read_writes_eq_canon _ _ _ (cover5_o _)

/-- The proof data of pipeline 5 on core `c`: the arrays as `V` has them; after the body at a point each input
    buffer still at its block and each output buffer at its `out5_w` of the input blocks; the invariant is the
    untouched rest; full shares; nothing owed. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
    | ⟨5, _⟩ => out5_5 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]
theorem after5_5 (c : Dev nD) (t : Fin cfg5.N) : (dat5 V c).after 5 t = out5_5 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is entered with at point `t`, window by window, -/
noncomputable def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it hands back. -/
noncomputable def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the input buffers hold their blocks, so the body's triple applies; the invariant and
    the debt term pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.KF

end
-- ==== Proof.KBody6.lean ====
/- Region 6 of the kernel program's entry function: the matmul-and-add kernel's body on one row tile.
   At any contents `V` of the TensorCore's buffers on entry: the block of each window at a grid point,
   what the body leaves in its output block as a function of the three input blocks, the body's triple,
   the pipeline's proof data and the per-point obligation. Generic in the float instance. -/
import proofs.«120809_j78615081386430_2_alg».proof.Proof.Gen.Kernel.Launch
import proofs.«120809_j78615081386430_2_alg».proof.Proof.Gen.Kernel.Skeleton
import proofs.«120809_j78615081386430_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the window's array as it stands in `V`. -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0: whatever proof data has `V`'s array for it and leaves its block untouched, the
    staging buffer the body sees at a point holds the window's block there, whether or not that point fetched it. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1: whatever proof data has `V`'s array for it and leaves its block untouched, the
    staging buffer the body sees at a point holds the window's block there, whether or not that point fetched it. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2: whatever proof data has `V`'s array for it and leaves its block untouched, the
    staging buffer the body sees at a point holds the window's block there, whether or not that point fetched it. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The three whole-block rectangles the body reads and writes through. -/
abbrev r6_0 : Rect S1000x4000 := Rect.unit (s := S1000x4000) ![0, 0] S1000x4000.size inb_S1000x4000_S1000x4000_0_0
abbrev r6_1 : Rect S4000x256 := Rect.unit (s := S4000x256) ![0, 0] S4000x256.size inb_S4000x256_S4000x256_0_0
abbrev r6_2 : Rect S1000x256 := Rect.unit (s := S1000x256) ![0, 0] S1000x256.size inb_S1000x256_S1000x256_0_0

/-- The output block (window 3) after the body: the single whole-block store of the product plus the base,
    evaluated at the three input blocks. -/
noncomputable def out6_3 (x0 : Vec F S1000x4000 .f32) (x1 : Vec F S4000x256 .bf16) (x2 : Vec F S1000x256 .f32) : Vec F S1000x256 .f32 :=
  View.canon [⟨r6_2, k6_pay1 (View.ld x0 r6_0) (View.ld x1 r6_1) (View.ld x2 r6_2)⟩]

/-- One whole-block piece covers every index of the block. -/
theorem cover6_o (p0 : Vec F S1000x256 .f32) (y : S1000x256.Idx) :
    ∃ pc ∈ ([⟨r6_2, p0⟩] : List (View.Piece (Elt F) S1000x256 .f32)), y ∈ pc.1.set :=
  View.cover_of_tiled [⟨r6_2, p0⟩] S1000x256.size (by rfl) y

set_option maxHeartbeats 400000 in
/-- The body's triple: started with the three input buffers at contents `x0 x1 x2` and the output buffer at
    anything, it ends with the inputs as they were and the output at `out6_3` of the inputs. -/
theorem sound_kernel6 (c : Dev nD) (E : Set ℕ) (i : grid6.Coords)
    (arg1 : Memref sig .tc .vmem S1000x4000 .f32) (harg1 : arg1.IsWhole) (arg2 : Memref sig .tc .vmem S4000x256 .bf16) (harg2 : arg2.IsWhole)
    (arg3 : Memref sig .tc .vmem S1000x256 .f32) (harg3 : arg3.IsWhole) (arg4 : Memref sig .tc .vmem S1000x256 .f32) (harg4 : arg4.IsWhole)
    (x0 : Vec F S1000x4000 .f32) (x1 : Vec F S4000x256 .bf16) (x2 : Vec F S1000x256 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out6_3 x0 x1 x2)) -∗ K ⟨⟩))
      ⊢ wp frame (wpE (defs₀ (F := F)) Variants.none c none) E (cc6__matmul_add_kernel i arg1 harg1 arg2 harg2 arg3 harg3 arg4 harg4) K := by
  simp only [cc6__matmul_add_kernel_eq_skeleton]; unfold cc6__matmul_add_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_o _)

/-- The proof data of pipeline 6 on core `c`: the arrays as `V` has them; after the body at a point each input
    buffer still at its block and the output buffer at `out6_3` of the input blocks; the invariant is the
    untouched rest; full shares; nothing owed. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is entered with at point `t`, window by window, -/
noncomputable def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it hands back. -/
noncomputable def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the input buffers hold their blocks, so the body's triple applies; the invariant and
    the debt term pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.KF

end
-- ==== Proof.KBody7.lean ====
/- Region 7 of the kernel program's entry function: the matmul-and-add kernel's body on one row tile.
   At any contents `V` of the TensorCore's buffers on entry: the block of each window at a grid point,
   what the body leaves in its output block as a function of the three input blocks, the body's triple,
   the pipeline's proof data and the per-point obligation. Generic in the float instance. -/
import proofs.«120809_j78615081386430_2_alg».proof.Proof.Gen.Kernel.Launch
import proofs.«120809_j78615081386430_2_alg».proof.Proof.Gen.Kernel.Skeleton
import proofs.«120809_j78615081386430_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the window's array as it stands in `V`. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0: whatever proof data has `V`'s array for it and leaves its block untouched, the
    staging buffer the body sees at a point holds the window's block there, whether or not that point fetched it. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1: whatever proof data has `V`'s array for it and leaves its block untouched, the
    staging buffer the body sees at a point holds the window's block there, whether or not that point fetched it. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2: whatever proof data has `V`'s array for it and leaves its block untouched, the
    staging buffer the body sees at a point holds the window's block there, whether or not that point fetched it. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The three whole-block rectangles the body reads and writes through. -/
abbrev r7_0 : Rect S1000x3000 := Rect.unit (s := S1000x3000) ![0, 0] S1000x3000.size inb_S1000x3000_S1000x3000_0_0
abbrev r7_1 : Rect S3000x256 := Rect.unit (s := S3000x256) ![0, 0] S3000x256.size inb_S3000x256_S3000x256_0_0
abbrev r7_2 : Rect S1000x256 := Rect.unit (s := S1000x256) ![0, 0] S1000x256.size inb_S1000x256_S1000x256_0_0

/-- The output block (window 3) after the body: the single whole-block store of the product plus the base,
    evaluated at the three input blocks. -/
noncomputable def out7_3 (x0 : Vec F S1000x3000 .f32) (x1 : Vec F S3000x256 .bf16) (x2 : Vec F S1000x256 .f32) : Vec F S1000x256 .f32 :=
  View.canon [⟨r7_2, k7_pay1 (View.ld x0 r7_0) (View.ld x1 r7_1) (View.ld x2 r7_2)⟩]

/-- One whole-block piece covers every index of the block. -/
theorem cover7_o (p0 : Vec F S1000x256 .f32) (y : S1000x256.Idx) :
    ∃ pc ∈ ([⟨r7_2, p0⟩] : List (View.Piece (Elt F) S1000x256 .f32)), y ∈ pc.1.set :=
  View.cover_of_tiled [⟨r7_2, p0⟩] S1000x256.size (by rfl) y

set_option maxHeartbeats 400000 in
/-- The body's triple: started with the three input buffers at contents `x0 x1 x2` and the output buffer at
    anything, it ends with the inputs as they were and the output at `out7_3` of the inputs. -/
theorem sound_kernel7 (c : Dev nD) (E : Set ℕ) (i : grid7.Coords)
    (arg1 : Memref sig .tc .vmem S1000x3000 .f32) (harg1 : arg1.IsWhole) (arg2 : Memref sig .tc .vmem S3000x256 .bf16) (harg2 : arg2.IsWhole)
    (arg3 : Memref sig .tc .vmem S1000x256 .f32) (harg3 : arg3.IsWhole) (arg4 : Memref sig .tc .vmem S1000x256 .f32) (harg4 : arg4.IsWhole)
    (x0 : Vec F S1000x3000 .f32) (x1 : Vec F S3000x256 .bf16) (x2 : Vec F S1000x256 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out7_3 x0 x1 x2)) -∗ K ⟨⟩))
      ⊢ wp frame (wpE (defs₀ (F := F)) Variants.none c none) E (cc7__matmul_add_kernel i arg1 harg1 arg2 harg2 arg3 harg3 arg4 harg4) K := by
  simp only [cc7__matmul_add_kernel_eq_skeleton]; unfold cc7__matmul_add_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_o _)

/-- The proof data of pipeline 7 on core `c`: the arrays as `V` has them; after the body at a point each input
    buffer still at its block and the output buffer at `out7_3` of the input blocks; the invariant is the
    untouched rest; full shares; nothing owed. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is entered with at point `t`, window by window, -/
noncomputable def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it hands back. -/
noncomputable def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the input buffers hold their blocks, so the body's triple applies; the invariant and
    the debt term pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.KF

end
-- ==== Proof.KRunA.lean ====
/- The run of @main, first half: the TensorCore's buffer contents at each of the sixteen boundaries between
   @main's fifteen segments (seven stretches of host operations, eight kernel regions), the facts that tie a
   region's exit contents to what its pipeline leaves, each argument array read back to its launch contents, and
   the family of proof data, one per pipeline, each at its region's entry contents. -/
import proofs.«120809_j78615081386430_2_alg».proof.Proof.Gen.Kernel.Launch
import proofs.«120809_j78615081386430_2_alg».proof.Proof.Gen.Kernel.Regions
import proofs.«120809_j78615081386430_2_alg».proof.Proof.KBody0
import proofs.«120809_j78615081386430_2_alg».proof.Proof.KBody1
import proofs.«120809_j78615081386430_2_alg».proof.Proof.KBody2
import proofs.«120809_j78615081386430_2_alg».proof.Proof.KBody3
import proofs.«120809_j78615081386430_2_alg».proof.Proof.KBody4
import proofs.«120809_j78615081386430_2_alg».proof.Proof.KBody5
import proofs.«120809_j78615081386430_2_alg».proof.Proof.KBody6
import proofs.«120809_j78615081386430_2_alg».proof.Proof.KBody7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
noncomputable abbrev W0 : Dev nD → Valuation τ sig (Elt F) := fun c b => (s₀ m ρ).mem ((c : Dev nD), b)
/-- After the host stretch `hostOps0`. -/
noncomputable abbrev W1 : Dev nD → Valuation τ sig (Elt F) := fun c => StableHlo.after hostOps0 (W0 m ρ c)
/-- The same contents at the TensorCore's references. -/
noncomputable abbrev V1 : (c : Dev nD) → (b : Ref sig .tc) → Buf (Elt F) ((c : Thread nD τ).loc b) := fun c b => W1 m ρ c b
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: its windows' arrays at what the pipeline leaves after its last point, every other buffer
    as the region found it. -/
noncomputable def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents at the TensorCore's references. -/
noncomputable abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
noncomputable abbrev W3 : Dev nD → Valuation τ sig (Elt F) := fun c => StableHlo.after hostOps1 (W2 m ρ c)
/-- The same contents at the TensorCore's references. -/
noncomputable abbrev V3 : (c : Dev nD) → (b : Ref sig .tc) → Buf (Elt F) ((c : Thread nD τ).loc b) := fun c b => W3 m ρ c b
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
/-- At region 1's exit: its windows' arrays at what the pipeline leaves after its last point, every other buffer
    as the region found it. -/
noncomputable def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same contents at the TensorCore's references. -/
noncomputable abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host stretch `hostOps2`. -/
noncomputable abbrev W5 : Dev nD → Valuation τ sig (Elt F) := fun c => StableHlo.after hostOps2 (W4 m ρ c)
/-- The same contents at the TensorCore's references. -/
noncomputable abbrev V5 : (c : Dev nD) → (b : Ref sig .tc) → Buf (Elt F) ((c : Thread nD τ).loc b) := fun c b => W5 m ρ c b
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
/-- At region 2's exit: its windows' arrays at what the pipeline leaves after its last point, every other buffer
    as the region found it. -/
noncomputable def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same contents at the TensorCore's references. -/
noncomputable abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host stretch `hostOps3`. -/
noncomputable abbrev W7 : Dev nD → Valuation τ sig (Elt F) := fun c => StableHlo.after hostOps3 (W6 m ρ c)
/-- The same contents at the TensorCore's references. -/
noncomputable abbrev V7 : (c : Dev nD) → (b : Ref sig .tc) → Buf (Elt F) ((c : Thread nD τ).loc b) := fun c b => W7 m ρ c b
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h
/-- At region 3's exit: its windows' arrays at what the pipeline leaves after its last point, every other buffer
    as the region found it. -/
noncomputable def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same contents at the TensorCore's references. -/
noncomputable abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After the host stretch `hostOps4`. -/
noncomputable abbrev W9 : Dev nD → Valuation τ sig (Elt F) := fun c => StableHlo.after hostOps4 (W8 m ρ c)
/-- The same contents at the TensorCore's references. -/
noncomputable abbrev V9 : (c : Dev nD) → (b : Ref sig .tc) → Buf (Elt F) ((c : Thread nD τ).loc b) := fun c b => W9 m ρ c b
theorem W9_keep (c : Dev nD) (r : Ref sig .tc) (h : r ∉ hostOps4_W) :
    W9 m ρ c (Proc.devRef .tc r) = W8 m ρ c (Proc.devRef .tc r) :=
  StableHlo.after_of_writes_sub hostOps4 _ hostOps4_writes h
/-- At region 4's exit: its windows' arrays at what the pipeline leaves after its last point, every other buffer
    as the region found it. -/
noncomputable def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same contents at the TensorCore's references. -/
noncomputable abbrev V10 : (c : Dev nD) → (b : Ref sig .tc) → Buf (Elt F) ((c : Thread nD τ).loc b) := fun c b => W10 m ρ c b
/-- At region 4's exit each of its arrays holds what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After the host stretch `hostOps5`. -/
noncomputable abbrev W11 : Dev nD → Valuation τ sig (Elt F) := fun c => StableHlo.after hostOps5 (W10 m ρ c)
/-- The same contents at the TensorCore's references. -/
noncomputable abbrev V11 : (c : Dev nD) → (b : Ref sig .tc) → Buf (Elt F) ((c : Thread nD τ).loc b) := fun c b => W11 m ρ c b
theorem W11_keep (c : Dev nD) (r : Ref sig .tc) (h : r ∉ hostOps5_W) :
    W11 m ρ c (Proc.devRef .tc r) = W10 m ρ c (Proc.devRef .tc r) :=
  StableHlo.after_of_writes_sub hostOps5 _ hostOps5_writes h
/-- At region 5's exit: its windows' arrays at what the pipeline leaves after its last point, every other buffer
    as the region found it. -/
noncomputable def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same contents at the TensorCore's references. -/
noncomputable abbrev V12 : (c : Dev nD) → (b : Ref sig .tc) → Buf (Elt F) ((c : Thread nD τ).loc b) := fun c b => W12 m ρ c b
/-- At region 5's exit each of its arrays holds what the pipeline leaves, and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- After the host stretch `hostOps6`. -/
noncomputable abbrev W13 : Dev nD → Valuation τ sig (Elt F) := fun c => StableHlo.after hostOps6 (W12 m ρ c)
/-- The same contents at the TensorCore's references. -/
noncomputable abbrev V13 : (c : Dev nD) → (b : Ref sig .tc) → Buf (Elt F) ((c : Thread nD τ).loc b) := fun c b => W13 m ρ c b
theorem W13_keep (c : Dev nD) (r : Ref sig .tc) (h : r ∉ hostOps6_W) :
    W13 m ρ c (Proc.devRef .tc r) = W12 m ρ c (Proc.devRef .tc r) :=
  StableHlo.after_of_writes_sub hostOps6 _ hostOps6_writes h
/-- At region 6's exit: its windows' arrays at what the pipeline leaves after its last point, every other buffer
    as the region found it. -/
noncomputable def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same contents at the TensorCore's references. -/
noncomputable abbrev V14 : (c : Dev nD) → (b : Ref sig .tc) → Buf (Elt F) ((c : Thread nD τ).loc b) := fun c b => W14 m ρ c b
/-- At region 6's exit each of its arrays holds what the pipeline leaves, and every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- At region 7's exit: its windows' arrays at what the pipeline leaves after its last point, every other buffer
    as the region found it. -/
noncomputable def W15 (c : Dev nD) : Valuation τ sig (Elt F) :=
  Pipeline.withArrays spec7 c (W14 m ρ c) fun w => (dat7 (V14 m ρ) c).arrAt w cfg7.N
theorem W15_arr (c : Dev nD) (w : Fin cfg7.W) :
    W15 m ρ c (Proc.devRef .tc (Pipeline.arrRef spec7 w)) = (dat7 (V14 m ρ) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb
/-- The same contents at the TensorCore's references. -/
noncomputable abbrev V15 : (c : Dev nD) → (b : Ref sig .tc) → Buf (Elt F) ((c : Thread nD τ).loc b) := fun c b => W15 m ρ c b
/-- At region 7's exit each of its arrays holds what the pipeline leaves, and every other buffer what it held at entry. -/
theorem hF7 (c : Dev nD) (w : Fin cfg7.W) : (dat7 (V14 m ρ) c).arrAt w cfg7.N = V15 m ρ c (Pipeline.arrRef spec7 w) :=
  (W15_arr m ρ c w).symm
theorem hrest7 (c : Dev nD) : ∀ b, b ∉ Finset.univ.image (Pipeline.arrRef spec7) → V15 m ρ c b = V14 m ρ c b :=
  fun b hb => W15_of_ne m ρ c b fun w e => hb (Finset.mem_image.mpr ⟨w, Finset.mem_univ _, e⟩)

/-! ## The arguments end as launched

No host operation writes an argument array, and a region either does not stage it or stages it through an input
window, whose array the pipeline leaves as it found it: the contents at the last boundary walk back to the launch
memory. -/

theorem W15_main_arg0 (c : Dev nD) : W15 m ρ c (Proc.devRef .tc main_arg0) = m ((c : Thread nD τ).loc main_arg0) :=
  calc W15 m ρ c (Proc.devRef .tc main_arg0)
    _ = W14 m ρ c (Proc.devRef .tc main_arg0) := W15_of_ne m ρ c main_arg0 (by decide)
    _ = W13 m ρ c (Proc.devRef .tc main_arg0) := W14_of_ne m ρ c main_arg0 (by decide)
    _ = W12 m ρ c (Proc.devRef .tc main_arg0) := W13_keep m ρ c main_arg0 (by decide)
    _ = W11 m ρ c (Proc.devRef .tc main_arg0) := W12_of_ne m ρ c main_arg0 (by decide)
    _ = W10 m ρ c (Proc.devRef .tc main_arg0) := W11_keep m ρ c main_arg0 (by decide)
    _ = W9 m ρ c (Proc.devRef .tc main_arg0) := W10_of_ne m ρ c main_arg0 (by decide)
    _ = W8 m ρ c (Proc.devRef .tc main_arg0) := W9_keep m ρ c main_arg0 (by decide)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := W2_of_ne m ρ c main_arg0 (by decide)
    _ = W0 m ρ c (Proc.devRef .tc main_arg0) := W1_keep m ρ c main_arg0 (by decide)
    _ = m ((c : Thread nD τ).loc main_arg0) := rfl

theorem W15_main_arg1 (c : Dev nD) : W15 m ρ c (Proc.devRef .tc main_arg1) = m ((c : Thread nD τ).loc main_arg1) :=
  calc W15 m ρ c (Proc.devRef .tc main_arg1)
    _ = W14 m ρ c (Proc.devRef .tc main_arg1) := W15_of_ne m ρ c main_arg1 (by decide)
    _ = W13 m ρ c (Proc.devRef .tc main_arg1) := W14_of_ne m ρ c main_arg1 (by decide)
    _ = W12 m ρ c (Proc.devRef .tc main_arg1) := W13_keep m ρ c main_arg1 (by decide)
    _ = W11 m ρ c (Proc.devRef .tc main_arg1) := W12_of_ne m ρ c main_arg1 (by decide)
    _ = W10 m ρ c (Proc.devRef .tc main_arg1) := W11_keep m ρ c main_arg1 (by decide)
    _ = W9 m ρ c (Proc.devRef .tc main_arg1) := W10_of_ne m ρ c main_arg1 (by decide)
    _ = W8 m ρ c (Proc.devRef .tc main_arg1) := W9_keep m ρ c main_arg1 (by decide)
    _ = W7 m ρ c (Proc.devRef .tc main_arg1) := W8_of_ne m ρ c main_arg1 (by decide)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W15_main_arg2 (c : Dev nD) : W15 m ρ c (Proc.devRef .tc main_arg2) = m ((c : Thread nD τ).loc main_arg2) :=
  calc W15 m ρ c (Proc.devRef .tc main_arg2)
    _ = W14 m ρ c (Proc.devRef .tc main_arg2) := W15_of_ne m ρ c main_arg2 (by decide)
    _ = W13 m ρ c (Proc.devRef .tc main_arg2) := W14_of_ne m ρ c main_arg2 (by decide)
    _ = W12 m ρ c (Proc.devRef .tc main_arg2) := W13_keep m ρ c main_arg2 (by decide)
    _ = W11 m ρ c (Proc.devRef .tc main_arg2) := W12_of_ne m ρ c main_arg2 (by decide)
    _ = W10 m ρ c (Proc.devRef .tc main_arg2) := W11_keep m ρ c main_arg2 (by decide)
    _ = W9 m ρ c (Proc.devRef .tc main_arg2) := W10_of_ne m ρ c main_arg2 (by decide)
    _ = W8 m ρ c (Proc.devRef .tc main_arg2) := W9_keep m ρ c main_arg2 (by decide)
    _ = W7 m ρ c (Proc.devRef .tc main_arg2) := W8_of_ne m ρ c main_arg2 (by decide)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl

theorem W15_main_arg3 (c : Dev nD) : W15 m ρ c (Proc.devRef .tc main_arg3) = m ((c : Thread nD τ).loc main_arg3) :=
  calc W15 m ρ c (Proc.devRef .tc main_arg3)
    _ = W14 m ρ c (Proc.devRef .tc main_arg3) := W15_of_ne m ρ c main_arg3 (by decide)
    _ = W13 m ρ c (Proc.devRef .tc main_arg3) := W14_of_ne m ρ c main_arg3 (by decide)
    _ = W12 m ρ c (Proc.devRef .tc main_arg3) := W13_keep m ρ c main_arg3 (by decide)
    _ = W11 m ρ c (Proc.devRef .tc main_arg3) := W12_of_ne m ρ c main_arg3 (by decide)
    _ = W10 m ρ c (Proc.devRef .tc main_arg3) := W11_keep m ρ c main_arg3 (by decide)
    _ = W9 m ρ c (Proc.devRef .tc main_arg3) := W10_of_ne m ρ c main_arg3 (by decide)
    _ = W8 m ρ c (Proc.devRef .tc main_arg3) := W9_keep m ρ c main_arg3 (by decide)
    _ = W7 m ρ c (Proc.devRef .tc main_arg3) := W8_of_ne m ρ c main_arg3 (by decide)
    _ = W6 m ρ c (Proc.devRef .tc main_arg3) := W7_keep m ρ c main_arg3 (by decide)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl

theorem W15_main_arg4 (c : Dev nD) : W15 m ρ c (Proc.devRef .tc main_arg4) = m ((c : Thread nD τ).loc main_arg4) :=
  calc W15 m ρ c (Proc.devRef .tc main_arg4)
    _ = W14 m ρ c (Proc.devRef .tc main_arg4) := W15_of_ne m ρ c main_arg4 (by decide)
    _ = W13 m ρ c (Proc.devRef .tc main_arg4) := W14_of_ne m ρ c main_arg4 (by decide)
    _ = W12 m ρ c (Proc.devRef .tc main_arg4) := W13_keep m ρ c main_arg4 (by decide)
    _ = W11 m ρ c (Proc.devRef .tc main_arg4) := W12_of_ne m ρ c main_arg4 (by decide)
    _ = W10 m ρ c (Proc.devRef .tc main_arg4) := W11_keep m ρ c main_arg4 (by decide)
    _ = W9 m ρ c (Proc.devRef .tc main_arg4) := W10_of_ne m ρ c main_arg4 (by decide)
    _ = W8 m ρ c (Proc.devRef .tc main_arg4) := W9_keep m ρ c main_arg4 (by decide)
    _ = W7 m ρ c (Proc.devRef .tc main_arg4) := W8_of_ne m ρ c main_arg4 (by decide)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W15_main_arg5 (c : Dev nD) : W15 m ρ c (Proc.devRef .tc main_arg5) = m ((c : Thread nD τ).loc main_arg5) :=
  calc W15 m ρ c (Proc.devRef .tc main_arg5)
    _ = W14 m ρ c (Proc.devRef .tc main_arg5) := W15_of_ne m ρ c main_arg5 (by decide)
    _ = W13 m ρ c (Proc.devRef .tc main_arg5) := W14_of_ne m ρ c main_arg5 (by decide)
    _ = W12 m ρ c (Proc.devRef .tc main_arg5) := W13_keep m ρ c main_arg5 (by decide)
    _ = W11 m ρ c (Proc.devRef .tc main_arg5) := W12_of_ne m ρ c main_arg5 (by decide)
    _ = W10 m ρ c (Proc.devRef .tc main_arg5) := W11_keep m ρ c main_arg5 (by decide)
    _ = W9 m ρ c (Proc.devRef .tc main_arg5) := W10_of_ne m ρ c main_arg5 (by decide)
    _ = W8 m ρ c (Proc.devRef .tc main_arg5) := W9_keep m ρ c main_arg5 (by decide)
    _ = W7 m ρ c (Proc.devRef .tc main_arg5) := W8_of_ne m ρ c main_arg5 (by decide)
    _ = W6 m ρ c (Proc.devRef .tc main_arg5) := W7_keep m ρ c main_arg5 (by decide)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_of_ne m ρ c main_arg5 (by decide)
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

theorem W15_main_arg6 (c : Dev nD) : W15 m ρ c (Proc.devRef .tc main_arg6) = m ((c : Thread nD τ).loc main_arg6) :=
  calc W15 m ρ c (Proc.devRef .tc main_arg6)
    _ = W14 m ρ c (Proc.devRef .tc main_arg6) := W15_of_ne m ρ c main_arg6 (by decide)
    _ = W13 m ρ c (Proc.devRef .tc main_arg6) := W14_of_ne m ρ c main_arg6 (by decide)
    _ = W12 m ρ c (Proc.devRef .tc main_arg6) := W13_keep m ρ c main_arg6 (by decide)
    _ = W11 m ρ c (Proc.devRef .tc main_arg6) := W12_of_ne m ρ c main_arg6 (by decide)
    _ = W10 m ρ c (Proc.devRef .tc main_arg6) := W11_keep m ρ c main_arg6 (by decide)
    _ = W9 m ρ c (Proc.devRef .tc main_arg6) := W10_of_ne m ρ c main_arg6 (by decide)
    _ = W8 m ρ c (Proc.devRef .tc main_arg6) := W9_keep m ρ c main_arg6 (by decide)
    _ = W7 m ρ c (Proc.devRef .tc main_arg6) := W8_of_ne m ρ c main_arg6 (by decide)
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

theorem W15_main_arg7 (c : Dev nD) : W15 m ρ c (Proc.devRef .tc main_arg7) = m ((c : Thread nD τ).loc main_arg7) :=
  calc W15 m ρ c (Proc.devRef .tc main_arg7)
    _ = W14 m ρ c (Proc.devRef .tc main_arg7) := W15_of_ne m ρ c main_arg7 (by decide)
    _ = W13 m ρ c (Proc.devRef .tc main_arg7) := W14_of_ne m ρ c main_arg7 (by decide)
    _ = W12 m ρ c (Proc.devRef .tc main_arg7) := W13_keep m ρ c main_arg7 (by decide)
    _ = W11 m ρ c (Proc.devRef .tc main_arg7) := W12_of_ne m ρ c main_arg7 (by decide)
    _ = W10 m ρ c (Proc.devRef .tc main_arg7) := W11_keep m ρ c main_arg7 (by decide)
    _ = W9 m ρ c (Proc.devRef .tc main_arg7) := W10_of_ne m ρ c main_arg7 (by decide)
    _ = W8 m ρ c (Proc.devRef .tc main_arg7) := W9_keep m ρ c main_arg7 (by decide)
    _ = W7 m ρ c (Proc.devRef .tc main_arg7) := W8_of_ne m ρ c main_arg7 (by decide)
    _ = W6 m ρ c (Proc.devRef .tc main_arg7) := W7_keep m ρ c main_arg7 (by decide)
    _ = W5 m ρ c (Proc.devRef .tc main_arg7) := W6_of_ne m ρ c main_arg7 (by decide)
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

theorem W15_main_arg8 (c : Dev nD) : W15 m ρ c (Proc.devRef .tc main_arg8) = m ((c : Thread nD τ).loc main_arg8) :=
  calc W15 m ρ c (Proc.devRef .tc main_arg8)
    _ = W14 m ρ c (Proc.devRef .tc main_arg8) := W15_of_ne m ρ c main_arg8 (by decide)
    _ = W13 m ρ c (Proc.devRef .tc main_arg8) := W14_of_ne m ρ c main_arg8 (by decide)
    _ = W12 m ρ c (Proc.devRef .tc main_arg8) := W13_keep m ρ c main_arg8 (by decide)
    _ = W11 m ρ c (Proc.devRef .tc main_arg8) := W12_of_ne m ρ c main_arg8 (by decide)
    _ = W10 m ρ c (Proc.devRef .tc main_arg8) := W11_keep m ρ c main_arg8 (by decide)
    _ = W9 m ρ c (Proc.devRef .tc main_arg8) := W10_of_ne m ρ c main_arg8 (by decide)
    _ = W8 m ρ c (Proc.devRef .tc main_arg8) := W9_keep m ρ c main_arg8 (by decide)
    _ = W7 m ρ c (Proc.devRef .tc main_arg8) := W8_of_ne m ρ c main_arg8 (by decide)
    _ = W6 m ρ c (Proc.devRef .tc main_arg8) := W7_keep m ρ c main_arg8 (by decide)
    _ = W5 m ρ c (Proc.devRef .tc main_arg8) := W6_of_ne m ρ c main_arg8 (by decide)
    _ = W4 m ρ c (Proc.devRef .tc main_arg8) := W5_keep m ρ c main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

theorem W15_main_arg9 (c : Dev nD) : W15 m ρ c (Proc.devRef .tc main_arg9) = m ((c : Thread nD τ).loc main_arg9) :=
  calc W15 m ρ c (Proc.devRef .tc main_arg9)
    _ = W14 m ρ c (Proc.devRef .tc main_arg9) := W15_of_ne m ρ c main_arg9 (by decide)
    _ = W13 m ρ c (Proc.devRef .tc main_arg9) := W14_of_ne m ρ c main_arg9 (by decide)
    _ = W12 m ρ c (Proc.devRef .tc main_arg9) := W13_keep m ρ c main_arg9 (by decide)
    _ = W11 m ρ c (Proc.devRef .tc main_arg9) := W12_of_ne m ρ c main_arg9 (by decide)
    _ = W10 m ρ c (Proc.devRef .tc main_arg9) := W11_keep m ρ c main_arg9 (by decide)
    _ = W9 m ρ c (Proc.devRef .tc main_arg9) := W10_of_ne m ρ c main_arg9 (by decide)
    _ = W8 m ρ c (Proc.devRef .tc main_arg9) := W9_keep m ρ c main_arg9 (by decide)
    _ = W7 m ρ c (Proc.devRef .tc main_arg9) := W8_of_ne m ρ c main_arg9 (by decide)
    _ = W6 m ρ c (Proc.devRef .tc main_arg9) := W7_keep m ρ c main_arg9 (by decide)
    _ = W5 m ρ c (Proc.devRef .tc main_arg9) := W6_of_ne m ρ c main_arg9 (by decide)
    _ = W4 m ρ c (Proc.devRef .tc main_arg9) := W5_keep m ρ c main_arg9 (by decide)
    _ = W3 m ρ c (Proc.devRef .tc main_arg9) := W4_of_ne m ρ c main_arg9 (by decide)
    _ = W2 m ρ c (Proc.devRef .tc main_arg9) := W3_keep m ρ c main_arg9 (by decide)
    _ = W1 m ρ c (Proc.devRef .tc main_arg9) := W2_of_ne m ρ c main_arg9 (by decide)
    _ = W0 m ρ c (Proc.devRef .tc main_arg9) := W1_keep m ρ c main_arg9 (by decide)
    _ = m ((c : Thread nD τ).loc main_arg9) := rfl

theorem W15_main_arg10 (c : Dev nD) : W15 m ρ c (Proc.devRef .tc main_arg10) = m ((c : Thread nD τ).loc main_arg10) :=
  calc W15 m ρ c (Proc.devRef .tc main_arg10)
    _ = W14 m ρ c (Proc.devRef .tc main_arg10) := W15_of_ne m ρ c main_arg10 (by decide)
    _ = W13 m ρ c (Proc.devRef .tc main_arg10) := W14_of_ne m ρ c main_arg10 (by decide)
    _ = W12 m ρ c (Proc.devRef .tc main_arg10) := W13_keep m ρ c main_arg10 (by decide)
    _ = W11 m ρ c (Proc.devRef .tc main_arg10) := W12_of_ne m ρ c main_arg10 (by decide)
    _ = W10 m ρ c (Proc.devRef .tc main_arg10) := W11_keep m ρ c main_arg10 (by decide)
    _ = W9 m ρ c (Proc.devRef .tc main_arg10) := W10_of_ne m ρ c main_arg10 (by decide)
    _ = W8 m ρ c (Proc.devRef .tc main_arg10) := W9_keep m ρ c main_arg10 (by decide)
    _ = W7 m ρ c (Proc.devRef .tc main_arg10) := W8_of_ne m ρ c main_arg10 (by decide)
    _ = W6 m ρ c (Proc.devRef .tc main_arg10) := W7_keep m ρ c main_arg10 (by decide)
    _ = W5 m ρ c (Proc.devRef .tc main_arg10) := W6_of_ne m ρ c main_arg10 (by decide)
    _ = W4 m ρ c (Proc.devRef .tc main_arg10) := W5_keep m ρ c main_arg10 (by decide)
    _ = W3 m ρ c (Proc.devRef .tc main_arg10) := W4_of_ne m ρ c main_arg10 (by decide)
    _ = W2 m ρ c (Proc.devRef .tc main_arg10) := W3_keep m ρ c main_arg10 (by decide)
    _ = W1 m ρ c (Proc.devRef .tc main_arg10) := W2_of_ne m ρ c main_arg10 (by decide)
    _ = W0 m ρ c (Proc.devRef .tc main_arg10) := W1_keep m ρ c main_arg10 (by decide)
    _ = m ((c : Thread nD τ).loc main_arg10) := rfl

theorem W15_main_arg11 (c : Dev nD) : W15 m ρ c (Proc.devRef .tc main_arg11) = m ((c : Thread nD τ).loc main_arg11) :=
  calc W15 m ρ c (Proc.devRef .tc main_arg11)
    _ = W14 m ρ c (Proc.devRef .tc main_arg11) := W15_of_ne m ρ c main_arg11 (by decide)
    _ = W13 m ρ c (Proc.devRef .tc main_arg11) := W14_of_ne m ρ c main_arg11 (by decide)
    _ = W12 m ρ c (Proc.devRef .tc main_arg11) := W13_keep m ρ c main_arg11 (by decide)
    _ = W11 m ρ c (Proc.devRef .tc main_arg11) := W12_of_ne m ρ c main_arg11 (by decide)
    _ = W10 m ρ c (Proc.devRef .tc main_arg11) := W11_keep m ρ c main_arg11 (by decide)
    _ = W9 m ρ c (Proc.devRef .tc main_arg11) := W10_of_ne m ρ c main_arg11 (by decide)
    _ = W8 m ρ c (Proc.devRef .tc main_arg11) := W9_keep m ρ c main_arg11 (by decide)
    _ = W7 m ρ c (Proc.devRef .tc main_arg11) := W8_of_ne m ρ c main_arg11 (by decide)
    _ = W6 m ρ c (Proc.devRef .tc main_arg11) := W7_keep m ρ c main_arg11 (by decide)
    _ = W5 m ρ c (Proc.devRef .tc main_arg11) := W6_of_ne m ρ c main_arg11 (by decide)
    _ = W4 m ρ c (Proc.devRef .tc main_arg11) := W5_keep m ρ c main_arg11 (by decide)
    _ = W3 m ρ c (Proc.devRef .tc main_arg11) := W4_of_ne m ρ c main_arg11 (by decide)
    _ = W2 m ρ c (Proc.devRef .tc main_arg11) := W3_keep m ρ c main_arg11 (by decide)
    _ = W1 m ρ c (Proc.devRef .tc main_arg11) := W2_of_ne m ρ c main_arg11 (by decide)
    _ = W0 m ρ c (Proc.devRef .tc main_arg11) := W1_keep m ρ c main_arg11 (by decide)
    _ = m ((c : Thread nD τ).loc main_arg11) := rfl

theorem W15_main_arg12 (c : Dev nD) : W15 m ρ c (Proc.devRef .tc main_arg12) = m ((c : Thread nD τ).loc main_arg12) :=
  calc W15 m ρ c (Proc.devRef .tc main_arg12)
    _ = W14 m ρ c (Proc.devRef .tc main_arg12) := W15_of_ne m ρ c main_arg12 (by decide)
    _ = W13 m ρ c (Proc.devRef .tc main_arg12) := (W14_arr m ρ c 0).trans (((dat6 (V13 m ρ) c).arrAt_in 0 rfl _).trans (A_eq6 (V13 m ρ) c 0))
    _ = W12 m ρ c (Proc.devRef .tc main_arg12) := W13_keep m ρ c main_arg12 (by decide)
    _ = W11 m ρ c (Proc.devRef .tc main_arg12) := W12_of_ne m ρ c main_arg12 (by decide)
    _ = W10 m ρ c (Proc.devRef .tc main_arg12) := W11_keep m ρ c main_arg12 (by decide)
    _ = W9 m ρ c (Proc.devRef .tc main_arg12) := W10_of_ne m ρ c main_arg12 (by decide)
    _ = W8 m ρ c (Proc.devRef .tc main_arg12) := W9_keep m ρ c main_arg12 (by decide)
    _ = W7 m ρ c (Proc.devRef .tc main_arg12) := W8_of_ne m ρ c main_arg12 (by decide)
    _ = W6 m ρ c (Proc.devRef .tc main_arg12) := W7_keep m ρ c main_arg12 (by decide)
    _ = W5 m ρ c (Proc.devRef .tc main_arg12) := W6_of_ne m ρ c main_arg12 (by decide)
    _ = W4 m ρ c (Proc.devRef .tc main_arg12) := W5_keep m ρ c main_arg12 (by decide)
    _ = W3 m ρ c (Proc.devRef .tc main_arg12) := W4_of_ne m ρ c main_arg12 (by decide)
    _ = W2 m ρ c (Proc.devRef .tc main_arg12) := W3_keep m ρ c main_arg12 (by decide)
    _ = W1 m ρ c (Proc.devRef .tc main_arg12) := W2_of_ne m ρ c main_arg12 (by decide)
    _ = W0 m ρ c (Proc.devRef .tc main_arg12) := W1_keep m ρ c main_arg12 (by decide)
    _ = m ((c : Thread nD τ).loc main_arg12) := rfl

theorem W15_main_arg13 (c : Dev nD) : W15 m ρ c (Proc.devRef .tc main_arg13) = m ((c : Thread nD τ).loc main_arg13) :=
  calc W15 m ρ c (Proc.devRef .tc main_arg13)
    _ = W14 m ρ c (Proc.devRef .tc main_arg13) := (W15_arr m ρ c 0).trans (((dat7 (V14 m ρ) c).arrAt_in 0 rfl _).trans (A_eq7 (V14 m ρ) c 0))
    _ = W13 m ρ c (Proc.devRef .tc main_arg13) := W14_of_ne m ρ c main_arg13 (by decide)
    _ = W12 m ρ c (Proc.devRef .tc main_arg13) := W13_keep m ρ c main_arg13 (by decide)
    _ = W11 m ρ c (Proc.devRef .tc main_arg13) := W12_of_ne m ρ c main_arg13 (by decide)
    _ = W10 m ρ c (Proc.devRef .tc main_arg13) := W11_keep m ρ c main_arg13 (by decide)
    _ = W9 m ρ c (Proc.devRef .tc main_arg13) := W10_of_ne m ρ c main_arg13 (by decide)
    _ = W8 m ρ c (Proc.devRef .tc main_arg13) := W9_keep m ρ c main_arg13 (by decide)
    _ = W7 m ρ c (Proc.devRef .tc main_arg13) := W8_of_ne m ρ c main_arg13 (by decide)
    _ = W6 m ρ c (Proc.devRef .tc main_arg13) := W7_keep m ρ c main_arg13 (by decide)
    _ = W5 m ρ c (Proc.devRef .tc main_arg13) := W6_of_ne m ρ c main_arg13 (by decide)
    _ = W4 m ρ c (Proc.devRef .tc main_arg13) := W5_keep m ρ c main_arg13 (by decide)
    _ = W3 m ρ c (Proc.devRef .tc main_arg13) := W4_of_ne m ρ c main_arg13 (by decide)
    _ = W2 m ρ c (Proc.devRef .tc main_arg13) := W3_keep m ρ c main_arg13 (by decide)
    _ = W1 m ρ c (Proc.devRef .tc main_arg13) := W2_of_ne m ρ c main_arg13 (by decide)
    _ = W0 m ρ c (Proc.devRef .tc main_arg13) := W1_keep m ρ c main_arg13 (by decide)
    _ = m ((c : Thread nD τ).loc main_arg13) := rfl

theorem W15_main_arg14 (c : Dev nD) : W15 m ρ c (Proc.devRef .tc main_arg14) = m ((c : Thread nD τ).loc main_arg14) :=
  calc W15 m ρ c (Proc.devRef .tc main_arg14)
    _ = W14 m ρ c (Proc.devRef .tc main_arg14) := W15_of_ne m ρ c main_arg14 (by decide)
    _ = W13 m ρ c (Proc.devRef .tc main_arg14) := W14_of_ne m ρ c main_arg14 (by decide)
    _ = W12 m ρ c (Proc.devRef .tc main_arg14) := W13_keep m ρ c main_arg14 (by decide)
    _ = W11 m ρ c (Proc.devRef .tc main_arg14) := W12_of_ne m ρ c main_arg14 (by decide)
    _ = W10 m ρ c (Proc.devRef .tc main_arg14) := W11_keep m ρ c main_arg14 (by decide)
    _ = W9 m ρ c (Proc.devRef .tc main_arg14) := W10_of_ne m ρ c main_arg14 (by decide)
    _ = W8 m ρ c (Proc.devRef .tc main_arg14) := W9_keep m ρ c main_arg14 (by decide)
    _ = W7 m ρ c (Proc.devRef .tc main_arg14) := W8_of_ne m ρ c main_arg14 (by decide)
    _ = W6 m ρ c (Proc.devRef .tc main_arg14) := W7_keep m ρ c main_arg14 (by decide)
    _ = W5 m ρ c (Proc.devRef .tc main_arg14) := W6_of_ne m ρ c main_arg14 (by decide)
    _ = W4 m ρ c (Proc.devRef .tc main_arg14) := W5_keep m ρ c main_arg14 (by decide)
    _ = W3 m ρ c (Proc.devRef .tc main_arg14) := W4_of_ne m ρ c main_arg14 (by decide)
    _ = W2 m ρ c (Proc.devRef .tc main_arg14) := W3_keep m ρ c main_arg14 (by decide)
    _ = W1 m ρ c (Proc.devRef .tc main_arg14) := W2_of_ne m ρ c main_arg14 (by decide)
    _ = W0 m ρ c (Proc.devRef .tc main_arg14) := W1_keep m ρ c main_arg14 (by decide)
    _ = m ((c : Thread nD τ).loc main_arg14) := rfl

theorem W15_main_arg15 (c : Dev nD) : W15 m ρ c (Proc.devRef .tc main_arg15) = m ((c : Thread nD τ).loc main_arg15) :=
  calc W15 m ρ c (Proc.devRef .tc main_arg15)
    _ = W14 m ρ c (Proc.devRef .tc main_arg15) := W15_of_ne m ρ c main_arg15 (by decide)
    _ = W13 m ρ c (Proc.devRef .tc main_arg15) := W14_of_ne m ρ c main_arg15 (by decide)
    _ = W12 m ρ c (Proc.devRef .tc main_arg15) := W13_keep m ρ c main_arg15 (by decide)
    _ = W11 m ρ c (Proc.devRef .tc main_arg15) := W12_of_ne m ρ c main_arg15 (by decide)
    _ = W10 m ρ c (Proc.devRef .tc main_arg15) := W11_keep m ρ c main_arg15 (by decide)
    _ = W9 m ρ c (Proc.devRef .tc main_arg15) := W10_of_ne m ρ c main_arg15 (by decide)
    _ = W8 m ρ c (Proc.devRef .tc main_arg15) := W9_keep m ρ c main_arg15 (by decide)
    _ = W7 m ρ c (Proc.devRef .tc main_arg15) := W8_of_ne m ρ c main_arg15 (by decide)
    _ = W6 m ρ c (Proc.devRef .tc main_arg15) := W7_keep m ρ c main_arg15 (by decide)
    _ = W5 m ρ c (Proc.devRef .tc main_arg15) := W6_of_ne m ρ c main_arg15 (by decide)
    _ = W4 m ρ c (Proc.devRef .tc main_arg15) := W5_keep m ρ c main_arg15 (by decide)
    _ = W3 m ρ c (Proc.devRef .tc main_arg15) := W4_of_ne m ρ c main_arg15 (by decide)
    _ = W2 m ρ c (Proc.devRef .tc main_arg15) := W3_keep m ρ c main_arg15 (by decide)
    _ = W1 m ρ c (Proc.devRef .tc main_arg15) := W2_of_ne m ρ c main_arg15 (by decide)
    _ = W0 m ρ c (Proc.devRef .tc main_arg15) := W1_keep m ρ c main_arg15 (by decide)
    _ = m ((c : Thread nD τ).loc main_arg15) := rfl

theorem W15_main_arg16 (c : Dev nD) : W15 m ρ c (Proc.devRef .tc main_arg16) = m ((c : Thread nD τ).loc main_arg16) :=
  calc W15 m ρ c (Proc.devRef .tc main_arg16)
    _ = W14 m ρ c (Proc.devRef .tc main_arg16) := W15_of_ne m ρ c main_arg16 (by decide)
    _ = W13 m ρ c (Proc.devRef .tc main_arg16) := W14_of_ne m ρ c main_arg16 (by decide)
    _ = W12 m ρ c (Proc.devRef .tc main_arg16) := W13_keep m ρ c main_arg16 (by decide)
    _ = W11 m ρ c (Proc.devRef .tc main_arg16) := W12_of_ne m ρ c main_arg16 (by decide)
    _ = W10 m ρ c (Proc.devRef .tc main_arg16) := W11_keep m ρ c main_arg16 (by decide)
    _ = W9 m ρ c (Proc.devRef .tc main_arg16) := W10_of_ne m ρ c main_arg16 (by decide)
    _ = W8 m ρ c (Proc.devRef .tc main_arg16) := W9_keep m ρ c main_arg16 (by decide)
    _ = W7 m ρ c (Proc.devRef .tc main_arg16) := W8_of_ne m ρ c main_arg16 (by decide)
    _ = W6 m ρ c (Proc.devRef .tc main_arg16) := W7_keep m ρ c main_arg16 (by decide)
    _ = W5 m ρ c (Proc.devRef .tc main_arg16) := W6_of_ne m ρ c main_arg16 (by decide)
    _ = W4 m ρ c (Proc.devRef .tc main_arg16) := W5_keep m ρ c main_arg16 (by decide)
    _ = W3 m ρ c (Proc.devRef .tc main_arg16) := W4_of_ne m ρ c main_arg16 (by decide)
    _ = W2 m ρ c (Proc.devRef .tc main_arg16) := W3_keep m ρ c main_arg16 (by decide)
    _ = W1 m ρ c (Proc.devRef .tc main_arg16) := W2_of_ne m ρ c main_arg16 (by decide)
    _ = W0 m ρ c (Proc.devRef .tc main_arg16) := W1_keep m ρ c main_arg16 (by decide)
    _ = m ((c : Thread nD τ).loc main_arg16) := rfl

theorem W15_main_arg17 (c : Dev nD) : W15 m ρ c (Proc.devRef .tc main_arg17) = m ((c : Thread nD τ).loc main_arg17) :=
  calc W15 m ρ c (Proc.devRef .tc main_arg17)
    _ = W14 m ρ c (Proc.devRef .tc main_arg17) := W15_of_ne m ρ c main_arg17 (by decide)
    _ = W13 m ρ c (Proc.devRef .tc main_arg17) := W14_of_ne m ρ c main_arg17 (by decide)
    _ = W12 m ρ c (Proc.devRef .tc main_arg17) := W13_keep m ρ c main_arg17 (by decide)
    _ = W11 m ρ c (Proc.devRef .tc main_arg17) := W12_of_ne m ρ c main_arg17 (by decide)
    _ = W10 m ρ c (Proc.devRef .tc main_arg17) := W11_keep m ρ c main_arg17 (by decide)
    _ = W9 m ρ c (Proc.devRef .tc main_arg17) := W10_of_ne m ρ c main_arg17 (by decide)
    _ = W8 m ρ c (Proc.devRef .tc main_arg17) := W9_keep m ρ c main_arg17 (by decide)
    _ = W7 m ρ c (Proc.devRef .tc main_arg17) := W8_of_ne m ρ c main_arg17 (by decide)
    _ = W6 m ρ c (Proc.devRef .tc main_arg17) := W7_keep m ρ c main_arg17 (by decide)
    _ = W5 m ρ c (Proc.devRef .tc main_arg17) := W6_of_ne m ρ c main_arg17 (by decide)
    _ = W4 m ρ c (Proc.devRef .tc main_arg17) := W5_keep m ρ c main_arg17 (by decide)
    _ = W3 m ρ c (Proc.devRef .tc main_arg17) := W4_of_ne m ρ c main_arg17 (by decide)
    _ = W2 m ρ c (Proc.devRef .tc main_arg17) := W3_keep m ρ c main_arg17 (by decide)
    _ = W1 m ρ c (Proc.devRef .tc main_arg17) := W2_of_ne m ρ c main_arg17 (by decide)
    _ = W0 m ρ c (Proc.devRef .tc main_arg17) := W1_keep m ρ c main_arg17 (by decide)
    _ = m ((c : Thread nD τ).loc main_arg17) := rfl

theorem W15_main_arg18 (c : Dev nD) : W15 m ρ c (Proc.devRef .tc main_arg18) = m ((c : Thread nD τ).loc main_arg18) :=
  calc W15 m ρ c (Proc.devRef .tc main_arg18)
    _ = W14 m ρ c (Proc.devRef .tc main_arg18) := W15_of_ne m ρ c main_arg18 (by decide)
    _ = W13 m ρ c (Proc.devRef .tc main_arg18) := W14_of_ne m ρ c main_arg18 (by decide)
    _ = W12 m ρ c (Proc.devRef .tc main_arg18) := W13_keep m ρ c main_arg18 (by decide)
    _ = W11 m ρ c (Proc.devRef .tc main_arg18) := W12_of_ne m ρ c main_arg18 (by decide)
    _ = W10 m ρ c (Proc.devRef .tc main_arg18) := W11_keep m ρ c main_arg18 (by decide)
    _ = W9 m ρ c (Proc.devRef .tc main_arg18) := W10_of_ne m ρ c main_arg18 (by decide)
    _ = W8 m ρ c (Proc.devRef .tc main_arg18) := W9_keep m ρ c main_arg18 (by decide)
    _ = W7 m ρ c (Proc.devRef .tc main_arg18) := W8_of_ne m ρ c main_arg18 (by decide)
    _ = W6 m ρ c (Proc.devRef .tc main_arg18) := W7_keep m ρ c main_arg18 (by decide)
    _ = W5 m ρ c (Proc.devRef .tc main_arg18) := W6_of_ne m ρ c main_arg18 (by decide)
    _ = W4 m ρ c (Proc.devRef .tc main_arg18) := W5_keep m ρ c main_arg18 (by decide)
    _ = W3 m ρ c (Proc.devRef .tc main_arg18) := W4_of_ne m ρ c main_arg18 (by decide)
    _ = W2 m ρ c (Proc.devRef .tc main_arg18) := W3_keep m ρ c main_arg18 (by decide)
    _ = W1 m ρ c (Proc.devRef .tc main_arg18) := W2_of_ne m ρ c main_arg18 (by decide)
    _ = W0 m ρ c (Proc.devRef .tc main_arg18) := W1_keep m ρ c main_arg18 (by decide)
    _ = m ((c : Thread nD τ).loc main_arg18) := rfl

theorem W15_main_arg19 (c : Dev nD) : W15 m ρ c (Proc.devRef .tc main_arg19) = m ((c : Thread nD τ).loc main_arg19) :=
  calc W15 m ρ c (Proc.devRef .tc main_arg19)
    _ = W14 m ρ c (Proc.devRef .tc main_arg19) := W15_of_ne m ρ c main_arg19 (by decide)
    _ = W13 m ρ c (Proc.devRef .tc main_arg19) := W14_of_ne m ρ c main_arg19 (by decide)
    _ = W12 m ρ c (Proc.devRef .tc main_arg19) := W13_keep m ρ c main_arg19 (by decide)
    _ = W11 m ρ c (Proc.devRef .tc main_arg19) := W12_of_ne m ρ c main_arg19 (by decide)
    _ = W10 m ρ c (Proc.devRef .tc main_arg19) := W11_keep m ρ c main_arg19 (by decide)
    _ = W9 m ρ c (Proc.devRef .tc main_arg19) := W10_of_ne m ρ c main_arg19 (by decide)
    _ = W8 m ρ c (Proc.devRef .tc main_arg19) := W9_keep m ρ c main_arg19 (by decide)
    _ = W7 m ρ c (Proc.devRef .tc main_arg19) := W8_of_ne m ρ c main_arg19 (by decide)
    _ = W6 m ρ c (Proc.devRef .tc main_arg19) := W7_keep m ρ c main_arg19 (by decide)
    _ = W5 m ρ c (Proc.devRef .tc main_arg19) := W6_of_ne m ρ c main_arg19 (by decide)
    _ = W4 m ρ c (Proc.devRef .tc main_arg19) := W5_keep m ρ c main_arg19 (by decide)
    _ = W3 m ρ c (Proc.devRef .tc main_arg19) := W4_of_ne m ρ c main_arg19 (by decide)
    _ = W2 m ρ c (Proc.devRef .tc main_arg19) := W3_keep m ρ c main_arg19 (by decide)
    _ = W1 m ρ c (Proc.devRef .tc main_arg19) := W2_of_ne m ρ c main_arg19 (by decide)
    _ = W0 m ρ c (Proc.devRef .tc main_arg19) := W1_keep m ρ c main_arg19 (by decide)
    _ = m ((c : Thread nD τ).loc main_arg19) := rfl

/-! ## The proof data family and what rides beside the buffers -/

/-- Every pipeline's proof data, each at its region's entry contents: a literal case split on the pipeline's index. -/
noncomputable def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V14 m ρ) c
noncomputable abbrev 𝒱₀ : Variants := Variants.none
/-- No core owes another anything: no level is assigned. -/
noncomputable abbrev L : GSem nD τ sig → Finset Unit := fun _ => ∅
noncomputable abbrev lv : GSem nD τ sig → Unit → ℕ := fun _ _ => 0
/-- What a core holds beside its buffers through every segment: its generator register at some state, and its dues, none. -/
noncomputable abbrev R (c : Dev nD) : sProp 𝕄 := iprop((∃ r, prngReg c r) ∗ ∃ W, owes (c : Thread nD τ) (0 : CellTallies nD τ sig Unit) W)
/-- A stretch of host operations as a segment over the unscoped references, from the contents `W`, `R` riding along. -/
noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those a core's thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
noncomputable abbrev Tₙ (c : Dev nD) : sProp 𝕄 := iprop(StableHlo.held (c : Thread nD τ) (Pipeline.ucRefs τ sig) (W15 m ρ c) ∗ ∃ r, prngReg c r)

end Cert.Kernel.KF

end
-- ==== Proof.KRunB0.lean ====
/- The run of @main: kernel region 0 as a segment between the contents its entry and its exit boundaries name. -/
import proofs.«120809_j78615081386430_2_alg».proof.Proof.KRunA

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration family meets this region's own configuration only when
-- unification may unfold plain definitions inside a metavariable's type
set_option backward.isDefEq.respectTransparency.types false in
/-- Region 0 as a segment: entered with every unscoped buffer at `W1`, left with them at `W2`. Its windows' arrays
    are split out of the unscoped buffers at entry and put back, at the exit contents, when it ends; the generator register
    goes into the class invariant and comes back; nothing is owed; the kernel has no semaphore of its own. -/
noncomputable def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.KF

end
-- ==== Proof.KRunB1.lean ====
/- The run of @main: kernel region 1 as a segment between the contents its entry and its exit boundaries name. -/
import proofs.«120809_j78615081386430_2_alg».proof.Proof.KRunA

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration family meets this region's own configuration only when
-- unification may unfold plain definitions inside a metavariable's type
set_option backward.isDefEq.respectTransparency.types false in
/-- Region 1 as a segment: entered with every unscoped buffer at `W3`, left with them at `W4`. Its windows' arrays
    are split out of the unscoped buffers at entry and put back, at the exit contents, when it ends; the generator register
    goes into the class invariant and comes back; nothing is owed; the kernel has no semaphore of its own. -/
noncomputable def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.KF

end
-- ==== Proof.KRunB2.lean ====
/- The run of @main: kernel region 2 as a segment between the contents its entry and its exit boundaries name. -/
import proofs.«120809_j78615081386430_2_alg».proof.Proof.KRunA

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration family meets this region's own configuration only when
-- unification may unfold plain definitions inside a metavariable's type
set_option backward.isDefEq.respectTransparency.types false in
/-- Region 2 as a segment: entered with every unscoped buffer at `W5`, left with them at `W6`. Its windows' arrays
    are split out of the unscoped buffers at entry and put back, at the exit contents, when it ends; the generator register
    goes into the class invariant and comes back; nothing is owed; the kernel has no semaphore of its own. -/
noncomputable def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.KF

end
-- ==== Proof.KRunB3.lean ====
/- The run of @main: kernel region 3 as a segment between the contents its entry and its exit boundaries name. -/
import proofs.«120809_j78615081386430_2_alg».proof.Proof.KRunA

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration family meets this region's own configuration only when
-- unification may unfold plain definitions inside a metavariable's type
set_option backward.isDefEq.respectTransparency.types false in
/-- Region 3 as a segment: entered with every unscoped buffer at `W7`, left with them at `W8`. Its windows' arrays
    are split out of the unscoped buffers at entry and put back, at the exit contents, when it ends; the generator register
    goes into the class invariant and comes back; nothing is owed; the kernel has no semaphore of its own. -/
noncomputable def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.KF

end
-- ==== Proof.KRunB4.lean ====
/- The run of @main: kernel region 4 as a segment between the contents its entry and its exit boundaries name. -/
import proofs.«120809_j78615081386430_2_alg».proof.Proof.KRunA

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration family meets this region's own configuration only when
-- unification may unfold plain definitions inside a metavariable's type
set_option backward.isDefEq.respectTransparency.types false in
/-- Region 4 as a segment: entered with every unscoped buffer at `W9`, left with them at `W10`. Its windows' arrays
    are split out of the unscoped buffers at entry and put back, at the exit contents, when it ends; the generator register
    goes into the class invariant and comes back; nothing is owed; the kernel has no semaphore of its own. -/
noncomputable def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.KF

end
-- ==== Proof.KRunB5.lean ====
/- The run of @main: kernel region 5 as a segment between the contents its entry and its exit boundaries name. -/
import proofs.«120809_j78615081386430_2_alg».proof.Proof.KRunA

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration family meets this region's own configuration only when
-- unification may unfold plain definitions inside a metavariable's type
set_option backward.isDefEq.respectTransparency.types false in
/-- Region 5 as a segment: entered with every unscoped buffer at `W11`, left with them at `W12`. Its windows' arrays
    are split out of the unscoped buffers at entry and put back, at the exit contents, when it ends; the generator register
    goes into the class invariant and comes back; nothing is owed; the kernel has no semaphore of its own. -/
noncomputable def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.KF

end
-- ==== Proof.KRunB6.lean ====
/- The run of @main: kernel region 6 as a segment between the contents its entry and its exit boundaries name. -/
import proofs.«120809_j78615081386430_2_alg».proof.Proof.KRunA

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration family meets this region's own configuration only when
-- unification may unfold plain definitions inside a metavariable's type
set_option backward.isDefEq.respectTransparency.types false in
/-- Region 6 as a segment: entered with every unscoped buffer at `W13`, left with them at `W14`. Its windows' arrays
    are split out of the unscoped buffers at entry and put back, at the exit contents, when it ends; the generator register
    goes into the class invariant and comes back; nothing is owed; the kernel has no semaphore of its own. -/
noncomputable def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.KF

end
-- ==== Proof.KRunB7.lean ====
/- The run of @main: kernel region 7 as a segment between the contents its entry and its exit boundaries name. -/
import proofs.«120809_j78615081386430_2_alg».proof.Proof.KRunA

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration family meets this region's own configuration only when
-- unification may unfold plain definitions inside a metavariable's type
set_option backward.isDefEq.respectTransparency.types false in
/-- Region 7 as a segment: entered with every unscoped buffer at `W14`, left with them at `W15`. Its windows' arrays
    are split out of the unscoped buffers at entry and put back, at the exit contents, when it ends; the generator register
    goes into the class invariant and comes back; nothing is owed; the kernel has no semaphore of its own. -/
noncomputable def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V14 m ρ) c).loose
  hwaits := Pipeline.hwaits_of_owed_zero _ _ _ _ L lv 7 fun _ _ => rfl
  pre c := iprop(StableHlo.held (c : Thread nD τ) (Pipeline.ucRefs τ sig) (W14 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V14 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V14 m ρ c) (V15 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.KF

end
-- ==== Proof.KRun.lean ====
/- The run of @main, assembled: its fifteen segments in order, @main as their run, and the launch over them —
   every weakly fair execution terminates without a fault, the two result arrays end at the last boundary's contents
   and every argument array ends as launched. -/
import proofs.«120809_j78615081386430_2_alg».proof.Proof.KRunA
import proofs.«120809_j78615081386430_2_alg».proof.Proof.KRunB0
import proofs.«120809_j78615081386430_2_alg».proof.Proof.KRunB1
import proofs.«120809_j78615081386430_2_alg».proof.Proof.KRunB2
import proofs.«120809_j78615081386430_2_alg».proof.Proof.KRunB3
import proofs.«120809_j78615081386430_2_alg».proof.Proof.KRunB4
import proofs.«120809_j78615081386430_2_alg».proof.Proof.KRunB5
import proofs.«120809_j78615081386430_2_alg».proof.Proof.KRunB6
import proofs.«120809_j78615081386430_2_alg».proof.Proof.KRunB7

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's fifteen segments in order: a host segment per stretch, from the contents of the boundary before it, and
    a region per kernel call. -/
noncomputable abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .region (reg7 m ρ) ]

/-- @main is the run of the segments: both are the chain of the same fifteen fragments. -/
theorem main_run (c : Dev nD) : main (F := F) c = Pipeline.Seg.run (segs m ρ) := by
  rw [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()),
      StableHlo.seq hostOps6,
      Prog.lift (.customCall (Pipeline.entry 6) ()),
      Prog.lift (.customCall (Pipeline.entry 7) ()) ] from rfl]

-- the launch theorem's implicit arguments are found by unifying its conclusion with the statement, which takes
-- unfolding plain definitions inside a metavariable's type
set_option backward.isDefEq.respectTransparency.types false in
/-- From any memory with zero counters, every weakly fair execution of @main on the TensorCores terminates, nothing
    faulting; the two result arrays end holding the last boundary's contents, and every argument array ends as launched. -/
theorem run_valued : θ_run defs (onTc (τ := τ) (main (F := F))) ⟨m, fun _ => 0, ρ⟩ (fun r => ∀ c : Dev nD,
      r.2.mem ((c.tc : Thread nD τ).loc main_v134) = W15 m ρ c (Proc.devRef .tc main_v134)
      ∧ r.2.mem ((c.tc : Thread nD τ).loc main_v135) = W15 m ρ c (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v134 (by decide)), h c _ (mem_uc main_v135 (by decide)),
        (h c _ (mem_uc main_arg0 (by decide))).trans (W15_main_arg0 m ρ c),
        (h c _ (mem_uc main_arg1 (by decide))).trans (W15_main_arg1 m ρ c),
        (h c _ (mem_uc main_arg2 (by decide))).trans (W15_main_arg2 m ρ c),
        (h c _ (mem_uc main_arg3 (by decide))).trans (W15_main_arg3 m ρ c),
        (h c _ (mem_uc main_arg4 (by decide))).trans (W15_main_arg4 m ρ c),
        (h c _ (mem_uc main_arg5 (by decide))).trans (W15_main_arg5 m ρ c),
        (h c _ (mem_uc main_arg6 (by decide))).trans (W15_main_arg6 m ρ c),
        (h c _ (mem_uc main_arg7 (by decide))).trans (W15_main_arg7 m ρ c),
        (h c _ (mem_uc main_arg8 (by decide))).trans (W15_main_arg8 m ρ c),
        (h c _ (mem_uc main_arg9 (by decide))).trans (W15_main_arg9 m ρ c),
        (h c _ (mem_uc main_arg10 (by decide))).trans (W15_main_arg10 m ρ c),
        (h c _ (mem_uc main_arg11 (by decide))).trans (W15_main_arg11 m ρ c),
        (h c _ (mem_uc main_arg12 (by decide))).trans (W15_main_arg12 m ρ c),
        (h c _ (mem_uc main_arg13 (by decide))).trans (W15_main_arg13 m ρ c),
        (h c _ (mem_uc main_arg14 (by decide))).trans (W15_main_arg14 m ρ c),
        (h c _ (mem_uc main_arg15 (by decide))).trans (W15_main_arg15 m ρ c),
        (h c _ (mem_uc main_arg16 (by decide))).trans (W15_main_arg16 m ρ c),
        (h c _ (mem_uc main_arg17 (by decide))).trans (W15_main_arg17 m ρ c),
        (h c _ (mem_uc main_arg18 (by decide))).trans (W15_main_arg18 m ρ c),
        (h c _ (mem_uc main_arg19 (by decide))).trans (W15_main_arg19 m ρ c)⟩)

/-- The frame: every weakly fair execution of @main terminates, nothing faulting, every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs (onTc (τ := τ) (main (F := F))) ⟨m, fun _ => 0, ρ⟩).mono (fun r h c => (h c).2.2) (run_valued m ρ)

end Cert.Kernel.KF

end
-- ==== Proof.KiBody0.lean ====
/- Region 0 of the kernel program's entry function: the layer kernel's body on one row tile.
   At any contents `V` of the TensorCore's buffers on entry: the block of each window at a grid point,
   what the body leaves in its two output blocks as a function of the four input blocks, the body's
   triple, the pipeline's proof data and the per-point obligation. Generic in the float instance. -/
import proofs.«120809_j78615081386430_2_alg».proof.Proof.Gen.KernelIdeal.Launch
import proofs.«120809_j78615081386430_2_alg».proof.Proof.Gen.KernelIdeal.Skeleton
import proofs.«120809_j78615081386430_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the window's array as it stands in `V`. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever proof data has `V`'s array for it and leaves its block untouched, the
    staging buffer the body sees at a point holds the window's block there, whether or not that point fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: whatever proof data has `V`'s array for it and leaves its block untouched, the
    staging buffer the body sees at a point holds the window's block there, whether or not that point fetched it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: whatever proof data has `V`'s array for it and leaves its block untouched, the
    staging buffer the body sees at a point holds the window's block there, whether or not that point fetched it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: whatever proof data has `V`'s array for it and leaves its block untouched, the
    staging buffer the body sees at a point holds the window's block there, whether or not that point fetched it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The three whole-block rectangles the body reads and writes through. -/
abbrev r0_0 : Rect S5000x64 := Rect.unit (s := S5000x64) ![0, 0] S5000x64.size inb_S5000x64_S5000x64_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-- The new embedding block (window 4) after the body: the single whole-block store of the first payload,
    evaluated at the four input blocks. -/
noncomputable def out0_4 (x0 : Vec F S5000x64 .f32) (x1 : Vec F S5000x64 .f32) (x2 : Vec F S128x128 .f32) (x3 : Vec F S1x128 .f32) : Vec F S5000x64 .f32 :=
  View.canon [⟨r0_0, k0_pay1 (View.ld x0 r0_0) (View.ld x1 r0_0) (View.ld x2 r0_1) (View.ld x3 r0_2)⟩]

/-- The row-normalized block (window 5) after the body: the single whole-block store of the second payload. -/
noncomputable def out0_5 (x0 : Vec F S5000x64 .f32) (x1 : Vec F S5000x64 .f32) (x2 : Vec F S128x128 .f32) (x3 : Vec F S1x128 .f32) : Vec F S5000x64 .f32 :=
  View.canon [⟨r0_0, k0_pay2 (View.ld x0 r0_0) (View.ld x1 r0_0) (View.ld x2 r0_1) (View.ld x3 r0_2)⟩]

/-- One whole-block piece covers every index of the block. -/
theorem cover0_o (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

set_option maxHeartbeats 400000 in
/-- The body's triple: started with the four input buffers at contents `x0 … x3` and the two output buffers at
    anything, it ends with the inputs as they were and the outputs at `out0_4`, `out0_5` of the inputs. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x64 .f32) (harg5 : arg5.IsWhole) (arg6 : Memref sig .tc .vmem S5000x64 .f32) (harg6 : arg6.IsWhole)
    (x0 : Vec F S5000x64 .f32) (x1 : Vec F S5000x64 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E (cc0__layer_kernel i arg1 harg1 arg2 harg2 arg3 harg3 arg4 harg4 arg5 harg5 arg6 harg6) K := by
  simp only [cc0__layer_kernel_eq_skeleton]; unfold cc0__layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-- The proof data of pipeline 0 on core `c`: the arrays as `V` has them; after the body at a point each input
    buffer still at its block and each output buffer at its `out0_w` of the input blocks; the invariant is the
    untouched rest; full shares; nothing owed. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is entered with at point `t`, window by window, -/
noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back. -/
noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the body's triple applies; the invariant and
    the debt term pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.KF

end
-- ==== Proof.KiBody1.lean ====
/- Region 1 of the kernel program's entry function: the layer kernel's body on one row tile.
   At any contents `V` of the TensorCore's buffers on entry: the block of each window at a grid point,
   what the body leaves in its two output blocks as a function of the four input blocks, the body's
   triple, the pipeline's proof data and the per-point obligation. Generic in the float instance. -/
import proofs.«120809_j78615081386430_2_alg».proof.Proof.Gen.KernelIdeal.Launch
import proofs.«120809_j78615081386430_2_alg».proof.Proof.Gen.KernelIdeal.Skeleton
import proofs.«120809_j78615081386430_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the window's array as it stands in `V`. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whatever proof data has `V`'s array for it and leaves its block untouched, the
    staging buffer the body sees at a point holds the window's block there, whether or not that point fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: whatever proof data has `V`'s array for it and leaves its block untouched, the
    staging buffer the body sees at a point holds the window's block there, whether or not that point fetched it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: whatever proof data has `V`'s array for it and leaves its block untouched, the
    staging buffer the body sees at a point holds the window's block there, whether or not that point fetched it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: whatever proof data has `V`'s array for it and leaves its block untouched, the
    staging buffer the body sees at a point holds the window's block there, whether or not that point fetched it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The three whole-block rectangles the body reads and writes through. -/
abbrev r1_0 : Rect S5000x64 := Rect.unit (s := S5000x64) ![0, 0] S5000x64.size inb_S5000x64_S5000x64_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-- The new embedding block (window 4) after the body: the single whole-block store of the first payload,
    evaluated at the four input blocks. -/
noncomputable def out1_4 (x0 : Vec F S5000x64 .f32) (x1 : Vec F S5000x64 .f32) (x2 : Vec F S128x128 .f32) (x3 : Vec F S1x128 .f32) : Vec F S5000x64 .f32 :=
  View.canon [⟨r1_0, k1_pay1 (View.ld x0 r1_0) (View.ld x1 r1_0) (View.ld x2 r1_1) (View.ld x3 r1_2)⟩]

/-- The row-normalized block (window 5) after the body: the single whole-block store of the second payload. -/
noncomputable def out1_5 (x0 : Vec F S5000x64 .f32) (x1 : Vec F S5000x64 .f32) (x2 : Vec F S128x128 .f32) (x3 : Vec F S1x128 .f32) : Vec F S5000x64 .f32 :=
  View.canon [⟨r1_0, k1_pay2 (View.ld x0 r1_0) (View.ld x1 r1_0) (View.ld x2 r1_1) (View.ld x3 r1_2)⟩]

/-- One whole-block piece covers every index of the block. -/
theorem cover1_o (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

set_option maxHeartbeats 400000 in
/-- The body's triple: started with the four input buffers at contents `x0 … x3` and the two output buffers at
    anything, it ends with the inputs as they were and the outputs at `out1_4`, `out1_5` of the inputs. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x64 .f32) (harg5 : arg5.IsWhole) (arg6 : Memref sig .tc .vmem S5000x64 .f32) (harg6 : arg6.IsWhole)
    (x0 : Vec F S5000x64 .f32) (x1 : Vec F S5000x64 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3) ∗ owns (c : Thread nD τ) arg6 fullShare (out1_5 x0 x1 x2 x3)) -∗ K ⟨⟩))
      ⊢ wp frame (wpE (defs₀ (F := F)) Variants.none c none) E (cc1__layer_kernel i arg1 harg1 arg2 harg2 arg3 harg3 arg4 harg4 arg5 harg5 arg6 harg6) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_o _)
  iexists _; isplitr
  swap; · iexact H5
  ipureintro
  exact View.read_writes_eq_canon _ _ _ (cover1_o _)

/-- The proof data of pipeline 1 on core `c`: the arrays as `V` has them; after the body at a point each input
    buffer still at its block and each output buffer at its `out1_w` of the input blocks; the invariant is the
    untouched rest; full shares; nothing owed. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is entered with at point `t`, window by window, -/
noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it hands back. -/
noncomputable def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the body's triple applies; the invariant and
    the debt term pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.KF

end
-- ==== Proof.KiBody2.lean ====
/- Region 2 of the kernel program's entry function: the layer kernel's body on one row tile.
   At any contents `V` of the TensorCore's buffers on entry: the block of each window at a grid point,
   what the body leaves in its two output blocks as a function of the four input blocks, the body's
   triple, the pipeline's proof data and the per-point obligation. Generic in the float instance. -/
import proofs.«120809_j78615081386430_2_alg».proof.Proof.Gen.KernelIdeal.Launch
import proofs.«120809_j78615081386430_2_alg».proof.Proof.Gen.KernelIdeal.Skeleton
import proofs.«120809_j78615081386430_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the window's array as it stands in `V`. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: whatever proof data has `V`'s array for it and leaves its block untouched, the
    staging buffer the body sees at a point holds the window's block there, whether or not that point fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: whatever proof data has `V`'s array for it and leaves its block untouched, the
    staging buffer the body sees at a point holds the window's block there, whether or not that point fetched it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: whatever proof data has `V`'s array for it and leaves its block untouched, the
    staging buffer the body sees at a point holds the window's block there, whether or not that point fetched it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: whatever proof data has `V`'s array for it and leaves its block untouched, the
    staging buffer the body sees at a point holds the window's block there, whether or not that point fetched it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The three whole-block rectangles the body reads and writes through. -/
abbrev r2_0 : Rect S5000x64 := Rect.unit (s := S5000x64) ![0, 0] S5000x64.size inb_S5000x64_S5000x64_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

/-- The new embedding block (window 4) after the body: the single whole-block store of the first payload,
    evaluated at the four input blocks. -/
noncomputable def out2_4 (x0 : Vec F S5000x64 .f32) (x1 : Vec F S5000x64 .f32) (x2 : Vec F S128x128 .f32) (x3 : Vec F S1x128 .f32) : Vec F S5000x64 .f32 :=
  View.canon [⟨r2_0, k2_pay1 (View.ld x0 r2_0) (View.ld x1 r2_0) (View.ld x2 r2_1) (View.ld x3 r2_2)⟩]

/-- The row-normalized block (window 5) after the body: the single whole-block store of the second payload. -/
noncomputable def out2_5 (x0 : Vec F S5000x64 .f32) (x1 : Vec F S5000x64 .f32) (x2 : Vec F S128x128 .f32) (x3 : Vec F S1x128 .f32) : Vec F S5000x64 .f32 :=
  View.canon [⟨r2_0, k2_pay2 (View.ld x0 r2_0) (View.ld x1 r2_0) (View.ld x2 r2_1) (View.ld x3 r2_2)⟩]

/-- One whole-block piece covers every index of the block. -/
theorem cover2_o (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

set_option maxHeartbeats 400000 in
/-- The body's triple: started with the four input buffers at contents `x0 … x3` and the two output buffers at
    anything, it ends with the inputs as they were and the outputs at `out2_4`, `out2_5` of the inputs. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x64 .f32) (harg5 : arg5.IsWhole) (arg6 : Memref sig .tc .vmem S5000x64 .f32) (harg6 : arg6.IsWhole)
    (x0 : Vec F S5000x64 .f32) (x1 : Vec F S5000x64 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3) ∗ owns (c : Thread nD τ) arg6 fullShare (out2_5 x0 x1 x2 x3)) -∗ K ⟨⟩))
      ⊢ wp frame (wpE (defs₀ (F := F)) Variants.none c none) E (cc2__layer_kernel i arg1 harg1 arg2 harg2 arg3 harg3 arg4 harg4 arg5 harg5 arg6 harg6) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_o _)
  iexists _; isplitr
  swap; · iexact H5
  ipureintro
  exact View.read_writes_eq_canon _ _ _ (cover2_o _)

/-- The proof data of pipeline 2 on core `c`: the arrays as `V` has them; after the body at a point each input
    buffer still at its block and each output buffer at its `out2_w` of the input blocks; the invariant is the
    untouched rest; full shares; nothing owed. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is entered with at point `t`, window by window, -/
noncomputable def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it hands back. -/
noncomputable def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the body's triple applies; the invariant and
    the debt term pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.KF

end
-- ==== Proof.KiBody3.lean ====
/- Region 3 of the kernel program's entry function: the layer kernel's body on one row tile.
   At any contents `V` of the TensorCore's buffers on entry: the block of each window at a grid point,
   what the body leaves in its two output blocks as a function of the four input blocks, the body's
   triple, the pipeline's proof data and the per-point obligation. Generic in the float instance. -/
import proofs.«120809_j78615081386430_2_alg».proof.Proof.Gen.KernelIdeal.Launch
import proofs.«120809_j78615081386430_2_alg».proof.Proof.Gen.KernelIdeal.Skeleton
import proofs.«120809_j78615081386430_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the window's array as it stands in `V`. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whatever proof data has `V`'s array for it and leaves its block untouched, the
    staging buffer the body sees at a point holds the window's block there, whether or not that point fetched it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: whatever proof data has `V`'s array for it and leaves its block untouched, the
    staging buffer the body sees at a point holds the window's block there, whether or not that point fetched it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: whatever proof data has `V`'s array for it and leaves its block untouched, the
    staging buffer the body sees at a point holds the window's block there, whether or not that point fetched it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: whatever proof data has `V`'s array for it and leaves its block untouched, the
    staging buffer the body sees at a point holds the window's block there, whether or not that point fetched it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The three whole-block rectangles the body reads and writes through. -/
abbrev r3_0 : Rect S1000x64 := Rect.unit (s := S1000x64) ![0, 0] S1000x64.size inb_S1000x64_S1000x64_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-- The new embedding block (window 4) after the body: the single whole-block store of the first payload,
    evaluated at the four input blocks. -/
noncomputable def out3_4 (x0 : Vec F S1000x64 .f32) (x1 : Vec F S1000x64 .f32) (x2 : Vec F S128x128 .f32) (x3 : Vec F S1x128 .f32) : Vec F S1000x64 .f32 :=
  View.canon [⟨r3_0, k3_pay1 (View.ld x0 r3_0) (View.ld x1 r3_0) (View.ld x2 r3_1) (View.ld x3 r3_2)⟩]

/-- The row-normalized block (window 5) after the body: the single whole-block store of the second payload. -/
noncomputable def out3_5 (x0 : Vec F S1000x64 .f32) (x1 : Vec F S1000x64 .f32) (x2 : Vec F S128x128 .f32) (x3 : Vec F S1x128 .f32) : Vec F S1000x64 .f32 :=
  View.canon [⟨r3_0, k3_pay2 (View.ld x0 r3_0) (View.ld x1 r3_0) (View.ld x2 r3_1) (View.ld x3 r3_2)⟩]

/-- One whole-block piece covers every index of the block. -/
theorem cover3_o (p0 : Vec F S1000x64 .f32) (y : S1000x64.Idx) :
    ∃ pc ∈ ([⟨r3_0, p0⟩] : List (View.Piece (Elt F) S1000x64 .f32)), y ∈ pc.1.set :=
  View.cover_of_tiled [⟨r3_0, p0⟩] S1000x64.size (by rfl) y

set_option maxHeartbeats 400000 in
/-- The body's triple: started with the four input buffers at contents `x0 … x3` and the two output buffers at
    anything, it ends with the inputs as they were and the outputs at `out3_4`, `out3_5` of the inputs. -/
theorem sound_kernel3 (c : Dev nD) (E : Set ℕ) (i : grid3.Coords)
    (arg1 : Memref sig .tc .vmem S1000x64 .f32) (harg1 : arg1.IsWhole) (arg2 : Memref sig .tc .vmem S1000x64 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1000x64 .f32) (harg5 : arg5.IsWhole) (arg6 : Memref sig .tc .vmem S1000x64 .f32) (harg6 : arg6.IsWhole)
    (x0 : Vec F S1000x64 .f32) (x1 : Vec F S1000x64 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out3_4 x0 x1 x2 x3) ∗ owns (c : Thread nD τ) arg6 fullShare (out3_5 x0 x1 x2 x3)) -∗ K ⟨⟩))
      ⊢ wp frame (wpE (defs₀ (F := F)) Variants.none c none) E (cc3__layer_kernel i arg1 harg1 arg2 harg2 arg3 harg3 arg4 harg4 arg5 harg5 arg6 harg6) K := by
  simp only [cc3__layer_kernel_eq_skeleton]; unfold cc3__layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_o _)
  iexists _; isplitr
  swap; · iexact H5
  ipureintro
  exact View.read_writes_eq_canon _ _ _ (cover3_o _)

/-- The proof data of pipeline 3 on core `c`: the arrays as `V` has them; after the body at a point each input
    buffer still at its block and each output buffer at its `out3_w` of the input blocks; the invariant is the
    untouched rest; full shares; nothing owed. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is entered with at point `t`, window by window, -/
noncomputable def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it hands back. -/
noncomputable def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the input buffers hold their blocks, so the body's triple applies; the invariant and
    the debt term pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.KF

end
-- ==== Proof.KiBody4.lean ====
/- Region 4 of the kernel program's entry function: the layer kernel's body on one row tile.
   At any contents `V` of the TensorCore's buffers on entry: the block of each window at a grid point,
   what the body leaves in its two output blocks as a function of the four input blocks, the body's
   triple, the pipeline's proof data and the per-point obligation. Generic in the float instance. -/
import proofs.«120809_j78615081386430_2_alg».proof.Proof.Gen.KernelIdeal.Launch
import proofs.«120809_j78615081386430_2_alg».proof.Proof.Gen.KernelIdeal.Skeleton
import proofs.«120809_j78615081386430_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the window's array as it stands in `V`. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0: whatever proof data has `V`'s array for it and leaves its block untouched, the
    staging buffer the body sees at a point holds the window's block there, whether or not that point fetched it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1: whatever proof data has `V`'s array for it and leaves its block untouched, the
    staging buffer the body sees at a point holds the window's block there, whether or not that point fetched it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2: whatever proof data has `V`'s array for it and leaves its block untouched, the
    staging buffer the body sees at a point holds the window's block there, whether or not that point fetched it. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3: whatever proof data has `V`'s array for it and leaves its block untouched, the
    staging buffer the body sees at a point holds the window's block there, whether or not that point fetched it. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The three whole-block rectangles the body reads and writes through. -/
abbrev r4_0 : Rect S1000x64 := Rect.unit (s := S1000x64) ![0, 0] S1000x64.size inb_S1000x64_S1000x64_0_0
abbrev r4_1 : Rect S128x128 := Rect.unit (s := S128x128) ![0, 0] S128x128.size inb_S128x128_S128x128_0_0
abbrev r4_2 : Rect S1x128 := Rect.unit (s := S1x128) ![0, 0] S1x128.size inb_S1x128_S1x128_0_0

/-- The new embedding block (window 4) after the body: the single whole-block store of the first payload,
    evaluated at the four input blocks. -/
noncomputable def out4_4 (x0 : Vec F S1000x64 .f32) (x1 : Vec F S1000x64 .f32) (x2 : Vec F S128x128 .f32) (x3 : Vec F S1x128 .f32) : Vec F S1000x64 .f32 :=
  View.canon [⟨r4_0, k4_pay1 (View.ld x0 r4_0) (View.ld x1 r4_0) (View.ld x2 r4_1) (View.ld x3 r4_2)⟩]

/-- The row-normalized block (window 5) after the body: the single whole-block store of the second payload. -/
noncomputable def out4_5 (x0 : Vec F S1000x64 .f32) (x1 : Vec F S1000x64 .f32) (x2 : Vec F S128x128 .f32) (x3 : Vec F S1x128 .f32) : Vec F S1000x64 .f32 :=
  View.canon [⟨r4_0, k4_pay2 (View.ld x0 r4_0) (View.ld x1 r4_0) (View.ld x2 r4_1) (View.ld x3 r4_2)⟩]

/-- One whole-block piece covers every index of the block. -/
theorem cover4_o (p0 : Vec F S1000x64 .f32) (y : S1000x64.Idx) :
    ∃ pc ∈ ([⟨r4_0, p0⟩] : List (View.Piece (Elt F) S1000x64 .f32)), y ∈ pc.1.set :=
  View.cover_of_tiled [⟨r4_0, p0⟩] S1000x64.size (by rfl) y

set_option maxHeartbeats 400000 in
/-- The body's triple: started with the four input buffers at contents `x0 … x3` and the two output buffers at
    anything, it ends with the inputs as they were and the outputs at `out4_4`, `out4_5` of the inputs. -/
theorem sound_kernel4 (c : Dev nD) (E : Set ℕ) (i : grid4.Coords)
    (arg1 : Memref sig .tc .vmem S1000x64 .f32) (harg1 : arg1.IsWhole) (arg2 : Memref sig .tc .vmem S1000x64 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1000x64 .f32) (harg5 : arg5.IsWhole) (arg6 : Memref sig .tc .vmem S1000x64 .f32) (harg6 : arg6.IsWhole)
    (x0 : Vec F S1000x64 .f32) (x1 : Vec F S1000x64 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 x0 x1 x2 x3) ∗ owns (c : Thread nD τ) arg6 fullShare (out4_5 x0 x1 x2 x3)) -∗ K ⟨⟩))
      ⊢ wp frame (wpE (defs₀ (F := F)) Variants.none c none) E (cc4__layer_kernel i arg1 harg1 arg2 harg2 arg3 harg3 arg4 harg4 arg5 harg5 arg6 harg6) K := by
  simp only [cc4__layer_kernel_eq_skeleton]; unfold cc4__layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4_o _)
  iexists _; isplitr
  swap; · iexact H5
  ipureintro
  exact View.read_writes_eq_canon _ _ _ (cover4_o _)

/-- The proof data of pipeline 4 on core `c`: the arrays as `V` has them; after the body at a point each input
    buffer still at its block and each output buffer at its `out4_w` of the input blocks; the invariant is the
    untouched rest; full shares; nothing owed. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
    | ⟨5, _⟩ => out4_5 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]
theorem after4_5 (c : Dev nD) (t : Fin cfg4.N) : (dat4 V c).after 5 t = out4_5 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is entered with at point `t`, window by window, -/
noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it hands back. -/
noncomputable def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the input buffers hold their blocks, so the body's triple applies; the invariant and
    the debt term pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.KF

end
-- ==== Proof.KiBody5.lean ====
/- Region 5 of the kernel program's entry function: the layer kernel's body on one row tile.
   At any contents `V` of the TensorCore's buffers on entry: the block of each window at a grid point,
   what the body leaves in its two output blocks as a function of the four input blocks, the body's
   triple, the pipeline's proof data and the per-point obligation. Generic in the float instance. -/
import proofs.«120809_j78615081386430_2_alg».proof.Proof.Gen.KernelIdeal.Launch
import proofs.«120809_j78615081386430_2_alg».proof.Proof.Gen.KernelIdeal.Skeleton
import proofs.«120809_j78615081386430_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the window's array as it stands in `V`. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0: whatever proof data has `V`'s array for it and leaves its block untouched, the
    staging buffer the body sees at a point holds the window's block there, whether or not that point fetched it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1: whatever proof data has `V`'s array for it and leaves its block untouched, the
    staging buffer the body sees at a point holds the window's block there, whether or not that point fetched it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2: whatever proof data has `V`'s array for it and leaves its block untouched, the
    staging buffer the body sees at a point holds the window's block there, whether or not that point fetched it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3: whatever proof data has `V`'s array for it and leaves its block untouched, the
    staging buffer the body sees at a point holds the window's block there, whether or not that point fetched it. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The three whole-block rectangles the body reads and writes through. -/
abbrev r5_0 : Rect S1000x64 := Rect.unit (s := S1000x64) ![0, 0] S1000x64.size inb_S1000x64_S1000x64_0_0
abbrev r5_1 : Rect S128x128 := Rect.unit (s := S128x128) ![0, 0] S128x128.size inb_S128x128_S128x128_0_0
abbrev r5_2 : Rect S1x128 := Rect.unit (s := S1x128) ![0, 0] S1x128.size inb_S1x128_S1x128_0_0

/-- The new embedding block (window 4) after the body: the single whole-block store of the first payload,
    evaluated at the four input blocks. -/
noncomputable def out5_4 (x0 : Vec F S1000x64 .f32) (x1 : Vec F S1000x64 .f32) (x2 : Vec F S128x128 .f32) (x3 : Vec F S1x128 .f32) : Vec F S1000x64 .f32 :=
  View.canon [⟨r5_0, k5_pay1 (View.ld x0 r5_0) (View.ld x1 r5_0) (View.ld x2 r5_1) (View.ld x3 r5_2)⟩]

/-- The row-normalized block (window 5) after the body: the single whole-block store of the second payload. -/
noncomputable def out5_5 (x0 : Vec F S1000x64 .f32) (x1 : Vec F S1000x64 .f32) (x2 : Vec F S128x128 .f32) (x3 : Vec F S1x128 .f32) : Vec F S1000x64 .f32 :=
  View.canon [⟨r5_0, k5_pay2 (View.ld x0 r5_0) (View.ld x1 r5_0) (View.ld x2 r5_1) (View.ld x3 r5_2)⟩]

/-- One whole-block piece covers every index of the block. -/
theorem cover5_o (p0 : Vec F S1000x64 .f32) (y : S1000x64.Idx) :
    ∃ pc ∈ ([⟨r5_0, p0⟩] : List (View.Piece (Elt F) S1000x64 .f32)), y ∈ pc.1.set :=
  View.cover_of_tiled [⟨r5_0, p0⟩] S1000x64.size (by rfl) y

set_option maxHeartbeats 400000 in
/-- The body's triple: started with the four input buffers at contents `x0 … x3` and the two output buffers at
    anything, it ends with the inputs as they were and the outputs at `out5_4`, `out5_5` of the inputs. -/
theorem sound_kernel5 (c : Dev nD) (E : Set ℕ) (i : grid5.Coords)
    (arg1 : Memref sig .tc .vmem S1000x64 .f32) (harg1 : arg1.IsWhole) (arg2 : Memref sig .tc .vmem S1000x64 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S1000x64 .f32) (harg5 : arg5.IsWhole) (arg6 : Memref sig .tc .vmem S1000x64 .f32) (harg6 : arg6.IsWhole)
    (x0 : Vec F S1000x64 .f32) (x1 : Vec F S1000x64 .f32) (x2 : Vec F S128x128 .f32) (x3 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out5_4 x0 x1 x2 x3) ∗ owns (c : Thread nD τ) arg6 fullShare (out5_5 x0 x1 x2 x3)) -∗ K ⟨⟩))
      ⊢ wp frame (wpE (defs₀ (F := F)) Variants.none c none) E (cc5__layer_kernel i arg1 harg1 arg2 harg2 arg3 harg3 arg4 harg4 arg5 harg5 arg6 harg6) K := by
  simp only [cc5__layer_kernel_eq_skeleton]; unfold cc5__layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover5_o _)
  iexists _; isplitr
  swap; · iexact H5
  ipureintro
  exact View.read_writes_eq_canon _ _ _ (cover5_o _)

/-- The proof data of pipeline 5 on core `c`: the arrays as `V` has them; after the body at a point each input
    buffer still at its block and each output buffer at its `out5_w` of the input blocks; the invariant is the
    untouched rest; full shares; nothing owed. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
    | ⟨5, _⟩ => out5_5 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]
theorem after5_5 (c : Dev nD) (t : Fin cfg5.N) : (dat5 V c).after 5 t = out5_5 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is entered with at point `t`, window by window, -/
noncomputable def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it hands back. -/
noncomputable def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the input buffers hold their blocks, so the body's triple applies; the invariant and
    the debt term pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.KF

end
-- ==== Proof.KiBody6.lean ====
/- Region 6 of the kernel program's entry function: the matmul-and-add kernel's body on one row tile.
   At any contents `V` of the TensorCore's buffers on entry: the block of each window at a grid point,
   what the body leaves in its output block as a function of the three input blocks, the body's triple,
   the pipeline's proof data and the per-point obligation. Generic in the float instance. -/
import proofs.«120809_j78615081386430_2_alg».proof.Proof.Gen.KernelIdeal.Launch
import proofs.«120809_j78615081386430_2_alg».proof.Proof.Gen.KernelIdeal.Skeleton
import proofs.«120809_j78615081386430_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the window's array as it stands in `V`. -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0: whatever proof data has `V`'s array for it and leaves its block untouched, the
    staging buffer the body sees at a point holds the window's block there, whether or not that point fetched it. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1: whatever proof data has `V`'s array for it and leaves its block untouched, the
    staging buffer the body sees at a point holds the window's block there, whether or not that point fetched it. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2: whatever proof data has `V`'s array for it and leaves its block untouched, the
    staging buffer the body sees at a point holds the window's block there, whether or not that point fetched it. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The three whole-block rectangles the body reads and writes through. -/
abbrev r6_0 : Rect S1000x4000 := Rect.unit (s := S1000x4000) ![0, 0] S1000x4000.size inb_S1000x4000_S1000x4000_0_0
abbrev r6_1 : Rect S4000x256 := Rect.unit (s := S4000x256) ![0, 0] S4000x256.size inb_S4000x256_S4000x256_0_0
abbrev r6_2 : Rect S1000x256 := Rect.unit (s := S1000x256) ![0, 0] S1000x256.size inb_S1000x256_S1000x256_0_0

/-- The output block (window 3) after the body: the single whole-block store of the product plus the base,
    evaluated at the three input blocks. -/
noncomputable def out6_3 (x0 : Vec F S1000x4000 .f32) (x1 : Vec F S4000x256 .bf16) (x2 : Vec F S1000x256 .f32) : Vec F S1000x256 .f32 :=
  View.canon [⟨r6_2, k6_pay1 (View.ld x0 r6_0) (View.ld x1 r6_1) (View.ld x2 r6_2)⟩]

/-- One whole-block piece covers every index of the block. -/
theorem cover6_o (p0 : Vec F S1000x256 .f32) (y : S1000x256.Idx) :
    ∃ pc ∈ ([⟨r6_2, p0⟩] : List (View.Piece (Elt F) S1000x256 .f32)), y ∈ pc.1.set :=
  View.cover_of_tiled [⟨r6_2, p0⟩] S1000x256.size (by rfl) y

set_option maxHeartbeats 400000 in
/-- The body's triple: started with the three input buffers at contents `x0 x1 x2` and the output buffer at
    anything, it ends with the inputs as they were and the output at `out6_3` of the inputs. -/
theorem sound_kernel6 (c : Dev nD) (E : Set ℕ) (i : grid6.Coords)
    (arg1 : Memref sig .tc .vmem S1000x4000 .f32) (harg1 : arg1.IsWhole) (arg2 : Memref sig .tc .vmem S4000x256 .bf16) (harg2 : arg2.IsWhole)
    (arg3 : Memref sig .tc .vmem S1000x256 .f32) (harg3 : arg3.IsWhole) (arg4 : Memref sig .tc .vmem S1000x256 .f32) (harg4 : arg4.IsWhole)
    (x0 : Vec F S1000x4000 .f32) (x1 : Vec F S4000x256 .bf16) (x2 : Vec F S1000x256 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out6_3 x0 x1 x2)) -∗ K ⟨⟩))
      ⊢ wp frame (wpE (defs₀ (F := F)) Variants.none c none) E (cc6__matmul_add_kernel i arg1 harg1 arg2 harg2 arg3 harg3 arg4 harg4) K := by
  simp only [cc6__matmul_add_kernel_eq_skeleton]; unfold cc6__matmul_add_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_o _)

/-- The proof data of pipeline 6 on core `c`: the arrays as `V` has them; after the body at a point each input
    buffer still at its block and the output buffer at `out6_3` of the input blocks; the invariant is the
    untouched rest; full shares; nothing owed. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is entered with at point `t`, window by window, -/
noncomputable def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it hands back. -/
noncomputable def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the input buffers hold their blocks, so the body's triple applies; the invariant and
    the debt term pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.KF

end
-- ==== Proof.KiBody7.lean ====
/- Region 7 of the kernel program's entry function: the matmul-and-add kernel's body on one row tile.
   At any contents `V` of the TensorCore's buffers on entry: the block of each window at a grid point,
   what the body leaves in its output block as a function of the three input blocks, the body's triple,
   the pipeline's proof data and the per-point obligation. Generic in the float instance. -/
import proofs.«120809_j78615081386430_2_alg».proof.Proof.Gen.KernelIdeal.Launch
import proofs.«120809_j78615081386430_2_alg».proof.Proof.Gen.KernelIdeal.Skeleton
import proofs.«120809_j78615081386430_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the window's array as it stands in `V`. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0: whatever proof data has `V`'s array for it and leaves its block untouched, the
    staging buffer the body sees at a point holds the window's block there, whether or not that point fetched it. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1: whatever proof data has `V`'s array for it and leaves its block untouched, the
    staging buffer the body sees at a point holds the window's block there, whether or not that point fetched it. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2: whatever proof data has `V`'s array for it and leaves its block untouched, the
    staging buffer the body sees at a point holds the window's block there, whether or not that point fetched it. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The three whole-block rectangles the body reads and writes through. -/
abbrev r7_0 : Rect S1000x3000 := Rect.unit (s := S1000x3000) ![0, 0] S1000x3000.size inb_S1000x3000_S1000x3000_0_0
abbrev r7_1 : Rect S3000x256 := Rect.unit (s := S3000x256) ![0, 0] S3000x256.size inb_S3000x256_S3000x256_0_0
abbrev r7_2 : Rect S1000x256 := Rect.unit (s := S1000x256) ![0, 0] S1000x256.size inb_S1000x256_S1000x256_0_0

/-- The output block (window 3) after the body: the single whole-block store of the product plus the base,
    evaluated at the three input blocks. -/
noncomputable def out7_3 (x0 : Vec F S1000x3000 .f32) (x1 : Vec F S3000x256 .bf16) (x2 : Vec F S1000x256 .f32) : Vec F S1000x256 .f32 :=
  View.canon [⟨r7_2, k7_pay1 (View.ld x0 r7_0) (View.ld x1 r7_1) (View.ld x2 r7_2)⟩]

/-- One whole-block piece covers every index of the block. -/
theorem cover7_o (p0 : Vec F S1000x256 .f32) (y : S1000x256.Idx) :
    ∃ pc ∈ ([⟨r7_2, p0⟩] : List (View.Piece (Elt F) S1000x256 .f32)), y ∈ pc.1.set :=
  View.cover_of_tiled [⟨r7_2, p0⟩] S1000x256.size (by rfl) y

set_option maxHeartbeats 400000 in
/-- The body's triple: started with the three input buffers at contents `x0 x1 x2` and the output buffer at
    anything, it ends with the inputs as they were and the output at `out7_3` of the inputs. -/
theorem sound_kernel7 (c : Dev nD) (E : Set ℕ) (i : grid7.Coords)
    (arg1 : Memref sig .tc .vmem S1000x3000 .f32) (harg1 : arg1.IsWhole) (arg2 : Memref sig .tc .vmem S3000x256 .bf16) (harg2 : arg2.IsWhole)
    (arg3 : Memref sig .tc .vmem S1000x256 .f32) (harg3 : arg3.IsWhole) (arg4 : Memref sig .tc .vmem S1000x256 .f32) (harg4 : arg4.IsWhole)
    (x0 : Vec F S1000x3000 .f32) (x1 : Vec F S3000x256 .bf16) (x2 : Vec F S1000x256 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out7_3 x0 x1 x2)) -∗ K ⟨⟩))
      ⊢ wp frame (wpE (defs₀ (F := F)) Variants.none c none) E (cc7__matmul_add_kernel i arg1 harg1 arg2 harg2 arg3 harg3 arg4 harg4) K := by
  simp only [cc7__matmul_add_kernel_eq_skeleton]; unfold cc7__matmul_add_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_o _)

/-- The proof data of pipeline 7 on core `c`: the arrays as `V` has them; after the body at a point each input
    buffer still at its block and the output buffer at `out7_3` of the input blocks; the invariant is the
    untouched rest; full shares; nothing owed. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is entered with at point `t`, window by window, -/
noncomputable def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it hands back. -/
noncomputable def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the input buffers hold their blocks, so the body's triple applies; the invariant and
    the debt term pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.KF

end
-- ==== Proof.KiRunA.lean ====
/- The run of @main, first half: the TensorCore's buffer contents at each of the sixteen boundaries between
   @main's fifteen segments (seven stretches of host operations, eight kernel regions), the facts that tie a
   region's exit contents to what its pipeline leaves, each argument array read back to its launch contents, and
   the family of proof data, one per pipeline, each at its region's entry contents. -/
import proofs.«120809_j78615081386430_2_alg».proof.Proof.Gen.KernelIdeal.Launch
import proofs.«120809_j78615081386430_2_alg».proof.Proof.Gen.KernelIdeal.Regions
import proofs.«120809_j78615081386430_2_alg».proof.Proof.KiBody0
import proofs.«120809_j78615081386430_2_alg».proof.Proof.KiBody1
import proofs.«120809_j78615081386430_2_alg».proof.Proof.KiBody2
import proofs.«120809_j78615081386430_2_alg».proof.Proof.KiBody3
import proofs.«120809_j78615081386430_2_alg».proof.Proof.KiBody4
import proofs.«120809_j78615081386430_2_alg».proof.Proof.KiBody5
import proofs.«120809_j78615081386430_2_alg».proof.Proof.KiBody6
import proofs.«120809_j78615081386430_2_alg».proof.Proof.KiBody7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
noncomputable abbrev W0 : Dev nD → Valuation τ sig (Elt F) := fun c b => (s₀ m ρ).mem ((c : Dev nD), b)
/-- After the host stretch `hostOps0`. -/
noncomputable abbrev W1 : Dev nD → Valuation τ sig (Elt F) := fun c => StableHlo.after hostOps0 (W0 m ρ c)
/-- The same contents at the TensorCore's references. -/
noncomputable abbrev V1 : (c : Dev nD) → (b : Ref sig .tc) → Buf (Elt F) ((c : Thread nD τ).loc b) := fun c b => W1 m ρ c b
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: its windows' arrays at what the pipeline leaves after its last point, every other buffer
    as the region found it. -/
noncomputable def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents at the TensorCore's references. -/
noncomputable abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
noncomputable abbrev W3 : Dev nD → Valuation τ sig (Elt F) := fun c => StableHlo.after hostOps1 (W2 m ρ c)
/-- The same contents at the TensorCore's references. -/
noncomputable abbrev V3 : (c : Dev nD) → (b : Ref sig .tc) → Buf (Elt F) ((c : Thread nD τ).loc b) := fun c b => W3 m ρ c b
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
/-- At region 1's exit: its windows' arrays at what the pipeline leaves after its last point, every other buffer
    as the region found it. -/
noncomputable def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same contents at the TensorCore's references. -/
noncomputable abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host stretch `hostOps2`. -/
noncomputable abbrev W5 : Dev nD → Valuation τ sig (Elt F) := fun c => StableHlo.after hostOps2 (W4 m ρ c)
/-- The same contents at the TensorCore's references. -/
noncomputable abbrev V5 : (c : Dev nD) → (b : Ref sig .tc) → Buf (Elt F) ((c : Thread nD τ).loc b) := fun c b => W5 m ρ c b
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
/-- At region 2's exit: its windows' arrays at what the pipeline leaves after its last point, every other buffer
    as the region found it. -/
noncomputable def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same contents at the TensorCore's references. -/
noncomputable abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host stretch `hostOps3`. -/
noncomputable abbrev W7 : Dev nD → Valuation τ sig (Elt F) := fun c => StableHlo.after hostOps3 (W6 m ρ c)
/-- The same contents at the TensorCore's references. -/
noncomputable abbrev V7 : (c : Dev nD) → (b : Ref sig .tc) → Buf (Elt F) ((c : Thread nD τ).loc b) := fun c b => W7 m ρ c b
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h
/-- At region 3's exit: its windows' arrays at what the pipeline leaves after its last point, every other buffer
    as the region found it. -/
noncomputable def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same contents at the TensorCore's references. -/
noncomputable abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After the host stretch `hostOps4`. -/
noncomputable abbrev W9 : Dev nD → Valuation τ sig (Elt F) := fun c => StableHlo.after hostOps4 (W8 m ρ c)
/-- The same contents at the TensorCore's references. -/
noncomputable abbrev V9 : (c : Dev nD) → (b : Ref sig .tc) → Buf (Elt F) ((c : Thread nD τ).loc b) := fun c b => W9 m ρ c b
theorem W9_keep (c : Dev nD) (r : Ref sig .tc) (h : r ∉ hostOps4_W) :
    W9 m ρ c (Proc.devRef .tc r) = W8 m ρ c (Proc.devRef .tc r) :=
  StableHlo.after_of_writes_sub hostOps4 _ hostOps4_writes h
/-- At region 4's exit: its windows' arrays at what the pipeline leaves after its last point, every other buffer
    as the region found it. -/
noncomputable def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same contents at the TensorCore's references. -/
noncomputable abbrev V10 : (c : Dev nD) → (b : Ref sig .tc) → Buf (Elt F) ((c : Thread nD τ).loc b) := fun c b => W10 m ρ c b
/-- At region 4's exit each of its arrays holds what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After the host stretch `hostOps5`. -/
noncomputable abbrev W11 : Dev nD → Valuation τ sig (Elt F) := fun c => StableHlo.after hostOps5 (W10 m ρ c)
/-- The same contents at the TensorCore's references. -/
noncomputable abbrev V11 : (c : Dev nD) → (b : Ref sig .tc) → Buf (Elt F) ((c : Thread nD τ).loc b) := fun c b => W11 m ρ c b
theorem W11_keep (c : Dev nD) (r : Ref sig .tc) (h : r ∉ hostOps5_W) :
    W11 m ρ c (Proc.devRef .tc r) = W10 m ρ c (Proc.devRef .tc r) :=
  StableHlo.after_of_writes_sub hostOps5 _ hostOps5_writes h
/-- At region 5's exit: its windows' arrays at what the pipeline leaves after its last point, every other buffer
    as the region found it. -/
noncomputable def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same contents at the TensorCore's references. -/
noncomputable abbrev V12 : (c : Dev nD) → (b : Ref sig .tc) → Buf (Elt F) ((c : Thread nD τ).loc b) := fun c b => W12 m ρ c b
/-- At region 5's exit each of its arrays holds what the pipeline leaves, and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- After the host stretch `hostOps6`. -/
noncomputable abbrev W13 : Dev nD → Valuation τ sig (Elt F) := fun c => StableHlo.after hostOps6 (W12 m ρ c)
/-- The same contents at the TensorCore's references. -/
noncomputable abbrev V13 : (c : Dev nD) → (b : Ref sig .tc) → Buf (Elt F) ((c : Thread nD τ).loc b) := fun c b => W13 m ρ c b
theorem W13_keep (c : Dev nD) (r : Ref sig .tc) (h : r ∉ hostOps6_W) :
    W13 m ρ c (Proc.devRef .tc r) = W12 m ρ c (Proc.devRef .tc r) :=
  StableHlo.after_of_writes_sub hostOps6 _ hostOps6_writes h
/-- At region 6's exit: its windows' arrays at what the pipeline leaves after its last point, every other buffer
    as the region found it. -/
noncomputable def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same contents at the TensorCore's references. -/
noncomputable abbrev V14 : (c : Dev nD) → (b : Ref sig .tc) → Buf (Elt F) ((c : Thread nD τ).loc b) := fun c b => W14 m ρ c b
/-- At region 6's exit each of its arrays holds what the pipeline leaves, and every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- At region 7's exit: its windows' arrays at what the pipeline leaves after its last point, every other buffer
    as the region found it. -/
noncomputable def W15 (c : Dev nD) : Valuation τ sig (Elt F) :=
  Pipeline.withArrays spec7 c (W14 m ρ c) fun w => (dat7 (V14 m ρ) c).arrAt w cfg7.N
theorem W15_arr (c : Dev nD) (w : Fin cfg7.W) :
    W15 m ρ c (Proc.devRef .tc (Pipeline.arrRef spec7 w)) = (dat7 (V14 m ρ) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb
/-- The same contents at the TensorCore's references. -/
noncomputable abbrev V15 : (c : Dev nD) → (b : Ref sig .tc) → Buf (Elt F) ((c : Thread nD τ).loc b) := fun c b => W15 m ρ c b
/-- At region 7's exit each of its arrays holds what the pipeline leaves, and every other buffer what it held at entry. -/
theorem hF7 (c : Dev nD) (w : Fin cfg7.W) : (dat7 (V14 m ρ) c).arrAt w cfg7.N = V15 m ρ c (Pipeline.arrRef spec7 w) :=
  (W15_arr m ρ c w).symm
theorem hrest7 (c : Dev nD) : ∀ b, b ∉ Finset.univ.image (Pipeline.arrRef spec7) → V15 m ρ c b = V14 m ρ c b :=
  fun b hb => W15_of_ne m ρ c b fun w e => hb (Finset.mem_image.mpr ⟨w, Finset.mem_univ _, e⟩)

/-! ## The arguments end as launched

No host operation writes an argument array, and a region either does not stage it or stages it through an input
window, whose array the pipeline leaves as it found it: the contents at the last boundary walk back to the launch
memory. -/

theorem W15_main_arg0 (c : Dev nD) : W15 m ρ c (Proc.devRef .tc main_arg0) = m ((c : Thread nD τ).loc main_arg0) :=
  calc W15 m ρ c (Proc.devRef .tc main_arg0)
    _ = W14 m ρ c (Proc.devRef .tc main_arg0) := W15_of_ne m ρ c main_arg0 (by decide)
    _ = W13 m ρ c (Proc.devRef .tc main_arg0) := W14_of_ne m ρ c main_arg0 (by decide)
    _ = W12 m ρ c (Proc.devRef .tc main_arg0) := W13_keep m ρ c main_arg0 (by decide)
    _ = W11 m ρ c (Proc.devRef .tc main_arg0) := W12_of_ne m ρ c main_arg0 (by decide)
    _ = W10 m ρ c (Proc.devRef .tc main_arg0) := W11_keep m ρ c main_arg0 (by decide)
    _ = W9 m ρ c (Proc.devRef .tc main_arg0) := W10_of_ne m ρ c main_arg0 (by decide)
    _ = W8 m ρ c (Proc.devRef .tc main_arg0) := W9_keep m ρ c main_arg0 (by decide)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := W2_of_ne m ρ c main_arg0 (by decide)
    _ = W0 m ρ c (Proc.devRef .tc main_arg0) := W1_keep m ρ c main_arg0 (by decide)
    _ = m ((c : Thread nD τ).loc main_arg0) := rfl

theorem W15_main_arg1 (c : Dev nD) : W15 m ρ c (Proc.devRef .tc main_arg1) = m ((c : Thread nD τ).loc main_arg1) :=
  calc W15 m ρ c (Proc.devRef .tc main_arg1)
    _ = W14 m ρ c (Proc.devRef .tc main_arg1) := W15_of_ne m ρ c main_arg1 (by decide)
    _ = W13 m ρ c (Proc.devRef .tc main_arg1) := W14_of_ne m ρ c main_arg1 (by decide)
    _ = W12 m ρ c (Proc.devRef .tc main_arg1) := W13_keep m ρ c main_arg1 (by decide)
    _ = W11 m ρ c (Proc.devRef .tc main_arg1) := W12_of_ne m ρ c main_arg1 (by decide)
    _ = W10 m ρ c (Proc.devRef .tc main_arg1) := W11_keep m ρ c main_arg1 (by decide)
    _ = W9 m ρ c (Proc.devRef .tc main_arg1) := W10_of_ne m ρ c main_arg1 (by decide)
    _ = W8 m ρ c (Proc.devRef .tc main_arg1) := W9_keep m ρ c main_arg1 (by decide)
    _ = W7 m ρ c (Proc.devRef .tc main_arg1) := W8_of_ne m ρ c main_arg1 (by decide)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W15_main_arg2 (c : Dev nD) : W15 m ρ c (Proc.devRef .tc main_arg2) = m ((c : Thread nD τ).loc main_arg2) :=
  calc W15 m ρ c (Proc.devRef .tc main_arg2)
    _ = W14 m ρ c (Proc.devRef .tc main_arg2) := W15_of_ne m ρ c main_arg2 (by decide)
    _ = W13 m ρ c (Proc.devRef .tc main_arg2) := W14_of_ne m ρ c main_arg2 (by decide)
    _ = W12 m ρ c (Proc.devRef .tc main_arg2) := W13_keep m ρ c main_arg2 (by decide)
    _ = W11 m ρ c (Proc.devRef .tc main_arg2) := W12_of_ne m ρ c main_arg2 (by decide)
    _ = W10 m ρ c (Proc.devRef .tc main_arg2) := W11_keep m ρ c main_arg2 (by decide)
    _ = W9 m ρ c (Proc.devRef .tc main_arg2) := W10_of_ne m ρ c main_arg2 (by decide)
    _ = W8 m ρ c (Proc.devRef .tc main_arg2) := W9_keep m ρ c main_arg2 (by decide)
    _ = W7 m ρ c (Proc.devRef .tc main_arg2) := W8_of_ne m ρ c main_arg2 (by decide)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl

theorem W15_main_arg3 (c : Dev nD) : W15 m ρ c (Proc.devRef .tc main_arg3) = m ((c : Thread nD τ).loc main_arg3) :=
  calc W15 m ρ c (Proc.devRef .tc main_arg3)
    _ = W14 m ρ c (Proc.devRef .tc main_arg3) := W15_of_ne m ρ c main_arg3 (by decide)
    _ = W13 m ρ c (Proc.devRef .tc main_arg3) := W14_of_ne m ρ c main_arg3 (by decide)
    _ = W12 m ρ c (Proc.devRef .tc main_arg3) := W13_keep m ρ c main_arg3 (by decide)
    _ = W11 m ρ c (Proc.devRef .tc main_arg3) := W12_of_ne m ρ c main_arg3 (by decide)
    _ = W10 m ρ c (Proc.devRef .tc main_arg3) := W11_keep m ρ c main_arg3 (by decide)
    _ = W9 m ρ c (Proc.devRef .tc main_arg3) := W10_of_ne m ρ c main_arg3 (by decide)
    _ = W8 m ρ c (Proc.devRef .tc main_arg3) := W9_keep m ρ c main_arg3 (by decide)
    _ = W7 m ρ c (Proc.devRef .tc main_arg3) := W8_of_ne m ρ c main_arg3 (by decide)
    _ = W6 m ρ c (Proc.devRef .tc main_arg3) := W7_keep m ρ c main_arg3 (by decide)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl

theorem W15_main_arg4 (c : Dev nD) : W15 m ρ c (Proc.devRef .tc main_arg4) = m ((c : Thread nD τ).loc main_arg4) :=
  calc W15 m ρ c (Proc.devRef .tc main_arg4)
    _ = W14 m ρ c (Proc.devRef .tc main_arg4) := W15_of_ne m ρ c main_arg4 (by decide)
    _ = W13 m ρ c (Proc.devRef .tc main_arg4) := W14_of_ne m ρ c main_arg4 (by decide)
    _ = W12 m ρ c (Proc.devRef .tc main_arg4) := W13_keep m ρ c main_arg4 (by decide)
    _ = W11 m ρ c (Proc.devRef .tc main_arg4) := W12_of_ne m ρ c main_arg4 (by decide)
    _ = W10 m ρ c (Proc.devRef .tc main_arg4) := W11_keep m ρ c main_arg4 (by decide)
    _ = W9 m ρ c (Proc.devRef .tc main_arg4) := W10_of_ne m ρ c main_arg4 (by decide)
    _ = W8 m ρ c (Proc.devRef .tc main_arg4) := W9_keep m ρ c main_arg4 (by decide)
    _ = W7 m ρ c (Proc.devRef .tc main_arg4) := W8_of_ne m ρ c main_arg4 (by decide)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W15_main_arg5 (c : Dev nD) : W15 m ρ c (Proc.devRef .tc main_arg5) = m ((c : Thread nD τ).loc main_arg5) :=
  calc W15 m ρ c (Proc.devRef .tc main_arg5)
    _ = W14 m ρ c (Proc.devRef .tc main_arg5) := W15_of_ne m ρ c main_arg5 (by decide)
    _ = W13 m ρ c (Proc.devRef .tc main_arg5) := W14_of_ne m ρ c main_arg5 (by decide)
    _ = W12 m ρ c (Proc.devRef .tc main_arg5) := W13_keep m ρ c main_arg5 (by decide)
    _ = W11 m ρ c (Proc.devRef .tc main_arg5) := W12_of_ne m ρ c main_arg5 (by decide)
    _ = W10 m ρ c (Proc.devRef .tc main_arg5) := W11_keep m ρ c main_arg5 (by decide)
    _ = W9 m ρ c (Proc.devRef .tc main_arg5) := W10_of_ne m ρ c main_arg5 (by decide)
    _ = W8 m ρ c (Proc.devRef .tc main_arg5) := W9_keep m ρ c main_arg5 (by decide)
    _ = W7 m ρ c (Proc.devRef .tc main_arg5) := W8_of_ne m ρ c main_arg5 (by decide)
    _ = W6 m ρ c (Proc.devRef .tc main_arg5) := W7_keep m ρ c main_arg5 (by decide)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_of_ne m ρ c main_arg5 (by decide)
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

theorem W15_main_arg6 (c : Dev nD) : W15 m ρ c (Proc.devRef .tc main_arg6) = m ((c : Thread nD τ).loc main_arg6) :=
  calc W15 m ρ c (Proc.devRef .tc main_arg6)
    _ = W14 m ρ c (Proc.devRef .tc main_arg6) := W15_of_ne m ρ c main_arg6 (by decide)
    _ = W13 m ρ c (Proc.devRef .tc main_arg6) := W14_of_ne m ρ c main_arg6 (by decide)
    _ = W12 m ρ c (Proc.devRef .tc main_arg6) := W13_keep m ρ c main_arg6 (by decide)
    _ = W11 m ρ c (Proc.devRef .tc main_arg6) := W12_of_ne m ρ c main_arg6 (by decide)
    _ = W10 m ρ c (Proc.devRef .tc main_arg6) := W11_keep m ρ c main_arg6 (by decide)
    _ = W9 m ρ c (Proc.devRef .tc main_arg6) := W10_of_ne m ρ c main_arg6 (by decide)
    _ = W8 m ρ c (Proc.devRef .tc main_arg6) := W9_keep m ρ c main_arg6 (by decide)
    _ = W7 m ρ c (Proc.devRef .tc main_arg6) := W8_of_ne m ρ c main_arg6 (by decide)
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

theorem W15_main_arg7 (c : Dev nD) : W15 m ρ c (Proc.devRef .tc main_arg7) = m ((c : Thread nD τ).loc main_arg7) :=
  calc W15 m ρ c (Proc.devRef .tc main_arg7)
    _ = W14 m ρ c (Proc.devRef .tc main_arg7) := W15_of_ne m ρ c main_arg7 (by decide)
    _ = W13 m ρ c (Proc.devRef .tc main_arg7) := W14_of_ne m ρ c main_arg7 (by decide)
    _ = W12 m ρ c (Proc.devRef .tc main_arg7) := W13_keep m ρ c main_arg7 (by decide)
    _ = W11 m ρ c (Proc.devRef .tc main_arg7) := W12_of_ne m ρ c main_arg7 (by decide)
    _ = W10 m ρ c (Proc.devRef .tc main_arg7) := W11_keep m ρ c main_arg7 (by decide)
    _ = W9 m ρ c (Proc.devRef .tc main_arg7) := W10_of_ne m ρ c main_arg7 (by decide)
    _ = W8 m ρ c (Proc.devRef .tc main_arg7) := W9_keep m ρ c main_arg7 (by decide)
    _ = W7 m ρ c (Proc.devRef .tc main_arg7) := W8_of_ne m ρ c main_arg7 (by decide)
    _ = W6 m ρ c (Proc.devRef .tc main_arg7) := W7_keep m ρ c main_arg7 (by decide)
    _ = W5 m ρ c (Proc.devRef .tc main_arg7) := W6_of_ne m ρ c main_arg7 (by decide)
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

theorem W15_main_arg8 (c : Dev nD) : W15 m ρ c (Proc.devRef .tc main_arg8) = m ((c : Thread nD τ).loc main_arg8) :=
  calc W15 m ρ c (Proc.devRef .tc main_arg8)
    _ = W14 m ρ c (Proc.devRef .tc main_arg8) := W15_of_ne m ρ c main_arg8 (by decide)
    _ = W13 m ρ c (Proc.devRef .tc main_arg8) := W14_of_ne m ρ c main_arg8 (by decide)
    _ = W12 m ρ c (Proc.devRef .tc main_arg8) := W13_keep m ρ c main_arg8 (by decide)
    _ = W11 m ρ c (Proc.devRef .tc main_arg8) := W12_of_ne m ρ c main_arg8 (by decide)
    _ = W10 m ρ c (Proc.devRef .tc main_arg8) := W11_keep m ρ c main_arg8 (by decide)
    _ = W9 m ρ c (Proc.devRef .tc main_arg8) := W10_of_ne m ρ c main_arg8 (by decide)
    _ = W8 m ρ c (Proc.devRef .tc main_arg8) := W9_keep m ρ c main_arg8 (by decide)
    _ = W7 m ρ c (Proc.devRef .tc main_arg8) := W8_of_ne m ρ c main_arg8 (by decide)
    _ = W6 m ρ c (Proc.devRef .tc main_arg8) := W7_keep m ρ c main_arg8 (by decide)
    _ = W5 m ρ c (Proc.devRef .tc main_arg8) := W6_of_ne m ρ c main_arg8 (by decide)
    _ = W4 m ρ c (Proc.devRef .tc main_arg8) := W5_keep m ρ c main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

theorem W15_main_arg9 (c : Dev nD) : W15 m ρ c (Proc.devRef .tc main_arg9) = m ((c : Thread nD τ).loc main_arg9) :=
  calc W15 m ρ c (Proc.devRef .tc main_arg9)
    _ = W14 m ρ c (Proc.devRef .tc main_arg9) := W15_of_ne m ρ c main_arg9 (by decide)
    _ = W13 m ρ c (Proc.devRef .tc main_arg9) := W14_of_ne m ρ c main_arg9 (by decide)
    _ = W12 m ρ c (Proc.devRef .tc main_arg9) := W13_keep m ρ c main_arg9 (by decide)
    _ = W11 m ρ c (Proc.devRef .tc main_arg9) := W12_of_ne m ρ c main_arg9 (by decide)
    _ = W10 m ρ c (Proc.devRef .tc main_arg9) := W11_keep m ρ c main_arg9 (by decide)
    _ = W9 m ρ c (Proc.devRef .tc main_arg9) := W10_of_ne m ρ c main_arg9 (by decide)
    _ = W8 m ρ c (Proc.devRef .tc main_arg9) := W9_keep m ρ c main_arg9 (by decide)
    _ = W7 m ρ c (Proc.devRef .tc main_arg9) := W8_of_ne m ρ c main_arg9 (by decide)
    _ = W6 m ρ c (Proc.devRef .tc main_arg9) := W7_keep m ρ c main_arg9 (by decide)
    _ = W5 m ρ c (Proc.devRef .tc main_arg9) := W6_of_ne m ρ c main_arg9 (by decide)
    _ = W4 m ρ c (Proc.devRef .tc main_arg9) := W5_keep m ρ c main_arg9 (by decide)
    _ = W3 m ρ c (Proc.devRef .tc main_arg9) := W4_of_ne m ρ c main_arg9 (by decide)
    _ = W2 m ρ c (Proc.devRef .tc main_arg9) := W3_keep m ρ c main_arg9 (by decide)
    _ = W1 m ρ c (Proc.devRef .tc main_arg9) := W2_of_ne m ρ c main_arg9 (by decide)
    _ = W0 m ρ c (Proc.devRef .tc main_arg9) := W1_keep m ρ c main_arg9 (by decide)
    _ = m ((c : Thread nD τ).loc main_arg9) := rfl

theorem W15_main_arg10 (c : Dev nD) : W15 m ρ c (Proc.devRef .tc main_arg10) = m ((c : Thread nD τ).loc main_arg10) :=
  calc W15 m ρ c (Proc.devRef .tc main_arg10)
    _ = W14 m ρ c (Proc.devRef .tc main_arg10) := W15_of_ne m ρ c main_arg10 (by decide)
    _ = W13 m ρ c (Proc.devRef .tc main_arg10) := W14_of_ne m ρ c main_arg10 (by decide)
    _ = W12 m ρ c (Proc.devRef .tc main_arg10) := W13_keep m ρ c main_arg10 (by decide)
    _ = W11 m ρ c (Proc.devRef .tc main_arg10) := W12_of_ne m ρ c main_arg10 (by decide)
    _ = W10 m ρ c (Proc.devRef .tc main_arg10) := W11_keep m ρ c main_arg10 (by decide)
    _ = W9 m ρ c (Proc.devRef .tc main_arg10) := W10_of_ne m ρ c main_arg10 (by decide)
    _ = W8 m ρ c (Proc.devRef .tc main_arg10) := W9_keep m ρ c main_arg10 (by decide)
    _ = W7 m ρ c (Proc.devRef .tc main_arg10) := W8_of_ne m ρ c main_arg10 (by decide)
    _ = W6 m ρ c (Proc.devRef .tc main_arg10) := W7_keep m ρ c main_arg10 (by decide)
    _ = W5 m ρ c (Proc.devRef .tc main_arg10) := W6_of_ne m ρ c main_arg10 (by decide)
    _ = W4 m ρ c (Proc.devRef .tc main_arg10) := W5_keep m ρ c main_arg10 (by decide)
    _ = W3 m ρ c (Proc.devRef .tc main_arg10) := W4_of_ne m ρ c main_arg10 (by decide)
    _ = W2 m ρ c (Proc.devRef .tc main_arg10) := W3_keep m ρ c main_arg10 (by decide)
    _ = W1 m ρ c (Proc.devRef .tc main_arg10) := W2_of_ne m ρ c main_arg10 (by decide)
    _ = W0 m ρ c (Proc.devRef .tc main_arg10) := W1_keep m ρ c main_arg10 (by decide)
    _ = m ((c : Thread nD τ).loc main_arg10) := rfl

theorem W15_main_arg11 (c : Dev nD) : W15 m ρ c (Proc.devRef .tc main_arg11) = m ((c : Thread nD τ).loc main_arg11) :=
  calc W15 m ρ c (Proc.devRef .tc main_arg11)
    _ = W14 m ρ c (Proc.devRef .tc main_arg11) := W15_of_ne m ρ c main_arg11 (by decide)
    _ = W13 m ρ c (Proc.devRef .tc main_arg11) := W14_of_ne m ρ c main_arg11 (by decide)
    _ = W12 m ρ c (Proc.devRef .tc main_arg11) := W13_keep m ρ c main_arg11 (by decide)
    _ = W11 m ρ c (Proc.devRef .tc main_arg11) := W12_of_ne m ρ c main_arg11 (by decide)
    _ = W10 m ρ c (Proc.devRef .tc main_arg11) := W11_keep m ρ c main_arg11 (by decide)
    _ = W9 m ρ c (Proc.devRef .tc main_arg11) := W10_of_ne m ρ c main_arg11 (by decide)
    _ = W8 m ρ c (Proc.devRef .tc main_arg11) := W9_keep m ρ c main_arg11 (by decide)
    _ = W7 m ρ c (Proc.devRef .tc main_arg11) := W8_of_ne m ρ c main_arg11 (by decide)
    _ = W6 m ρ c (Proc.devRef .tc main_arg11) := W7_keep m ρ c main_arg11 (by decide)
    _ = W5 m ρ c (Proc.devRef .tc main_arg11) := W6_of_ne m ρ c main_arg11 (by decide)
    _ = W4 m ρ c (Proc.devRef .tc main_arg11) := W5_keep m ρ c main_arg11 (by decide)
    _ = W3 m ρ c (Proc.devRef .tc main_arg11) := W4_of_ne m ρ c main_arg11 (by decide)
    _ = W2 m ρ c (Proc.devRef .tc main_arg11) := W3_keep m ρ c main_arg11 (by decide)
    _ = W1 m ρ c (Proc.devRef .tc main_arg11) := W2_of_ne m ρ c main_arg11 (by decide)
    _ = W0 m ρ c (Proc.devRef .tc main_arg11) := W1_keep m ρ c main_arg11 (by decide)
    _ = m ((c : Thread nD τ).loc main_arg11) := rfl

theorem W15_main_arg12 (c : Dev nD) : W15 m ρ c (Proc.devRef .tc main_arg12) = m ((c : Thread nD τ).loc main_arg12) :=
  calc W15 m ρ c (Proc.devRef .tc main_arg12)
    _ = W14 m ρ c (Proc.devRef .tc main_arg12) := W15_of_ne m ρ c main_arg12 (by decide)
    _ = W13 m ρ c (Proc.devRef .tc main_arg12) := (W14_arr m ρ c 0).trans (((dat6 (V13 m ρ) c).arrAt_in 0 rfl _).trans (A_eq6 (V13 m ρ) c 0))
    _ = W12 m ρ c (Proc.devRef .tc main_arg12) := W13_keep m ρ c main_arg12 (by decide)
    _ = W11 m ρ c (Proc.devRef .tc main_arg12) := W12_of_ne m ρ c main_arg12 (by decide)
    _ = W10 m ρ c (Proc.devRef .tc main_arg12) := W11_keep m ρ c main_arg12 (by decide)
    _ = W9 m ρ c (Proc.devRef .tc main_arg12) := W10_of_ne m ρ c main_arg12 (by decide)
    _ = W8 m ρ c (Proc.devRef .tc main_arg12) := W9_keep m ρ c main_arg12 (by decide)
    _ = W7 m ρ c (Proc.devRef .tc main_arg12) := W8_of_ne m ρ c main_arg12 (by decide)
    _ = W6 m ρ c (Proc.devRef .tc main_arg12) := W7_keep m ρ c main_arg12 (by decide)
    _ = W5 m ρ c (Proc.devRef .tc main_arg12) := W6_of_ne m ρ c main_arg12 (by decide)
    _ = W4 m ρ c (Proc.devRef .tc main_arg12) := W5_keep m ρ c main_arg12 (by decide)
    _ = W3 m ρ c (Proc.devRef .tc main_arg12) := W4_of_ne m ρ c main_arg12 (by decide)
    _ = W2 m ρ c (Proc.devRef .tc main_arg12) := W3_keep m ρ c main_arg12 (by decide)
    _ = W1 m ρ c (Proc.devRef .tc main_arg12) := W2_of_ne m ρ c main_arg12 (by decide)
    _ = W0 m ρ c (Proc.devRef .tc main_arg12) := W1_keep m ρ c main_arg12 (by decide)
    _ = m ((c : Thread nD τ).loc main_arg12) := rfl

theorem W15_main_arg13 (c : Dev nD) : W15 m ρ c (Proc.devRef .tc main_arg13) = m ((c : Thread nD τ).loc main_arg13) :=
  calc W15 m ρ c (Proc.devRef .tc main_arg13)
    _ = W14 m ρ c (Proc.devRef .tc main_arg13) := (W15_arr m ρ c 0).trans (((dat7 (V14 m ρ) c).arrAt_in 0 rfl _).trans (A_eq7 (V14 m ρ) c 0))
    _ = W13 m ρ c (Proc.devRef .tc main_arg13) := W14_of_ne m ρ c main_arg13 (by decide)
    _ = W12 m ρ c (Proc.devRef .tc main_arg13) := W13_keep m ρ c main_arg13 (by decide)
    _ = W11 m ρ c (Proc.devRef .tc main_arg13) := W12_of_ne m ρ c main_arg13 (by decide)
    _ = W10 m ρ c (Proc.devRef .tc main_arg13) := W11_keep m ρ c main_arg13 (by decide)
    _ = W9 m ρ c (Proc.devRef .tc main_arg13) := W10_of_ne m ρ c main_arg13 (by decide)
    _ = W8 m ρ c (Proc.devRef .tc main_arg13) := W9_keep m ρ c main_arg13 (by decide)
    _ = W7 m ρ c (Proc.devRef .tc main_arg13) := W8_of_ne m ρ c main_arg13 (by decide)
    _ = W6 m ρ c (Proc.devRef .tc main_arg13) := W7_keep m ρ c main_arg13 (by decide)
    _ = W5 m ρ c (Proc.devRef .tc main_arg13) := W6_of_ne m ρ c main_arg13 (by decide)
    _ = W4 m ρ c (Proc.devRef .tc main_arg13) := W5_keep m ρ c main_arg13 (by decide)
    _ = W3 m ρ c (Proc.devRef .tc main_arg13) := W4_of_ne m ρ c main_arg13 (by decide)
    _ = W2 m ρ c (Proc.devRef .tc main_arg13) := W3_keep m ρ c main_arg13 (by decide)
    _ = W1 m ρ c (Proc.devRef .tc main_arg13) := W2_of_ne m ρ c main_arg13 (by decide)
    _ = W0 m ρ c (Proc.devRef .tc main_arg13) := W1_keep m ρ c main_arg13 (by decide)
    _ = m ((c : Thread nD τ).loc main_arg13) := rfl

theorem W15_main_arg14 (c : Dev nD) : W15 m ρ c (Proc.devRef .tc main_arg14) = m ((c : Thread nD τ).loc main_arg14) :=
  calc W15 m ρ c (Proc.devRef .tc main_arg14)
    _ = W14 m ρ c (Proc.devRef .tc main_arg14) := W15_of_ne m ρ c main_arg14 (by decide)
    _ = W13 m ρ c (Proc.devRef .tc main_arg14) := W14_of_ne m ρ c main_arg14 (by decide)
    _ = W12 m ρ c (Proc.devRef .tc main_arg14) := W13_keep m ρ c main_arg14 (by decide)
    _ = W11 m ρ c (Proc.devRef .tc main_arg14) := W12_of_ne m ρ c main_arg14 (by decide)
    _ = W10 m ρ c (Proc.devRef .tc main_arg14) := W11_keep m ρ c main_arg14 (by decide)
    _ = W9 m ρ c (Proc.devRef .tc main_arg14) := W10_of_ne m ρ c main_arg14 (by decide)
    _ = W8 m ρ c (Proc.devRef .tc main_arg14) := W9_keep m ρ c main_arg14 (by decide)
    _ = W7 m ρ c (Proc.devRef .tc main_arg14) := W8_of_ne m ρ c main_arg14 (by decide)
    _ = W6 m ρ c (Proc.devRef .tc main_arg14) := W7_keep m ρ c main_arg14 (by decide)
    _ = W5 m ρ c (Proc.devRef .tc main_arg14) := W6_of_ne m ρ c main_arg14 (by decide)
    _ = W4 m ρ c (Proc.devRef .tc main_arg14) := W5_keep m ρ c main_arg14 (by decide)
    _ = W3 m ρ c (Proc.devRef .tc main_arg14) := W4_of_ne m ρ c main_arg14 (by decide)
    _ = W2 m ρ c (Proc.devRef .tc main_arg14) := W3_keep m ρ c main_arg14 (by decide)
    _ = W1 m ρ c (Proc.devRef .tc main_arg14) := W2_of_ne m ρ c main_arg14 (by decide)
    _ = W0 m ρ c (Proc.devRef .tc main_arg14) := W1_keep m ρ c main_arg14 (by decide)
    _ = m ((c : Thread nD τ).loc main_arg14) := rfl

theorem W15_main_arg15 (c : Dev nD) : W15 m ρ c (Proc.devRef .tc main_arg15) = m ((c : Thread nD τ).loc main_arg15) :=
  calc W15 m ρ c (Proc.devRef .tc main_arg15)
    _ = W14 m ρ c (Proc.devRef .tc main_arg15) := W15_of_ne m ρ c main_arg15 (by decide)
    _ = W13 m ρ c (Proc.devRef .tc main_arg15) := W14_of_ne m ρ c main_arg15 (by decide)
    _ = W12 m ρ c (Proc.devRef .tc main_arg15) := W13_keep m ρ c main_arg15 (by decide)
    _ = W11 m ρ c (Proc.devRef .tc main_arg15) := W12_of_ne m ρ c main_arg15 (by decide)
    _ = W10 m ρ c (Proc.devRef .tc main_arg15) := W11_keep m ρ c main_arg15 (by decide)
    _ = W9 m ρ c (Proc.devRef .tc main_arg15) := W10_of_ne m ρ c main_arg15 (by decide)
    _ = W8 m ρ c (Proc.devRef .tc main_arg15) := W9_keep m ρ c main_arg15 (by decide)
    _ = W7 m ρ c (Proc.devRef .tc main_arg15) := W8_of_ne m ρ c main_arg15 (by decide)
    _ = W6 m ρ c (Proc.devRef .tc main_arg15) := W7_keep m ρ c main_arg15 (by decide)
    _ = W5 m ρ c (Proc.devRef .tc main_arg15) := W6_of_ne m ρ c main_arg15 (by decide)
    _ = W4 m ρ c (Proc.devRef .tc main_arg15) := W5_keep m ρ c main_arg15 (by decide)
    _ = W3 m ρ c (Proc.devRef .tc main_arg15) := W4_of_ne m ρ c main_arg15 (by decide)
    _ = W2 m ρ c (Proc.devRef .tc main_arg15) := W3_keep m ρ c main_arg15 (by decide)
    _ = W1 m ρ c (Proc.devRef .tc main_arg15) := W2_of_ne m ρ c main_arg15 (by decide)
    _ = W0 m ρ c (Proc.devRef .tc main_arg15) := W1_keep m ρ c main_arg15 (by decide)
    _ = m ((c : Thread nD τ).loc main_arg15) := rfl

theorem W15_main_arg16 (c : Dev nD) : W15 m ρ c (Proc.devRef .tc main_arg16) = m ((c : Thread nD τ).loc main_arg16) :=
  calc W15 m ρ c (Proc.devRef .tc main_arg16)
    _ = W14 m ρ c (Proc.devRef .tc main_arg16) := W15_of_ne m ρ c main_arg16 (by decide)
    _ = W13 m ρ c (Proc.devRef .tc main_arg16) := W14_of_ne m ρ c main_arg16 (by decide)
    _ = W12 m ρ c (Proc.devRef .tc main_arg16) := W13_keep m ρ c main_arg16 (by decide)
    _ = W11 m ρ c (Proc.devRef .tc main_arg16) := W12_of_ne m ρ c main_arg16 (by decide)
    _ = W10 m ρ c (Proc.devRef .tc main_arg16) := W11_keep m ρ c main_arg16 (by decide)
    _ = W9 m ρ c (Proc.devRef .tc main_arg16) := W10_of_ne m ρ c main_arg16 (by decide)
    _ = W8 m ρ c (Proc.devRef .tc main_arg16) := W9_keep m ρ c main_arg16 (by decide)
    _ = W7 m ρ c (Proc.devRef .tc main_arg16) := W8_of_ne m ρ c main_arg16 (by decide)
    _ = W6 m ρ c (Proc.devRef .tc main_arg16) := W7_keep m ρ c main_arg16 (by decide)
    _ = W5 m ρ c (Proc.devRef .tc main_arg16) := W6_of_ne m ρ c main_arg16 (by decide)
    _ = W4 m ρ c (Proc.devRef .tc main_arg16) := W5_keep m ρ c main_arg16 (by decide)
    _ = W3 m ρ c (Proc.devRef .tc main_arg16) := W4_of_ne m ρ c main_arg16 (by decide)
    _ = W2 m ρ c (Proc.devRef .tc main_arg16) := W3_keep m ρ c main_arg16 (by decide)
    _ = W1 m ρ c (Proc.devRef .tc main_arg16) := W2_of_ne m ρ c main_arg16 (by decide)
    _ = W0 m ρ c (Proc.devRef .tc main_arg16) := W1_keep m ρ c main_arg16 (by decide)
    _ = m ((c : Thread nD τ).loc main_arg16) := rfl

theorem W15_main_arg17 (c : Dev nD) : W15 m ρ c (Proc.devRef .tc main_arg17) = m ((c : Thread nD τ).loc main_arg17) :=
  calc W15 m ρ c (Proc.devRef .tc main_arg17)
    _ = W14 m ρ c (Proc.devRef .tc main_arg17) := W15_of_ne m ρ c main_arg17 (by decide)
    _ = W13 m ρ c (Proc.devRef .tc main_arg17) := W14_of_ne m ρ c main_arg17 (by decide)
    _ = W12 m ρ c (Proc.devRef .tc main_arg17) := W13_keep m ρ c main_arg17 (by decide)
    _ = W11 m ρ c (Proc.devRef .tc main_arg17) := W12_of_ne m ρ c main_arg17 (by decide)
    _ = W10 m ρ c (Proc.devRef .tc main_arg17) := W11_keep m ρ c main_arg17 (by decide)
    _ = W9 m ρ c (Proc.devRef .tc main_arg17) := W10_of_ne m ρ c main_arg17 (by decide)
    _ = W8 m ρ c (Proc.devRef .tc main_arg17) := W9_keep m ρ c main_arg17 (by decide)
    _ = W7 m ρ c (Proc.devRef .tc main_arg17) := W8_of_ne m ρ c main_arg17 (by decide)
    _ = W6 m ρ c (Proc.devRef .tc main_arg17) := W7_keep m ρ c main_arg17 (by decide)
    _ = W5 m ρ c (Proc.devRef .tc main_arg17) := W6_of_ne m ρ c main_arg17 (by decide)
    _ = W4 m ρ c (Proc.devRef .tc main_arg17) := W5_keep m ρ c main_arg17 (by decide)
    _ = W3 m ρ c (Proc.devRef .tc main_arg17) := W4_of_ne m ρ c main_arg17 (by decide)
    _ = W2 m ρ c (Proc.devRef .tc main_arg17) := W3_keep m ρ c main_arg17 (by decide)
    _ = W1 m ρ c (Proc.devRef .tc main_arg17) := W2_of_ne m ρ c main_arg17 (by decide)
    _ = W0 m ρ c (Proc.devRef .tc main_arg17) := W1_keep m ρ c main_arg17 (by decide)
    _ = m ((c : Thread nD τ).loc main_arg17) := rfl

theorem W15_main_arg18 (c : Dev nD) : W15 m ρ c (Proc.devRef .tc main_arg18) = m ((c : Thread nD τ).loc main_arg18) :=
  calc W15 m ρ c (Proc.devRef .tc main_arg18)
    _ = W14 m ρ c (Proc.devRef .tc main_arg18) := W15_of_ne m ρ c main_arg18 (by decide)
    _ = W13 m ρ c (Proc.devRef .tc main_arg18) := W14_of_ne m ρ c main_arg18 (by decide)
    _ = W12 m ρ c (Proc.devRef .tc main_arg18) := W13_keep m ρ c main_arg18 (by decide)
    _ = W11 m ρ c (Proc.devRef .tc main_arg18) := W12_of_ne m ρ c main_arg18 (by decide)
    _ = W10 m ρ c (Proc.devRef .tc main_arg18) := W11_keep m ρ c main_arg18 (by decide)
    _ = W9 m ρ c (Proc.devRef .tc main_arg18) := W10_of_ne m ρ c main_arg18 (by decide)
    _ = W8 m ρ c (Proc.devRef .tc main_arg18) := W9_keep m ρ c main_arg18 (by decide)
    _ = W7 m ρ c (Proc.devRef .tc main_arg18) := W8_of_ne m ρ c main_arg18 (by decide)
    _ = W6 m ρ c (Proc.devRef .tc main_arg18) := W7_keep m ρ c main_arg18 (by decide)
    _ = W5 m ρ c (Proc.devRef .tc main_arg18) := W6_of_ne m ρ c main_arg18 (by decide)
    _ = W4 m ρ c (Proc.devRef .tc main_arg18) := W5_keep m ρ c main_arg18 (by decide)
    _ = W3 m ρ c (Proc.devRef .tc main_arg18) := W4_of_ne m ρ c main_arg18 (by decide)
    _ = W2 m ρ c (Proc.devRef .tc main_arg18) := W3_keep m ρ c main_arg18 (by decide)
    _ = W1 m ρ c (Proc.devRef .tc main_arg18) := W2_of_ne m ρ c main_arg18 (by decide)
    _ = W0 m ρ c (Proc.devRef .tc main_arg18) := W1_keep m ρ c main_arg18 (by decide)
    _ = m ((c : Thread nD τ).loc main_arg18) := rfl

theorem W15_main_arg19 (c : Dev nD) : W15 m ρ c (Proc.devRef .tc main_arg19) = m ((c : Thread nD τ).loc main_arg19) :=
  calc W15 m ρ c (Proc.devRef .tc main_arg19)
    _ = W14 m ρ c (Proc.devRef .tc main_arg19) := W15_of_ne m ρ c main_arg19 (by decide)
    _ = W13 m ρ c (Proc.devRef .tc main_arg19) := W14_of_ne m ρ c main_arg19 (by decide)
    _ = W12 m ρ c (Proc.devRef .tc main_arg19) := W13_keep m ρ c main_arg19 (by decide)
    _ = W11 m ρ c (Proc.devRef .tc main_arg19) := W12_of_ne m ρ c main_arg19 (by decide)
    _ = W10 m ρ c (Proc.devRef .tc main_arg19) := W11_keep m ρ c main_arg19 (by decide)
    _ = W9 m ρ c (Proc.devRef .tc main_arg19) := W10_of_ne m ρ c main_arg19 (by decide)
    _ = W8 m ρ c (Proc.devRef .tc main_arg19) := W9_keep m ρ c main_arg19 (by decide)
    _ = W7 m ρ c (Proc.devRef .tc main_arg19) := W8_of_ne m ρ c main_arg19 (by decide)
    _ = W6 m ρ c (Proc.devRef .tc main_arg19) := W7_keep m ρ c main_arg19 (by decide)
    _ = W5 m ρ c (Proc.devRef .tc main_arg19) := W6_of_ne m ρ c main_arg19 (by decide)
    _ = W4 m ρ c (Proc.devRef .tc main_arg19) := W5_keep m ρ c main_arg19 (by decide)
    _ = W3 m ρ c (Proc.devRef .tc main_arg19) := W4_of_ne m ρ c main_arg19 (by decide)
    _ = W2 m ρ c (Proc.devRef .tc main_arg19) := W3_keep m ρ c main_arg19 (by decide)
    _ = W1 m ρ c (Proc.devRef .tc main_arg19) := W2_of_ne m ρ c main_arg19 (by decide)
    _ = W0 m ρ c (Proc.devRef .tc main_arg19) := W1_keep m ρ c main_arg19 (by decide)
    _ = m ((c : Thread nD τ).loc main_arg19) := rfl

/-! ## The proof data family and what rides beside the buffers -/

/-- Every pipeline's proof data, each at its region's entry contents: a literal case split on the pipeline's index. -/
noncomputable def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V14 m ρ) c
noncomputable abbrev 𝒱₀ : Variants := Variants.none
/-- No core owes another anything: no level is assigned. -/
noncomputable abbrev L : GSem nD τ sig → Finset Unit := fun _ => ∅
noncomputable abbrev lv : GSem nD τ sig → Unit → ℕ := fun _ _ => 0
/-- What a core holds beside its buffers through every segment: its generator register at some state, and its dues, none. -/
noncomputable abbrev R (c : Dev nD) : sProp 𝕄 := iprop((∃ r, prngReg c r) ∗ ∃ W, owes (c : Thread nD τ) (0 : CellTallies nD τ sig Unit) W)
/-- A stretch of host operations as a segment over the unscoped references, from the contents `W`, `R` riding along. -/
noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those a core's thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
noncomputable abbrev Tₙ (c : Dev nD) : sProp 𝕄 := iprop(StableHlo.held (c : Thread nD τ) (Pipeline.ucRefs τ sig) (W15 m ρ c) ∗ ∃ r, prngReg c r)

end Cert.KernelIdeal.KF

end
-- ==== Proof.KiRunB0.lean ====
/- The run of @main: kernel region 0 as a segment between the contents its entry and its exit boundaries name. -/
import proofs.«120809_j78615081386430_2_alg».proof.Proof.KiRunA

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration family meets this region's own configuration only when
-- unification may unfold plain definitions inside a metavariable's type
set_option backward.isDefEq.respectTransparency.types false in
/-- Region 0 as a segment: entered with every unscoped buffer at `W1`, left with them at `W2`. Its windows' arrays
    are split out of the unscoped buffers at entry and put back, at the exit contents, when it ends; the generator register
    goes into the class invariant and comes back; nothing is owed; the kernel has no semaphore of its own. -/
noncomputable def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.KF

end
-- ==== Proof.KiRunB1.lean ====
/- The run of @main: kernel region 1 as a segment between the contents its entry and its exit boundaries name. -/
import proofs.«120809_j78615081386430_2_alg».proof.Proof.KiRunA

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration family meets this region's own configuration only when
-- unification may unfold plain definitions inside a metavariable's type
set_option backward.isDefEq.respectTransparency.types false in
/-- Region 1 as a segment: entered with every unscoped buffer at `W3`, left with them at `W4`. Its windows' arrays
    are split out of the unscoped buffers at entry and put back, at the exit contents, when it ends; the generator register
    goes into the class invariant and comes back; nothing is owed; the kernel has no semaphore of its own. -/
noncomputable def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.KF

end
-- ==== Proof.KiRunB2.lean ====
/- The run of @main: kernel region 2 as a segment between the contents its entry and its exit boundaries name. -/
import proofs.«120809_j78615081386430_2_alg».proof.Proof.KiRunA

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration family meets this region's own configuration only when
-- unification may unfold plain definitions inside a metavariable's type
set_option backward.isDefEq.respectTransparency.types false in
/-- Region 2 as a segment: entered with every unscoped buffer at `W5`, left with them at `W6`. Its windows' arrays
    are split out of the unscoped buffers at entry and put back, at the exit contents, when it ends; the generator register
    goes into the class invariant and comes back; nothing is owed; the kernel has no semaphore of its own. -/
noncomputable def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.KF

end
-- ==== Proof.KiRunB3.lean ====
/- The run of @main: kernel region 3 as a segment between the contents its entry and its exit boundaries name. -/
import proofs.«120809_j78615081386430_2_alg».proof.Proof.KiRunA

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration family meets this region's own configuration only when
-- unification may unfold plain definitions inside a metavariable's type
set_option backward.isDefEq.respectTransparency.types false in
/-- Region 3 as a segment: entered with every unscoped buffer at `W7`, left with them at `W8`. Its windows' arrays
    are split out of the unscoped buffers at entry and put back, at the exit contents, when it ends; the generator register
    goes into the class invariant and comes back; nothing is owed; the kernel has no semaphore of its own. -/
noncomputable def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.KF

end
-- ==== Proof.KiRunB4.lean ====
/- The run of @main: kernel region 4 as a segment between the contents its entry and its exit boundaries name. -/
import proofs.«120809_j78615081386430_2_alg».proof.Proof.KiRunA

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration family meets this region's own configuration only when
-- unification may unfold plain definitions inside a metavariable's type
set_option backward.isDefEq.respectTransparency.types false in
/-- Region 4 as a segment: entered with every unscoped buffer at `W9`, left with them at `W10`. Its windows' arrays
    are split out of the unscoped buffers at entry and put back, at the exit contents, when it ends; the generator register
    goes into the class invariant and comes back; nothing is owed; the kernel has no semaphore of its own. -/
noncomputable def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.KF

end
-- ==== Proof.KiRunB5.lean ====
/- The run of @main: kernel region 5 as a segment between the contents its entry and its exit boundaries name. -/
import proofs.«120809_j78615081386430_2_alg».proof.Proof.KiRunA

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration family meets this region's own configuration only when
-- unification may unfold plain definitions inside a metavariable's type
set_option backward.isDefEq.respectTransparency.types false in
/-- Region 5 as a segment: entered with every unscoped buffer at `W11`, left with them at `W12`. Its windows' arrays
    are split out of the unscoped buffers at entry and put back, at the exit contents, when it ends; the generator register
    goes into the class invariant and comes back; nothing is owed; the kernel has no semaphore of its own. -/
noncomputable def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.KF

end
-- ==== Proof.KiRunB6.lean ====
/- The run of @main: kernel region 6 as a segment between the contents its entry and its exit boundaries name. -/
import proofs.«120809_j78615081386430_2_alg».proof.Proof.KiRunA

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration family meets this region's own configuration only when
-- unification may unfold plain definitions inside a metavariable's type
set_option backward.isDefEq.respectTransparency.types false in
/-- Region 6 as a segment: entered with every unscoped buffer at `W13`, left with them at `W14`. Its windows' arrays
    are split out of the unscoped buffers at entry and put back, at the exit contents, when it ends; the generator register
    goes into the class invariant and comes back; nothing is owed; the kernel has no semaphore of its own. -/
noncomputable def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.KF

end
-- ==== Proof.KiRunB7.lean ====
/- The run of @main: kernel region 7 as a segment between the contents its entry and its exit boundaries name. -/
import proofs.«120809_j78615081386430_2_alg».proof.Proof.KiRunA

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration family meets this region's own configuration only when
-- unification may unfold plain definitions inside a metavariable's type
set_option backward.isDefEq.respectTransparency.types false in
/-- Region 7 as a segment: entered with every unscoped buffer at `W14`, left with them at `W15`. Its windows' arrays
    are split out of the unscoped buffers at entry and put back, at the exit contents, when it ends; the generator register
    goes into the class invariant and comes back; nothing is owed; the kernel has no semaphore of its own. -/
noncomputable def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V14 m ρ) c).loose
  hwaits := Pipeline.hwaits_of_owed_zero _ _ _ _ L lv 7 fun _ _ => rfl
  pre c := iprop(StableHlo.held (c : Thread nD τ) (Pipeline.ucRefs τ sig) (W14 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V14 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V14 m ρ c) (V15 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.KF

end
-- ==== Proof.KiRun.lean ====
/- The run of @main, assembled: its fifteen segments in order, @main as their run, and the launch over them —
   every weakly fair execution terminates without a fault, the two result arrays end at the last boundary's contents
   and every argument array ends as launched. -/
import proofs.«120809_j78615081386430_2_alg».proof.Proof.KiRunA
import proofs.«120809_j78615081386430_2_alg».proof.Proof.KiRunB0
import proofs.«120809_j78615081386430_2_alg».proof.Proof.KiRunB1
import proofs.«120809_j78615081386430_2_alg».proof.Proof.KiRunB2
import proofs.«120809_j78615081386430_2_alg».proof.Proof.KiRunB3
import proofs.«120809_j78615081386430_2_alg».proof.Proof.KiRunB4
import proofs.«120809_j78615081386430_2_alg».proof.Proof.KiRunB5
import proofs.«120809_j78615081386430_2_alg».proof.Proof.KiRunB6
import proofs.«120809_j78615081386430_2_alg».proof.Proof.KiRunB7

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's fifteen segments in order: a host segment per stretch, from the contents of the boundary before it, and
    a region per kernel call. -/
noncomputable abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .region (reg7 m ρ) ]

/-- @main is the run of the segments: both are the chain of the same fifteen fragments. -/
theorem main_run (c : Dev nD) : main (F := F) c = Pipeline.Seg.run (segs m ρ) := by
  rw [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()),
      StableHlo.seq hostOps6,
      Prog.lift (.customCall (Pipeline.entry 6) ()),
      Prog.lift (.customCall (Pipeline.entry 7) ()) ] from rfl]

-- the launch theorem's implicit arguments are found by unifying its conclusion with the statement, which takes
-- unfolding plain definitions inside a metavariable's type
set_option backward.isDefEq.respectTransparency.types false in
/-- From any memory with zero counters, every weakly fair execution of @main on the TensorCores terminates, nothing
    faulting; the two result arrays end holding the last boundary's contents, and every argument array ends as launched. -/
theorem run_valued : θ_run defs (onTc (τ := τ) (main (F := F))) ⟨m, fun _ => 0, ρ⟩ (fun r => ∀ c : Dev nD,
      r.2.mem ((c.tc : Thread nD τ).loc main_v134) = W15 m ρ c (Proc.devRef .tc main_v134)
      ∧ r.2.mem ((c.tc : Thread nD τ).loc main_v135) = W15 m ρ c (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v134 (by decide)), h c _ (mem_uc main_v135 (by decide)),
        (h c _ (mem_uc main_arg0 (by decide))).trans (W15_main_arg0 m ρ c),
        (h c _ (mem_uc main_arg1 (by decide))).trans (W15_main_arg1 m ρ c),
        (h c _ (mem_uc main_arg2 (by decide))).trans (W15_main_arg2 m ρ c),
        (h c _ (mem_uc main_arg3 (by decide))).trans (W15_main_arg3 m ρ c),
        (h c _ (mem_uc main_arg4 (by decide))).trans (W15_main_arg4 m ρ c),
        (h c _ (mem_uc main_arg5 (by decide))).trans (W15_main_arg5 m ρ c),
        (h c _ (mem_uc main_arg6 (by decide))).trans (W15_main_arg6 m ρ c),
        (h c _ (mem_uc main_arg7 (by decide))).trans (W15_main_arg7 m ρ c),
        (h c _ (mem_uc main_arg8 (by decide))).trans (W15_main_arg8 m ρ c),
        (h c _ (mem_uc main_arg9 (by decide))).trans (W15_main_arg9 m ρ c),
        (h c _ (mem_uc main_arg10 (by decide))).trans (W15_main_arg10 m ρ c),
        (h c _ (mem_uc main_arg11 (by decide))).trans (W15_main_arg11 m ρ c),
        (h c _ (mem_uc main_arg12 (by decide))).trans (W15_main_arg12 m ρ c),
        (h c _ (mem_uc main_arg13 (by decide))).trans (W15_main_arg13 m ρ c),
        (h c _ (mem_uc main_arg14 (by decide))).trans (W15_main_arg14 m ρ c),
        (h c _ (mem_uc main_arg15 (by decide))).trans (W15_main_arg15 m ρ c),
        (h c _ (mem_uc main_arg16 (by decide))).trans (W15_main_arg16 m ρ c),
        (h c _ (mem_uc main_arg17 (by decide))).trans (W15_main_arg17 m ρ c),
        (h c _ (mem_uc main_arg18 (by decide))).trans (W15_main_arg18 m ρ c),
        (h c _ (mem_uc main_arg19 (by decide))).trans (W15_main_arg19 m ρ c)⟩)

/-- The frame: every weakly fair execution of @main terminates, nothing faulting, every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs (onTc (τ := τ) (main (F := F))) ⟨m, fun _ => 0, ρ⟩).mono (fun r h c => (h c).2.2) (run_valued m ρ)

end Cert.KernelIdeal.KF

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibLaneReduce.lean ====
/-
  Reductions along the lanes of an `[r, n]` block, read at a row.

  A kernel that keeps a quantity's index on the rows reduces over the lanes of an `[r, n]` value (axis 1), obtaining a
  vector of length `r`, and views it as an `[r, 1]` column (a sum or a maximum taken with the axis kept).  At the
  extended reals the entry of that column at row `p` is the sum, or the fold of `max` from the accumulator's value, over
  the `n` entries of row `p`; where the maximum is first taken once more against the accumulator's value broadcast (as
  a lowered softmax does), it is the `max` of that value with the fold.  General in both extents.
-/
import Idealize.ShloMosaic.PureOps.Ideal.Laws
import Idealize.ShloMosaic.Lib.ValueIdx
import Idealize.ShloMosaic.Lib.Pipeline.Value

noncomputable section

open scoped BigOperators

namespace LibLaneReduce

open Idealize.ShloMosaic Idealize.ShloMosaic.ValueIdx

variable {r n : Nat}

/-- The reduced index `p` with lane `k` put back is `(p, k)`. -/
theorem lift_lanes (h : (⟨2, ![r, n]⟩ : Shape).Reduces [1] (⟨1, ![r]⟩ : Shape)) (p : Fin r)
    (k : Fin ((⟨2, ![r, n]⟩ : Shape).size 1)) : h.lift (ix1 p) k = ix2 p (⟨k.val, k.isLt⟩ : Fin n) := by
  funext c; apply Fin.ext
  fin_cases c <;> rfl

/-- A vector of length `r` viewed as a column `[r, 1]` reads, at `(p, 0)`, the vector at `p`: the reshape keeps the
    row-major position `p = p · 1 + 0`. -/
theorem col_apply {α : Type} (x : (⟨1, ![r]⟩ : Shape).Idx → α) (hs : (⟨1, ![r]⟩ : Shape).ShapeCasts ⟨2, ![r, 1]⟩) (p : Fin r) :
    shapeCast ⟨2, ![r, 1]⟩ x hs (ix2 p (0 : Fin 1)) = x (ix1 p) :=
  shapeCast_apply x hs _ _ (by
    rw [Shape.rowMajor_val_one, Shape.rowMajor_val_two]
    show p.val = p.val * 1 + 0
    omega)

/-- A sum along the lanes kept as a column: at row `p` the sum of row `p`. -/
theorem sumLanes_apply (V : FVec Ideal ⟨2, ![r, n]⟩ .f32) (h : (⟨2, ![r, n]⟩ : Shape).Reduces [1] (⟨1, ![r]⟩ : Shape))
    (hφ : FKind.Formats .f32) (hacc : (0x00000000#32 : BitVec 32) = 0x00000000#32)
    (hs : (⟨1, ![r]⟩ : Shape).ShapeCasts ⟨2, ![r, 1]⟩) (p : Fin r) :
    shapeCast ⟨2, ![r, 1]⟩ (multiReduction .add [1] ⟨1, ![r]⟩ V 0x00000000#32 h hφ hacc) hs (ix2 p (0 : Fin 1))
      = ∑ k : Fin n, V (ix2 p k) := by
  refine (col_apply _ hs p).trans ?_
  refine (Ideal.multiReduction_add_single V 0x00000000#32 h hφ hacc (ix1 p)).trans ?_
  exact Finset.sum_congr rfl fun k _ => congrArg V (lift_lanes h p k)

/-- A maximum along the lanes from the accumulator's value, taken once more against that value, kept as a column:
    at row `p` the `max` of that value with the fold of `max` over row `p`. -/
theorem maxLanes_apply (V : FVec Ideal ⟨2, ![r, n]⟩ .f32) (acc : BitVec 32) (h : (⟨2, ![r, n]⟩ : Shape).Reduces [1] (⟨1, ![r]⟩ : Shape))
    (hφ : FKind.Formats .f32) (hacc' : acc = FKind.maximumf.neutral .f32 hφ)
    (hs : (⟨1, ![r]⟩ : Shape).ShapeCasts ⟨2, ![r, 1]⟩) (p : Fin r) :
    shapeCast ⟨2, ![r, 1]⟩ (maximumf (broadcast ⟨1, ![r]⟩ (Scalar.ofBits .f32 acc)) (multiReduction .maximumf [1] ⟨1, ![r]⟩ V acc h hφ hacc')) hs (ix2 p (0 : Fin 1))
      = max (Ideal.ofBits .f32 acc) ((Finset.univ : Finset (Fin n)).fold max (Ideal.ofBits .f32 acc) fun k => V (ix2 p k)) := by
  refine (col_apply _ hs p).trans ?_
  refine congrArg (max (Ideal.ofBits .f32 acc)) ?_
  refine (Ideal.multiReduction_maximumf_single V acc h hφ hacc' (ix1 p)).trans ?_
  exact congrArg (fun f => Finset.fold max (Ideal.ofBits .f32 acc) f (Finset.univ : Finset (Fin n)))
    (funext fun k => congrArg V (lift_lanes h p k))

end LibLaneReduce

end
-- ==== Proof.LibColumnLayout.lean ====
/-
  Two layout operations read at an index, for shapes with unit axes, in the style of the library's
  Lib/ValueLayout.lean (which has the row form [1, b] → [a, b] and the single leading unit axis):
  a COLUMN [a, 1] broadcast along its unit axis to [a, b], and a matrix [a, b] viewed with TWO leading
  unit axes [1, 1, a, b].
-/
import Idealize.ShloMosaic.Lib.Pipeline.Value
import Idealize.ShloMosaic.Lib.ValueIdx

noncomputable section

namespace Idealize.ShloMosaic.ValueIdx

variable {α : Type}

/-- An `[a, 1]` column broadcast to `[a, b]` reads, at `(p, c)`, the column's entry of row `p`: the broadcast
    repeats the one entry of each row along the new lanes. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`: both arrays list the
    same entries in the same row-major order, the two unit coordinates contributing nothing to the position. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

end Idealize.ShloMosaic.ValueIdx

end
-- ==== Proof.LayerBlock.lean ====
/-
  One message-passing layer's node update on a block of `R` rows, read entry by entry on the extended reals.

  The block's rows carry the aggregated neighbourhood `side` and the current embedding `ego`, 64 lanes each.  A row of
  the fused operand is `side` followed by `ego · side` (128 lanes); it is multiplied into a 128 × 128 weight, a bias
  row is added, a leaky rectifier is applied, and the two 64-lane halves of the result are added: that is the new
  embedding.  The normalised embedding divides each row by the larger of its Euclidean length and a small constant.
  Entry `(p, j)` depends on row `p` of both operands only.
-/
import Idealize.ShloMosaic.PureOps.Ideal.Laws
import Idealize.ShloMosaic.Lib.ValueIdx
import Idealize.ShloMosaic.Lib.ValueLayout
import Idealize.ShloMosaic.Lib.Pipeline.Value
import proofs.«120809_j78615081386430_2_alg».proof.Proof.LibMatmulNN
import proofs.«120809_j78615081386430_2_alg».proof.Proof.LibLaneReduce
import proofs.«120809_j78615081386430_2_alg».proof.Proof.LibColumnLayout

noncomputable section

open scoped BigOperators

namespace Cert.Ngcf

open Idealize.ShloMosaic Idealize.ShloMosaic.ValueIdx

/-- The leaky rectifier with the programs' slope word: `y` where `y ≥ 0`, the slope times `y` elsewhere. -/
def lrelu (y : EReal) : EReal :=
  Scalar.select (FloatOps.cmpf (F := Ideal) (φ := .f32) .oge y (Scalar.ofBits (F := Ideal) .f32 0x00000000#32)) y
    (Scalar.ofBits (F := Ideal) .f32 0x3C23D70A#32 * y)

variable {R : ℕ}

/-- Lane `k` of row `p` of the fused operand: `side` on the first 64 lanes, `ego · side` on the last 64. -/
def fusedRow (side ego : (⟨2, ![R, 64]⟩ : Shape).Idx → EReal) (p : Fin R) (k : Fin 128) : EReal :=
  if h : k.val < 64 then side (ix2 p ⟨k.val, h⟩)
  else ego (ix2 p ⟨k.val - 64, by omega⟩) * side (ix2 p ⟨k.val - 64, by omega⟩)

/-- The affine map before the rectifier, at row `p` and output lane `q`. -/
def preAct (side ego : (⟨2, ![R, 64]⟩ : Shape).Idx → EReal) (W : (⟨2, ![128, 128]⟩ : Shape).Idx → EReal)
    (b : (⟨2, ![1, 128]⟩ : Shape).Idx → EReal) (p : Fin R) (q : Fin 128) : EReal :=
  (∑ k : Fin 128, fusedRow side ego p k * W (ix2 k q)) + b (ix2 (0 : Fin 1) q)

/-- The new embedding at `(p, j)`: the rectified lane `j` plus the rectified lane `64 + j`. -/
def newEgoAt (side ego : (⟨2, ![R, 64]⟩ : Shape).Idx → EReal) (W : (⟨2, ![128, 128]⟩ : Shape).Idx → EReal)
    (b : (⟨2, ![1, 128]⟩ : Shape).Idx → EReal) (p : Fin R) (j : Fin 64) : EReal :=
  lrelu (preAct side ego W b p ⟨j.val, by omega⟩) + lrelu (preAct side ego W b p ⟨j.val + 64, by omega⟩)

/-- The normalised embedding at `(p, j)`: the new embedding over the larger of the row's length and the constant. -/
def normAt (side ego : (⟨2, ![R, 64]⟩ : Shape).Idx → EReal) (W : (⟨2, ![128, 128]⟩ : Shape).Idx → EReal)
    (b : (⟨2, ![1, 128]⟩ : Shape).Idx → EReal) (p : Fin R) (j : Fin 64) : EReal :=
  Ideal.div (newEgoAt side ego W b p j)
    (max (Ideal.sqrt (∑ k : Fin 64, newEgoAt side ego W b p k * newEgoAt side ego W b p k))
      (Scalar.ofBits (F := Ideal) .f32 0x2B8CBCCC#32))

/-- The block computation the layer kernel's body performs for the new embedding, as one term over the block's
    operands; the side conditions of the layout operations are parameters. -/
def blockNewEgo (hc : Shape.Concatenates [(⟨2, ![R, 64]⟩ : Shape), ⟨2, ![R, 64]⟩] ⟨2, ![R, 128]⟩ 1)
    (hb : (⟨2, ![1, 128]⟩ : Shape).Broadcasts ⟨2, ![R, 128]⟩)
    (hs0 : (⟨2, ![R, 128]⟩ : Shape).Slices ![0, 0] ⟨2, ![R, 64]⟩) (hs1 : (⟨2, ![R, 128]⟩ : Shape).Slices ![0, 64] ⟨2, ![R, 64]⟩)
    (side ego : FVec Ideal ⟨2, ![R, 64]⟩ .f32) (W : FVec Ideal ⟨2, ![128, 128]⟩ .f32) (b : FVec Ideal ⟨2, ![1, 128]⟩ .f32) :
    FVec Ideal ⟨2, ![R, 64]⟩ .f32 :=
  let x : FVec Ideal ⟨2, ![R, 128]⟩ .f32 := concatenate ⟨2, ![R, 128]⟩ 1 [⟨⟨2, ![R, 64]⟩, side⟩, ⟨⟨2, ![R, 64]⟩, mulf ego side⟩] hc
  let y : FVec Ideal ⟨2, ![R, 128]⟩ .f32 :=
    addf (matmul (DotDims.plain R 128 128) none x W (constant ⟨2, ![R, 128]⟩ .f32 0x00000000#32)) (broadcastTo ⟨2, ![R, 128]⟩ b hb)
  let z : FVec Ideal ⟨2, ![R, 128]⟩ .f32 :=
    select (cmpf .oge y (broadcast ⟨2, ![R, 128]⟩ (Scalar.ofBits .f32 0x00000000#32))) y
      (mulf (broadcast ⟨2, ![R, 128]⟩ (Scalar.ofBits .f32 0x3C23D70A#32)) y)
  addf (extractStridedSlice ⟨2, ![R, 64]⟩ ![0, 0] z hs0) (extractStridedSlice ⟨2, ![R, 64]⟩ ![0, 64] z hs1)

/-- A lane of the fused operand, read off the concatenation. -/
theorem fused_apply (hc : Shape.Concatenates [(⟨2, ![R, 64]⟩ : Shape), ⟨2, ![R, 64]⟩] ⟨2, ![R, 128]⟩ 1)
    (side ego : FVec Ideal ⟨2, ![R, 64]⟩ .f32) (p : Fin R) (k : Fin 128) :
    concatenate (⟨2, ![R, 128]⟩ : Shape) 1 [⟨⟨2, ![R, 64]⟩, side⟩, ⟨⟨2, ![R, 64]⟩, mulf ego side⟩] hc (ix2 p k)
      = fusedRow side ego p k := by
  unfold fusedRow
  by_cases h : k.val < 64
  · rw [dif_pos h]
    refine concatenate_pair_apply_left (1 : Fin 2) side (mulf ego side) hc (ix2 p k) rfl (ix2 p ⟨k.val, h⟩) fun b => ?_
    match b with
    | ⟨0, _⟩ => rfl
    | ⟨1, _⟩ => rfl
  · rw [dif_neg h]
    refine (concatenate_pair_apply_right (1 : Fin 2) side (mulf ego side) hc (ix2 p k) rfl rfl
      (ix2 p ⟨k.val - 64, by omega⟩) (fun b hb => ?_) ?_).trans rfl
    · match b with
      | ⟨0, _⟩ => rfl
      | ⟨1, _⟩ => exact absurd rfl hb
    · show (k.val - 64) + 64 = k.val
      omega

/-- The affine map before the rectifier, read off the matrix product and the broadcast bias row. -/
theorem preAct_apply (hc : Shape.Concatenates [(⟨2, ![R, 64]⟩ : Shape), ⟨2, ![R, 64]⟩] ⟨2, ![R, 128]⟩ 1)
    (hb : (⟨2, ![1, 128]⟩ : Shape).Broadcasts ⟨2, ![R, 128]⟩)
    (side ego : FVec Ideal ⟨2, ![R, 64]⟩ .f32) (W : FVec Ideal ⟨2, ![128, 128]⟩ .f32) (b : FVec Ideal ⟨2, ![1, 128]⟩ .f32)
    (p : Fin R) (q : Fin 128) :
    addf (matmul (DotDims.plain R 128 128) none
        (concatenate (⟨2, ![R, 128]⟩ : Shape) 1 [⟨⟨2, ![R, 64]⟩, side⟩, ⟨⟨2, ![R, 64]⟩, mulf ego side⟩] hc) W
        (constant (F := Ideal) ⟨2, ![R, 128]⟩ .f32 0x00000000#32)) (broadcastTo ⟨2, ![R, 128]⟩ b hb) (ix2 p q)
      = preAct side ego W b p q := by
  unfold preAct
  refine congrArg₂ (· + ·) ?_ ?_
  · refine (LibMatmulNN.matmul_zero_apply R 128 128 none _ W p q).trans ?_
    exact Finset.sum_congr rfl fun k _ => congrArg (· * W (ix2 k q)) (fused_apply hc side ego p k)
  · exact broadcastTo_1b_ab_apply b hb p q

/-- The new embedding of a block, entry by entry. -/
theorem blockNewEgo_apply (hc : Shape.Concatenates [(⟨2, ![R, 64]⟩ : Shape), ⟨2, ![R, 64]⟩] ⟨2, ![R, 128]⟩ 1)
    (hb : (⟨2, ![1, 128]⟩ : Shape).Broadcasts ⟨2, ![R, 128]⟩)
    (hs0 : (⟨2, ![R, 128]⟩ : Shape).Slices ![0, 0] ⟨2, ![R, 64]⟩) (hs1 : (⟨2, ![R, 128]⟩ : Shape).Slices ![0, 64] ⟨2, ![R, 64]⟩)
    (side ego : FVec Ideal ⟨2, ![R, 64]⟩ .f32) (W : FVec Ideal ⟨2, ![128, 128]⟩ .f32) (b : FVec Ideal ⟨2, ![1, 128]⟩ .f32)
    (p : Fin R) (j : Fin 64) :
    blockNewEgo hc hb hs0 hs1 side ego W b (ix2 p j) = newEgoAt side ego W b p j := by
  unfold blockNewEgo newEgoAt
  refine congrArg₂ (· + ·) ?_ ?_
  · refine (extractStridedSlice_apply ![0, 0] _ hs0 (ix2 p j) (ix2 p (⟨j.val, by omega⟩ : Fin 128)) fun a => ?_).trans ?_
    · match a with
      | ⟨0, _⟩ => exact (Nat.zero_add _).symm
      | ⟨1, _⟩ => exact (Nat.zero_add _).symm
    · exact congrArg lrelu (preAct_apply hc hb side ego W b p _)
  · refine (extractStridedSlice_apply ![0, 64] _ hs1 (ix2 p j) (ix2 p (⟨j.val + 64, by omega⟩ : Fin 128)) fun a => ?_).trans ?_
    · match a with
      | ⟨0, _⟩ => exact (Nat.zero_add _).symm
      | ⟨1, _⟩ => exact Nat.add_comm _ _
    · exact congrArg lrelu (preAct_apply hc hb side ego W b p _)

/-- The block computation the layer kernel's body performs for the normalised embedding, over the block's new
    embedding `e`. -/
def blockNormOf (hr : (⟨2, ![R, 64]⟩ : Shape).Reduces [1] (⟨1, ![R]⟩ : Shape)) (hsc : (⟨1, ![R]⟩ : Shape).ShapeCasts ⟨2, ![R, 1]⟩)
    (hbc : (⟨2, ![R, 1]⟩ : Shape).Broadcasts ⟨2, ![R, 64]⟩) (e : FVec Ideal ⟨2, ![R, 64]⟩ .f32) : FVec Ideal ⟨2, ![R, 64]⟩ .f32 :=
  divf e (broadcastTo ⟨2, ![R, 64]⟩
    (maximumf (sqrt (shapeCast ⟨2, ![R, 1]⟩ (multiReduction .add [1] ⟨1, ![R]⟩ (mulf e e) 0x00000000#32 hr (.inl rfl) rfl) hsc))
      (broadcast ⟨2, ![R, 1]⟩ (Scalar.ofBits .f32 0x2B8CBCCC#32))) hbc)

/-- The normalised embedding of a block, entry by entry: the entry over the larger of its row's length and the constant. -/
theorem blockNormOf_apply (hr : (⟨2, ![R, 64]⟩ : Shape).Reduces [1] (⟨1, ![R]⟩ : Shape)) (hsc : (⟨1, ![R]⟩ : Shape).ShapeCasts ⟨2, ![R, 1]⟩)
    (hbc : (⟨2, ![R, 1]⟩ : Shape).Broadcasts ⟨2, ![R, 64]⟩) (e : FVec Ideal ⟨2, ![R, 64]⟩ .f32) (p : Fin R) (j : Fin 64) :
    blockNormOf hr hsc hbc e (ix2 p j)
      = Ideal.div (e (ix2 p j)) (max (Ideal.sqrt (∑ k : Fin 64, e (ix2 p k) * e (ix2 p k))) (Scalar.ofBits (F := Ideal) .f32 0x2B8CBCCC#32)) := by
  unfold blockNormOf
  refine congrArg (Ideal.div (e (ix2 p j))) ?_
  refine (broadcastTo_a1_ab_apply _ hbc p j).trans ?_
  refine congrArg (fun t => max (Ideal.sqrt t) (Scalar.ofBits (F := Ideal) .f32 0x2B8CBCCC#32)) ?_
  exact LibLaneReduce.sumLanes_apply (mulf e e) hr (.inl rfl) rfl hsc p

/-- The normalised embedding of a block over the block's operands, entry by entry. -/
theorem blockNorm_apply (hc : Shape.Concatenates [(⟨2, ![R, 64]⟩ : Shape), ⟨2, ![R, 64]⟩] ⟨2, ![R, 128]⟩ 1)
    (hb : (⟨2, ![1, 128]⟩ : Shape).Broadcasts ⟨2, ![R, 128]⟩)
    (hs0 : (⟨2, ![R, 128]⟩ : Shape).Slices ![0, 0] ⟨2, ![R, 64]⟩) (hs1 : (⟨2, ![R, 128]⟩ : Shape).Slices ![0, 64] ⟨2, ![R, 64]⟩)
    (hr : (⟨2, ![R, 64]⟩ : Shape).Reduces [1] (⟨1, ![R]⟩ : Shape)) (hsc : (⟨1, ![R]⟩ : Shape).ShapeCasts ⟨2, ![R, 1]⟩)
    (hbc : (⟨2, ![R, 1]⟩ : Shape).Broadcasts ⟨2, ![R, 64]⟩)
    (side ego : FVec Ideal ⟨2, ![R, 64]⟩ .f32) (W : FVec Ideal ⟨2, ![128, 128]⟩ .f32) (b : FVec Ideal ⟨2, ![1, 128]⟩ .f32)
    (p : Fin R) (j : Fin 64) :
    blockNormOf hr hsc hbc (blockNewEgo hc hb hs0 hs1 side ego W b) (ix2 p j) = normAt side ego W b p j := by
  rw [blockNormOf_apply]
  unfold normAt
  rw [blockNewEgo_apply]
  refine congrArg (fun t => Ideal.div (newEgoAt side ego W b p j) (max (Ideal.sqrt t) (Scalar.ofBits (F := Ideal) .f32 0x2B8CBCCC#32))) ?_
  exact Finset.sum_congr rfl fun k _ => by rw [blockNewEgo_apply]

/-! ### An entry depends on its own row of the operands only -/

section RowOnly
variable {R' : ℕ}
variable (side ego : (⟨2, ![R, 64]⟩ : Shape).Idx → EReal) (side' ego' : (⟨2, ![R', 64]⟩ : Shape).Idx → EReal)
  (W W' : (⟨2, ![128, 128]⟩ : Shape).Idx → EReal) (b b' : (⟨2, ![1, 128]⟩ : Shape).Idx → EReal) (p : Fin R) (p' : Fin R')

theorem fusedRow_congr (hs : ∀ k : Fin 64, side (ix2 p k) = side' (ix2 p' k)) (he : ∀ k : Fin 64, ego (ix2 p k) = ego' (ix2 p' k))
    (k : Fin 128) : fusedRow side ego p k = fusedRow side' ego' p' k := by
  unfold fusedRow
  by_cases h : k.val < 64
  · rw [dif_pos h, dif_pos h, hs]
  · rw [dif_neg h, dif_neg h, hs, he]

theorem preAct_congr (hs : ∀ k : Fin 64, side (ix2 p k) = side' (ix2 p' k)) (he : ∀ k : Fin 64, ego (ix2 p k) = ego' (ix2 p' k))
    (hW : ∀ i, W i = W' i) (hb : ∀ i, b i = b' i) (q : Fin 128) :
    preAct side ego W b p q = preAct side' ego' W' b' p' q := by
  unfold preAct
  rw [hb]
  exact congrArg (· + b' (ix2 (0 : Fin 1) q))
    (Finset.sum_congr rfl fun k _ => by rw [fusedRow_congr side ego side' ego' p p' hs he k, hW])

theorem newEgoAt_congr (hs : ∀ k : Fin 64, side (ix2 p k) = side' (ix2 p' k)) (he : ∀ k : Fin 64, ego (ix2 p k) = ego' (ix2 p' k))
    (hW : ∀ i, W i = W' i) (hb : ∀ i, b i = b' i) (j : Fin 64) :
    newEgoAt side ego W b p j = newEgoAt side' ego' W' b' p' j := by
  unfold newEgoAt
  rw [preAct_congr side ego side' ego' W W' b b' p p' hs he hW hb, preAct_congr side ego side' ego' W W' b b' p p' hs he hW hb]

theorem normAt_congr (hs : ∀ k : Fin 64, side (ix2 p k) = side' (ix2 p' k)) (he : ∀ k : Fin 64, ego (ix2 p k) = ego' (ix2 p' k))
    (hW : ∀ i, W i = W' i) (hb : ∀ i, b i = b' i) (j : Fin 64) :
    normAt side ego W b p j = normAt side' ego' W' b' p' j := by
  unfold normAt
  rw [newEgoAt_congr side ego side' ego' W W' b b' p p' hs he hW hb j]
  refine congrArg (fun t => Ideal.div (newEgoAt side' ego' W' b' p' j) (max (Ideal.sqrt t) (Scalar.ofBits (F := Ideal) .f32 0x2B8CBCCC#32))) ?_
  exact Finset.sum_congr rfl fun k _ => by rw [newEgoAt_congr side ego side' ego' W W' b b' p p' hs he hW hb k]

end RowOnly

end Cert.Ngcf

end
-- ==== Proof.LayerLaw.lean ====
/-
  The law that joins the two programs' layer: a product of the fused 128-lane operand (`side` then `ego · side`) with a
  block-diagonal 128 × 128 weight — the first weight in the upper-left block, the second in the lower-right, zeros elsewhere —
  is, on its first 64 output lanes, the product of `side` with the first weight and, on its last 64, the product of
  `ego · side` with the second.  The sum over 128 lanes splits into two sums over 64 lanes; the terms against the zero blocks
  vanish because a product with zero is zero on the extended reals, infinities included, so nothing is assumed of the
  operands.
-/
import proofs.«120809_j78615081386430_2_alg».proof.Proof.LayerBlock

noncomputable section

open scoped BigOperators

namespace Cert.Ngcf

open Idealize.ShloMosaic Idealize.ShloMosaic.ValueIdx

variable {R : ℕ}

/-- One layer with the two weights kept apart, at `(p, j)`: the rectified `side · gW + gb` plus the rectified
    `(ego · side) · bW + bb`. -/
def layerAt (side ego : (⟨2, ![R, 64]⟩ : Shape).Idx → EReal) (gW bW : (⟨2, ![64, 64]⟩ : Shape).Idx → EReal)
    (gb bb : (⟨1, ![64]⟩ : Shape).Idx → EReal) (p : Fin R) (j : Fin 64) : EReal :=
  lrelu ((∑ k : Fin 64, side (ix2 p k) * gW (ix2 k j)) + gb (ix1 j))
    + lrelu ((∑ k : Fin 64, (ego (ix2 p k) * side (ix2 p k)) * bW (ix2 k j)) + bb (ix1 j))

/-- The normalised layer with the two weights kept apart. -/
def layerNormAt (side ego : (⟨2, ![R, 64]⟩ : Shape).Idx → EReal) (gW bW : (⟨2, ![64, 64]⟩ : Shape).Idx → EReal)
    (gb bb : (⟨1, ![64]⟩ : Shape).Idx → EReal) (p : Fin R) (j : Fin 64) : EReal :=
  Ideal.div (layerAt side ego gW bW gb bb p j)
    (max (Ideal.sqrt (∑ k : Fin 64, layerAt side ego gW bW gb bb p k * layerAt side ego gW bW gb bb p k))
      (Scalar.ofBits (F := Ideal) .f32 0x2B8CBCCC#32))

/-- A sum over the 128 fused lanes is the sum over the 64 `side` lanes plus the sum over the 64 `ego · side` lanes. -/
theorem fused_sum_split (side ego : (⟨2, ![R, 64]⟩ : Shape).Idx → EReal) (p : Fin R) (g : Fin 128 → EReal) :
    ∑ k : Fin 128, fusedRow side ego p k * g k
      = (∑ k : Fin 64, side (ix2 p k) * g ⟨k.val, by omega⟩)
        + ∑ k : Fin 64, (ego (ix2 p k) * side (ix2 p k)) * g ⟨k.val + 64, by omega⟩ := by
  refine (Fin.sum_univ_add (a := 64) (b := 64) (fun k : Fin (64 + 64) => fusedRow side ego p k * g k)).trans ?_
  refine congrArg₂ (· + ·) (Finset.sum_congr rfl fun k _ => ?_) (Finset.sum_congr rfl fun k _ => ?_)
  · have hk : (Fin.castAdd 64 k : Fin (64 + 64)).val < 64 := k.isLt
    show fusedRow side ego p (Fin.castAdd 64 k) * g (Fin.castAdd 64 k) = _
    unfold fusedRow
    rw [dif_pos hk]
    rfl
  · have hv : (Fin.natAdd 64 k : Fin (64 + 64)).val = 64 + k.val := rfl
    have hk : ¬ (Fin.natAdd 64 k : Fin (64 + 64)).val < 64 := by rw [hv]; omega
    have e1 : (⟨(Fin.natAdd 64 k : Fin (64 + 64)).val - 64, by show 64 + k.val - 64 < 64; omega⟩ : Fin 64) = k :=
      Fin.ext (by show 64 + k.val - 64 = k.val; omega)
    have e2 : (Fin.natAdd 64 k : Fin (64 + 64)) = (⟨k.val + 64, by omega⟩ : Fin 128) :=
      Fin.ext (by show 64 + k.val = k.val + 64; omega)
    show fusedRow side ego p (Fin.natAdd 64 k) * g (Fin.natAdd 64 k) = _
    unfold fusedRow
    rw [dif_neg hk, e1, e2]

variable (side ego : (⟨2, ![R, 64]⟩ : Shape).Idx → EReal) (W : (⟨2, ![128, 128]⟩ : Shape).Idx → EReal)
  (b : (⟨2, ![1, 128]⟩ : Shape).Idx → EReal) (gW bW : (⟨2, ![64, 64]⟩ : Shape).Idx → EReal) (gb bb : (⟨1, ![64]⟩ : Shape).Idx → EReal)

/-- With a block-diagonal fused weight and a concatenated bias, the fused layer is the layer with the weights kept apart. -/
theorem newEgoAt_eq_layerAt
    (h11 : ∀ k j : Fin 64, W (ix2 (⟨k.val, by omega⟩ : Fin 128) (⟨j.val, by omega⟩ : Fin 128)) = gW (ix2 k j))
    (h12 : ∀ k j : Fin 64, W (ix2 (⟨k.val, by omega⟩ : Fin 128) (⟨j.val + 64, by omega⟩ : Fin 128)) = 0)
    (h21 : ∀ k j : Fin 64, W (ix2 (⟨k.val + 64, by omega⟩ : Fin 128) (⟨j.val, by omega⟩ : Fin 128)) = 0)
    (h22 : ∀ k j : Fin 64, W (ix2 (⟨k.val + 64, by omega⟩ : Fin 128) (⟨j.val + 64, by omega⟩ : Fin 128)) = bW (ix2 k j))
    (hb1 : ∀ j : Fin 64, b (ix2 (0 : Fin 1) (⟨j.val, by omega⟩ : Fin 128)) = gb (ix1 j))
    (hb2 : ∀ j : Fin 64, b (ix2 (0 : Fin 1) (⟨j.val + 64, by omega⟩ : Fin 128)) = bb (ix1 j))
    (p : Fin R) (j : Fin 64) :
    newEgoAt side ego W b p j = layerAt side ego gW bW gb bb p j := by
  unfold newEgoAt layerAt preAct
  rw [fused_sum_split side ego p fun k => W (ix2 k (⟨j.val, by omega⟩ : Fin 128)),
    fused_sum_split side ego p fun k => W (ix2 k (⟨j.val + 64, by omega⟩ : Fin 128))]
  simp only [h11, h12, h21, h22, hb1, hb2, mul_zero, Finset.sum_const_zero, add_zero, zero_add]

/-- The same for the normalised layer. -/
theorem normAt_eq_layerNormAt
    (h11 : ∀ k j : Fin 64, W (ix2 (⟨k.val, by omega⟩ : Fin 128) (⟨j.val, by omega⟩ : Fin 128)) = gW (ix2 k j))
    (h12 : ∀ k j : Fin 64, W (ix2 (⟨k.val, by omega⟩ : Fin 128) (⟨j.val + 64, by omega⟩ : Fin 128)) = 0)
    (h21 : ∀ k j : Fin 64, W (ix2 (⟨k.val + 64, by omega⟩ : Fin 128) (⟨j.val, by omega⟩ : Fin 128)) = 0)
    (h22 : ∀ k j : Fin 64, W (ix2 (⟨k.val + 64, by omega⟩ : Fin 128) (⟨j.val + 64, by omega⟩ : Fin 128)) = bW (ix2 k j))
    (hb1 : ∀ j : Fin 64, b (ix2 (0 : Fin 1) (⟨j.val, by omega⟩ : Fin 128)) = gb (ix1 j))
    (hb2 : ∀ j : Fin 64, b (ix2 (0 : Fin 1) (⟨j.val + 64, by omega⟩ : Fin 128)) = bb (ix1 j))
    (p : Fin R) (j : Fin 64) :
    normAt side ego W b p j = layerNormAt side ego gW bW gb bb p j := by
  unfold normAt layerNormAt
  simp only [newEgoAt_eq_layerAt side ego W b gW bW gb bb h11 h12 h21 h22 hb1 hb2]

end Cert.Ngcf

end
-- ==== Proof.CombineBlock.lean ====
/-
  A row tile of the cross-graph combine, read entry by entry on the extended reals: the tile's rows of the map times the
  whole right operand, plus the tile's rows of the base.  Entry `(p, q)` is the sum over the contracted axis of
  `map[p, k] · right[k, q]`, plus `base[p, q]`; a change of float format on the way into the product is the identity.
-/
import Idealize.ShloMosaic.PureOps.Ideal.Laws
import Idealize.ShloMosaic.Lib.ValueIdx
import Idealize.ShloMosaic.Lib.Pipeline.Value
import proofs.«120809_j78615081386430_2_alg».proof.Proof.LibMatmulNN

noncomputable section

open scoped BigOperators

namespace Cert.Ngcf

open Idealize.ShloMosaic Idealize.ShloMosaic.ValueIdx

variable {M K N : ℕ}

/-- The combine at `(p, q)`: the product's entry plus the base's. -/
def combineAt (mp : (⟨2, ![M, K]⟩ : Shape).Idx → EReal) (rt : (⟨2, ![K, N]⟩ : Shape).Idx → EReal)
    (base : (⟨2, ![M, N]⟩ : Shape).Idx → EReal) (p : Fin M) (q : Fin N) : EReal :=
  (∑ k : Fin K, mp (ix2 p k) * rt (ix2 k q)) + base (ix2 p q)

/-- The block computation the combine kernel's body performs, as one term over the block's operands. -/
def blockCombine (hlt : FTy.bits .bf16 < FTy.bits .f32) (mp : FVec Ideal ⟨2, ![M, K]⟩ .f32) (rt : FVec Ideal ⟨2, ![K, N]⟩ .bf16)
    (base : FVec Ideal ⟨2, ![M, N]⟩ .f32) : FVec Ideal ⟨2, ![M, N]⟩ .f32 :=
  addf (matmul (DotDims.plain M K N) none (truncf .bf16 mp hlt) rt (constant ⟨2, ![M, N]⟩ .f32 0x00000000#32)) base

/-- The combine of a block, entry by entry. -/
theorem blockCombine_apply (hlt : FTy.bits .bf16 < FTy.bits .f32) (mp : FVec Ideal ⟨2, ![M, K]⟩ .f32) (rt : FVec Ideal ⟨2, ![K, N]⟩ .bf16)
    (base : FVec Ideal ⟨2, ![M, N]⟩ .f32) (p : Fin M) (q : Fin N) :
    blockCombine hlt mp rt base (ix2 p q) = combineAt mp rt base p q := by
  unfold blockCombine combineAt
  refine congrArg (· + base (ix2 p q)) ?_
  exact LibMatmulNN.matmul_zero_apply M K N none (truncf .bf16 mp hlt) rt p q

/-- The combine at a row depends on that row of the map and of the base only. -/
theorem combineAt_congr {M' : ℕ} (mp : (⟨2, ![M, K]⟩ : Shape).Idx → EReal) (mp' : (⟨2, ![M', K]⟩ : Shape).Idx → EReal)
    (rt rt' : (⟨2, ![K, N]⟩ : Shape).Idx → EReal)
    (base : (⟨2, ![M, N]⟩ : Shape).Idx → EReal) (base' : (⟨2, ![M', N]⟩ : Shape).Idx → EReal) (p : Fin M) (p' : Fin M') (q : Fin N)
    (hm : ∀ k : Fin K, mp (ix2 p k) = mp' (ix2 p' k)) (hr : ∀ k : Fin K, rt (ix2 k q) = rt' (ix2 k q))
    (hbase : base (ix2 p q) = base' (ix2 p' q)) :
    combineAt mp rt base p q = combineAt mp' rt' base' p' q := by
  unfold combineAt
  rw [hbase]
  exact congrArg (· + base' (ix2 p' q)) (Finset.sum_congr rfl fun k _ => by rw [hm k, hr k])

end Cert.Ngcf

end
-- ==== Proof.Spec.lean ====
/-
  The common value of the two programs, as functions of the argument arrays on the extended reals.

  A graph has `N` nodes with 64-lane embeddings and `E` weighted edges.  One layer first aggregates the neighbours'
  embeddings along the edges (`sideOf`: gather the source rows, scale by the edge values, add into the target rows;
  both programs perform it with the same host operations, so it is carried as one function and never opened), then
  updates every node: the new embedding is the rectified `side · gW + gb` plus the rectified `(ego · side) · bW + bb`, and
  the layer's output is the new embedding divided, row by row, by the larger of its length and a small constant.  Three
  layers are chained; the initial embedding and the three outputs are laid side by side (256 lanes) and cut into the
  user rows and the item rows.  The final result adds, to a graph's rows, the map's product with the other graph's rows.
-/
import proofs.«120809_j78615081386430_2_alg».proof.Proof.LayerLaw
import proofs.«120809_j78615081386430_2_alg».proof.Proof.CombineBlock

noncomputable section

open scoped BigOperators

namespace Cert.Ngcf

open Idealize.ShloMosaic Idealize.ShloMosaic.ValueIdx

variable {N E : ℕ}

/-- A product of arrays does not depend on the order of its factors. -/
theorem mulf_comm {s : Shape} {φ : FTy} (a b : FVec Ideal s φ) : mulf a b = mulf b a :=
  funext fun i => mul_comm (a i) (b i)

/-- A change of float format is the identity on the extended reals. -/
theorem truncf_id {s : Shape} {φ ψ : FTy} (a : FVec Ideal s φ) (h : ψ.bits < φ.bits) : (truncf ψ a h : FVec Ideal s ψ) = a := rfl

/-- The aggregation along the edges: row `r` of the result is the sum, over the edges whose target is `r`, of the edge's
    value times the source node's row.  (Negative node numbers count from the end, as the programs spell it.) -/
def sideOf (gd : GatherDims ⟨2, ![N, 64]⟩ ⟨2, ![E, 1]⟩ ⟨2, ![E, 64]⟩) (sd : ScatterDims ⟨2, ![N, 64]⟩ ⟨2, ![E, 1]⟩ ⟨2, ![E, 64]⟩)
    (h0 : (⟨0, ![]⟩ : Shape).BroadcastsInDim ⟨2, ![N, 64]⟩ (![] : Fin 0 → Fin 2))
    (h1 : (⟨1, ![E]⟩ : Shape).BroadcastsInDim ⟨2, ![E, 1]⟩ (![0] : Fin 1 → Fin 2))
    (h2 : (⟨0, ![]⟩ : Shape).BroadcastsInDim ⟨1, ![E]⟩ (![] : Fin 0 → Fin 1))
    (h3 : (⟨2, ![E, 1]⟩ : Shape).BroadcastsInDim ⟨2, ![E, 64]⟩ (![0, 1] : Fin 2 → Fin 2))
    (nfix : BitVec 32) (cols rows : IVec ⟨1, ![E]⟩ 32) (vals : FVec Ideal ⟨1, ![E]⟩ .f32)
    (ego : FVec Ideal ⟨2, ![N, 64]⟩ .f32) : FVec Ideal ⟨2, ![N, 64]⟩ .f32 :=
  Host.scatterAdd sd (broadcastInDim ⟨2, ![N, 64]⟩ ![] h0 (constant ⟨0, ![]⟩ .f32 0x00000000#32))
    (broadcastInDim ⟨2, ![E, 1]⟩ ![0] h1 rows)
    (mulf
      (Host.gather gd ego (broadcastInDim ⟨2, ![E, 1]⟩ ![0] h1
        (select (cmpi .slt cols (broadcastInDim ⟨1, ![E]⟩ ![] h2 (constantI ⟨0, ![]⟩ 32 0#32)))
          (addi cols (broadcastInDim ⟨1, ![E]⟩ ![] h2 (constantI ⟨0, ![]⟩ 32 nfix))) cols)))
      (broadcastInDim ⟨2, ![E, 64]⟩ ![0, 1] h3 (broadcastInDim ⟨2, ![E, 1]⟩ ![0] h1 vals)))

/-- Layer `ℓ`'s 64 × 64 weight out of the stack of three. -/
def wAt (w : (⟨3, ![3, 64, 64]⟩ : Shape).Idx → EReal) (l : Fin 3) : (⟨2, ![64, 64]⟩ : Shape).Idx → EReal :=
  fun i => w (ix3 l (i 0) (i 1))

/-- Layer `ℓ`'s bias out of the stack of three. -/
def bAt (b : (⟨2, ![3, 64]⟩ : Shape).Idx → EReal) (l : Fin 3) : (⟨1, ![64]⟩ : Shape).Idx → EReal :=
  fun i => b (ix2 l (i 0))

section Layers

variable (agg : FVec Ideal ⟨2, ![N, 64]⟩ .f32 → FVec Ideal ⟨2, ![N, 64]⟩ .f32)
  (gcW biW : (⟨3, ![3, 64, 64]⟩ : Shape).Idx → EReal) (gcb bib : (⟨2, ![3, 64]⟩ : Shape).Idx → EReal)

/-- The new embedding after layer `l`, from the embedding before it. -/
def egoNext (l : Fin 3) (ego : FVec Ideal ⟨2, ![N, 64]⟩ .f32) : FVec Ideal ⟨2, ![N, 64]⟩ .f32 :=
  fun i => layerAt (agg ego) ego (wAt gcW l) (wAt biW l) (bAt gcb l) (bAt bib l) (i 0) (i 1)

/-- Layer `l`'s normalised output, from the embedding before it. -/
def normNext (l : Fin 3) (ego : FVec Ideal ⟨2, ![N, 64]⟩ .f32) : FVec Ideal ⟨2, ![N, 64]⟩ .f32 :=
  fun i => layerNormAt (agg ego) ego (wAt gcW l) (wAt biW l) (bAt gcb l) (bAt bib l) (i 0) (i 1)

/-- The embeddings entering layers 1 and 2. -/
def ego1 (ego0 : FVec Ideal ⟨2, ![N, 64]⟩ .f32) : FVec Ideal ⟨2, ![N, 64]⟩ .f32 := egoNext agg gcW biW gcb bib 0 ego0
def ego2 (ego0 : FVec Ideal ⟨2, ![N, 64]⟩ .f32) : FVec Ideal ⟨2, ![N, 64]⟩ .f32 :=
  egoNext agg gcW biW gcb bib 1 (ego1 agg gcW biW gcb bib ego0)

/-- The initial embedding and the three layers' outputs side by side. -/
def allEmb (hc : Shape.Concatenates [(⟨2, ![N, 64]⟩ : Shape), ⟨2, ![N, 64]⟩, ⟨2, ![N, 64]⟩, ⟨2, ![N, 64]⟩] ⟨2, ![N, 256]⟩ 1)
    (ego0 : FVec Ideal ⟨2, ![N, 64]⟩ .f32) : FVec Ideal ⟨2, ![N, 256]⟩ .f32 :=
  concatenate ⟨2, ![N, 256]⟩ 1
    [⟨⟨2, ![N, 64]⟩, ego0⟩, ⟨⟨2, ![N, 64]⟩, normNext agg gcW biW gcb bib 0 ego0⟩,
     ⟨⟨2, ![N, 64]⟩, normNext agg gcW biW gcb bib 1 (ego1 agg gcW biW gcb bib ego0)⟩,
     ⟨⟨2, ![N, 64]⟩, normNext agg gcW biW gcb bib 2 (ego2 agg gcW biW gcb bib ego0)⟩] hc

end Layers

/-- The final combine: a graph's rows plus the map's product with the other graph's rows. -/
def combineOf {M K : ℕ} (mp : FVec Ideal ⟨2, ![M, K]⟩ .f32) (rt : FVec Ideal ⟨2, ![K, 256]⟩ .f32) (base : FVec Ideal ⟨2, ![M, 256]⟩ .f32) :
    FVec Ideal ⟨2, ![M, 256]⟩ .f32 :=
  fun i => combineAt mp rt base (i 0) (i 1)

end Cert.Ngcf

end
-- ==== Proof.SpecTop.lean ====
/-
  The two results as functions of the twenty argument arrays: the common value both programs are proved to end at.
  Graph 0 has 35000 nodes (20000 users, then 15000 items) and 1000000 edges; graph 1 has 7000 nodes (4000 users, then
  3000 items) and 200000 edges.  The user result is graph 0's user rows plus the user map times graph 1's user rows;
  the item result likewise with the item rows and the item map.  The layout operations and the aggregation are
  spelt with the idealized kernel program's shape vocabulary.
-/
import proofs.«120809_j78615081386430_2_alg».proof.Proof.Gen.KernelIdeal
import proofs.«120809_j78615081386430_2_alg».proof.Proof.Spec

noncomputable section

namespace Cert.Ngcf

open Idealize.ShloMosaic Cert.KernelIdeal Cert.KernelIdeal.Gen

/-- The twenty argument arrays, as extended reals and machine integers. -/
structure Args where
  ue0 : FVec Ideal S20000x64 .f32
  ie0 : FVec Ideal S15000x64 .f32
  gcW0 : FVec Ideal S3x64x64 .f32
  gcb0 : FVec Ideal S3x64 .f32
  biW0 : FVec Ideal S3x64x64 .f32
  bib0 : FVec Ideal S3x64 .f32
  ue1 : FVec Ideal S4000x64 .f32
  ie1 : FVec Ideal S3000x64 .f32
  gcW1 : FVec Ideal S3x64x64 .f32
  gcb1 : FVec Ideal S3x64 .f32
  biW1 : FVec Ideal S3x64x64 .f32
  bib1 : FVec Ideal S3x64 .f32
  mapu : FVec Ideal S20000x4000 .f32
  mapi : FVec Ideal S15000x3000 .f32
  vals0 : FVec Ideal S1000000 .f32
  vals1 : FVec Ideal S200000 .f32
  rows0 : IVec S1000000 32
  cols0 : IVec S1000000 32
  rows1 : IVec S200000 32
  cols1 : IVec S200000 32

variable (A : Args)

/-- Graph 0's aggregation along its edges, as a function of the embedding. -/
def agg0 : FVec Ideal S35000x64 .f32 → FVec Ideal S35000x64 .f32 :=
  sideOf (N := 35000) (E := 1000000) gather_S35000x64_S1000000x1_S1000000x64_1_0_n_n_0_1_164 scatter_S35000x64_S1000000x1_S1000000x64_1_0_0_1
    bcast_S_S35000x64 bcast_S1000000_S1000000x1_0 bcast_S_S1000000 bcast_S1000000x1_S1000000x64_0_1 35000#32 A.cols0 A.rows0 A.vals0

/-- Graph 1's aggregation along its edges. -/
def agg1 : FVec Ideal S7000x64 .f32 → FVec Ideal S7000x64 .f32 :=
  sideOf (N := 7000) (E := 200000) gather_S7000x64_S200000x1_S200000x64_1_0_n_n_0_1_164 scatter_S7000x64_S200000x1_S200000x64_1_0_0_1
    bcast_S_S7000x64 bcast_S200000_S200000x1_0 bcast_S_S200000 bcast_S200000x1_S200000x64_0_1 7000#32 A.cols1 A.rows1 A.vals1

/-- Graph 0's initial embedding: the users' rows, then the items'. -/
def egoInit0 : FVec Ideal S35000x64 .f32 :=
  concatenate S35000x64 0 [⟨S20000x64, A.ue0⟩, ⟨S15000x64, A.ie0⟩] concatenates_S20000x64_S15000x64_S35000x64_d0

/-- Graph 1's initial embedding. -/
def egoInit1 : FVec Ideal S7000x64 .f32 :=
  concatenate S7000x64 0 [⟨S4000x64, A.ue1⟩, ⟨S3000x64, A.ie1⟩] concatenates_S4000x64_S3000x64_S7000x64_d0

/-- Graph 0's four embeddings side by side. -/
def emb0 : FVec Ideal S35000x256 .f32 :=
  allEmb (N := 35000) (agg0 A) A.gcW0 A.biW0 A.gcb0 A.bib0 concatenates_S35000x64_S35000x64_S35000x64_S35000x64_S35000x256_d1 (egoInit0 A)

/-- Graph 1's four embeddings side by side. -/
def emb1 : FVec Ideal S7000x256 .f32 :=
  allEmb (N := 7000) (agg1 A) A.gcW1 A.biW1 A.gcb1 A.bib1 concatenates_S7000x64_S7000x64_S7000x64_S7000x64_S7000x256_d1 (egoInit1 A)

/-- The user result. -/
def userSpec : FVec Ideal S20000x256 .f32 :=
  combineOf (M := 20000) (K := 4000) A.mapu (extractStridedSlice S4000x256 ![0, 0] (emb1 A) slices_S7000x256_S4000x256_0_0)
    (extractStridedSlice S20000x256 ![0, 0] (emb0 A) slices_S35000x256_S20000x256_0_0)

/-- The item result. -/
def itemSpec : FVec Ideal S15000x256 .f32 :=
  combineOf (M := 15000) (K := 3000) A.mapi (extractStridedSlice S3000x256 ![4000, 0] (emb1 A) slices_S7000x256_S3000x256_4000_0)
    (extractStridedSlice S15000x256 ![20000, 0] (emb0 A) slices_S35000x256_S15000x256_20000_0)

end Cert.Ngcf

end
-- ==== Proof.KiArgs.lean ====
/- The kernel program's twenty argument arrays at launch, gathered as the arguments of the common value. -/
import proofs.«120809_j78615081386430_2_alg».proof.Proof.KiRunA
import proofs.«120809_j78615081386430_2_alg».proof.Proof.SpecTop

noncomputable section

namespace Cert.KernelIdeal.KF

open Cert.KernelIdeal Cert.KernelIdeal.Gen Idealize.ShloMosaic Idealize.ShloMosaic.TcCoe Idealize.SL.Sem

/-- Core `c`'s argument arrays as launched. -/
noncomputable def argsK (m : (ℓ : Loc nD τ sig) → Buf (Elt Ideal) ℓ) (c : Dev nD) : Cert.Ngcf.Args :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17),
   m ((c.tc : Thread nD τ).loc main_arg18),
   m ((c.tc : Thread nD τ).loc main_arg19)⟩

end Cert.KernelIdeal.KF

end
-- ==== Proof.Fused.lean ====
/-
  The fused weight and bias the kernel program builds on the host, read entry by entry.

  The three layers' 64 × 64 weights are laid out as a stack of 128 × 128 block-diagonal matrices: the first weight beside
  a zero block, above a zero block beside the second weight; layer `o`'s matrix is cut out of the stack.  The two
  64-lane biases are laid side by side and layer `o`'s row is cut out.  Read at an entry, the matrix is the first weight
  in its upper-left block, the second in its lower-right block and zero elsewhere; the bias row is the first bias on its
  first 64 lanes and the second on its last 64.  These are the hypotheses under which the fused layer is the layer with
  the weights kept apart.
-/
import Idealize.ShloMosaic.Lib.ValueLayout
import proofs.«120809_j78615081386430_2_alg».proof.Proof.Spec

noncomputable section

open scoped BigOperators

namespace Cert.Ngcf

open Idealize.ShloMosaic Idealize.ShloMosaic.ValueIdx

/-- The zero block. -/
noncomputable def zeroBlock (hb : (⟨0, ![]⟩ : Shape).BroadcastsInDim ⟨3, ![3, 64, 64]⟩ (![] : Fin 0 → Fin 3)) : FVec Ideal ⟨3, ![3, 64, 64]⟩ .f32 :=
  broadcastInDim ⟨3, ![3, 64, 64]⟩ ![] hb (constant ⟨0, ![]⟩ .f32 0x00000000#32)

theorem zeroBlock_apply (hb : (⟨0, ![]⟩ : Shape).BroadcastsInDim ⟨3, ![3, 64, 64]⟩ (![] : Fin 0 → Fin 3)) (i : (⟨3, ![3, 64, 64]⟩ : Shape).Idx) :
    zeroBlock hb i = 0 := by
  show Ideal.ofBits .f32 0x00000000#32 = 0
  exact Ideal.ofBits_zero_f32

/-- The stack of block-diagonal matrices. -/
noncomputable def fusedStack (hb : (⟨0, ![]⟩ : Shape).BroadcastsInDim ⟨3, ![3, 64, 64]⟩ (![] : Fin 0 → Fin 3))
    (h2 : Shape.Concatenates [(⟨3, ![3, 64, 64]⟩ : Shape), ⟨3, ![3, 64, 64]⟩] ⟨3, ![3, 64, 128]⟩ 2)
    (h1 : Shape.Concatenates [(⟨3, ![3, 64, 128]⟩ : Shape), ⟨3, ![3, 64, 128]⟩] ⟨3, ![3, 128, 128]⟩ 1)
    (gcW biW : FVec Ideal ⟨3, ![3, 64, 64]⟩ .f32) : FVec Ideal ⟨3, ![3, 128, 128]⟩ .f32 :=
  concatenate ⟨3, ![3, 128, 128]⟩ 1
    [⟨⟨3, ![3, 64, 128]⟩, concatenate ⟨3, ![3, 64, 128]⟩ 2 [⟨⟨3, ![3, 64, 64]⟩, gcW⟩, ⟨⟨3, ![3, 64, 64]⟩, zeroBlock hb⟩] h2⟩,
     ⟨⟨3, ![3, 64, 128]⟩, concatenate ⟨3, ![3, 64, 128]⟩ 2 [⟨⟨3, ![3, 64, 64]⟩, zeroBlock hb⟩, ⟨⟨3, ![3, 64, 64]⟩, biW⟩] h2⟩] h1

section Stack
variable (hb : (⟨0, ![]⟩ : Shape).BroadcastsInDim ⟨3, ![3, 64, 64]⟩ (![] : Fin 0 → Fin 3))
  (h2 : Shape.Concatenates [(⟨3, ![3, 64, 64]⟩ : Shape), ⟨3, ![3, 64, 64]⟩] ⟨3, ![3, 64, 128]⟩ 2)
  (h1 : Shape.Concatenates [(⟨3, ![3, 64, 128]⟩ : Shape), ⟨3, ![3, 64, 128]⟩] ⟨3, ![3, 128, 128]⟩ 1)
  (gcW biW : FVec Ideal ⟨3, ![3, 64, 64]⟩ .f32)

/-- Two 64-lane pieces side by side along the last axis, read on the first piece. -/
theorem cat2_left (x y : FVec Ideal ⟨3, ![3, 64, 64]⟩ .f32) (l : Fin 3) (a : Fin 64) (b : Fin 64) :
    concatenate (⟨3, ![3, 64, 128]⟩ : Shape) 2 [⟨⟨3, ![3, 64, 64]⟩, x⟩, ⟨⟨3, ![3, 64, 64]⟩, y⟩] h2 (ix3 l a (⟨b.val, by omega⟩ : Fin 128))
      = x (ix3 l a b) := by
  refine concatenate_pair_apply_left (t := ⟨3, ![3, 64, 128]⟩) (2 : Fin 3) x y h2 (ix3 l a (⟨b.val, by omega⟩ : Fin 128)) rfl (ix3 l a b) fun c => ?_
  match c with
  | ⟨0, _⟩ => rfl
  | ⟨1, _⟩ => rfl
  | ⟨2, _⟩ => rfl

/-- … read on the second piece. -/
theorem cat2_right (x y : FVec Ideal ⟨3, ![3, 64, 64]⟩ .f32) (l : Fin 3) (a : Fin 64) (b : Fin 64) :
    concatenate (⟨3, ![3, 64, 128]⟩ : Shape) 2 [⟨⟨3, ![3, 64, 64]⟩, x⟩, ⟨⟨3, ![3, 64, 64]⟩, y⟩] h2 (ix3 l a (⟨b.val + 64, by omega⟩ : Fin 128))
      = y (ix3 l a b) := by
  refine concatenate_pair_apply_right (t := ⟨3, ![3, 64, 128]⟩) (2 : Fin 3) x y h2 (ix3 l a (⟨b.val + 64, by omega⟩ : Fin 128)) rfl rfl (ix3 l a b) (fun c hc => ?_) rfl
  match c with
  | ⟨0, _⟩ => rfl
  | ⟨1, _⟩ => rfl
  | ⟨2, _⟩ => exact absurd rfl hc

/-- Two 64-row pieces one above the other along the middle axis, read on the first piece. -/
theorem cat1_left (x y : FVec Ideal ⟨3, ![3, 64, 128]⟩ .f32) (l : Fin 3) (a : Fin 64) (b : Fin 128) :
    concatenate (⟨3, ![3, 128, 128]⟩ : Shape) 1 [⟨⟨3, ![3, 64, 128]⟩, x⟩, ⟨⟨3, ![3, 64, 128]⟩, y⟩] h1 (ix3 l (⟨a.val, by omega⟩ : Fin 128) b)
      = x (ix3 l a b) := by
  refine concatenate_pair_apply_left (t := ⟨3, ![3, 128, 128]⟩) (1 : Fin 3) x y h1 (ix3 l (⟨a.val, by omega⟩ : Fin 128) b) rfl (ix3 l a b) fun c => ?_
  match c with
  | ⟨0, _⟩ => rfl
  | ⟨1, _⟩ => rfl
  | ⟨2, _⟩ => rfl

/-- … read on the second piece. -/
theorem cat1_right (x y : FVec Ideal ⟨3, ![3, 64, 128]⟩ .f32) (l : Fin 3) (a : Fin 64) (b : Fin 128) :
    concatenate (⟨3, ![3, 128, 128]⟩ : Shape) 1 [⟨⟨3, ![3, 64, 128]⟩, x⟩, ⟨⟨3, ![3, 64, 128]⟩, y⟩] h1 (ix3 l (⟨a.val + 64, by omega⟩ : Fin 128) b)
      = y (ix3 l a b) := by
  refine concatenate_pair_apply_right (t := ⟨3, ![3, 128, 128]⟩) (1 : Fin 3) x y h1 (ix3 l (⟨a.val + 64, by omega⟩ : Fin 128) b) rfl rfl (ix3 l a b) (fun c hc => ?_) rfl
  match c with
  | ⟨0, _⟩ => rfl
  | ⟨1, _⟩ => exact absurd rfl hc
  | ⟨2, _⟩ => rfl

theorem fusedStack_11 (l : Fin 3) (a b : Fin 64) :
    fusedStack hb h2 h1 gcW biW (ix3 l (⟨a.val, by omega⟩ : Fin 128) (⟨b.val, by omega⟩ : Fin 128)) = gcW (ix3 l a b) := by
  unfold fusedStack
  rw [cat1_left h1, cat2_left h2]

theorem fusedStack_12 (l : Fin 3) (a b : Fin 64) :
    fusedStack hb h2 h1 gcW biW (ix3 l (⟨a.val, by omega⟩ : Fin 128) (⟨b.val + 64, by omega⟩ : Fin 128)) = 0 := by
  unfold fusedStack
  rw [cat1_left h1, cat2_right h2, zeroBlock_apply]

theorem fusedStack_21 (l : Fin 3) (a b : Fin 64) :
    fusedStack hb h2 h1 gcW biW (ix3 l (⟨a.val + 64, by omega⟩ : Fin 128) (⟨b.val, by omega⟩ : Fin 128)) = 0 := by
  unfold fusedStack
  rw [cat1_right h1, cat2_left h2, zeroBlock_apply]

theorem fusedStack_22 (l : Fin 3) (a b : Fin 64) :
    fusedStack hb h2 h1 gcW biW (ix3 l (⟨a.val + 64, by omega⟩ : Fin 128) (⟨b.val + 64, by omega⟩ : Fin 128)) = biW (ix3 l a b) := by
  unfold fusedStack
  rw [cat1_right h1, cat2_right h2]

end Stack

/-- Layer `o`'s matrix cut out of a stack of three and viewed as a 128 × 128 array, read at an entry. -/
theorem sliceMat_apply (o : ℕ) (ho : o < 3) (X : FVec Ideal ⟨3, ![3, 128, 128]⟩ .f32)
    (hs : (⟨3, ![3, 128, 128]⟩ : Shape).Slices ![o, 0, 0] ⟨3, ![1, 128, 128]⟩)
    (hsc : (⟨3, ![1, 128, 128]⟩ : Shape).ShapeCasts ⟨2, ![128, 128]⟩) (a b : Fin 128) :
    shapeCast (⟨2, ![128, 128]⟩ : Shape) (extractStridedSlice (⟨3, ![1, 128, 128]⟩ : Shape) ![o, 0, 0] X hs) hsc (ix2 a b)
      = X (ix3 (⟨o, ho⟩ : Fin 3) a b) := by
  refine (shapeCast_1ab_ab_apply _ hsc a b).trans ?_
  refine extractStridedSlice_apply ![o, 0, 0] X hs _ (ix3 (⟨o, ho⟩ : Fin 3) a b) fun c => ?_
  match c with
  | ⟨0, _⟩ => rfl
  | ⟨1, _⟩ => exact (Nat.zero_add _).symm
  | ⟨2, _⟩ => exact (Nat.zero_add _).symm

/-- The same for a stack of three 64 × 64 matrices. -/
theorem sliceMat64_apply (o : ℕ) (ho : o < 3) (X : FVec Ideal ⟨3, ![3, 64, 64]⟩ .f32)
    (hs : (⟨3, ![3, 64, 64]⟩ : Shape).Slices ![o, 0, 0] ⟨3, ![1, 64, 64]⟩)
    (hsc : (⟨3, ![1, 64, 64]⟩ : Shape).ShapeCasts ⟨2, ![64, 64]⟩) (a b : Fin 64) :
    shapeCast (⟨2, ![64, 64]⟩ : Shape) (extractStridedSlice (⟨3, ![1, 64, 64]⟩ : Shape) ![o, 0, 0] X hs) hsc (ix2 a b)
      = X (ix3 (⟨o, ho⟩ : Fin 3) a b) := by
  refine (shapeCast_1ab_ab_apply _ hsc a b).trans ?_
  refine extractStridedSlice_apply ![o, 0, 0] X hs _ (ix3 (⟨o, ho⟩ : Fin 3) a b) fun c => ?_
  match c with
  | ⟨0, _⟩ => rfl
  | ⟨1, _⟩ => exact (Nat.zero_add _).symm
  | ⟨2, _⟩ => exact (Nat.zero_add _).symm

end Cert.Ngcf

end
-- ==== Proof.FusedLayer.lean ====
/-
  A layer computed with the fused weight and bias the kernel program builds is the layer of the common value: the
  fused matrix is block diagonal and the fused bias the two biases side by side, so the law of the fused product
  applies at every entry.
-/
import proofs.«120809_j78615081386430_2_alg».proof.Proof.Fused

noncomputable section

open scoped BigOperators

namespace Cert.Ngcf

open Idealize.ShloMosaic Idealize.ShloMosaic.ValueIdx

/-- The two 64-lane biases side by side, layer `o`'s row cut out and viewed as a 1 × 128 row. -/
noncomputable def fusedBias (hcb : Shape.Concatenates [(⟨2, ![3, 64]⟩ : Shape), ⟨2, ![3, 64]⟩] ⟨2, ![3, 128]⟩ 1) (o : ℕ)
    (hsb : (⟨2, ![3, 128]⟩ : Shape).Slices ![o, 0] ⟨2, ![1, 128]⟩) (hc1 : (⟨2, ![1, 128]⟩ : Shape).ShapeCasts ⟨1, ![128]⟩)
    (hc2 : (⟨1, ![128]⟩ : Shape).ShapeCasts ⟨2, ![1, 128]⟩) (gcb bib : FVec Ideal ⟨2, ![3, 64]⟩ .f32) : FVec Ideal ⟨2, ![1, 128]⟩ .f32 :=
  shapeCast ⟨2, ![1, 128]⟩ (shapeCast ⟨1, ![128]⟩
    (extractStridedSlice ⟨2, ![1, 128]⟩ ![o, 0] (concatenate ⟨2, ![3, 128]⟩ 1 [⟨⟨2, ![3, 64]⟩, gcb⟩, ⟨⟨2, ![3, 64]⟩, bib⟩] hcb) hsb) hc1) hc2

/-- Layer `o`'s block-diagonal matrix cut out of the stack and viewed as a 128 × 128 array. -/
noncomputable def fusedMat (hb : (⟨0, ![]⟩ : Shape).BroadcastsInDim ⟨3, ![3, 64, 64]⟩ (![] : Fin 0 → Fin 3))
    (h2 : Shape.Concatenates [(⟨3, ![3, 64, 64]⟩ : Shape), ⟨3, ![3, 64, 64]⟩] ⟨3, ![3, 64, 128]⟩ 2)
    (h1 : Shape.Concatenates [(⟨3, ![3, 64, 128]⟩ : Shape), ⟨3, ![3, 64, 128]⟩] ⟨3, ![3, 128, 128]⟩ 1) (o : ℕ)
    (hs : (⟨3, ![3, 128, 128]⟩ : Shape).Slices ![o, 0, 0] ⟨3, ![1, 128, 128]⟩)
    (hsc : (⟨3, ![1, 128, 128]⟩ : Shape).ShapeCasts ⟨2, ![128, 128]⟩) (gcW biW : FVec Ideal ⟨3, ![3, 64, 64]⟩ .f32) :
    FVec Ideal ⟨2, ![128, 128]⟩ .f32 :=
  shapeCast ⟨2, ![128, 128]⟩ (extractStridedSlice ⟨3, ![1, 128, 128]⟩ ![o, 0, 0] (fusedStack hb h2 h1 gcW biW) hs) hsc

section Bias
variable (hcb : Shape.Concatenates [(⟨2, ![3, 64]⟩ : Shape), ⟨2, ![3, 64]⟩] ⟨2, ![3, 128]⟩ 1) (o : ℕ) (ho : o < 3)
  (hsb : (⟨2, ![3, 128]⟩ : Shape).Slices ![o, 0] ⟨2, ![1, 128]⟩) (hc1 : (⟨2, ![1, 128]⟩ : Shape).ShapeCasts ⟨1, ![128]⟩)
  (hc2 : (⟨1, ![128]⟩ : Shape).ShapeCasts ⟨2, ![1, 128]⟩) (gcb bib : FVec Ideal ⟨2, ![3, 64]⟩ .f32)

theorem fusedBias_row (q : Fin 128) :
    fusedBias hcb o hsb hc1 hc2 gcb bib (ix2 (0 : Fin 1) q)
      = concatenate (⟨2, ![3, 128]⟩ : Shape) 1 [⟨⟨2, ![3, 64]⟩, gcb⟩, ⟨⟨2, ![3, 64]⟩, bib⟩] hcb (ix2 (⟨o, ho⟩ : Fin 3) q) := by
  unfold fusedBias
  rw [shapeCast_shapeCast]
  refine extractStridedSlice_apply ![o, 0] _ hsb _ (ix2 (⟨o, ho⟩ : Fin 3) q) fun c => ?_
  match c with
  | ⟨0, _⟩ => rfl
  | ⟨1, _⟩ => exact (Nat.zero_add _).symm

theorem fusedBias_left (j : Fin 64) :
    fusedBias hcb o hsb hc1 hc2 gcb bib (ix2 (0 : Fin 1) (⟨j.val, by omega⟩ : Fin 128)) = gcb (ix2 (⟨o, ho⟩ : Fin 3) j) := by
  rw [fusedBias_row hcb o ho]
  refine concatenate_pair_apply_left (t := ⟨2, ![3, 128]⟩) (1 : Fin 2) gcb bib hcb (ix2 (⟨o, ho⟩ : Fin 3) (⟨j.val, by omega⟩ : Fin 128)) rfl (ix2 (⟨o, ho⟩ : Fin 3) j) fun c => ?_
  match c with
  | ⟨0, _⟩ => rfl
  | ⟨1, _⟩ => rfl

theorem fusedBias_right (j : Fin 64) :
    fusedBias hcb o hsb hc1 hc2 gcb bib (ix2 (0 : Fin 1) (⟨j.val + 64, by omega⟩ : Fin 128)) = bib (ix2 (⟨o, ho⟩ : Fin 3) j) := by
  rw [fusedBias_row hcb o ho]
  refine concatenate_pair_apply_right (t := ⟨2, ![3, 128]⟩) (1 : Fin 2) gcb bib hcb (ix2 (⟨o, ho⟩ : Fin 3) (⟨j.val + 64, by omega⟩ : Fin 128)) rfl rfl (ix2 (⟨o, ho⟩ : Fin 3) j) (fun c hc => ?_) rfl
  match c with
  | ⟨0, _⟩ => rfl
  | ⟨1, _⟩ => exact absurd rfl hc

end Bias

section Layer
variable {N : ℕ}
variable (hb : (⟨0, ![]⟩ : Shape).BroadcastsInDim ⟨3, ![3, 64, 64]⟩ (![] : Fin 0 → Fin 3))
  (h2 : Shape.Concatenates [(⟨3, ![3, 64, 64]⟩ : Shape), ⟨3, ![3, 64, 64]⟩] ⟨3, ![3, 64, 128]⟩ 2)
  (h1 : Shape.Concatenates [(⟨3, ![3, 64, 128]⟩ : Shape), ⟨3, ![3, 64, 128]⟩] ⟨3, ![3, 128, 128]⟩ 1) (o : ℕ) (ho : o < 3)
  (hs : (⟨3, ![3, 128, 128]⟩ : Shape).Slices ![o, 0, 0] ⟨3, ![1, 128, 128]⟩)
  (hsc : (⟨3, ![1, 128, 128]⟩ : Shape).ShapeCasts ⟨2, ![128, 128]⟩)
  (hcb : Shape.Concatenates [(⟨2, ![3, 64]⟩ : Shape), ⟨2, ![3, 64]⟩] ⟨2, ![3, 128]⟩ 1)
  (hsb : (⟨2, ![3, 128]⟩ : Shape).Slices ![o, 0] ⟨2, ![1, 128]⟩) (hc1 : (⟨2, ![1, 128]⟩ : Shape).ShapeCasts ⟨1, ![128]⟩)
  (hc2 : (⟨1, ![128]⟩ : Shape).ShapeCasts ⟨2, ![1, 128]⟩)
  (agg : FVec Ideal ⟨2, ![N, 64]⟩ .f32 → FVec Ideal ⟨2, ![N, 64]⟩ .f32)
  (gcW biW : FVec Ideal ⟨3, ![3, 64, 64]⟩ .f32) (gcb bib : FVec Ideal ⟨2, ![3, 64]⟩ .f32)

/-- The fused layer's new embedding is the common value's. -/
theorem newEgo_fused (side ego : FVec Ideal ⟨2, ![N, 64]⟩ .f32) (hside : side = agg ego) :
    (fun i : (⟨2, ![N, 64]⟩ : Shape).Idx => newEgoAt side ego (fusedMat hb h2 h1 o hs hsc gcW biW) (fusedBias hcb o hsb hc1 hc2 gcb bib) (i 0) (i 1))
      = egoNext agg gcW biW gcb bib (⟨o, ho⟩ : Fin 3) ego := by
  subst hside
  funext i
  unfold egoNext
  refine newEgoAt_eq_layerAt _ _ _ _ _ _ _ _ (fun k j => ?_) (fun k j => ?_) (fun k j => ?_) (fun k j => ?_)
    (fun j => ?_) (fun j => ?_) (i 0) (i 1)
  · exact (sliceMat_apply o ho _ hs hsc _ _).trans (fusedStack_11 hb h2 h1 gcW biW _ k j)
  · exact (sliceMat_apply o ho _ hs hsc _ _).trans (fusedStack_12 hb h2 h1 gcW biW _ k j)
  · exact (sliceMat_apply o ho _ hs hsc _ _).trans (fusedStack_21 hb h2 h1 gcW biW _ k j)
  · exact (sliceMat_apply o ho _ hs hsc _ _).trans (fusedStack_22 hb h2 h1 gcW biW _ k j)
  · exact fusedBias_left hcb o ho hsb hc1 hc2 gcb bib j
  · exact fusedBias_right hcb o ho hsb hc1 hc2 gcb bib j

/-- The fused layer's normalised output is the common value's. -/
theorem norm_fused (side ego : FVec Ideal ⟨2, ![N, 64]⟩ .f32) (hside : side = agg ego) :
    (fun i : (⟨2, ![N, 64]⟩ : Shape).Idx => normAt side ego (fusedMat hb h2 h1 o hs hsc gcW biW) (fusedBias hcb o hsb hc1 hc2 gcb bib) (i 0) (i 1))
      = normNext agg gcW biW gcb bib (⟨o, ho⟩ : Fin 3) ego := by
  subst hside
  funext i
  unfold normNext
  refine normAt_eq_layerNormAt _ _ _ _ _ _ _ _ (fun k j => ?_) (fun k j => ?_) (fun k j => ?_) (fun k j => ?_)
    (fun j => ?_) (fun j => ?_) (i 0) (i 1)
  · exact (sliceMat_apply o ho _ hs hsc _ _).trans (fusedStack_11 hb h2 h1 gcW biW _ k j)
  · exact (sliceMat_apply o ho _ hs hsc _ _).trans (fusedStack_12 hb h2 h1 gcW biW _ k j)
  · exact (sliceMat_apply o ho _ hs hsc _ _).trans (fusedStack_21 hb h2 h1 gcW biW _ k j)
  · exact (sliceMat_apply o ho _ hs hsc _ _).trans (fusedStack_22 hb h2 h1 gcW biW _ k j)
  · exact fusedBias_left hcb o ho hsb hc1 hc2 gcb bib j
  · exact fusedBias_right hcb o ho hsb hc1 hc2 gcb bib j

end Layer

end Cert.Ngcf

end
-- ==== Proof.LayerPay.lean ====
/-
  The eight kernel bodies' stored values, read entry by entry on the extended reals.

  Each layer kernel's body stores two blocks computed from the blocks it loaded: the new embedding and the normalised
  embedding of the block's rows; each combine kernel's body stores the row tile of the product plus the base.  Here the
  printed value terms are identified with the block functions of the two preceding modules, whose entries are known.
-/
import proofs.«120809_j78615081386430_2_alg».proof.Proof.Gen.KernelIdeal.Skeleton
import proofs.«120809_j78615081386430_2_alg».proof.Proof.LayerBlock
import proofs.«120809_j78615081386430_2_alg».proof.Proof.CombineBlock

noncomputable section

open scoped BigOperators

namespace Cert.KernelIdeal.KV

open Cert.KernelIdeal Cert.KernelIdeal.Gen Cert.Ngcf Idealize.ShloMosaic Idealize.ShloMosaic.ValueIdx

/-- Layer kernel 0: the stored new embedding at `(p, j)`. -/
theorem k0_pay1_apply (v0 v2 : Vec Ideal S5000x64 .f32) (v4 : Vec Ideal S128x128 .f32) (v6 : Vec Ideal S1x128 .f32) (p : Fin 5000) (j : Fin 64) :
    k0_pay1 (F := Ideal) v0 v2 v4 v6 (ix2 p j) = newEgoAt (R := 5000) v0 v2 v4 v6 p j := by
  have e : k0_pay1 (F := Ideal) v0 v2 v4 v6 = blockNewEgo (R := 5000) concatenates_S5000x64_S5000x64_S5000x128_d1 broadcasts_S1x128_S5000x128
      slices_S5000x128_o0_0_S5000x64 slices_S5000x128_o0_64_S5000x64 (shapeCast S5000x64 v0 shapeCasts_S5000x64_S5000x64)
      (shapeCast S5000x64 v2 shapeCasts_S5000x64_S5000x64) (shapeCast S128x128 v4 shapeCasts_S128x128_S128x128)
      (shapeCast S1x128 v6 shapeCasts_S1x128_S1x128) := rfl
  rw [e, shapeCast_self, shapeCast_self, shapeCast_self, shapeCast_self]
  exact blockNewEgo_apply _ _ _ _ v0 v2 v4 v6 p j

/-- Layer kernel 0: the stored normalised embedding at `(p, j)`. -/
theorem k0_pay2_apply (v0 v2 : Vec Ideal S5000x64 .f32) (v4 : Vec Ideal S128x128 .f32) (v6 : Vec Ideal S1x128 .f32) (p : Fin 5000) (j : Fin 64) :
    k0_pay2 (F := Ideal) v0 v2 v4 v6 (ix2 p j) = normAt (R := 5000) v0 v2 v4 v6 p j := by
  have e : k0_pay2 (F := Ideal) v0 v2 v4 v6 = blockNormOf (R := 5000) reduces_S5000x64_S5000 shapeCasts_S5000_S5000x1 broadcasts_S5000x1_S5000x64
      (blockNewEgo (R := 5000) concatenates_S5000x64_S5000x64_S5000x128_d1 broadcasts_S1x128_S5000x128
      slices_S5000x128_o0_0_S5000x64 slices_S5000x128_o0_64_S5000x64 (shapeCast S5000x64 v0 shapeCasts_S5000x64_S5000x64)
      (shapeCast S5000x64 v2 shapeCasts_S5000x64_S5000x64) (shapeCast S128x128 v4 shapeCasts_S128x128_S128x128)
      (shapeCast S1x128 v6 shapeCasts_S1x128_S1x128)) := rfl
  rw [e, shapeCast_self, shapeCast_self, shapeCast_self, shapeCast_self]
  exact blockNorm_apply _ _ _ _ _ _ _ v0 v2 v4 v6 p j

/-- Layer kernel 1: the stored new embedding at `(p, j)`. -/
theorem k1_pay1_apply (v0 v2 : Vec Ideal S5000x64 .f32) (v4 : Vec Ideal S128x128 .f32) (v6 : Vec Ideal S1x128 .f32) (p : Fin 5000) (j : Fin 64) :
    k1_pay1 (F := Ideal) v0 v2 v4 v6 (ix2 p j) = newEgoAt (R := 5000) v0 v2 v4 v6 p j := by
  have e : k1_pay1 (F := Ideal) v0 v2 v4 v6 = blockNewEgo (R := 5000) concatenates_S5000x64_S5000x64_S5000x128_d1 broadcasts_S1x128_S5000x128
      slices_S5000x128_o0_0_S5000x64 slices_S5000x128_o0_64_S5000x64 (shapeCast S5000x64 v0 shapeCasts_S5000x64_S5000x64)
      (shapeCast S5000x64 v2 shapeCasts_S5000x64_S5000x64) (shapeCast S128x128 v4 shapeCasts_S128x128_S128x128)
      (shapeCast S1x128 v6 shapeCasts_S1x128_S1x128) := rfl
  rw [e, shapeCast_self, shapeCast_self, shapeCast_self, shapeCast_self]
  exact blockNewEgo_apply _ _ _ _ v0 v2 v4 v6 p j

/-- Layer kernel 1: the stored normalised embedding at `(p, j)`. -/
theorem k1_pay2_apply (v0 v2 : Vec Ideal S5000x64 .f32) (v4 : Vec Ideal S128x128 .f32) (v6 : Vec Ideal S1x128 .f32) (p : Fin 5000) (j : Fin 64) :
    k1_pay2 (F := Ideal) v0 v2 v4 v6 (ix2 p j) = normAt (R := 5000) v0 v2 v4 v6 p j := by
  have e : k1_pay2 (F := Ideal) v0 v2 v4 v6 = blockNormOf (R := 5000) reduces_S5000x64_S5000 shapeCasts_S5000_S5000x1 broadcasts_S5000x1_S5000x64
      (blockNewEgo (R := 5000) concatenates_S5000x64_S5000x64_S5000x128_d1 broadcasts_S1x128_S5000x128
      slices_S5000x128_o0_0_S5000x64 slices_S5000x128_o0_64_S5000x64 (shapeCast S5000x64 v0 shapeCasts_S5000x64_S5000x64)
      (shapeCast S5000x64 v2 shapeCasts_S5000x64_S5000x64) (shapeCast S128x128 v4 shapeCasts_S128x128_S128x128)
      (shapeCast S1x128 v6 shapeCasts_S1x128_S1x128)) := rfl
  rw [e, shapeCast_self, shapeCast_self, shapeCast_self, shapeCast_self]
  exact blockNorm_apply _ _ _ _ _ _ _ v0 v2 v4 v6 p j

/-- Layer kernel 2: the stored new embedding at `(p, j)`. -/
theorem k2_pay1_apply (v0 v2 : Vec Ideal S5000x64 .f32) (v4 : Vec Ideal S128x128 .f32) (v6 : Vec Ideal S1x128 .f32) (p : Fin 5000) (j : Fin 64) :
    k2_pay1 (F := Ideal) v0 v2 v4 v6 (ix2 p j) = newEgoAt (R := 5000) v0 v2 v4 v6 p j := by
  have e : k2_pay1 (F := Ideal) v0 v2 v4 v6 = blockNewEgo (R := 5000) concatenates_S5000x64_S5000x64_S5000x128_d1 broadcasts_S1x128_S5000x128
      slices_S5000x128_o0_0_S5000x64 slices_S5000x128_o0_64_S5000x64 (shapeCast S5000x64 v0 shapeCasts_S5000x64_S5000x64)
      (shapeCast S5000x64 v2 shapeCasts_S5000x64_S5000x64) (shapeCast S128x128 v4 shapeCasts_S128x128_S128x128)
      (shapeCast S1x128 v6 shapeCasts_S1x128_S1x128) := rfl
  rw [e, shapeCast_self, shapeCast_self, shapeCast_self, shapeCast_self]
  exact blockNewEgo_apply _ _ _ _ v0 v2 v4 v6 p j

/-- Layer kernel 2: the stored normalised embedding at `(p, j)`. -/
theorem k2_pay2_apply (v0 v2 : Vec Ideal S5000x64 .f32) (v4 : Vec Ideal S128x128 .f32) (v6 : Vec Ideal S1x128 .f32) (p : Fin 5000) (j : Fin 64) :
    k2_pay2 (F := Ideal) v0 v2 v4 v6 (ix2 p j) = normAt (R := 5000) v0 v2 v4 v6 p j := by
  have e : k2_pay2 (F := Ideal) v0 v2 v4 v6 = blockNormOf (R := 5000) reduces_S5000x64_S5000 shapeCasts_S5000_S5000x1 broadcasts_S5000x1_S5000x64
      (blockNewEgo (R := 5000) concatenates_S5000x64_S5000x64_S5000x128_d1 broadcasts_S1x128_S5000x128
      slices_S5000x128_o0_0_S5000x64 slices_S5000x128_o0_64_S5000x64 (shapeCast S5000x64 v0 shapeCasts_S5000x64_S5000x64)
      (shapeCast S5000x64 v2 shapeCasts_S5000x64_S5000x64) (shapeCast S128x128 v4 shapeCasts_S128x128_S128x128)
      (shapeCast S1x128 v6 shapeCasts_S1x128_S1x128)) := rfl
  rw [e, shapeCast_self, shapeCast_self, shapeCast_self, shapeCast_self]
  exact blockNorm_apply _ _ _ _ _ _ _ v0 v2 v4 v6 p j

/-- Layer kernel 3: the stored new embedding at `(p, j)`. -/
theorem k3_pay1_apply (v0 v2 : Vec Ideal S1000x64 .f32) (v4 : Vec Ideal S128x128 .f32) (v6 : Vec Ideal S1x128 .f32) (p : Fin 1000) (j : Fin 64) :
    k3_pay1 (F := Ideal) v0 v2 v4 v6 (ix2 p j) = newEgoAt (R := 1000) v0 v2 v4 v6 p j := by
  have e : k3_pay1 (F := Ideal) v0 v2 v4 v6 = blockNewEgo (R := 1000) concatenates_S1000x64_S1000x64_S1000x128_d1 broadcasts_S1x128_S1000x128
      slices_S1000x128_o0_0_S1000x64 slices_S1000x128_o0_64_S1000x64 (shapeCast S1000x64 v0 shapeCasts_S1000x64_S1000x64)
      (shapeCast S1000x64 v2 shapeCasts_S1000x64_S1000x64) (shapeCast S128x128 v4 shapeCasts_S128x128_S128x128)
      (shapeCast S1x128 v6 shapeCasts_S1x128_S1x128) := rfl
  rw [e, shapeCast_self, shapeCast_self, shapeCast_self, shapeCast_self]
  exact blockNewEgo_apply _ _ _ _ v0 v2 v4 v6 p j

/-- Layer kernel 3: the stored normalised embedding at `(p, j)`. -/
theorem k3_pay2_apply (v0 v2 : Vec Ideal S1000x64 .f32) (v4 : Vec Ideal S128x128 .f32) (v6 : Vec Ideal S1x128 .f32) (p : Fin 1000) (j : Fin 64) :
    k3_pay2 (F := Ideal) v0 v2 v4 v6 (ix2 p j) = normAt (R := 1000) v0 v2 v4 v6 p j := by
  have e : k3_pay2 (F := Ideal) v0 v2 v4 v6 = blockNormOf (R := 1000) reduces_S1000x64_S1000 shapeCasts_S1000_S1000x1 broadcasts_S1000x1_S1000x64
      (blockNewEgo (R := 1000) concatenates_S1000x64_S1000x64_S1000x128_d1 broadcasts_S1x128_S1000x128
      slices_S1000x128_o0_0_S1000x64 slices_S1000x128_o0_64_S1000x64 (shapeCast S1000x64 v0 shapeCasts_S1000x64_S1000x64)
      (shapeCast S1000x64 v2 shapeCasts_S1000x64_S1000x64) (shapeCast S128x128 v4 shapeCasts_S128x128_S128x128)
      (shapeCast S1x128 v6 shapeCasts_S1x128_S1x128)) := rfl
  rw [e, shapeCast_self, shapeCast_self, shapeCast_self, shapeCast_self]
  exact blockNorm_apply _ _ _ _ _ _ _ v0 v2 v4 v6 p j

/-- Layer kernel 4: the stored new embedding at `(p, j)`. -/
theorem k4_pay1_apply (v0 v2 : Vec Ideal S1000x64 .f32) (v4 : Vec Ideal S128x128 .f32) (v6 : Vec Ideal S1x128 .f32) (p : Fin 1000) (j : Fin 64) :
    k4_pay1 (F := Ideal) v0 v2 v4 v6 (ix2 p j) = newEgoAt (R := 1000) v0 v2 v4 v6 p j := by
  have e : k4_pay1 (F := Ideal) v0 v2 v4 v6 = blockNewEgo (R := 1000) concatenates_S1000x64_S1000x64_S1000x128_d1 broadcasts_S1x128_S1000x128
      slices_S1000x128_o0_0_S1000x64 slices_S1000x128_o0_64_S1000x64 (shapeCast S1000x64 v0 shapeCasts_S1000x64_S1000x64)
      (shapeCast S1000x64 v2 shapeCasts_S1000x64_S1000x64) (shapeCast S128x128 v4 shapeCasts_S128x128_S128x128)
      (shapeCast S1x128 v6 shapeCasts_S1x128_S1x128) := rfl
  rw [e, shapeCast_self, shapeCast_self, shapeCast_self, shapeCast_self]
  exact blockNewEgo_apply _ _ _ _ v0 v2 v4 v6 p j

/-- Layer kernel 4: the stored normalised embedding at `(p, j)`. -/
theorem k4_pay2_apply (v0 v2 : Vec Ideal S1000x64 .f32) (v4 : Vec Ideal S128x128 .f32) (v6 : Vec Ideal S1x128 .f32) (p : Fin 1000) (j : Fin 64) :
    k4_pay2 (F := Ideal) v0 v2 v4 v6 (ix2 p j) = normAt (R := 1000) v0 v2 v4 v6 p j := by
  have e : k4_pay2 (F := Ideal) v0 v2 v4 v6 = blockNormOf (R := 1000) reduces_S1000x64_S1000 shapeCasts_S1000_S1000x1 broadcasts_S1000x1_S1000x64
      (blockNewEgo (R := 1000) concatenates_S1000x64_S1000x64_S1000x128_d1 broadcasts_S1x128_S1000x128
      slices_S1000x128_o0_0_S1000x64 slices_S1000x128_o0_64_S1000x64 (shapeCast S1000x64 v0 shapeCasts_S1000x64_S1000x64)
      (shapeCast S1000x64 v2 shapeCasts_S1000x64_S1000x64) (shapeCast S128x128 v4 shapeCasts_S128x128_S128x128)
      (shapeCast S1x128 v6 shapeCasts_S1x128_S1x128)) := rfl
  rw [e, shapeCast_self, shapeCast_self, shapeCast_self, shapeCast_self]
  exact blockNorm_apply _ _ _ _ _ _ _ v0 v2 v4 v6 p j

/-- Layer kernel 5: the stored new embedding at `(p, j)`. -/
theorem k5_pay1_apply (v0 v2 : Vec Ideal S1000x64 .f32) (v4 : Vec Ideal S128x128 .f32) (v6 : Vec Ideal S1x128 .f32) (p : Fin 1000) (j : Fin 64) :
    k5_pay1 (F := Ideal) v0 v2 v4 v6 (ix2 p j) = newEgoAt (R := 1000) v0 v2 v4 v6 p j := by
  have e : k5_pay1 (F := Ideal) v0 v2 v4 v6 = blockNewEgo (R := 1000) concatenates_S1000x64_S1000x64_S1000x128_d1 broadcasts_S1x128_S1000x128
      slices_S1000x128_o0_0_S1000x64 slices_S1000x128_o0_64_S1000x64 (shapeCast S1000x64 v0 shapeCasts_S1000x64_S1000x64)
      (shapeCast S1000x64 v2 shapeCasts_S1000x64_S1000x64) (shapeCast S128x128 v4 shapeCasts_S128x128_S128x128)
      (shapeCast S1x128 v6 shapeCasts_S1x128_S1x128) := rfl
  rw [e, shapeCast_self, shapeCast_self, shapeCast_self, shapeCast_self]
  exact blockNewEgo_apply _ _ _ _ v0 v2 v4 v6 p j

/-- Layer kernel 5: the stored normalised embedding at `(p, j)`. -/
theorem k5_pay2_apply (v0 v2 : Vec Ideal S1000x64 .f32) (v4 : Vec Ideal S128x128 .f32) (v6 : Vec Ideal S1x128 .f32) (p : Fin 1000) (j : Fin 64) :
    k5_pay2 (F := Ideal) v0 v2 v4 v6 (ix2 p j) = normAt (R := 1000) v0 v2 v4 v6 p j := by
  have e : k5_pay2 (F := Ideal) v0 v2 v4 v6 = blockNormOf (R := 1000) reduces_S1000x64_S1000 shapeCasts_S1000_S1000x1 broadcasts_S1000x1_S1000x64
      (blockNewEgo (R := 1000) concatenates_S1000x64_S1000x64_S1000x128_d1 broadcasts_S1x128_S1000x128
      slices_S1000x128_o0_0_S1000x64 slices_S1000x128_o0_64_S1000x64 (shapeCast S1000x64 v0 shapeCasts_S1000x64_S1000x64)
      (shapeCast S1000x64 v2 shapeCasts_S1000x64_S1000x64) (shapeCast S128x128 v4 shapeCasts_S128x128_S128x128)
      (shapeCast S1x128 v6 shapeCasts_S1x128_S1x128)) := rfl
  rw [e, shapeCast_self, shapeCast_self, shapeCast_self, shapeCast_self]
  exact blockNorm_apply _ _ _ _ _ _ _ v0 v2 v4 v6 p j

/-- Combine kernel 6: the stored tile at `(p, q)`. -/
theorem k6_pay1_apply (v0 : Vec Ideal S1000x4000 .f32) (v2 : Vec Ideal S4000x256 .bf16) (v5 : Vec Ideal S1000x256 .f32) (p : Fin 1000) (q : Fin 256) :
    k6_pay1 (F := Ideal) v0 v2 v5 (ix2 p q) = combineAt (M := 1000) (K := 4000) (N := 256) v0 v2 v5 p q := by
  have e : k6_pay1 (F := Ideal) v0 v2 v5 = blockCombine (M := 1000) (K := 4000) (N := 256) bitsLt_bf16_f32 v0
      (shapeCast S4000x256 v2 shapeCasts_S4000x256_S4000x256) (shapeCast S1000x256 v5 shapeCasts_S1000x256_S1000x256) := rfl
  rw [e, shapeCast_self, shapeCast_self]
  exact blockCombine_apply _ v0 v2 v5 p q

/-- Combine kernel 7: the stored tile at `(p, q)`. -/
theorem k7_pay1_apply (v0 : Vec Ideal S1000x3000 .f32) (v2 : Vec Ideal S3000x256 .bf16) (v5 : Vec Ideal S1000x256 .f32) (p : Fin 1000) (q : Fin 256) :
    k7_pay1 (F := Ideal) v0 v2 v5 (ix2 p q) = combineAt (M := 1000) (K := 3000) (N := 256) v0 v2 v5 p q := by
  have e : k7_pay1 (F := Ideal) v0 v2 v5 = blockCombine (M := 1000) (K := 3000) (N := 256) bitsLt_bf16_f32 v0
      (shapeCast S3000x256 v2 shapeCasts_S3000x256_S3000x256) (shapeCast S1000x256 v5 shapeCasts_S1000x256_S1000x256) := rfl
  rw [e, shapeCast_self, shapeCast_self]
  exact blockCombine_apply _ v0 v2 v5 p q

end Cert.KernelIdeal.KV

end
-- ==== Proof.KiFinal0.lean ====
/- Region 0, from blocks to arrays, on the extended reals: after the last grid point each of the layer kernel's
   two output arrays is, entry by entry, the layer's new embedding (window 4) and its row-normalised form
   (window 5) of the arrays the region was entered with. A row tile's entries depend on the tile's rows of the
   operands only, the tiles partition the rows, and every tile is written back. -/
import proofs.«120809_j78615081386430_2_alg».proof.Proof.KiBody0
import proofs.«120809_j78615081386430_2_alg».proof.Proof.LayerPay
import Idealize.ShloMosaic.Lib.Pipeline.Value

set_option maxRecDepth 16384

noncomputable section

namespace Cert.KernelIdeal.KF

open Cert.KernelIdeal Cert.KernelIdeal.Gen Cert.Ngcf
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff0 : (![0, 0] : Fin 2 → Nat) = fun _ => 0 := funext fun a => by fin_cases a <;> rfl

/-- The block index of each window at each grid point: the row-tiled windows sit at block `(t, 0)`, the weight and
    the bias at block `(0, 0)`. -/
theorem tileIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem tileLt0 (t : Fin cfg0.N) : t.val < 7 := lt_of_lt_of_eq t.isLt N_0

/-- The new embedding of the whole array, entry by entry. -/
abbrev newEgoArr0 (c : Dev nD) : S35000x64.Idx → EReal :=
  fun i => newEgoAt (R := 35000) (V c (Pipeline.arrRef spec0 0)) (V c (Pipeline.arrRef spec0 1)) (V c (Pipeline.arrRef spec0 2)) (V c (Pipeline.arrRef spec0 3)) (i 0) (i 1)

/-- The normalised embedding of the whole array, entry by entry. -/
abbrev normArr0 (c : Dev nD) : S35000x64.Idx → EReal :=
  fun i => normAt (R := 35000) (V c (Pipeline.arrRef spec0 0)) (V c (Pipeline.arrRef spec0 1)) (V c (Pipeline.arrRef spec0 2)) (V c (Pipeline.arrRef spec0 3)) (i 0) (i 1)

/-- Row `p` of tile `t` of a row-tiled input window is row `t · 5000 + p` of its array. -/
theorem sideRow0 (c : Dev nD) (t : Fin cfg0.N) (p : Fin 5000) (h : t.val * 5000 + p.val < 35000) (k : Fin 64) :
    iblk0 V c 0 t (ix2 p k) = V c (Pipeline.arrRef spec0 0) (ix2 (⟨t.val * 5000 + p.val, h⟩ : Fin 35000) k) := by
  obtain ⟨a0, a1, -⟩ := tileIdx0 t
  show V c (Pipeline.arrRef spec0 0) (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

theorem egoRow0 (c : Dev nD) (t : Fin cfg0.N) (p : Fin 5000) (h : t.val * 5000 + p.val < 35000) (k : Fin 64) :
    iblk0 V c 1 t (ix2 p k) = V c (Pipeline.arrRef spec0 1) (ix2 (⟨t.val * 5000 + p.val, h⟩ : Fin 35000) k) := by
  obtain ⟨-, -, b0, b1, -⟩ := tileIdx0 t
  show V c (Pipeline.arrRef spec0 1) (((cfg0.win 1).blk t).view.emb (ix2 p k)) = _
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 64 + 1 * k.val = k.val; omega

/-- The weight's and the bias's one block is the whole array. -/
theorem weightAll0 (c : Dev nD) (t : Fin cfg0.N) (i : S128x128.Idx) :
    iblk0 V c 2 t i = V c (Pipeline.arrRef spec0 2) i := by
  obtain ⟨-, -, -, -, w0, w1, -⟩ := tileIdx0 t
  show V c (Pipeline.arrRef spec0 2) (((cfg0.win 2).blk t).view.emb i) = _
  refine congrArg _ (funext fun a => Fin.ext ?_)
  match a with
  | ⟨0, _⟩ => show win0_2.index t (0 : Fin 2) * 128 + 1 * (i 0).val = (i 0).val; omega
  | ⟨1, _⟩ => show win0_2.index t (1 : Fin 2) * 128 + 1 * (i 1).val = (i 1).val; omega

theorem biasAll0 (c : Dev nD) (t : Fin cfg0.N) (i : S1x128.Idx) :
    iblk0 V c 3 t i = V c (Pipeline.arrRef spec0 3) i := by
  obtain ⟨-, -, -, -, -, -, s0, s1, -⟩ := tileIdx0 t
  show V c (Pipeline.arrRef spec0 3) (((cfg0.win 3).blk t).view.emb i) = _
  refine congrArg _ (funext fun a => Fin.ext ?_)
  match a with
  | ⟨0, _⟩ => show win0_3.index t (0 : Fin 2) * 1 + 1 * (i 0).val = (i 0).val; omega
  | ⟨1, _⟩ => show win0_3.index t (1 : Fin 2) * 128 + 1 * (i 1).val = (i 1).val; omega

/-- Entry `(p, q)` of tile `t` of output window 4 sits at row `t · 5000 + p`, lane `q` of its array. -/
theorem outRow0_4 (t : Fin cfg0.N) (p : Fin 5000) (h : t.val * 5000 + p.val < 35000) (q : Fin 64) :
    ((cfg0.win 4).blk t).view.emb (ix2 p q) = ix2 (⟨t.val * 5000 + p.val, h⟩ : Fin 35000) q := by
  obtain ⟨-, -, -, -, -, -, -, -, o0, o1, n0, n1⟩ := tileIdx0 t
  refine funext fun a => Fin.ext ?_
  match a with
  | ⟨0, _⟩ => show win0_4.index t (0 : Fin 2) * 5000 + 1 * p.val = t.val * 5000 + p.val; omega
  | ⟨1, _⟩ => show win0_4.index t (1 : Fin 2) * 64 + 1 * q.val = q.val; omega

/-- What grid point `t` writes back to output window 4 is tile `t` of the whole-array function. -/
theorem flushed0_4_eq (c : Dev nD) (t : Fin cfg0.N) :
    (dat0 (F := Ideal) V c).flushed 4 t = ((cfg0.win 4).blk t).view.read (Elt Ideal) (newEgoArr0 V c) := by
  show (cfg0.win 4).cut (grid0.coords t) ((dat0 V c).after 4 t) = _
  rw [after0_4]
  unfold out0_4
  rw [View.canon_unit_zero zeroOff0]
  simp only [View.ld_unit_zero (S := S5000x64) zeroOff0, View.ld_unit_zero (S := S128x128) zeroOff0, View.ld_unit_zero (S := S1x128) zeroOff0]
  funext j
  obtain ⟨p, q, rfl⟩ : ∃ p q, j = ix2 p q := ⟨j 0, j 1, eq_ix2 j⟩
  have hrow : t.val * 5000 + p.val < 35000 := by have := tileLt0 t; have := p.isLt; omega
  show k0_pay1 (F := Ideal) (iblk0 V c 0 t) (iblk0 V c 1 t) (iblk0 V c 2 t) (iblk0 V c 3 t) (ix2 p q)
      = newEgoArr0 V c (((cfg0.win 4).blk t).view.emb (ix2 p q))
  rw [KV.k0_pay1_apply, outRow0_4 t p hrow q]
  exact newEgoAt_congr _ _ _ _ _ _ _ _ p ⟨t.val * 5000 + p.val, hrow⟩ (sideRow0 V c t p hrow) (egoRow0 V c t p hrow)
    (weightAll0 V c t) (biasAll0 V c t) q

/-- An index of the array lies in tile `t` of output window 4 iff each coordinate lies in the tile's range. -/
theorem mem_tile0_4 (t : Fin cfg0.N) (i : S35000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v24_0).slice (win0_4.rect t)).set ↔ _
  rw [View.set_slice_whole, Rect.mem_set_unit]
  exact Iff.rfl

/-- Every index of the array lies in the tile of its row's quotient by 5000, which is written back. -/
theorem tiles0_4 (i : S35000x64.Idx) :
    ∃ t : Fin cfg0.N, (cfg0.win 4).flush t = true ∧ i ∈ ((cfg0.win 4).blk t).view.set := by
  have hi0 : (i 0).val < 35000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 7) N_0.symm⟩, rfl⟩
  obtain ⟨-, -, -, -, -, -, -, -, o0, o1, n0, n1⟩ := tileIdx0 t
  refine ⟨t, flush0_4 t, ?_⟩
  rw [mem_tile0_4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- The array of output window 4 after the last grid point. -/
theorem final0_4 (c : Dev nD) : (dat0 (F := Ideal) V c).arrAt 4 cfg0.N
    = fun i => newEgoAt (R := 35000) (V c (Pipeline.arrRef spec0 0)) (V c (Pipeline.arrRef spec0 1)) (V c (Pipeline.arrRef spec0 2)) (V c (Pipeline.arrRef spec0 3)) (i 0) (i 1) :=
  (dat0 (F := Ideal) V c).arrAt_eq_of_cover 4 (newEgoArr0 V c) (fun t _ => flushed0_4_eq V c t) (tiles0_4)

/-- Entry `(p, q)` of tile `t` of output window 5 sits at row `t · 5000 + p`, lane `q` of its array. -/
theorem outRow0_5 (t : Fin cfg0.N) (p : Fin 5000) (h : t.val * 5000 + p.val < 35000) (q : Fin 64) :
    ((cfg0.win 5).blk t).view.emb (ix2 p q) = ix2 (⟨t.val * 5000 + p.val, h⟩ : Fin 35000) q := by
  obtain ⟨-, -, -, -, -, -, -, -, o0, o1, n0, n1⟩ := tileIdx0 t
  refine funext fun a => Fin.ext ?_
  match a with
  | ⟨0, _⟩ => show win0_5.index t (0 : Fin 2) * 5000 + 1 * p.val = t.val * 5000 + p.val; omega
  | ⟨1, _⟩ => show win0_5.index t (1 : Fin 2) * 64 + 1 * q.val = q.val; omega

/-- What grid point `t` writes back to output window 5 is tile `t` of the whole-array function. -/
theorem flushed0_5_eq (c : Dev nD) (t : Fin cfg0.N) :
    (dat0 (F := Ideal) V c).flushed 5 t = ((cfg0.win 5).blk t).view.read (Elt Ideal) (normArr0 V c) := by
  show (cfg0.win 5).cut (grid0.coords t) ((dat0 V c).after 5 t) = _
  rw [after0_5]
  unfold out0_5
  rw [View.canon_unit_zero zeroOff0]
  simp only [View.ld_unit_zero (S := S5000x64) zeroOff0, View.ld_unit_zero (S := S128x128) zeroOff0, View.ld_unit_zero (S := S1x128) zeroOff0]
  funext j
  obtain ⟨p, q, rfl⟩ : ∃ p q, j = ix2 p q := ⟨j 0, j 1, eq_ix2 j⟩
  have hrow : t.val * 5000 + p.val < 35000 := by have := tileLt0 t; have := p.isLt; omega
  show k0_pay2 (F := Ideal) (iblk0 V c 0 t) (iblk0 V c 1 t) (iblk0 V c 2 t) (iblk0 V c 3 t) (ix2 p q)
      = normArr0 V c (((cfg0.win 5).blk t).view.emb (ix2 p q))
  rw [KV.k0_pay2_apply, outRow0_5 t p hrow q]
  exact normAt_congr _ _ _ _ _ _ _ _ p ⟨t.val * 5000 + p.val, hrow⟩ (sideRow0 V c t p hrow) (egoRow0 V c t p hrow)
    (weightAll0 V c t) (biasAll0 V c t) q

/-- An index of the array lies in tile `t` of output window 5 iff each coordinate lies in the tile's range. -/
theorem mem_tile0_5 (t : Fin cfg0.N) (i : S35000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v24_1).slice (win0_5.rect t)).set ↔ _
  rw [View.set_slice_whole, Rect.mem_set_unit]
  exact Iff.rfl

/-- Every index of the array lies in the tile of its row's quotient by 5000, which is written back. -/
theorem tiles0_5 (i : S35000x64.Idx) :
    ∃ t : Fin cfg0.N, (cfg0.win 5).flush t = true ∧ i ∈ ((cfg0.win 5).blk t).view.set := by
  have hi0 : (i 0).val < 35000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 7) N_0.symm⟩, rfl⟩
  obtain ⟨-, -, -, -, -, -, -, -, o0, o1, n0, n1⟩ := tileIdx0 t
  refine ⟨t, flush0_5 t, ?_⟩
  rw [mem_tile0_5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The array of output window 5 after the last grid point. -/
theorem final0_5 (c : Dev nD) : (dat0 (F := Ideal) V c).arrAt 5 cfg0.N
    = fun i => normAt (R := 35000) (V c (Pipeline.arrRef spec0 0)) (V c (Pipeline.arrRef spec0 1)) (V c (Pipeline.arrRef spec0 2)) (V c (Pipeline.arrRef spec0 3)) (i 0) (i 1) :=
  (dat0 (F := Ideal) V c).arrAt_eq_of_cover 5 (normArr0 V c) (fun t _ => flushed0_5_eq V c t) (tiles0_5)

end Cert.KernelIdeal.KF

end
-- ==== Proof.KiFinal1.lean ====
/- Region 1, from blocks to arrays, on the extended reals: after the last grid point each of the layer kernel's
   two output arrays is, entry by entry, the layer's new embedding (window 4) and its row-normalised form
   (window 5) of the arrays the region was entered with. A row tile's entries depend on the tile's rows of the
   operands only, the tiles partition the rows, and every tile is written back. -/
import proofs.«120809_j78615081386430_2_alg».proof.Proof.KiBody1
import proofs.«120809_j78615081386430_2_alg».proof.Proof.LayerPay
import Idealize.ShloMosaic.Lib.Pipeline.Value

set_option maxRecDepth 16384

noncomputable section

namespace Cert.KernelIdeal.KF

open Cert.KernelIdeal Cert.KernelIdeal.Gen Cert.Ngcf
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff1 : (![0, 0] : Fin 2 → Nat) = fun _ => 0 := funext fun a => by fin_cases a <;> rfl

/-- The block index of each window at each grid point: the row-tiled windows sit at block `(t, 0)`, the weight and
    the bias at block `(0, 0)`. -/
theorem tileIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem tileLt1 (t : Fin cfg1.N) : t.val < 7 := lt_of_lt_of_eq t.isLt N_1

/-- The new embedding of the whole array, entry by entry. -/
abbrev newEgoArr1 (c : Dev nD) : S35000x64.Idx → EReal :=
  fun i => newEgoAt (R := 35000) (V c (Pipeline.arrRef spec1 0)) (V c (Pipeline.arrRef spec1 1)) (V c (Pipeline.arrRef spec1 2)) (V c (Pipeline.arrRef spec1 3)) (i 0) (i 1)

/-- The normalised embedding of the whole array, entry by entry. -/
abbrev normArr1 (c : Dev nD) : S35000x64.Idx → EReal :=
  fun i => normAt (R := 35000) (V c (Pipeline.arrRef spec1 0)) (V c (Pipeline.arrRef spec1 1)) (V c (Pipeline.arrRef spec1 2)) (V c (Pipeline.arrRef spec1 3)) (i 0) (i 1)

/-- Row `p` of tile `t` of a row-tiled input window is row `t · 5000 + p` of its array. -/
theorem sideRow1 (c : Dev nD) (t : Fin cfg1.N) (p : Fin 5000) (h : t.val * 5000 + p.val < 35000) (k : Fin 64) :
    iblk1 V c 0 t (ix2 p k) = V c (Pipeline.arrRef spec1 0) (ix2 (⟨t.val * 5000 + p.val, h⟩ : Fin 35000) k) := by
  obtain ⟨a0, a1, -⟩ := tileIdx1 t
  show V c (Pipeline.arrRef spec1 0) (((cfg1.win 0).blk t).view.emb (ix2 p k)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * k.val = k.val; omega

theorem egoRow1 (c : Dev nD) (t : Fin cfg1.N) (p : Fin 5000) (h : t.val * 5000 + p.val < 35000) (k : Fin 64) :
    iblk1 V c 1 t (ix2 p k) = V c (Pipeline.arrRef spec1 1) (ix2 (⟨t.val * 5000 + p.val, h⟩ : Fin 35000) k) := by
  obtain ⟨-, -, b0, b1, -⟩ := tileIdx1 t
  show V c (Pipeline.arrRef spec1 1) (((cfg1.win 1).blk t).view.emb (ix2 p k)) = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 64 + 1 * k.val = k.val; omega

/-- The weight's and the bias's one block is the whole array. -/
theorem weightAll1 (c : Dev nD) (t : Fin cfg1.N) (i : S128x128.Idx) :
    iblk1 V c 2 t i = V c (Pipeline.arrRef spec1 2) i := by
  obtain ⟨-, -, -, -, w0, w1, -⟩ := tileIdx1 t
  show V c (Pipeline.arrRef spec1 2) (((cfg1.win 2).blk t).view.emb i) = _
  refine congrArg _ (funext fun a => Fin.ext ?_)
  match a with
  | ⟨0, _⟩ => show win1_2.index t (0 : Fin 2) * 128 + 1 * (i 0).val = (i 0).val; omega
  | ⟨1, _⟩ => show win1_2.index t (1 : Fin 2) * 128 + 1 * (i 1).val = (i 1).val; omega

theorem biasAll1 (c : Dev nD) (t : Fin cfg1.N) (i : S1x128.Idx) :
    iblk1 V c 3 t i = V c (Pipeline.arrRef spec1 3) i := by
  obtain ⟨-, -, -, -, -, -, s0, s1, -⟩ := tileIdx1 t
  show V c (Pipeline.arrRef spec1 3) (((cfg1.win 3).blk t).view.emb i) = _
  refine congrArg _ (funext fun a => Fin.ext ?_)
  match a with
  | ⟨0, _⟩ => show win1_3.index t (0 : Fin 2) * 1 + 1 * (i 0).val = (i 0).val; omega
  | ⟨1, _⟩ => show win1_3.index t (1 : Fin 2) * 128 + 1 * (i 1).val = (i 1).val; omega

/-- Entry `(p, q)` of tile `t` of output window 4 sits at row `t · 5000 + p`, lane `q` of its array. -/
theorem outRow1_4 (t : Fin cfg1.N) (p : Fin 5000) (h : t.val * 5000 + p.val < 35000) (q : Fin 64) :
    ((cfg1.win 4).blk t).view.emb (ix2 p q) = ix2 (⟨t.val * 5000 + p.val, h⟩ : Fin 35000) q := by
  obtain ⟨-, -, -, -, -, -, -, -, o0, o1, n0, n1⟩ := tileIdx1 t
  refine funext fun a => Fin.ext ?_
  match a with
  | ⟨0, _⟩ => show win1_4.index t (0 : Fin 2) * 5000 + 1 * p.val = t.val * 5000 + p.val; omega
  | ⟨1, _⟩ => show win1_4.index t (1 : Fin 2) * 64 + 1 * q.val = q.val; omega

/-- What grid point `t` writes back to output window 4 is tile `t` of the whole-array function. -/
theorem flushed1_4_eq (c : Dev nD) (t : Fin cfg1.N) :
    (dat1 (F := Ideal) V c).flushed 4 t = ((cfg1.win 4).blk t).view.read (Elt Ideal) (newEgoArr1 V c) := by
  show (cfg1.win 4).cut (grid1.coords t) ((dat1 V c).after 4 t) = _
  rw [after1_4]
  unfold out1_4
  rw [View.canon_unit_zero zeroOff1]
  simp only [View.ld_unit_zero (S := S5000x64) zeroOff1, View.ld_unit_zero (S := S128x128) zeroOff1, View.ld_unit_zero (S := S1x128) zeroOff1]
  funext j
  obtain ⟨p, q, rfl⟩ : ∃ p q, j = ix2 p q := ⟨j 0, j 1, eq_ix2 j⟩
  have hrow : t.val * 5000 + p.val < 35000 := by have := tileLt1 t; have := p.isLt; omega
  show k1_pay1 (F := Ideal) (iblk1 V c 0 t) (iblk1 V c 1 t) (iblk1 V c 2 t) (iblk1 V c 3 t) (ix2 p q)
      = newEgoArr1 V c (((cfg1.win 4).blk t).view.emb (ix2 p q))
  rw [KV.k1_pay1_apply, outRow1_4 t p hrow q]
  exact newEgoAt_congr _ _ _ _ _ _ _ _ p ⟨t.val * 5000 + p.val, hrow⟩ (sideRow1 V c t p hrow) (egoRow1 V c t p hrow)
    (weightAll1 V c t) (biasAll1 V c t) q

/-- An index of the array lies in tile `t` of output window 4 iff each coordinate lies in the tile's range. -/
theorem mem_tile1_4 (t : Fin cfg1.N) (i : S35000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v43_0).slice (win1_4.rect t)).set ↔ _
  rw [View.set_slice_whole, Rect.mem_set_unit]
  exact Iff.rfl

/-- Every index of the array lies in the tile of its row's quotient by 5000, which is written back. -/
theorem tiles1_4 (i : S35000x64.Idx) :
    ∃ t : Fin cfg1.N, (cfg1.win 4).flush t = true ∧ i ∈ ((cfg1.win 4).blk t).view.set := by
  have hi0 : (i 0).val < 35000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega : (i 0).val / 5000 < 7) N_1.symm⟩, rfl⟩
  obtain ⟨-, -, -, -, -, -, -, -, o0, o1, n0, n1⟩ := tileIdx1 t
  refine ⟨t, flush1_4 t, ?_⟩
  rw [mem_tile1_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The array of output window 4 after the last grid point. -/
theorem final1_4 (c : Dev nD) : (dat1 (F := Ideal) V c).arrAt 4 cfg1.N
    = fun i => newEgoAt (R := 35000) (V c (Pipeline.arrRef spec1 0)) (V c (Pipeline.arrRef spec1 1)) (V c (Pipeline.arrRef spec1 2)) (V c (Pipeline.arrRef spec1 3)) (i 0) (i 1) :=
  (dat1 (F := Ideal) V c).arrAt_eq_of_cover 4 (newEgoArr1 V c) (fun t _ => flushed1_4_eq V c t) (tiles1_4)

/-- Entry `(p, q)` of tile `t` of output window 5 sits at row `t · 5000 + p`, lane `q` of its array. -/
theorem outRow1_5 (t : Fin cfg1.N) (p : Fin 5000) (h : t.val * 5000 + p.val < 35000) (q : Fin 64) :
    ((cfg1.win 5).blk t).view.emb (ix2 p q) = ix2 (⟨t.val * 5000 + p.val, h⟩ : Fin 35000) q := by
  obtain ⟨-, -, -, -, -, -, -, -, o0, o1, n0, n1⟩ := tileIdx1 t
  refine funext fun a => Fin.ext ?_
  match a with
  | ⟨0, _⟩ => show win1_5.index t (0 : Fin 2) * 5000 + 1 * p.val = t.val * 5000 + p.val; omega
  | ⟨1, _⟩ => show win1_5.index t (1 : Fin 2) * 64 + 1 * q.val = q.val; omega

/-- What grid point `t` writes back to output window 5 is tile `t` of the whole-array function. -/
theorem flushed1_5_eq (c : Dev nD) (t : Fin cfg1.N) :
    (dat1 (F := Ideal) V c).flushed 5 t = ((cfg1.win 5).blk t).view.read (Elt Ideal) (normArr1 V c) := by
  show (cfg1.win 5).cut (grid1.coords t) ((dat1 V c).after 5 t) = _
  rw [after1_5]
  unfold out1_5
  rw [View.canon_unit_zero zeroOff1]
  simp only [View.ld_unit_zero (S := S5000x64) zeroOff1, View.ld_unit_zero (S := S128x128) zeroOff1, View.ld_unit_zero (S := S1x128) zeroOff1]
  funext j
  obtain ⟨p, q, rfl⟩ : ∃ p q, j = ix2 p q := ⟨j 0, j 1, eq_ix2 j⟩
  have hrow : t.val * 5000 + p.val < 35000 := by have := tileLt1 t; have := p.isLt; omega
  show k1_pay2 (F := Ideal) (iblk1 V c 0 t) (iblk1 V c 1 t) (iblk1 V c 2 t) (iblk1 V c 3 t) (ix2 p q)
      = normArr1 V c (((cfg1.win 5).blk t).view.emb (ix2 p q))
  rw [KV.k1_pay2_apply, outRow1_5 t p hrow q]
  exact normAt_congr _ _ _ _ _ _ _ _ p ⟨t.val * 5000 + p.val, hrow⟩ (sideRow1 V c t p hrow) (egoRow1 V c t p hrow)
    (weightAll1 V c t) (biasAll1 V c t) q

/-- An index of the array lies in tile `t` of output window 5 iff each coordinate lies in the tile's range. -/
theorem mem_tile1_5 (t : Fin cfg1.N) (i : S35000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v43_1).slice (win1_5.rect t)).set ↔ _
  rw [View.set_slice_whole, Rect.mem_set_unit]
  exact Iff.rfl

/-- Every index of the array lies in the tile of its row's quotient by 5000, which is written back. -/
theorem tiles1_5 (i : S35000x64.Idx) :
    ∃ t : Fin cfg1.N, (cfg1.win 5).flush t = true ∧ i ∈ ((cfg1.win 5).blk t).view.set := by
  have hi0 : (i 0).val < 35000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega : (i 0).val / 5000 < 7) N_1.symm⟩, rfl⟩
  obtain ⟨-, -, -, -, -, -, -, -, o0, o1, n0, n1⟩ := tileIdx1 t
  refine ⟨t, flush1_5 t, ?_⟩
  rw [mem_tile1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The array of output window 5 after the last grid point. -/
theorem final1_5 (c : Dev nD) : (dat1 (F := Ideal) V c).arrAt 5 cfg1.N
    = fun i => normAt (R := 35000) (V c (Pipeline.arrRef spec1 0)) (V c (Pipeline.arrRef spec1 1)) (V c (Pipeline.arrRef spec1 2)) (V c (Pipeline.arrRef spec1 3)) (i 0) (i 1) :=
  (dat1 (F := Ideal) V c).arrAt_eq_of_cover 5 (normArr1 V c) (fun t _ => flushed1_5_eq V c t) (tiles1_5)

end Cert.KernelIdeal.KF

end
-- ==== Proof.KiFinal2.lean ====
/- Region 2, from blocks to arrays, on the extended reals: after the last grid point each of the layer kernel's
   two output arrays is, entry by entry, the layer's new embedding (window 4) and its row-normalised form
   (window 5) of the arrays the region was entered with. A row tile's entries depend on the tile's rows of the
   operands only, the tiles partition the rows, and every tile is written back. -/
import proofs.«120809_j78615081386430_2_alg».proof.Proof.KiBody2
import proofs.«120809_j78615081386430_2_alg».proof.Proof.LayerPay
import Idealize.ShloMosaic.Lib.Pipeline.Value

set_option maxRecDepth 16384

noncomputable section

namespace Cert.KernelIdeal.KF

open Cert.KernelIdeal Cert.KernelIdeal.Gen Cert.Ngcf
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff2 : (![0, 0] : Fin 2 → Nat) = fun _ => 0 := funext fun a => by fin_cases a <;> rfl

/-- The block index of each window at each grid point: the row-tiled windows sit at block `(t, 0)`, the weight and
    the bias at block `(0, 0)`. -/
theorem tileIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

theorem tileLt2 (t : Fin cfg2.N) : t.val < 7 := lt_of_lt_of_eq t.isLt N_2

/-- The new embedding of the whole array, entry by entry. -/
abbrev newEgoArr2 (c : Dev nD) : S35000x64.Idx → EReal :=
  fun i => newEgoAt (R := 35000) (V c (Pipeline.arrRef spec2 0)) (V c (Pipeline.arrRef spec2 1)) (V c (Pipeline.arrRef spec2 2)) (V c (Pipeline.arrRef spec2 3)) (i 0) (i 1)

/-- The normalised embedding of the whole array, entry by entry. -/
abbrev normArr2 (c : Dev nD) : S35000x64.Idx → EReal :=
  fun i => normAt (R := 35000) (V c (Pipeline.arrRef spec2 0)) (V c (Pipeline.arrRef spec2 1)) (V c (Pipeline.arrRef spec2 2)) (V c (Pipeline.arrRef spec2 3)) (i 0) (i 1)

/-- Row `p` of tile `t` of a row-tiled input window is row `t · 5000 + p` of its array. -/
theorem sideRow2 (c : Dev nD) (t : Fin cfg2.N) (p : Fin 5000) (h : t.val * 5000 + p.val < 35000) (k : Fin 64) :
    iblk2 V c 0 t (ix2 p k) = V c (Pipeline.arrRef spec2 0) (ix2 (⟨t.val * 5000 + p.val, h⟩ : Fin 35000) k) := by
  obtain ⟨a0, a1, -⟩ := tileIdx2 t
  show V c (Pipeline.arrRef spec2 0) (((cfg2.win 0).blk t).view.emb (ix2 p k)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * k.val = k.val; omega

theorem egoRow2 (c : Dev nD) (t : Fin cfg2.N) (p : Fin 5000) (h : t.val * 5000 + p.val < 35000) (k : Fin 64) :
    iblk2 V c 1 t (ix2 p k) = V c (Pipeline.arrRef spec2 1) (ix2 (⟨t.val * 5000 + p.val, h⟩ : Fin 35000) k) := by
  obtain ⟨-, -, b0, b1, -⟩ := tileIdx2 t
  show V c (Pipeline.arrRef spec2 1) (((cfg2.win 1).blk t).view.emb (ix2 p k)) = _
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 64 + 1 * k.val = k.val; omega

/-- The weight's and the bias's one block is the whole array. -/
theorem weightAll2 (c : Dev nD) (t : Fin cfg2.N) (i : S128x128.Idx) :
    iblk2 V c 2 t i = V c (Pipeline.arrRef spec2 2) i := by
  obtain ⟨-, -, -, -, w0, w1, -⟩ := tileIdx2 t
  show V c (Pipeline.arrRef spec2 2) (((cfg2.win 2).blk t).view.emb i) = _
  refine congrArg _ (funext fun a => Fin.ext ?_)
  match a with
  | ⟨0, _⟩ => show win2_2.index t (0 : Fin 2) * 128 + 1 * (i 0).val = (i 0).val; omega
  | ⟨1, _⟩ => show win2_2.index t (1 : Fin 2) * 128 + 1 * (i 1).val = (i 1).val; omega

theorem biasAll2 (c : Dev nD) (t : Fin cfg2.N) (i : S1x128.Idx) :
    iblk2 V c 3 t i = V c (Pipeline.arrRef spec2 3) i := by
  obtain ⟨-, -, -, -, -, -, s0, s1, -⟩ := tileIdx2 t
  show V c (Pipeline.arrRef spec2 3) (((cfg2.win 3).blk t).view.emb i) = _
  refine congrArg _ (funext fun a => Fin.ext ?_)
  match a with
  | ⟨0, _⟩ => show win2_3.index t (0 : Fin 2) * 1 + 1 * (i 0).val = (i 0).val; omega
  | ⟨1, _⟩ => show win2_3.index t (1 : Fin 2) * 128 + 1 * (i 1).val = (i 1).val; omega

/-- Entry `(p, q)` of tile `t` of output window 4 sits at row `t · 5000 + p`, lane `q` of its array. -/
theorem outRow2_4 (t : Fin cfg2.N) (p : Fin 5000) (h : t.val * 5000 + p.val < 35000) (q : Fin 64) :
    ((cfg2.win 4).blk t).view.emb (ix2 p q) = ix2 (⟨t.val * 5000 + p.val, h⟩ : Fin 35000) q := by
  obtain ⟨-, -, -, -, -, -, -, -, o0, o1, n0, n1⟩ := tileIdx2 t
  refine funext fun a => Fin.ext ?_
  match a with
  | ⟨0, _⟩ => show win2_4.index t (0 : Fin 2) * 5000 + 1 * p.val = t.val * 5000 + p.val; omega
  | ⟨1, _⟩ => show win2_4.index t (1 : Fin 2) * 64 + 1 * q.val = q.val; omega

/-- What grid point `t` writes back to output window 4 is tile `t` of the whole-array function. -/
theorem flushed2_4_eq (c : Dev nD) (t : Fin cfg2.N) :
    (dat2 (F := Ideal) V c).flushed 4 t = ((cfg2.win 4).blk t).view.read (Elt Ideal) (newEgoArr2 V c) := by
  show (cfg2.win 4).cut (grid2.coords t) ((dat2 V c).after 4 t) = _
  rw [after2_4]
  unfold out2_4
  rw [View.canon_unit_zero zeroOff2]
  simp only [View.ld_unit_zero (S := S5000x64) zeroOff2, View.ld_unit_zero (S := S128x128) zeroOff2, View.ld_unit_zero (S := S1x128) zeroOff2]
  funext j
  obtain ⟨p, q, rfl⟩ : ∃ p q, j = ix2 p q := ⟨j 0, j 1, eq_ix2 j⟩
  have hrow : t.val * 5000 + p.val < 35000 := by have := tileLt2 t; have := p.isLt; omega
  show k2_pay1 (F := Ideal) (iblk2 V c 0 t) (iblk2 V c 1 t) (iblk2 V c 2 t) (iblk2 V c 3 t) (ix2 p q)
      = newEgoArr2 V c (((cfg2.win 4).blk t).view.emb (ix2 p q))
  rw [KV.k2_pay1_apply, outRow2_4 t p hrow q]
  exact newEgoAt_congr _ _ _ _ _ _ _ _ p ⟨t.val * 5000 + p.val, hrow⟩ (sideRow2 V c t p hrow) (egoRow2 V c t p hrow)
    (weightAll2 V c t) (biasAll2 V c t) q

/-- An index of the array lies in tile `t` of output window 4 iff each coordinate lies in the tile's range. -/
theorem mem_tile2_4 (t : Fin cfg2.N) (i : S35000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v62_0).slice (win2_4.rect t)).set ↔ _
  rw [View.set_slice_whole, Rect.mem_set_unit]
  exact Iff.rfl

/-- Every index of the array lies in the tile of its row's quotient by 5000, which is written back. -/
theorem tiles2_4 (i : S35000x64.Idx) :
    ∃ t : Fin cfg2.N, (cfg2.win 4).flush t = true ∧ i ∈ ((cfg2.win 4).blk t).view.set := by
  have hi0 : (i 0).val < 35000 := (i 0).isLt
  have hi1 : (i 1).val < 64 := (i 1).isLt
  obtain ⟨t, ht⟩ : ∃ t : Fin cfg2.N, t.val = (i 0).val / 5000 :=
    ⟨⟨(i 0).val / 5000, lt_of_lt_of_eq (by omega : (i 0).val / 5000 < 7) N_2.symm⟩, rfl⟩
  obtain ⟨-, -, -, -, -, -, -, -, o0, o1, n0, n1⟩ := tileIdx2 t
  refine ⟨t, flush2_4 t, ?_⟩
  rw [mem_tile2_4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The array of output window 4 after the last grid point. -/
theorem final2_4 (c : Dev nD) : (dat2 (F := Ideal) V c).arrAt 4 cfg2.N
    = fun i => newEgoAt (R := 35000) (V c (Pipeline.arrRef spec2 0)) (V c (Pipeline.arrRef spec2 1)) (V c (Pipeline.arrRef spec2 2)) (V c (Pipeline.arrRef spec2 3)) (i 0) (i 1) :=
  (dat2 (F := Ideal) V c).arrAt_eq_of_cover 4 (newEgoArr2 V c) (fun t _ => flushed2_4_eq V c t) (tiles2_4)

/-- Entry `(p, q)` of tile `t` of output window 5 sits at row `t · 5000 + p`, lane `q` of its array. -/
theorem outRow2_5 (t : Fin cfg2.N) (p : Fin 5000) (h : t.val * 5000 + p.val < 35000) (q : Fin 64) :
    ((cfg2.win 5).blk t).view.emb (ix2 p q) = ix2 (⟨t.val * 5000 + p.val, h⟩ : Fin 35000) q := by
  obtain ⟨-, -, -, -, -, -, -, -, o0, o1, n0, n1⟩ := tileIdx2 t
  refine funext fun a => Fin.ext ?_
  match a with
  | ⟨0, _⟩ => show win2_5.index t (0 : Fin 2) * 5000 + 1 * p.val = t.val * 5000 + p.val; omega
  | ⟨1, _⟩ => show win2_5.index t (1 : Fin 2) * 64 + 1 * q.val = q.val; omega

/-- What grid point `t` writes back to output window 5 is tile `t` of the whole-array function. -/
theorem flushed2_5_eq (c : Dev nD) (t : Fin cfg2.N) :
    (dat2 (F := Ideal) V c).flushed 5 t = ((cfg2.win 5).blk t).view.read (Elt Ideal) (normArr2 V c) := by
  show (cfg2.win 5).cut (grid2.coords t) ((dat2 V c).after 5 t) = _
  rw [after2_5]
  unfold out2_5
  rw [View.canon_unit_zero zeroOff2]
  simp only [View.ld_unit_zero (S := S5000x64) zeroOff2, View.ld_unit_zero (S := S128x128) zeroOff2, View.ld_unit_zero (S := S1x128) zeroOff2]
  funext j
  obtain ⟨p, q, rfl⟩ : ∃ p q, j = ix2 p q := ⟨j 0, j 1, eq_ix2 j⟩
  have hrow : t.val * 5000 + p.val < 35000 := by have := tileLt2 t; have := p.isLt; omega
  show k2_pay2 (F := Ideal) (iblk2 V c 0 t) (iblk2 V c 1 t) (iblk2 V c 2 t) (iblk2 V c 3 t) (ix2 p q)
      = normArr2 V c (((cfg2.win 5).blk t).view.emb (ix2 p q))
  rw [KV.k2_pay2_apply, outRow2_5 t p hrow q]
  exact normAt_congr _ _ _ _ _ _ _ _ p ⟨t.val * 5000 + p.val, hrow⟩ (sideRow2 V c t p hrow) (egoRow2 V c t p hrow)
    (weightAll2 V c t) (biasAll2 V c t) q

/-- An index of the array lies in tile `t` of output window 5 iff each coordinate lies in the tile's range. -/
theorem mem_tile2_5 (t : Fin cfg2.N) (i : S35000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v62_1).slice (win2_5.rect t)).set ↔ _
  rw [View.set_slice_whole, Rect.mem_set_unit]
  exact Iff.rfl

/-- Every index of the array lies in the tile of its row's quotient by 5000, which is written back. -/
theorem tiles2_5 (i : S35000x64.Idx) :
    ∃ t : Fin cfg2.N, (cfg2.win 5).flush t = true ∧ i ∈ ((cfg2.win 5).blk t).view.set := by
  have hi0 : (i 0).val < 35000 := (i 0).isLt
  have hi1 : (i 1).val < 64 := (i 1).isLt
  obtain ⟨t, ht⟩ : ∃ t : Fin cfg2.N, t.val = (i 0).val / 5000 :=
    ⟨⟨(i 0).val / 5000, lt_of_lt_of_eq (by omega : (i 0).val / 5000 < 7) N_2.symm⟩, rfl⟩
  obtain ⟨-, -, -, -, -, -, -, -, o0, o1, n0, n1⟩ := tileIdx2 t
  refine ⟨t, flush2_5 t, ?_⟩
  rw [mem_tile2_5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The array of output window 5 after the last grid point. -/
theorem final2_5 (c : Dev nD) : (dat2 (F := Ideal) V c).arrAt 5 cfg2.N
    = fun i => normAt (R := 35000) (V c (Pipeline.arrRef spec2 0)) (V c (Pipeline.arrRef spec2 1)) (V c (Pipeline.arrRef spec2 2)) (V c (Pipeline.arrRef spec2 3)) (i 0) (i 1) :=
  (dat2 (F := Ideal) V c).arrAt_eq_of_cover 5 (normArr2 V c) (fun t _ => flushed2_5_eq V c t) (tiles2_5)

end Cert.KernelIdeal.KF

end
-- ==== Proof.KiValue0.lean ====
/- The value chain of the idealized kernel program, graph 0: from the launch memory through the first host stretch,
   the three layer regions with the host stretches between them, to the four embeddings laid side by side and cut
   into the user rows and the item rows. Each stage reads the buffers a later stage needs as one term of the common
   value over the argument arrays. -/
import proofs.«120809_j78615081386430_2_alg».proof.Proof.KiArgs
import proofs.«120809_j78615081386430_2_alg».proof.Proof.FusedLayer
import proofs.«120809_j78615081386430_2_alg».proof.Proof.KiFinal0
import proofs.«120809_j78615081386430_2_alg».proof.Proof.KiFinal1
import proofs.«120809_j78615081386430_2_alg».proof.Proof.KiFinal2

set_option maxRecDepth 16384

noncomputable section

namespace Cert.KernelIdeal.KF

open Cert.KernelIdeal Cert.KernelIdeal.Gen Cert.Ngcf
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-! ## Argument arrays at the boundaries where graph 0's later host stretches read them -/

theorem g0_W2_arg17 : W2 m ρ c (Proc.devRef .tc main_arg17) = m ((c : Thread nD τ).loc main_arg17) :=
  calc W2 m ρ c (Proc.devRef .tc main_arg17)
    _ = W1 m ρ c (Proc.devRef .tc main_arg17) := W2_of_ne m ρ c main_arg17 (by decide)
    _ = W0 m ρ c (Proc.devRef .tc main_arg17) := W1_keep m ρ c main_arg17 (by decide)
    _ = m ((c : Thread nD τ).loc main_arg17) := rfl

theorem g0_W2_arg14 : W2 m ρ c (Proc.devRef .tc main_arg14) = m ((c : Thread nD τ).loc main_arg14) :=
  calc W2 m ρ c (Proc.devRef .tc main_arg14)
    _ = W1 m ρ c (Proc.devRef .tc main_arg14) := W2_of_ne m ρ c main_arg14 (by decide)
    _ = W0 m ρ c (Proc.devRef .tc main_arg14) := W1_keep m ρ c main_arg14 (by decide)
    _ = m ((c : Thread nD τ).loc main_arg14) := rfl

theorem g0_W2_arg16 : W2 m ρ c (Proc.devRef .tc main_arg16) = m ((c : Thread nD τ).loc main_arg16) :=
  calc W2 m ρ c (Proc.devRef .tc main_arg16)
    _ = W1 m ρ c (Proc.devRef .tc main_arg16) := W2_of_ne m ρ c main_arg16 (by decide)
    _ = W0 m ρ c (Proc.devRef .tc main_arg16) := W1_keep m ρ c main_arg16 (by decide)
    _ = m ((c : Thread nD τ).loc main_arg16) := rfl

theorem g0_W4_arg17 : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := W3_keep m ρ c main_arg17 (by decide)
    _ = W1 m ρ c (Proc.devRef .tc main_arg17) := W2_of_ne m ρ c main_arg17 (by decide)
    _ = W0 m ρ c (Proc.devRef .tc main_arg17) := W1_keep m ρ c main_arg17 (by decide)
    _ = m ((c : Thread nD τ).loc main_arg17) := rfl

theorem g0_W4_arg14 : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := W3_keep m ρ c main_arg14 (by decide)
    _ = W1 m ρ c (Proc.devRef .tc main_arg14) := W2_of_ne m ρ c main_arg14 (by decide)
    _ = W0 m ρ c (Proc.devRef .tc main_arg14) := W1_keep m ρ c main_arg14 (by decide)
    _ = m ((c : Thread nD τ).loc main_arg14) := rfl

theorem g0_W4_arg16 : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := W3_keep m ρ c main_arg16 (by decide)
    _ = W1 m ρ c (Proc.devRef .tc main_arg16) := W2_of_ne m ρ c main_arg16 (by decide)
    _ = W0 m ρ c (Proc.devRef .tc main_arg16) := W1_keep m ρ c main_arg16 (by decide)
    _ = m ((c : Thread nD τ).loc main_arg16) := rfl

/-! ## The first host stretch: the initial embedding, its aggregation, the fused weights and biases -/

theorem g0_w1_v0 : (W1 m ρ c (Proc.devRef .tc main_v0) : FVec Ideal S35000x64 .f32) = egoInit0 (argsK m c) := by
  show StableHlo.after hostOps0 (W0 m ρ c) (Proc.devRef .tc main_v0) = _
  after_results_simp
  rfl

theorem g0_w1_v18 : (W1 m ρ c (Proc.devRef .tc main_v18) : FVec Ideal S35000x64 .f32) = agg0 (argsK m c) (egoInit0 (argsK m c)) := by
  show StableHlo.after hostOps0 (W0 m ρ c) (Proc.devRef .tc main_v18) = _
  after_results_simp
  rfl

theorem g0_w1_v4 : (W1 m ρ c (Proc.devRef .tc main_v4) : FVec Ideal S3x128x128 .f32) = fusedStack bcast_S_S3x64x64 concatenates_S3x64x64_S3x64x64_S3x64x128_d2 concatenates_S3x64x128_S3x64x128_S3x128x128_d1 (argsK m c).gcW0 (argsK m c).biW0 := by
  show StableHlo.after hostOps0 (W0 m ρ c) (Proc.devRef .tc main_v4) = _
  after_results_simp
  rfl

theorem g0_w1_v5 : (W1 m ρ c (Proc.devRef .tc main_v5) : FVec Ideal S3x128 .f32) = concatenate S3x128 1 [⟨S3x64, (argsK m c).gcb0⟩, ⟨S3x64, (argsK m c).bib0⟩] concatenates_S3x64_S3x64_S3x128_d1 := by
  show StableHlo.after hostOps0 (W0 m ρ c) (Proc.devRef .tc main_v5) = _
  after_results_simp
  rfl

theorem g0_w1_v20 : (W1 m ρ c (Proc.devRef .tc main_v20) : FVec Ideal S128x128 .f32) = fusedMat bcast_S_S3x64x64 concatenates_S3x64x64_S3x64x64_S3x64x128_d2 concatenates_S3x64x128_S3x64x128_S3x128x128_d1 0 slices_S3x128x128_S1x128x128_0_0_0 shapeCasts_S1x128x128_S128x128 (argsK m c).gcW0 (argsK m c).biW0 := by
  show StableHlo.after hostOps0 (W0 m ρ c) (Proc.devRef .tc main_v20) = _
  after_results_simp
  rfl

theorem g0_w1_v23 : (W1 m ρ c (Proc.devRef .tc main_v23) : FVec Ideal S1x128 .f32) = fusedBias concatenates_S3x64_S3x64_S3x128_d1 0 slices_S3x128_S1x128_0_0 shapeCasts_S1x128_S128 shapeCasts_S128_S1x128 (argsK m c).gcb0 (argsK m c).bib0 := by
  show StableHlo.after hostOps0 (W0 m ρ c) (Proc.devRef .tc main_v23) = _
  after_results_simp
  rfl

/-! ## Layer 0 -/

set_option maxHeartbeats 400000 in
theorem g0_w2_v24_0 : (W2 m ρ c (Proc.devRef .tc main_v24_0) : FVec Ideal S35000x64 .f32) = ego1 (agg0 (argsK m c)) (argsK m c).gcW0 (argsK m c).biW0 (argsK m c).gcb0 (argsK m c).bib0 (egoInit0 (argsK m c)) := by
  refine (W2_arr m ρ c 4).trans ((final0_4 (V1 m ρ) c).trans ?_)
  have e0 : (V1 m ρ c (Pipeline.arrRef spec0 0) : FVec Ideal S35000x64 .f32) = agg0 (argsK m c) (egoInit0 (argsK m c)) := g0_w1_v18 m ρ c
  have e1 : (V1 m ρ c (Pipeline.arrRef spec0 1) : FVec Ideal S35000x64 .f32) = egoInit0 (argsK m c) := g0_w1_v0 m ρ c
  have e2 : (V1 m ρ c (Pipeline.arrRef spec0 2) : FVec Ideal S128x128 .f32) = fusedMat bcast_S_S3x64x64 concatenates_S3x64x64_S3x64x64_S3x64x128_d2 concatenates_S3x64x128_S3x64x128_S3x128x128_d1 0 slices_S3x128x128_S1x128x128_0_0_0 shapeCasts_S1x128x128_S128x128 (argsK m c).gcW0 (argsK m c).biW0 := g0_w1_v20 m ρ c
  have e3 : (V1 m ρ c (Pipeline.arrRef spec0 3) : FVec Ideal S1x128 .f32) = fusedBias concatenates_S3x64_S3x64_S3x128_d1 0 slices_S3x128_S1x128_0_0 shapeCasts_S1x128_S128 shapeCasts_S128_S1x128 (argsK m c).gcb0 (argsK m c).bib0 := g0_w1_v23 m ρ c
  rw [e0, e1, e2, e3]
  exact newEgo_fused bcast_S_S3x64x64 concatenates_S3x64x64_S3x64x64_S3x64x128_d2 concatenates_S3x64x128_S3x64x128_S3x128x128_d1 0 (by decide) slices_S3x128x128_S1x128x128_0_0_0 shapeCasts_S1x128x128_S128x128
    concatenates_S3x64_S3x64_S3x128_d1 slices_S3x128_S1x128_0_0 shapeCasts_S1x128_S128 shapeCasts_S128_S1x128
    (agg0 (argsK m c)) (argsK m c).gcW0 (argsK m c).biW0 (argsK m c).gcb0 (argsK m c).bib0 _ _ rfl

set_option maxHeartbeats 400000 in
theorem g0_w2_v24_1 : (W2 m ρ c (Proc.devRef .tc main_v24_1) : FVec Ideal S35000x64 .f32) = normNext (agg0 (argsK m c)) (argsK m c).gcW0 (argsK m c).biW0 (argsK m c).gcb0 (argsK m c).bib0 0 (egoInit0 (argsK m c)) := by
  refine (W2_arr m ρ c 5).trans ((final0_5 (V1 m ρ) c).trans ?_)
  have e0 : (V1 m ρ c (Pipeline.arrRef spec0 0) : FVec Ideal S35000x64 .f32) = agg0 (argsK m c) (egoInit0 (argsK m c)) := g0_w1_v18 m ρ c
  have e1 : (V1 m ρ c (Pipeline.arrRef spec0 1) : FVec Ideal S35000x64 .f32) = egoInit0 (argsK m c) := g0_w1_v0 m ρ c
  have e2 : (V1 m ρ c (Pipeline.arrRef spec0 2) : FVec Ideal S128x128 .f32) = fusedMat bcast_S_S3x64x64 concatenates_S3x64x64_S3x64x64_S3x64x128_d2 concatenates_S3x64x128_S3x64x128_S3x128x128_d1 0 slices_S3x128x128_S1x128x128_0_0_0 shapeCasts_S1x128x128_S128x128 (argsK m c).gcW0 (argsK m c).biW0 := g0_w1_v20 m ρ c
  have e3 : (V1 m ρ c (Pipeline.arrRef spec0 3) : FVec Ideal S1x128 .f32) = fusedBias concatenates_S3x64_S3x64_S3x128_d1 0 slices_S3x128_S1x128_0_0 shapeCasts_S1x128_S128 shapeCasts_S128_S1x128 (argsK m c).gcb0 (argsK m c).bib0 := g0_w1_v23 m ρ c
  rw [e0, e1, e2, e3]
  exact norm_fused bcast_S_S3x64x64 concatenates_S3x64x64_S3x64x64_S3x64x128_d2 concatenates_S3x64x128_S3x64x128_S3x128x128_d1 0 (by decide) slices_S3x128x128_S1x128x128_0_0_0 shapeCasts_S1x128x128_S128x128
    concatenates_S3x64_S3x64_S3x128_d1 slices_S3x128_S1x128_0_0 shapeCasts_S1x128_S128 shapeCasts_S128_S1x128
    (agg0 (argsK m c)) (argsK m c).gcW0 (argsK m c).biW0 (argsK m c).gcb0 (argsK m c).bib0 _ _ rfl

/-! ## The host stretch before layer 1: the aggregation of the embedding layer 0 left, layer 1's cuts of the fused weights and biases -/

theorem g0_w2_v4 : (W2 m ρ c (Proc.devRef .tc main_v4) : FVec Ideal S3x128x128 .f32) = fusedStack bcast_S_S3x64x64 concatenates_S3x64x64_S3x64x64_S3x64x128_d2 concatenates_S3x64x128_S3x64x128_S3x128x128_d1 (argsK m c).gcW0 (argsK m c).biW0 :=
  calc W2 m ρ c (Proc.devRef .tc main_v4)
    _ = W1 m ρ c (Proc.devRef .tc main_v4) := W2_of_ne m ρ c main_v4 (by decide)
    _ = fusedStack bcast_S_S3x64x64 concatenates_S3x64x64_S3x64x64_S3x64x128_d2 concatenates_S3x64x128_S3x64x128_S3x128x128_d1 (argsK m c).gcW0 (argsK m c).biW0 := g0_w1_v4 m ρ c

theorem g0_w2_v5 : (W2 m ρ c (Proc.devRef .tc main_v5) : FVec Ideal S3x128 .f32) = concatenate S3x128 1 [⟨S3x64, (argsK m c).gcb0⟩, ⟨S3x64, (argsK m c).bib0⟩] concatenates_S3x64_S3x64_S3x128_d1 :=
  calc W2 m ρ c (Proc.devRef .tc main_v5)
    _ = W1 m ρ c (Proc.devRef .tc main_v5) := W2_of_ne m ρ c main_v5 (by decide)
    _ = concatenate S3x128 1 [⟨S3x64, (argsK m c).gcb0⟩, ⟨S3x64, (argsK m c).bib0⟩] concatenates_S3x64_S3x64_S3x128_d1 := g0_w1_v5 m ρ c

theorem g0_w3_v37 : (W3 m ρ c (Proc.devRef .tc main_v37) : FVec Ideal S35000x64 .f32) = agg0 (argsK m c) (ego1 (agg0 (argsK m c)) (argsK m c).gcW0 (argsK m c).biW0 (argsK m c).gcb0 (argsK m c).bib0 (egoInit0 (argsK m c))) := by
  show StableHlo.after hostOps1 (W2 m ρ c) (Proc.devRef .tc main_v37) = _
  after_results_simp
  rw [g0_W2_arg17 m ρ c, g0_W2_arg14 m ρ c, g0_W2_arg16 m ρ c, g0_w2_v24_0 m ρ c]
  rfl

theorem g0_w3_v39 : (W3 m ρ c (Proc.devRef .tc main_v39) : FVec Ideal S128x128 .f32) = fusedMat bcast_S_S3x64x64 concatenates_S3x64x64_S3x64x64_S3x64x128_d2 concatenates_S3x64x128_S3x64x128_S3x128x128_d1 1 slices_S3x128x128_S1x128x128_1_0_0 shapeCasts_S1x128x128_S128x128 (argsK m c).gcW0 (argsK m c).biW0 := by
  show StableHlo.after hostOps1 (W2 m ρ c) (Proc.devRef .tc main_v39) = _
  after_results_simp
  rw [g0_w2_v4 m ρ c]
  rfl

theorem g0_w3_v42 : (W3 m ρ c (Proc.devRef .tc main_v42) : FVec Ideal S1x128 .f32) = fusedBias concatenates_S3x64_S3x64_S3x128_d1 1 slices_S3x128_S1x128_1_0 shapeCasts_S1x128_S128 shapeCasts_S128_S1x128 (argsK m c).gcb0 (argsK m c).bib0 := by
  show StableHlo.after hostOps1 (W2 m ρ c) (Proc.devRef .tc main_v42) = _
  after_results_simp
  rw [g0_w2_v5 m ρ c]
  rfl

theorem g0_w3_v24_0 : (W3 m ρ c (Proc.devRef .tc main_v24_0) : FVec Ideal S35000x64 .f32) = ego1 (agg0 (argsK m c)) (argsK m c).gcW0 (argsK m c).biW0 (argsK m c).gcb0 (argsK m c).bib0 (egoInit0 (argsK m c)) :=
  calc W3 m ρ c (Proc.devRef .tc main_v24_0)
    _ = W2 m ρ c (Proc.devRef .tc main_v24_0) := W3_keep m ρ c main_v24_0 (by decide)
    _ = ego1 (agg0 (argsK m c)) (argsK m c).gcW0 (argsK m c).biW0 (argsK m c).gcb0 (argsK m c).bib0 (egoInit0 (argsK m c)) := g0_w2_v24_0 m ρ c

/-! ## Layer 1 -/

set_option maxHeartbeats 400000 in
theorem g0_w4_v43_0 : (W4 m ρ c (Proc.devRef .tc main_v43_0) : FVec Ideal S35000x64 .f32) = ego2 (agg0 (argsK m c)) (argsK m c).gcW0 (argsK m c).biW0 (argsK m c).gcb0 (argsK m c).bib0 (egoInit0 (argsK m c)) := by
  refine (W4_arr m ρ c 4).trans ((final1_4 (V3 m ρ) c).trans ?_)
  have e0 : (V3 m ρ c (Pipeline.arrRef spec1 0) : FVec Ideal S35000x64 .f32) = agg0 (argsK m c) (ego1 (agg0 (argsK m c)) (argsK m c).gcW0 (argsK m c).biW0 (argsK m c).gcb0 (argsK m c).bib0 (egoInit0 (argsK m c))) := g0_w3_v37 m ρ c
  have e1 : (V3 m ρ c (Pipeline.arrRef spec1 1) : FVec Ideal S35000x64 .f32) = ego1 (agg0 (argsK m c)) (argsK m c).gcW0 (argsK m c).biW0 (argsK m c).gcb0 (argsK m c).bib0 (egoInit0 (argsK m c)) := g0_w3_v24_0 m ρ c
  have e2 : (V3 m ρ c (Pipeline.arrRef spec1 2) : FVec Ideal S128x128 .f32) = fusedMat bcast_S_S3x64x64 concatenates_S3x64x64_S3x64x64_S3x64x128_d2 concatenates_S3x64x128_S3x64x128_S3x128x128_d1 1 slices_S3x128x128_S1x128x128_1_0_0 shapeCasts_S1x128x128_S128x128 (argsK m c).gcW0 (argsK m c).biW0 := g0_w3_v39 m ρ c
  have e3 : (V3 m ρ c (Pipeline.arrRef spec1 3) : FVec Ideal S1x128 .f32) = fusedBias concatenates_S3x64_S3x64_S3x128_d1 1 slices_S3x128_S1x128_1_0 shapeCasts_S1x128_S128 shapeCasts_S128_S1x128 (argsK m c).gcb0 (argsK m c).bib0 := g0_w3_v42 m ρ c
  rw [e0, e1, e2, e3]
  exact newEgo_fused bcast_S_S3x64x64 concatenates_S3x64x64_S3x64x64_S3x64x128_d2 concatenates_S3x64x128_S3x64x128_S3x128x128_d1 1 (by decide) slices_S3x128x128_S1x128x128_1_0_0 shapeCasts_S1x128x128_S128x128
    concatenates_S3x64_S3x64_S3x128_d1 slices_S3x128_S1x128_1_0 shapeCasts_S1x128_S128 shapeCasts_S128_S1x128
    (agg0 (argsK m c)) (argsK m c).gcW0 (argsK m c).biW0 (argsK m c).gcb0 (argsK m c).bib0 _ _ rfl

set_option maxHeartbeats 400000 in
theorem g0_w4_v43_1 : (W4 m ρ c (Proc.devRef .tc main_v43_1) : FVec Ideal S35000x64 .f32) = normNext (agg0 (argsK m c)) (argsK m c).gcW0 (argsK m c).biW0 (argsK m c).gcb0 (argsK m c).bib0 1 (ego1 (agg0 (argsK m c)) (argsK m c).gcW0 (argsK m c).biW0 (argsK m c).gcb0 (argsK m c).bib0 (egoInit0 (argsK m c))) := by
  refine (W4_arr m ρ c 5).trans ((final1_5 (V3 m ρ) c).trans ?_)
  have e0 : (V3 m ρ c (Pipeline.arrRef spec1 0) : FVec Ideal S35000x64 .f32) = agg0 (argsK m c) (ego1 (agg0 (argsK m c)) (argsK m c).gcW0 (argsK m c).biW0 (argsK m c).gcb0 (argsK m c).bib0 (egoInit0 (argsK m c))) := g0_w3_v37 m ρ c
  have e1 : (V3 m ρ c (Pipeline.arrRef spec1 1) : FVec Ideal S35000x64 .f32) = ego1 (agg0 (argsK m c)) (argsK m c).gcW0 (argsK m c).biW0 (argsK m c).gcb0 (argsK m c).bib0 (egoInit0 (argsK m c)) := g0_w3_v24_0 m ρ c
  have e2 : (V3 m ρ c (Pipeline.arrRef spec1 2) : FVec Ideal S128x128 .f32) = fusedMat bcast_S_S3x64x64 concatenates_S3x64x64_S3x64x64_S3x64x128_d2 concatenates_S3x64x128_S3x64x128_S3x128x128_d1 1 slices_S3x128x128_S1x128x128_1_0_0 shapeCasts_S1x128x128_S128x128 (argsK m c).gcW0 (argsK m c).biW0 := g0_w3_v39 m ρ c
  have e3 : (V3 m ρ c (Pipeline.arrRef spec1 3) : FVec Ideal S1x128 .f32) = fusedBias concatenates_S3x64_S3x64_S3x128_d1 1 slices_S3x128_S1x128_1_0 shapeCasts_S1x128_S128 shapeCasts_S128_S1x128 (argsK m c).gcb0 (argsK m c).bib0 := g0_w3_v42 m ρ c
  rw [e0, e1, e2, e3]
  exact norm_fused bcast_S_S3x64x64 concatenates_S3x64x64_S3x64x64_S3x64x128_d2 concatenates_S3x64x128_S3x64x128_S3x128x128_d1 1 (by decide) slices_S3x128x128_S1x128x128_1_0_0 shapeCasts_S1x128x128_S128x128
    concatenates_S3x64_S3x64_S3x128_d1 slices_S3x128_S1x128_1_0 shapeCasts_S1x128_S128 shapeCasts_S128_S1x128
    (agg0 (argsK m c)) (argsK m c).gcW0 (argsK m c).biW0 (argsK m c).gcb0 (argsK m c).bib0 _ _ rfl

/-! ## The host stretch before layer 2: the aggregation of the embedding layer 1 left, layer 2's cuts of the fused weights and biases -/

theorem g0_w4_v4 : (W4 m ρ c (Proc.devRef .tc main_v4) : FVec Ideal S3x128x128 .f32) = fusedStack bcast_S_S3x64x64 concatenates_S3x64x64_S3x64x64_S3x64x128_d2 concatenates_S3x64x128_S3x64x128_S3x128x128_d1 (argsK m c).gcW0 (argsK m c).biW0 :=
  calc W4 m ρ c (Proc.devRef .tc main_v4)
    _ = W3 m ρ c (Proc.devRef .tc main_v4) := W4_of_ne m ρ c main_v4 (by decide)
    _ = W2 m ρ c (Proc.devRef .tc main_v4) := W3_keep m ρ c main_v4 (by decide)
    _ = W1 m ρ c (Proc.devRef .tc main_v4) := W2_of_ne m ρ c main_v4 (by decide)
    _ = fusedStack bcast_S_S3x64x64 concatenates_S3x64x64_S3x64x64_S3x64x128_d2 concatenates_S3x64x128_S3x64x128_S3x128x128_d1 (argsK m c).gcW0 (argsK m c).biW0 := g0_w1_v4 m ρ c

theorem g0_w4_v5 : (W4 m ρ c (Proc.devRef .tc main_v5) : FVec Ideal S3x128 .f32) = concatenate S3x128 1 [⟨S3x64, (argsK m c).gcb0⟩, ⟨S3x64, (argsK m c).bib0⟩] concatenates_S3x64_S3x64_S3x128_d1 :=
  calc W4 m ρ c (Proc.devRef .tc main_v5)
    _ = W3 m ρ c (Proc.devRef .tc main_v5) := W4_of_ne m ρ c main_v5 (by decide)
    _ = W2 m ρ c (Proc.devRef .tc main_v5) := W3_keep m ρ c main_v5 (by decide)
    _ = W1 m ρ c (Proc.devRef .tc main_v5) := W2_of_ne m ρ c main_v5 (by decide)
    _ = concatenate S3x128 1 [⟨S3x64, (argsK m c).gcb0⟩, ⟨S3x64, (argsK m c).bib0⟩] concatenates_S3x64_S3x64_S3x128_d1 := g0_w1_v5 m ρ c

theorem g0_w5_v56 : (W5 m ρ c (Proc.devRef .tc main_v56) : FVec Ideal S35000x64 .f32) = agg0 (argsK m c) (ego2 (agg0 (argsK m c)) (argsK m c).gcW0 (argsK m c).biW0 (argsK m c).gcb0 (argsK m c).bib0 (egoInit0 (argsK m c))) := by
  show StableHlo.after hostOps2 (W4 m ρ c) (Proc.devRef .tc main_v56) = _
  after_results_simp
  rw [g0_W4_arg17 m ρ c, g0_W4_arg14 m ρ c, g0_W4_arg16 m ρ c, g0_w4_v43_0 m ρ c]
  rfl

theorem g0_w5_v58 : (W5 m ρ c (Proc.devRef .tc main_v58) : FVec Ideal S128x128 .f32) = fusedMat bcast_S_S3x64x64 concatenates_S3x64x64_S3x64x64_S3x64x128_d2 concatenates_S3x64x128_S3x64x128_S3x128x128_d1 2 slices_S3x128x128_S1x128x128_2_0_0 shapeCasts_S1x128x128_S128x128 (argsK m c).gcW0 (argsK m c).biW0 := by
  show StableHlo.after hostOps2 (W4 m ρ c) (Proc.devRef .tc main_v58) = _
  after_results_simp
  rw [g0_w4_v4 m ρ c]
  rfl

theorem g0_w5_v61 : (W5 m ρ c (Proc.devRef .tc main_v61) : FVec Ideal S1x128 .f32) = fusedBias concatenates_S3x64_S3x64_S3x128_d1 2 slices_S3x128_S1x128_2_0 shapeCasts_S1x128_S128 shapeCasts_S128_S1x128 (argsK m c).gcb0 (argsK m c).bib0 := by
  show StableHlo.after hostOps2 (W4 m ρ c) (Proc.devRef .tc main_v61) = _
  after_results_simp
  rw [g0_w4_v5 m ρ c]
  rfl

theorem g0_w5_v43_0 : (W5 m ρ c (Proc.devRef .tc main_v43_0) : FVec Ideal S35000x64 .f32) = ego2 (agg0 (argsK m c)) (argsK m c).gcW0 (argsK m c).biW0 (argsK m c).gcb0 (argsK m c).bib0 (egoInit0 (argsK m c)) :=
  calc W5 m ρ c (Proc.devRef .tc main_v43_0)
    _ = W4 m ρ c (Proc.devRef .tc main_v43_0) := W5_keep m ρ c main_v43_0 (by decide)
    _ = ego2 (agg0 (argsK m c)) (argsK m c).gcW0 (argsK m c).biW0 (argsK m c).gcb0 (argsK m c).bib0 (egoInit0 (argsK m c)) := g0_w4_v43_0 m ρ c

/-! ## Layer 2 -/

set_option maxHeartbeats 400000 in
theorem g0_w6_v62_1 : (W6 m ρ c (Proc.devRef .tc main_v62_1) : FVec Ideal S35000x64 .f32) = normNext (agg0 (argsK m c)) (argsK m c).gcW0 (argsK m c).biW0 (argsK m c).gcb0 (argsK m c).bib0 2 (ego2 (agg0 (argsK m c)) (argsK m c).gcW0 (argsK m c).biW0 (argsK m c).gcb0 (argsK m c).bib0 (egoInit0 (argsK m c))) := by
  refine (W6_arr m ρ c 5).trans ((final2_5 (V5 m ρ) c).trans ?_)
  have e0 : (V5 m ρ c (Pipeline.arrRef spec2 0) : FVec Ideal S35000x64 .f32) = agg0 (argsK m c) (ego2 (agg0 (argsK m c)) (argsK m c).gcW0 (argsK m c).biW0 (argsK m c).gcb0 (argsK m c).bib0 (egoInit0 (argsK m c))) := g0_w5_v56 m ρ c
  have e1 : (V5 m ρ c (Pipeline.arrRef spec2 1) : FVec Ideal S35000x64 .f32) = ego2 (agg0 (argsK m c)) (argsK m c).gcW0 (argsK m c).biW0 (argsK m c).gcb0 (argsK m c).bib0 (egoInit0 (argsK m c)) := g0_w5_v43_0 m ρ c
  have e2 : (V5 m ρ c (Pipeline.arrRef spec2 2) : FVec Ideal S128x128 .f32) = fusedMat bcast_S_S3x64x64 concatenates_S3x64x64_S3x64x64_S3x64x128_d2 concatenates_S3x64x128_S3x64x128_S3x128x128_d1 2 slices_S3x128x128_S1x128x128_2_0_0 shapeCasts_S1x128x128_S128x128 (argsK m c).gcW0 (argsK m c).biW0 := g0_w5_v58 m ρ c
  have e3 : (V5 m ρ c (Pipeline.arrRef spec2 3) : FVec Ideal S1x128 .f32) = fusedBias concatenates_S3x64_S3x64_S3x128_d1 2 slices_S3x128_S1x128_2_0 shapeCasts_S1x128_S128 shapeCasts_S128_S1x128 (argsK m c).gcb0 (argsK m c).bib0 := g0_w5_v61 m ρ c
  rw [e0, e1, e2, e3]
  exact norm_fused bcast_S_S3x64x64 concatenates_S3x64x64_S3x64x64_S3x64x128_d2 concatenates_S3x64x128_S3x64x128_S3x128x128_d1 2 (by decide) slices_S3x128x128_S1x128x128_2_0_0 shapeCasts_S1x128x128_S128x128
    concatenates_S3x64_S3x64_S3x128_d1 slices_S3x128_S1x128_2_0 shapeCasts_S1x128_S128 shapeCasts_S128_S1x128
    (agg0 (argsK m c)) (argsK m c).gcW0 (argsK m c).biW0 (argsK m c).gcb0 (argsK m c).bib0 _ _ rfl

/-! ## After layer 2: the initial embedding and the three layers' outputs, carried to the boundary where they are laid side by side -/

theorem g0_w6_v0 : (W6 m ρ c (Proc.devRef .tc main_v0) : FVec Ideal S35000x64 .f32) = egoInit0 (argsK m c) :=
  calc W6 m ρ c (Proc.devRef .tc main_v0)
    _ = W5 m ρ c (Proc.devRef .tc main_v0) := W6_of_ne m ρ c main_v0 (by decide)
    _ = W4 m ρ c (Proc.devRef .tc main_v0) := W5_keep m ρ c main_v0 (by decide)
    _ = W3 m ρ c (Proc.devRef .tc main_v0) := W4_of_ne m ρ c main_v0 (by decide)
    _ = W2 m ρ c (Proc.devRef .tc main_v0) := W3_keep m ρ c main_v0 (by decide)
    _ = W1 m ρ c (Proc.devRef .tc main_v0) := (W2_arr m ρ c 1).trans (((dat0 (V1 m ρ) c).arrAt_in 1 rfl _).trans (A_eq0 (V1 m ρ) c 1))
    _ = egoInit0 (argsK m c) := g0_w1_v0 m ρ c

theorem g0_w6_v24_1 : (W6 m ρ c (Proc.devRef .tc main_v24_1) : FVec Ideal S35000x64 .f32) = normNext (agg0 (argsK m c)) (argsK m c).gcW0 (argsK m c).biW0 (argsK m c).gcb0 (argsK m c).bib0 0 (egoInit0 (argsK m c)) :=
  calc W6 m ρ c (Proc.devRef .tc main_v24_1)
    _ = W5 m ρ c (Proc.devRef .tc main_v24_1) := W6_of_ne m ρ c main_v24_1 (by decide)
    _ = W4 m ρ c (Proc.devRef .tc main_v24_1) := W5_keep m ρ c main_v24_1 (by decide)
    _ = W3 m ρ c (Proc.devRef .tc main_v24_1) := W4_of_ne m ρ c main_v24_1 (by decide)
    _ = W2 m ρ c (Proc.devRef .tc main_v24_1) := W3_keep m ρ c main_v24_1 (by decide)
    _ = normNext (agg0 (argsK m c)) (argsK m c).gcW0 (argsK m c).biW0 (argsK m c).gcb0 (argsK m c).bib0 0 (egoInit0 (argsK m c)) := g0_w2_v24_1 m ρ c

theorem g0_w6_v43_1 : (W6 m ρ c (Proc.devRef .tc main_v43_1) : FVec Ideal S35000x64 .f32) = normNext (agg0 (argsK m c)) (argsK m c).gcW0 (argsK m c).biW0 (argsK m c).gcb0 (argsK m c).bib0 1 (ego1 (agg0 (argsK m c)) (argsK m c).gcW0 (argsK m c).biW0 (argsK m c).gcb0 (argsK m c).bib0 (egoInit0 (argsK m c))) :=
  calc W6 m ρ c (Proc.devRef .tc main_v43_1)
    _ = W5 m ρ c (Proc.devRef .tc main_v43_1) := W6_of_ne m ρ c main_v43_1 (by decide)
    _ = W4 m ρ c (Proc.devRef .tc main_v43_1) := W5_keep m ρ c main_v43_1 (by decide)
    _ = normNext (agg0 (argsK m c)) (argsK m c).gcW0 (argsK m c).biW0 (argsK m c).gcb0 (argsK m c).bib0 1 (ego1 (agg0 (argsK m c)) (argsK m c).gcW0 (argsK m c).biW0 (argsK m c).gcb0 (argsK m c).bib0 (egoInit0 (argsK m c))) := g0_w4_v43_1 m ρ c

/-! ## The four embeddings side by side, and the two cuts -/

theorem g0_w7_v63 : (W7 m ρ c (Proc.devRef .tc main_v63) : FVec Ideal S35000x256 .f32) = emb0 (argsK m c) := by
  show StableHlo.after hostOps3 (W6 m ρ c) (Proc.devRef .tc main_v63) = _
  after_results
  show (concatenate S35000x256 1 [⟨S35000x64, (W6 m ρ c (Proc.devRef .tc main_v0) : FVec Ideal S35000x64 .f32)⟩, ⟨S35000x64, (W6 m ρ c (Proc.devRef .tc main_v24_1) : FVec Ideal S35000x64 .f32)⟩, ⟨S35000x64, (W6 m ρ c (Proc.devRef .tc main_v43_1) : FVec Ideal S35000x64 .f32)⟩, ⟨S35000x64, (W6 m ρ c (Proc.devRef .tc main_v62_1) : FVec Ideal S35000x64 .f32)⟩] concatenates_S35000x64_S35000x64_S35000x64_S35000x64_S35000x256_d1 : FVec Ideal S35000x256 .f32) = _
  rw [g0_w6_v0 m ρ c, g0_w6_v24_1 m ρ c, g0_w6_v43_1 m ρ c, g0_w6_v62_1 m ρ c]
  rfl

/-- The user rows of graph 0's four embeddings. -/
theorem K_u0 : W7 (F := Ideal) m ρ c (Proc.devRef .tc main_v64) = extractStridedSlice S20000x256 ![0, 0] (emb0 (argsK m c)) slices_S35000x256_S20000x256_0_0 := by
  show StableHlo.after hostOps3 (W6 m ρ c) (Proc.devRef .tc main_v64) = _
  after_results
  show (extractStridedSlice S20000x256 ![0, 0] (concatenate S35000x256 1 [⟨S35000x64, (W6 m ρ c (Proc.devRef .tc main_v0) : FVec Ideal S35000x64 .f32)⟩, ⟨S35000x64, (W6 m ρ c (Proc.devRef .tc main_v24_1) : FVec Ideal S35000x64 .f32)⟩, ⟨S35000x64, (W6 m ρ c (Proc.devRef .tc main_v43_1) : FVec Ideal S35000x64 .f32)⟩, ⟨S35000x64, (W6 m ρ c (Proc.devRef .tc main_v62_1) : FVec Ideal S35000x64 .f32)⟩] concatenates_S35000x64_S35000x64_S35000x64_S35000x64_S35000x256_d1 : FVec Ideal S35000x256 .f32) slices_S35000x256_S20000x256_0_0 : FVec Ideal S20000x256 .f32) = _
  rw [g0_w6_v0 m ρ c, g0_w6_v24_1 m ρ c, g0_w6_v43_1 m ρ c, g0_w6_v62_1 m ρ c]
  rfl

/-- The item rows of graph 0's four embeddings. -/
theorem K_i0 : W7 (F := Ideal) m ρ c (Proc.devRef .tc main_v65) = extractStridedSlice S15000x256 ![20000, 0] (emb0 (argsK m c)) slices_S35000x256_S15000x256_20000_0 := by
  show StableHlo.after hostOps3 (W6 m ρ c) (Proc.devRef .tc main_v65) = _
  after_results
  show (extractStridedSlice S15000x256 ![20000, 0] (concatenate S35000x256 1 [⟨S35000x64, (W6 m ρ c (Proc.devRef .tc main_v0) : FVec Ideal S35000x64 .f32)⟩, ⟨S35000x64, (W6 m ρ c (Proc.devRef .tc main_v24_1) : FVec Ideal S35000x64 .f32)⟩, ⟨S35000x64, (W6 m ρ c (Proc.devRef .tc main_v43_1) : FVec Ideal S35000x64 .f32)⟩, ⟨S35000x64, (W6 m ρ c (Proc.devRef .tc main_v62_1) : FVec Ideal S35000x64 .f32)⟩] concatenates_S35000x64_S35000x64_S35000x64_S35000x64_S35000x256_d1 : FVec Ideal S35000x256 .f32) slices_S35000x256_S15000x256_20000_0 : FVec Ideal S15000x256 .f32) = _
  rw [g0_w6_v0 m ρ c, g0_w6_v24_1 m ρ c, g0_w6_v43_1 m ρ c, g0_w6_v62_1 m ρ c]
  rfl

end Cert.KernelIdeal.KF

end
-- ==== Proof.KiFinal3.lean ====
/- Region 3, from blocks to arrays, on the extended reals: after the last grid point each of the layer kernel's
   two output arrays is, entry by entry, the layer's new embedding (window 4) and its row-normalised form
   (window 5) of the arrays the region was entered with. A row tile's entries depend on the tile's rows of the
   operands only, the tiles partition the rows, and every tile is written back. -/
import proofs.«120809_j78615081386430_2_alg».proof.Proof.KiBody3
import proofs.«120809_j78615081386430_2_alg».proof.Proof.LayerPay
import Idealize.ShloMosaic.Lib.Pipeline.Value

set_option maxRecDepth 16384

noncomputable section

namespace Cert.KernelIdeal.KF

open Cert.KernelIdeal Cert.KernelIdeal.Gen Cert.Ngcf
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff3 : (![0, 0] : Fin 2 → Nat) = fun _ => 0 := funext fun a => by fin_cases a <;> rfl

/-- The block index of each window at each grid point: the row-tiled windows sit at block `(t, 0)`, the weight and
    the bias at block `(0, 0)`. -/
theorem tileIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

theorem tileLt3 (t : Fin cfg3.N) : t.val < 7 := lt_of_lt_of_eq t.isLt N_3

/-- The new embedding of the whole array, entry by entry. -/
abbrev newEgoArr3 (c : Dev nD) : S7000x64.Idx → EReal :=
  fun i => newEgoAt (R := 7000) (V c (Pipeline.arrRef spec3 0)) (V c (Pipeline.arrRef spec3 1)) (V c (Pipeline.arrRef spec3 2)) (V c (Pipeline.arrRef spec3 3)) (i 0) (i 1)

/-- The normalised embedding of the whole array, entry by entry. -/
abbrev normArr3 (c : Dev nD) : S7000x64.Idx → EReal :=
  fun i => normAt (R := 7000) (V c (Pipeline.arrRef spec3 0)) (V c (Pipeline.arrRef spec3 1)) (V c (Pipeline.arrRef spec3 2)) (V c (Pipeline.arrRef spec3 3)) (i 0) (i 1)

/-- Row `p` of tile `t` of a row-tiled input window is row `t · 1000 + p` of its array. -/
theorem sideRow3 (c : Dev nD) (t : Fin cfg3.N) (p : Fin 1000) (h : t.val * 1000 + p.val < 7000) (k : Fin 64) :
    iblk3 V c 0 t (ix2 p k) = V c (Pipeline.arrRef spec3 0) (ix2 (⟨t.val * 1000 + p.val, h⟩ : Fin 7000) k) := by
  obtain ⟨a0, a1, -⟩ := tileIdx3 t
  show V c (Pipeline.arrRef spec3 0) (((cfg3.win 0).blk t).view.emb (ix2 p k)) = _
  refine congrArg _ (funext fun a => Fin.ext ?_)
  match a with
  | ⟨0, _⟩ => show win3_0.index t (0 : Fin 2) * 1000 + 1 * p.val = t.val * 1000 + p.val; omega
  | ⟨1, _⟩ => show win3_0.index t (1 : Fin 2) * 64 + 1 * k.val = k.val; omega

theorem egoRow3 (c : Dev nD) (t : Fin cfg3.N) (p : Fin 1000) (h : t.val * 1000 + p.val < 7000) (k : Fin 64) :
    iblk3 V c 1 t (ix2 p k) = V c (Pipeline.arrRef spec3 1) (ix2 (⟨t.val * 1000 + p.val, h⟩ : Fin 7000) k) := by
  obtain ⟨-, -, b0, b1, -⟩ := tileIdx3 t
  show V c (Pipeline.arrRef spec3 1) (((cfg3.win 1).blk t).view.emb (ix2 p k)) = _
  refine congrArg _ (funext fun a => Fin.ext ?_)
  match a with
  | ⟨0, _⟩ => show win3_1.index t (0 : Fin 2) * 1000 + 1 * p.val = t.val * 1000 + p.val; omega
  | ⟨1, _⟩ => show win3_1.index t (1 : Fin 2) * 64 + 1 * k.val = k.val; omega

/-- The weight's and the bias's one block is the whole array. -/
theorem weightAll3 (c : Dev nD) (t : Fin cfg3.N) (i : S128x128.Idx) :
    iblk3 V c 2 t i = V c (Pipeline.arrRef spec3 2) i := by
  obtain ⟨-, -, -, -, w0, w1, -⟩ := tileIdx3 t
  show V c (Pipeline.arrRef spec3 2) (((cfg3.win 2).blk t).view.emb i) = _
  refine congrArg _ (funext fun a => Fin.ext ?_)
  match a with
  | ⟨0, _⟩ => show win3_2.index t (0 : Fin 2) * 128 + 1 * (i 0).val = (i 0).val; omega
  | ⟨1, _⟩ => show win3_2.index t (1 : Fin 2) * 128 + 1 * (i 1).val = (i 1).val; omega

theorem biasAll3 (c : Dev nD) (t : Fin cfg3.N) (i : S1x128.Idx) :
    iblk3 V c 3 t i = V c (Pipeline.arrRef spec3 3) i := by
  obtain ⟨-, -, -, -, -, -, s0, s1, -⟩ := tileIdx3 t
  show V c (Pipeline.arrRef spec3 3) (((cfg3.win 3).blk t).view.emb i) = _
  refine congrArg _ (funext fun a => Fin.ext ?_)
  match a with
  | ⟨0, _⟩ => show win3_3.index t (0 : Fin 2) * 1 + 1 * (i 0).val = (i 0).val; omega
  | ⟨1, _⟩ => show win3_3.index t (1 : Fin 2) * 128 + 1 * (i 1).val = (i 1).val; omega

/-- Entry `(p, q)` of tile `t` of output window 4 sits at row `t · 1000 + p`, lane `q` of its array. -/
theorem outRow3_4 (t : Fin cfg3.N) (p : Fin 1000) (h : t.val * 1000 + p.val < 7000) (q : Fin 64) :
    ((cfg3.win 4).blk t).view.emb (ix2 p q) = ix2 (⟨t.val * 1000 + p.val, h⟩ : Fin 7000) q := by
  obtain ⟨-, -, -, -, -, -, -, -, o0, o1, n0, n1⟩ := tileIdx3 t
  refine funext fun a => Fin.ext ?_
  match a with
  | ⟨0, _⟩ => show win3_4.index t (0 : Fin 2) * 1000 + 1 * p.val = t.val * 1000 + p.val; omega
  | ⟨1, _⟩ => show win3_4.index t (1 : Fin 2) * 64 + 1 * q.val = q.val; omega

/-- What grid point `t` writes back to output window 4 is tile `t` of the whole-array function. -/
theorem flushed3_4_eq (c : Dev nD) (t : Fin cfg3.N) :
    (dat3 (F := Ideal) V c).flushed 4 t = ((cfg3.win 4).blk t).view.read (Elt Ideal) (newEgoArr3 V c) := by
  show (cfg3.win 4).cut (grid3.coords t) ((dat3 V c).after 4 t) = _
  rw [after3_4]
  unfold out3_4
  rw [View.canon_unit_zero zeroOff3]
  simp only [View.ld_unit_zero (S := S1000x64) zeroOff3, View.ld_unit_zero (S := S128x128) zeroOff3, View.ld_unit_zero (S := S1x128) zeroOff3]
  funext j
  obtain ⟨p, q, rfl⟩ : ∃ p q, j = ix2 p q := ⟨j 0, j 1, eq_ix2 j⟩
  have hrow : t.val * 1000 + p.val < 7000 := by have := tileLt3 t; have := p.isLt; omega
  show k3_pay1 (F := Ideal) (iblk3 V c 0 t) (iblk3 V c 1 t) (iblk3 V c 2 t) (iblk3 V c 3 t) (ix2 p q)
      = newEgoArr3 V c (((cfg3.win 4).blk t).view.emb (ix2 p q))
  rw [KV.k3_pay1_apply, outRow3_4 t p hrow q]
  exact newEgoAt_congr _ _ _ _ _ _ _ _ p ⟨t.val * 1000 + p.val, hrow⟩ (sideRow3 V c t p hrow) (egoRow3 V c t p hrow)
    (weightAll3 V c t) (biasAll3 V c t) q

/-- An index of the array lies in tile `t` of output window 4 iff each coordinate lies in the tile's range. -/
theorem mem_tile3_4 (t : Fin cfg3.N) (i : S7000x64.Idx) :
    i ∈ ((cfg3.win 4).blk t).view.set ↔ ∀ a : Fin 2, win3_4.index t a * S1000x64.size a ≤ (i a).val ∧ (i a).val < win3_4.index t a * S1000x64.size a + S1000x64.size a := by
  show i ∈ ((View.whole main_v90_0).slice (win3_4.rect t)).set ↔ _
  rw [View.set_slice_whole, Rect.mem_set_unit]
  exact Iff.rfl

/-- Every index of the array lies in the tile of its row's quotient by 1000, which is written back. -/
theorem tiles3_4 (i : S7000x64.Idx) :
    ∃ t : Fin cfg3.N, (cfg3.win 4).flush t = true ∧ i ∈ ((cfg3.win 4).blk t).view.set := by
  have hi0 : (i 0).val < 7000 := (i 0).isLt
  have hi1 : (i 1).val < 64 := (i 1).isLt
  obtain ⟨t, ht⟩ : ∃ t : Fin cfg3.N, t.val = (i 0).val / 1000 :=
    ⟨⟨(i 0).val / 1000, lt_of_lt_of_eq (by omega : (i 0).val / 1000 < 7) N_3.symm⟩, rfl⟩
  obtain ⟨-, -, -, -, -, -, -, -, o0, o1, n0, n1⟩ := tileIdx3 t
  refine ⟨t, flush3_4 t, ?_⟩
  rw [mem_tile3_4]
  intro a
  match a with
  | ⟨0, _⟩ => show win3_4.index t (0 : Fin 2) * 1000 ≤ (i 0).val ∧ (i 0).val < win3_4.index t (0 : Fin 2) * 1000 + 1000; omega
  | ⟨1, _⟩ => show win3_4.index t (1 : Fin 2) * 64 ≤ (i 1).val ∧ (i 1).val < win3_4.index t (1 : Fin 2) * 64 + 64; omega

/-- The array of output window 4 after the last grid point. -/
theorem final3_4 (c : Dev nD) : (dat3 (F := Ideal) V c).arrAt 4 cfg3.N
    = fun i => newEgoAt (R := 7000) (V c (Pipeline.arrRef spec3 0)) (V c (Pipeline.arrRef spec3 1)) (V c (Pipeline.arrRef spec3 2)) (V c (Pipeline.arrRef spec3 3)) (i 0) (i 1) :=
  (dat3 (F := Ideal) V c).arrAt_eq_of_cover 4 (newEgoArr3 V c) (fun t _ => flushed3_4_eq V c t) (tiles3_4)

/-- Entry `(p, q)` of tile `t` of output window 5 sits at row `t · 1000 + p`, lane `q` of its array. -/
theorem outRow3_5 (t : Fin cfg3.N) (p : Fin 1000) (h : t.val * 1000 + p.val < 7000) (q : Fin 64) :
    ((cfg3.win 5).blk t).view.emb (ix2 p q) = ix2 (⟨t.val * 1000 + p.val, h⟩ : Fin 7000) q := by
  obtain ⟨-, -, -, -, -, -, -, -, o0, o1, n0, n1⟩ := tileIdx3 t
  refine funext fun a => Fin.ext ?_
  match a with
  | ⟨0, _⟩ => show win3_5.index t (0 : Fin 2) * 1000 + 1 * p.val = t.val * 1000 + p.val; omega
  | ⟨1, _⟩ => show win3_5.index t (1 : Fin 2) * 64 + 1 * q.val = q.val; omega

/-- What grid point `t` writes back to output window 5 is tile `t` of the whole-array function. -/
theorem flushed3_5_eq (c : Dev nD) (t : Fin cfg3.N) :
    (dat3 (F := Ideal) V c).flushed 5 t = ((cfg3.win 5).blk t).view.read (Elt Ideal) (normArr3 V c) := by
  show (cfg3.win 5).cut (grid3.coords t) ((dat3 V c).after 5 t) = _
  rw [after3_5]
  unfold out3_5
  rw [View.canon_unit_zero zeroOff3]
  simp only [View.ld_unit_zero (S := S1000x64) zeroOff3, View.ld_unit_zero (S := S128x128) zeroOff3, View.ld_unit_zero (S := S1x128) zeroOff3]
  funext j
  obtain ⟨p, q, rfl⟩ : ∃ p q, j = ix2 p q := ⟨j 0, j 1, eq_ix2 j⟩
  have hrow : t.val * 1000 + p.val < 7000 := by have := tileLt3 t; have := p.isLt; omega
  show k3_pay2 (F := Ideal) (iblk3 V c 0 t) (iblk3 V c 1 t) (iblk3 V c 2 t) (iblk3 V c 3 t) (ix2 p q)
      = normArr3 V c (((cfg3.win 5).blk t).view.emb (ix2 p q))
  rw [KV.k3_pay2_apply, outRow3_5 t p hrow q]
  exact normAt_congr _ _ _ _ _ _ _ _ p ⟨t.val * 1000 + p.val, hrow⟩ (sideRow3 V c t p hrow) (egoRow3 V c t p hrow)
    (weightAll3 V c t) (biasAll3 V c t) q

/-- An index of the array lies in tile `t` of output window 5 iff each coordinate lies in the tile's range. -/
theorem mem_tile3_5 (t : Fin cfg3.N) (i : S7000x64.Idx) :
    i ∈ ((cfg3.win 5).blk t).view.set ↔ ∀ a : Fin 2, win3_5.index t a * S1000x64.size a ≤ (i a).val ∧ (i a).val < win3_5.index t a * S1000x64.size a + S1000x64.size a := by
  show i ∈ ((View.whole main_v90_1).slice (win3_5.rect t)).set ↔ _
  rw [View.set_slice_whole, Rect.mem_set_unit]
  exact Iff.rfl

/-- Every index of the array lies in the tile of its row's quotient by 1000, which is written back. -/
theorem tiles3_5 (i : S7000x64.Idx) :
    ∃ t : Fin cfg3.N, (cfg3.win 5).flush t = true ∧ i ∈ ((cfg3.win 5).blk t).view.set := by
  have hi0 : (i 0).val < 7000 := (i 0).isLt
  have hi1 : (i 1).val < 64 := (i 1).isLt
  obtain ⟨t, ht⟩ : ∃ t : Fin cfg3.N, t.val = (i 0).val / 1000 :=
    ⟨⟨(i 0).val / 1000, lt_of_lt_of_eq (by omega : (i 0).val / 1000 < 7) N_3.symm⟩, rfl⟩
  obtain ⟨-, -, -, -, -, -, -, -, o0, o1, n0, n1⟩ := tileIdx3 t
  refine ⟨t, flush3_5 t, ?_⟩
  rw [mem_tile3_5]
  intro a
  match a with
  | ⟨0, _⟩ => show win3_5.index t (0 : Fin 2) * 1000 ≤ (i 0).val ∧ (i 0).val < win3_5.index t (0 : Fin 2) * 1000 + 1000; omega
  | ⟨1, _⟩ => show win3_5.index t (1 : Fin 2) * 64 ≤ (i 1).val ∧ (i 1).val < win3_5.index t (1 : Fin 2) * 64 + 64; omega

/-- The array of output window 5 after the last grid point. -/
theorem final3_5 (c : Dev nD) : (dat3 (F := Ideal) V c).arrAt 5 cfg3.N
    = fun i => normAt (R := 7000) (V c (Pipeline.arrRef spec3 0)) (V c (Pipeline.arrRef spec3 1)) (V c (Pipeline.arrRef spec3 2)) (V c (Pipeline.arrRef spec3 3)) (i 0) (i 1) :=
  (dat3 (F := Ideal) V c).arrAt_eq_of_cover 5 (normArr3 V c) (fun t _ => flushed3_5_eq V c t) (tiles3_5)

end Cert.KernelIdeal.KF

end
-- ==== Proof.KiFinal4.lean ====
/- Region 4, from blocks to arrays, on the extended reals: after the last grid point each of the layer kernel's
   two output arrays is, entry by entry, the layer's new embedding (window 4) and its row-normalised form
   (window 5) of the arrays the region was entered with. A row tile's entries depend on the tile's rows of the
   operands only, the tiles partition the rows, and every tile is written back. -/
import proofs.«120809_j78615081386430_2_alg».proof.Proof.KiBody4
import proofs.«120809_j78615081386430_2_alg».proof.Proof.LayerPay
import Idealize.ShloMosaic.Lib.Pipeline.Value

set_option maxRecDepth 16384

noncomputable section

namespace Cert.KernelIdeal.KF

open Cert.KernelIdeal Cert.KernelIdeal.Gen Cert.Ngcf
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff4 : (![0, 0] : Fin 2 → Nat) = fun _ => 0 := funext fun a => by fin_cases a <;> rfl

/-- The block index of each window at each grid point: the row-tiled windows sit at block `(t, 0)`, the weight and
    the bias at block `(0, 0)`. -/
theorem tileIdx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

theorem tileLt4 (t : Fin cfg4.N) : t.val < 7 := lt_of_lt_of_eq t.isLt N_4

/-- The new embedding of the whole array, entry by entry. -/
abbrev newEgoArr4 (c : Dev nD) : S7000x64.Idx → EReal :=
  fun i => newEgoAt (R := 7000) (V c (Pipeline.arrRef spec4 0)) (V c (Pipeline.arrRef spec4 1)) (V c (Pipeline.arrRef spec4 2)) (V c (Pipeline.arrRef spec4 3)) (i 0) (i 1)

/-- The normalised embedding of the whole array, entry by entry. -/
abbrev normArr4 (c : Dev nD) : S7000x64.Idx → EReal :=
  fun i => normAt (R := 7000) (V c (Pipeline.arrRef spec4 0)) (V c (Pipeline.arrRef spec4 1)) (V c (Pipeline.arrRef spec4 2)) (V c (Pipeline.arrRef spec4 3)) (i 0) (i 1)

/-- Row `p` of tile `t` of a row-tiled input window is row `t · 1000 + p` of its array. -/
theorem sideRow4 (c : Dev nD) (t : Fin cfg4.N) (p : Fin 1000) (h : t.val * 1000 + p.val < 7000) (k : Fin 64) :
    iblk4 V c 0 t (ix2 p k) = V c (Pipeline.arrRef spec4 0) (ix2 (⟨t.val * 1000 + p.val, h⟩ : Fin 7000) k) := by
  obtain ⟨a0, a1, -⟩ := tileIdx4 t
  show V c (Pipeline.arrRef spec4 0) (((cfg4.win 0).blk t).view.emb (ix2 p k)) = _
  refine congrArg _ (funext fun a => Fin.ext ?_)
  match a with
  | ⟨0, _⟩ => show win4_0.index t (0 : Fin 2) * 1000 + 1 * p.val = t.val * 1000 + p.val; omega
  | ⟨1, _⟩ => show win4_0.index t (1 : Fin 2) * 64 + 1 * k.val = k.val; omega

theorem egoRow4 (c : Dev nD) (t : Fin cfg4.N) (p : Fin 1000) (h : t.val * 1000 + p.val < 7000) (k : Fin 64) :
    iblk4 V c 1 t (ix2 p k) = V c (Pipeline.arrRef spec4 1) (ix2 (⟨t.val * 1000 + p.val, h⟩ : Fin 7000) k) := by
  obtain ⟨-, -, b0, b1, -⟩ := tileIdx4 t
  show V c (Pipeline.arrRef spec4 1) (((cfg4.win 1).blk t).view.emb (ix2 p k)) = _
  refine congrArg _ (funext fun a => Fin.ext ?_)
  match a with
  | ⟨0, _⟩ => show win4_1.index t (0 : Fin 2) * 1000 + 1 * p.val = t.val * 1000 + p.val; omega
  | ⟨1, _⟩ => show win4_1.index t (1 : Fin 2) * 64 + 1 * k.val = k.val; omega

/-- The weight's and the bias's one block is the whole array. -/
theorem weightAll4 (c : Dev nD) (t : Fin cfg4.N) (i : S128x128.Idx) :
    iblk4 V c 2 t i = V c (Pipeline.arrRef spec4 2) i := by
  obtain ⟨-, -, -, -, w0, w1, -⟩ := tileIdx4 t
  show V c (Pipeline.arrRef spec4 2) (((cfg4.win 2).blk t).view.emb i) = _
  refine congrArg _ (funext fun a => Fin.ext ?_)
  match a with
  | ⟨0, _⟩ => show win4_2.index t (0 : Fin 2) * 128 + 1 * (i 0).val = (i 0).val; omega
  | ⟨1, _⟩ => show win4_2.index t (1 : Fin 2) * 128 + 1 * (i 1).val = (i 1).val; omega

theorem biasAll4 (c : Dev nD) (t : Fin cfg4.N) (i : S1x128.Idx) :
    iblk4 V c 3 t i = V c (Pipeline.arrRef spec4 3) i := by
  obtain ⟨-, -, -, -, -, -, s0, s1, -⟩ := tileIdx4 t
  show V c (Pipeline.arrRef spec4 3) (((cfg4.win 3).blk t).view.emb i) = _
  refine congrArg _ (funext fun a => Fin.ext ?_)
  match a with
  | ⟨0, _⟩ => show win4_3.index t (0 : Fin 2) * 1 + 1 * (i 0).val = (i 0).val; omega
  | ⟨1, _⟩ => show win4_3.index t (1 : Fin 2) * 128 + 1 * (i 1).val = (i 1).val; omega

/-- Entry `(p, q)` of tile `t` of output window 4 sits at row `t · 1000 + p`, lane `q` of its array. -/
theorem outRow4_4 (t : Fin cfg4.N) (p : Fin 1000) (h : t.val * 1000 + p.val < 7000) (q : Fin 64) :
    ((cfg4.win 4).blk t).view.emb (ix2 p q) = ix2 (⟨t.val * 1000 + p.val, h⟩ : Fin 7000) q := by
  obtain ⟨-, -, -, -, -, -, -, -, o0, o1, n0, n1⟩ := tileIdx4 t
  refine funext fun a => Fin.ext ?_
  match a with
  | ⟨0, _⟩ => show win4_4.index t (0 : Fin 2) * 1000 + 1 * p.val = t.val * 1000 + p.val; omega
  | ⟨1, _⟩ => show win4_4.index t (1 : Fin 2) * 64 + 1 * q.val = q.val; omega

/-- What grid point `t` writes back to output window 4 is tile `t` of the whole-array function. -/
theorem flushed4_4_eq (c : Dev nD) (t : Fin cfg4.N) :
    (dat4 (F := Ideal) V c).flushed 4 t = ((cfg4.win 4).blk t).view.read (Elt Ideal) (newEgoArr4 V c) := by
  show (cfg4.win 4).cut (grid4.coords t) ((dat4 V c).after 4 t) = _
  rw [after4_4]
  unfold out4_4
  rw [View.canon_unit_zero zeroOff4]
  simp only [View.ld_unit_zero (S := S1000x64) zeroOff4, View.ld_unit_zero (S := S128x128) zeroOff4, View.ld_unit_zero (S := S1x128) zeroOff4]
  funext j
  obtain ⟨p, q, rfl⟩ : ∃ p q, j = ix2 p q := ⟨j 0, j 1, eq_ix2 j⟩
  have hrow : t.val * 1000 + p.val < 7000 := by have := tileLt4 t; have := p.isLt; omega
  show k4_pay1 (F := Ideal) (iblk4 V c 0 t) (iblk4 V c 1 t) (iblk4 V c 2 t) (iblk4 V c 3 t) (ix2 p q)
      = newEgoArr4 V c (((cfg4.win 4).blk t).view.emb (ix2 p q))
  rw [KV.k4_pay1_apply, outRow4_4 t p hrow q]
  exact newEgoAt_congr _ _ _ _ _ _ _ _ p ⟨t.val * 1000 + p.val, hrow⟩ (sideRow4 V c t p hrow) (egoRow4 V c t p hrow)
    (weightAll4 V c t) (biasAll4 V c t) q

/-- An index of the array lies in tile `t` of output window 4 iff each coordinate lies in the tile's range. -/
theorem mem_tile4_4 (t : Fin cfg4.N) (i : S7000x64.Idx) :
    i ∈ ((cfg4.win 4).blk t).view.set ↔ ∀ a : Fin 2, win4_4.index t a * S1000x64.size a ≤ (i a).val ∧ (i a).val < win4_4.index t a * S1000x64.size a + S1000x64.size a := by
  show i ∈ ((View.whole main_v109_0).slice (win4_4.rect t)).set ↔ _
  rw [View.set_slice_whole, Rect.mem_set_unit]
  exact Iff.rfl

/-- Every index of the array lies in the tile of its row's quotient by 1000, which is written back. -/
theorem tiles4_4 (i : S7000x64.Idx) :
    ∃ t : Fin cfg4.N, (cfg4.win 4).flush t = true ∧ i ∈ ((cfg4.win 4).blk t).view.set := by
  have hi0 : (i 0).val < 7000 := (i 0).isLt
  have hi1 : (i 1).val < 64 := (i 1).isLt
  obtain ⟨t, ht⟩ : ∃ t : Fin cfg4.N, t.val = (i 0).val / 1000 :=
    ⟨⟨(i 0).val / 1000, lt_of_lt_of_eq (by omega : (i 0).val / 1000 < 7) N_4.symm⟩, rfl⟩
  obtain ⟨-, -, -, -, -, -, -, -, o0, o1, n0, n1⟩ := tileIdx4 t
  refine ⟨t, flush4_4 t, ?_⟩
  rw [mem_tile4_4]
  intro a
  match a with
  | ⟨0, _⟩ => show win4_4.index t (0 : Fin 2) * 1000 ≤ (i 0).val ∧ (i 0).val < win4_4.index t (0 : Fin 2) * 1000 + 1000; omega
  | ⟨1, _⟩ => show win4_4.index t (1 : Fin 2) * 64 ≤ (i 1).val ∧ (i 1).val < win4_4.index t (1 : Fin 2) * 64 + 64; omega

/-- The array of output window 4 after the last grid point. -/
theorem final4_4 (c : Dev nD) : (dat4 (F := Ideal) V c).arrAt 4 cfg4.N
    = fun i => newEgoAt (R := 7000) (V c (Pipeline.arrRef spec4 0)) (V c (Pipeline.arrRef spec4 1)) (V c (Pipeline.arrRef spec4 2)) (V c (Pipeline.arrRef spec4 3)) (i 0) (i 1) :=
  (dat4 (F := Ideal) V c).arrAt_eq_of_cover 4 (newEgoArr4 V c) (fun t _ => flushed4_4_eq V c t) (tiles4_4)

/-- Entry `(p, q)` of tile `t` of output window 5 sits at row `t · 1000 + p`, lane `q` of its array. -/
theorem outRow4_5 (t : Fin cfg4.N) (p : Fin 1000) (h : t.val * 1000 + p.val < 7000) (q : Fin 64) :
    ((cfg4.win 5).blk t).view.emb (ix2 p q) = ix2 (⟨t.val * 1000 + p.val, h⟩ : Fin 7000) q := by
  obtain ⟨-, -, -, -, -, -, -, -, o0, o1, n0, n1⟩ := tileIdx4 t
  refine funext fun a => Fin.ext ?_
  match a with
  | ⟨0, _⟩ => show win4_5.index t (0 : Fin 2) * 1000 + 1 * p.val = t.val * 1000 + p.val; omega
  | ⟨1, _⟩ => show win4_5.index t (1 : Fin 2) * 64 + 1 * q.val = q.val; omega

/-- What grid point `t` writes back to output window 5 is tile `t` of the whole-array function. -/
theorem flushed4_5_eq (c : Dev nD) (t : Fin cfg4.N) :
    (dat4 (F := Ideal) V c).flushed 5 t = ((cfg4.win 5).blk t).view.read (Elt Ideal) (normArr4 V c) := by
  show (cfg4.win 5).cut (grid4.coords t) ((dat4 V c).after 5 t) = _
  rw [after4_5]
  unfold out4_5
  rw [View.canon_unit_zero zeroOff4]
  simp only [View.ld_unit_zero (S := S1000x64) zeroOff4, View.ld_unit_zero (S := S128x128) zeroOff4, View.ld_unit_zero (S := S1x128) zeroOff4]
  funext j
  obtain ⟨p, q, rfl⟩ : ∃ p q, j = ix2 p q := ⟨j 0, j 1, eq_ix2 j⟩
  have hrow : t.val * 1000 + p.val < 7000 := by have := tileLt4 t; have := p.isLt; omega
  show k4_pay2 (F := Ideal) (iblk4 V c 0 t) (iblk4 V c 1 t) (iblk4 V c 2 t) (iblk4 V c 3 t) (ix2 p q)
      = normArr4 V c (((cfg4.win 5).blk t).view.emb (ix2 p q))
  rw [KV.k4_pay2_apply, outRow4_5 t p hrow q]
  exact normAt_congr _ _ _ _ _ _ _ _ p ⟨t.val * 1000 + p.val, hrow⟩ (sideRow4 V c t p hrow) (egoRow4 V c t p hrow)
    (weightAll4 V c t) (biasAll4 V c t) q

/-- An index of the array lies in tile `t` of output window 5 iff each coordinate lies in the tile's range. -/
theorem mem_tile4_5 (t : Fin cfg4.N) (i : S7000x64.Idx) :
    i ∈ ((cfg4.win 5).blk t).view.set ↔ ∀ a : Fin 2, win4_5.index t a * S1000x64.size a ≤ (i a).val ∧ (i a).val < win4_5.index t a * S1000x64.size a + S1000x64.size a := by
  show i ∈ ((View.whole main_v109_1).slice (win4_5.rect t)).set ↔ _
  rw [View.set_slice_whole, Rect.mem_set_unit]
  exact Iff.rfl

/-- Every index of the array lies in the tile of its row's quotient by 1000, which is written back. -/
theorem tiles4_5 (i : S7000x64.Idx) :
    ∃ t : Fin cfg4.N, (cfg4.win 5).flush t = true ∧ i ∈ ((cfg4.win 5).blk t).view.set := by
  have hi0 : (i 0).val < 7000 := (i 0).isLt
  have hi1 : (i 1).val < 64 := (i 1).isLt
  obtain ⟨t, ht⟩ : ∃ t : Fin cfg4.N, t.val = (i 0).val / 1000 :=
    ⟨⟨(i 0).val / 1000, lt_of_lt_of_eq (by omega : (i 0).val / 1000 < 7) N_4.symm⟩, rfl⟩
  obtain ⟨-, -, -, -, -, -, -, -, o0, o1, n0, n1⟩ := tileIdx4 t
  refine ⟨t, flush4_5 t, ?_⟩
  rw [mem_tile4_5]
  intro a
  match a with
  | ⟨0, _⟩ => show win4_5.index t (0 : Fin 2) * 1000 ≤ (i 0).val ∧ (i 0).val < win4_5.index t (0 : Fin 2) * 1000 + 1000; omega
  | ⟨1, _⟩ => show win4_5.index t (1 : Fin 2) * 64 ≤ (i 1).val ∧ (i 1).val < win4_5.index t (1 : Fin 2) * 64 + 64; omega

/-- The array of output window 5 after the last grid point. -/
theorem final4_5 (c : Dev nD) : (dat4 (F := Ideal) V c).arrAt 5 cfg4.N
    = fun i => normAt (R := 7000) (V c (Pipeline.arrRef spec4 0)) (V c (Pipeline.arrRef spec4 1)) (V c (Pipeline.arrRef spec4 2)) (V c (Pipeline.arrRef spec4 3)) (i 0) (i 1) :=
  (dat4 (F := Ideal) V c).arrAt_eq_of_cover 5 (normArr4 V c) (fun t _ => flushed4_5_eq V c t) (tiles4_5)

end Cert.KernelIdeal.KF

end
-- ==== Proof.KiFinal5.lean ====
/- Region 5, from blocks to arrays, on the extended reals: after the last grid point each of the layer kernel's
   two output arrays is, entry by entry, the layer's new embedding (window 4) and its row-normalised form
   (window 5) of the arrays the region was entered with. A row tile's entries depend on the tile's rows of the
   operands only, the tiles partition the rows, and every tile is written back. -/
import proofs.«120809_j78615081386430_2_alg».proof.Proof.KiBody5
import proofs.«120809_j78615081386430_2_alg».proof.Proof.LayerPay
import Idealize.ShloMosaic.Lib.Pipeline.Value

set_option maxRecDepth 16384

noncomputable section

namespace Cert.KernelIdeal.KF

open Cert.KernelIdeal Cert.KernelIdeal.Gen Cert.Ngcf
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff5 : (![0, 0] : Fin 2 → Nat) = fun _ => 0 := funext fun a => by fin_cases a <;> rfl

/-- The block index of each window at each grid point: the row-tiled windows sit at block `(t, 0)`, the weight and
    the bias at block `(0, 0)`. -/
theorem tileIdx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

theorem tileLt5 (t : Fin cfg5.N) : t.val < 7 := lt_of_lt_of_eq t.isLt N_5

/-- The new embedding of the whole array, entry by entry. -/
abbrev newEgoArr5 (c : Dev nD) : S7000x64.Idx → EReal :=
  fun i => newEgoAt (R := 7000) (V c (Pipeline.arrRef spec5 0)) (V c (Pipeline.arrRef spec5 1)) (V c (Pipeline.arrRef spec5 2)) (V c (Pipeline.arrRef spec5 3)) (i 0) (i 1)

/-- The normalised embedding of the whole array, entry by entry. -/
abbrev normArr5 (c : Dev nD) : S7000x64.Idx → EReal :=
  fun i => normAt (R := 7000) (V c (Pipeline.arrRef spec5 0)) (V c (Pipeline.arrRef spec5 1)) (V c (Pipeline.arrRef spec5 2)) (V c (Pipeline.arrRef spec5 3)) (i 0) (i 1)

/-- Row `p` of tile `t` of a row-tiled input window is row `t · 1000 + p` of its array. -/
theorem sideRow5 (c : Dev nD) (t : Fin cfg5.N) (p : Fin 1000) (h : t.val * 1000 + p.val < 7000) (k : Fin 64) :
    iblk5 V c 0 t (ix2 p k) = V c (Pipeline.arrRef spec5 0) (ix2 (⟨t.val * 1000 + p.val, h⟩ : Fin 7000) k) := by
  obtain ⟨a0, a1, -⟩ := tileIdx5 t
  show V c (Pipeline.arrRef spec5 0) (((cfg5.win 0).blk t).view.emb (ix2 p k)) = _
  refine congrArg _ (funext fun a => Fin.ext ?_)
  match a with
  | ⟨0, _⟩ => show win5_0.index t (0 : Fin 2) * 1000 + 1 * p.val = t.val * 1000 + p.val; omega
  | ⟨1, _⟩ => show win5_0.index t (1 : Fin 2) * 64 + 1 * k.val = k.val; omega

theorem egoRow5 (c : Dev nD) (t : Fin cfg5.N) (p : Fin 1000) (h : t.val * 1000 + p.val < 7000) (k : Fin 64) :
    iblk5 V c 1 t (ix2 p k) = V c (Pipeline.arrRef spec5 1) (ix2 (⟨t.val * 1000 + p.val, h⟩ : Fin 7000) k) := by
  obtain ⟨-, -, b0, b1, -⟩ := tileIdx5 t
  show V c (Pipeline.arrRef spec5 1) (((cfg5.win 1).blk t).view.emb (ix2 p k)) = _
  refine congrArg _ (funext fun a => Fin.ext ?_)
  match a with
  | ⟨0, _⟩ => show win5_1.index t (0 : Fin 2) * 1000 + 1 * p.val = t.val * 1000 + p.val; omega
  | ⟨1, _⟩ => show win5_1.index t (1 : Fin 2) * 64 + 1 * k.val = k.val; omega

/-- The weight's and the bias's one block is the whole array. -/
theorem weightAll5 (c : Dev nD) (t : Fin cfg5.N) (i : S128x128.Idx) :
    iblk5 V c 2 t i = V c (Pipeline.arrRef spec5 2) i := by
  obtain ⟨-, -, -, -, w0, w1, -⟩ := tileIdx5 t
  show V c (Pipeline.arrRef spec5 2) (((cfg5.win 2).blk t).view.emb i) = _
  refine congrArg _ (funext fun a => Fin.ext ?_)
  match a with
  | ⟨0, _⟩ => show win5_2.index t (0 : Fin 2) * 128 + 1 * (i 0).val = (i 0).val; omega
  | ⟨1, _⟩ => show win5_2.index t (1 : Fin 2) * 128 + 1 * (i 1).val = (i 1).val; omega

theorem biasAll5 (c : Dev nD) (t : Fin cfg5.N) (i : S1x128.Idx) :
    iblk5 V c 3 t i = V c (Pipeline.arrRef spec5 3) i := by
  obtain ⟨-, -, -, -, -, -, s0, s1, -⟩ := tileIdx5 t
  show V c (Pipeline.arrRef spec5 3) (((cfg5.win 3).blk t).view.emb i) = _
  refine congrArg _ (funext fun a => Fin.ext ?_)
  match a with
  | ⟨0, _⟩ => show win5_3.index t (0 : Fin 2) * 1 + 1 * (i 0).val = (i 0).val; omega
  | ⟨1, _⟩ => show win5_3.index t (1 : Fin 2) * 128 + 1 * (i 1).val = (i 1).val; omega

/-- Entry `(p, q)` of tile `t` of output window 4 sits at row `t · 1000 + p`, lane `q` of its array. -/
theorem outRow5_4 (t : Fin cfg5.N) (p : Fin 1000) (h : t.val * 1000 + p.val < 7000) (q : Fin 64) :
    ((cfg5.win 4).blk t).view.emb (ix2 p q) = ix2 (⟨t.val * 1000 + p.val, h⟩ : Fin 7000) q := by
  obtain ⟨-, -, -, -, -, -, -, -, o0, o1, n0, n1⟩ := tileIdx5 t
  refine funext fun a => Fin.ext ?_
  match a with
  | ⟨0, _⟩ => show win5_4.index t (0 : Fin 2) * 1000 + 1 * p.val = t.val * 1000 + p.val; omega
  | ⟨1, _⟩ => show win5_4.index t (1 : Fin 2) * 64 + 1 * q.val = q.val; omega

/-- What grid point `t` writes back to output window 4 is tile `t` of the whole-array function. -/
theorem flushed5_4_eq (c : Dev nD) (t : Fin cfg5.N) :
    (dat5 (F := Ideal) V c).flushed 4 t = ((cfg5.win 4).blk t).view.read (Elt Ideal) (newEgoArr5 V c) := by
  show (cfg5.win 4).cut (grid5.coords t) ((dat5 V c).after 4 t) = _
  rw [after5_4]
  unfold out5_4
  rw [View.canon_unit_zero zeroOff5]
  simp only [View.ld_unit_zero (S := S1000x64) zeroOff5, View.ld_unit_zero (S := S128x128) zeroOff5, View.ld_unit_zero (S := S1x128) zeroOff5]
  funext j
  obtain ⟨p, q, rfl⟩ : ∃ p q, j = ix2 p q := ⟨j 0, j 1, eq_ix2 j⟩
  have hrow : t.val * 1000 + p.val < 7000 := by have := tileLt5 t; have := p.isLt; omega
  show k5_pay1 (F := Ideal) (iblk5 V c 0 t) (iblk5 V c 1 t) (iblk5 V c 2 t) (iblk5 V c 3 t) (ix2 p q)
      = newEgoArr5 V c (((cfg5.win 4).blk t).view.emb (ix2 p q))
  rw [KV.k5_pay1_apply, outRow5_4 t p hrow q]
  exact newEgoAt_congr _ _ _ _ _ _ _ _ p ⟨t.val * 1000 + p.val, hrow⟩ (sideRow5 V c t p hrow) (egoRow5 V c t p hrow)
    (weightAll5 V c t) (biasAll5 V c t) q

/-- An index of the array lies in tile `t` of output window 4 iff each coordinate lies in the tile's range. -/
theorem mem_tile5_4 (t : Fin cfg5.N) (i : S7000x64.Idx) :
    i ∈ ((cfg5.win 4).blk t).view.set ↔ ∀ a : Fin 2, win5_4.index t a * S1000x64.size a ≤ (i a).val ∧ (i a).val < win5_4.index t a * S1000x64.size a + S1000x64.size a := by
  show i ∈ ((View.whole main_v128_0).slice (win5_4.rect t)).set ↔ _
  rw [View.set_slice_whole, Rect.mem_set_unit]
  exact Iff.rfl

/-- Every index of the array lies in the tile of its row's quotient by 1000, which is written back. -/
theorem tiles5_4 (i : S7000x64.Idx) :
    ∃ t : Fin cfg5.N, (cfg5.win 4).flush t = true ∧ i ∈ ((cfg5.win 4).blk t).view.set := by
  have hi0 : (i 0).val < 7000 := (i 0).isLt
  have hi1 : (i 1).val < 64 := (i 1).isLt
  obtain ⟨t, ht⟩ : ∃ t : Fin cfg5.N, t.val = (i 0).val / 1000 :=
    ⟨⟨(i 0).val / 1000, lt_of_lt_of_eq (by omega : (i 0).val / 1000 < 7) N_5.symm⟩, rfl⟩
  obtain ⟨-, -, -, -, -, -, -, -, o0, o1, n0, n1⟩ := tileIdx5 t
  refine ⟨t, flush5_4 t, ?_⟩
  rw [mem_tile5_4]
  intro a
  match a with
  | ⟨0, _⟩ => show win5_4.index t (0 : Fin 2) * 1000 ≤ (i 0).val ∧ (i 0).val < win5_4.index t (0 : Fin 2) * 1000 + 1000; omega
  | ⟨1, _⟩ => show win5_4.index t (1 : Fin 2) * 64 ≤ (i 1).val ∧ (i 1).val < win5_4.index t (1 : Fin 2) * 64 + 64; omega

/-- The array of output window 4 after the last grid point. -/
theorem final5_4 (c : Dev nD) : (dat5 (F := Ideal) V c).arrAt 4 cfg5.N
    = fun i => newEgoAt (R := 7000) (V c (Pipeline.arrRef spec5 0)) (V c (Pipeline.arrRef spec5 1)) (V c (Pipeline.arrRef spec5 2)) (V c (Pipeline.arrRef spec5 3)) (i 0) (i 1) :=
  (dat5 (F := Ideal) V c).arrAt_eq_of_cover 4 (newEgoArr5 V c) (fun t _ => flushed5_4_eq V c t) (tiles5_4)

/-- Entry `(p, q)` of tile `t` of output window 5 sits at row `t · 1000 + p`, lane `q` of its array. -/
theorem outRow5_5 (t : Fin cfg5.N) (p : Fin 1000) (h : t.val * 1000 + p.val < 7000) (q : Fin 64) :
    ((cfg5.win 5).blk t).view.emb (ix2 p q) = ix2 (⟨t.val * 1000 + p.val, h⟩ : Fin 7000) q := by
  obtain ⟨-, -, -, -, -, -, -, -, o0, o1, n0, n1⟩ := tileIdx5 t
  refine funext fun a => Fin.ext ?_
  match a with
  | ⟨0, _⟩ => show win5_5.index t (0 : Fin 2) * 1000 + 1 * p.val = t.val * 1000 + p.val; omega
  | ⟨1, _⟩ => show win5_5.index t (1 : Fin 2) * 64 + 1 * q.val = q.val; omega

/-- What grid point `t` writes back to output window 5 is tile `t` of the whole-array function. -/
theorem flushed5_5_eq (c : Dev nD) (t : Fin cfg5.N) :
    (dat5 (F := Ideal) V c).flushed 5 t = ((cfg5.win 5).blk t).view.read (Elt Ideal) (normArr5 V c) := by
  show (cfg5.win 5).cut (grid5.coords t) ((dat5 V c).after 5 t) = _
  rw [after5_5]
  unfold out5_5
  rw [View.canon_unit_zero zeroOff5]
  simp only [View.ld_unit_zero (S := S1000x64) zeroOff5, View.ld_unit_zero (S := S128x128) zeroOff5, View.ld_unit_zero (S := S1x128) zeroOff5]
  funext j
  obtain ⟨p, q, rfl⟩ : ∃ p q, j = ix2 p q := ⟨j 0, j 1, eq_ix2 j⟩
  have hrow : t.val * 1000 + p.val < 7000 := by have := tileLt5 t; have := p.isLt; omega
  show k5_pay2 (F := Ideal) (iblk5 V c 0 t) (iblk5 V c 1 t) (iblk5 V c 2 t) (iblk5 V c 3 t) (ix2 p q)
      = normArr5 V c (((cfg5.win 5).blk t).view.emb (ix2 p q))
  rw [KV.k5_pay2_apply, outRow5_5 t p hrow q]
  exact normAt_congr _ _ _ _ _ _ _ _ p ⟨t.val * 1000 + p.val, hrow⟩ (sideRow5 V c t p hrow) (egoRow5 V c t p hrow)
    (weightAll5 V c t) (biasAll5 V c t) q

/-- An index of the array lies in tile `t` of output window 5 iff each coordinate lies in the tile's range. -/
theorem mem_tile5_5 (t : Fin cfg5.N) (i : S7000x64.Idx) :
    i ∈ ((cfg5.win 5).blk t).view.set ↔ ∀ a : Fin 2, win5_5.index t a * S1000x64.size a ≤ (i a).val ∧ (i a).val < win5_5.index t a * S1000x64.size a + S1000x64.size a := by
  show i ∈ ((View.whole main_v128_1).slice (win5_5.rect t)).set ↔ _
  rw [View.set_slice_whole, Rect.mem_set_unit]
  exact Iff.rfl

/-- Every index of the array lies in the tile of its row's quotient by 1000, which is written back. -/
theorem tiles5_5 (i : S7000x64.Idx) :
    ∃ t : Fin cfg5.N, (cfg5.win 5).flush t = true ∧ i ∈ ((cfg5.win 5).blk t).view.set := by
  have hi0 : (i 0).val < 7000 := (i 0).isLt
  have hi1 : (i 1).val < 64 := (i 1).isLt
  obtain ⟨t, ht⟩ : ∃ t : Fin cfg5.N, t.val = (i 0).val / 1000 :=
    ⟨⟨(i 0).val / 1000, lt_of_lt_of_eq (by omega : (i 0).val / 1000 < 7) N_5.symm⟩, rfl⟩
  obtain ⟨-, -, -, -, -, -, -, -, o0, o1, n0, n1⟩ := tileIdx5 t
  refine ⟨t, flush5_5 t, ?_⟩
  rw [mem_tile5_5]
  intro a
  match a with
  | ⟨0, _⟩ => show win5_5.index t (0 : Fin 2) * 1000 ≤ (i 0).val ∧ (i 0).val < win5_5.index t (0 : Fin 2) * 1000 + 1000; omega
  | ⟨1, _⟩ => show win5_5.index t (1 : Fin 2) * 64 ≤ (i 1).val ∧ (i 1).val < win5_5.index t (1 : Fin 2) * 64 + 64; omega

/-- The array of output window 5 after the last grid point. -/
theorem final5_5 (c : Dev nD) : (dat5 (F := Ideal) V c).arrAt 5 cfg5.N
    = fun i => normAt (R := 7000) (V c (Pipeline.arrRef spec5 0)) (V c (Pipeline.arrRef spec5 1)) (V c (Pipeline.arrRef spec5 2)) (V c (Pipeline.arrRef spec5 3)) (i 0) (i 1) :=
  (dat5 (F := Ideal) V c).arrAt_eq_of_cover 5 (normArr5 V c) (fun t _ => flushed5_5_eq V c t) (tiles5_5)

end Cert.KernelIdeal.KF

end
-- ==== Proof.KiValue1.lean ====
/- Graph 1's half of the kernel program's value chain, on the extended reals, up to the exit of its third layer:
   the initial embedding, its aggregation along the edges, the stack of block-diagonal weights and the bias rows as the
   host operations lay them; each layer's new and normalised embeddings as its region leaves them; and what is carried,
   unchanged, from one boundary of the entry function to the next. Every fact is an equation between a buffer's
   contents at a boundary and a term of the common value over the argument arrays. -/
import proofs.«120809_j78615081386430_2_alg».proof.Proof.KiArgs
import proofs.«120809_j78615081386430_2_alg».proof.Proof.FusedLayer
import proofs.«120809_j78615081386430_2_alg».proof.Proof.KiFinal3
import proofs.«120809_j78615081386430_2_alg».proof.Proof.KiFinal4
import proofs.«120809_j78615081386430_2_alg».proof.Proof.KiFinal5
import Idealize.ShloMosaic.Lib.StableHlo.Run

set_option maxRecDepth 16384

noncomputable section

namespace Cert.KernelIdeal.KF

open Cert.KernelIdeal Cert.KernelIdeal.Gen Cert.Ngcf
open Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

namespace G1

/-- A buffer that nothing before graph 1's preparation writes still holds its launch contents there. -/
theorem carry_W6 (c : Dev nD) (r : Ref sig .tc) (h0 : r ∉ hostOps0_W) (h1 : ∀ w, Pipeline.arrRef spec0 w ≠ r)
    (h2 : r ∉ hostOps1_W) (h3 : ∀ w, Pipeline.arrRef spec1 w ≠ r) (h4 : r ∉ hostOps2_W) (h5 : ∀ w, Pipeline.arrRef spec2 w ≠ r) :
    W6 (F := Ideal) m ρ c (Proc.devRef .tc r) = m ((c : Thread nD τ).loc r) :=
  calc W6 m ρ c (Proc.devRef .tc r)
    _ = W5 m ρ c (Proc.devRef .tc r) := W6_of_ne m ρ c r h5
    _ = W4 m ρ c (Proc.devRef .tc r) := W5_keep m ρ c r h4
    _ = W3 m ρ c (Proc.devRef .tc r) := W4_of_ne m ρ c r h3
    _ = W2 m ρ c (Proc.devRef .tc r) := W3_keep m ρ c r h2
    _ = W1 m ρ c (Proc.devRef .tc r) := W2_of_ne m ρ c r h1
    _ = W0 m ρ c (Proc.devRef .tc r) := W1_keep m ρ c r h0
    _ = m ((c : Thread nD τ).loc r) := rfl

theorem arg6_W6 (c : Dev nD) : W6 (F := Ideal) m ρ c (Proc.devRef .tc main_arg6) = (argsK m c).ue1 :=
  carry_W6 m ρ c main_arg6 (by decide) (by decide) (by decide) (by decide) (by decide) (by decide)
theorem arg7_W6 (c : Dev nD) : W6 (F := Ideal) m ρ c (Proc.devRef .tc main_arg7) = (argsK m c).ie1 :=
  carry_W6 m ρ c main_arg7 (by decide) (by decide) (by decide) (by decide) (by decide) (by decide)
theorem arg8_W6 (c : Dev nD) : W6 (F := Ideal) m ρ c (Proc.devRef .tc main_arg8) = (argsK m c).gcW1 :=
  carry_W6 m ρ c main_arg8 (by decide) (by decide) (by decide) (by decide) (by decide) (by decide)
theorem arg9_W6 (c : Dev nD) : W6 (F := Ideal) m ρ c (Proc.devRef .tc main_arg9) = (argsK m c).gcb1 :=
  carry_W6 m ρ c main_arg9 (by decide) (by decide) (by decide) (by decide) (by decide) (by decide)
theorem arg10_W6 (c : Dev nD) : W6 (F := Ideal) m ρ c (Proc.devRef .tc main_arg10) = (argsK m c).biW1 :=
  carry_W6 m ρ c main_arg10 (by decide) (by decide) (by decide) (by decide) (by decide) (by decide)
theorem arg11_W6 (c : Dev nD) : W6 (F := Ideal) m ρ c (Proc.devRef .tc main_arg11) = (argsK m c).bib1 :=
  carry_W6 m ρ c main_arg11 (by decide) (by decide) (by decide) (by decide) (by decide) (by decide)
theorem arg15_W6 (c : Dev nD) : W6 (F := Ideal) m ρ c (Proc.devRef .tc main_arg15) = (argsK m c).vals1 :=
  carry_W6 m ρ c main_arg15 (by decide) (by decide) (by decide) (by decide) (by decide) (by decide)
theorem arg18_W6 (c : Dev nD) : W6 (F := Ideal) m ρ c (Proc.devRef .tc main_arg18) = (argsK m c).rows1 :=
  carry_W6 m ρ c main_arg18 (by decide) (by decide) (by decide) (by decide) (by decide) (by decide)
theorem arg19_W6 (c : Dev nD) : W6 (F := Ideal) m ρ c (Proc.devRef .tc main_arg19) = (argsK m c).cols1 :=
  carry_W6 m ρ c main_arg19 (by decide) (by decide) (by decide) (by decide) (by decide) (by decide)

/-- Graph 1's initial embedding, as the preparation lays it. -/
theorem v66_W7 (c : Dev nD) : W7 (F := Ideal) m ρ c (Proc.devRef .tc main_v66) = egoInit1 (argsK m c) := by
  show StableHlo.after hostOps3 (W6 m ρ c) (Proc.devRef .tc main_v66) = _
  after_results
  rw [arg6_W6, arg7_W6]
  rfl

/-- Graph 1's aggregation of the initial embedding along its edges, as the preparation computes it. -/
theorem v84_W7 (c : Dev nD) : W7 (F := Ideal) m ρ c (Proc.devRef .tc main_v84) = agg1 (argsK m c) (egoInit1 (argsK m c)) := by
  show StableHlo.after hostOps3 (W6 m ρ c) (Proc.devRef .tc main_v84) = _
  after_results_simp
  repeat (first
    | (rw [unary_result_ne]; rotate_left; decide)
    | (rw [nary_result_ne]; rotate_left; decide))
  rw [arg6_W6, arg7_W6, arg15_W6, arg18_W6, arg19_W6]
  rfl

/-- The stack of graph 1's three block-diagonal matrices. -/
theorem v70_W7 (c : Dev nD) : W7 (F := Ideal) m ρ c (Proc.devRef .tc main_v70)
    = fusedStack bcast_S_S3x64x64 concatenates_S3x64x64_S3x64x64_S3x64x128_d2 concatenates_S3x64x128_S3x64x128_S3x128x128_d1
        (argsK m c).gcW1 (argsK m c).biW1 := by
  show StableHlo.after hostOps3 (W6 m ρ c) (Proc.devRef .tc main_v70) = _
  after_results
  rw [arg8_W6, arg10_W6]
  rfl

/-- Graph 1's two bias stacks side by side. -/
theorem v71_W7 (c : Dev nD) : W7 (F := Ideal) m ρ c (Proc.devRef .tc main_v71)
    = concatenate S3x128 1 [⟨S3x64, (argsK m c).gcb1⟩, ⟨S3x64, (argsK m c).bib1⟩] concatenates_S3x64_S3x64_S3x128_d1 := by
  show StableHlo.after hostOps3 (W6 m ρ c) (Proc.devRef .tc main_v71) = _
  after_results
  rw [arg9_W6, arg11_W6]

/-- Layer 0's fused matrix and bias row. -/
theorem v86_W7 (c : Dev nD) : W7 (F := Ideal) m ρ c (Proc.devRef .tc main_v86)
    = fusedMat bcast_S_S3x64x64 concatenates_S3x64x64_S3x64x64_S3x64x128_d2 concatenates_S3x64x128_S3x64x128_S3x128x128_d1 0
        slices_S3x128x128_S1x128x128_0_0_0 shapeCasts_S1x128x128_S128x128 (argsK m c).gcW1 (argsK m c).biW1 := by
  show StableHlo.after hostOps3 (W6 m ρ c) (Proc.devRef .tc main_v86) = _
  after_results
  rw [arg8_W6, arg10_W6]
  rfl

theorem v89_W7 (c : Dev nD) : W7 (F := Ideal) m ρ c (Proc.devRef .tc main_v89)
    = fusedBias concatenates_S3x64_S3x64_S3x128_d1 0 slices_S3x128_S1x128_0_0 shapeCasts_S1x128_S128 shapeCasts_S128_S1x128
        (argsK m c).gcb1 (argsK m c).bib1 := by
  show StableHlo.after hostOps3 (W6 m ρ c) (Proc.devRef .tc main_v89) = _
  after_results
  rw [arg9_W6, arg11_W6]
  rfl

/-- and across graph 1's preparation. -/
theorem arg15_W7 (c : Dev nD) : W7 (F := Ideal) m ρ c (Proc.devRef .tc main_arg15) = (argsK m c).vals1 :=
  (W7_keep m ρ c main_arg15 (by decide)).trans (arg15_W6 m ρ c)
theorem arg18_W7 (c : Dev nD) : W7 (F := Ideal) m ρ c (Proc.devRef .tc main_arg18) = (argsK m c).rows1 :=
  (W7_keep m ρ c main_arg18 (by decide)).trans (arg18_W6 m ρ c)
theorem arg19_W7 (c : Dev nD) : W7 (F := Ideal) m ρ c (Proc.devRef .tc main_arg19) = (argsK m c).cols1 :=
  (W7_keep m ρ c main_arg19 (by decide)).trans (arg19_W6 m ρ c)

/-! ## Region 3: layer 0 of graph 1 -/

set_option maxHeartbeats 400000 in
/-- The new embedding region 3 leaves. -/
theorem v90_0_W8 (c : Dev nD) : W8 (F := Ideal) m ρ c (Proc.devRef .tc main_v90_0)
    = egoNext (agg1 (argsK m c)) (argsK m c).gcW1 (argsK m c).biW1 (argsK m c).gcb1 (argsK m c).bib1 (0 : Fin 3) (egoInit1 (argsK m c)) := by
  refine (W8_arr m ρ c 4).trans ?_
  rw [final3_4 (V7 m ρ) c]
  have e0 : V7 m ρ c (Pipeline.arrRef spec3 0) = agg1 (argsK m c) (egoInit1 (argsK m c)) := v84_W7 m ρ c
  have e1 : V7 m ρ c (Pipeline.arrRef spec3 1) = (egoInit1 (argsK m c)) := v66_W7 m ρ c
  have e2 : V7 m ρ c (Pipeline.arrRef spec3 2) = fusedMat bcast_S_S3x64x64 concatenates_S3x64x64_S3x64x64_S3x64x128_d2 concatenates_S3x64x128_S3x64x128_S3x128x128_d1 0 slices_S3x128x128_S1x128x128_0_0_0 shapeCasts_S1x128x128_S128x128 (argsK m c).gcW1 (argsK m c).biW1 := v86_W7 m ρ c
  have e3 : V7 m ρ c (Pipeline.arrRef spec3 3) = fusedBias concatenates_S3x64_S3x64_S3x128_d1 0 slices_S3x128_S1x128_0_0 shapeCasts_S1x128_S128 shapeCasts_S128_S1x128 (argsK m c).gcb1 (argsK m c).bib1 := v89_W7 m ρ c
  rw [e0, e1, e2, e3]
  exact newEgo_fused _ _ _ 0 (by omega) _ _ _ _ _ _ (agg1 (argsK m c)) _ _ _ _ _ _ rfl

set_option maxHeartbeats 400000 in
/-- The normalised embedding region 3 leaves. -/
theorem v90_1_W8 (c : Dev nD) : W8 (F := Ideal) m ρ c (Proc.devRef .tc main_v90_1)
    = normNext (agg1 (argsK m c)) (argsK m c).gcW1 (argsK m c).biW1 (argsK m c).gcb1 (argsK m c).bib1 (0 : Fin 3) (egoInit1 (argsK m c)) := by
  refine (W8_arr m ρ c 5).trans ?_
  rw [final3_5 (V7 m ρ) c]
  have e0 : V7 m ρ c (Pipeline.arrRef spec3 0) = agg1 (argsK m c) (egoInit1 (argsK m c)) := v84_W7 m ρ c
  have e1 : V7 m ρ c (Pipeline.arrRef spec3 1) = (egoInit1 (argsK m c)) := v66_W7 m ρ c
  have e2 : V7 m ρ c (Pipeline.arrRef spec3 2) = fusedMat bcast_S_S3x64x64 concatenates_S3x64x64_S3x64x64_S3x64x128_d2 concatenates_S3x64x128_S3x64x128_S3x128x128_d1 0 slices_S3x128x128_S1x128x128_0_0_0 shapeCasts_S1x128x128_S128x128 (argsK m c).gcW1 (argsK m c).biW1 := v86_W7 m ρ c
  have e3 : V7 m ρ c (Pipeline.arrRef spec3 3) = fusedBias concatenates_S3x64_S3x64_S3x128_d1 0 slices_S3x128_S1x128_0_0 shapeCasts_S1x128_S128 shapeCasts_S128_S1x128 (argsK m c).gcb1 (argsK m c).bib1 := v89_W7 m ρ c
  rw [e0, e1, e2, e3]
  exact norm_fused _ _ _ 0 (by omega) _ _ _ _ _ _ (agg1 (argsK m c)) _ _ _ _ _ _ rfl

/-! ## The stretch between regions 3 and 4 -/

/-- What the stretch reads of earlier stages, carried to its entry. -/
theorem arg15_W8 (c : Dev nD) : W8 (F := Ideal) m ρ c (Proc.devRef .tc main_arg15) = (argsK m c).vals1 :=
  (W8_of_ne m ρ c main_arg15 (by decide)).trans (arg15_W7 m ρ c)
theorem arg18_W8 (c : Dev nD) : W8 (F := Ideal) m ρ c (Proc.devRef .tc main_arg18) = (argsK m c).rows1 :=
  (W8_of_ne m ρ c main_arg18 (by decide)).trans (arg18_W7 m ρ c)
theorem arg19_W8 (c : Dev nD) : W8 (F := Ideal) m ρ c (Proc.devRef .tc main_arg19) = (argsK m c).cols1 :=
  (W8_of_ne m ρ c main_arg19 (by decide)).trans (arg19_W7 m ρ c)
theorem v70_W8 (c : Dev nD) : W8 (F := Ideal) m ρ c (Proc.devRef .tc main_v70) = fusedStack bcast_S_S3x64x64 concatenates_S3x64x64_S3x64x64_S3x64x128_d2 concatenates_S3x64x128_S3x64x128_S3x128x128_d1 (argsK m c).gcW1 (argsK m c).biW1 :=
  (W8_of_ne m ρ c main_v70 (by decide)).trans (v70_W7 m ρ c)
theorem v71_W8 (c : Dev nD) : W8 (F := Ideal) m ρ c (Proc.devRef .tc main_v71) = concatenate S3x128 1 [⟨S3x64, (argsK m c).gcb1⟩, ⟨S3x64, (argsK m c).bib1⟩] concatenates_S3x64_S3x64_S3x128_d1 :=
  (W8_of_ne m ρ c main_v71 (by decide)).trans (v71_W7 m ρ c)

/-- and across it. -/
theorem arg15_W9 (c : Dev nD) : W9 (F := Ideal) m ρ c (Proc.devRef .tc main_arg15) = (argsK m c).vals1 :=
  (W9_keep m ρ c main_arg15 (by decide)).trans (arg15_W8 m ρ c)
theorem arg18_W9 (c : Dev nD) : W9 (F := Ideal) m ρ c (Proc.devRef .tc main_arg18) = (argsK m c).rows1 :=
  (W9_keep m ρ c main_arg18 (by decide)).trans (arg18_W8 m ρ c)
theorem arg19_W9 (c : Dev nD) : W9 (F := Ideal) m ρ c (Proc.devRef .tc main_arg19) = (argsK m c).cols1 :=
  (W9_keep m ρ c main_arg19 (by decide)).trans (arg19_W8 m ρ c)
theorem v70_W9 (c : Dev nD) : W9 (F := Ideal) m ρ c (Proc.devRef .tc main_v70) = fusedStack bcast_S_S3x64x64 concatenates_S3x64x64_S3x64x64_S3x64x128_d2 concatenates_S3x64x128_S3x64x128_S3x128x128_d1 (argsK m c).gcW1 (argsK m c).biW1 :=
  (W9_keep m ρ c main_v70 (by decide)).trans (v70_W8 m ρ c)
theorem v71_W9 (c : Dev nD) : W9 (F := Ideal) m ρ c (Proc.devRef .tc main_v71) = concatenate S3x128 1 [⟨S3x64, (argsK m c).gcb1⟩, ⟨S3x64, (argsK m c).bib1⟩] concatenates_S3x64_S3x64_S3x128_d1 :=
  (W9_keep m ρ c main_v71 (by decide)).trans (v71_W8 m ρ c)
theorem v90_0_W9 (c : Dev nD) : W9 (F := Ideal) m ρ c (Proc.devRef .tc main_v90_0) = (ego1 (agg1 (argsK m c)) (argsK m c).gcW1 (argsK m c).biW1 (argsK m c).gcb1 (argsK m c).bib1 (egoInit1 (argsK m c))) :=
  (W9_keep m ρ c main_v90_0 (by decide)).trans (v90_0_W8 m ρ c)

/-- The aggregation of the embedding entering layer 1. -/
theorem v103_W9 (c : Dev nD) : W9 (F := Ideal) m ρ c (Proc.devRef .tc main_v103) = agg1 (argsK m c) (ego1 (agg1 (argsK m c)) (argsK m c).gcW1 (argsK m c).biW1 (argsK m c).gcb1 (argsK m c).bib1 (egoInit1 (argsK m c))) := by
  show StableHlo.after hostOps4 (W8 m ρ c) (Proc.devRef .tc main_v103) = _
  after_results_simp
  repeat (first
    | (rw [unary_result_ne]; rotate_left; decide)
    | (rw [nary_result_ne]; rotate_left; decide))
  rw [arg15_W8, arg18_W8, arg19_W8, v90_0_W8]
  rfl

/-- Layer 1's fused matrix and bias row. -/
theorem v105_W9 (c : Dev nD) : W9 (F := Ideal) m ρ c (Proc.devRef .tc main_v105) = fusedMat bcast_S_S3x64x64 concatenates_S3x64x64_S3x64x64_S3x64x128_d2 concatenates_S3x64x128_S3x64x128_S3x128x128_d1 1 slices_S3x128x128_S1x128x128_1_0_0 shapeCasts_S1x128x128_S128x128 (argsK m c).gcW1 (argsK m c).biW1 := by
  show StableHlo.after hostOps4 (W8 m ρ c) (Proc.devRef .tc main_v105) = _
  after_results
  rw [v70_W8]
  rfl

theorem v108_W9 (c : Dev nD) : W9 (F := Ideal) m ρ c (Proc.devRef .tc main_v108) = fusedBias concatenates_S3x64_S3x64_S3x128_d1 1 slices_S3x128_S1x128_1_0 shapeCasts_S1x128_S128 shapeCasts_S128_S1x128 (argsK m c).gcb1 (argsK m c).bib1 := by
  show StableHlo.after hostOps4 (W8 m ρ c) (Proc.devRef .tc main_v108) = _
  after_results
  rw [v71_W8]
  rfl

/-! ## Region 4: layer 1 of graph 1 -/

set_option maxHeartbeats 400000 in
/-- The new embedding region 4 leaves. -/
theorem v109_0_W10 (c : Dev nD) : W10 (F := Ideal) m ρ c (Proc.devRef .tc main_v109_0)
    = egoNext (agg1 (argsK m c)) (argsK m c).gcW1 (argsK m c).biW1 (argsK m c).gcb1 (argsK m c).bib1 (1 : Fin 3) (ego1 (agg1 (argsK m c)) (argsK m c).gcW1 (argsK m c).biW1 (argsK m c).gcb1 (argsK m c).bib1 (egoInit1 (argsK m c))) := by
  refine (W10_arr m ρ c 4).trans ?_
  rw [final4_4 (V9 m ρ) c]
  have e0 : V9 m ρ c (Pipeline.arrRef spec4 0) = agg1 (argsK m c) (ego1 (agg1 (argsK m c)) (argsK m c).gcW1 (argsK m c).biW1 (argsK m c).gcb1 (argsK m c).bib1 (egoInit1 (argsK m c))) := v103_W9 m ρ c
  have e1 : V9 m ρ c (Pipeline.arrRef spec4 1) = (ego1 (agg1 (argsK m c)) (argsK m c).gcW1 (argsK m c).biW1 (argsK m c).gcb1 (argsK m c).bib1 (egoInit1 (argsK m c))) := v90_0_W9 m ρ c
  have e2 : V9 m ρ c (Pipeline.arrRef spec4 2) = fusedMat bcast_S_S3x64x64 concatenates_S3x64x64_S3x64x64_S3x64x128_d2 concatenates_S3x64x128_S3x64x128_S3x128x128_d1 1 slices_S3x128x128_S1x128x128_1_0_0 shapeCasts_S1x128x128_S128x128 (argsK m c).gcW1 (argsK m c).biW1 := v105_W9 m ρ c
  have e3 : V9 m ρ c (Pipeline.arrRef spec4 3) = fusedBias concatenates_S3x64_S3x64_S3x128_d1 1 slices_S3x128_S1x128_1_0 shapeCasts_S1x128_S128 shapeCasts_S128_S1x128 (argsK m c).gcb1 (argsK m c).bib1 := v108_W9 m ρ c
  rw [e0, e1, e2, e3]
  exact newEgo_fused _ _ _ 1 (by omega) _ _ _ _ _ _ (agg1 (argsK m c)) _ _ _ _ _ _ rfl

set_option maxHeartbeats 400000 in
/-- The normalised embedding region 4 leaves. -/
theorem v109_1_W10 (c : Dev nD) : W10 (F := Ideal) m ρ c (Proc.devRef .tc main_v109_1)
    = normNext (agg1 (argsK m c)) (argsK m c).gcW1 (argsK m c).biW1 (argsK m c).gcb1 (argsK m c).bib1 (1 : Fin 3) (ego1 (agg1 (argsK m c)) (argsK m c).gcW1 (argsK m c).biW1 (argsK m c).gcb1 (argsK m c).bib1 (egoInit1 (argsK m c))) := by
  refine (W10_arr m ρ c 5).trans ?_
  rw [final4_5 (V9 m ρ) c]
  have e0 : V9 m ρ c (Pipeline.arrRef spec4 0) = agg1 (argsK m c) (ego1 (agg1 (argsK m c)) (argsK m c).gcW1 (argsK m c).biW1 (argsK m c).gcb1 (argsK m c).bib1 (egoInit1 (argsK m c))) := v103_W9 m ρ c
  have e1 : V9 m ρ c (Pipeline.arrRef spec4 1) = (ego1 (agg1 (argsK m c)) (argsK m c).gcW1 (argsK m c).biW1 (argsK m c).gcb1 (argsK m c).bib1 (egoInit1 (argsK m c))) := v90_0_W9 m ρ c
  have e2 : V9 m ρ c (Pipeline.arrRef spec4 2) = fusedMat bcast_S_S3x64x64 concatenates_S3x64x64_S3x64x64_S3x64x128_d2 concatenates_S3x64x128_S3x64x128_S3x128x128_d1 1 slices_S3x128x128_S1x128x128_1_0_0 shapeCasts_S1x128x128_S128x128 (argsK m c).gcW1 (argsK m c).biW1 := v105_W9 m ρ c
  have e3 : V9 m ρ c (Pipeline.arrRef spec4 3) = fusedBias concatenates_S3x64_S3x64_S3x128_d1 1 slices_S3x128_S1x128_1_0 shapeCasts_S1x128_S128 shapeCasts_S128_S1x128 (argsK m c).gcb1 (argsK m c).bib1 := v108_W9 m ρ c
  rw [e0, e1, e2, e3]
  exact norm_fused _ _ _ 1 (by omega) _ _ _ _ _ _ (agg1 (argsK m c)) _ _ _ _ _ _ rfl

/-! ## The stretch between regions 4 and 5 -/

/-- What the stretch reads of earlier stages, carried to its entry. -/
theorem arg15_W10 (c : Dev nD) : W10 (F := Ideal) m ρ c (Proc.devRef .tc main_arg15) = (argsK m c).vals1 :=
  (W10_of_ne m ρ c main_arg15 (by decide)).trans (arg15_W9 m ρ c)
theorem arg18_W10 (c : Dev nD) : W10 (F := Ideal) m ρ c (Proc.devRef .tc main_arg18) = (argsK m c).rows1 :=
  (W10_of_ne m ρ c main_arg18 (by decide)).trans (arg18_W9 m ρ c)
theorem arg19_W10 (c : Dev nD) : W10 (F := Ideal) m ρ c (Proc.devRef .tc main_arg19) = (argsK m c).cols1 :=
  (W10_of_ne m ρ c main_arg19 (by decide)).trans (arg19_W9 m ρ c)
theorem v70_W10 (c : Dev nD) : W10 (F := Ideal) m ρ c (Proc.devRef .tc main_v70) = fusedStack bcast_S_S3x64x64 concatenates_S3x64x64_S3x64x64_S3x64x128_d2 concatenates_S3x64x128_S3x64x128_S3x128x128_d1 (argsK m c).gcW1 (argsK m c).biW1 :=
  (W10_of_ne m ρ c main_v70 (by decide)).trans (v70_W9 m ρ c)
theorem v71_W10 (c : Dev nD) : W10 (F := Ideal) m ρ c (Proc.devRef .tc main_v71) = concatenate S3x128 1 [⟨S3x64, (argsK m c).gcb1⟩, ⟨S3x64, (argsK m c).bib1⟩] concatenates_S3x64_S3x64_S3x128_d1 :=
  (W10_of_ne m ρ c main_v71 (by decide)).trans (v71_W9 m ρ c)

/-- and across it. -/
theorem arg15_W11 (c : Dev nD) : W11 (F := Ideal) m ρ c (Proc.devRef .tc main_arg15) = (argsK m c).vals1 :=
  (W11_keep m ρ c main_arg15 (by decide)).trans (arg15_W10 m ρ c)
theorem arg18_W11 (c : Dev nD) : W11 (F := Ideal) m ρ c (Proc.devRef .tc main_arg18) = (argsK m c).rows1 :=
  (W11_keep m ρ c main_arg18 (by decide)).trans (arg18_W10 m ρ c)
theorem arg19_W11 (c : Dev nD) : W11 (F := Ideal) m ρ c (Proc.devRef .tc main_arg19) = (argsK m c).cols1 :=
  (W11_keep m ρ c main_arg19 (by decide)).trans (arg19_W10 m ρ c)
theorem v70_W11 (c : Dev nD) : W11 (F := Ideal) m ρ c (Proc.devRef .tc main_v70) = fusedStack bcast_S_S3x64x64 concatenates_S3x64x64_S3x64x64_S3x64x128_d2 concatenates_S3x64x128_S3x64x128_S3x128x128_d1 (argsK m c).gcW1 (argsK m c).biW1 :=
  (W11_keep m ρ c main_v70 (by decide)).trans (v70_W10 m ρ c)
theorem v71_W11 (c : Dev nD) : W11 (F := Ideal) m ρ c (Proc.devRef .tc main_v71) = concatenate S3x128 1 [⟨S3x64, (argsK m c).gcb1⟩, ⟨S3x64, (argsK m c).bib1⟩] concatenates_S3x64_S3x64_S3x128_d1 :=
  (W11_keep m ρ c main_v71 (by decide)).trans (v71_W10 m ρ c)
theorem v109_0_W11 (c : Dev nD) : W11 (F := Ideal) m ρ c (Proc.devRef .tc main_v109_0) = (ego2 (agg1 (argsK m c)) (argsK m c).gcW1 (argsK m c).biW1 (argsK m c).gcb1 (argsK m c).bib1 (egoInit1 (argsK m c))) :=
  (W11_keep m ρ c main_v109_0 (by decide)).trans (v109_0_W10 m ρ c)

/-- The aggregation of the embedding entering layer 2. -/
theorem v122_W11 (c : Dev nD) : W11 (F := Ideal) m ρ c (Proc.devRef .tc main_v122) = agg1 (argsK m c) (ego2 (agg1 (argsK m c)) (argsK m c).gcW1 (argsK m c).biW1 (argsK m c).gcb1 (argsK m c).bib1 (egoInit1 (argsK m c))) := by
  show StableHlo.after hostOps5 (W10 m ρ c) (Proc.devRef .tc main_v122) = _
  after_results_simp
  repeat (first
    | (rw [unary_result_ne]; rotate_left; decide)
    | (rw [nary_result_ne]; rotate_left; decide))
  rw [arg15_W10, arg18_W10, arg19_W10, v109_0_W10]
  rfl

/-- Layer 2's fused matrix and bias row. -/
theorem v124_W11 (c : Dev nD) : W11 (F := Ideal) m ρ c (Proc.devRef .tc main_v124) = fusedMat bcast_S_S3x64x64 concatenates_S3x64x64_S3x64x64_S3x64x128_d2 concatenates_S3x64x128_S3x64x128_S3x128x128_d1 2 slices_S3x128x128_S1x128x128_2_0_0 shapeCasts_S1x128x128_S128x128 (argsK m c).gcW1 (argsK m c).biW1 := by
  show StableHlo.after hostOps5 (W10 m ρ c) (Proc.devRef .tc main_v124) = _
  after_results
  rw [v70_W10]
  rfl

theorem v127_W11 (c : Dev nD) : W11 (F := Ideal) m ρ c (Proc.devRef .tc main_v127) = fusedBias concatenates_S3x64_S3x64_S3x128_d1 2 slices_S3x128_S1x128_2_0 shapeCasts_S1x128_S128 shapeCasts_S128_S1x128 (argsK m c).gcb1 (argsK m c).bib1 := by
  show StableHlo.after hostOps5 (W10 m ρ c) (Proc.devRef .tc main_v127) = _
  after_results
  rw [v71_W10]
  rfl

/-! ## Region 5: layer 2 of graph 1 -/

set_option maxHeartbeats 400000 in
/-- The new embedding region 5 leaves. -/
theorem v128_0_W12 (c : Dev nD) : W12 (F := Ideal) m ρ c (Proc.devRef .tc main_v128_0)
    = egoNext (agg1 (argsK m c)) (argsK m c).gcW1 (argsK m c).biW1 (argsK m c).gcb1 (argsK m c).bib1 (2 : Fin 3) (ego2 (agg1 (argsK m c)) (argsK m c).gcW1 (argsK m c).biW1 (argsK m c).gcb1 (argsK m c).bib1 (egoInit1 (argsK m c))) := by
  refine (W12_arr m ρ c 4).trans ?_
  rw [final5_4 (V11 m ρ) c]
  have e0 : V11 m ρ c (Pipeline.arrRef spec5 0) = agg1 (argsK m c) (ego2 (agg1 (argsK m c)) (argsK m c).gcW1 (argsK m c).biW1 (argsK m c).gcb1 (argsK m c).bib1 (egoInit1 (argsK m c))) := v122_W11 m ρ c
  have e1 : V11 m ρ c (Pipeline.arrRef spec5 1) = (ego2 (agg1 (argsK m c)) (argsK m c).gcW1 (argsK m c).biW1 (argsK m c).gcb1 (argsK m c).bib1 (egoInit1 (argsK m c))) := v109_0_W11 m ρ c
  have e2 : V11 m ρ c (Pipeline.arrRef spec5 2) = fusedMat bcast_S_S3x64x64 concatenates_S3x64x64_S3x64x64_S3x64x128_d2 concatenates_S3x64x128_S3x64x128_S3x128x128_d1 2 slices_S3x128x128_S1x128x128_2_0_0 shapeCasts_S1x128x128_S128x128 (argsK m c).gcW1 (argsK m c).biW1 := v124_W11 m ρ c
  have e3 : V11 m ρ c (Pipeline.arrRef spec5 3) = fusedBias concatenates_S3x64_S3x64_S3x128_d1 2 slices_S3x128_S1x128_2_0 shapeCasts_S1x128_S128 shapeCasts_S128_S1x128 (argsK m c).gcb1 (argsK m c).bib1 := v127_W11 m ρ c
  rw [e0, e1, e2, e3]
  exact newEgo_fused _ _ _ 2 (by omega) _ _ _ _ _ _ (agg1 (argsK m c)) _ _ _ _ _ _ rfl

set_option maxHeartbeats 400000 in
/-- The normalised embedding region 5 leaves. -/
theorem v128_1_W12 (c : Dev nD) : W12 (F := Ideal) m ρ c (Proc.devRef .tc main_v128_1)
    = normNext (agg1 (argsK m c)) (argsK m c).gcW1 (argsK m c).biW1 (argsK m c).gcb1 (argsK m c).bib1 (2 : Fin 3) (ego2 (agg1 (argsK m c)) (argsK m c).gcW1 (argsK m c).biW1 (argsK m c).gcb1 (argsK m c).bib1 (egoInit1 (argsK m c))) := by
  refine (W12_arr m ρ c 5).trans ?_
  rw [final5_5 (V11 m ρ) c]
  have e0 : V11 m ρ c (Pipeline.arrRef spec5 0) = agg1 (argsK m c) (ego2 (agg1 (argsK m c)) (argsK m c).gcW1 (argsK m c).biW1 (argsK m c).gcb1 (argsK m c).bib1 (egoInit1 (argsK m c))) := v122_W11 m ρ c
  have e1 : V11 m ρ c (Pipeline.arrRef spec5 1) = (ego2 (agg1 (argsK m c)) (argsK m c).gcW1 (argsK m c).biW1 (argsK m c).gcb1 (argsK m c).bib1 (egoInit1 (argsK m c))) := v109_0_W11 m ρ c
  have e2 : V11 m ρ c (Pipeline.arrRef spec5 2) = fusedMat bcast_S_S3x64x64 concatenates_S3x64x64_S3x64x64_S3x64x128_d2 concatenates_S3x64x128_S3x64x128_S3x128x128_d1 2 slices_S3x128x128_S1x128x128_2_0_0 shapeCasts_S1x128x128_S128x128 (argsK m c).gcW1 (argsK m c).biW1 := v124_W11 m ρ c
  have e3 : V11 m ρ c (Pipeline.arrRef spec5 3) = fusedBias concatenates_S3x64_S3x64_S3x128_d1 2 slices_S3x128_S1x128_2_0 shapeCasts_S1x128_S128 shapeCasts_S128_S1x128 (argsK m c).gcb1 (argsK m c).bib1 := v127_W11 m ρ c
  rw [e0, e1, e2, e3]
  exact norm_fused _ _ _ 2 (by omega) _ _ _ _ _ _ (agg1 (argsK m c)) _ _ _ _ _ _ rfl

end G1

/-! ## Graph 1 at region 4's exit -/

open G1 in
/-- The embedding entering layer 2. -/
theorem g1_w10_v109_0 (c : Dev nD) : W10 (F := Ideal) m ρ c (Proc.devRef .tc main_v109_0)
    = Cert.Ngcf.ego2 (Cert.Ngcf.agg1 (argsK m c)) (argsK m c).gcW1 (argsK m c).biW1 (argsK m c).gcb1 (argsK m c).bib1 (Cert.Ngcf.egoInit1 (argsK m c)) :=
  v109_0_W10 m ρ c

open G1 in
/-- The initial embedding is still in place: region 3 stages it as an input and leaves it, and nothing later writes it. -/
theorem g1_w10_v66 (c : Dev nD) : W10 (F := Ideal) m ρ c (Proc.devRef .tc main_v66) = Cert.Ngcf.egoInit1 (argsK m c) :=
  calc W10 m ρ c (Proc.devRef .tc main_v66)
    _ = W9 m ρ c (Proc.devRef .tc main_v66) := W10_of_ne m ρ c main_v66 (by decide)
    _ = W8 m ρ c (Proc.devRef .tc main_v66) := W9_keep m ρ c main_v66 (by decide)
    _ = W7 m ρ c (Proc.devRef .tc main_v66) := (W8_arr m ρ c 1).trans (((dat3 (V7 m ρ) c).arrAt_in 1 rfl _).trans (A_eq3 (V7 m ρ) c 1))
    _ = Cert.Ngcf.egoInit1 (argsK m c) := v66_W7 m ρ c

open G1 in
/-- Layer 0's normalised output. -/
theorem g1_w10_v90_1 (c : Dev nD) : W10 (F := Ideal) m ρ c (Proc.devRef .tc main_v90_1)
    = Cert.Ngcf.normNext (Cert.Ngcf.agg1 (argsK m c)) (argsK m c).gcW1 (argsK m c).biW1 (argsK m c).gcb1 (argsK m c).bib1 0 (Cert.Ngcf.egoInit1 (argsK m c)) :=
  calc W10 m ρ c (Proc.devRef .tc main_v90_1)
    _ = W9 m ρ c (Proc.devRef .tc main_v90_1) := W10_of_ne m ρ c main_v90_1 (by decide)
    _ = W8 m ρ c (Proc.devRef .tc main_v90_1) := W9_keep m ρ c main_v90_1 (by decide)
    _ = _ := v90_1_W8 m ρ c

open G1 in
/-- Layer 1's normalised output. -/
theorem g1_w10_v109_1 (c : Dev nD) : W10 (F := Ideal) m ρ c (Proc.devRef .tc main_v109_1)
    = Cert.Ngcf.normNext (Cert.Ngcf.agg1 (argsK m c)) (argsK m c).gcW1 (argsK m c).biW1 (argsK m c).gcb1 (argsK m c).bib1 1 (Cert.Ngcf.ego1 (Cert.Ngcf.agg1 (argsK m c)) (argsK m c).gcW1 (argsK m c).biW1 (argsK m c).gcb1 (argsK m c).bib1 (Cert.Ngcf.egoInit1 (argsK m c))) :=
  v109_1_W10 m ρ c

open G1 in
/-- The stack of block-diagonal matrices and the two bias stacks side by side, carried from graph 1's preparation. -/
theorem g1_w10_v70 (c : Dev nD) : W10 (F := Ideal) m ρ c (Proc.devRef .tc main_v70)
    = Cert.Ngcf.fusedStack bcast_S_S3x64x64 concatenates_S3x64x64_S3x64x64_S3x64x128_d2 concatenates_S3x64x128_S3x64x128_S3x128x128_d1 (argsK m c).gcW1 (argsK m c).biW1 :=
  v70_W10 m ρ c

open G1 in
theorem g1_w10_v71 (c : Dev nD) : W10 (F := Ideal) m ρ c (Proc.devRef .tc main_v71)
    = concatenate S3x128 1 [⟨S3x64, (argsK m c).gcb1⟩, ⟨S3x64, (argsK m c).bib1⟩] concatenates_S3x64_S3x64_S3x128_d1 :=
  v71_W10 m ρ c

/-! ## Graph 1 at region 5's exit: what the closing stretch reads -/

open G1 in
/-- The initial embedding is still in place: region 3 stages it as an input and leaves it, and nothing later writes it. -/
theorem g1_w12_v66 (c : Dev nD) : W12 (F := Ideal) m ρ c (Proc.devRef .tc main_v66) = Cert.Ngcf.egoInit1 (argsK m c) :=
  calc W12 m ρ c (Proc.devRef .tc main_v66)
    _ = W11 m ρ c (Proc.devRef .tc main_v66) := W12_of_ne m ρ c main_v66 (by decide)
    _ = W10 m ρ c (Proc.devRef .tc main_v66) := W11_keep m ρ c main_v66 (by decide)
    _ = W9 m ρ c (Proc.devRef .tc main_v66) := W10_of_ne m ρ c main_v66 (by decide)
    _ = W8 m ρ c (Proc.devRef .tc main_v66) := W9_keep m ρ c main_v66 (by decide)
    _ = W7 m ρ c (Proc.devRef .tc main_v66) := (W8_arr m ρ c 1).trans (((dat3 (V7 m ρ) c).arrAt_in 1 rfl _).trans (A_eq3 (V7 m ρ) c 1))
    _ = Cert.Ngcf.egoInit1 (argsK m c) := v66_W7 m ρ c

open G1 in
/-- Layer 0's normalised output. -/
theorem g1_w12_v90_1 (c : Dev nD) : W12 (F := Ideal) m ρ c (Proc.devRef .tc main_v90_1)
    = Cert.Ngcf.normNext (Cert.Ngcf.agg1 (argsK m c)) (argsK m c).gcW1 (argsK m c).biW1 (argsK m c).gcb1 (argsK m c).bib1 0 (Cert.Ngcf.egoInit1 (argsK m c)) :=
  calc W12 m ρ c (Proc.devRef .tc main_v90_1)
    _ = W11 m ρ c (Proc.devRef .tc main_v90_1) := W12_of_ne m ρ c main_v90_1 (by decide)
    _ = W10 m ρ c (Proc.devRef .tc main_v90_1) := W11_keep m ρ c main_v90_1 (by decide)
    _ = W9 m ρ c (Proc.devRef .tc main_v90_1) := W10_of_ne m ρ c main_v90_1 (by decide)
    _ = W8 m ρ c (Proc.devRef .tc main_v90_1) := W9_keep m ρ c main_v90_1 (by decide)
    _ = _ := v90_1_W8 m ρ c

open G1 in
/-- Layer 1's normalised output. -/
theorem g1_w12_v109_1 (c : Dev nD) : W12 (F := Ideal) m ρ c (Proc.devRef .tc main_v109_1)
    = Cert.Ngcf.normNext (Cert.Ngcf.agg1 (argsK m c)) (argsK m c).gcW1 (argsK m c).biW1 (argsK m c).gcb1 (argsK m c).bib1 1 (Cert.Ngcf.ego1 (Cert.Ngcf.agg1 (argsK m c)) (argsK m c).gcW1 (argsK m c).biW1 (argsK m c).gcb1 (argsK m c).bib1 (Cert.Ngcf.egoInit1 (argsK m c))) :=
  calc W12 m ρ c (Proc.devRef .tc main_v109_1)
    _ = W11 m ρ c (Proc.devRef .tc main_v109_1) := W12_of_ne m ρ c main_v109_1 (by decide)
    _ = W10 m ρ c (Proc.devRef .tc main_v109_1) := W11_keep m ρ c main_v109_1 (by decide)
    _ = _ := v109_1_W10 m ρ c

open G1 in
/-- Layer 2's normalised output. -/
theorem g1_w12_v128_1 (c : Dev nD) : W12 (F := Ideal) m ρ c (Proc.devRef .tc main_v128_1)
    = Cert.Ngcf.normNext (Cert.Ngcf.agg1 (argsK m c)) (argsK m c).gcW1 (argsK m c).biW1 (argsK m c).gcb1 (argsK m c).bib1 2 (Cert.Ngcf.ego2 (Cert.Ngcf.agg1 (argsK m c)) (argsK m c).gcW1 (argsK m c).biW1 (argsK m c).gcb1 (argsK m c).bib1 (Cert.Ngcf.egoInit1 (argsK m c))) :=
  v128_1_W12 m ρ c

end Cert.KernelIdeal.KF

end
-- ==== Proof.KiValue1b.lean ====
/- The value chain of the idealized kernel program, graph 1's last host stretch: the initial embedding and the three
   layers' outputs laid side by side are the common value's four embeddings; the user rows and the item rows are cut
   out of them, and the change of float format that follows each cut is the identity on the extended reals. -/
import proofs.«120809_j78615081386430_2_alg».proof.Proof.KiValue1

set_option maxRecDepth 16384

noncomputable section

namespace Cert.KernelIdeal.KF

open Cert.KernelIdeal Cert.KernelIdeal.Gen Cert.Ngcf
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-- Graph 1's four embeddings side by side. -/
theorem g1b_w13_v129 : (W13 m ρ c (Proc.devRef .tc main_v129) : FVec Ideal S7000x256 .f32) = emb1 (argsK m c) := by
  show StableHlo.after hostOps6 (W12 m ρ c) (Proc.devRef .tc main_v129) = _
  after_results
  show (concatenate S7000x256 1 [⟨S7000x64, (W12 m ρ c (Proc.devRef .tc main_v66) : FVec Ideal S7000x64 .f32)⟩, ⟨S7000x64, (W12 m ρ c (Proc.devRef .tc main_v90_1) : FVec Ideal S7000x64 .f32)⟩, ⟨S7000x64, (W12 m ρ c (Proc.devRef .tc main_v109_1) : FVec Ideal S7000x64 .f32)⟩, ⟨S7000x64, (W12 m ρ c (Proc.devRef .tc main_v128_1) : FVec Ideal S7000x64 .f32)⟩] concatenates_S7000x64_S7000x64_S7000x64_S7000x64_S7000x256_d1 : FVec Ideal S7000x256 .f32) = _
  rw [g1_w12_v66 m ρ c, g1_w12_v90_1 m ρ c, g1_w12_v109_1 m ρ c, g1_w12_v128_1 m ρ c]
  rfl

/-- The user rows of graph 1's four embeddings, as the user combine's right operand. -/
theorem K_u1 : W13 (F := Ideal) m ρ c (Proc.devRef .tc main_v132) = extractStridedSlice S4000x256 ![0, 0] (emb1 (argsK m c)) slices_S7000x256_S4000x256_0_0 := by
  show StableHlo.after hostOps6 (W12 m ρ c) (Proc.devRef .tc main_v132) = _
  after_results
  show (truncf .bf16 (extractStridedSlice S4000x256 ![0, 0] (concatenate S7000x256 1 [⟨S7000x64, (W12 m ρ c (Proc.devRef .tc main_v66) : FVec Ideal S7000x64 .f32)⟩, ⟨S7000x64, (W12 m ρ c (Proc.devRef .tc main_v90_1) : FVec Ideal S7000x64 .f32)⟩, ⟨S7000x64, (W12 m ρ c (Proc.devRef .tc main_v109_1) : FVec Ideal S7000x64 .f32)⟩, ⟨S7000x64, (W12 m ρ c (Proc.devRef .tc main_v128_1) : FVec Ideal S7000x64 .f32)⟩] concatenates_S7000x64_S7000x64_S7000x64_S7000x64_S7000x256_d1 : FVec Ideal S7000x256 .f32) slices_S7000x256_S4000x256_0_0 : FVec Ideal S4000x256 .f32) Facts₀.bitsLt_bf16_f32 : FVec Ideal S4000x256 .bf16) = _
  rw [g1_w12_v66 m ρ c, g1_w12_v90_1 m ρ c, g1_w12_v109_1 m ρ c, g1_w12_v128_1 m ρ c]
  rfl

/-- The item rows of graph 1's four embeddings, as the item combine's right operand. -/
theorem K_i1 : W13 (F := Ideal) m ρ c (Proc.devRef .tc main_v133) = extractStridedSlice S3000x256 ![4000, 0] (emb1 (argsK m c)) slices_S7000x256_S3000x256_4000_0 := by
  show StableHlo.after hostOps6 (W12 m ρ c) (Proc.devRef .tc main_v133) = _
  after_results
  show (truncf .bf16 (extractStridedSlice S3000x256 ![4000, 0] (concatenate S7000x256 1 [⟨S7000x64, (W12 m ρ c (Proc.devRef .tc main_v66) : FVec Ideal S7000x64 .f32)⟩, ⟨S7000x64, (W12 m ρ c (Proc.devRef .tc main_v90_1) : FVec Ideal S7000x64 .f32)⟩, ⟨S7000x64, (W12 m ρ c (Proc.devRef .tc main_v109_1) : FVec Ideal S7000x64 .f32)⟩, ⟨S7000x64, (W12 m ρ c (Proc.devRef .tc main_v128_1) : FVec Ideal S7000x64 .f32)⟩] concatenates_S7000x64_S7000x64_S7000x64_S7000x64_S7000x256_d1 : FVec Ideal S7000x256 .f32) slices_S7000x256_S3000x256_4000_0 : FVec Ideal S3000x256 .f32) Facts₀.bitsLt_bf16_f32 : FVec Ideal S3000x256 .bf16) = _
  rw [g1_w12_v66 m ρ c, g1_w12_v90_1 m ρ c, g1_w12_v109_1 m ρ c, g1_w12_v128_1 m ρ c]
  rfl

end Cert.KernelIdeal.KF

end
-- ==== Proof.KiFinal6.lean ====
/- Region 6, from blocks to arrays, on the extended reals: after the last grid point the combine kernel's output
   array is, entry by entry, the product of the map with the right operand plus the base, of the arrays the region
   was entered with. A row tile's entries depend on the tile's rows of the map and of the base and on the whole
   right operand, the tiles partition the rows, and every tile is written back. -/
import proofs.«120809_j78615081386430_2_alg».proof.Proof.KiBody6
import proofs.«120809_j78615081386430_2_alg».proof.Proof.LayerPay
import Idealize.ShloMosaic.Lib.Pipeline.Value

set_option maxRecDepth 16384

noncomputable section

namespace Cert.KernelIdeal.KF

open Cert.KernelIdeal Cert.KernelIdeal.Gen Cert.Ngcf
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff6 : (![0, 0] : Fin 2 → Nat) = fun _ => 0 := funext fun a => by fin_cases a <;> rfl

/-- The block index of each window at each grid point: the row-tiled windows sit at block `(t, 0)`, the right
    operand at block `(0, 0)`. -/
theorem tileIdx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

theorem tileLt6 (t : Fin cfg6.N) : t.val < 20 := lt_of_lt_of_eq t.isLt N_6

/-- The combine of the whole arrays, entry by entry. -/
abbrev combineArr6 (c : Dev nD) : S20000x256.Idx → EReal :=
  fun i => combineAt (M := 20000) (K := 4000) (N := 256) (V c (Pipeline.arrRef spec6 0)) (V c (Pipeline.arrRef spec6 1)) (V c (Pipeline.arrRef spec6 2)) (i 0) (i 1)

/-- Row `p` of tile `t` of the map is row `t · 1000 + p` of its array. -/
theorem mapRow6 (c : Dev nD) (t : Fin cfg6.N) (p : Fin 1000) (h : t.val * 1000 + p.val < 20000) (k : Fin 4000) :
    iblk6 V c 0 t (ix2 p k) = V c (Pipeline.arrRef spec6 0) (ix2 (⟨t.val * 1000 + p.val, h⟩ : Fin 20000) k) := by
  obtain ⟨a0, a1, -⟩ := tileIdx6 t
  show V c (Pipeline.arrRef spec6 0) (((cfg6.win 0).blk t).view.emb (ix2 p k)) = _
  refine congrArg _ (funext fun a => Fin.ext ?_)
  match a with
  | ⟨0, _⟩ => show win6_0.index t (0 : Fin 2) * 1000 + 1 * p.val = t.val * 1000 + p.val; omega
  | ⟨1, _⟩ => show win6_0.index t (1 : Fin 2) * 4000 + 1 * k.val = k.val; omega

/-- The right operand's one block is the whole array. -/
theorem rightAll6 (c : Dev nD) (t : Fin cfg6.N) (i : S4000x256.Idx) :
    iblk6 V c 1 t i = V c (Pipeline.arrRef spec6 1) i := by
  obtain ⟨-, -, r0, r1, -⟩ := tileIdx6 t
  show V c (Pipeline.arrRef spec6 1) (((cfg6.win 1).blk t).view.emb i) = _
  refine congrArg _ (funext fun a => Fin.ext ?_)
  match a with
  | ⟨0, _⟩ => show win6_1.index t (0 : Fin 2) * 4000 + 1 * (i 0).val = (i 0).val; omega
  | ⟨1, _⟩ => show win6_1.index t (1 : Fin 2) * 256 + 1 * (i 1).val = (i 1).val; omega

/-- Entry `(p, q)` of tile `t` of the base is entry `(t · 1000 + p, q)` of its array. -/
theorem baseRow6 (c : Dev nD) (t : Fin cfg6.N) (p : Fin 1000) (h : t.val * 1000 + p.val < 20000) (q : Fin 256) :
    iblk6 V c 2 t (ix2 p q) = V c (Pipeline.arrRef spec6 2) (ix2 (⟨t.val * 1000 + p.val, h⟩ : Fin 20000) q) := by
  obtain ⟨-, -, -, -, b0, b1, -⟩ := tileIdx6 t
  show V c (Pipeline.arrRef spec6 2) (((cfg6.win 2).blk t).view.emb (ix2 p q)) = _
  refine congrArg _ (funext fun a => Fin.ext ?_)
  match a with
  | ⟨0, _⟩ => show win6_2.index t (0 : Fin 2) * 1000 + 1 * p.val = t.val * 1000 + p.val; omega
  | ⟨1, _⟩ => show win6_2.index t (1 : Fin 2) * 256 + 1 * q.val = q.val; omega

/-- Entry `(p, q)` of tile `t` of the output window sits at row `t · 1000 + p`, column `q` of its array. -/
theorem outRow6_3 (t : Fin cfg6.N) (p : Fin 1000) (h : t.val * 1000 + p.val < 20000) (q : Fin 256) :
    ((cfg6.win 3).blk t).view.emb (ix2 p q) = ix2 (⟨t.val * 1000 + p.val, h⟩ : Fin 20000) q := by
  obtain ⟨-, -, -, -, -, -, o0, o1⟩ := tileIdx6 t
  refine funext fun a => Fin.ext ?_
  match a with
  | ⟨0, _⟩ => show win6_3.index t (0 : Fin 2) * 1000 + 1 * p.val = t.val * 1000 + p.val; omega
  | ⟨1, _⟩ => show win6_3.index t (1 : Fin 2) * 256 + 1 * q.val = q.val; omega

/-- What grid point `t` writes back to the output window is tile `t` of the whole-array function. -/
theorem flushed6_3_eq (c : Dev nD) (t : Fin cfg6.N) :
    (dat6 (F := Ideal) V c).flushed 3 t = ((cfg6.win 3).blk t).view.read (Elt Ideal) (combineArr6 V c) := by
  show (cfg6.win 3).cut (grid6.coords t) ((dat6 V c).after 3 t) = _
  rw [after6_3]
  unfold out6_3
  rw [View.canon_unit_zero zeroOff6]
  simp only [View.ld_unit_zero (S := S1000x4000) zeroOff6, View.ld_unit_zero (S := S4000x256) zeroOff6, View.ld_unit_zero (S := S1000x256) zeroOff6]
  funext j
  obtain ⟨p, q, rfl⟩ : ∃ p q, j = ix2 p q := ⟨j 0, j 1, eq_ix2 j⟩
  have hrow : t.val * 1000 + p.val < 20000 := by have := tileLt6 t; have := p.isLt; omega
  show k6_pay1 (F := Ideal) (iblk6 V c 0 t) (iblk6 V c 1 t) (iblk6 V c 2 t) (ix2 p q)
      = combineArr6 V c (((cfg6.win 3).blk t).view.emb (ix2 p q))
  rw [KV.k6_pay1_apply, outRow6_3 t p hrow q]
  exact combineAt_congr _ _ _ _ _ _ p ⟨t.val * 1000 + p.val, hrow⟩ q (mapRow6 V c t p hrow)
    (fun k => rightAll6 V c t (ix2 k q)) (baseRow6 V c t p hrow q)

/-- An index of the array lies in tile `t` of the output window iff each coordinate lies in the tile's range. -/
theorem mem_tile6_3 (t : Fin cfg6.N) (i : S20000x256.Idx) :
    i ∈ ((cfg6.win 3).blk t).view.set ↔ ∀ a : Fin 2, win6_3.index t a * S1000x256.size a ≤ (i a).val ∧ (i a).val < win6_3.index t a * S1000x256.size a + S1000x256.size a := by
  show i ∈ ((View.whole main_v134).slice (win6_3.rect t)).set ↔ _
  rw [View.set_slice_whole, Rect.mem_set_unit]
  exact Iff.rfl

/-- Every index of the array lies in the tile of its row's quotient by 1000, which is written back. -/
theorem tiles6_3 (i : S20000x256.Idx) :
    ∃ t : Fin cfg6.N, (cfg6.win 3).flush t = true ∧ i ∈ ((cfg6.win 3).blk t).view.set := by
  have hi0 : (i 0).val < 20000 := (i 0).isLt
  have hi1 : (i 1).val < 256 := (i 1).isLt
  obtain ⟨t, ht⟩ : ∃ t : Fin cfg6.N, t.val = (i 0).val / 1000 :=
    ⟨⟨(i 0).val / 1000, lt_of_lt_of_eq (by omega : (i 0).val / 1000 < 20) N_6.symm⟩, rfl⟩
  obtain ⟨-, -, -, -, -, -, o0, o1⟩ := tileIdx6 t
  refine ⟨t, flush6_3 t, ?_⟩
  rw [mem_tile6_3]
  intro a
  match a with
  | ⟨0, _⟩ => show win6_3.index t (0 : Fin 2) * 1000 ≤ (i 0).val ∧ (i 0).val < win6_3.index t (0 : Fin 2) * 1000 + 1000; omega
  | ⟨1, _⟩ => show win6_3.index t (1 : Fin 2) * 256 ≤ (i 1).val ∧ (i 1).val < win6_3.index t (1 : Fin 2) * 256 + 256; omega

/-- The output array after the last grid point. -/
theorem final6_3 (c : Dev nD) : (dat6 (F := Ideal) V c).arrAt 3 cfg6.N
    = fun i => combineAt (M := 20000) (K := 4000) (N := 256) (V c (Pipeline.arrRef spec6 0)) (V c (Pipeline.arrRef spec6 1)) (V c (Pipeline.arrRef spec6 2)) (i 0) (i 1) :=
  (dat6 (F := Ideal) V c).arrAt_eq_of_cover 3 (combineArr6 V c) (fun t _ => flushed6_3_eq V c t) (tiles6_3)

end Cert.KernelIdeal.KF

end
-- ==== Proof.KiFinal7.lean ====
/- Region 7, from blocks to arrays, on the extended reals: after the last grid point the combine kernel's output
   array is, entry by entry, the product of the map with the right operand plus the base, of the arrays the region
   was entered with. A row tile's entries depend on the tile's rows of the map and of the base and on the whole
   right operand, the tiles partition the rows, and every tile is written back. -/
import proofs.«120809_j78615081386430_2_alg».proof.Proof.KiBody7
import proofs.«120809_j78615081386430_2_alg».proof.Proof.LayerPay
import Idealize.ShloMosaic.Lib.Pipeline.Value

set_option maxRecDepth 16384

noncomputable section

namespace Cert.KernelIdeal.KF

open Cert.KernelIdeal Cert.KernelIdeal.Gen Cert.Ngcf
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOff7 : (![0, 0] : Fin 2 → Nat) = fun _ => 0 := funext fun a => by fin_cases a <;> rfl

/-- The block index of each window at each grid point: the row-tiled windows sit at block `(t, 0)`, the right
    operand at block `(0, 0)`. -/
theorem tileIdx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

theorem tileLt7 (t : Fin cfg7.N) : t.val < 15 := lt_of_lt_of_eq t.isLt N_7

/-- The combine of the whole arrays, entry by entry. -/
abbrev combineArr7 (c : Dev nD) : S15000x256.Idx → EReal :=
  fun i => combineAt (M := 15000) (K := 3000) (N := 256) (V c (Pipeline.arrRef spec7 0)) (V c (Pipeline.arrRef spec7 1)) (V c (Pipeline.arrRef spec7 2)) (i 0) (i 1)

/-- Row `p` of tile `t` of the map is row `t · 1000 + p` of its array. -/
theorem mapRow7 (c : Dev nD) (t : Fin cfg7.N) (p : Fin 1000) (h : t.val * 1000 + p.val < 15000) (k : Fin 3000) :
    iblk7 V c 0 t (ix2 p k) = V c (Pipeline.arrRef spec7 0) (ix2 (⟨t.val * 1000 + p.val, h⟩ : Fin 15000) k) := by
  obtain ⟨a0, a1, -⟩ := tileIdx7 t
  show V c (Pipeline.arrRef spec7 0) (((cfg7.win 0).blk t).view.emb (ix2 p k)) = _
  refine congrArg _ (funext fun a => Fin.ext ?_)
  match a with
  | ⟨0, _⟩ => show win7_0.index t (0 : Fin 2) * 1000 + 1 * p.val = t.val * 1000 + p.val; omega
  | ⟨1, _⟩ => show win7_0.index t (1 : Fin 2) * 3000 + 1 * k.val = k.val; omega

/-- The right operand's one block is the whole array. -/
theorem rightAll7 (c : Dev nD) (t : Fin cfg7.N) (i : S3000x256.Idx) :
    iblk7 V c 1 t i = V c (Pipeline.arrRef spec7 1) i := by
  obtain ⟨-, -, r0, r1, -⟩ := tileIdx7 t
  show V c (Pipeline.arrRef spec7 1) (((cfg7.win 1).blk t).view.emb i) = _
  refine congrArg _ (funext fun a => Fin.ext ?_)
  match a with
  | ⟨0, _⟩ => show win7_1.index t (0 : Fin 2) * 3000 + 1 * (i 0).val = (i 0).val; omega
  | ⟨1, _⟩ => show win7_1.index t (1 : Fin 2) * 256 + 1 * (i 1).val = (i 1).val; omega

/-- Entry `(p, q)` of tile `t` of the base is entry `(t · 1000 + p, q)` of its array. -/
theorem baseRow7 (c : Dev nD) (t : Fin cfg7.N) (p : Fin 1000) (h : t.val * 1000 + p.val < 15000) (q : Fin 256) :
    iblk7 V c 2 t (ix2 p q) = V c (Pipeline.arrRef spec7 2) (ix2 (⟨t.val * 1000 + p.val, h⟩ : Fin 15000) q) := by
  obtain ⟨-, -, -, -, b0, b1, -⟩ := tileIdx7 t
  show V c (Pipeline.arrRef spec7 2) (((cfg7.win 2).blk t).view.emb (ix2 p q)) = _
  refine congrArg _ (funext fun a => Fin.ext ?_)
  match a with
  | ⟨0, _⟩ => show win7_2.index t (0 : Fin 2) * 1000 + 1 * p.val = t.val * 1000 + p.val; omega
  | ⟨1, _⟩ => show win7_2.index t (1 : Fin 2) * 256 + 1 * q.val = q.val; omega

/-- Entry `(p, q)` of tile `t` of the output window sits at row `t · 1000 + p`, column `q` of its array. -/
theorem outRow7_3 (t : Fin cfg7.N) (p : Fin 1000) (h : t.val * 1000 + p.val < 15000) (q : Fin 256) :
    ((cfg7.win 3).blk t).view.emb (ix2 p q) = ix2 (⟨t.val * 1000 + p.val, h⟩ : Fin 15000) q := by
  obtain ⟨-, -, -, -, -, -, o0, o1⟩ := tileIdx7 t
  refine funext fun a => Fin.ext ?_
  match a with
  | ⟨0, _⟩ => show win7_3.index t (0 : Fin 2) * 1000 + 1 * p.val = t.val * 1000 + p.val; omega
  | ⟨1, _⟩ => show win7_3.index t (1 : Fin 2) * 256 + 1 * q.val = q.val; omega

/-- What grid point `t` writes back to the output window is tile `t` of the whole-array function. -/
theorem flushed7_3_eq (c : Dev nD) (t : Fin cfg7.N) :
    (dat7 (F := Ideal) V c).flushed 3 t = ((cfg7.win 3).blk t).view.read (Elt Ideal) (combineArr7 V c) := by
  show (cfg7.win 3).cut (grid7.coords t) ((dat7 V c).after 3 t) = _
  rw [after7_3]
  unfold out7_3
  rw [View.canon_unit_zero zeroOff7]
  simp only [View.ld_unit_zero (S := S1000x3000) zeroOff7, View.ld_unit_zero (S := S3000x256) zeroOff7, View.ld_unit_zero (S := S1000x256) zeroOff7]
  funext j
  obtain ⟨p, q, rfl⟩ : ∃ p q, j = ix2 p q := ⟨j 0, j 1, eq_ix2 j⟩
  have hrow : t.val * 1000 + p.val < 15000 := by have := tileLt7 t; have := p.isLt; omega
  show k7_pay1 (F := Ideal) (iblk7 V c 0 t) (iblk7 V c 1 t) (iblk7 V c 2 t) (ix2 p q)
      = combineArr7 V c (((cfg7.win 3).blk t).view.emb (ix2 p q))
  rw [KV.k7_pay1_apply, outRow7_3 t p hrow q]
  exact combineAt_congr _ _ _ _ _ _ p ⟨t.val * 1000 + p.val, hrow⟩ q (mapRow7 V c t p hrow)
    (fun k => rightAll7 V c t (ix2 k q)) (baseRow7 V c t p hrow q)

/-- An index of the array lies in tile `t` of the output window iff each coordinate lies in the tile's range. -/
theorem mem_tile7_3 (t : Fin cfg7.N) (i : S15000x256.Idx) :
    i ∈ ((cfg7.win 3).blk t).view.set ↔ ∀ a : Fin 2, win7_3.index t a * S1000x256.size a ≤ (i a).val ∧ (i a).val < win7_3.index t a * S1000x256.size a + S1000x256.size a := by
  show i ∈ ((View.whole main_v135).slice (win7_3.rect t)).set ↔ _
  rw [View.set_slice_whole, Rect.mem_set_unit]
  exact Iff.rfl

/-- Every index of the array lies in the tile of its row's quotient by 1000, which is written back. -/
theorem tiles7_3 (i : S15000x256.Idx) :
    ∃ t : Fin cfg7.N, (cfg7.win 3).flush t = true ∧ i ∈ ((cfg7.win 3).blk t).view.set := by
  have hi0 : (i 0).val < 15000 := (i 0).isLt
  have hi1 : (i 1).val < 256 := (i 1).isLt
  obtain ⟨t, ht⟩ : ∃ t : Fin cfg7.N, t.val = (i 0).val / 1000 :=
    ⟨⟨(i 0).val / 1000, lt_of_lt_of_eq (by omega : (i 0).val / 1000 < 15) N_7.symm⟩, rfl⟩
  obtain ⟨-, -, -, -, -, -, o0, o1⟩ := tileIdx7 t
  refine ⟨t, flush7_3 t, ?_⟩
  rw [mem_tile7_3]
  intro a
  match a with
  | ⟨0, _⟩ => show win7_3.index t (0 : Fin 2) * 1000 ≤ (i 0).val ∧ (i 0).val < win7_3.index t (0 : Fin 2) * 1000 + 1000; omega
  | ⟨1, _⟩ => show win7_3.index t (1 : Fin 2) * 256 ≤ (i 1).val ∧ (i 1).val < win7_3.index t (1 : Fin 2) * 256 + 256; omega

/-- The output array after the last grid point. -/
theorem final7_3 (c : Dev nD) : (dat7 (F := Ideal) V c).arrAt 3 cfg7.N
    = fun i => combineAt (M := 15000) (K := 3000) (N := 256) (V c (Pipeline.arrRef spec7 0)) (V c (Pipeline.arrRef spec7 1)) (V c (Pipeline.arrRef spec7 2)) (i 0) (i 1) :=
  (dat7 (F := Ideal) V c).arrAt_eq_of_cover 3 (combineArr7 V c) (fun t _ => flushed7_3_eq V c t) (tiles7_3)

end Cert.KernelIdeal.KF

end
-- ==== Proof.KiValue.lean ====
/-
  The kernel program's two results are the common value.  The last two regions each compute, row tile by row tile, a
  map's product with graph 1's rows plus graph 0's rows; their operands are the two maps, which nothing has written,
  graph 0's rows as they were cut after its third layer, and graph 1's rows as they were cut and converted after its
  third layer, each carried unchanged through the regions and host stretches in between.
-/
import proofs.«120809_j78615081386430_2_alg».proof.Proof.KiValue0
import proofs.«120809_j78615081386430_2_alg».proof.Proof.KiValue1b
import proofs.«120809_j78615081386430_2_alg».proof.Proof.KiFinal6
import proofs.«120809_j78615081386430_2_alg».proof.Proof.KiFinal7

set_option maxRecDepth 16384

noncomputable section

namespace Cert.KernelIdeal.KF

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The user map as region 6 finds it is the argument. -/
theorem W13_mapu (c : Dev nD) : W13 (F := Ideal) m ρ c (Proc.devRef .tc main_arg12) = (argsK m c).mapu :=
  calc W13 (F := Ideal) m ρ c (Proc.devRef .tc main_arg12)
      _ = W12 (F := Ideal) m ρ c (Proc.devRef .tc main_arg12) := W13_keep m ρ c main_arg12 (by decide)
      _ = W11 (F := Ideal) m ρ c (Proc.devRef .tc main_arg12) := W12_of_ne m ρ c main_arg12 (by decide)
      _ = W10 (F := Ideal) m ρ c (Proc.devRef .tc main_arg12) := W11_keep m ρ c main_arg12 (by decide)
      _ = W9 (F := Ideal) m ρ c (Proc.devRef .tc main_arg12) := W10_of_ne m ρ c main_arg12 (by decide)
      _ = W8 (F := Ideal) m ρ c (Proc.devRef .tc main_arg12) := W9_keep m ρ c main_arg12 (by decide)
      _ = W7 (F := Ideal) m ρ c (Proc.devRef .tc main_arg12) := W8_of_ne m ρ c main_arg12 (by decide)
      _ = W6 (F := Ideal) m ρ c (Proc.devRef .tc main_arg12) := W7_keep m ρ c main_arg12 (by decide)
      _ = W5 (F := Ideal) m ρ c (Proc.devRef .tc main_arg12) := W6_of_ne m ρ c main_arg12 (by decide)
      _ = W4 (F := Ideal) m ρ c (Proc.devRef .tc main_arg12) := W5_keep m ρ c main_arg12 (by decide)
      _ = W3 (F := Ideal) m ρ c (Proc.devRef .tc main_arg12) := W4_of_ne m ρ c main_arg12 (by decide)
      _ = W2 (F := Ideal) m ρ c (Proc.devRef .tc main_arg12) := W3_keep m ρ c main_arg12 (by decide)
      _ = W1 (F := Ideal) m ρ c (Proc.devRef .tc main_arg12) := W2_of_ne m ρ c main_arg12 (by decide)
      _ = W0 (F := Ideal) m ρ c (Proc.devRef .tc main_arg12) := W1_keep m ρ c main_arg12 (by decide)
      _ = (argsK m c).mapu := rfl

/-- Graph 0's user rows as region 6 finds them are as they were cut. -/
theorem W13_user0 (c : Dev nD) : W13 (F := Ideal) m ρ c (Proc.devRef .tc main_v64) = W7 (F := Ideal) m ρ c (Proc.devRef .tc main_v64) :=
  calc W13 (F := Ideal) m ρ c (Proc.devRef .tc main_v64)
      _ = W12 (F := Ideal) m ρ c (Proc.devRef .tc main_v64) := W13_keep m ρ c main_v64 (by decide)
      _ = W11 (F := Ideal) m ρ c (Proc.devRef .tc main_v64) := W12_of_ne m ρ c main_v64 (by decide)
      _ = W10 (F := Ideal) m ρ c (Proc.devRef .tc main_v64) := W11_keep m ρ c main_v64 (by decide)
      _ = W9 (F := Ideal) m ρ c (Proc.devRef .tc main_v64) := W10_of_ne m ρ c main_v64 (by decide)
      _ = W8 (F := Ideal) m ρ c (Proc.devRef .tc main_v64) := W9_keep m ρ c main_v64 (by decide)
      _ = W7 (F := Ideal) m ρ c (Proc.devRef .tc main_v64) := W8_of_ne m ρ c main_v64 (by decide)

/-- The item map as region 7 finds it is the argument. -/
theorem W14_mapi (c : Dev nD) : W14 (F := Ideal) m ρ c (Proc.devRef .tc main_arg13) = (argsK m c).mapi :=
  calc W14 (F := Ideal) m ρ c (Proc.devRef .tc main_arg13)
      _ = W13 (F := Ideal) m ρ c (Proc.devRef .tc main_arg13) := W14_of_ne m ρ c main_arg13 (by decide)
      _ = W12 (F := Ideal) m ρ c (Proc.devRef .tc main_arg13) := W13_keep m ρ c main_arg13 (by decide)
      _ = W11 (F := Ideal) m ρ c (Proc.devRef .tc main_arg13) := W12_of_ne m ρ c main_arg13 (by decide)
      _ = W10 (F := Ideal) m ρ c (Proc.devRef .tc main_arg13) := W11_keep m ρ c main_arg13 (by decide)
      _ = W9 (F := Ideal) m ρ c (Proc.devRef .tc main_arg13) := W10_of_ne m ρ c main_arg13 (by decide)
      _ = W8 (F := Ideal) m ρ c (Proc.devRef .tc main_arg13) := W9_keep m ρ c main_arg13 (by decide)
      _ = W7 (F := Ideal) m ρ c (Proc.devRef .tc main_arg13) := W8_of_ne m ρ c main_arg13 (by decide)
      _ = W6 (F := Ideal) m ρ c (Proc.devRef .tc main_arg13) := W7_keep m ρ c main_arg13 (by decide)
      _ = W5 (F := Ideal) m ρ c (Proc.devRef .tc main_arg13) := W6_of_ne m ρ c main_arg13 (by decide)
      _ = W4 (F := Ideal) m ρ c (Proc.devRef .tc main_arg13) := W5_keep m ρ c main_arg13 (by decide)
      _ = W3 (F := Ideal) m ρ c (Proc.devRef .tc main_arg13) := W4_of_ne m ρ c main_arg13 (by decide)
      _ = W2 (F := Ideal) m ρ c (Proc.devRef .tc main_arg13) := W3_keep m ρ c main_arg13 (by decide)
      _ = W1 (F := Ideal) m ρ c (Proc.devRef .tc main_arg13) := W2_of_ne m ρ c main_arg13 (by decide)
      _ = W0 (F := Ideal) m ρ c (Proc.devRef .tc main_arg13) := W1_keep m ρ c main_arg13 (by decide)
      _ = (argsK m c).mapi := rfl

/-- Graph 0's item rows as region 7 finds them are as they were cut. -/
theorem W14_item0 (c : Dev nD) : W14 (F := Ideal) m ρ c (Proc.devRef .tc main_v65) = W7 (F := Ideal) m ρ c (Proc.devRef .tc main_v65) :=
  calc W14 (F := Ideal) m ρ c (Proc.devRef .tc main_v65)
      _ = W13 (F := Ideal) m ρ c (Proc.devRef .tc main_v65) := W14_of_ne m ρ c main_v65 (by decide)
      _ = W12 (F := Ideal) m ρ c (Proc.devRef .tc main_v65) := W13_keep m ρ c main_v65 (by decide)
      _ = W11 (F := Ideal) m ρ c (Proc.devRef .tc main_v65) := W12_of_ne m ρ c main_v65 (by decide)
      _ = W10 (F := Ideal) m ρ c (Proc.devRef .tc main_v65) := W11_keep m ρ c main_v65 (by decide)
      _ = W9 (F := Ideal) m ρ c (Proc.devRef .tc main_v65) := W10_of_ne m ρ c main_v65 (by decide)
      _ = W8 (F := Ideal) m ρ c (Proc.devRef .tc main_v65) := W9_keep m ρ c main_v65 (by decide)
      _ = W7 (F := Ideal) m ρ c (Proc.devRef .tc main_v65) := W8_of_ne m ρ c main_v65 (by decide)

/-- Graph 1's item rows as region 7 finds them are as they were converted. -/
theorem W14_item1 (c : Dev nD) : W14 (F := Ideal) m ρ c (Proc.devRef .tc main_v133) = W13 (F := Ideal) m ρ c (Proc.devRef .tc main_v133) :=
  W14_of_ne m ρ c main_v133 (by decide)

/-- The kernel's user result is the common value. -/
theorem ker_user (c : Dev nD) : W15 (F := Ideal) m ρ c (Proc.devRef .tc main_v134) = Cert.Ngcf.userSpec (argsK m c) := by
  rw [W15_of_ne m ρ c main_v134 (by decide)]
  refine (W14_arr (F := Ideal) m ρ c (3 : Fin cfg6.W)).trans ?_
  rw [final6_3]
  have e0 : V13 (F := Ideal) m ρ c (Pipeline.arrRef spec6 0) = (argsK m c).mapu := W13_mapu m ρ c
  have e1 : V13 (F := Ideal) m ρ c (Pipeline.arrRef spec6 1) = _ := K_u1 m ρ c
  have e2 : V13 (F := Ideal) m ρ c (Pipeline.arrRef spec6 2) = _ := (W13_user0 m ρ c).trans (K_u0 m ρ c)
  rw [e0, e1, e2]
  rfl

/-- The kernel's item result is the common value. -/
theorem ker_item (c : Dev nD) : W15 (F := Ideal) m ρ c (Proc.devRef .tc main_v135) = Cert.Ngcf.itemSpec (argsK m c) := by
  refine (W15_arr (F := Ideal) m ρ c (3 : Fin cfg7.W)).trans ?_
  rw [final7_3]
  have e0 : V14 (F := Ideal) m ρ c (Pipeline.arrRef spec7 0) = (argsK m c).mapi := W14_mapi m ρ c
  have e1 : V14 (F := Ideal) m ρ c (Pipeline.arrRef spec7 1) = _ := (W14_item1 m ρ c).trans (K_i1 m ρ c)
  have e2 : V14 (F := Ideal) m ρ c (Pipeline.arrRef spec7 2) = _ := (W14_item0 m ρ c).trans (K_i0 m ρ c)
  rw [e0, e1, e2]
  rfl

end Cert.KernelIdeal.KF

end
-- ==== Proof.RefRunOps.lean ====
/-
  The reference program's @main, read as one straight line of host operations.

  @main is a sequence of tensor operations, some of them written directly and some inside small functions it calls
  (a leaky rectifier, which itself calls a select, and a row norm; each in two sizes, one per graph). A call executes
  the callee's body on the operands, so the whole program is the list of all those operations in order, each callee's
  operations standing where the call stands, over the buffers that call names for the callee's values. This module
  writes that list down, five stretches `ops0 … ops4` following the five windows `main_part0 … main_part4` in which
  @main is stated, and proves that each window is the straight line of its stretch and @main the straight line of
  their concatenation `ops`.
-/
import proofs.«120809_j78615081386430_2_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- Window `main_part0` as 76 operations: its own operations as written and, where it calls, the callee's operations
    over that call's buffers (`fn_leaky_relu` over `main_call0`, `fn_leaky_relu` over `main_call1`, `fn_norm` over `main_call2`; a rectifier's last operation is the select it calls in turn). -/
abbrev ops0 : List (HloOp τ sig (Elt F)) :=
  [ binary main_arg0 main_arg1 main_v0 ((fun a b => concatenate S35000x64 0 [⟨S20000x64, a⟩, ⟨S15000x64, b⟩] concatenates_S20000x64_S15000x64_S35000x64_d0) : (⟨S20000x64, .f32⟩ : BufTy).Contents (Elt F) → (⟨S15000x64, .f32⟩ : BufTy).Contents (Elt F) → (⟨S35000x64, .f32⟩ : BufTy).Contents (Elt F)),
    unary main_arg14 main_v1 (broadcastInDim S1000000x1 ![0] bcast_S1000000_S1000000x1_0 : (⟨S1000000, .f32⟩ : BufTy).Contents (Elt F) → (⟨S1000000x1, .f32⟩ : BufTy).Contents (Elt F)),
    nullary main_c (constantI S_ 32 0#32),
    unary main_c main_v2 (broadcastInDim S1000000 ![] bcast_S_S1000000 : (⟨S_, .i32⟩ : BufTy).Contents (Elt F) → (⟨S1000000, .i32⟩ : BufTy).Contents (Elt F)),
    binary main_arg17 main_v2 main_v3 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 35000#32),
    unary main_c_0 main_v4 (broadcastInDim S1000000 ![] bcast_S_S1000000 : (⟨S_, .i32⟩ : BufTy).Contents (Elt F) → (⟨S1000000, .i32⟩ : BufTy).Contents (Elt F)),
    binary main_arg17 main_v4 main_v5 (addi : (⟨S1000000, .i32⟩ : BufTy).Contents (Elt F) → (⟨S1000000, .i32⟩ : BufTy).Contents (Elt F) → (⟨S1000000, .i32⟩ : BufTy).Contents (Elt F)),
    ternary main_v3 main_v5 main_arg17 main_v6 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v6 main_v7 (broadcastInDim S1000000x1 ![0] bcast_S1000000_S1000000x1_0 : (⟨S1000000, .i32⟩ : BufTy).Contents (Elt F) → (⟨S1000000x1, .i32⟩ : BufTy).Contents (Elt F)),
    binary main_v0 main_v7 main_v8 ((fun x i => Host.gather gather_S35000x64_S1000000x1_S1000000x64_1_0_n_n_0_1_164 x i) : (⟨S35000x64, .f32⟩ : BufTy).Contents (Elt F) → (⟨S1000000x1, .i32⟩ : BufTy).Contents (Elt F) → (⟨S1000000x64, .f32⟩ : BufTy).Contents (Elt F)),
    unary main_v1 main_v9 (broadcastInDim S1000000x64 ![0, 1] bcast_S1000000x1_S1000000x64_0_1 : (⟨S1000000x1, .f32⟩ : BufTy).Contents (Elt F) → (⟨S1000000x64, .f32⟩ : BufTy).Contents (Elt F)),
    binary main_v9 main_v8 main_v10 (mulf : (⟨S1000000x64, .f32⟩ : BufTy).Contents (Elt F) → (⟨S1000000x64, .f32⟩ : BufTy).Contents (Elt F) → (⟨S1000000x64, .f32⟩ : BufTy).Contents (Elt F)),
    nullary main_cst (constant S_ .f32 0x00000000#32),
    unary main_cst main_v11 (broadcastInDim S35000x64 ![] bcast_S_S35000x64 : (⟨S_, .f32⟩ : BufTy).Contents (Elt F) → (⟨S35000x64, .f32⟩ : BufTy).Contents (Elt F)),
    unary main_arg16 main_v12 (broadcastInDim S1000000x1 ![0] bcast_S1000000_S1000000x1_0 : (⟨S1000000, .i32⟩ : BufTy).Contents (Elt F) → (⟨S1000000x1, .i32⟩ : BufTy).Contents (Elt F)),
    ternary main_v11 main_v12 main_v10 main_v13 ((fun x i u => Host.scatterAdd scatter_S35000x64_S1000000x1_S1000000x64_1_0_0_1 x i u) : (⟨S35000x64, .f32⟩ : BufTy).Contents (Elt F) → (⟨S1000000x1, .i32⟩ : BufTy).Contents (Elt F) → (⟨S1000000x64, .f32⟩ : BufTy).Contents (Elt F) → (⟨S35000x64, .f32⟩ : BufTy).Contents (Elt F)),
    unary main_arg2 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v14 main_v15 rfl shapeCasts_S1x64x64_S64x64,
    binary main_v13 main_v15 main_v16 ((fun l r => Host.dotGeneral dot_S35000x64_S64x64_S35000x64_1_0_0_1_n_n none l r) : (⟨S35000x64, .f32⟩ : BufTy).Contents (Elt F) → (⟨S64x64, .f32⟩ : BufTy).Contents (Elt F) → (⟨S35000x64, .f32⟩ : BufTy).Contents (Elt F)),
    unary main_arg3 main_v17 ((extractStridedSlice S1x64 ![0, 0] · slices_S3x64_S1x64_0_0) : (⟨S3x64, .f32⟩ : BufTy).Contents (Elt F) → (⟨S1x64, .f32⟩ : BufTy).Contents (Elt F)),
    reshape main_v17 main_v18 rfl shapeCasts_S1x64_S64,
    unary main_v18 main_v19 (broadcastInDim S1x64 ![1] bcast_S64_S1x64_1 : (⟨S64, .f32⟩ : BufTy).Contents (Elt F) → (⟨S1x64, .f32⟩ : BufTy).Contents (Elt F)),
    unary main_v19 main_v20 (broadcastInDim S35000x64 ![0, 1] bcast_S1x64_S35000x64_0_1 : (⟨S1x64, .f32⟩ : BufTy).Contents (Elt F) → (⟨S35000x64, .f32⟩ : BufTy).Contents (Elt F)),
    binary main_v16 main_v20 main_v21 (addf : (⟨S35000x64, .f32⟩ : BufTy).Contents (Elt F) → (⟨S35000x64, .f32⟩ : BufTy).Contents (Elt F) → (⟨S35000x64, .f32⟩ : BufTy).Contents (Elt F)),
    nullary main_cst_1 (constant S_ .f32 0x3C23D70A#32),
    TRef.nullary main_call0.cst (constant S_ .f32 0x00000000#32),
    TRef.unary main_call0.cst main_call0.v0 (broadcastInDim S35000x64 ![] bcast_S_S35000x64),
    TRef.binary (.of main_v21 : TRef sig ⟨S35000x64, .f32⟩) main_call0.v0 main_call0.v1 (cmpf .oge),
    TRef.unary (.of main_cst_1 : TRef sig ⟨S_, .f32⟩) main_call0.v2 id,
    TRef.unary main_call0.v2 main_call0.v3 (broadcastInDim S35000x64 ![] bcast_S_S35000x64),
    TRef.binary main_call0.v3 (.of main_v21 : TRef sig ⟨S35000x64, .f32⟩) main_call0.v4 mulf,
    TRef.ternary main_call0.v1 (.of main_v21 : TRef sig ⟨S35000x64, .f32⟩) main_call0.v4 main_call0.call0.v0 select,
    binary main_v0 main_v13 main_v23 (mulf : (⟨S35000x64, .f32⟩ : BufTy).Contents (Elt F) → (⟨S35000x64, .f32⟩ : BufTy).Contents (Elt F) → (⟨S35000x64, .f32⟩ : BufTy).Contents (Elt F)),
    unary main_arg4 main_v24 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v24 main_v25 rfl shapeCasts_S1x64x64_S64x64,
    binary main_v23 main_v25 main_v26 ((fun l r => Host.dotGeneral dot_S35000x64_S64x64_S35000x64_1_0_0_1_n_n none l r) : (⟨S35000x64, .f32⟩ : BufTy).Contents (Elt F) → (⟨S64x64, .f32⟩ : BufTy).Contents (Elt F) → (⟨S35000x64, .f32⟩ : BufTy).Contents (Elt F)),
    unary main_arg5 main_v27 ((extractStridedSlice S1x64 ![0, 0] · slices_S3x64_S1x64_0_0) : (⟨S3x64, .f32⟩ : BufTy).Contents (Elt F) → (⟨S1x64, .f32⟩ : BufTy).Contents (Elt F)),
    reshape main_v27 main_v28 rfl shapeCasts_S1x64_S64,
    unary main_v28 main_v29 (broadcastInDim S1x64 ![1] bcast_S64_S1x64_1 : (⟨S64, .f32⟩ : BufTy).Contents (Elt F) → (⟨S1x64, .f32⟩ : BufTy).Contents (Elt F)),
    unary main_v29 main_v30 (broadcastInDim S35000x64 ![0, 1] bcast_S1x64_S35000x64_0_1 : (⟨S1x64, .f32⟩ : BufTy).Contents (Elt F) → (⟨S35000x64, .f32⟩ : BufTy).Contents (Elt F)),
    binary main_v26 main_v30 main_v31 (addf : (⟨S35000x64, .f32⟩ : BufTy).Contents (Elt F) → (⟨S35000x64, .f32⟩ : BufTy).Contents (Elt F) → (⟨S35000x64, .f32⟩ : BufTy).Contents (Elt F)),
    nullary main_cst_2 (constant S_ .f32 0x3C23D70A#32),
    TRef.nullary main_call1.cst (constant S_ .f32 0x00000000#32),
    TRef.unary main_call1.cst main_call1.v0 (broadcastInDim S35000x64 ![] bcast_S_S35000x64),
    TRef.binary (.of main_v31 : TRef sig ⟨S35000x64, .f32⟩) main_call1.v0 main_call1.v1 (cmpf .oge),
    TRef.unary (.of main_cst_2 : TRef sig ⟨S_, .f32⟩) main_call1.v2 id,
    TRef.unary main_call1.v2 main_call1.v3 (broadcastInDim S35000x64 ![] bcast_S_S35000x64),
    TRef.binary main_call1.v3 (.of main_v31 : TRef sig ⟨S35000x64, .f32⟩) main_call1.v4 mulf,
    TRef.ternary main_call1.v1 (.of main_v31 : TRef sig ⟨S35000x64, .f32⟩) main_call1.v4 main_call1.call0.v0 select,
    binary main_v22 main_v32 main_v33 (addf : (⟨S35000x64, .f32⟩ : BufTy).Contents (Elt F) → (⟨S35000x64, .f32⟩ : BufTy).Contents (Elt F) → (⟨S35000x64, .f32⟩ : BufTy).Contents (Elt F)),
    TRef.binary (.of main_v33 : TRef sig ⟨S35000x64, .f32⟩) (.of main_v33 : TRef sig ⟨S35000x64, .f32⟩) main_call2.v0 mulf,
    TRef.nullary main_call2.cst (constant S_ .f32 0x00000000#32),
    TRef.binary main_call2.v0 main_call2.cst main_call2.v1 (fun x v => Host.reduceAdd x v reducesTo_S35000x64_S35000_d1 h_S_),
    TRef.unary main_call2.v1 main_call2.v2 (broadcastInDim S35000x1 ![0] bcast_S35000_S35000x1_0),
    TRef.unary main_call2.v2 main_call2.v3 Host.sqrt,
    nullary main_cst_3 (constant S_ .f32 0x2B8CBCCC#32),
    unary main_cst_3 main_v35 (broadcastInDim S35000x1 ![] bcast_S_S35000x1 : (⟨S_, .f32⟩ : BufTy).Contents (Elt F) → (⟨S35000x1, .f32⟩ : BufTy).Contents (Elt F)),
    binary main_v34 main_v35 main_v36 (maximumf : (⟨S35000x1, .f32⟩ : BufTy).Contents (Elt F) → (⟨S35000x1, .f32⟩ : BufTy).Contents (Elt F) → (⟨S35000x1, .f32⟩ : BufTy).Contents (Elt F)),
    unary main_v36 main_v37 (broadcastInDim S35000x64 ![0, 1] bcast_S35000x1_S35000x64_0_1 : (⟨S35000x1, .f32⟩ : BufTy).Contents (Elt F) → (⟨S35000x64, .f32⟩ : BufTy).Contents (Elt F)),
    binary main_v33 main_v37 main_v38 (Host.divf : (⟨S35000x64, .f32⟩ : BufTy).Contents (Elt F) → (⟨S35000x64, .f32⟩ : BufTy).Contents (Elt F) → (⟨S35000x64, .f32⟩ : BufTy).Contents (Elt F)),
    unary main_arg14 main_v39 (broadcastInDim S1000000x1 ![0] bcast_S1000000_S1000000x1_0 : (⟨S1000000, .f32⟩ : BufTy).Contents (Elt F) → (⟨S1000000x1, .f32⟩ : BufTy).Contents (Elt F)),
    nullary main_c_4 (constantI S_ 32 0#32),
    unary main_c_4 main_v40 (broadcastInDim S1000000 ![] bcast_S_S1000000 : (⟨S_, .i32⟩ : BufTy).Contents (Elt F) → (⟨S1000000, .i32⟩ : BufTy).Contents (Elt F)),
    binary main_arg17 main_v40 main_v41 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 35000#32),
    unary main_c_5 main_v42 (broadcastInDim S1000000 ![] bcast_S_S1000000 : (⟨S_, .i32⟩ : BufTy).Contents (Elt F) → (⟨S1000000, .i32⟩ : BufTy).Contents (Elt F)),
    binary main_arg17 main_v42 main_v43 (addi : (⟨S1000000, .i32⟩ : BufTy).Contents (Elt F) → (⟨S1000000, .i32⟩ : BufTy).Contents (Elt F) → (⟨S1000000, .i32⟩ : BufTy).Contents (Elt F)),
    ternary main_v41 main_v43 main_arg17 main_v44 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v44 main_v45 (broadcastInDim S1000000x1 ![0] bcast_S1000000_S1000000x1_0 : (⟨S1000000, .i32⟩ : BufTy).Contents (Elt F) → (⟨S1000000x1, .i32⟩ : BufTy).Contents (Elt F)),
    binary main_v33 main_v45 main_v46 ((fun x i => Host.gather gather_S35000x64_S1000000x1_S1000000x64_1_0_n_n_0_1_164 x i) : (⟨S35000x64, .f32⟩ : BufTy).Contents (Elt F) → (⟨S1000000x1, .i32⟩ : BufTy).Contents (Elt F) → (⟨S1000000x64, .f32⟩ : BufTy).Contents (Elt F)),
    unary main_v39 main_v47 (broadcastInDim S1000000x64 ![0, 1] bcast_S1000000x1_S1000000x64_0_1 : (⟨S1000000x1, .f32⟩ : BufTy).Contents (Elt F) → (⟨S1000000x64, .f32⟩ : BufTy).Contents (Elt F)),
    binary main_v47 main_v46 main_v48 (mulf : (⟨S1000000x64, .f32⟩ : BufTy).Contents (Elt F) → (⟨S1000000x64, .f32⟩ : BufTy).Contents (Elt F) → (⟨S1000000x64, .f32⟩ : BufTy).Contents (Elt F)),
    nullary main_cst_6 (constant S_ .f32 0x00000000#32),
    unary main_cst_6 main_v49 (broadcastInDim S35000x64 ![] bcast_S_S35000x64 : (⟨S_, .f32⟩ : BufTy).Contents (Elt F) → (⟨S35000x64, .f32⟩ : BufTy).Contents (Elt F)),
    unary main_arg16 main_v50 (broadcastInDim S1000000x1 ![0] bcast_S1000000_S1000000x1_0 : (⟨S1000000, .i32⟩ : BufTy).Contents (Elt F) → (⟨S1000000x1, .i32⟩ : BufTy).Contents (Elt F)) ]

/-- Window `main_part1` as 82 operations: its own operations as written and, where it calls, the callee's operations
    over that call's buffers (`fn_leaky_relu` over `main_call3`, `fn_leaky_relu` over `main_call4`, `fn_norm` over `main_call5`, `fn_leaky_relu` over `main_call6`; a rectifier's last operation is the select it calls in turn). -/
abbrev ops1 : List (HloOp τ sig (Elt F)) :=
  [ ternary main_v49 main_v50 main_v48 main_v51 ((fun x i u => Host.scatterAdd scatter_S35000x64_S1000000x1_S1000000x64_1_0_0_1 x i u) : (⟨S35000x64, .f32⟩ : BufTy).Contents (Elt F) → (⟨S1000000x1, .i32⟩ : BufTy).Contents (Elt F) → (⟨S1000000x64, .f32⟩ : BufTy).Contents (Elt F) → (⟨S35000x64, .f32⟩ : BufTy).Contents (Elt F)),
    unary main_arg2 main_v52 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v52 main_v53 rfl shapeCasts_S1x64x64_S64x64,
    binary main_v51 main_v53 main_v54 ((fun l r => Host.dotGeneral dot_S35000x64_S64x64_S35000x64_1_0_0_1_n_n none l r) : (⟨S35000x64, .f32⟩ : BufTy).Contents (Elt F) → (⟨S64x64, .f32⟩ : BufTy).Contents (Elt F) → (⟨S35000x64, .f32⟩ : BufTy).Contents (Elt F)),
    unary main_arg3 main_v55 ((extractStridedSlice S1x64 ![1, 0] · slices_S3x64_S1x64_1_0) : (⟨S3x64, .f32⟩ : BufTy).Contents (Elt F) → (⟨S1x64, .f32⟩ : BufTy).Contents (Elt F)),
    reshape main_v55 main_v56 rfl shapeCasts_S1x64_S64,
    unary main_v56 main_v57 (broadcastInDim S1x64 ![1] bcast_S64_S1x64_1 : (⟨S64, .f32⟩ : BufTy).Contents (Elt F) → (⟨S1x64, .f32⟩ : BufTy).Contents (Elt F)),
    unary main_v57 main_v58 (broadcastInDim S35000x64 ![0, 1] bcast_S1x64_S35000x64_0_1 : (⟨S1x64, .f32⟩ : BufTy).Contents (Elt F) → (⟨S35000x64, .f32⟩ : BufTy).Contents (Elt F)),
    binary main_v54 main_v58 main_v59 (addf : (⟨S35000x64, .f32⟩ : BufTy).Contents (Elt F) → (⟨S35000x64, .f32⟩ : BufTy).Contents (Elt F) → (⟨S35000x64, .f32⟩ : BufTy).Contents (Elt F)),
    nullary main_cst_7 (constant S_ .f32 0x3C23D70A#32),
    TRef.nullary main_call3.cst (constant S_ .f32 0x00000000#32),
    TRef.unary main_call3.cst main_call3.v0 (broadcastInDim S35000x64 ![] bcast_S_S35000x64),
    TRef.binary (.of main_v59 : TRef sig ⟨S35000x64, .f32⟩) main_call3.v0 main_call3.v1 (cmpf .oge),
    TRef.unary (.of main_cst_7 : TRef sig ⟨S_, .f32⟩) main_call3.v2 id,
    TRef.unary main_call3.v2 main_call3.v3 (broadcastInDim S35000x64 ![] bcast_S_S35000x64),
    TRef.binary main_call3.v3 (.of main_v59 : TRef sig ⟨S35000x64, .f32⟩) main_call3.v4 mulf,
    TRef.ternary main_call3.v1 (.of main_v59 : TRef sig ⟨S35000x64, .f32⟩) main_call3.v4 main_call3.call0.v0 select,
    binary main_v33 main_v51 main_v61 (mulf : (⟨S35000x64, .f32⟩ : BufTy).Contents (Elt F) → (⟨S35000x64, .f32⟩ : BufTy).Contents (Elt F) → (⟨S35000x64, .f32⟩ : BufTy).Contents (Elt F)),
    unary main_arg4 main_v62 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v62 main_v63 rfl shapeCasts_S1x64x64_S64x64,
    binary main_v61 main_v63 main_v64 ((fun l r => Host.dotGeneral dot_S35000x64_S64x64_S35000x64_1_0_0_1_n_n none l r) : (⟨S35000x64, .f32⟩ : BufTy).Contents (Elt F) → (⟨S64x64, .f32⟩ : BufTy).Contents (Elt F) → (⟨S35000x64, .f32⟩ : BufTy).Contents (Elt F)),
    unary main_arg5 main_v65 ((extractStridedSlice S1x64 ![1, 0] · slices_S3x64_S1x64_1_0) : (⟨S3x64, .f32⟩ : BufTy).Contents (Elt F) → (⟨S1x64, .f32⟩ : BufTy).Contents (Elt F)),
    reshape main_v65 main_v66 rfl shapeCasts_S1x64_S64,
    unary main_v66 main_v67 (broadcastInDim S1x64 ![1] bcast_S64_S1x64_1 : (⟨S64, .f32⟩ : BufTy).Contents (Elt F) → (⟨S1x64, .f32⟩ : BufTy).Contents (Elt F)),
    unary main_v67 main_v68 (broadcastInDim S35000x64 ![0, 1] bcast_S1x64_S35000x64_0_1 : (⟨S1x64, .f32⟩ : BufTy).Contents (Elt F) → (⟨S35000x64, .f32⟩ : BufTy).Contents (Elt F)),
    binary main_v64 main_v68 main_v69 (addf : (⟨S35000x64, .f32⟩ : BufTy).Contents (Elt F) → (⟨S35000x64, .f32⟩ : BufTy).Contents (Elt F) → (⟨S35000x64, .f32⟩ : BufTy).Contents (Elt F)),
    nullary main_cst_8 (constant S_ .f32 0x3C23D70A#32),
    TRef.nullary main_call4.cst (constant S_ .f32 0x00000000#32),
    TRef.unary main_call4.cst main_call4.v0 (broadcastInDim S35000x64 ![] bcast_S_S35000x64),
    TRef.binary (.of main_v69 : TRef sig ⟨S35000x64, .f32⟩) main_call4.v0 main_call4.v1 (cmpf .oge),
    TRef.unary (.of main_cst_8 : TRef sig ⟨S_, .f32⟩) main_call4.v2 id,
    TRef.unary main_call4.v2 main_call4.v3 (broadcastInDim S35000x64 ![] bcast_S_S35000x64),
    TRef.binary main_call4.v3 (.of main_v69 : TRef sig ⟨S35000x64, .f32⟩) main_call4.v4 mulf,
    TRef.ternary main_call4.v1 (.of main_v69 : TRef sig ⟨S35000x64, .f32⟩) main_call4.v4 main_call4.call0.v0 select,
    binary main_v60 main_v70 main_v71 (addf : (⟨S35000x64, .f32⟩ : BufTy).Contents (Elt F) → (⟨S35000x64, .f32⟩ : BufTy).Contents (Elt F) → (⟨S35000x64, .f32⟩ : BufTy).Contents (Elt F)),
    TRef.binary (.of main_v71 : TRef sig ⟨S35000x64, .f32⟩) (.of main_v71 : TRef sig ⟨S35000x64, .f32⟩) main_call5.v0 mulf,
    TRef.nullary main_call5.cst (constant S_ .f32 0x00000000#32),
    TRef.binary main_call5.v0 main_call5.cst main_call5.v1 (fun x v => Host.reduceAdd x v reducesTo_S35000x64_S35000_d1 h_S_),
    TRef.unary main_call5.v1 main_call5.v2 (broadcastInDim S35000x1 ![0] bcast_S35000_S35000x1_0),
    TRef.unary main_call5.v2 main_call5.v3 Host.sqrt,
    nullary main_cst_9 (constant S_ .f32 0x2B8CBCCC#32),
    unary main_cst_9 main_v73 (broadcastInDim S35000x1 ![] bcast_S_S35000x1 : (⟨S_, .f32⟩ : BufTy).Contents (Elt F) → (⟨S35000x1, .f32⟩ : BufTy).Contents (Elt F)),
    binary main_v72 main_v73 main_v74 (maximumf : (⟨S35000x1, .f32⟩ : BufTy).Contents (Elt F) → (⟨S35000x1, .f32⟩ : BufTy).Contents (Elt F) → (⟨S35000x1, .f32⟩ : BufTy).Contents (Elt F)),
    unary main_v74 main_v75 (broadcastInDim S35000x64 ![0, 1] bcast_S35000x1_S35000x64_0_1 : (⟨S35000x1, .f32⟩ : BufTy).Contents (Elt F) → (⟨S35000x64, .f32⟩ : BufTy).Contents (Elt F)),
    binary main_v71 main_v75 main_v76 (Host.divf : (⟨S35000x64, .f32⟩ : BufTy).Contents (Elt F) → (⟨S35000x64, .f32⟩ : BufTy).Contents (Elt F) → (⟨S35000x64, .f32⟩ : BufTy).Contents (Elt F)),
    unary main_arg14 main_v77 (broadcastInDim S1000000x1 ![0] bcast_S1000000_S1000000x1_0 : (⟨S1000000, .f32⟩ : BufTy).Contents (Elt F) → (⟨S1000000x1, .f32⟩ : BufTy).Contents (Elt F)),
    nullary main_c_10 (constantI S_ 32 0#32),
    unary main_c_10 main_v78 (broadcastInDim S1000000 ![] bcast_S_S1000000 : (⟨S_, .i32⟩ : BufTy).Contents (Elt F) → (⟨S1000000, .i32⟩ : BufTy).Contents (Elt F)),
    binary main_arg17 main_v78 main_v79 (cmpi .slt : (⟨S1000000, .i32⟩ : BufTy).Contents (Elt F) → (⟨S1000000, .i32⟩ : BufTy).Contents (Elt F) → (⟨S1000000, .i1⟩ : BufTy).Contents (Elt F)),
    nullary main_c_11 (constantI S_ 32 35000#32),
    unary main_c_11 main_v80 (broadcastInDim S1000000 ![] bcast_S_S1000000 : (⟨S_, .i32⟩ : BufTy).Contents (Elt F) → (⟨S1000000, .i32⟩ : BufTy).Contents (Elt F)),
    binary main_arg17 main_v80 main_v81 (addi : (⟨S1000000, .i32⟩ : BufTy).Contents (Elt F) → (⟨S1000000, .i32⟩ : BufTy).Contents (Elt F) → (⟨S1000000, .i32⟩ : BufTy).Contents (Elt F)),
    ternary main_v79 main_v81 main_arg17 main_v82 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v82 main_v83 (broadcastInDim S1000000x1 ![0] bcast_S1000000_S1000000x1_0 : (⟨S1000000, .i32⟩ : BufTy).Contents (Elt F) → (⟨S1000000x1, .i32⟩ : BufTy).Contents (Elt F)),
    binary main_v71 main_v83 main_v84 ((fun x i => Host.gather gather_S35000x64_S1000000x1_S1000000x64_1_0_n_n_0_1_164 x i) : (⟨S35000x64, .f32⟩ : BufTy).Contents (Elt F) → (⟨S1000000x1, .i32⟩ : BufTy).Contents (Elt F) → (⟨S1000000x64, .f32⟩ : BufTy).Contents (Elt F)),
    unary main_v77 main_v85 (broadcastInDim S1000000x64 ![0, 1] bcast_S1000000x1_S1000000x64_0_1 : (⟨S1000000x1, .f32⟩ : BufTy).Contents (Elt F) → (⟨S1000000x64, .f32⟩ : BufTy).Contents (Elt F)),
    binary main_v85 main_v84 main_v86 (mulf : (⟨S1000000x64, .f32⟩ : BufTy).Contents (Elt F) → (⟨S1000000x64, .f32⟩ : BufTy).Contents (Elt F) → (⟨S1000000x64, .f32⟩ : BufTy).Contents (Elt F)),
    nullary main_cst_12 (constant S_ .f32 0x00000000#32),
    unary main_cst_12 main_v87 (broadcastInDim S35000x64 ![] bcast_S_S35000x64 : (⟨S_, .f32⟩ : BufTy).Contents (Elt F) → (⟨S35000x64, .f32⟩ : BufTy).Contents (Elt F)),
    unary main_arg16 main_v88 (broadcastInDim S1000000x1 ![0] bcast_S1000000_S1000000x1_0 : (⟨S1000000, .i32⟩ : BufTy).Contents (Elt F) → (⟨S1000000x1, .i32⟩ : BufTy).Contents (Elt F)),
    ternary main_v87 main_v88 main_v86 main_v89 ((fun x i u => Host.scatterAdd scatter_S35000x64_S1000000x1_S1000000x64_1_0_0_1 x i u) : (⟨S35000x64, .f32⟩ : BufTy).Contents (Elt F) → (⟨S1000000x1, .i32⟩ : BufTy).Contents (Elt F) → (⟨S1000000x64, .f32⟩ : BufTy).Contents (Elt F) → (⟨S35000x64, .f32⟩ : BufTy).Contents (Elt F)),
    unary main_arg2 main_v90 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v90 main_v91 rfl shapeCasts_S1x64x64_S64x64,
    binary main_v89 main_v91 main_v92 ((fun l r => Host.dotGeneral dot_S35000x64_S64x64_S35000x64_1_0_0_1_n_n none l r) : (⟨S35000x64, .f32⟩ : BufTy).Contents (Elt F) → (⟨S64x64, .f32⟩ : BufTy).Contents (Elt F) → (⟨S35000x64, .f32⟩ : BufTy).Contents (Elt F)),
    unary main_arg3 main_v93 ((extractStridedSlice S1x64 ![2, 0] · slices_S3x64_S1x64_2_0) : (⟨S3x64, .f32⟩ : BufTy).Contents (Elt F) → (⟨S1x64, .f32⟩ : BufTy).Contents (Elt F)),
    reshape main_v93 main_v94 rfl shapeCasts_S1x64_S64,
    unary main_v94 main_v95 (broadcastInDim S1x64 ![1] bcast_S64_S1x64_1 : (⟨S64, .f32⟩ : BufTy).Contents (Elt F) → (⟨S1x64, .f32⟩ : BufTy).Contents (Elt F)),
    unary main_v95 main_v96 (broadcastInDim S35000x64 ![0, 1] bcast_S1x64_S35000x64_0_1 : (⟨S1x64, .f32⟩ : BufTy).Contents (Elt F) → (⟨S35000x64, .f32⟩ : BufTy).Contents (Elt F)),
    binary main_v92 main_v96 main_v97 (addf : (⟨S35000x64, .f32⟩ : BufTy).Contents (Elt F) → (⟨S35000x64, .f32⟩ : BufTy).Contents (Elt F) → (⟨S35000x64, .f32⟩ : BufTy).Contents (Elt F)),
    nullary main_cst_13 (constant S_ .f32 0x3C23D70A#32),
    TRef.nullary main_call6.cst (constant S_ .f32 0x00000000#32),
    TRef.unary main_call6.cst main_call6.v0 (broadcastInDim S35000x64 ![] bcast_S_S35000x64),
    TRef.binary (.of main_v97 : TRef sig ⟨S35000x64, .f32⟩) main_call6.v0 main_call6.v1 (cmpf .oge),
    TRef.unary (.of main_cst_13 : TRef sig ⟨S_, .f32⟩) main_call6.v2 id,
    TRef.unary main_call6.v2 main_call6.v3 (broadcastInDim S35000x64 ![] bcast_S_S35000x64),
    TRef.binary main_call6.v3 (.of main_v97 : TRef sig ⟨S35000x64, .f32⟩) main_call6.v4 mulf,
    TRef.ternary main_call6.v1 (.of main_v97 : TRef sig ⟨S35000x64, .f32⟩) main_call6.v4 main_call6.call0.v0 select,
    binary main_v71 main_v89 main_v99 (mulf : (⟨S35000x64, .f32⟩ : BufTy).Contents (Elt F) → (⟨S35000x64, .f32⟩ : BufTy).Contents (Elt F) → (⟨S35000x64, .f32⟩ : BufTy).Contents (Elt F)),
    unary main_arg4 main_v100 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v100 main_v101 rfl shapeCasts_S1x64x64_S64x64,
    binary main_v99 main_v101 main_v102 ((fun l r => Host.dotGeneral dot_S35000x64_S64x64_S35000x64_1_0_0_1_n_n none l r) : (⟨S35000x64, .f32⟩ : BufTy).Contents (Elt F) → (⟨S64x64, .f32⟩ : BufTy).Contents (Elt F) → (⟨S35000x64, .f32⟩ : BufTy).Contents (Elt F)),
    unary main_arg5 main_v103 ((extractStridedSlice S1x64 ![2, 0] · slices_S3x64_S1x64_2_0) : (⟨S3x64, .f32⟩ : BufTy).Contents (Elt F) → (⟨S1x64, .f32⟩ : BufTy).Contents (Elt F)) ]

/-- Window `main_part2` as 86 operations: its own operations as written and, where it calls, the callee's operations
    over that call's buffers (`fn_leaky_relu` over `main_call7`, `fn_norm` over `main_call8`, `fn_leaky_relu_0` over `main_call9`, `fn_leaky_relu_0` over `main_call10`, `fn_norm_2` over `main_call11`; a rectifier's last operation is the select it calls in turn). -/
abbrev ops2 : List (HloOp τ sig (Elt F)) :=
  [ reshape main_v103 main_v104 rfl shapeCasts_S1x64_S64,
    unary main_v104 main_v105 (broadcastInDim S1x64 ![1] bcast_S64_S1x64_1 : (⟨S64, .f32⟩ : BufTy).Contents (Elt F) → (⟨S1x64, .f32⟩ : BufTy).Contents (Elt F)),
    unary main_v105 main_v106 (broadcastInDim S35000x64 ![0, 1] bcast_S1x64_S35000x64_0_1 : (⟨S1x64, .f32⟩ : BufTy).Contents (Elt F) → (⟨S35000x64, .f32⟩ : BufTy).Contents (Elt F)),
    binary main_v102 main_v106 main_v107 (addf : (⟨S35000x64, .f32⟩ : BufTy).Contents (Elt F) → (⟨S35000x64, .f32⟩ : BufTy).Contents (Elt F) → (⟨S35000x64, .f32⟩ : BufTy).Contents (Elt F)),
    nullary main_cst_14 (constant S_ .f32 0x3C23D70A#32),
    TRef.nullary main_call7.cst (constant S_ .f32 0x00000000#32),
    TRef.unary main_call7.cst main_call7.v0 (broadcastInDim S35000x64 ![] bcast_S_S35000x64),
    TRef.binary (.of main_v107 : TRef sig ⟨S35000x64, .f32⟩) main_call7.v0 main_call7.v1 (cmpf .oge),
    TRef.unary (.of main_cst_14 : TRef sig ⟨S_, .f32⟩) main_call7.v2 id,
    TRef.unary main_call7.v2 main_call7.v3 (broadcastInDim S35000x64 ![] bcast_S_S35000x64),
    TRef.binary main_call7.v3 (.of main_v107 : TRef sig ⟨S35000x64, .f32⟩) main_call7.v4 mulf,
    TRef.ternary main_call7.v1 (.of main_v107 : TRef sig ⟨S35000x64, .f32⟩) main_call7.v4 main_call7.call0.v0 select,
    binary main_v98 main_v108 main_v109 (addf : (⟨S35000x64, .f32⟩ : BufTy).Contents (Elt F) → (⟨S35000x64, .f32⟩ : BufTy).Contents (Elt F) → (⟨S35000x64, .f32⟩ : BufTy).Contents (Elt F)),
    TRef.binary (.of main_v109 : TRef sig ⟨S35000x64, .f32⟩) (.of main_v109 : TRef sig ⟨S35000x64, .f32⟩) main_call8.v0 mulf,
    TRef.nullary main_call8.cst (constant S_ .f32 0x00000000#32),
    TRef.binary main_call8.v0 main_call8.cst main_call8.v1 (fun x v => Host.reduceAdd x v reducesTo_S35000x64_S35000_d1 h_S_),
    TRef.unary main_call8.v1 main_call8.v2 (broadcastInDim S35000x1 ![0] bcast_S35000_S35000x1_0),
    TRef.unary main_call8.v2 main_call8.v3 Host.sqrt,
    nullary main_cst_15 (constant S_ .f32 0x2B8CBCCC#32),
    unary main_cst_15 main_v111 (broadcastInDim S35000x1 ![] bcast_S_S35000x1 : (⟨S_, .f32⟩ : BufTy).Contents (Elt F) → (⟨S35000x1, .f32⟩ : BufTy).Contents (Elt F)),
    binary main_v110 main_v111 main_v112 (maximumf : (⟨S35000x1, .f32⟩ : BufTy).Contents (Elt F) → (⟨S35000x1, .f32⟩ : BufTy).Contents (Elt F) → (⟨S35000x1, .f32⟩ : BufTy).Contents (Elt F)),
    unary main_v112 main_v113 (broadcastInDim S35000x64 ![0, 1] bcast_S35000x1_S35000x64_0_1 : (⟨S35000x1, .f32⟩ : BufTy).Contents (Elt F) → (⟨S35000x64, .f32⟩ : BufTy).Contents (Elt F)),
    binary main_v109 main_v113 main_v114 (Host.divf : (⟨S35000x64, .f32⟩ : BufTy).Contents (Elt F) → (⟨S35000x64, .f32⟩ : BufTy).Contents (Elt F) → (⟨S35000x64, .f32⟩ : BufTy).Contents (Elt F)),
    nary ![main_v0, main_v38, main_v76, main_v114] main_v115 (fun u => concatenate S35000x256 1 [⟨S35000x64, u 0⟩, ⟨S35000x64, u 1⟩, ⟨S35000x64, u 2⟩, ⟨S35000x64, u 3⟩] concatenates_S35000x64_S35000x64_S35000x64_S35000x64_S35000x256_d1),
    unary main_v115 main_v116 ((extractStridedSlice S20000x256 ![0, 0] · slices_S35000x256_S20000x256_0_0) : (⟨S35000x256, .f32⟩ : BufTy).Contents (Elt F) → (⟨S20000x256, .f32⟩ : BufTy).Contents (Elt F)),
    unary main_v115 main_v117 ((extractStridedSlice S15000x256 ![20000, 0] · slices_S35000x256_S15000x256_20000_0) : (⟨S35000x256, .f32⟩ : BufTy).Contents (Elt F) → (⟨S15000x256, .f32⟩ : BufTy).Contents (Elt F)),
    binary main_arg6 main_arg7 main_v118 ((fun a b => concatenate S7000x64 0 [⟨S4000x64, a⟩, ⟨S3000x64, b⟩] concatenates_S4000x64_S3000x64_S7000x64_d0) : (⟨S4000x64, .f32⟩ : BufTy).Contents (Elt F) → (⟨S3000x64, .f32⟩ : BufTy).Contents (Elt F) → (⟨S7000x64, .f32⟩ : BufTy).Contents (Elt F)),
    unary main_arg15 main_v119 (broadcastInDim S200000x1 ![0] bcast_S200000_S200000x1_0 : (⟨S200000, .f32⟩ : BufTy).Contents (Elt F) → (⟨S200000x1, .f32⟩ : BufTy).Contents (Elt F)),
    nullary main_c_16 (constantI S_ 32 0#32),
    unary main_c_16 main_v120 (broadcastInDim S200000 ![] bcast_S_S200000 : (⟨S_, .i32⟩ : BufTy).Contents (Elt F) → (⟨S200000, .i32⟩ : BufTy).Contents (Elt F)),
    binary main_arg19 main_v120 main_v121 (cmpi .slt : (⟨S200000, .i32⟩ : BufTy).Contents (Elt F) → (⟨S200000, .i32⟩ : BufTy).Contents (Elt F) → (⟨S200000, .i1⟩ : BufTy).Contents (Elt F)),
    nullary main_c_17 (constantI S_ 32 7000#32),
    unary main_c_17 main_v122 (broadcastInDim S200000 ![] bcast_S_S200000 : (⟨S_, .i32⟩ : BufTy).Contents (Elt F) → (⟨S200000, .i32⟩ : BufTy).Contents (Elt F)),
    binary main_arg19 main_v122 main_v123 (addi : (⟨S200000, .i32⟩ : BufTy).Contents (Elt F) → (⟨S200000, .i32⟩ : BufTy).Contents (Elt F) → (⟨S200000, .i32⟩ : BufTy).Contents (Elt F)),
    ternary main_v121 main_v123 main_arg19 main_v124 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v124 main_v125 (broadcastInDim S200000x1 ![0] bcast_S200000_S200000x1_0 : (⟨S200000, .i32⟩ : BufTy).Contents (Elt F) → (⟨S200000x1, .i32⟩ : BufTy).Contents (Elt F)),
    binary main_v118 main_v125 main_v126 ((fun x i => Host.gather gather_S7000x64_S200000x1_S200000x64_1_0_n_n_0_1_164 x i) : (⟨S7000x64, .f32⟩ : BufTy).Contents (Elt F) → (⟨S200000x1, .i32⟩ : BufTy).Contents (Elt F) → (⟨S200000x64, .f32⟩ : BufTy).Contents (Elt F)),
    unary main_v119 main_v127 (broadcastInDim S200000x64 ![0, 1] bcast_S200000x1_S200000x64_0_1 : (⟨S200000x1, .f32⟩ : BufTy).Contents (Elt F) → (⟨S200000x64, .f32⟩ : BufTy).Contents (Elt F)),
    binary main_v127 main_v126 main_v128 (mulf : (⟨S200000x64, .f32⟩ : BufTy).Contents (Elt F) → (⟨S200000x64, .f32⟩ : BufTy).Contents (Elt F) → (⟨S200000x64, .f32⟩ : BufTy).Contents (Elt F)),
    nullary main_cst_18 (constant S_ .f32 0x00000000#32),
    unary main_cst_18 main_v129 (broadcastInDim S7000x64 ![] bcast_S_S7000x64 : (⟨S_, .f32⟩ : BufTy).Contents (Elt F) → (⟨S7000x64, .f32⟩ : BufTy).Contents (Elt F)),
    unary main_arg18 main_v130 (broadcastInDim S200000x1 ![0] bcast_S200000_S200000x1_0 : (⟨S200000, .i32⟩ : BufTy).Contents (Elt F) → (⟨S200000x1, .i32⟩ : BufTy).Contents (Elt F)),
    ternary main_v129 main_v130 main_v128 main_v131 ((fun x i u => Host.scatterAdd scatter_S7000x64_S200000x1_S200000x64_1_0_0_1 x i u) : (⟨S7000x64, .f32⟩ : BufTy).Contents (Elt F) → (⟨S200000x1, .i32⟩ : BufTy).Contents (Elt F) → (⟨S200000x64, .f32⟩ : BufTy).Contents (Elt F) → (⟨S7000x64, .f32⟩ : BufTy).Contents (Elt F)),
    unary main_arg8 main_v132 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v132 main_v133 rfl shapeCasts_S1x64x64_S64x64,
    binary main_v131 main_v133 main_v134 ((fun l r => Host.dotGeneral dot_S7000x64_S64x64_S7000x64_1_0_0_1_n_n none l r) : (⟨S7000x64, .f32⟩ : BufTy).Contents (Elt F) → (⟨S64x64, .f32⟩ : BufTy).Contents (Elt F) → (⟨S7000x64, .f32⟩ : BufTy).Contents (Elt F)),
    unary main_arg9 main_v135 ((extractStridedSlice S1x64 ![0, 0] · slices_S3x64_S1x64_0_0) : (⟨S3x64, .f32⟩ : BufTy).Contents (Elt F) → (⟨S1x64, .f32⟩ : BufTy).Contents (Elt F)),
    reshape main_v135 main_v136 rfl shapeCasts_S1x64_S64,
    unary main_v136 main_v137 (broadcastInDim S1x64 ![1] bcast_S64_S1x64_1 : (⟨S64, .f32⟩ : BufTy).Contents (Elt F) → (⟨S1x64, .f32⟩ : BufTy).Contents (Elt F)),
    unary main_v137 main_v138 (broadcastInDim S7000x64 ![0, 1] bcast_S1x64_S7000x64_0_1 : (⟨S1x64, .f32⟩ : BufTy).Contents (Elt F) → (⟨S7000x64, .f32⟩ : BufTy).Contents (Elt F)),
    binary main_v134 main_v138 main_v139 (addf : (⟨S7000x64, .f32⟩ : BufTy).Contents (Elt F) → (⟨S7000x64, .f32⟩ : BufTy).Contents (Elt F) → (⟨S7000x64, .f32⟩ : BufTy).Contents (Elt F)),
    nullary main_cst_19 (constant S_ .f32 0x3C23D70A#32),
    TRef.nullary main_call9.cst (constant S_ .f32 0x00000000#32),
    TRef.unary main_call9.cst main_call9.v0 (broadcastInDim S7000x64 ![] bcast_S_S7000x64),
    TRef.binary (.of main_v139 : TRef sig ⟨S7000x64, .f32⟩) main_call9.v0 main_call9.v1 (cmpf .oge),
    TRef.unary (.of main_cst_19 : TRef sig ⟨S_, .f32⟩) main_call9.v2 id,
    TRef.unary main_call9.v2 main_call9.v3 (broadcastInDim S7000x64 ![] bcast_S_S7000x64),
    TRef.binary main_call9.v3 (.of main_v139 : TRef sig ⟨S7000x64, .f32⟩) main_call9.v4 mulf,
    TRef.ternary main_call9.v1 (.of main_v139 : TRef sig ⟨S7000x64, .f32⟩) main_call9.v4 main_call9.call0.v0 select,
    binary main_v118 main_v131 main_v141 (mulf : (⟨S7000x64, .f32⟩ : BufTy).Contents (Elt F) → (⟨S7000x64, .f32⟩ : BufTy).Contents (Elt F) → (⟨S7000x64, .f32⟩ : BufTy).Contents (Elt F)),
    unary main_arg10 main_v142 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v142 main_v143 rfl shapeCasts_S1x64x64_S64x64,
    binary main_v141 main_v143 main_v144 ((fun l r => Host.dotGeneral dot_S7000x64_S64x64_S7000x64_1_0_0_1_n_n none l r) : (⟨S7000x64, .f32⟩ : BufTy).Contents (Elt F) → (⟨S64x64, .f32⟩ : BufTy).Contents (Elt F) → (⟨S7000x64, .f32⟩ : BufTy).Contents (Elt F)),
    unary main_arg11 main_v145 ((extractStridedSlice S1x64 ![0, 0] · slices_S3x64_S1x64_0_0) : (⟨S3x64, .f32⟩ : BufTy).Contents (Elt F) → (⟨S1x64, .f32⟩ : BufTy).Contents (Elt F)),
    reshape main_v145 main_v146 rfl shapeCasts_S1x64_S64,
    unary main_v146 main_v147 (broadcastInDim S1x64 ![1] bcast_S64_S1x64_1 : (⟨S64, .f32⟩ : BufTy).Contents (Elt F) → (⟨S1x64, .f32⟩ : BufTy).Contents (Elt F)),
    unary main_v147 main_v148 (broadcastInDim S7000x64 ![0, 1] bcast_S1x64_S7000x64_0_1 : (⟨S1x64, .f32⟩ : BufTy).Contents (Elt F) → (⟨S7000x64, .f32⟩ : BufTy).Contents (Elt F)),
    binary main_v144 main_v148 main_v149 (addf : (⟨S7000x64, .f32⟩ : BufTy).Contents (Elt F) → (⟨S7000x64, .f32⟩ : BufTy).Contents (Elt F) → (⟨S7000x64, .f32⟩ : BufTy).Contents (Elt F)),
    nullary main_cst_20 (constant S_ .f32 0x3C23D70A#32),
    TRef.nullary main_call10.cst (constant S_ .f32 0x00000000#32),
    TRef.unary main_call10.cst main_call10.v0 (broadcastInDim S7000x64 ![] bcast_S_S7000x64),
    TRef.binary (.of main_v149 : TRef sig ⟨S7000x64, .f32⟩) main_call10.v0 main_call10.v1 (cmpf .oge),
    TRef.unary (.of main_cst_20 : TRef sig ⟨S_, .f32⟩) main_call10.v2 id,
    TRef.unary main_call10.v2 main_call10.v3 (broadcastInDim S7000x64 ![] bcast_S_S7000x64),
    TRef.binary main_call10.v3 (.of main_v149 : TRef sig ⟨S7000x64, .f32⟩) main_call10.v4 mulf,
    TRef.ternary main_call10.v1 (.of main_v149 : TRef sig ⟨S7000x64, .f32⟩) main_call10.v4 main_call10.call0.v0 select,
    binary main_v140 main_v150 main_v151 (addf : (⟨S7000x64, .f32⟩ : BufTy).Contents (Elt F) → (⟨S7000x64, .f32⟩ : BufTy).Contents (Elt F) → (⟨S7000x64, .f32⟩ : BufTy).Contents (Elt F)),
    TRef.binary (.of main_v151 : TRef sig ⟨S7000x64, .f32⟩) (.of main_v151 : TRef sig ⟨S7000x64, .f32⟩) main_call11.v0 mulf,
    TRef.nullary main_call11.cst (constant S_ .f32 0x00000000#32),
    TRef.binary main_call11.v0 main_call11.cst main_call11.v1 (fun x v => Host.reduceAdd x v reducesTo_S7000x64_S7000_d1 h_S_),
    TRef.unary main_call11.v1 main_call11.v2 (broadcastInDim S7000x1 ![0] bcast_S7000_S7000x1_0),
    TRef.unary main_call11.v2 main_call11.v3 Host.sqrt,
    nullary main_cst_21 (constant S_ .f32 0x2B8CBCCC#32),
    unary main_cst_21 main_v153 (broadcastInDim S7000x1 ![] bcast_S_S7000x1 : (⟨S_, .f32⟩ : BufTy).Contents (Elt F) → (⟨S7000x1, .f32⟩ : BufTy).Contents (Elt F)),
    binary main_v152 main_v153 main_v154 (maximumf : (⟨S7000x1, .f32⟩ : BufTy).Contents (Elt F) → (⟨S7000x1, .f32⟩ : BufTy).Contents (Elt F) → (⟨S7000x1, .f32⟩ : BufTy).Contents (Elt F)),
    unary main_v154 main_v155 (broadcastInDim S7000x64 ![0, 1] bcast_S7000x1_S7000x64_0_1 : (⟨S7000x1, .f32⟩ : BufTy).Contents (Elt F) → (⟨S7000x64, .f32⟩ : BufTy).Contents (Elt F)) ]

/-- Window `main_part3` as 76 operations: its own operations as written and, where it calls, the callee's operations
    over that call's buffers (`fn_leaky_relu_0` over `main_call12`, `fn_leaky_relu_0` over `main_call13`, `fn_norm_2` over `main_call14`; a rectifier's last operation is the select it calls in turn). -/
abbrev ops3 : List (HloOp τ sig (Elt F)) :=
  [ binary main_v151 main_v155 main_v156 (Host.divf : (⟨S7000x64, .f32⟩ : BufTy).Contents (Elt F) → (⟨S7000x64, .f32⟩ : BufTy).Contents (Elt F) → (⟨S7000x64, .f32⟩ : BufTy).Contents (Elt F)),
    unary main_arg15 main_v157 (broadcastInDim S200000x1 ![0] bcast_S200000_S200000x1_0 : (⟨S200000, .f32⟩ : BufTy).Contents (Elt F) → (⟨S200000x1, .f32⟩ : BufTy).Contents (Elt F)),
    nullary main_c_22 (constantI S_ 32 0#32),
    unary main_c_22 main_v158 (broadcastInDim S200000 ![] bcast_S_S200000 : (⟨S_, .i32⟩ : BufTy).Contents (Elt F) → (⟨S200000, .i32⟩ : BufTy).Contents (Elt F)),
    binary main_arg19 main_v158 main_v159 (cmpi .slt : (⟨S200000, .i32⟩ : BufTy).Contents (Elt F) → (⟨S200000, .i32⟩ : BufTy).Contents (Elt F) → (⟨S200000, .i1⟩ : BufTy).Contents (Elt F)),
    nullary main_c_23 (constantI S_ 32 7000#32),
    unary main_c_23 main_v160 (broadcastInDim S200000 ![] bcast_S_S200000 : (⟨S_, .i32⟩ : BufTy).Contents (Elt F) → (⟨S200000, .i32⟩ : BufTy).Contents (Elt F)),
    binary main_arg19 main_v160 main_v161 (addi : (⟨S200000, .i32⟩ : BufTy).Contents (Elt F) → (⟨S200000, .i32⟩ : BufTy).Contents (Elt F) → (⟨S200000, .i32⟩ : BufTy).Contents (Elt F)),
    ternary main_v159 main_v161 main_arg19 main_v162 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v162 main_v163 (broadcastInDim S200000x1 ![0] bcast_S200000_S200000x1_0 : (⟨S200000, .i32⟩ : BufTy).Contents (Elt F) → (⟨S200000x1, .i32⟩ : BufTy).Contents (Elt F)),
    binary main_v151 main_v163 main_v164 ((fun x i => Host.gather gather_S7000x64_S200000x1_S200000x64_1_0_n_n_0_1_164 x i) : (⟨S7000x64, .f32⟩ : BufTy).Contents (Elt F) → (⟨S200000x1, .i32⟩ : BufTy).Contents (Elt F) → (⟨S200000x64, .f32⟩ : BufTy).Contents (Elt F)),
    unary main_v157 main_v165 (broadcastInDim S200000x64 ![0, 1] bcast_S200000x1_S200000x64_0_1 : (⟨S200000x1, .f32⟩ : BufTy).Contents (Elt F) → (⟨S200000x64, .f32⟩ : BufTy).Contents (Elt F)),
    binary main_v165 main_v164 main_v166 (mulf : (⟨S200000x64, .f32⟩ : BufTy).Contents (Elt F) → (⟨S200000x64, .f32⟩ : BufTy).Contents (Elt F) → (⟨S200000x64, .f32⟩ : BufTy).Contents (Elt F)),
    nullary main_cst_24 (constant S_ .f32 0x00000000#32),
    unary main_cst_24 main_v167 (broadcastInDim S7000x64 ![] bcast_S_S7000x64 : (⟨S_, .f32⟩ : BufTy).Contents (Elt F) → (⟨S7000x64, .f32⟩ : BufTy).Contents (Elt F)),
    unary main_arg18 main_v168 (broadcastInDim S200000x1 ![0] bcast_S200000_S200000x1_0 : (⟨S200000, .i32⟩ : BufTy).Contents (Elt F) → (⟨S200000x1, .i32⟩ : BufTy).Contents (Elt F)),
    ternary main_v167 main_v168 main_v166 main_v169 ((fun x i u => Host.scatterAdd scatter_S7000x64_S200000x1_S200000x64_1_0_0_1 x i u) : (⟨S7000x64, .f32⟩ : BufTy).Contents (Elt F) → (⟨S200000x1, .i32⟩ : BufTy).Contents (Elt F) → (⟨S200000x64, .f32⟩ : BufTy).Contents (Elt F) → (⟨S7000x64, .f32⟩ : BufTy).Contents (Elt F)),
    unary main_arg8 main_v170 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v170 main_v171 rfl shapeCasts_S1x64x64_S64x64,
    binary main_v169 main_v171 main_v172 ((fun l r => Host.dotGeneral dot_S7000x64_S64x64_S7000x64_1_0_0_1_n_n none l r) : (⟨S7000x64, .f32⟩ : BufTy).Contents (Elt F) → (⟨S64x64, .f32⟩ : BufTy).Contents (Elt F) → (⟨S7000x64, .f32⟩ : BufTy).Contents (Elt F)),
    unary main_arg9 main_v173 ((extractStridedSlice S1x64 ![1, 0] · slices_S3x64_S1x64_1_0) : (⟨S3x64, .f32⟩ : BufTy).Contents (Elt F) → (⟨S1x64, .f32⟩ : BufTy).Contents (Elt F)),
    reshape main_v173 main_v174 rfl shapeCasts_S1x64_S64,
    unary main_v174 main_v175 (broadcastInDim S1x64 ![1] bcast_S64_S1x64_1 : (⟨S64, .f32⟩ : BufTy).Contents (Elt F) → (⟨S1x64, .f32⟩ : BufTy).Contents (Elt F)),
    unary main_v175 main_v176 (broadcastInDim S7000x64 ![0, 1] bcast_S1x64_S7000x64_0_1 : (⟨S1x64, .f32⟩ : BufTy).Contents (Elt F) → (⟨S7000x64, .f32⟩ : BufTy).Contents (Elt F)),
    binary main_v172 main_v176 main_v177 (addf : (⟨S7000x64, .f32⟩ : BufTy).Contents (Elt F) → (⟨S7000x64, .f32⟩ : BufTy).Contents (Elt F) → (⟨S7000x64, .f32⟩ : BufTy).Contents (Elt F)),
    nullary main_cst_25 (constant S_ .f32 0x3C23D70A#32),
    TRef.nullary main_call12.cst (constant S_ .f32 0x00000000#32),
    TRef.unary main_call12.cst main_call12.v0 (broadcastInDim S7000x64 ![] bcast_S_S7000x64),
    TRef.binary (.of main_v177 : TRef sig ⟨S7000x64, .f32⟩) main_call12.v0 main_call12.v1 (cmpf .oge),
    TRef.unary (.of main_cst_25 : TRef sig ⟨S_, .f32⟩) main_call12.v2 id,
    TRef.unary main_call12.v2 main_call12.v3 (broadcastInDim S7000x64 ![] bcast_S_S7000x64),
    TRef.binary main_call12.v3 (.of main_v177 : TRef sig ⟨S7000x64, .f32⟩) main_call12.v4 mulf,
    TRef.ternary main_call12.v1 (.of main_v177 : TRef sig ⟨S7000x64, .f32⟩) main_call12.v4 main_call12.call0.v0 select,
    binary main_v151 main_v169 main_v179 (mulf : (⟨S7000x64, .f32⟩ : BufTy).Contents (Elt F) → (⟨S7000x64, .f32⟩ : BufTy).Contents (Elt F) → (⟨S7000x64, .f32⟩ : BufTy).Contents (Elt F)),
    unary main_arg10 main_v180 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v180 main_v181 rfl shapeCasts_S1x64x64_S64x64,
    binary main_v179 main_v181 main_v182 ((fun l r => Host.dotGeneral dot_S7000x64_S64x64_S7000x64_1_0_0_1_n_n none l r) : (⟨S7000x64, .f32⟩ : BufTy).Contents (Elt F) → (⟨S64x64, .f32⟩ : BufTy).Contents (Elt F) → (⟨S7000x64, .f32⟩ : BufTy).Contents (Elt F)),
    unary main_arg11 main_v183 ((extractStridedSlice S1x64 ![1, 0] · slices_S3x64_S1x64_1_0) : (⟨S3x64, .f32⟩ : BufTy).Contents (Elt F) → (⟨S1x64, .f32⟩ : BufTy).Contents (Elt F)),
    reshape main_v183 main_v184 rfl shapeCasts_S1x64_S64,
    unary main_v184 main_v185 (broadcastInDim S1x64 ![1] bcast_S64_S1x64_1 : (⟨S64, .f32⟩ : BufTy).Contents (Elt F) → (⟨S1x64, .f32⟩ : BufTy).Contents (Elt F)),
    unary main_v185 main_v186 (broadcastInDim S7000x64 ![0, 1] bcast_S1x64_S7000x64_0_1 : (⟨S1x64, .f32⟩ : BufTy).Contents (Elt F) → (⟨S7000x64, .f32⟩ : BufTy).Contents (Elt F)),
    binary main_v182 main_v186 main_v187 (addf : (⟨S7000x64, .f32⟩ : BufTy).Contents (Elt F) → (⟨S7000x64, .f32⟩ : BufTy).Contents (Elt F) → (⟨S7000x64, .f32⟩ : BufTy).Contents (Elt F)),
    nullary main_cst_26 (constant S_ .f32 0x3C23D70A#32),
    TRef.nullary main_call13.cst (constant S_ .f32 0x00000000#32),
    TRef.unary main_call13.cst main_call13.v0 (broadcastInDim S7000x64 ![] bcast_S_S7000x64),
    TRef.binary (.of main_v187 : TRef sig ⟨S7000x64, .f32⟩) main_call13.v0 main_call13.v1 (cmpf .oge),
    TRef.unary (.of main_cst_26 : TRef sig ⟨S_, .f32⟩) main_call13.v2 id,
    TRef.unary main_call13.v2 main_call13.v3 (broadcastInDim S7000x64 ![] bcast_S_S7000x64),
    TRef.binary main_call13.v3 (.of main_v187 : TRef sig ⟨S7000x64, .f32⟩) main_call13.v4 mulf,
    TRef.ternary main_call13.v1 (.of main_v187 : TRef sig ⟨S7000x64, .f32⟩) main_call13.v4 main_call13.call0.v0 select,
    binary main_v178 main_v188 main_v189 (addf : (⟨S7000x64, .f32⟩ : BufTy).Contents (Elt F) → (⟨S7000x64, .f32⟩ : BufTy).Contents (Elt F) → (⟨S7000x64, .f32⟩ : BufTy).Contents (Elt F)),
    TRef.binary (.of main_v189 : TRef sig ⟨S7000x64, .f32⟩) (.of main_v189 : TRef sig ⟨S7000x64, .f32⟩) main_call14.v0 mulf,
    TRef.nullary main_call14.cst (constant S_ .f32 0x00000000#32),
    TRef.binary main_call14.v0 main_call14.cst main_call14.v1 (fun x v => Host.reduceAdd x v reducesTo_S7000x64_S7000_d1 h_S_),
    TRef.unary main_call14.v1 main_call14.v2 (broadcastInDim S7000x1 ![0] bcast_S7000_S7000x1_0),
    TRef.unary main_call14.v2 main_call14.v3 Host.sqrt,
    nullary main_cst_27 (constant S_ .f32 0x2B8CBCCC#32),
    unary main_cst_27 main_v191 (broadcastInDim S7000x1 ![] bcast_S_S7000x1 : (⟨S_, .f32⟩ : BufTy).Contents (Elt F) → (⟨S7000x1, .f32⟩ : BufTy).Contents (Elt F)),
    binary main_v190 main_v191 main_v192 (maximumf : (⟨S7000x1, .f32⟩ : BufTy).Contents (Elt F) → (⟨S7000x1, .f32⟩ : BufTy).Contents (Elt F) → (⟨S7000x1, .f32⟩ : BufTy).Contents (Elt F)),
    unary main_v192 main_v193 (broadcastInDim S7000x64 ![0, 1] bcast_S7000x1_S7000x64_0_1 : (⟨S7000x1, .f32⟩ : BufTy).Contents (Elt F) → (⟨S7000x64, .f32⟩ : BufTy).Contents (Elt F)),
    binary main_v189 main_v193 main_v194 (Host.divf : (⟨S7000x64, .f32⟩ : BufTy).Contents (Elt F) → (⟨S7000x64, .f32⟩ : BufTy).Contents (Elt F) → (⟨S7000x64, .f32⟩ : BufTy).Contents (Elt F)),
    unary main_arg15 main_v195 (broadcastInDim S200000x1 ![0] bcast_S200000_S200000x1_0 : (⟨S200000, .f32⟩ : BufTy).Contents (Elt F) → (⟨S200000x1, .f32⟩ : BufTy).Contents (Elt F)),
    nullary main_c_28 (constantI S_ 32 0#32),
    unary main_c_28 main_v196 (broadcastInDim S200000 ![] bcast_S_S200000 : (⟨S_, .i32⟩ : BufTy).Contents (Elt F) → (⟨S200000, .i32⟩ : BufTy).Contents (Elt F)),
    binary main_arg19 main_v196 main_v197 (cmpi .slt : (⟨S200000, .i32⟩ : BufTy).Contents (Elt F) → (⟨S200000, .i32⟩ : BufTy).Contents (Elt F) → (⟨S200000, .i1⟩ : BufTy).Contents (Elt F)),
    nullary main_c_29 (constantI S_ 32 7000#32),
    unary main_c_29 main_v198 (broadcastInDim S200000 ![] bcast_S_S200000 : (⟨S_, .i32⟩ : BufTy).Contents (Elt F) → (⟨S200000, .i32⟩ : BufTy).Contents (Elt F)),
    binary main_arg19 main_v198 main_v199 (addi : (⟨S200000, .i32⟩ : BufTy).Contents (Elt F) → (⟨S200000, .i32⟩ : BufTy).Contents (Elt F) → (⟨S200000, .i32⟩ : BufTy).Contents (Elt F)),
    ternary main_v197 main_v199 main_arg19 main_v200 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v200 main_v201 (broadcastInDim S200000x1 ![0] bcast_S200000_S200000x1_0 : (⟨S200000, .i32⟩ : BufTy).Contents (Elt F) → (⟨S200000x1, .i32⟩ : BufTy).Contents (Elt F)),
    binary main_v189 main_v201 main_v202 ((fun x i => Host.gather gather_S7000x64_S200000x1_S200000x64_1_0_n_n_0_1_164 x i) : (⟨S7000x64, .f32⟩ : BufTy).Contents (Elt F) → (⟨S200000x1, .i32⟩ : BufTy).Contents (Elt F) → (⟨S200000x64, .f32⟩ : BufTy).Contents (Elt F)),
    unary main_v195 main_v203 (broadcastInDim S200000x64 ![0, 1] bcast_S200000x1_S200000x64_0_1 : (⟨S200000x1, .f32⟩ : BufTy).Contents (Elt F) → (⟨S200000x64, .f32⟩ : BufTy).Contents (Elt F)),
    binary main_v203 main_v202 main_v204 (mulf : (⟨S200000x64, .f32⟩ : BufTy).Contents (Elt F) → (⟨S200000x64, .f32⟩ : BufTy).Contents (Elt F) → (⟨S200000x64, .f32⟩ : BufTy).Contents (Elt F)),
    nullary main_cst_30 (constant S_ .f32 0x00000000#32),
    unary main_cst_30 main_v205 (broadcastInDim S7000x64 ![] bcast_S_S7000x64 : (⟨S_, .f32⟩ : BufTy).Contents (Elt F) → (⟨S7000x64, .f32⟩ : BufTy).Contents (Elt F)),
    unary main_arg18 main_v206 (broadcastInDim S200000x1 ![0] bcast_S200000_S200000x1_0 : (⟨S200000, .i32⟩ : BufTy).Contents (Elt F) → (⟨S200000x1, .i32⟩ : BufTy).Contents (Elt F)) ]

/-- Window `main_part4` as 52 operations: its own operations as written and, where it calls, the callee's operations
    over that call's buffers (`fn_leaky_relu_0` over `main_call15`, `fn_leaky_relu_0` over `main_call16`, `fn_norm_2` over `main_call17`; a rectifier's last operation is the select it calls in turn). -/
abbrev ops4 : List (HloOp τ sig (Elt F)) :=
  [ ternary main_v205 main_v206 main_v204 main_v207 ((fun x i u => Host.scatterAdd scatter_S7000x64_S200000x1_S200000x64_1_0_0_1 x i u) : (⟨S7000x64, .f32⟩ : BufTy).Contents (Elt F) → (⟨S200000x1, .i32⟩ : BufTy).Contents (Elt F) → (⟨S200000x64, .f32⟩ : BufTy).Contents (Elt F) → (⟨S7000x64, .f32⟩ : BufTy).Contents (Elt F)),
    unary main_arg8 main_v208 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v208 main_v209 rfl shapeCasts_S1x64x64_S64x64,
    binary main_v207 main_v209 main_v210 ((fun l r => Host.dotGeneral dot_S7000x64_S64x64_S7000x64_1_0_0_1_n_n none l r) : (⟨S7000x64, .f32⟩ : BufTy).Contents (Elt F) → (⟨S64x64, .f32⟩ : BufTy).Contents (Elt F) → (⟨S7000x64, .f32⟩ : BufTy).Contents (Elt F)),
    unary main_arg9 main_v211 ((extractStridedSlice S1x64 ![2, 0] · slices_S3x64_S1x64_2_0) : (⟨S3x64, .f32⟩ : BufTy).Contents (Elt F) → (⟨S1x64, .f32⟩ : BufTy).Contents (Elt F)),
    reshape main_v211 main_v212 rfl shapeCasts_S1x64_S64,
    unary main_v212 main_v213 (broadcastInDim S1x64 ![1] bcast_S64_S1x64_1 : (⟨S64, .f32⟩ : BufTy).Contents (Elt F) → (⟨S1x64, .f32⟩ : BufTy).Contents (Elt F)),
    unary main_v213 main_v214 (broadcastInDim S7000x64 ![0, 1] bcast_S1x64_S7000x64_0_1 : (⟨S1x64, .f32⟩ : BufTy).Contents (Elt F) → (⟨S7000x64, .f32⟩ : BufTy).Contents (Elt F)),
    binary main_v210 main_v214 main_v215 (addf : (⟨S7000x64, .f32⟩ : BufTy).Contents (Elt F) → (⟨S7000x64, .f32⟩ : BufTy).Contents (Elt F) → (⟨S7000x64, .f32⟩ : BufTy).Contents (Elt F)),
    nullary main_cst_31 (constant S_ .f32 0x3C23D70A#32),
    TRef.nullary main_call15.cst (constant S_ .f32 0x00000000#32),
    TRef.unary main_call15.cst main_call15.v0 (broadcastInDim S7000x64 ![] bcast_S_S7000x64),
    TRef.binary (.of main_v215 : TRef sig ⟨S7000x64, .f32⟩) main_call15.v0 main_call15.v1 (cmpf .oge),
    TRef.unary (.of main_cst_31 : TRef sig ⟨S_, .f32⟩) main_call15.v2 id,
    TRef.unary main_call15.v2 main_call15.v3 (broadcastInDim S7000x64 ![] bcast_S_S7000x64),
    TRef.binary main_call15.v3 (.of main_v215 : TRef sig ⟨S7000x64, .f32⟩) main_call15.v4 mulf,
    TRef.ternary main_call15.v1 (.of main_v215 : TRef sig ⟨S7000x64, .f32⟩) main_call15.v4 main_call15.call0.v0 select,
    binary main_v189 main_v207 main_v217 (mulf : (⟨S7000x64, .f32⟩ : BufTy).Contents (Elt F) → (⟨S7000x64, .f32⟩ : BufTy).Contents (Elt F) → (⟨S7000x64, .f32⟩ : BufTy).Contents (Elt F)),
    unary main_arg10 main_v218 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v218 main_v219 rfl shapeCasts_S1x64x64_S64x64,
    binary main_v217 main_v219 main_v220 ((fun l r => Host.dotGeneral dot_S7000x64_S64x64_S7000x64_1_0_0_1_n_n none l r) : (⟨S7000x64, .f32⟩ : BufTy).Contents (Elt F) → (⟨S64x64, .f32⟩ : BufTy).Contents (Elt F) → (⟨S7000x64, .f32⟩ : BufTy).Contents (Elt F)),
    unary main_arg11 main_v221 ((extractStridedSlice S1x64 ![2, 0] · slices_S3x64_S1x64_2_0) : (⟨S3x64, .f32⟩ : BufTy).Contents (Elt F) → (⟨S1x64, .f32⟩ : BufTy).Contents (Elt F)),
    reshape main_v221 main_v222 rfl shapeCasts_S1x64_S64,
    unary main_v222 main_v223 (broadcastInDim S1x64 ![1] bcast_S64_S1x64_1 : (⟨S64, .f32⟩ : BufTy).Contents (Elt F) → (⟨S1x64, .f32⟩ : BufTy).Contents (Elt F)),
    unary main_v223 main_v224 (broadcastInDim S7000x64 ![0, 1] bcast_S1x64_S7000x64_0_1 : (⟨S1x64, .f32⟩ : BufTy).Contents (Elt F) → (⟨S7000x64, .f32⟩ : BufTy).Contents (Elt F)),
    binary main_v220 main_v224 main_v225 (addf : (⟨S7000x64, .f32⟩ : BufTy).Contents (Elt F) → (⟨S7000x64, .f32⟩ : BufTy).Contents (Elt F) → (⟨S7000x64, .f32⟩ : BufTy).Contents (Elt F)),
    nullary main_cst_32 (constant S_ .f32 0x3C23D70A#32),
    TRef.nullary main_call16.cst (constant S_ .f32 0x00000000#32),
    TRef.unary main_call16.cst main_call16.v0 (broadcastInDim S7000x64 ![] bcast_S_S7000x64),
    TRef.binary (.of main_v225 : TRef sig ⟨S7000x64, .f32⟩) main_call16.v0 main_call16.v1 (cmpf .oge),
    TRef.unary (.of main_cst_32 : TRef sig ⟨S_, .f32⟩) main_call16.v2 id,
    TRef.unary main_call16.v2 main_call16.v3 (broadcastInDim S7000x64 ![] bcast_S_S7000x64),
    TRef.binary main_call16.v3 (.of main_v225 : TRef sig ⟨S7000x64, .f32⟩) main_call16.v4 mulf,
    TRef.ternary main_call16.v1 (.of main_v225 : TRef sig ⟨S7000x64, .f32⟩) main_call16.v4 main_call16.call0.v0 select,
    binary main_v216 main_v226 main_v227 (addf : (⟨S7000x64, .f32⟩ : BufTy).Contents (Elt F) → (⟨S7000x64, .f32⟩ : BufTy).Contents (Elt F) → (⟨S7000x64, .f32⟩ : BufTy).Contents (Elt F)),
    TRef.binary (.of main_v227 : TRef sig ⟨S7000x64, .f32⟩) (.of main_v227 : TRef sig ⟨S7000x64, .f32⟩) main_call17.v0 mulf,
    TRef.nullary main_call17.cst (constant S_ .f32 0x00000000#32),
    TRef.binary main_call17.v0 main_call17.cst main_call17.v1 (fun x v => Host.reduceAdd x v reducesTo_S7000x64_S7000_d1 h_S_),
    TRef.unary main_call17.v1 main_call17.v2 (broadcastInDim S7000x1 ![0] bcast_S7000_S7000x1_0),
    TRef.unary main_call17.v2 main_call17.v3 Host.sqrt,
    nullary main_cst_33 (constant S_ .f32 0x2B8CBCCC#32),
    unary main_cst_33 main_v229 (broadcastInDim S7000x1 ![] bcast_S_S7000x1 : (⟨S_, .f32⟩ : BufTy).Contents (Elt F) → (⟨S7000x1, .f32⟩ : BufTy).Contents (Elt F)),
    binary main_v228 main_v229 main_v230 (maximumf : (⟨S7000x1, .f32⟩ : BufTy).Contents (Elt F) → (⟨S7000x1, .f32⟩ : BufTy).Contents (Elt F) → (⟨S7000x1, .f32⟩ : BufTy).Contents (Elt F)),
    unary main_v230 main_v231 (broadcastInDim S7000x64 ![0, 1] bcast_S7000x1_S7000x64_0_1 : (⟨S7000x1, .f32⟩ : BufTy).Contents (Elt F) → (⟨S7000x64, .f32⟩ : BufTy).Contents (Elt F)),
    binary main_v227 main_v231 main_v232 (Host.divf : (⟨S7000x64, .f32⟩ : BufTy).Contents (Elt F) → (⟨S7000x64, .f32⟩ : BufTy).Contents (Elt F) → (⟨S7000x64, .f32⟩ : BufTy).Contents (Elt F)),
    nary ![main_v118, main_v156, main_v194, main_v232] main_v233 (fun u => concatenate S7000x256 1 [⟨S7000x64, u 0⟩, ⟨S7000x64, u 1⟩, ⟨S7000x64, u 2⟩, ⟨S7000x64, u 3⟩] concatenates_S7000x64_S7000x64_S7000x64_S7000x64_S7000x256_d1),
    unary main_v233 main_v234 ((extractStridedSlice S4000x256 ![0, 0] · slices_S7000x256_S4000x256_0_0) : (⟨S7000x256, .f32⟩ : BufTy).Contents (Elt F) → (⟨S4000x256, .f32⟩ : BufTy).Contents (Elt F)),
    unary main_v233 main_v235 ((extractStridedSlice S3000x256 ![4000, 0] · slices_S7000x256_S3000x256_4000_0) : (⟨S7000x256, .f32⟩ : BufTy).Contents (Elt F) → (⟨S3000x256, .f32⟩ : BufTy).Contents (Elt F)),
    binary main_arg12 main_v234 main_v236 ((fun l r => Host.dotGeneral dot_S20000x4000_S4000x256_S20000x256_1_0_0_1_n_n none l r) : (⟨S20000x4000, .f32⟩ : BufTy).Contents (Elt F) → (⟨S4000x256, .f32⟩ : BufTy).Contents (Elt F) → (⟨S20000x256, .f32⟩ : BufTy).Contents (Elt F)),
    binary main_v116 main_v236 main_v237 (addf : (⟨S20000x256, .f32⟩ : BufTy).Contents (Elt F) → (⟨S20000x256, .f32⟩ : BufTy).Contents (Elt F) → (⟨S20000x256, .f32⟩ : BufTy).Contents (Elt F)),
    binary main_arg13 main_v235 main_v238 ((fun l r => Host.dotGeneral dot_S15000x3000_S3000x256_S15000x256_1_0_0_1_n_n none l r) : (⟨S15000x3000, .f32⟩ : BufTy).Contents (Elt F) → (⟨S3000x256, .f32⟩ : BufTy).Contents (Elt F) → (⟨S15000x256, .f32⟩ : BufTy).Contents (Elt F)),
    binary main_v117 main_v238 main_v239 (addf : (⟨S15000x256, .f32⟩ : BufTy).Contents (Elt F) → (⟨S15000x256, .f32⟩ : BufTy).Contents (Elt F) → (⟨S15000x256, .f32⟩ : BufTy).Contents (Elt F)) ]

/-- @main's 372 operations, in order. -/
abbrev ops : List (HloOp τ sig (Elt F)) :=
  ops0 ++ (ops1 ++ (ops2 ++ (ops3 ++ ops4)))

/-! Each window is the straight line of its stretch: a call unfolds to its body over the call's buffers, and binding
    the rest after a body's last operation is the same chain of steps as listing the rest after it. -/

set_option maxRecDepth 8192 in
theorem main_part0_eq (c : Dev nD) : main_part0 (F := F) c = seq ops0 := rfl

set_option maxRecDepth 8192 in
theorem main_part1_eq (c : Dev nD) : main_part1 (F := F) c = seq ops1 := rfl

set_option maxRecDepth 8192 in
theorem main_part2_eq (c : Dev nD) : main_part2 (F := F) c = seq ops2 := rfl

set_option maxRecDepth 8192 in
theorem main_part3_eq (c : Dev nD) : main_part3 (F := F) c = seq ops3 := rfl

set_option maxRecDepth 8192 in
theorem main_part4_eq (c : Dev nD) : main_part4 (F := F) c = seq ops4 := rfl

set_option maxRecDepth 8192 in
/-- @main runs its windows in order, and a straight line of a concatenation is the straight lines one after the other. -/
theorem main_eq (c : Dev nD) : main (F := F) c = seq ops := by
  simp only [ops, seq_append, ← main_part0_eq c, ← main_part1_eq c, ← main_part2_eq c, ← main_part3_eq c, ← main_part4_eq c]
  rfl

end Cert.ReferenceIdeal.RRun

end
-- ==== Proof.RefRun.lean ====
/-
  The run of the reference program.

  @main is the straight line `ops` of host operations (`main_eq`), every one of them over whole buffers of the
  TensorCore, none allocating. So from any memory every weakly fair execution ends, and each buffer then holds what
  folding the operations over the launch contents gives (`StableHlo.after ops`). The two results are stated as that
  fold at their buffers; an argument's buffer is written by no operation — the buffers each stretch writes are listed,
  and no argument is among them — so it ends as it began.
-/
import proofs.«120809_j78615081386430_2_alg».proof.Proof.RefRunOps

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- The signature scopes no TensorCore buffer and no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

/-- The fold over a concatenation is the fold over the second list from the fold over the first. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- A property of every operation of each stretch holds of every operation of `ops`. -/
theorem forall_ops {P : HloOp τ sig (Elt F) → Prop} (h0 : (ops0 (F := F)).Forall P) (h1 : (ops1 (F := F)).Forall P)
    (h2 : (ops2 (F := F)).Forall P) (h3 : (ops3 (F := F)).Forall P) (h4 : (ops4 (F := F)).Forall P) :
    ∀ op ∈ (ops : List (HloOp τ sig (Elt F))), P op := fun op h => by
  simp only [ops, List.mem_append] at h
  rcases h with h | h | h | h | h
  exacts [List.forall_iff_forall_mem.mp h0 op h, List.forall_iff_forall_mem.mp h1 op h, List.forall_iff_forall_mem.mp h2 op h,
    List.forall_iff_forall_mem.mp h3 op h, List.forall_iff_forall_mem.mp h4 op h]

/-! Every operation touches TensorCore references only. -/

set_option maxRecDepth 8192 in
theorem ops0_sub : (ops0 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub ..⟩

set_option maxRecDepth 8192 in
theorem ops1_sub : (ops1 : List (HloOp τ sig (Elt F))).Forall fun op => op.bufs ⊆ tcRefs τ sig :=
  ⟨ternary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., reshape_bufs_sub .., binary_bufs_sub .., unary_bufs_sub ..⟩

set_option maxRecDepth 8192 in
theorem ops2_sub : (ops2 : List (HloOp τ sig (Elt F))).Forall fun op => op.bufs ⊆ tcRefs τ sig :=
  ⟨reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub ..⟩

set_option maxRecDepth 8192 in
theorem ops3_sub : (ops3 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub ..⟩

set_option maxRecDepth 8192 in
theorem ops4_sub : (ops4 : List (HloOp τ sig (Elt F))).Forall fun op => op.bufs ⊆ tcRefs τ sig :=
  ⟨ternary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nary_bufs_sub .., unary_bufs_sub .., unary_bufs_sub .., binary_bufs_sub .., binary_bufs_sub .., binary_bufs_sub .., binary_bufs_sub ..⟩

theorem ops_sub : (ops : List (HloOp τ sig (Elt F))).Forall fun op => op.bufs ⊆ tcRefs τ sig :=
  List.forall_iff_forall_mem.mpr (forall_ops ops0_sub ops1_sub ops2_sub ops3_sub ops4_sub)

/-! No operation allocates: each determines its results. -/

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_fresh : ∀ op ∈ (ops : List (HloOp τ sig (Elt F))), op.fresh = ∅ :=
  forall_ops ops0_fresh ops1_fresh ops2_fresh ops3_fresh ops4_fresh

/-! The buffers each stretch writes, and that a buffer outside them keeps its contents through the stretch. -/

/-- The buffers the operations of `ops0` write, in order. -/
abbrev W0 : List (Ref sig .tc) :=
  [main_v0, main_v1, main_c, main_v2, main_v3, main_c_0, main_v4, main_v5, main_v6, main_v7, main_v8, main_v9, main_v10, main_cst, main_v11, main_v12, main_v13, main_v14, main_v15, main_v16, main_v17, main_v18, main_v19, main_v20, main_v21, main_cst_1, main_call0_cst, main_call0_v0, main_call0_v1, main_call0_v2, main_call0_v3, main_call0_v4, main_v22, main_v23, main_v24, main_v25, main_v26, main_v27, main_v28, main_v29, main_v30, main_v31, main_cst_2, main_call1_cst, main_call1_v0, main_call1_v1, main_call1_v2, main_call1_v3, main_call1_v4, main_v32, main_v33, main_call2_v0, main_call2_cst, main_call2_v1, main_call2_v2, main_v34, main_cst_3, main_v35, main_v36, main_v37, main_v38, main_v39, main_c_4, main_v40, main_v41, main_c_5, main_v42, main_v43, main_v44, main_v45, main_v46, main_v47, main_v48, main_cst_6, main_v49, main_v50]

set_option maxRecDepth 8192 in
theorem ops0_writes : (ops0 : List (HloOp τ sig (Elt F))).Forall fun op => op.writes ⊆ (W0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keep0 (V : Valuation τ sig (Elt F)) (r : Ref sig .tc) (h : r ∉ W0) :
    after ops0 V (Proc.devRef .tc r) = V (Proc.devRef .tc r) :=
  after_of_writes_sub ops0 V ops0_writes h

/-- The buffers the operations of `ops1` write, in order. -/
abbrev W1 : List (Ref sig .tc) :=
  [main_v51, main_v52, main_v53, main_v54, main_v55, main_v56, main_v57, main_v58, main_v59, main_cst_7, main_call3_cst, main_call3_v0, main_call3_v1, main_call3_v2, main_call3_v3, main_call3_v4, main_v60, main_v61, main_v62, main_v63, main_v64, main_v65, main_v66, main_v67, main_v68, main_v69, main_cst_8, main_call4_cst, main_call4_v0, main_call4_v1, main_call4_v2, main_call4_v3, main_call4_v4, main_v70, main_v71, main_call5_v0, main_call5_cst, main_call5_v1, main_call5_v2, main_v72, main_cst_9, main_v73, main_v74, main_v75, main_v76, main_v77, main_c_10, main_v78, main_v79, main_c_11, main_v80, main_v81, main_v82, main_v83, main_v84, main_v85, main_v86, main_cst_12, main_v87, main_v88, main_v89, main_v90, main_v91, main_v92, main_v93, main_v94, main_v95, main_v96, main_v97, main_cst_13, main_call6_cst, main_call6_v0, main_call6_v1, main_call6_v2, main_call6_v3, main_call6_v4, main_v98, main_v99, main_v100, main_v101, main_v102, main_v103]

set_option maxRecDepth 8192 in
theorem ops1_writes : (ops1 : List (HloOp τ sig (Elt F))).Forall fun op => op.writes ⊆ (W1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keep1 (V : Valuation τ sig (Elt F)) (r : Ref sig .tc) (h : r ∉ W1) :
    after ops1 V (Proc.devRef .tc r) = V (Proc.devRef .tc r) :=
  after_of_writes_sub ops1 V ops1_writes h

/-- The buffers the operations of `ops2` write, in order. -/
abbrev W2 : List (Ref sig .tc) :=
  [main_v104, main_v105, main_v106, main_v107, main_cst_14, main_call7_cst, main_call7_v0, main_call7_v1, main_call7_v2, main_call7_v3, main_call7_v4, main_v108, main_v109, main_call8_v0, main_call8_cst, main_call8_v1, main_call8_v2, main_v110, main_cst_15, main_v111, main_v112, main_v113, main_v114, main_v115, main_v116, main_v117, main_v118, main_v119, main_c_16, main_v120, main_v121, main_c_17, main_v122, main_v123, main_v124, main_v125, main_v126, main_v127, main_v128, main_cst_18, main_v129, main_v130, main_v131, main_v132, main_v133, main_v134, main_v135, main_v136, main_v137, main_v138, main_v139, main_cst_19, main_call9_cst, main_call9_v0, main_call9_v1, main_call9_v2, main_call9_v3, main_call9_v4, main_v140, main_v141, main_v142, main_v143, main_v144, main_v145, main_v146, main_v147, main_v148, main_v149, main_cst_20, main_call10_cst, main_call10_v0, main_call10_v1, main_call10_v2, main_call10_v3, main_call10_v4, main_v150, main_v151, main_call11_v0, main_call11_cst, main_call11_v1, main_call11_v2, main_v152, main_cst_21, main_v153, main_v154, main_v155]

set_option maxRecDepth 8192 in
theorem ops2_writes : (ops2 : List (HloOp τ sig (Elt F))).Forall fun op => op.writes ⊆ (W2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keep2 (V : Valuation τ sig (Elt F)) (r : Ref sig .tc) (h : r ∉ W2) :
    after ops2 V (Proc.devRef .tc r) = V (Proc.devRef .tc r) :=
  after_of_writes_sub ops2 V ops2_writes h

/-- The buffers the operations of `ops3` write, in order. -/
abbrev W3 : List (Ref sig .tc) :=
  [main_v156, main_v157, main_c_22, main_v158, main_v159, main_c_23, main_v160, main_v161, main_v162, main_v163, main_v164, main_v165, main_v166, main_cst_24, main_v167, main_v168, main_v169, main_v170, main_v171, main_v172, main_v173, main_v174, main_v175, main_v176, main_v177, main_cst_25, main_call12_cst, main_call12_v0, main_call12_v1, main_call12_v2, main_call12_v3, main_call12_v4, main_v178, main_v179, main_v180, main_v181, main_v182, main_v183, main_v184, main_v185, main_v186, main_v187, main_cst_26, main_call13_cst, main_call13_v0, main_call13_v1, main_call13_v2, main_call13_v3, main_call13_v4, main_v188, main_v189, main_call14_v0, main_call14_cst, main_call14_v1, main_call14_v2, main_v190, main_cst_27, main_v191, main_v192, main_v193, main_v194, main_v195, main_c_28, main_v196, main_v197, main_c_29, main_v198, main_v199, main_v200, main_v201, main_v202, main_v203, main_v204, main_cst_30, main_v205, main_v206]

set_option maxRecDepth 8192 in
theorem ops3_writes : (ops3 : List (HloOp τ sig (Elt F))).Forall fun op => op.writes ⊆ (W3.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keep3 (V : Valuation τ sig (Elt F)) (r : Ref sig .tc) (h : r ∉ W3) :
    after ops3 V (Proc.devRef .tc r) = V (Proc.devRef .tc r) :=
  after_of_writes_sub ops3 V ops3_writes h

/-- The buffers the operations of `ops4` write, in order. -/
abbrev W4 : List (Ref sig .tc) :=
  [main_v207, main_v208, main_v209, main_v210, main_v211, main_v212, main_v213, main_v214, main_v215, main_cst_31, main_call15_cst, main_call15_v0, main_call15_v1, main_call15_v2, main_call15_v3, main_call15_v4, main_v216, main_v217, main_v218, main_v219, main_v220, main_v221, main_v222, main_v223, main_v224, main_v225, main_cst_32, main_call16_cst, main_call16_v0, main_call16_v1, main_call16_v2, main_call16_v3, main_call16_v4, main_v226, main_v227, main_call17_v0, main_call17_cst, main_call17_v1, main_call17_v2, main_v228, main_cst_33, main_v229, main_v230, main_v231, main_v232, main_v233, main_v234, main_v235, main_v236, main_v237, main_v238, main_v239]

set_option maxRecDepth 8192 in
theorem ops4_writes : (ops4 : List (HloOp τ sig (Elt F))).Forall fun op => op.writes ⊆ (W4.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keep4 (V : Valuation τ sig (Elt F)) (r : Ref sig .tc) (h : r ∉ W4) :
    after ops4 V (Proc.devRef .tc r) = V (Proc.devRef .tc r) :=
  after_of_writes_sub ops4 V ops4_writes h

/-- A buffer no stretch writes keeps its contents through the whole line. -/
theorem keep (V : Valuation τ sig (Elt F)) (r : Ref sig .tc) (h0 : r ∉ W0) (h1 : r ∉ W1) (h2 : r ∉ W2) (h3 : r ∉ W3) (h4 : r ∉ W4) :
    after ops V (Proc.devRef .tc r) = V (Proc.devRef .tc r) := by
  simp only [ops, after_app]
  rw [keep4 _ r h4, keep3 _ r h3, keep2 _ r h2, keep1 _ r h1, keep0 _ r h0]

/-- On every device, for any float values, from any memory with zero counters: every weakly fair execution of @main
    terminates, with each of the two results at the fold of the operations over the launch contents and every
    argument unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v237) = StableHlo.after ops (fun b => m (c, b)) (Proc.devRef .tc main_v237)
      ∧ r.2.mem ((c.tc : Thread nD τ).loc main_v239) = StableHlo.after ops (fun b => m (c, b)) (Proc.devRef .tc main_v239)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨h c main_v237, h c main_v239,
      (h c main_arg0).trans (keep _ main_arg0 (by decide) (by decide) (by decide) (by decide) (by decide)),
      (h c main_arg1).trans (keep _ main_arg1 (by decide) (by decide) (by decide) (by decide) (by decide)),
      (h c main_arg2).trans (keep _ main_arg2 (by decide) (by decide) (by decide) (by decide) (by decide)),
      (h c main_arg3).trans (keep _ main_arg3 (by decide) (by decide) (by decide) (by decide) (by decide)),
      (h c main_arg4).trans (keep _ main_arg4 (by decide) (by decide) (by decide) (by decide) (by decide)),
      (h c main_arg5).trans (keep _ main_arg5 (by decide) (by decide) (by decide) (by decide) (by decide)),
      (h c main_arg6).trans (keep _ main_arg6 (by decide) (by decide) (by decide) (by decide) (by decide)),
      (h c main_arg7).trans (keep _ main_arg7 (by decide) (by decide) (by decide) (by decide) (by decide)),
      (h c main_arg8).trans (keep _ main_arg8 (by decide) (by decide) (by decide) (by decide) (by decide)),
      (h c main_arg9).trans (keep _ main_arg9 (by decide) (by decide) (by decide) (by decide) (by decide)),
      (h c main_arg10).trans (keep _ main_arg10 (by decide) (by decide) (by decide) (by decide) (by decide)),
      (h c main_arg11).trans (keep _ main_arg11 (by decide) (by decide) (by decide) (by decide) (by decide)),
      (h c main_arg12).trans (keep _ main_arg12 (by decide) (by decide) (by decide) (by decide) (by decide)),
      (h c main_arg13).trans (keep _ main_arg13 (by decide) (by decide) (by decide) (by decide) (by decide)),
      (h c main_arg14).trans (keep _ main_arg14 (by decide) (by decide) (by decide) (by decide) (by decide)),
      (h c main_arg15).trans (keep _ main_arg15 (by decide) (by decide) (by decide) (by decide) (by decide)),
      (h c main_arg16).trans (keep _ main_arg16 (by decide) (by decide) (by decide) (by decide) (by decide)),
      (h c main_arg17).trans (keep _ main_arg17 (by decide) (by decide) (by decide) (by decide) (by decide)),
      (h c main_arg18).trans (keep _ main_arg18 (by decide) (by decide) (by decide) (by decide) (by decide)),
      (h c main_arg19).trans (keep _ main_arg19 (by decide) (by decide) (by decide) (by decide) (by decide))⟩)
    (run_seq scopedRefs_eq scopedSems_eq defs main (fun _ => ops) main_eq (fun _ => ops_sub) m ρ (fun _ => ops_fresh))

end Cert.ReferenceIdeal.RRun

end
-- ==== Proof.RefFrame.lean ====
/-
  The reference program's frame: under the precondition every weakly fair execution of it terminates without a fault
  and leaves each of its twenty argument arrays as it was. This is the run's statement with the two result equations
  dropped; the precondition is not used, since the program is host operations only and runs from any memory.
-/
import proofs.«120809_j78615081386430_2_alg».proof.Defs
import proofs.«120809_j78615081386430_2_alg».proof.Proof.Gen.ReferenceIdeal
import proofs.«120809_j78615081386430_2_alg».proof.Proof.Gen.Pre_finite_inputs
import proofs.«120809_j78615081386430_2_alg».proof.Proof.RefRun

noncomputable section

namespace Cert.ReferenceIdeal.RRun

open Idealize.ShloMosaic Idealize.SL.Sem

theorem frame_ri : Cert.frame_ReferenceIdeal := fun m ρ _ =>
  (θ_run Cert.ReferenceIdeal.defs _ _).mono (fun _ h c => (h c).2.2) (run (F := Ideal) m ρ)

end Cert.ReferenceIdeal.RRun

end
-- ==== Proof.RefSeg.lean ====
/-
  The reference's line of operations, cut again where its computation has its joints.

  The same 372 operations as `ops`, in the same order, in 23 consecutive pieces: for each of the two graphs the initial
  embedding (one operation), then for each of the three layers the aggregation along the edges (16 operations), the
  node update (34) and the row normalisation (10), then the four embeddings laid side by side and cut in two (3); last
  the two products with the maps and the two sums (4). A piece's last operation writes the buffer the later pieces
  read. `Pj V` is what the buffers hold after the first `j + 1` pieces from contents `V`; a buffer a piece does not write
  holds after it what it held before, and the argument buffers, which no piece writes, hold their first contents throughout.
-/
import proofs.«120809_j78615081386430_2_alg».proof.Proof.RefRun

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- Piece 0: 1 operation, the last writing `main_v0`. -/
abbrev seg0 : List (HloOp τ sig (Elt F)) :=
  [ binary main_arg0 main_arg1 main_v0 ((fun a b => concatenate S35000x64 0 [⟨S20000x64, a⟩, ⟨S15000x64, b⟩] concatenates_S20000x64_S15000x64_S35000x64_d0) : (⟨S20000x64, .f32⟩ : BufTy).Contents (Elt F) → (⟨S15000x64, .f32⟩ : BufTy).Contents (Elt F) → (⟨S35000x64, .f32⟩ : BufTy).Contents (Elt F)) ]

/-- Piece 1: 16 operations, the last writing `main_v13`. -/
abbrev seg1 : List (HloOp τ sig (Elt F)) :=
  [ unary main_arg14 main_v1 (broadcastInDim S1000000x1 ![0] bcast_S1000000_S1000000x1_0 : (⟨S1000000, .f32⟩ : BufTy).Contents (Elt F) → (⟨S1000000x1, .f32⟩ : BufTy).Contents (Elt F)),
    nullary main_c (constantI S_ 32 0#32),
    unary main_c main_v2 (broadcastInDim S1000000 ![] bcast_S_S1000000 : (⟨S_, .i32⟩ : BufTy).Contents (Elt F) → (⟨S1000000, .i32⟩ : BufTy).Contents (Elt F)),
    binary main_arg17 main_v2 main_v3 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 35000#32),
    unary main_c_0 main_v4 (broadcastInDim S1000000 ![] bcast_S_S1000000 : (⟨S_, .i32⟩ : BufTy).Contents (Elt F) → (⟨S1000000, .i32⟩ : BufTy).Contents (Elt F)),
    binary main_arg17 main_v4 main_v5 (addi : (⟨S1000000, .i32⟩ : BufTy).Contents (Elt F) → (⟨S1000000, .i32⟩ : BufTy).Contents (Elt F) → (⟨S1000000, .i32⟩ : BufTy).Contents (Elt F)),
    ternary main_v3 main_v5 main_arg17 main_v6 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v6 main_v7 (broadcastInDim S1000000x1 ![0] bcast_S1000000_S1000000x1_0 : (⟨S1000000, .i32⟩ : BufTy).Contents (Elt F) → (⟨S1000000x1, .i32⟩ : BufTy).Contents (Elt F)),
    binary main_v0 main_v7 main_v8 ((fun x i => Host.gather gather_S35000x64_S1000000x1_S1000000x64_1_0_n_n_0_1_164 x i) : (⟨S35000x64, .f32⟩ : BufTy).Contents (Elt F) → (⟨S1000000x1, .i32⟩ : BufTy).Contents (Elt F) → (⟨S1000000x64, .f32⟩ : BufTy).Contents (Elt F)),
    unary main_v1 main_v9 (broadcastInDim S1000000x64 ![0, 1] bcast_S1000000x1_S1000000x64_0_1 : (⟨S1000000x1, .f32⟩ : BufTy).Contents (Elt F) → (⟨S1000000x64, .f32⟩ : BufTy).Contents (Elt F)),
    binary main_v9 main_v8 main_v10 (mulf : (⟨S1000000x64, .f32⟩ : BufTy).Contents (Elt F) → (⟨S1000000x64, .f32⟩ : BufTy).Contents (Elt F) → (⟨S1000000x64, .f32⟩ : BufTy).Contents (Elt F)),
    nullary main_cst (constant S_ .f32 0x00000000#32),
    unary main_cst main_v11 (broadcastInDim S35000x64 ![] bcast_S_S35000x64 : (⟨S_, .f32⟩ : BufTy).Contents (Elt F) → (⟨S35000x64, .f32⟩ : BufTy).Contents (Elt F)),
    unary main_arg16 main_v12 (broadcastInDim S1000000x1 ![0] bcast_S1000000_S1000000x1_0 : (⟨S1000000, .i32⟩ : BufTy).Contents (Elt F) → (⟨S1000000x1, .i32⟩ : BufTy).Contents (Elt F)),
    ternary main_v11 main_v12 main_v10 main_v13 ((fun x i u => Host.scatterAdd scatter_S35000x64_S1000000x1_S1000000x64_1_0_0_1 x i u) : (⟨S35000x64, .f32⟩ : BufTy).Contents (Elt F) → (⟨S1000000x1, .i32⟩ : BufTy).Contents (Elt F) → (⟨S1000000x64, .f32⟩ : BufTy).Contents (Elt F) → (⟨S35000x64, .f32⟩ : BufTy).Contents (Elt F)) ]

/-- Piece 2: 34 operations, the last writing `main_v33`. -/
abbrev seg2 : List (HloOp τ sig (Elt F)) :=
  [ unary main_arg2 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v14 main_v15 rfl shapeCasts_S1x64x64_S64x64,
    binary main_v13 main_v15 main_v16 ((fun l r => Host.dotGeneral dot_S35000x64_S64x64_S35000x64_1_0_0_1_n_n none l r) : (⟨S35000x64, .f32⟩ : BufTy).Contents (Elt F) → (⟨S64x64, .f32⟩ : BufTy).Contents (Elt F) → (⟨S35000x64, .f32⟩ : BufTy).Contents (Elt F)),
    unary main_arg3 main_v17 ((extractStridedSlice S1x64 ![0, 0] · slices_S3x64_S1x64_0_0) : (⟨S3x64, .f32⟩ : BufTy).Contents (Elt F) → (⟨S1x64, .f32⟩ : BufTy).Contents (Elt F)),
    reshape main_v17 main_v18 rfl shapeCasts_S1x64_S64,
    unary main_v18 main_v19 (broadcastInDim S1x64 ![1] bcast_S64_S1x64_1 : (⟨S64, .f32⟩ : BufTy).Contents (Elt F) → (⟨S1x64, .f32⟩ : BufTy).Contents (Elt F)),
    unary main_v19 main_v20 (broadcastInDim S35000x64 ![0, 1] bcast_S1x64_S35000x64_0_1 : (⟨S1x64, .f32⟩ : BufTy).Contents (Elt F) → (⟨S35000x64, .f32⟩ : BufTy).Contents (Elt F)),
    binary main_v16 main_v20 main_v21 (addf : (⟨S35000x64, .f32⟩ : BufTy).Contents (Elt F) → (⟨S35000x64, .f32⟩ : BufTy).Contents (Elt F) → (⟨S35000x64, .f32⟩ : BufTy).Contents (Elt F)),
    nullary main_cst_1 (constant S_ .f32 0x3C23D70A#32),
    TRef.nullary main_call0.cst (constant S_ .f32 0x00000000#32),
    TRef.unary main_call0.cst main_call0.v0 (broadcastInDim S35000x64 ![] bcast_S_S35000x64),
    TRef.binary (.of main_v21 : TRef sig ⟨S35000x64, .f32⟩) main_call0.v0 main_call0.v1 (cmpf .oge),
    TRef.unary (.of main_cst_1 : TRef sig ⟨S_, .f32⟩) main_call0.v2 id,
    TRef.unary main_call0.v2 main_call0.v3 (broadcastInDim S35000x64 ![] bcast_S_S35000x64),
    TRef.binary main_call0.v3 (.of main_v21 : TRef sig ⟨S35000x64, .f32⟩) main_call0.v4 mulf,
    TRef.ternary main_call0.v1 (.of main_v21 : TRef sig ⟨S35000x64, .f32⟩) main_call0.v4 main_call0.call0.v0 select,
    binary main_v0 main_v13 main_v23 (mulf : (⟨S35000x64, .f32⟩ : BufTy).Contents (Elt F) → (⟨S35000x64, .f32⟩ : BufTy).Contents (Elt F) → (⟨S35000x64, .f32⟩ : BufTy).Contents (Elt F)),
    unary main_arg4 main_v24 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v24 main_v25 rfl shapeCasts_S1x64x64_S64x64,
    binary main_v23 main_v25 main_v26 ((fun l r => Host.dotGeneral dot_S35000x64_S64x64_S35000x64_1_0_0_1_n_n none l r) : (⟨S35000x64, .f32⟩ : BufTy).Contents (Elt F) → (⟨S64x64, .f32⟩ : BufTy).Contents (Elt F) → (⟨S35000x64, .f32⟩ : BufTy).Contents (Elt F)),
    unary main_arg5 main_v27 ((extractStridedSlice S1x64 ![0, 0] · slices_S3x64_S1x64_0_0) : (⟨S3x64, .f32⟩ : BufTy).Contents (Elt F) → (⟨S1x64, .f32⟩ : BufTy).Contents (Elt F)),
    reshape main_v27 main_v28 rfl shapeCasts_S1x64_S64,
    unary main_v28 main_v29 (broadcastInDim S1x64 ![1] bcast_S64_S1x64_1 : (⟨S64, .f32⟩ : BufTy).Contents (Elt F) → (⟨S1x64, .f32⟩ : BufTy).Contents (Elt F)),
    unary main_v29 main_v30 (broadcastInDim S35000x64 ![0, 1] bcast_S1x64_S35000x64_0_1 : (⟨S1x64, .f32⟩ : BufTy).Contents (Elt F) → (⟨S35000x64, .f32⟩ : BufTy).Contents (Elt F)),
    binary main_v26 main_v30 main_v31 (addf : (⟨S35000x64, .f32⟩ : BufTy).Contents (Elt F) → (⟨S35000x64, .f32⟩ : BufTy).Contents (Elt F) → (⟨S35000x64, .f32⟩ : BufTy).Contents (Elt F)),
    nullary main_cst_2 (constant S_ .f32 0x3C23D70A#32),
    TRef.nullary main_call1.cst (constant S_ .f32 0x00000000#32),
    TRef.unary main_call1.cst main_call1.v0 (broadcastInDim S35000x64 ![] bcast_S_S35000x64),
    TRef.binary (.of main_v31 : TRef sig ⟨S35000x64, .f32⟩) main_call1.v0 main_call1.v1 (cmpf .oge),
    TRef.unary (.of main_cst_2 : TRef sig ⟨S_, .f32⟩) main_call1.v2 id,
    TRef.unary main_call1.v2 main_call1.v3 (broadcastInDim S35000x64 ![] bcast_S_S35000x64),
    TRef.binary main_call1.v3 (.of main_v31 : TRef sig ⟨S35000x64, .f32⟩) main_call1.v4 mulf,
    TRef.ternary main_call1.v1 (.of main_v31 : TRef sig ⟨S35000x64, .f32⟩) main_call1.v4 main_call1.call0.v0 select,
    binary main_v22 main_v32 main_v33 (addf : (⟨S35000x64, .f32⟩ : BufTy).Contents (Elt F) → (⟨S35000x64, .f32⟩ : BufTy).Contents (Elt F) → (⟨S35000x64, .f32⟩ : BufTy).Contents (Elt F)) ]

/-- Piece 3: 10 operations, the last writing `main_v38`. -/
abbrev seg3 : List (HloOp τ sig (Elt F)) :=
  [ TRef.binary (.of main_v33 : TRef sig ⟨S35000x64, .f32⟩) (.of main_v33 : TRef sig ⟨S35000x64, .f32⟩) main_call2.v0 mulf,
    TRef.nullary main_call2.cst (constant S_ .f32 0x00000000#32),
    TRef.binary main_call2.v0 main_call2.cst main_call2.v1 (fun x v => Host.reduceAdd x v reducesTo_S35000x64_S35000_d1 h_S_),
    TRef.unary main_call2.v1 main_call2.v2 (broadcastInDim S35000x1 ![0] bcast_S35000_S35000x1_0),
    TRef.unary main_call2.v2 main_call2.v3 Host.sqrt,
    nullary main_cst_3 (constant S_ .f32 0x2B8CBCCC#32),
    unary main_cst_3 main_v35 (broadcastInDim S35000x1 ![] bcast_S_S35000x1 : (⟨S_, .f32⟩ : BufTy).Contents (Elt F) → (⟨S35000x1, .f32⟩ : BufTy).Contents (Elt F)),
    binary main_v34 main_v35 main_v36 (maximumf : (⟨S35000x1, .f32⟩ : BufTy).Contents (Elt F) → (⟨S35000x1, .f32⟩ : BufTy).Contents (Elt F) → (⟨S35000x1, .f32⟩ : BufTy).Contents (Elt F)),
    unary main_v36 main_v37 (broadcastInDim S35000x64 ![0, 1] bcast_S35000x1_S35000x64_0_1 : (⟨S35000x1, .f32⟩ : BufTy).Contents (Elt F) → (⟨S35000x64, .f32⟩ : BufTy).Contents (Elt F)),
    binary main_v33 main_v37 main_v38 (Host.divf : (⟨S35000x64, .f32⟩ : BufTy).Contents (Elt F) → (⟨S35000x64, .f32⟩ : BufTy).Contents (Elt F) → (⟨S35000x64, .f32⟩ : BufTy).Contents (Elt F)) ]

/-- Piece 4: 16 operations, the last writing `main_v51`. -/
abbrev seg4 : List (HloOp τ sig (Elt F)) :=
  [ unary main_arg14 main_v39 (broadcastInDim S1000000x1 ![0] bcast_S1000000_S1000000x1_0 : (⟨S1000000, .f32⟩ : BufTy).Contents (Elt F) → (⟨S1000000x1, .f32⟩ : BufTy).Contents (Elt F)),
    nullary main_c_4 (constantI S_ 32 0#32),
    unary main_c_4 main_v40 (broadcastInDim S1000000 ![] bcast_S_S1000000 : (⟨S_, .i32⟩ : BufTy).Contents (Elt F) → (⟨S1000000, .i32⟩ : BufTy).Contents (Elt F)),
    binary main_arg17 main_v40 main_v41 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 35000#32),
    unary main_c_5 main_v42 (broadcastInDim S1000000 ![] bcast_S_S1000000 : (⟨S_, .i32⟩ : BufTy).Contents (Elt F) → (⟨S1000000, .i32⟩ : BufTy).Contents (Elt F)),
    binary main_arg17 main_v42 main_v43 (addi : (⟨S1000000, .i32⟩ : BufTy).Contents (Elt F) → (⟨S1000000, .i32⟩ : BufTy).Contents (Elt F) → (⟨S1000000, .i32⟩ : BufTy).Contents (Elt F)),
    ternary main_v41 main_v43 main_arg17 main_v44 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v44 main_v45 (broadcastInDim S1000000x1 ![0] bcast_S1000000_S1000000x1_0 : (⟨S1000000, .i32⟩ : BufTy).Contents (Elt F) → (⟨S1000000x1, .i32⟩ : BufTy).Contents (Elt F)),
    binary main_v33 main_v45 main_v46 ((fun x i => Host.gather gather_S35000x64_S1000000x1_S1000000x64_1_0_n_n_0_1_164 x i) : (⟨S35000x64, .f32⟩ : BufTy).Contents (Elt F) → (⟨S1000000x1, .i32⟩ : BufTy).Contents (Elt F) → (⟨S1000000x64, .f32⟩ : BufTy).Contents (Elt F)),
    unary main_v39 main_v47 (broadcastInDim S1000000x64 ![0, 1] bcast_S1000000x1_S1000000x64_0_1 : (⟨S1000000x1, .f32⟩ : BufTy).Contents (Elt F) → (⟨S1000000x64, .f32⟩ : BufTy).Contents (Elt F)),
    binary main_v47 main_v46 main_v48 (mulf : (⟨S1000000x64, .f32⟩ : BufTy).Contents (Elt F) → (⟨S1000000x64, .f32⟩ : BufTy).Contents (Elt F) → (⟨S1000000x64, .f32⟩ : BufTy).Contents (Elt F)),
    nullary main_cst_6 (constant S_ .f32 0x00000000#32),
    unary main_cst_6 main_v49 (broadcastInDim S35000x64 ![] bcast_S_S35000x64 : (⟨S_, .f32⟩ : BufTy).Contents (Elt F) → (⟨S35000x64, .f32⟩ : BufTy).Contents (Elt F)),
    unary main_arg16 main_v50 (broadcastInDim S1000000x1 ![0] bcast_S1000000_S1000000x1_0 : (⟨S1000000, .i32⟩ : BufTy).Contents (Elt F) → (⟨S1000000x1, .i32⟩ : BufTy).Contents (Elt F)),
    ternary main_v49 main_v50 main_v48 main_v51 ((fun x i u => Host.scatterAdd scatter_S35000x64_S1000000x1_S1000000x64_1_0_0_1 x i u) : (⟨S35000x64, .f32⟩ : BufTy).Contents (Elt F) → (⟨S1000000x1, .i32⟩ : BufTy).Contents (Elt F) → (⟨S1000000x64, .f32⟩ : BufTy).Contents (Elt F) → (⟨S35000x64, .f32⟩ : BufTy).Contents (Elt F)) ]

/-- Piece 5: 34 operations, the last writing `main_v71`. -/
abbrev seg5 : List (HloOp τ sig (Elt F)) :=
  [ unary main_arg2 main_v52 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v52 main_v53 rfl shapeCasts_S1x64x64_S64x64,
    binary main_v51 main_v53 main_v54 ((fun l r => Host.dotGeneral dot_S35000x64_S64x64_S35000x64_1_0_0_1_n_n none l r) : (⟨S35000x64, .f32⟩ : BufTy).Contents (Elt F) → (⟨S64x64, .f32⟩ : BufTy).Contents (Elt F) → (⟨S35000x64, .f32⟩ : BufTy).Contents (Elt F)),
    unary main_arg3 main_v55 ((extractStridedSlice S1x64 ![1, 0] · slices_S3x64_S1x64_1_0) : (⟨S3x64, .f32⟩ : BufTy).Contents (Elt F) → (⟨S1x64, .f32⟩ : BufTy).Contents (Elt F)),
    reshape main_v55 main_v56 rfl shapeCasts_S1x64_S64,
    unary main_v56 main_v57 (broadcastInDim S1x64 ![1] bcast_S64_S1x64_1 : (⟨S64, .f32⟩ : BufTy).Contents (Elt F) → (⟨S1x64, .f32⟩ : BufTy).Contents (Elt F)),
    unary main_v57 main_v58 (broadcastInDim S35000x64 ![0, 1] bcast_S1x64_S35000x64_0_1 : (⟨S1x64, .f32⟩ : BufTy).Contents (Elt F) → (⟨S35000x64, .f32⟩ : BufTy).Contents (Elt F)),
    binary main_v54 main_v58 main_v59 (addf : (⟨S35000x64, .f32⟩ : BufTy).Contents (Elt F) → (⟨S35000x64, .f32⟩ : BufTy).Contents (Elt F) → (⟨S35000x64, .f32⟩ : BufTy).Contents (Elt F)),
    nullary main_cst_7 (constant S_ .f32 0x3C23D70A#32),
    TRef.nullary main_call3.cst (constant S_ .f32 0x00000000#32),
    TRef.unary main_call3.cst main_call3.v0 (broadcastInDim S35000x64 ![] bcast_S_S35000x64),
    TRef.binary (.of main_v59 : TRef sig ⟨S35000x64, .f32⟩) main_call3.v0 main_call3.v1 (cmpf .oge),
    TRef.unary (.of main_cst_7 : TRef sig ⟨S_, .f32⟩) main_call3.v2 id,
    TRef.unary main_call3.v2 main_call3.v3 (broadcastInDim S35000x64 ![] bcast_S_S35000x64),
    TRef.binary main_call3.v3 (.of main_v59 : TRef sig ⟨S35000x64, .f32⟩) main_call3.v4 mulf,
    TRef.ternary main_call3.v1 (.of main_v59 : TRef sig ⟨S35000x64, .f32⟩) main_call3.v4 main_call3.call0.v0 select,
    binary main_v33 main_v51 main_v61 (mulf : (⟨S35000x64, .f32⟩ : BufTy).Contents (Elt F) → (⟨S35000x64, .f32⟩ : BufTy).Contents (Elt F) → (⟨S35000x64, .f32⟩ : BufTy).Contents (Elt F)),
    unary main_arg4 main_v62 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v62 main_v63 rfl shapeCasts_S1x64x64_S64x64,
    binary main_v61 main_v63 main_v64 ((fun l r => Host.dotGeneral dot_S35000x64_S64x64_S35000x64_1_0_0_1_n_n none l r) : (⟨S35000x64, .f32⟩ : BufTy).Contents (Elt F) → (⟨S64x64, .f32⟩ : BufTy).Contents (Elt F) → (⟨S35000x64, .f32⟩ : BufTy).Contents (Elt F)),
    unary main_arg5 main_v65 ((extractStridedSlice S1x64 ![1, 0] · slices_S3x64_S1x64_1_0) : (⟨S3x64, .f32⟩ : BufTy).Contents (Elt F) → (⟨S1x64, .f32⟩ : BufTy).Contents (Elt F)),
    reshape main_v65 main_v66 rfl shapeCasts_S1x64_S64,
    unary main_v66 main_v67 (broadcastInDim S1x64 ![1] bcast_S64_S1x64_1 : (⟨S64, .f32⟩ : BufTy).Contents (Elt F) → (⟨S1x64, .f32⟩ : BufTy).Contents (Elt F)),
    unary main_v67 main_v68 (broadcastInDim S35000x64 ![0, 1] bcast_S1x64_S35000x64_0_1 : (⟨S1x64, .f32⟩ : BufTy).Contents (Elt F) → (⟨S35000x64, .f32⟩ : BufTy).Contents (Elt F)),
    binary main_v64 main_v68 main_v69 (addf : (⟨S35000x64, .f32⟩ : BufTy).Contents (Elt F) → (⟨S35000x64, .f32⟩ : BufTy).Contents (Elt F) → (⟨S35000x64, .f32⟩ : BufTy).Contents (Elt F)),
    nullary main_cst_8 (constant S_ .f32 0x3C23D70A#32),
    TRef.nullary main_call4.cst (constant S_ .f32 0x00000000#32),
    TRef.unary main_call4.cst main_call4.v0 (broadcastInDim S35000x64 ![] bcast_S_S35000x64),
    TRef.binary (.of main_v69 : TRef sig ⟨S35000x64, .f32⟩) main_call4.v0 main_call4.v1 (cmpf .oge),
    TRef.unary (.of main_cst_8 : TRef sig ⟨S_, .f32⟩) main_call4.v2 id,
    TRef.unary main_call4.v2 main_call4.v3 (broadcastInDim S35000x64 ![] bcast_S_S35000x64),
    TRef.binary main_call4.v3 (.of main_v69 : TRef sig ⟨S35000x64, .f32⟩) main_call4.v4 mulf,
    TRef.ternary main_call4.v1 (.of main_v69 : TRef sig ⟨S35000x64, .f32⟩) main_call4.v4 main_call4.call0.v0 select,
    binary main_v60 main_v70 main_v71 (addf : (⟨S35000x64, .f32⟩ : BufTy).Contents (Elt F) → (⟨S35000x64, .f32⟩ : BufTy).Contents (Elt F) → (⟨S35000x64, .f32⟩ : BufTy).Contents (Elt F)) ]

/-- Piece 6: 10 operations, the last writing `main_v76`. -/
abbrev seg6 : List (HloOp τ sig (Elt F)) :=
  [ TRef.binary (.of main_v71 : TRef sig ⟨S35000x64, .f32⟩) (.of main_v71 : TRef sig ⟨S35000x64, .f32⟩) main_call5.v0 mulf,
    TRef.nullary main_call5.cst (constant S_ .f32 0x00000000#32),
    TRef.binary main_call5.v0 main_call5.cst main_call5.v1 (fun x v => Host.reduceAdd x v reducesTo_S35000x64_S35000_d1 h_S_),
    TRef.unary main_call5.v1 main_call5.v2 (broadcastInDim S35000x1 ![0] bcast_S35000_S35000x1_0),
    TRef.unary main_call5.v2 main_call5.v3 Host.sqrt,
    nullary main_cst_9 (constant S_ .f32 0x2B8CBCCC#32),
    unary main_cst_9 main_v73 (broadcastInDim S35000x1 ![] bcast_S_S35000x1 : (⟨S_, .f32⟩ : BufTy).Contents (Elt F) → (⟨S35000x1, .f32⟩ : BufTy).Contents (Elt F)),
    binary main_v72 main_v73 main_v74 (maximumf : (⟨S35000x1, .f32⟩ : BufTy).Contents (Elt F) → (⟨S35000x1, .f32⟩ : BufTy).Contents (Elt F) → (⟨S35000x1, .f32⟩ : BufTy).Contents (Elt F)),
    unary main_v74 main_v75 (broadcastInDim S35000x64 ![0, 1] bcast_S35000x1_S35000x64_0_1 : (⟨S35000x1, .f32⟩ : BufTy).Contents (Elt F) → (⟨S35000x64, .f32⟩ : BufTy).Contents (Elt F)),
    binary main_v71 main_v75 main_v76 (Host.divf : (⟨S35000x64, .f32⟩ : BufTy).Contents (Elt F) → (⟨S35000x64, .f32⟩ : BufTy).Contents (Elt F) → (⟨S35000x64, .f32⟩ : BufTy).Contents (Elt F)) ]

/-- Piece 7: 16 operations, the last writing `main_v89`. -/
abbrev seg7 : List (HloOp τ sig (Elt F)) :=
  [ unary main_arg14 main_v77 (broadcastInDim S1000000x1 ![0] bcast_S1000000_S1000000x1_0 : (⟨S1000000, .f32⟩ : BufTy).Contents (Elt F) → (⟨S1000000x1, .f32⟩ : BufTy).Contents (Elt F)),
    nullary main_c_10 (constantI S_ 32 0#32),
    unary main_c_10 main_v78 (broadcastInDim S1000000 ![] bcast_S_S1000000 : (⟨S_, .i32⟩ : BufTy).Contents (Elt F) → (⟨S1000000, .i32⟩ : BufTy).Contents (Elt F)),
    binary main_arg17 main_v78 main_v79 (cmpi .slt : (⟨S1000000, .i32⟩ : BufTy).Contents (Elt F) → (⟨S1000000, .i32⟩ : BufTy).Contents (Elt F) → (⟨S1000000, .i1⟩ : BufTy).Contents (Elt F)),
    nullary main_c_11 (constantI S_ 32 35000#32),
    unary main_c_11 main_v80 (broadcastInDim S1000000 ![] bcast_S_S1000000 : (⟨S_, .i32⟩ : BufTy).Contents (Elt F) → (⟨S1000000, .i32⟩ : BufTy).Contents (Elt F)),
    binary main_arg17 main_v80 main_v81 (addi : (⟨S1000000, .i32⟩ : BufTy).Contents (Elt F) → (⟨S1000000, .i32⟩ : BufTy).Contents (Elt F) → (⟨S1000000, .i32⟩ : BufTy).Contents (Elt F)),
    ternary main_v79 main_v81 main_arg17 main_v82 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v82 main_v83 (broadcastInDim S1000000x1 ![0] bcast_S1000000_S1000000x1_0 : (⟨S1000000, .i32⟩ : BufTy).Contents (Elt F) → (⟨S1000000x1, .i32⟩ : BufTy).Contents (Elt F)),
    binary main_v71 main_v83 main_v84 ((fun x i => Host.gather gather_S35000x64_S1000000x1_S1000000x64_1_0_n_n_0_1_164 x i) : (⟨S35000x64, .f32⟩ : BufTy).Contents (Elt F) → (⟨S1000000x1, .i32⟩ : BufTy).Contents (Elt F) → (⟨S1000000x64, .f32⟩ : BufTy).Contents (Elt F)),
    unary main_v77 main_v85 (broadcastInDim S1000000x64 ![0, 1] bcast_S1000000x1_S1000000x64_0_1 : (⟨S1000000x1, .f32⟩ : BufTy).Contents (Elt F) → (⟨S1000000x64, .f32⟩ : BufTy).Contents (Elt F)),
    binary main_v85 main_v84 main_v86 (mulf : (⟨S1000000x64, .f32⟩ : BufTy).Contents (Elt F) → (⟨S1000000x64, .f32⟩ : BufTy).Contents (Elt F) → (⟨S1000000x64, .f32⟩ : BufTy).Contents (Elt F)),
    nullary main_cst_12 (constant S_ .f32 0x00000000#32),
    unary main_cst_12 main_v87 (broadcastInDim S35000x64 ![] bcast_S_S35000x64 : (⟨S_, .f32⟩ : BufTy).Contents (Elt F) → (⟨S35000x64, .f32⟩ : BufTy).Contents (Elt F)),
    unary main_arg16 main_v88 (broadcastInDim S1000000x1 ![0] bcast_S1000000_S1000000x1_0 : (⟨S1000000, .i32⟩ : BufTy).Contents (Elt F) → (⟨S1000000x1, .i32⟩ : BufTy).Contents (Elt F)),
    ternary main_v87 main_v88 main_v86 main_v89 ((fun x i u => Host.scatterAdd scatter_S35000x64_S1000000x1_S1000000x64_1_0_0_1 x i u) : (⟨S35000x64, .f32⟩ : BufTy).Contents (Elt F) → (⟨S1000000x1, .i32⟩ : BufTy).Contents (Elt F) → (⟨S1000000x64, .f32⟩ : BufTy).Contents (Elt F) → (⟨S35000x64, .f32⟩ : BufTy).Contents (Elt F)) ]

/-- Piece 8: 34 operations, the last writing `main_v109`. -/
abbrev seg8 : List (HloOp τ sig (Elt F)) :=
  [ unary main_arg2 main_v90 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v90 main_v91 rfl shapeCasts_S1x64x64_S64x64,
    binary main_v89 main_v91 main_v92 ((fun l r => Host.dotGeneral dot_S35000x64_S64x64_S35000x64_1_0_0_1_n_n none l r) : (⟨S35000x64, .f32⟩ : BufTy).Contents (Elt F) → (⟨S64x64, .f32⟩ : BufTy).Contents (Elt F) → (⟨S35000x64, .f32⟩ : BufTy).Contents (Elt F)),
    unary main_arg3 main_v93 ((extractStridedSlice S1x64 ![2, 0] · slices_S3x64_S1x64_2_0) : (⟨S3x64, .f32⟩ : BufTy).Contents (Elt F) → (⟨S1x64, .f32⟩ : BufTy).Contents (Elt F)),
    reshape main_v93 main_v94 rfl shapeCasts_S1x64_S64,
    unary main_v94 main_v95 (broadcastInDim S1x64 ![1] bcast_S64_S1x64_1 : (⟨S64, .f32⟩ : BufTy).Contents (Elt F) → (⟨S1x64, .f32⟩ : BufTy).Contents (Elt F)),
    unary main_v95 main_v96 (broadcastInDim S35000x64 ![0, 1] bcast_S1x64_S35000x64_0_1 : (⟨S1x64, .f32⟩ : BufTy).Contents (Elt F) → (⟨S35000x64, .f32⟩ : BufTy).Contents (Elt F)),
    binary main_v92 main_v96 main_v97 (addf : (⟨S35000x64, .f32⟩ : BufTy).Contents (Elt F) → (⟨S35000x64, .f32⟩ : BufTy).Contents (Elt F) → (⟨S35000x64, .f32⟩ : BufTy).Contents (Elt F)),
    nullary main_cst_13 (constant S_ .f32 0x3C23D70A#32),
    TRef.nullary main_call6.cst (constant S_ .f32 0x00000000#32),
    TRef.unary main_call6.cst main_call6.v0 (broadcastInDim S35000x64 ![] bcast_S_S35000x64),
    TRef.binary (.of main_v97 : TRef sig ⟨S35000x64, .f32⟩) main_call6.v0 main_call6.v1 (cmpf .oge),
    TRef.unary (.of main_cst_13 : TRef sig ⟨S_, .f32⟩) main_call6.v2 id,
    TRef.unary main_call6.v2 main_call6.v3 (broadcastInDim S35000x64 ![] bcast_S_S35000x64),
    TRef.binary main_call6.v3 (.of main_v97 : TRef sig ⟨S35000x64, .f32⟩) main_call6.v4 mulf,
    TRef.ternary main_call6.v1 (.of main_v97 : TRef sig ⟨S35000x64, .f32⟩) main_call6.v4 main_call6.call0.v0 select,
    binary main_v71 main_v89 main_v99 (mulf : (⟨S35000x64, .f32⟩ : BufTy).Contents (Elt F) → (⟨S35000x64, .f32⟩ : BufTy).Contents (Elt F) → (⟨S35000x64, .f32⟩ : BufTy).Contents (Elt F)),
    unary main_arg4 main_v100 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v100 main_v101 rfl shapeCasts_S1x64x64_S64x64,
    binary main_v99 main_v101 main_v102 ((fun l r => Host.dotGeneral dot_S35000x64_S64x64_S35000x64_1_0_0_1_n_n none l r) : (⟨S35000x64, .f32⟩ : BufTy).Contents (Elt F) → (⟨S64x64, .f32⟩ : BufTy).Contents (Elt F) → (⟨S35000x64, .f32⟩ : BufTy).Contents (Elt F)),
    unary main_arg5 main_v103 ((extractStridedSlice S1x64 ![2, 0] · slices_S3x64_S1x64_2_0) : (⟨S3x64, .f32⟩ : BufTy).Contents (Elt F) → (⟨S1x64, .f32⟩ : BufTy).Contents (Elt F)),
    reshape main_v103 main_v104 rfl shapeCasts_S1x64_S64,
    unary main_v104 main_v105 (broadcastInDim S1x64 ![1] bcast_S64_S1x64_1 : (⟨S64, .f32⟩ : BufTy).Contents (Elt F) → (⟨S1x64, .f32⟩ : BufTy).Contents (Elt F)),
    unary main_v105 main_v106 (broadcastInDim S35000x64 ![0, 1] bcast_S1x64_S35000x64_0_1 : (⟨S1x64, .f32⟩ : BufTy).Contents (Elt F) → (⟨S35000x64, .f32⟩ : BufTy).Contents (Elt F)),
    binary main_v102 main_v106 main_v107 (addf : (⟨S35000x64, .f32⟩ : BufTy).Contents (Elt F) → (⟨S35000x64, .f32⟩ : BufTy).Contents (Elt F) → (⟨S35000x64, .f32⟩ : BufTy).Contents (Elt F)),
    nullary main_cst_14 (constant S_ .f32 0x3C23D70A#32),
    TRef.nullary main_call7.cst (constant S_ .f32 0x00000000#32),
    TRef.unary main_call7.cst main_call7.v0 (broadcastInDim S35000x64 ![] bcast_S_S35000x64),
    TRef.binary (.of main_v107 : TRef sig ⟨S35000x64, .f32⟩) main_call7.v0 main_call7.v1 (cmpf .oge),
    TRef.unary (.of main_cst_14 : TRef sig ⟨S_, .f32⟩) main_call7.v2 id,
    TRef.unary main_call7.v2 main_call7.v3 (broadcastInDim S35000x64 ![] bcast_S_S35000x64),
    TRef.binary main_call7.v3 (.of main_v107 : TRef sig ⟨S35000x64, .f32⟩) main_call7.v4 mulf,
    TRef.ternary main_call7.v1 (.of main_v107 : TRef sig ⟨S35000x64, .f32⟩) main_call7.v4 main_call7.call0.v0 select,
    binary main_v98 main_v108 main_v109 (addf : (⟨S35000x64, .f32⟩ : BufTy).Contents (Elt F) → (⟨S35000x64, .f32⟩ : BufTy).Contents (Elt F) → (⟨S35000x64, .f32⟩ : BufTy).Contents (Elt F)) ]

/-- Piece 9: 10 operations, the last writing `main_v114`. -/
abbrev seg9 : List (HloOp τ sig (Elt F)) :=
  [ TRef.binary (.of main_v109 : TRef sig ⟨S35000x64, .f32⟩) (.of main_v109 : TRef sig ⟨S35000x64, .f32⟩) main_call8.v0 mulf,
    TRef.nullary main_call8.cst (constant S_ .f32 0x00000000#32),
    TRef.binary main_call8.v0 main_call8.cst main_call8.v1 (fun x v => Host.reduceAdd x v reducesTo_S35000x64_S35000_d1 h_S_),
    TRef.unary main_call8.v1 main_call8.v2 (broadcastInDim S35000x1 ![0] bcast_S35000_S35000x1_0),
    TRef.unary main_call8.v2 main_call8.v3 Host.sqrt,
    nullary main_cst_15 (constant S_ .f32 0x2B8CBCCC#32),
    unary main_cst_15 main_v111 (broadcastInDim S35000x1 ![] bcast_S_S35000x1 : (⟨S_, .f32⟩ : BufTy).Contents (Elt F) → (⟨S35000x1, .f32⟩ : BufTy).Contents (Elt F)),
    binary main_v110 main_v111 main_v112 (maximumf : (⟨S35000x1, .f32⟩ : BufTy).Contents (Elt F) → (⟨S35000x1, .f32⟩ : BufTy).Contents (Elt F) → (⟨S35000x1, .f32⟩ : BufTy).Contents (Elt F)),
    unary main_v112 main_v113 (broadcastInDim S35000x64 ![0, 1] bcast_S35000x1_S35000x64_0_1 : (⟨S35000x1, .f32⟩ : BufTy).Contents (Elt F) → (⟨S35000x64, .f32⟩ : BufTy).Contents (Elt F)),
    binary main_v109 main_v113 main_v114 (Host.divf : (⟨S35000x64, .f32⟩ : BufTy).Contents (Elt F) → (⟨S35000x64, .f32⟩ : BufTy).Contents (Elt F) → (⟨S35000x64, .f32⟩ : BufTy).Contents (Elt F)) ]

/-- Piece 10: 3 operations, the last writing `main_v117`. -/
abbrev seg10 : List (HloOp τ sig (Elt F)) :=
  [ nary ![main_v0, main_v38, main_v76, main_v114] main_v115 (fun u => concatenate S35000x256 1 [⟨S35000x64, u 0⟩, ⟨S35000x64, u 1⟩, ⟨S35000x64, u 2⟩, ⟨S35000x64, u 3⟩] concatenates_S35000x64_S35000x64_S35000x64_S35000x64_S35000x256_d1),
    unary main_v115 main_v116 ((extractStridedSlice S20000x256 ![0, 0] · slices_S35000x256_S20000x256_0_0) : (⟨S35000x256, .f32⟩ : BufTy).Contents (Elt F) → (⟨S20000x256, .f32⟩ : BufTy).Contents (Elt F)),
    unary main_v115 main_v117 ((extractStridedSlice S15000x256 ![20000, 0] · slices_S35000x256_S15000x256_20000_0) : (⟨S35000x256, .f32⟩ : BufTy).Contents (Elt F) → (⟨S15000x256, .f32⟩ : BufTy).Contents (Elt F)) ]

/-- Piece 11: 1 operation, the last writing `main_v118`. -/
abbrev seg11 : List (HloOp τ sig (Elt F)) :=
  [ binary main_arg6 main_arg7 main_v118 ((fun a b => concatenate S7000x64 0 [⟨S4000x64, a⟩, ⟨S3000x64, b⟩] concatenates_S4000x64_S3000x64_S7000x64_d0) : (⟨S4000x64, .f32⟩ : BufTy).Contents (Elt F) → (⟨S3000x64, .f32⟩ : BufTy).Contents (Elt F) → (⟨S7000x64, .f32⟩ : BufTy).Contents (Elt F)) ]

/-- Piece 12: 16 operations, the last writing `main_v131`. -/
abbrev seg12 : List (HloOp τ sig (Elt F)) :=
  [ unary main_arg15 main_v119 (broadcastInDim S200000x1 ![0] bcast_S200000_S200000x1_0 : (⟨S200000, .f32⟩ : BufTy).Contents (Elt F) → (⟨S200000x1, .f32⟩ : BufTy).Contents (Elt F)),
    nullary main_c_16 (constantI S_ 32 0#32),
    unary main_c_16 main_v120 (broadcastInDim S200000 ![] bcast_S_S200000 : (⟨S_, .i32⟩ : BufTy).Contents (Elt F) → (⟨S200000, .i32⟩ : BufTy).Contents (Elt F)),
    binary main_arg19 main_v120 main_v121 (cmpi .slt : (⟨S200000, .i32⟩ : BufTy).Contents (Elt F) → (⟨S200000, .i32⟩ : BufTy).Contents (Elt F) → (⟨S200000, .i1⟩ : BufTy).Contents (Elt F)),
    nullary main_c_17 (constantI S_ 32 7000#32),
    unary main_c_17 main_v122 (broadcastInDim S200000 ![] bcast_S_S200000 : (⟨S_, .i32⟩ : BufTy).Contents (Elt F) → (⟨S200000, .i32⟩ : BufTy).Contents (Elt F)),
    binary main_arg19 main_v122 main_v123 (addi : (⟨S200000, .i32⟩ : BufTy).Contents (Elt F) → (⟨S200000, .i32⟩ : BufTy).Contents (Elt F) → (⟨S200000, .i32⟩ : BufTy).Contents (Elt F)),
    ternary main_v121 main_v123 main_arg19 main_v124 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v124 main_v125 (broadcastInDim S200000x1 ![0] bcast_S200000_S200000x1_0 : (⟨S200000, .i32⟩ : BufTy).Contents (Elt F) → (⟨S200000x1, .i32⟩ : BufTy).Contents (Elt F)),
    binary main_v118 main_v125 main_v126 ((fun x i => Host.gather gather_S7000x64_S200000x1_S200000x64_1_0_n_n_0_1_164 x i) : (⟨S7000x64, .f32⟩ : BufTy).Contents (Elt F) → (⟨S200000x1, .i32⟩ : BufTy).Contents (Elt F) → (⟨S200000x64, .f32⟩ : BufTy).Contents (Elt F)),
    unary main_v119 main_v127 (broadcastInDim S200000x64 ![0, 1] bcast_S200000x1_S200000x64_0_1 : (⟨S200000x1, .f32⟩ : BufTy).Contents (Elt F) → (⟨S200000x64, .f32⟩ : BufTy).Contents (Elt F)),
    binary main_v127 main_v126 main_v128 (mulf : (⟨S200000x64, .f32⟩ : BufTy).Contents (Elt F) → (⟨S200000x64, .f32⟩ : BufTy).Contents (Elt F) → (⟨S200000x64, .f32⟩ : BufTy).Contents (Elt F)),
    nullary main_cst_18 (constant S_ .f32 0x00000000#32),
    unary main_cst_18 main_v129 (broadcastInDim S7000x64 ![] bcast_S_S7000x64 : (⟨S_, .f32⟩ : BufTy).Contents (Elt F) → (⟨S7000x64, .f32⟩ : BufTy).Contents (Elt F)),
    unary main_arg18 main_v130 (broadcastInDim S200000x1 ![0] bcast_S200000_S200000x1_0 : (⟨S200000, .i32⟩ : BufTy).Contents (Elt F) → (⟨S200000x1, .i32⟩ : BufTy).Contents (Elt F)),
    ternary main_v129 main_v130 main_v128 main_v131 ((fun x i u => Host.scatterAdd scatter_S7000x64_S200000x1_S200000x64_1_0_0_1 x i u) : (⟨S7000x64, .f32⟩ : BufTy).Contents (Elt F) → (⟨S200000x1, .i32⟩ : BufTy).Contents (Elt F) → (⟨S200000x64, .f32⟩ : BufTy).Contents (Elt F) → (⟨S7000x64, .f32⟩ : BufTy).Contents (Elt F)) ]

/-- Piece 13: 34 operations, the last writing `main_v151`. -/
abbrev seg13 : List (HloOp τ sig (Elt F)) :=
  [ unary main_arg8 main_v132 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v132 main_v133 rfl shapeCasts_S1x64x64_S64x64,
    binary main_v131 main_v133 main_v134 ((fun l r => Host.dotGeneral dot_S7000x64_S64x64_S7000x64_1_0_0_1_n_n none l r) : (⟨S7000x64, .f32⟩ : BufTy).Contents (Elt F) → (⟨S64x64, .f32⟩ : BufTy).Contents (Elt F) → (⟨S7000x64, .f32⟩ : BufTy).Contents (Elt F)),
    unary main_arg9 main_v135 ((extractStridedSlice S1x64 ![0, 0] · slices_S3x64_S1x64_0_0) : (⟨S3x64, .f32⟩ : BufTy).Contents (Elt F) → (⟨S1x64, .f32⟩ : BufTy).Contents (Elt F)),
    reshape main_v135 main_v136 rfl shapeCasts_S1x64_S64,
    unary main_v136 main_v137 (broadcastInDim S1x64 ![1] bcast_S64_S1x64_1 : (⟨S64, .f32⟩ : BufTy).Contents (Elt F) → (⟨S1x64, .f32⟩ : BufTy).Contents (Elt F)),
    unary main_v137 main_v138 (broadcastInDim S7000x64 ![0, 1] bcast_S1x64_S7000x64_0_1 : (⟨S1x64, .f32⟩ : BufTy).Contents (Elt F) → (⟨S7000x64, .f32⟩ : BufTy).Contents (Elt F)),
    binary main_v134 main_v138 main_v139 (addf : (⟨S7000x64, .f32⟩ : BufTy).Contents (Elt F) → (⟨S7000x64, .f32⟩ : BufTy).Contents (Elt F) → (⟨S7000x64, .f32⟩ : BufTy).Contents (Elt F)),
    nullary main_cst_19 (constant S_ .f32 0x3C23D70A#32),
    TRef.nullary main_call9.cst (constant S_ .f32 0x00000000#32),
    TRef.unary main_call9.cst main_call9.v0 (broadcastInDim S7000x64 ![] bcast_S_S7000x64),
    TRef.binary (.of main_v139 : TRef sig ⟨S7000x64, .f32⟩) main_call9.v0 main_call9.v1 (cmpf .oge),
    TRef.unary (.of main_cst_19 : TRef sig ⟨S_, .f32⟩) main_call9.v2 id,
    TRef.unary main_call9.v2 main_call9.v3 (broadcastInDim S7000x64 ![] bcast_S_S7000x64),
    TRef.binary main_call9.v3 (.of main_v139 : TRef sig ⟨S7000x64, .f32⟩) main_call9.v4 mulf,
    TRef.ternary main_call9.v1 (.of main_v139 : TRef sig ⟨S7000x64, .f32⟩) main_call9.v4 main_call9.call0.v0 select,
    binary main_v118 main_v131 main_v141 (mulf : (⟨S7000x64, .f32⟩ : BufTy).Contents (Elt F) → (⟨S7000x64, .f32⟩ : BufTy).Contents (Elt F) → (⟨S7000x64, .f32⟩ : BufTy).Contents (Elt F)),
    unary main_arg10 main_v142 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v142 main_v143 rfl shapeCasts_S1x64x64_S64x64,
    binary main_v141 main_v143 main_v144 ((fun l r => Host.dotGeneral dot_S7000x64_S64x64_S7000x64_1_0_0_1_n_n none l r) : (⟨S7000x64, .f32⟩ : BufTy).Contents (Elt F) → (⟨S64x64, .f32⟩ : BufTy).Contents (Elt F) → (⟨S7000x64, .f32⟩ : BufTy).Contents (Elt F)),
    unary main_arg11 main_v145 ((extractStridedSlice S1x64 ![0, 0] · slices_S3x64_S1x64_0_0) : (⟨S3x64, .f32⟩ : BufTy).Contents (Elt F) → (⟨S1x64, .f32⟩ : BufTy).Contents (Elt F)),
    reshape main_v145 main_v146 rfl shapeCasts_S1x64_S64,
    unary main_v146 main_v147 (broadcastInDim S1x64 ![1] bcast_S64_S1x64_1 : (⟨S64, .f32⟩ : BufTy).Contents (Elt F) → (⟨S1x64, .f32⟩ : BufTy).Contents (Elt F)),
    unary main_v147 main_v148 (broadcastInDim S7000x64 ![0, 1] bcast_S1x64_S7000x64_0_1 : (⟨S1x64, .f32⟩ : BufTy).Contents (Elt F) → (⟨S7000x64, .f32⟩ : BufTy).Contents (Elt F)),
    binary main_v144 main_v148 main_v149 (addf : (⟨S7000x64, .f32⟩ : BufTy).Contents (Elt F) → (⟨S7000x64, .f32⟩ : BufTy).Contents (Elt F) → (⟨S7000x64, .f32⟩ : BufTy).Contents (Elt F)),
    nullary main_cst_20 (constant S_ .f32 0x3C23D70A#32),
    TRef.nullary main_call10.cst (constant S_ .f32 0x00000000#32),
    TRef.unary main_call10.cst main_call10.v0 (broadcastInDim S7000x64 ![] bcast_S_S7000x64),
    TRef.binary (.of main_v149 : TRef sig ⟨S7000x64, .f32⟩) main_call10.v0 main_call10.v1 (cmpf .oge),
    TRef.unary (.of main_cst_20 : TRef sig ⟨S_, .f32⟩) main_call10.v2 id,
    TRef.unary main_call10.v2 main_call10.v3 (broadcastInDim S7000x64 ![] bcast_S_S7000x64),
    TRef.binary main_call10.v3 (.of main_v149 : TRef sig ⟨S7000x64, .f32⟩) main_call10.v4 mulf,
    TRef.ternary main_call10.v1 (.of main_v149 : TRef sig ⟨S7000x64, .f32⟩) main_call10.v4 main_call10.call0.v0 select,
    binary main_v140 main_v150 main_v151 (addf : (⟨S7000x64, .f32⟩ : BufTy).Contents (Elt F) → (⟨S7000x64, .f32⟩ : BufTy).Contents (Elt F) → (⟨S7000x64, .f32⟩ : BufTy).Contents (Elt F)) ]

/-- Piece 14: 10 operations, the last writing `main_v156`. -/
abbrev seg14 : List (HloOp τ sig (Elt F)) :=
  [ TRef.binary (.of main_v151 : TRef sig ⟨S7000x64, .f32⟩) (.of main_v151 : TRef sig ⟨S7000x64, .f32⟩) main_call11.v0 mulf,
    TRef.nullary main_call11.cst (constant S_ .f32 0x00000000#32),
    TRef.binary main_call11.v0 main_call11.cst main_call11.v1 (fun x v => Host.reduceAdd x v reducesTo_S7000x64_S7000_d1 h_S_),
    TRef.unary main_call11.v1 main_call11.v2 (broadcastInDim S7000x1 ![0] bcast_S7000_S7000x1_0),
    TRef.unary main_call11.v2 main_call11.v3 Host.sqrt,
    nullary main_cst_21 (constant S_ .f32 0x2B8CBCCC#32),
    unary main_cst_21 main_v153 (broadcastInDim S7000x1 ![] bcast_S_S7000x1 : (⟨S_, .f32⟩ : BufTy).Contents (Elt F) → (⟨S7000x1, .f32⟩ : BufTy).Contents (Elt F)),
    binary main_v152 main_v153 main_v154 (maximumf : (⟨S7000x1, .f32⟩ : BufTy).Contents (Elt F) → (⟨S7000x1, .f32⟩ : BufTy).Contents (Elt F) → (⟨S7000x1, .f32⟩ : BufTy).Contents (Elt F)),
    unary main_v154 main_v155 (broadcastInDim S7000x64 ![0, 1] bcast_S7000x1_S7000x64_0_1 : (⟨S7000x1, .f32⟩ : BufTy).Contents (Elt F) → (⟨S7000x64, .f32⟩ : BufTy).Contents (Elt F)),
    binary main_v151 main_v155 main_v156 (Host.divf : (⟨S7000x64, .f32⟩ : BufTy).Contents (Elt F) → (⟨S7000x64, .f32⟩ : BufTy).Contents (Elt F) → (⟨S7000x64, .f32⟩ : BufTy).Contents (Elt F)) ]

/-- Piece 15: 16 operations, the last writing `main_v169`. -/
abbrev seg15 : List (HloOp τ sig (Elt F)) :=
  [ unary main_arg15 main_v157 (broadcastInDim S200000x1 ![0] bcast_S200000_S200000x1_0 : (⟨S200000, .f32⟩ : BufTy).Contents (Elt F) → (⟨S200000x1, .f32⟩ : BufTy).Contents (Elt F)),
    nullary main_c_22 (constantI S_ 32 0#32),
    unary main_c_22 main_v158 (broadcastInDim S200000 ![] bcast_S_S200000 : (⟨S_, .i32⟩ : BufTy).Contents (Elt F) → (⟨S200000, .i32⟩ : BufTy).Contents (Elt F)),
    binary main_arg19 main_v158 main_v159 (cmpi .slt : (⟨S200000, .i32⟩ : BufTy).Contents (Elt F) → (⟨S200000, .i32⟩ : BufTy).Contents (Elt F) → (⟨S200000, .i1⟩ : BufTy).Contents (Elt F)),
    nullary main_c_23 (constantI S_ 32 7000#32),
    unary main_c_23 main_v160 (broadcastInDim S200000 ![] bcast_S_S200000 : (⟨S_, .i32⟩ : BufTy).Contents (Elt F) → (⟨S200000, .i32⟩ : BufTy).Contents (Elt F)),
    binary main_arg19 main_v160 main_v161 (addi : (⟨S200000, .i32⟩ : BufTy).Contents (Elt F) → (⟨S200000, .i32⟩ : BufTy).Contents (Elt F) → (⟨S200000, .i32⟩ : BufTy).Contents (Elt F)),
    ternary main_v159 main_v161 main_arg19 main_v162 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v162 main_v163 (broadcastInDim S200000x1 ![0] bcast_S200000_S200000x1_0 : (⟨S200000, .i32⟩ : BufTy).Contents (Elt F) → (⟨S200000x1, .i32⟩ : BufTy).Contents (Elt F)),
    binary main_v151 main_v163 main_v164 ((fun x i => Host.gather gather_S7000x64_S200000x1_S200000x64_1_0_n_n_0_1_164 x i) : (⟨S7000x64, .f32⟩ : BufTy).Contents (Elt F) → (⟨S200000x1, .i32⟩ : BufTy).Contents (Elt F) → (⟨S200000x64, .f32⟩ : BufTy).Contents (Elt F)),
    unary main_v157 main_v165 (broadcastInDim S200000x64 ![0, 1] bcast_S200000x1_S200000x64_0_1 : (⟨S200000x1, .f32⟩ : BufTy).Contents (Elt F) → (⟨S200000x64, .f32⟩ : BufTy).Contents (Elt F)),
    binary main_v165 main_v164 main_v166 (mulf : (⟨S200000x64, .f32⟩ : BufTy).Contents (Elt F) → (⟨S200000x64, .f32⟩ : BufTy).Contents (Elt F) → (⟨S200000x64, .f32⟩ : BufTy).Contents (Elt F)),
    nullary main_cst_24 (constant S_ .f32 0x00000000#32),
    unary main_cst_24 main_v167 (broadcastInDim S7000x64 ![] bcast_S_S7000x64 : (⟨S_, .f32⟩ : BufTy).Contents (Elt F) → (⟨S7000x64, .f32⟩ : BufTy).Contents (Elt F)),
    unary main_arg18 main_v168 (broadcastInDim S200000x1 ![0] bcast_S200000_S200000x1_0 : (⟨S200000, .i32⟩ : BufTy).Contents (Elt F) → (⟨S200000x1, .i32⟩ : BufTy).Contents (Elt F)),
    ternary main_v167 main_v168 main_v166 main_v169 ((fun x i u => Host.scatterAdd scatter_S7000x64_S200000x1_S200000x64_1_0_0_1 x i u) : (⟨S7000x64, .f32⟩ : BufTy).Contents (Elt F) → (⟨S200000x1, .i32⟩ : BufTy).Contents (Elt F) → (⟨S200000x64, .f32⟩ : BufTy).Contents (Elt F) → (⟨S7000x64, .f32⟩ : BufTy).Contents (Elt F)) ]

/-- Piece 16: 34 operations, the last writing `main_v189`. -/
abbrev seg16 : List (HloOp τ sig (Elt F)) :=
  [ unary main_arg8 main_v170 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v170 main_v171 rfl shapeCasts_S1x64x64_S64x64,
    binary main_v169 main_v171 main_v172 ((fun l r => Host.dotGeneral dot_S7000x64_S64x64_S7000x64_1_0_0_1_n_n none l r) : (⟨S7000x64, .f32⟩ : BufTy).Contents (Elt F) → (⟨S64x64, .f32⟩ : BufTy).Contents (Elt F) → (⟨S7000x64, .f32⟩ : BufTy).Contents (Elt F)),
    unary main_arg9 main_v173 ((extractStridedSlice S1x64 ![1, 0] · slices_S3x64_S1x64_1_0) : (⟨S3x64, .f32⟩ : BufTy).Contents (Elt F) → (⟨S1x64, .f32⟩ : BufTy).Contents (Elt F)),
    reshape main_v173 main_v174 rfl shapeCasts_S1x64_S64,
    unary main_v174 main_v175 (broadcastInDim S1x64 ![1] bcast_S64_S1x64_1 : (⟨S64, .f32⟩ : BufTy).Contents (Elt F) → (⟨S1x64, .f32⟩ : BufTy).Contents (Elt F)),
    unary main_v175 main_v176 (broadcastInDim S7000x64 ![0, 1] bcast_S1x64_S7000x64_0_1 : (⟨S1x64, .f32⟩ : BufTy).Contents (Elt F) → (⟨S7000x64, .f32⟩ : BufTy).Contents (Elt F)),
    binary main_v172 main_v176 main_v177 (addf : (⟨S7000x64, .f32⟩ : BufTy).Contents (Elt F) → (⟨S7000x64, .f32⟩ : BufTy).Contents (Elt F) → (⟨S7000x64, .f32⟩ : BufTy).Contents (Elt F)),
    nullary main_cst_25 (constant S_ .f32 0x3C23D70A#32),
    TRef.nullary main_call12.cst (constant S_ .f32 0x00000000#32),
    TRef.unary main_call12.cst main_call12.v0 (broadcastInDim S7000x64 ![] bcast_S_S7000x64),
    TRef.binary (.of main_v177 : TRef sig ⟨S7000x64, .f32⟩) main_call12.v0 main_call12.v1 (cmpf .oge),
    TRef.unary (.of main_cst_25 : TRef sig ⟨S_, .f32⟩) main_call12.v2 id,
    TRef.unary main_call12.v2 main_call12.v3 (broadcastInDim S7000x64 ![] bcast_S_S7000x64),
    TRef.binary main_call12.v3 (.of main_v177 : TRef sig ⟨S7000x64, .f32⟩) main_call12.v4 mulf,
    TRef.ternary main_call12.v1 (.of main_v177 : TRef sig ⟨S7000x64, .f32⟩) main_call12.v4 main_call12.call0.v0 select,
    binary main_v151 main_v169 main_v179 (mulf : (⟨S7000x64, .f32⟩ : BufTy).Contents (Elt F) → (⟨S7000x64, .f32⟩ : BufTy).Contents (Elt F) → (⟨S7000x64, .f32⟩ : BufTy).Contents (Elt F)),
    unary main_arg10 main_v180 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v180 main_v181 rfl shapeCasts_S1x64x64_S64x64,
    binary main_v179 main_v181 main_v182 ((fun l r => Host.dotGeneral dot_S7000x64_S64x64_S7000x64_1_0_0_1_n_n none l r) : (⟨S7000x64, .f32⟩ : BufTy).Contents (Elt F) → (⟨S64x64, .f32⟩ : BufTy).Contents (Elt F) → (⟨S7000x64, .f32⟩ : BufTy).Contents (Elt F)),
    unary main_arg11 main_v183 ((extractStridedSlice S1x64 ![1, 0] · slices_S3x64_S1x64_1_0) : (⟨S3x64, .f32⟩ : BufTy).Contents (Elt F) → (⟨S1x64, .f32⟩ : BufTy).Contents (Elt F)),
    reshape main_v183 main_v184 rfl shapeCasts_S1x64_S64,
    unary main_v184 main_v185 (broadcastInDim S1x64 ![1] bcast_S64_S1x64_1 : (⟨S64, .f32⟩ : BufTy).Contents (Elt F) → (⟨S1x64, .f32⟩ : BufTy).Contents (Elt F)),
    unary main_v185 main_v186 (broadcastInDim S7000x64 ![0, 1] bcast_S1x64_S7000x64_0_1 : (⟨S1x64, .f32⟩ : BufTy).Contents (Elt F) → (⟨S7000x64, .f32⟩ : BufTy).Contents (Elt F)),
    binary main_v182 main_v186 main_v187 (addf : (⟨S7000x64, .f32⟩ : BufTy).Contents (Elt F) → (⟨S7000x64, .f32⟩ : BufTy).Contents (Elt F) → (⟨S7000x64, .f32⟩ : BufTy).Contents (Elt F)),
    nullary main_cst_26 (constant S_ .f32 0x3C23D70A#32),
    TRef.nullary main_call13.cst (constant S_ .f32 0x00000000#32),
    TRef.unary main_call13.cst main_call13.v0 (broadcastInDim S7000x64 ![] bcast_S_S7000x64),
    TRef.binary (.of main_v187 : TRef sig ⟨S7000x64, .f32⟩) main_call13.v0 main_call13.v1 (cmpf .oge),
    TRef.unary (.of main_cst_26 : TRef sig ⟨S_, .f32⟩) main_call13.v2 id,
    TRef.unary main_call13.v2 main_call13.v3 (broadcastInDim S7000x64 ![] bcast_S_S7000x64),
    TRef.binary main_call13.v3 (.of main_v187 : TRef sig ⟨S7000x64, .f32⟩) main_call13.v4 mulf,
    TRef.ternary main_call13.v1 (.of main_v187 : TRef sig ⟨S7000x64, .f32⟩) main_call13.v4 main_call13.call0.v0 select,
    binary main_v178 main_v188 main_v189 (addf : (⟨S7000x64, .f32⟩ : BufTy).Contents (Elt F) → (⟨S7000x64, .f32⟩ : BufTy).Contents (Elt F) → (⟨S7000x64, .f32⟩ : BufTy).Contents (Elt F)) ]

/-- Piece 17: 10 operations, the last writing `main_v194`. -/
abbrev seg17 : List (HloOp τ sig (Elt F)) :=
  [ TRef.binary (.of main_v189 : TRef sig ⟨S7000x64, .f32⟩) (.of main_v189 : TRef sig ⟨S7000x64, .f32⟩) main_call14.v0 mulf,
    TRef.nullary main_call14.cst (constant S_ .f32 0x00000000#32),
    TRef.binary main_call14.v0 main_call14.cst main_call14.v1 (fun x v => Host.reduceAdd x v reducesTo_S7000x64_S7000_d1 h_S_),
    TRef.unary main_call14.v1 main_call14.v2 (broadcastInDim S7000x1 ![0] bcast_S7000_S7000x1_0),
    TRef.unary main_call14.v2 main_call14.v3 Host.sqrt,
    nullary main_cst_27 (constant S_ .f32 0x2B8CBCCC#32),
    unary main_cst_27 main_v191 (broadcastInDim S7000x1 ![] bcast_S_S7000x1 : (⟨S_, .f32⟩ : BufTy).Contents (Elt F) → (⟨S7000x1, .f32⟩ : BufTy).Contents (Elt F)),
    binary main_v190 main_v191 main_v192 (maximumf : (⟨S7000x1, .f32⟩ : BufTy).Contents (Elt F) → (⟨S7000x1, .f32⟩ : BufTy).Contents (Elt F) → (⟨S7000x1, .f32⟩ : BufTy).Contents (Elt F)),
    unary main_v192 main_v193 (broadcastInDim S7000x64 ![0, 1] bcast_S7000x1_S7000x64_0_1 : (⟨S7000x1, .f32⟩ : BufTy).Contents (Elt F) → (⟨S7000x64, .f32⟩ : BufTy).Contents (Elt F)),
    binary main_v189 main_v193 main_v194 (Host.divf : (⟨S7000x64, .f32⟩ : BufTy).Contents (Elt F) → (⟨S7000x64, .f32⟩ : BufTy).Contents (Elt F) → (⟨S7000x64, .f32⟩ : BufTy).Contents (Elt F)) ]

/-- Piece 18: 16 operations, the last writing `main_v207`. -/
abbrev seg18 : List (HloOp τ sig (Elt F)) :=
  [ unary main_arg15 main_v195 (broadcastInDim S200000x1 ![0] bcast_S200000_S200000x1_0 : (⟨S200000, .f32⟩ : BufTy).Contents (Elt F) → (⟨S200000x1, .f32⟩ : BufTy).Contents (Elt F)),
    nullary main_c_28 (constantI S_ 32 0#32),
    unary main_c_28 main_v196 (broadcastInDim S200000 ![] bcast_S_S200000 : (⟨S_, .i32⟩ : BufTy).Contents (Elt F) → (⟨S200000, .i32⟩ : BufTy).Contents (Elt F)),
    binary main_arg19 main_v196 main_v197 (cmpi .slt : (⟨S200000, .i32⟩ : BufTy).Contents (Elt F) → (⟨S200000, .i32⟩ : BufTy).Contents (Elt F) → (⟨S200000, .i1⟩ : BufTy).Contents (Elt F)),
    nullary main_c_29 (constantI S_ 32 7000#32),
    unary main_c_29 main_v198 (broadcastInDim S200000 ![] bcast_S_S200000 : (⟨S_, .i32⟩ : BufTy).Contents (Elt F) → (⟨S200000, .i32⟩ : BufTy).Contents (Elt F)),
    binary main_arg19 main_v198 main_v199 (addi : (⟨S200000, .i32⟩ : BufTy).Contents (Elt F) → (⟨S200000, .i32⟩ : BufTy).Contents (Elt F) → (⟨S200000, .i32⟩ : BufTy).Contents (Elt F)),
    ternary main_v197 main_v199 main_arg19 main_v200 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v200 main_v201 (broadcastInDim S200000x1 ![0] bcast_S200000_S200000x1_0 : (⟨S200000, .i32⟩ : BufTy).Contents (Elt F) → (⟨S200000x1, .i32⟩ : BufTy).Contents (Elt F)),
    binary main_v189 main_v201 main_v202 ((fun x i => Host.gather gather_S7000x64_S200000x1_S200000x64_1_0_n_n_0_1_164 x i) : (⟨S7000x64, .f32⟩ : BufTy).Contents (Elt F) → (⟨S200000x1, .i32⟩ : BufTy).Contents (Elt F) → (⟨S200000x64, .f32⟩ : BufTy).Contents (Elt F)),
    unary main_v195 main_v203 (broadcastInDim S200000x64 ![0, 1] bcast_S200000x1_S200000x64_0_1 : (⟨S200000x1, .f32⟩ : BufTy).Contents (Elt F) → (⟨S200000x64, .f32⟩ : BufTy).Contents (Elt F)),
    binary main_v203 main_v202 main_v204 (mulf : (⟨S200000x64, .f32⟩ : BufTy).Contents (Elt F) → (⟨S200000x64, .f32⟩ : BufTy).Contents (Elt F) → (⟨S200000x64, .f32⟩ : BufTy).Contents (Elt F)),
    nullary main_cst_30 (constant S_ .f32 0x00000000#32),
    unary main_cst_30 main_v205 (broadcastInDim S7000x64 ![] bcast_S_S7000x64 : (⟨S_, .f32⟩ : BufTy).Contents (Elt F) → (⟨S7000x64, .f32⟩ : BufTy).Contents (Elt F)),
    unary main_arg18 main_v206 (broadcastInDim S200000x1 ![0] bcast_S200000_S200000x1_0 : (⟨S200000, .i32⟩ : BufTy).Contents (Elt F) → (⟨S200000x1, .i32⟩ : BufTy).Contents (Elt F)),
    ternary main_v205 main_v206 main_v204 main_v207 ((fun x i u => Host.scatterAdd scatter_S7000x64_S200000x1_S200000x64_1_0_0_1 x i u) : (⟨S7000x64, .f32⟩ : BufTy).Contents (Elt F) → (⟨S200000x1, .i32⟩ : BufTy).Contents (Elt F) → (⟨S200000x64, .f32⟩ : BufTy).Contents (Elt F) → (⟨S7000x64, .f32⟩ : BufTy).Contents (Elt F)) ]

/-- Piece 19: 34 operations, the last writing `main_v227`. -/
abbrev seg19 : List (HloOp τ sig (Elt F)) :=
  [ unary main_arg8 main_v208 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v208 main_v209 rfl shapeCasts_S1x64x64_S64x64,
    binary main_v207 main_v209 main_v210 ((fun l r => Host.dotGeneral dot_S7000x64_S64x64_S7000x64_1_0_0_1_n_n none l r) : (⟨S7000x64, .f32⟩ : BufTy).Contents (Elt F) → (⟨S64x64, .f32⟩ : BufTy).Contents (Elt F) → (⟨S7000x64, .f32⟩ : BufTy).Contents (Elt F)),
    unary main_arg9 main_v211 ((extractStridedSlice S1x64 ![2, 0] · slices_S3x64_S1x64_2_0) : (⟨S3x64, .f32⟩ : BufTy).Contents (Elt F) → (⟨S1x64, .f32⟩ : BufTy).Contents (Elt F)),
    reshape main_v211 main_v212 rfl shapeCasts_S1x64_S64,
    unary main_v212 main_v213 (broadcastInDim S1x64 ![1] bcast_S64_S1x64_1 : (⟨S64, .f32⟩ : BufTy).Contents (Elt F) → (⟨S1x64, .f32⟩ : BufTy).Contents (Elt F)),
    unary main_v213 main_v214 (broadcastInDim S7000x64 ![0, 1] bcast_S1x64_S7000x64_0_1 : (⟨S1x64, .f32⟩ : BufTy).Contents (Elt F) → (⟨S7000x64, .f32⟩ : BufTy).Contents (Elt F)),
    binary main_v210 main_v214 main_v215 (addf : (⟨S7000x64, .f32⟩ : BufTy).Contents (Elt F) → (⟨S7000x64, .f32⟩ : BufTy).Contents (Elt F) → (⟨S7000x64, .f32⟩ : BufTy).Contents (Elt F)),
    nullary main_cst_31 (constant S_ .f32 0x3C23D70A#32),
    TRef.nullary main_call15.cst (constant S_ .f32 0x00000000#32),
    TRef.unary main_call15.cst main_call15.v0 (broadcastInDim S7000x64 ![] bcast_S_S7000x64),
    TRef.binary (.of main_v215 : TRef sig ⟨S7000x64, .f32⟩) main_call15.v0 main_call15.v1 (cmpf .oge),
    TRef.unary (.of main_cst_31 : TRef sig ⟨S_, .f32⟩) main_call15.v2 id,
    TRef.unary main_call15.v2 main_call15.v3 (broadcastInDim S7000x64 ![] bcast_S_S7000x64),
    TRef.binary main_call15.v3 (.of main_v215 : TRef sig ⟨S7000x64, .f32⟩) main_call15.v4 mulf,
    TRef.ternary main_call15.v1 (.of main_v215 : TRef sig ⟨S7000x64, .f32⟩) main_call15.v4 main_call15.call0.v0 select,
    binary main_v189 main_v207 main_v217 (mulf : (⟨S7000x64, .f32⟩ : BufTy).Contents (Elt F) → (⟨S7000x64, .f32⟩ : BufTy).Contents (Elt F) → (⟨S7000x64, .f32⟩ : BufTy).Contents (Elt F)),
    unary main_arg10 main_v218 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v218 main_v219 rfl shapeCasts_S1x64x64_S64x64,
    binary main_v217 main_v219 main_v220 ((fun l r => Host.dotGeneral dot_S7000x64_S64x64_S7000x64_1_0_0_1_n_n none l r) : (⟨S7000x64, .f32⟩ : BufTy).Contents (Elt F) → (⟨S64x64, .f32⟩ : BufTy).Contents (Elt F) → (⟨S7000x64, .f32⟩ : BufTy).Contents (Elt F)),
    unary main_arg11 main_v221 ((extractStridedSlice S1x64 ![2, 0] · slices_S3x64_S1x64_2_0) : (⟨S3x64, .f32⟩ : BufTy).Contents (Elt F) → (⟨S1x64, .f32⟩ : BufTy).Contents (Elt F)),
    reshape main_v221 main_v222 rfl shapeCasts_S1x64_S64,
    unary main_v222 main_v223 (broadcastInDim S1x64 ![1] bcast_S64_S1x64_1 : (⟨S64, .f32⟩ : BufTy).Contents (Elt F) → (⟨S1x64, .f32⟩ : BufTy).Contents (Elt F)),
    unary main_v223 main_v224 (broadcastInDim S7000x64 ![0, 1] bcast_S1x64_S7000x64_0_1 : (⟨S1x64, .f32⟩ : BufTy).Contents (Elt F) → (⟨S7000x64, .f32⟩ : BufTy).Contents (Elt F)),
    binary main_v220 main_v224 main_v225 (addf : (⟨S7000x64, .f32⟩ : BufTy).Contents (Elt F) → (⟨S7000x64, .f32⟩ : BufTy).Contents (Elt F) → (⟨S7000x64, .f32⟩ : BufTy).Contents (Elt F)),
    nullary main_cst_32 (constant S_ .f32 0x3C23D70A#32),
    TRef.nullary main_call16.cst (constant S_ .f32 0x00000000#32),
    TRef.unary main_call16.cst main_call16.v0 (broadcastInDim S7000x64 ![] bcast_S_S7000x64),
    TRef.binary (.of main_v225 : TRef sig ⟨S7000x64, .f32⟩) main_call16.v0 main_call16.v1 (cmpf .oge),
    TRef.unary (.of main_cst_32 : TRef sig ⟨S_, .f32⟩) main_call16.v2 id,
    TRef.unary main_call16.v2 main_call16.v3 (broadcastInDim S7000x64 ![] bcast_S_S7000x64),
    TRef.binary main_call16.v3 (.of main_v225 : TRef sig ⟨S7000x64, .f32⟩) main_call16.v4 mulf,
    TRef.ternary main_call16.v1 (.of main_v225 : TRef sig ⟨S7000x64, .f32⟩) main_call16.v4 main_call16.call0.v0 select,
    binary main_v216 main_v226 main_v227 (addf : (⟨S7000x64, .f32⟩ : BufTy).Contents (Elt F) → (⟨S7000x64, .f32⟩ : BufTy).Contents (Elt F) → (⟨S7000x64, .f32⟩ : BufTy).Contents (Elt F)) ]

/-- Piece 20: 10 operations, the last writing `main_v232`. -/
abbrev seg20 : List (HloOp τ sig (Elt F)) :=
  [ TRef.binary (.of main_v227 : TRef sig ⟨S7000x64, .f32⟩) (.of main_v227 : TRef sig ⟨S7000x64, .f32⟩) main_call17.v0 mulf,
    TRef.nullary main_call17.cst (constant S_ .f32 0x00000000#32),
    TRef.binary main_call17.v0 main_call17.cst main_call17.v1 (fun x v => Host.reduceAdd x v reducesTo_S7000x64_S7000_d1 h_S_),
    TRef.unary main_call17.v1 main_call17.v2 (broadcastInDim S7000x1 ![0] bcast_S7000_S7000x1_0),
    TRef.unary main_call17.v2 main_call17.v3 Host.sqrt,
    nullary main_cst_33 (constant S_ .f32 0x2B8CBCCC#32),
    unary main_cst_33 main_v229 (broadcastInDim S7000x1 ![] bcast_S_S7000x1 : (⟨S_, .f32⟩ : BufTy).Contents (Elt F) → (⟨S7000x1, .f32⟩ : BufTy).Contents (Elt F)),
    binary main_v228 main_v229 main_v230 (maximumf : (⟨S7000x1, .f32⟩ : BufTy).Contents (Elt F) → (⟨S7000x1, .f32⟩ : BufTy).Contents (Elt F) → (⟨S7000x1, .f32⟩ : BufTy).Contents (Elt F)),
    unary main_v230 main_v231 (broadcastInDim S7000x64 ![0, 1] bcast_S7000x1_S7000x64_0_1 : (⟨S7000x1, .f32⟩ : BufTy).Contents (Elt F) → (⟨S7000x64, .f32⟩ : BufTy).Contents (Elt F)),
    binary main_v227 main_v231 main_v232 (Host.divf : (⟨S7000x64, .f32⟩ : BufTy).Contents (Elt F) → (⟨S7000x64, .f32⟩ : BufTy).Contents (Elt F) → (⟨S7000x64, .f32⟩ : BufTy).Contents (Elt F)) ]

/-- Piece 21: 3 operations, the last writing `main_v235`. -/
abbrev seg21 : List (HloOp τ sig (Elt F)) :=
  [ nary ![main_v118, main_v156, main_v194, main_v232] main_v233 (fun u => concatenate S7000x256 1 [⟨S7000x64, u 0⟩, ⟨S7000x64, u 1⟩, ⟨S7000x64, u 2⟩, ⟨S7000x64, u 3⟩] concatenates_S7000x64_S7000x64_S7000x64_S7000x64_S7000x256_d1),
    unary main_v233 main_v234 ((extractStridedSlice S4000x256 ![0, 0] · slices_S7000x256_S4000x256_0_0) : (⟨S7000x256, .f32⟩ : BufTy).Contents (Elt F) → (⟨S4000x256, .f32⟩ : BufTy).Contents (Elt F)),
    unary main_v233 main_v235 ((extractStridedSlice S3000x256 ![4000, 0] · slices_S7000x256_S3000x256_4000_0) : (⟨S7000x256, .f32⟩ : BufTy).Contents (Elt F) → (⟨S3000x256, .f32⟩ : BufTy).Contents (Elt F)) ]

/-- Piece 22: 4 operations, the last writing `main_v239`. -/
abbrev seg22 : List (HloOp τ sig (Elt F)) :=
  [ binary main_arg12 main_v234 main_v236 ((fun l r => Host.dotGeneral dot_S20000x4000_S4000x256_S20000x256_1_0_0_1_n_n none l r) : (⟨S20000x4000, .f32⟩ : BufTy).Contents (Elt F) → (⟨S4000x256, .f32⟩ : BufTy).Contents (Elt F) → (⟨S20000x256, .f32⟩ : BufTy).Contents (Elt F)),
    binary main_v116 main_v236 main_v237 (addf : (⟨S20000x256, .f32⟩ : BufTy).Contents (Elt F) → (⟨S20000x256, .f32⟩ : BufTy).Contents (Elt F) → (⟨S20000x256, .f32⟩ : BufTy).Contents (Elt F)),
    binary main_arg13 main_v235 main_v238 ((fun l r => Host.dotGeneral dot_S15000x3000_S3000x256_S15000x256_1_0_0_1_n_n none l r) : (⟨S15000x3000, .f32⟩ : BufTy).Contents (Elt F) → (⟨S3000x256, .f32⟩ : BufTy).Contents (Elt F) → (⟨S15000x256, .f32⟩ : BufTy).Contents (Elt F)),
    binary main_v117 main_v238 main_v239 (addf : (⟨S15000x256, .f32⟩ : BufTy).Contents (Elt F) → (⟨S15000x256, .f32⟩ : BufTy).Contents (Elt F) → (⟨S15000x256, .f32⟩ : BufTy).Contents (Elt F)) ]

set_option maxRecDepth 16384 in
/-- The pieces, in order, are the line. -/
theorem ops_eq_segs : (ops : List (HloOp τ sig (Elt F))) = seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19 ++ (seg20 ++ (seg21 ++ (seg22)))))))))))))))))))))) := rfl

/-- The buffers piece 0 writes. -/
abbrev WS0 : List (Ref sig .tc) := [main_v0]

set_option maxRecDepth 8192 in
theorem seg0_writes : (seg0 : List (HloOp τ sig (Elt F))).Forall fun op => op.writes ⊆ (WS0.map (Proc.devRef (τ := τ) .tc)).toFinset := by
  simp only [List.Forall]
  simp only [nullary_writes, unary_writes, binary_writes, ternary_writes, reshape_writes, nary_writes, Finset.singleton_subset_iff, List.mem_toFinset]
  exact List.mem_map_of_mem (by decide)

theorem keepS0 (W : Valuation τ sig (Elt F)) (r : Ref sig .tc) (h : r ∉ WS0) :
    after seg0 W (Proc.devRef .tc r) = W (Proc.devRef .tc r) :=
  after_of_writes_sub seg0 W seg0_writes h

/-- The buffers piece 1 writes. -/
abbrev WS1 : List (Ref sig .tc) := [main_v1, main_c, main_v2, main_v3, main_c_0, main_v4, main_v5, main_v6, main_v7, main_v8, main_v9, main_v10, main_cst, main_v11, main_v12, main_v13]

set_option maxRecDepth 8192 in
theorem seg1_writes : (seg1 : List (HloOp τ sig (Elt F))).Forall fun op => op.writes ⊆ (WS1.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keepS1 (W : Valuation τ sig (Elt F)) (r : Ref sig .tc) (h : r ∉ WS1) :
    after seg1 W (Proc.devRef .tc r) = W (Proc.devRef .tc r) :=
  after_of_writes_sub seg1 W seg1_writes h

/-- The buffers piece 2 writes. -/
abbrev WS2 : List (Ref sig .tc) := [main_v14, main_v15, main_v16, main_v17, main_v18, main_v19, main_v20, main_v21, main_cst_1, main_call0_cst, main_call0_v0, main_call0_v1, main_call0_v2, main_call0_v3, main_call0_v4, main_v22, main_v23, main_v24, main_v25, main_v26, main_v27, main_v28, main_v29, main_v30, main_v31, main_cst_2, main_call1_cst, main_call1_v0, main_call1_v1, main_call1_v2, main_call1_v3, main_call1_v4, main_v32, main_v33]

set_option maxRecDepth 8192 in
theorem seg2_writes : (seg2 : List (HloOp τ sig (Elt F))).Forall fun op => op.writes ⊆ (WS2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keepS2 (W : Valuation τ sig (Elt F)) (r : Ref sig .tc) (h : r ∉ WS2) :
    after seg2 W (Proc.devRef .tc r) = W (Proc.devRef .tc r) :=
  after_of_writes_sub seg2 W seg2_writes h

/-- The buffers piece 3 writes. -/
abbrev WS3 : List (Ref sig .tc) := [main_call2_v0, main_call2_cst, main_call2_v1, main_call2_v2, main_v34, main_cst_3, main_v35, main_v36, main_v37, main_v38]

set_option maxRecDepth 8192 in
theorem seg3_writes : (seg3 : List (HloOp τ sig (Elt F))).Forall fun op => op.writes ⊆ (WS3.map (Proc.devRef (τ := τ) .tc)).toFinset := by
  simp only [List.Forall]
  refine ⟨?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keepS3 (W : Valuation τ sig (Elt F)) (r : Ref sig .tc) (h : r ∉ WS3) :
    after seg3 W (Proc.devRef .tc r) = W (Proc.devRef .tc r) :=
  after_of_writes_sub seg3 W seg3_writes h

/-- The buffers piece 4 writes. -/
abbrev WS4 : List (Ref sig .tc) := [main_v39, main_c_4, main_v40, main_v41, main_c_5, main_v42, main_v43, main_v44, main_v45, main_v46, main_v47, main_v48, main_cst_6, main_v49, main_v50, main_v51]

set_option maxRecDepth 8192 in
theorem seg4_writes : (seg4 : List (HloOp τ sig (Elt F))).Forall fun op => op.writes ⊆ (WS4.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keepS4 (W : Valuation τ sig (Elt F)) (r : Ref sig .tc) (h : r ∉ WS4) :
    after seg4 W (Proc.devRef .tc r) = W (Proc.devRef .tc r) :=
  after_of_writes_sub seg4 W seg4_writes h

/-- The buffers piece 5 writes. -/
abbrev WS5 : List (Ref sig .tc) := [main_v52, main_v53, main_v54, main_v55, main_v56, main_v57, main_v58, main_v59, main_cst_7, main_call3_cst, main_call3_v0, main_call3_v1, main_call3_v2, main_call3_v3, main_call3_v4, main_v60, main_v61, main_v62, main_v63, main_v64, main_v65, main_v66, main_v67, main_v68, main_v69, main_cst_8, main_call4_cst, main_call4_v0, main_call4_v1, main_call4_v2, main_call4_v3, main_call4_v4, main_v70, main_v71]

set_option maxRecDepth 8192 in
theorem seg5_writes : (seg5 : List (HloOp τ sig (Elt F))).Forall fun op => op.writes ⊆ (WS5.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keepS5 (W : Valuation τ sig (Elt F)) (r : Ref sig .tc) (h : r ∉ WS5) :
    after seg5 W (Proc.devRef .tc r) = W (Proc.devRef .tc r) :=
  after_of_writes_sub seg5 W seg5_writes h

/-- The buffers piece 6 writes. -/
abbrev WS6 : List (Ref sig .tc) := [main_call5_v0, main_call5_cst, main_call5_v1, main_call5_v2, main_v72, main_cst_9, main_v73, main_v74, main_v75, main_v76]

set_option maxRecDepth 8192 in
theorem seg6_writes : (seg6 : List (HloOp τ sig (Elt F))).Forall fun op => op.writes ⊆ (WS6.map (Proc.devRef (τ := τ) .tc)).toFinset := by
  simp only [List.Forall]
  refine ⟨?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keepS6 (W : Valuation τ sig (Elt F)) (r : Ref sig .tc) (h : r ∉ WS6) :
    after seg6 W (Proc.devRef .tc r) = W (Proc.devRef .tc r) :=
  after_of_writes_sub seg6 W seg6_writes h

/-- The buffers piece 7 writes. -/
abbrev WS7 : List (Ref sig .tc) := [main_v77, main_c_10, main_v78, main_v79, main_c_11, main_v80, main_v81, main_v82, main_v83, main_v84, main_v85, main_v86, main_cst_12, main_v87, main_v88, main_v89]

set_option maxRecDepth 8192 in
theorem seg7_writes : (seg7 : List (HloOp τ sig (Elt F))).Forall fun op => op.writes ⊆ (WS7.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keepS7 (W : Valuation τ sig (Elt F)) (r : Ref sig .tc) (h : r ∉ WS7) :
    after seg7 W (Proc.devRef .tc r) = W (Proc.devRef .tc r) :=
  after_of_writes_sub seg7 W seg7_writes h

/-- The buffers piece 8 writes. -/
abbrev WS8 : List (Ref sig .tc) := [main_v90, main_v91, main_v92, main_v93, main_v94, main_v95, main_v96, main_v97, main_cst_13, main_call6_cst, main_call6_v0, main_call6_v1, main_call6_v2, main_call6_v3, main_call6_v4, main_v98, main_v99, main_v100, main_v101, main_v102, main_v103, main_v104, main_v105, main_v106, main_v107, main_cst_14, main_call7_cst, main_call7_v0, main_call7_v1, main_call7_v2, main_call7_v3, main_call7_v4, main_v108, main_v109]

set_option maxRecDepth 8192 in
theorem seg8_writes : (seg8 : List (HloOp τ sig (Elt F))).Forall fun op => op.writes ⊆ (WS8.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keepS8 (W : Valuation τ sig (Elt F)) (r : Ref sig .tc) (h : r ∉ WS8) :
    after seg8 W (Proc.devRef .tc r) = W (Proc.devRef .tc r) :=
  after_of_writes_sub seg8 W seg8_writes h

/-- The buffers piece 9 writes. -/
abbrev WS9 : List (Ref sig .tc) := [main_call8_v0, main_call8_cst, main_call8_v1, main_call8_v2, main_v110, main_cst_15, main_v111, main_v112, main_v113, main_v114]

set_option maxRecDepth 8192 in
theorem seg9_writes : (seg9 : List (HloOp τ sig (Elt F))).Forall fun op => op.writes ⊆ (WS9.map (Proc.devRef (τ := τ) .tc)).toFinset := by
  simp only [List.Forall]
  refine ⟨?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keepS9 (W : Valuation τ sig (Elt F)) (r : Ref sig .tc) (h : r ∉ WS9) :
    after seg9 W (Proc.devRef .tc r) = W (Proc.devRef .tc r) :=
  after_of_writes_sub seg9 W seg9_writes h

/-- The buffers piece 10 writes. -/
abbrev WS10 : List (Ref sig .tc) := [main_v115, main_v116, main_v117]

set_option maxRecDepth 8192 in
theorem seg10_writes : (seg10 : List (HloOp τ sig (Elt F))).Forall fun op => op.writes ⊆ (WS10.map (Proc.devRef (τ := τ) .tc)).toFinset := by
  simp only [List.Forall]
  refine ⟨?_, ?_, ?_⟩ <;>
    (simp only [nullary_writes, unary_writes, binary_writes, ternary_writes, reshape_writes, nary_writes, Finset.singleton_subset_iff, List.mem_toFinset]
     exact List.mem_map_of_mem (by decide))

theorem keepS10 (W : Valuation τ sig (Elt F)) (r : Ref sig .tc) (h : r ∉ WS10) :
    after seg10 W (Proc.devRef .tc r) = W (Proc.devRef .tc r) :=
  after_of_writes_sub seg10 W seg10_writes h

/-- The buffers piece 11 writes. -/
abbrev WS11 : List (Ref sig .tc) := [main_v118]

set_option maxRecDepth 8192 in
theorem seg11_writes : (seg11 : List (HloOp τ sig (Elt F))).Forall fun op => op.writes ⊆ (WS11.map (Proc.devRef (τ := τ) .tc)).toFinset := by
  simp only [List.Forall]
  simp only [nullary_writes, unary_writes, binary_writes, ternary_writes, reshape_writes, nary_writes, Finset.singleton_subset_iff, List.mem_toFinset]
  exact List.mem_map_of_mem (by decide)

theorem keepS11 (W : Valuation τ sig (Elt F)) (r : Ref sig .tc) (h : r ∉ WS11) :
    after seg11 W (Proc.devRef .tc r) = W (Proc.devRef .tc r) :=
  after_of_writes_sub seg11 W seg11_writes h

/-- The buffers piece 12 writes. -/
abbrev WS12 : List (Ref sig .tc) := [main_v119, main_c_16, main_v120, main_v121, main_c_17, main_v122, main_v123, main_v124, main_v125, main_v126, main_v127, main_v128, main_cst_18, main_v129, main_v130, main_v131]

set_option maxRecDepth 8192 in
theorem seg12_writes : (seg12 : List (HloOp τ sig (Elt F))).Forall fun op => op.writes ⊆ (WS12.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keepS12 (W : Valuation τ sig (Elt F)) (r : Ref sig .tc) (h : r ∉ WS12) :
    after seg12 W (Proc.devRef .tc r) = W (Proc.devRef .tc r) :=
  after_of_writes_sub seg12 W seg12_writes h

/-- The buffers piece 13 writes. -/
abbrev WS13 : List (Ref sig .tc) := [main_v132, main_v133, main_v134, main_v135, main_v136, main_v137, main_v138, main_v139, main_cst_19, main_call9_cst, main_call9_v0, main_call9_v1, main_call9_v2, main_call9_v3, main_call9_v4, main_v140, main_v141, main_v142, main_v143, main_v144, main_v145, main_v146, main_v147, main_v148, main_v149, main_cst_20, main_call10_cst, main_call10_v0, main_call10_v1, main_call10_v2, main_call10_v3, main_call10_v4, main_v150, main_v151]

set_option maxRecDepth 8192 in
theorem seg13_writes : (seg13 : List (HloOp τ sig (Elt F))).Forall fun op => op.writes ⊆ (WS13.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keepS13 (W : Valuation τ sig (Elt F)) (r : Ref sig .tc) (h : r ∉ WS13) :
    after seg13 W (Proc.devRef .tc r) = W (Proc.devRef .tc r) :=
  after_of_writes_sub seg13 W seg13_writes h

/-- The buffers piece 14 writes. -/
abbrev WS14 : List (Ref sig .tc) := [main_call11_v0, main_call11_cst, main_call11_v1, main_call11_v2, main_v152, main_cst_21, main_v153, main_v154, main_v155, main_v156]

set_option maxRecDepth 8192 in
theorem seg14_writes : (seg14 : List (HloOp τ sig (Elt F))).Forall fun op => op.writes ⊆ (WS14.map (Proc.devRef (τ := τ) .tc)).toFinset := by
  simp only [List.Forall]
  refine ⟨?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keepS14 (W : Valuation τ sig (Elt F)) (r : Ref sig .tc) (h : r ∉ WS14) :
    after seg14 W (Proc.devRef .tc r) = W (Proc.devRef .tc r) :=
  after_of_writes_sub seg14 W seg14_writes h

/-- The buffers piece 15 writes. -/
abbrev WS15 : List (Ref sig .tc) := [main_v157, main_c_22, main_v158, main_v159, main_c_23, main_v160, main_v161, main_v162, main_v163, main_v164, main_v165, main_v166, main_cst_24, main_v167, main_v168, main_v169]

set_option maxRecDepth 8192 in
theorem seg15_writes : (seg15 : List (HloOp τ sig (Elt F))).Forall fun op => op.writes ⊆ (WS15.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keepS15 (W : Valuation τ sig (Elt F)) (r : Ref sig .tc) (h : r ∉ WS15) :
    after seg15 W (Proc.devRef .tc r) = W (Proc.devRef .tc r) :=
  after_of_writes_sub seg15 W seg15_writes h

/-- The buffers piece 16 writes. -/
abbrev WS16 : List (Ref sig .tc) := [main_v170, main_v171, main_v172, main_v173, main_v174, main_v175, main_v176, main_v177, main_cst_25, main_call12_cst, main_call12_v0, main_call12_v1, main_call12_v2, main_call12_v3, main_call12_v4, main_v178, main_v179, main_v180, main_v181, main_v182, main_v183, main_v184, main_v185, main_v186, main_v187, main_cst_26, main_call13_cst, main_call13_v0, main_call13_v1, main_call13_v2, main_call13_v3, main_call13_v4, main_v188, main_v189]

set_option maxRecDepth 8192 in
theorem seg16_writes : (seg16 : List (HloOp τ sig (Elt F))).Forall fun op => op.writes ⊆ (WS16.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keepS16 (W : Valuation τ sig (Elt F)) (r : Ref sig .tc) (h : r ∉ WS16) :
    after seg16 W (Proc.devRef .tc r) = W (Proc.devRef .tc r) :=
  after_of_writes_sub seg16 W seg16_writes h

/-- The buffers piece 17 writes. -/
abbrev WS17 : List (Ref sig .tc) := [main_call14_v0, main_call14_cst, main_call14_v1, main_call14_v2, main_v190, main_cst_27, main_v191, main_v192, main_v193, main_v194]

set_option maxRecDepth 8192 in
theorem seg17_writes : (seg17 : List (HloOp τ sig (Elt F))).Forall fun op => op.writes ⊆ (WS17.map (Proc.devRef (τ := τ) .tc)).toFinset := by
  simp only [List.Forall]
  refine ⟨?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keepS17 (W : Valuation τ sig (Elt F)) (r : Ref sig .tc) (h : r ∉ WS17) :
    after seg17 W (Proc.devRef .tc r) = W (Proc.devRef .tc r) :=
  after_of_writes_sub seg17 W seg17_writes h

/-- The buffers piece 18 writes. -/
abbrev WS18 : List (Ref sig .tc) := [main_v195, main_c_28, main_v196, main_v197, main_c_29, main_v198, main_v199, main_v200, main_v201, main_v202, main_v203, main_v204, main_cst_30, main_v205, main_v206, main_v207]

set_option maxRecDepth 8192 in
theorem seg18_writes : (seg18 : List (HloOp τ sig (Elt F))).Forall fun op => op.writes ⊆ (WS18.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keepS18 (W : Valuation τ sig (Elt F)) (r : Ref sig .tc) (h : r ∉ WS18) :
    after seg18 W (Proc.devRef .tc r) = W (Proc.devRef .tc r) :=
  after_of_writes_sub seg18 W seg18_writes h

/-- The buffers piece 19 writes. -/
abbrev WS19 : List (Ref sig .tc) := [main_v208, main_v209, main_v210, main_v211, main_v212, main_v213, main_v214, main_v215, main_cst_31, main_call15_cst, main_call15_v0, main_call15_v1, main_call15_v2, main_call15_v3, main_call15_v4, main_v216, main_v217, main_v218, main_v219, main_v220, main_v221, main_v222, main_v223, main_v224, main_v225, main_cst_32, main_call16_cst, main_call16_v0, main_call16_v1, main_call16_v2, main_call16_v3, main_call16_v4, main_v226, main_v227]

set_option maxRecDepth 8192 in
theorem seg19_writes : (seg19 : List (HloOp τ sig (Elt F))).Forall fun op => op.writes ⊆ (WS19.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keepS19 (W : Valuation τ sig (Elt F)) (r : Ref sig .tc) (h : r ∉ WS19) :
    after seg19 W (Proc.devRef .tc r) = W (Proc.devRef .tc r) :=
  after_of_writes_sub seg19 W seg19_writes h

/-- The buffers piece 20 writes. -/
abbrev WS20 : List (Ref sig .tc) := [main_call17_v0, main_call17_cst, main_call17_v1, main_call17_v2, main_v228, main_cst_33, main_v229, main_v230, main_v231, main_v232]

set_option maxRecDepth 8192 in
theorem seg20_writes : (seg20 : List (HloOp τ sig (Elt F))).Forall fun op => op.writes ⊆ (WS20.map (Proc.devRef (τ := τ) .tc)).toFinset := by
  simp only [List.Forall]
  refine ⟨?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

theorem keepS20 (W : Valuation τ sig (Elt F)) (r : Ref sig .tc) (h : r ∉ WS20) :
    after seg20 W (Proc.devRef .tc r) = W (Proc.devRef .tc r) :=
  after_of_writes_sub seg20 W seg20_writes h

/-- The buffers piece 21 writes. -/
abbrev WS21 : List (Ref sig .tc) := [main_v233, main_v234, main_v235]

set_option maxRecDepth 8192 in
theorem seg21_writes : (seg21 : List (HloOp τ sig (Elt F))).Forall fun op => op.writes ⊆ (WS21.map (Proc.devRef (τ := τ) .tc)).toFinset := by
  simp only [List.Forall]
  refine ⟨?_, ?_, ?_⟩ <;>
    (simp only [nullary_writes, unary_writes, binary_writes, ternary_writes, reshape_writes, nary_writes, Finset.singleton_subset_iff, List.mem_toFinset]
     exact List.mem_map_of_mem (by decide))

theorem keepS21 (W : Valuation τ sig (Elt F)) (r : Ref sig .tc) (h : r ∉ WS21) :
    after seg21 W (Proc.devRef .tc r) = W (Proc.devRef .tc r) :=
  after_of_writes_sub seg21 W seg21_writes h

/-- The buffers piece 22 writes. -/
abbrev WS22 : List (Ref sig .tc) := [main_v236, main_v237, main_v238, main_v239]

set_option maxRecDepth 8192 in
theorem seg22_writes : (seg22 : List (HloOp τ sig (Elt F))).Forall fun op => op.writes ⊆ (WS22.map (Proc.devRef (τ := τ) .tc)).toFinset := by
  simp only [List.Forall]
  refine ⟨?_, ?_, ?_, ?_⟩ <;>
    (simp only [nullary_writes, unary_writes, binary_writes, ternary_writes, reshape_writes, nary_writes, Finset.singleton_subset_iff, List.mem_toFinset]
     exact List.mem_map_of_mem (by decide))

theorem keepS22 (W : Valuation τ sig (Elt F)) (r : Ref sig .tc) (h : r ∉ WS22) :
    after seg22 W (Proc.devRef .tc r) = W (Proc.devRef .tc r) :=
  after_of_writes_sub seg22 W seg22_writes h

/-! The contents after each piece. -/

def P0 (V : Valuation τ sig (Elt F)) : Valuation τ sig (Elt F) := after seg0 V
def P1 (V : Valuation τ sig (Elt F)) : Valuation τ sig (Elt F) := after seg1 (P0 V)
def P2 (V : Valuation τ sig (Elt F)) : Valuation τ sig (Elt F) := after seg2 (P1 V)
def P3 (V : Valuation τ sig (Elt F)) : Valuation τ sig (Elt F) := after seg3 (P2 V)
def P4 (V : Valuation τ sig (Elt F)) : Valuation τ sig (Elt F) := after seg4 (P3 V)
def P5 (V : Valuation τ sig (Elt F)) : Valuation τ sig (Elt F) := after seg5 (P4 V)
def P6 (V : Valuation τ sig (Elt F)) : Valuation τ sig (Elt F) := after seg6 (P5 V)
def P7 (V : Valuation τ sig (Elt F)) : Valuation τ sig (Elt F) := after seg7 (P6 V)
def P8 (V : Valuation τ sig (Elt F)) : Valuation τ sig (Elt F) := after seg8 (P7 V)
def P9 (V : Valuation τ sig (Elt F)) : Valuation τ sig (Elt F) := after seg9 (P8 V)
def P10 (V : Valuation τ sig (Elt F)) : Valuation τ sig (Elt F) := after seg10 (P9 V)
def P11 (V : Valuation τ sig (Elt F)) : Valuation τ sig (Elt F) := after seg11 (P10 V)
def P12 (V : Valuation τ sig (Elt F)) : Valuation τ sig (Elt F) := after seg12 (P11 V)
def P13 (V : Valuation τ sig (Elt F)) : Valuation τ sig (Elt F) := after seg13 (P12 V)
def P14 (V : Valuation τ sig (Elt F)) : Valuation τ sig (Elt F) := after seg14 (P13 V)
def P15 (V : Valuation τ sig (Elt F)) : Valuation τ sig (Elt F) := after seg15 (P14 V)
def P16 (V : Valuation τ sig (Elt F)) : Valuation τ sig (Elt F) := after seg16 (P15 V)
def P17 (V : Valuation τ sig (Elt F)) : Valuation τ sig (Elt F) := after seg17 (P16 V)
def P18 (V : Valuation τ sig (Elt F)) : Valuation τ sig (Elt F) := after seg18 (P17 V)
def P19 (V : Valuation τ sig (Elt F)) : Valuation τ sig (Elt F) := after seg19 (P18 V)
def P20 (V : Valuation τ sig (Elt F)) : Valuation τ sig (Elt F) := after seg20 (P19 V)
def P21 (V : Valuation τ sig (Elt F)) : Valuation τ sig (Elt F) := after seg21 (P20 V)
def P22 (V : Valuation τ sig (Elt F)) : Valuation τ sig (Elt F) := after seg22 (P21 V)

theorem P0_eq (V : Valuation τ sig (Elt F)) : P0 V = after seg0 V := rfl
theorem P1_eq (V : Valuation τ sig (Elt F)) : P1 V = after seg1 (P0 V) := rfl
theorem P2_eq (V : Valuation τ sig (Elt F)) : P2 V = after seg2 (P1 V) := rfl
theorem P3_eq (V : Valuation τ sig (Elt F)) : P3 V = after seg3 (P2 V) := rfl
theorem P4_eq (V : Valuation τ sig (Elt F)) : P4 V = after seg4 (P3 V) := rfl
theorem P5_eq (V : Valuation τ sig (Elt F)) : P5 V = after seg5 (P4 V) := rfl
theorem P6_eq (V : Valuation τ sig (Elt F)) : P6 V = after seg6 (P5 V) := rfl
theorem P7_eq (V : Valuation τ sig (Elt F)) : P7 V = after seg7 (P6 V) := rfl
theorem P8_eq (V : Valuation τ sig (Elt F)) : P8 V = after seg8 (P7 V) := rfl
theorem P9_eq (V : Valuation τ sig (Elt F)) : P9 V = after seg9 (P8 V) := rfl
theorem P10_eq (V : Valuation τ sig (Elt F)) : P10 V = after seg10 (P9 V) := rfl
theorem P11_eq (V : Valuation τ sig (Elt F)) : P11 V = after seg11 (P10 V) := rfl
theorem P12_eq (V : Valuation τ sig (Elt F)) : P12 V = after seg12 (P11 V) := rfl
theorem P13_eq (V : Valuation τ sig (Elt F)) : P13 V = after seg13 (P12 V) := rfl
theorem P14_eq (V : Valuation τ sig (Elt F)) : P14 V = after seg14 (P13 V) := rfl
theorem P15_eq (V : Valuation τ sig (Elt F)) : P15 V = after seg15 (P14 V) := rfl
theorem P16_eq (V : Valuation τ sig (Elt F)) : P16 V = after seg16 (P15 V) := rfl
theorem P17_eq (V : Valuation τ sig (Elt F)) : P17 V = after seg17 (P16 V) := rfl
theorem P18_eq (V : Valuation τ sig (Elt F)) : P18 V = after seg18 (P17 V) := rfl
theorem P19_eq (V : Valuation τ sig (Elt F)) : P19 V = after seg19 (P18 V) := rfl
theorem P20_eq (V : Valuation τ sig (Elt F)) : P20 V = after seg20 (P19 V) := rfl
theorem P21_eq (V : Valuation τ sig (Elt F)) : P21 V = after seg21 (P20 V) := rfl
theorem P22_eq (V : Valuation τ sig (Elt F)) : P22 V = after seg22 (P21 V) := rfl

/-- The fold over the whole line is the contents after the last piece. -/
theorem after_ops_P (V : Valuation τ sig (Elt F)) : after ops V = P22 V := by
  rw [ops_eq_segs]
  simp only [after_app]
  rfl

/-- A buffer no piece writes: an argument's. -/
abbrev Untouched (r : Ref sig .tc) : Prop :=
  r ∉ WS0 ∧ r ∉ WS1 ∧ r ∉ WS2 ∧ r ∉ WS3 ∧ r ∉ WS4 ∧ r ∉ WS5 ∧ r ∉ WS6 ∧ r ∉ WS7 ∧ r ∉ WS8 ∧ r ∉ WS9 ∧ r ∉ WS10 ∧ r ∉ WS11 ∧ r ∉ WS12 ∧ r ∉ WS13 ∧ r ∉ WS14 ∧ r ∉ WS15 ∧ r ∉ WS16 ∧ r ∉ WS17 ∧ r ∉ WS18 ∧ r ∉ WS19 ∧ r ∉ WS20 ∧ r ∉ WS21 ∧ r ∉ WS22

theorem P0_arg (V : Valuation τ sig (Elt F)) (r : Ref sig .tc) (h : Untouched r) : P0 V (Proc.devRef .tc r) = V (Proc.devRef .tc r) :=
  keepS0 V r h.1
theorem P1_arg (V : Valuation τ sig (Elt F)) (r : Ref sig .tc) (h : Untouched r) : P1 V (Proc.devRef .tc r) = V (Proc.devRef .tc r) :=
  (keepS1 _ r h.2.1).trans (P0_arg V r h)
theorem P2_arg (V : Valuation τ sig (Elt F)) (r : Ref sig .tc) (h : Untouched r) : P2 V (Proc.devRef .tc r) = V (Proc.devRef .tc r) :=
  (keepS2 _ r h.2.2.1).trans (P1_arg V r h)
theorem P3_arg (V : Valuation τ sig (Elt F)) (r : Ref sig .tc) (h : Untouched r) : P3 V (Proc.devRef .tc r) = V (Proc.devRef .tc r) :=
  (keepS3 _ r h.2.2.2.1).trans (P2_arg V r h)
theorem P4_arg (V : Valuation τ sig (Elt F)) (r : Ref sig .tc) (h : Untouched r) : P4 V (Proc.devRef .tc r) = V (Proc.devRef .tc r) :=
  (keepS4 _ r h.2.2.2.2.1).trans (P3_arg V r h)
theorem P5_arg (V : Valuation τ sig (Elt F)) (r : Ref sig .tc) (h : Untouched r) : P5 V (Proc.devRef .tc r) = V (Proc.devRef .tc r) :=
  (keepS5 _ r h.2.2.2.2.2.1).trans (P4_arg V r h)
theorem P6_arg (V : Valuation τ sig (Elt F)) (r : Ref sig .tc) (h : Untouched r) : P6 V (Proc.devRef .tc r) = V (Proc.devRef .tc r) :=
  (keepS6 _ r h.2.2.2.2.2.2.1).trans (P5_arg V r h)
theorem P7_arg (V : Valuation τ sig (Elt F)) (r : Ref sig .tc) (h : Untouched r) : P7 V (Proc.devRef .tc r) = V (Proc.devRef .tc r) :=
  (keepS7 _ r h.2.2.2.2.2.2.2.1).trans (P6_arg V r h)
theorem P8_arg (V : Valuation τ sig (Elt F)) (r : Ref sig .tc) (h : Untouched r) : P8 V (Proc.devRef .tc r) = V (Proc.devRef .tc r) :=
  (keepS8 _ r h.2.2.2.2.2.2.2.2.1).trans (P7_arg V r h)
theorem P9_arg (V : Valuation τ sig (Elt F)) (r : Ref sig .tc) (h : Untouched r) : P9 V (Proc.devRef .tc r) = V (Proc.devRef .tc r) :=
  (keepS9 _ r h.2.2.2.2.2.2.2.2.2.1).trans (P8_arg V r h)
theorem P10_arg (V : Valuation τ sig (Elt F)) (r : Ref sig .tc) (h : Untouched r) : P10 V (Proc.devRef .tc r) = V (Proc.devRef .tc r) :=
  (keepS10 _ r h.2.2.2.2.2.2.2.2.2.2.1).trans (P9_arg V r h)
theorem P11_arg (V : Valuation τ sig (Elt F)) (r : Ref sig .tc) (h : Untouched r) : P11 V (Proc.devRef .tc r) = V (Proc.devRef .tc r) :=
  (keepS11 _ r h.2.2.2.2.2.2.2.2.2.2.2.1).trans (P10_arg V r h)
theorem P12_arg (V : Valuation τ sig (Elt F)) (r : Ref sig .tc) (h : Untouched r) : P12 V (Proc.devRef .tc r) = V (Proc.devRef .tc r) :=
  (keepS12 _ r h.2.2.2.2.2.2.2.2.2.2.2.2.1).trans (P11_arg V r h)
theorem P13_arg (V : Valuation τ sig (Elt F)) (r : Ref sig .tc) (h : Untouched r) : P13 V (Proc.devRef .tc r) = V (Proc.devRef .tc r) :=
  (keepS13 _ r h.2.2.2.2.2.2.2.2.2.2.2.2.2.1).trans (P12_arg V r h)
theorem P14_arg (V : Valuation τ sig (Elt F)) (r : Ref sig .tc) (h : Untouched r) : P14 V (Proc.devRef .tc r) = V (Proc.devRef .tc r) :=
  (keepS14 _ r h.2.2.2.2.2.2.2.2.2.2.2.2.2.2.1).trans (P13_arg V r h)
theorem P15_arg (V : Valuation τ sig (Elt F)) (r : Ref sig .tc) (h : Untouched r) : P15 V (Proc.devRef .tc r) = V (Proc.devRef .tc r) :=
  (keepS15 _ r h.2.2.2.2.2.2.2.2.2.2.2.2.2.2.2.1).trans (P14_arg V r h)
theorem P16_arg (V : Valuation τ sig (Elt F)) (r : Ref sig .tc) (h : Untouched r) : P16 V (Proc.devRef .tc r) = V (Proc.devRef .tc r) :=
  (keepS16 _ r h.2.2.2.2.2.2.2.2.2.2.2.2.2.2.2.2.1).trans (P15_arg V r h)
theorem P17_arg (V : Valuation τ sig (Elt F)) (r : Ref sig .tc) (h : Untouched r) : P17 V (Proc.devRef .tc r) = V (Proc.devRef .tc r) :=
  (keepS17 _ r h.2.2.2.2.2.2.2.2.2.2.2.2.2.2.2.2.2.1).trans (P16_arg V r h)
theorem P18_arg (V : Valuation τ sig (Elt F)) (r : Ref sig .tc) (h : Untouched r) : P18 V (Proc.devRef .tc r) = V (Proc.devRef .tc r) :=
  (keepS18 _ r h.2.2.2.2.2.2.2.2.2.2.2.2.2.2.2.2.2.2.1).trans (P17_arg V r h)
theorem P19_arg (V : Valuation τ sig (Elt F)) (r : Ref sig .tc) (h : Untouched r) : P19 V (Proc.devRef .tc r) = V (Proc.devRef .tc r) :=
  (keepS19 _ r h.2.2.2.2.2.2.2.2.2.2.2.2.2.2.2.2.2.2.2.1).trans (P18_arg V r h)
theorem P20_arg (V : Valuation τ sig (Elt F)) (r : Ref sig .tc) (h : Untouched r) : P20 V (Proc.devRef .tc r) = V (Proc.devRef .tc r) :=
  (keepS20 _ r h.2.2.2.2.2.2.2.2.2.2.2.2.2.2.2.2.2.2.2.2.1).trans (P19_arg V r h)
theorem P21_arg (V : Valuation τ sig (Elt F)) (r : Ref sig .tc) (h : Untouched r) : P21 V (Proc.devRef .tc r) = V (Proc.devRef .tc r) :=
  (keepS21 _ r h.2.2.2.2.2.2.2.2.2.2.2.2.2.2.2.2.2.2.2.2.2.1).trans (P20_arg V r h)
theorem P22_arg (V : Valuation τ sig (Elt F)) (r : Ref sig .tc) (h : Untouched r) : P22 V (Proc.devRef .tc r) = V (Proc.devRef .tc r) :=
  (keepS22 _ r h.2.2.2.2.2.2.2.2.2.2.2.2.2.2.2.2.2.2.2.2.2.2).trans (P21_arg V r h)

end Cert.ReferenceIdeal.RRun

end
-- ==== Proof.LibDotGeneralNN.lean ====
/-
  jnp's `dot_general` on the host of a row-major `M × K` array against a `K × N` array (the right operand NOT
  transposed: the left operand's axis 1 is contracted with the right operand's axis 0), read at the extended reals:
  entry `(p, q)` of the result is the sum over `k` of `x[p, k] · w[k, q]`, whatever the schedule key and the precision.
  It is the same sum, over the same index set `Fin K` and in the same form, as the matrix unit's product into a zero
  accumulator (LibMatmulNN.matmul_zero_apply), so a kernel's `tpu.matmul` and a reference's `dot_general` of equal
  operands are equal entry by entry.  General in the three extents and in the operands' float formats.
-/
import Idealize.ShloMosaic.PureOps.Ideal.Laws
import Idealize.ShloMosaic.Lib.ValueIdx
import proofs.«120809_j78615081386430_2_alg».proof.Proof.LibMatmulNN

noncomputable section

open scoped BigOperators

namespace LibDotGeneralNN

open Idealize.ShloMosaic Idealize.ShloMosaic.ValueIdx

variable (M K N : Nat)

/-- Entry `(p, q)` of the host's `dot_general` of `x` and `w` is `∑ k, x[p, k] · w[k, q]` on the extended reals. -/
theorem dotGeneral_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q)
      = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [LibMatmulNN.lhsIdx_eq, LibMatmulNN.rhsIdx_eq]

end LibDotGeneralNN

end
-- ==== Proof.RefLayer.lean ====
/-
  One message-passing layer as the reference spells it on the host, read entry by entry on the extended reals.

  On `N` nodes with 64 lanes: an affine map is the host's matrix product of the rows with layer `o`'s 64 × 64 weight —
  cut out of the stack of three and viewed as a matrix — plus layer `o`'s bias, cut out of its stack, viewed as a vector and
  spread over the rows.  The rectifier keeps an entry that is at least zero and scales any other by the slope.  The new
  embedding is the rectified affine map of the aggregated neighbourhood `side` plus the rectified affine map, with the
  second weight and bias, of `ego · side`.  The normalised output divides every row of the new embedding by the larger of
  the row's Euclidean length — the square root of the host's sum over the lanes of the squares — and a small constant.
  Entry `(p, j)` of each is the layer's formula with the two weights kept apart (`layerAt`, `layerNormAt`).
-/
import Idealize.ShloMosaic.Lib.IdealHost
import Idealize.ShloMosaic.Lib.ValueLayout
import proofs.«120809_j78615081386430_2_alg».proof.Proof.LayerLaw
import proofs.«120809_j78615081386430_2_alg».proof.Proof.LibDotGeneralNN
import proofs.«120809_j78615081386430_2_alg».proof.Proof.LibLaneReduce

noncomputable section

open scoped BigOperators

namespace Cert.NgcfHost

open Idealize.ShloMosaic Idealize.ShloMosaic.ValueIdx Cert.Ngcf

variable {N : ℕ}

/-! ### The pieces, as terms over their operands -/

/-- The rectifier on an array: the entries at least zero kept, the others scaled by the (scalar) slope. -/
def hostLrelu (h0 : (⟨0, ![]⟩ : Shape).BroadcastsInDim ⟨2, ![N, 64]⟩ (![] : Fin 0 → Fin 2)) (slope : FVec Ideal ⟨0, ![]⟩ .f32)
    (a : FVec Ideal ⟨2, ![N, 64]⟩ .f32) : FVec Ideal ⟨2, ![N, 64]⟩ .f32 :=
  select (cmpf .oge a (broadcastInDim ⟨2, ![N, 64]⟩ ![] h0 (constant ⟨0, ![]⟩ .f32 0x00000000#32))) a
    (mulf (broadcastInDim ⟨2, ![N, 64]⟩ ![] h0 (id slope)) a)

/-- The affine map of the rows `x` with layer `o`'s weight and bias out of the stacks `W` and `b`. -/
def hostAffine (o : ℕ) (hsW : (⟨3, ![3, 64, 64]⟩ : Shape).Slices ![o, 0, 0] ⟨3, ![1, 64, 64]⟩)
    (hcW : (⟨3, ![1, 64, 64]⟩ : Shape).ShapeCasts ⟨2, ![64, 64]⟩)
    (hsb : (⟨2, ![3, 64]⟩ : Shape).Slices ![o, 0] ⟨2, ![1, 64]⟩) (hcb : (⟨2, ![1, 64]⟩ : Shape).ShapeCasts ⟨1, ![64]⟩)
    (hb1 : (⟨1, ![64]⟩ : Shape).BroadcastsInDim ⟨2, ![1, 64]⟩ (![1] : Fin 1 → Fin 2))
    (hb2 : (⟨2, ![1, 64]⟩ : Shape).BroadcastsInDim ⟨2, ![N, 64]⟩ (![0, 1] : Fin 2 → Fin 2))
    (x : FVec Ideal ⟨2, ![N, 64]⟩ .f32) (W : FVec Ideal ⟨3, ![3, 64, 64]⟩ .f32) (b : FVec Ideal ⟨2, ![3, 64]⟩ .f32) :
    FVec Ideal ⟨2, ![N, 64]⟩ .f32 :=
  addf (Host.dotGeneral (DotDims.plain N 64 64) none x
      (shapeCast ⟨2, ![64, 64]⟩ (extractStridedSlice ⟨3, ![1, 64, 64]⟩ ![o, 0, 0] W hsW) hcW))
    (broadcastInDim ⟨2, ![N, 64]⟩ ![0, 1] hb2 (broadcastInDim ⟨2, ![1, 64]⟩ ![1] hb1
      (shapeCast ⟨1, ![64]⟩ (extractStridedSlice ⟨2, ![1, 64]⟩ ![o, 0] b hsb) hcb)))

/-- The rows divided by the larger of their length and the constant. -/
def hostNormOf (hred : (⟨2, ![N, 64]⟩ : Shape).ReducesTo [1] (⟨1, ![N]⟩ : Shape)) (hu : 0 < (⟨0, ![]⟩ : Shape).numel)
    (hbn : (⟨1, ![N]⟩ : Shape).BroadcastsInDim ⟨2, ![N, 1]⟩ (![0] : Fin 1 → Fin 2))
    (hbe : (⟨0, ![]⟩ : Shape).BroadcastsInDim ⟨2, ![N, 1]⟩ (![] : Fin 0 → Fin 2))
    (hbd : (⟨2, ![N, 1]⟩ : Shape).BroadcastsInDim ⟨2, ![N, 64]⟩ (![0, 1] : Fin 2 → Fin 2))
    (e : FVec Ideal ⟨2, ![N, 64]⟩ .f32) : FVec Ideal ⟨2, ![N, 64]⟩ .f32 :=
  Host.divf e (broadcastInDim ⟨2, ![N, 64]⟩ ![0, 1] hbd
    (maximumf
      (Host.sqrt (broadcastInDim ⟨2, ![N, 1]⟩ ![0] hbn
        (Host.reduceAdd (mulf e e) (constant ⟨0, ![]⟩ .f32 0x00000000#32) hred hu)))
      (broadcastInDim ⟨2, ![N, 1]⟩ ![] hbe (constant ⟨0, ![]⟩ .f32 0x2B8CBCCC#32))))

/-! ### Read at an entry -/

/-- The rectifier at an entry, for the programs' slope word. -/
theorem hostLrelu_apply (h0 : (⟨0, ![]⟩ : Shape).BroadcastsInDim ⟨2, ![N, 64]⟩ (![] : Fin 0 → Fin 2))
    (a : FVec Ideal ⟨2, ![N, 64]⟩ .f32) (i : (⟨2, ![N, 64]⟩ : Shape).Idx) :
    hostLrelu h0 (constant ⟨0, ![]⟩ .f32 0x3C23D70A#32) a i = lrelu (a i) := rfl

/-- Layer `o`'s weight at `(k, j)`, read off the cut and the view. -/
theorem weight_apply (o : ℕ) (ho : o < 3) (W : FVec Ideal ⟨3, ![3, 64, 64]⟩ .f32)
    (hsW : (⟨3, ![3, 64, 64]⟩ : Shape).Slices ![o, 0, 0] ⟨3, ![1, 64, 64]⟩)
    (hcW : (⟨3, ![1, 64, 64]⟩ : Shape).ShapeCasts ⟨2, ![64, 64]⟩) (k j : Fin 64) :
    shapeCast (⟨2, ![64, 64]⟩ : Shape) (extractStridedSlice (⟨3, ![1, 64, 64]⟩ : Shape) ![o, 0, 0] W hsW) hcW (ix2 k j)
      = W (ix3 (⟨o, ho⟩ : Fin 3) k j) := by
  refine (shapeCast_1ab_ab_apply _ hcW k j).trans ?_
  refine extractStridedSlice_apply ![o, 0, 0] W hsW _ (ix3 (⟨o, ho⟩ : Fin 3) k j) fun c => ?_
  match c with
  | ⟨0, _⟩ => rfl
  | ⟨1, _⟩ => exact (Nat.zero_add _).symm
  | ⟨2, _⟩ => exact (Nat.zero_add _).symm

/-- Layer `o`'s bias at lane `j`, spread over the rows, read off the cut, the view and the two spreads. -/
theorem bias_apply (o : ℕ) (ho : o < 3) (b : FVec Ideal ⟨2, ![3, 64]⟩ .f32)
    (hsb : (⟨2, ![3, 64]⟩ : Shape).Slices ![o, 0] ⟨2, ![1, 64]⟩) (hcb : (⟨2, ![1, 64]⟩ : Shape).ShapeCasts ⟨1, ![64]⟩)
    (hb1 : (⟨1, ![64]⟩ : Shape).BroadcastsInDim ⟨2, ![1, 64]⟩ (![1] : Fin 1 → Fin 2))
    (hb2 : (⟨2, ![1, 64]⟩ : Shape).BroadcastsInDim ⟨2, ![N, 64]⟩ (![0, 1] : Fin 2 → Fin 2)) (p : Fin N) (j : Fin 64) :
    broadcastInDim (⟨2, ![N, 64]⟩ : Shape) ![0, 1] hb2 (broadcastInDim (⟨2, ![1, 64]⟩ : Shape) ![1] hb1
        (shapeCast (⟨1, ![64]⟩ : Shape) (extractStridedSlice (⟨2, ![1, 64]⟩ : Shape) ![o, 0] b hsb) hcb)) (ix2 p j)
      = b (ix2 (⟨o, ho⟩ : Fin 3) j) := by
  refine (broadcastInDim_apply ![0, 1] hb2 _ (ix2 p j) (ix2 (0 : Fin 1) j) fun a => ?_).trans ?_
  · match a with
    | ⟨0, _⟩ => rfl
    | ⟨1, _⟩ => rfl
  refine (broadcastInDim_apply ![1] hb1 _ (ix2 (0 : Fin 1) j) (ix1 j) fun a => ?_).trans ?_
  · match a with
    | ⟨0, _⟩ => rfl
  refine (shapeCast_1a_a_apply _ hcb j).trans ?_
  refine extractStridedSlice_apply ![o, 0] b hsb _ (ix2 (⟨o, ho⟩ : Fin 3) j) fun c => ?_
  match c with
  | ⟨0, _⟩ => rfl
  | ⟨1, _⟩ => exact (Nat.zero_add _).symm

/-- The affine map at `(p, j)`: the row's product with the weight's column, plus the bias's lane. -/
theorem hostAffine_apply (o : ℕ) (ho : o < 3) (hsW : (⟨3, ![3, 64, 64]⟩ : Shape).Slices ![o, 0, 0] ⟨3, ![1, 64, 64]⟩)
    (hcW : (⟨3, ![1, 64, 64]⟩ : Shape).ShapeCasts ⟨2, ![64, 64]⟩)
    (hsb : (⟨2, ![3, 64]⟩ : Shape).Slices ![o, 0] ⟨2, ![1, 64]⟩) (hcb : (⟨2, ![1, 64]⟩ : Shape).ShapeCasts ⟨1, ![64]⟩)
    (hb1 : (⟨1, ![64]⟩ : Shape).BroadcastsInDim ⟨2, ![1, 64]⟩ (![1] : Fin 1 → Fin 2))
    (hb2 : (⟨2, ![1, 64]⟩ : Shape).BroadcastsInDim ⟨2, ![N, 64]⟩ (![0, 1] : Fin 2 → Fin 2))
    (x : FVec Ideal ⟨2, ![N, 64]⟩ .f32) (W : FVec Ideal ⟨3, ![3, 64, 64]⟩ .f32) (b : FVec Ideal ⟨2, ![3, 64]⟩ .f32)
    (p : Fin N) (j : Fin 64) :
    hostAffine o hsW hcW hsb hcb hb1 hb2 x W b (ix2 p j)
      = (∑ k : Fin 64, x (ix2 p k) * W (ix3 (⟨o, ho⟩ : Fin 3) k j)) + b (ix2 (⟨o, ho⟩ : Fin 3) j) := by
  unfold hostAffine
  refine congrArg₂ (· + ·) ?_ (bias_apply o ho b hsb hcb hb1 hb2 p j)
  refine (LibDotGeneralNN.dotGeneral_apply N 64 64 none .single x _ p j).trans ?_
  exact Finset.sum_congr rfl fun k _ => congrArg (x (ix2 p k) * ·) (weight_apply o ho W hsW hcW k j)

/-- The normalised rows at `(p, j)`: the entry over the larger of its row's length and the constant. -/
theorem hostNormOf_apply (hred : (⟨2, ![N, 64]⟩ : Shape).ReducesTo [1] (⟨1, ![N]⟩ : Shape)) (hu : 0 < (⟨0, ![]⟩ : Shape).numel)
    (hbn : (⟨1, ![N]⟩ : Shape).BroadcastsInDim ⟨2, ![N, 1]⟩ (![0] : Fin 1 → Fin 2))
    (hbe : (⟨0, ![]⟩ : Shape).BroadcastsInDim ⟨2, ![N, 1]⟩ (![] : Fin 0 → Fin 2))
    (hbd : (⟨2, ![N, 1]⟩ : Shape).BroadcastsInDim ⟨2, ![N, 64]⟩ (![0, 1] : Fin 2 → Fin 2))
    (e : FVec Ideal ⟨2, ![N, 64]⟩ .f32) (p : Fin N) (j : Fin 64) :
    hostNormOf hred hu hbn hbe hbd e (ix2 p j)
      = Ideal.div (e (ix2 p j))
          (max (Ideal.sqrt (∑ k : Fin 64, e (ix2 p k) * e (ix2 p k))) (Scalar.ofBits (F := Ideal) .f32 0x2B8CBCCC#32)) := by
  have hR : (⟨2, ![N, 64]⟩ : Shape).Reduces [1] (⟨1, ![N]⟩ : Shape) := by
    obtain ⟨h1, h2⟩ := hred
    exact ⟨h1, Nat.one_pos, h2⟩
  unfold hostNormOf
  refine congrArg (Ideal.div (e (ix2 p j))) ?_
  refine (broadcastInDim_apply ![0, 1] hbd _ (ix2 p j) (ix2 p (0 : Fin 1)) fun a => ?_).trans ?_
  · match a with
    | ⟨0, _⟩ =>
      show p.val = if N = 1 then 0 else p.val
      split
      · have := p.isLt; omega
      · rfl
    | ⟨1, _⟩ => rfl
  refine congrArg (fun t => max (Ideal.sqrt t) (Scalar.ofBits (F := Ideal) .f32 0x2B8CBCCC#32)) ?_
  refine (broadcastInDim_apply ![0] hbn _ (ix2 p (0 : Fin 1)) (ix1 p) fun a => ?_).trans ?_
  · match a with
    | ⟨0, _⟩ =>
      show p.val = if N = 1 then 0 else p.val
      split
      · have := p.isLt; omega
      · rfl
  refine (Ideal.hostReduceAdd_single hred hR (mulf e e) _ (ix1 p)).trans ?_
  refine (congrArg (· + _) Ideal.ofBits_zero_f32).trans ((zero_add _).trans ?_)
  exact Finset.sum_congr rfl fun k _ => congrArg (mulf e e) (LibLaneReduce.lift_lanes hR p k)

/-! ### The layer -/

section Layer

variable (o : ℕ) (ho : o < 3)
  (h0 : (⟨0, ![]⟩ : Shape).BroadcastsInDim ⟨2, ![N, 64]⟩ (![] : Fin 0 → Fin 2))
  (hsW : (⟨3, ![3, 64, 64]⟩ : Shape).Slices ![o, 0, 0] ⟨3, ![1, 64, 64]⟩)
  (hcW : (⟨3, ![1, 64, 64]⟩ : Shape).ShapeCasts ⟨2, ![64, 64]⟩)
  (hsb : (⟨2, ![3, 64]⟩ : Shape).Slices ![o, 0] ⟨2, ![1, 64]⟩) (hcb : (⟨2, ![1, 64]⟩ : Shape).ShapeCasts ⟨1, ![64]⟩)
  (hb1 : (⟨1, ![64]⟩ : Shape).BroadcastsInDim ⟨2, ![1, 64]⟩ (![1] : Fin 1 → Fin 2))
  (hb2 : (⟨2, ![1, 64]⟩ : Shape).BroadcastsInDim ⟨2, ![N, 64]⟩ (![0, 1] : Fin 2 → Fin 2))
  (side ego : FVec Ideal ⟨2, ![N, 64]⟩ .f32) (gcW biW : FVec Ideal ⟨3, ![3, 64, 64]⟩ .f32) (gcb bib : FVec Ideal ⟨2, ![3, 64]⟩ .f32)

/-- The new embedding as the reference computes it. -/
def hostEgoNext : FVec Ideal ⟨2, ![N, 64]⟩ .f32 :=
  addf (hostLrelu h0 (constant ⟨0, ![]⟩ .f32 0x3C23D70A#32) (hostAffine o hsW hcW hsb hcb hb1 hb2 side gcW gcb))
    (hostLrelu h0 (constant ⟨0, ![]⟩ .f32 0x3C23D70A#32) (hostAffine o hsW hcW hsb hcb hb1 hb2 (mulf ego side) biW bib))

/-- The new embedding at `(p, j)` is the layer's formula with layer `o`'s weights and biases. -/
theorem hostEgoNext_apply (p : Fin N) (j : Fin 64) :
    hostEgoNext o h0 hsW hcW hsb hcb hb1 hb2 side ego gcW biW gcb bib (ix2 p j)
      = layerAt side ego (fun i => gcW (ix3 (⟨o, ho⟩ : Fin 3) (i 0) (i 1))) (fun i => biW (ix3 (⟨o, ho⟩ : Fin 3) (i 0) (i 1)))
          (fun i => gcb (ix2 (⟨o, ho⟩ : Fin 3) (i 0))) (fun i => bib (ix2 (⟨o, ho⟩ : Fin 3) (i 0))) p j := by
  unfold hostEgoNext layerAt
  refine congrArg₂ (· + ·) ?_ ?_
  · exact (hostLrelu_apply h0 _ _).trans (congrArg lrelu (hostAffine_apply o ho hsW hcW hsb hcb hb1 hb2 side gcW gcb p j))
  · exact (hostLrelu_apply h0 _ _).trans (congrArg lrelu (hostAffine_apply o ho hsW hcW hsb hcb hb1 hb2 (mulf ego side) biW bib p j))

variable (hred : (⟨2, ![N, 64]⟩ : Shape).ReducesTo [1] (⟨1, ![N]⟩ : Shape)) (hu : 0 < (⟨0, ![]⟩ : Shape).numel)
  (hbn : (⟨1, ![N]⟩ : Shape).BroadcastsInDim ⟨2, ![N, 1]⟩ (![0] : Fin 1 → Fin 2))
  (hbe : (⟨0, ![]⟩ : Shape).BroadcastsInDim ⟨2, ![N, 1]⟩ (![] : Fin 0 → Fin 2))
  (hbd : (⟨2, ![N, 1]⟩ : Shape).BroadcastsInDim ⟨2, ![N, 64]⟩ (![0, 1] : Fin 2 → Fin 2))

/-- The normalised output at `(p, j)` is the normalised layer's formula. -/
theorem hostNormNext_apply (p : Fin N) (j : Fin 64) :
    hostNormOf hred hu hbn hbe hbd (hostEgoNext o h0 hsW hcW hsb hcb hb1 hb2 side ego gcW biW gcb bib) (ix2 p j)
      = layerNormAt side ego (fun i => gcW (ix3 (⟨o, ho⟩ : Fin 3) (i 0) (i 1))) (fun i => biW (ix3 (⟨o, ho⟩ : Fin 3) (i 0) (i 1)))
          (fun i => gcb (ix2 (⟨o, ho⟩ : Fin 3) (i 0))) (fun i => bib (ix2 (⟨o, ho⟩ : Fin 3) (i 0))) p j := by
  rw [hostNormOf_apply]
  unfold layerNormAt
  rw [hostEgoNext_apply o ho]
  refine congrArg (fun t => Ideal.div _ (max (Ideal.sqrt t) (Scalar.ofBits (F := Ideal) .f32 0x2B8CBCCC#32))) ?_
  exact Finset.sum_congr rfl fun k _ => by rw [hostEgoNext_apply o ho]

end Layer

end Cert.NgcfHost

end
-- ==== Proof.RefSide.lean ====
/-
  The reference's aggregation along the edges, and its layer as whole arrays.

  The reference gathers the source rows, multiplies the edge values (spread over the lanes) INTO them — values first —
  and adds the products into the target rows; the common value (`sideOf`) writes the same product with the gathered
  rows first. A product of arrays does not depend on the order of its factors, so the two are equal. With the
  aggregation a function `agg` of the embedding, the reference's new embedding and normalised output are, as whole
  arrays, the common value's `egoNext` and `normNext`: entry by entry they are the layer's formula.
-/
import proofs.«120809_j78615081386430_2_alg».proof.Proof.Spec
import proofs.«120809_j78615081386430_2_alg».proof.Proof.RefLayer

noncomputable section

open scoped BigOperators

namespace Cert.NgcfHost

open Idealize.ShloMosaic Idealize.ShloMosaic.ValueIdx Cert.Ngcf

variable {N E : ℕ}

/-- The aggregation as the reference spells it. -/
def hostSide (gd : GatherDims ⟨2, ![N, 64]⟩ ⟨2, ![E, 1]⟩ ⟨2, ![E, 64]⟩) (sd : ScatterDims ⟨2, ![N, 64]⟩ ⟨2, ![E, 1]⟩ ⟨2, ![E, 64]⟩)
    (h0 : (⟨0, ![]⟩ : Shape).BroadcastsInDim ⟨2, ![N, 64]⟩ (![] : Fin 0 → Fin 2))
    (h1 : (⟨1, ![E]⟩ : Shape).BroadcastsInDim ⟨2, ![E, 1]⟩ (![0] : Fin 1 → Fin 2))
    (h2 : (⟨0, ![]⟩ : Shape).BroadcastsInDim ⟨1, ![E]⟩ (![] : Fin 0 → Fin 1))
    (h3 : (⟨2, ![E, 1]⟩ : Shape).BroadcastsInDim ⟨2, ![E, 64]⟩ (![0, 1] : Fin 2 → Fin 2))
    (nfix : BitVec 32) (cols rows : IVec ⟨1, ![E]⟩ 32) (vals : FVec Ideal ⟨1, ![E]⟩ .f32)
    (ego : FVec Ideal ⟨2, ![N, 64]⟩ .f32) : FVec Ideal ⟨2, ![N, 64]⟩ .f32 :=
  Host.scatterAdd sd (broadcastInDim ⟨2, ![N, 64]⟩ ![] h0 (constant ⟨0, ![]⟩ .f32 0x00000000#32))
    (broadcastInDim ⟨2, ![E, 1]⟩ ![0] h1 rows)
    (mulf
      (broadcastInDim ⟨2, ![E, 64]⟩ ![0, 1] h3 (broadcastInDim ⟨2, ![E, 1]⟩ ![0] h1 vals))
      (Host.gather gd ego (broadcastInDim ⟨2, ![E, 1]⟩ ![0] h1
        (select (cmpi .slt cols (broadcastInDim ⟨1, ![E]⟩ ![] h2 (constantI ⟨0, ![]⟩ 32 0#32)))
          (addi cols (broadcastInDim ⟨1, ![E]⟩ ![] h2 (constantI ⟨0, ![]⟩ 32 nfix))) cols))))

/-- It is the common value's aggregation: the one product's factors are exchanged. -/
theorem hostSide_eq (gd : GatherDims ⟨2, ![N, 64]⟩ ⟨2, ![E, 1]⟩ ⟨2, ![E, 64]⟩) (sd : ScatterDims ⟨2, ![N, 64]⟩ ⟨2, ![E, 1]⟩ ⟨2, ![E, 64]⟩)
    (h0 : (⟨0, ![]⟩ : Shape).BroadcastsInDim ⟨2, ![N, 64]⟩ (![] : Fin 0 → Fin 2))
    (h1 : (⟨1, ![E]⟩ : Shape).BroadcastsInDim ⟨2, ![E, 1]⟩ (![0] : Fin 1 → Fin 2))
    (h2 : (⟨0, ![]⟩ : Shape).BroadcastsInDim ⟨1, ![E]⟩ (![] : Fin 0 → Fin 1))
    (h3 : (⟨2, ![E, 1]⟩ : Shape).BroadcastsInDim ⟨2, ![E, 64]⟩ (![0, 1] : Fin 2 → Fin 2))
    (nfix : BitVec 32) (cols rows : IVec ⟨1, ![E]⟩ 32) (vals : FVec Ideal ⟨1, ![E]⟩ .f32)
    (ego : FVec Ideal ⟨2, ![N, 64]⟩ .f32) :
    hostSide gd sd h0 h1 h2 h3 nfix cols rows vals ego = sideOf gd sd h0 h1 h2 h3 nfix cols rows vals ego := by
  unfold hostSide sideOf
  rw [mulf_comm]

section Layer

variable (agg : FVec Ideal ⟨2, ![N, 64]⟩ .f32 → FVec Ideal ⟨2, ![N, 64]⟩ .f32)
  (o : ℕ) (ho : o < 3)
  (h0 : (⟨0, ![]⟩ : Shape).BroadcastsInDim ⟨2, ![N, 64]⟩ (![] : Fin 0 → Fin 2))
  (hsW : (⟨3, ![3, 64, 64]⟩ : Shape).Slices ![o, 0, 0] ⟨3, ![1, 64, 64]⟩)
  (hcW : (⟨3, ![1, 64, 64]⟩ : Shape).ShapeCasts ⟨2, ![64, 64]⟩)
  (hsb : (⟨2, ![3, 64]⟩ : Shape).Slices ![o, 0] ⟨2, ![1, 64]⟩) (hcb : (⟨2, ![1, 64]⟩ : Shape).ShapeCasts ⟨1, ![64]⟩)
  (hb1 : (⟨1, ![64]⟩ : Shape).BroadcastsInDim ⟨2, ![1, 64]⟩ (![1] : Fin 1 → Fin 2))
  (hb2 : (⟨2, ![1, 64]⟩ : Shape).BroadcastsInDim ⟨2, ![N, 64]⟩ (![0, 1] : Fin 2 → Fin 2))
  (ego : FVec Ideal ⟨2, ![N, 64]⟩ .f32) (gcW biW : FVec Ideal ⟨3, ![3, 64, 64]⟩ .f32) (gcb bib : FVec Ideal ⟨2, ![3, 64]⟩ .f32)

/-- The reference's new embedding is the common value's. -/
theorem hostEgoNext_eq :
    hostEgoNext o h0 hsW hcW hsb hcb hb1 hb2 (agg ego) ego gcW biW gcb bib = egoNext agg gcW biW gcb bib ⟨o, ho⟩ ego := by
  funext i
  rw [eq_ix2 i]
  exact hostEgoNext_apply o ho h0 hsW hcW hsb hcb hb1 hb2 (agg ego) ego gcW biW gcb bib (i 0) (i 1)

variable (hred : (⟨2, ![N, 64]⟩ : Shape).ReducesTo [1] (⟨1, ![N]⟩ : Shape)) (hu : 0 < (⟨0, ![]⟩ : Shape).numel)
  (hbn : (⟨1, ![N]⟩ : Shape).BroadcastsInDim ⟨2, ![N, 1]⟩ (![0] : Fin 1 → Fin 2))
  (hbe : (⟨0, ![]⟩ : Shape).BroadcastsInDim ⟨2, ![N, 1]⟩ (![] : Fin 0 → Fin 2))
  (hbd : (⟨2, ![N, 1]⟩ : Shape).BroadcastsInDim ⟨2, ![N, 64]⟩ (![0, 1] : Fin 2 → Fin 2))

/-- The reference's normalised output, computed from its new embedding, is the common value's. -/
theorem hostNormNext_eq :
    hostNormOf hred hu hbn hbe hbd (hostEgoNext o h0 hsW hcW hsb hcb hb1 hb2 (agg ego) ego gcW biW gcb bib)
      = normNext agg gcW biW gcb bib ⟨o, ho⟩ ego := by
  funext i
  rw [eq_ix2 i]
  exact hostNormNext_apply o ho h0 hsW hcW hsb hcb hb1 hb2 (agg ego) ego gcW biW gcb bib hred hu hbn hbe hbd (i 0) (i 1)

end Layer

/-- The rows' normalisation applied to the common value's new embedding is the common value's normalised output. -/
theorem hostNormOf_egoNext (agg : FVec Ideal ⟨2, ![N, 64]⟩ .f32 → FVec Ideal ⟨2, ![N, 64]⟩ .f32)
    (hred : (⟨2, ![N, 64]⟩ : Shape).ReducesTo [1] (⟨1, ![N]⟩ : Shape)) (hu : 0 < (⟨0, ![]⟩ : Shape).numel)
    (hbn : (⟨1, ![N]⟩ : Shape).BroadcastsInDim ⟨2, ![N, 1]⟩ (![0] : Fin 1 → Fin 2))
    (hbe : (⟨0, ![]⟩ : Shape).BroadcastsInDim ⟨2, ![N, 1]⟩ (![] : Fin 0 → Fin 2))
    (hbd : (⟨2, ![N, 1]⟩ : Shape).BroadcastsInDim ⟨2, ![N, 64]⟩ (![0, 1] : Fin 2 → Fin 2))
    (gcW biW : FVec Ideal ⟨3, ![3, 64, 64]⟩ .f32) (gcb bib : FVec Ideal ⟨2, ![3, 64]⟩ .f32) (l : Fin 3)
    (ego : FVec Ideal ⟨2, ![N, 64]⟩ .f32) :
    hostNormOf hred hu hbn hbe hbd (egoNext agg gcW biW gcb bib l ego) = normNext agg gcW biW gcb bib l ego := by
  funext i
  rw [eq_ix2 i]
  exact (hostNormOf_apply hred hu hbn hbe hbd _ (i 0) (i 1)).trans rfl

/-- A graph's rows plus the host's product of the map with the other graph's rows is the common value's combine. -/
theorem hostCombine_eq {M K : ℕ} (mp : FVec Ideal ⟨2, ![M, K]⟩ .f32) (rt : FVec Ideal ⟨2, ![K, 256]⟩ .f32)
    (base : FVec Ideal ⟨2, ![M, 256]⟩ .f32) :
    addf base (Host.dotGeneral (DotDims.plain M K 256) none mp rt) = combineOf mp rt base := by
  funext i
  rw [eq_ix2 i]
  show base (ix2 (i 0) (i 1)) + FloatOps.dotGeneral (DotDims.plain M K 256) none .single mp rt (ix2 (i 0) (i 1))
    = (∑ k : Fin K, mp (ix2 (i 0) k) * rt (ix2 k (i 1))) + base (ix2 (i 0) (i 1))
  rw [LibDotGeneralNN.dotGeneral_apply M K 256 none .single mp rt (i 0) (i 1), add_comm]

end Cert.NgcfHost

end
-- ==== Proof.RefStage.lean ====
/-
  Each piece of the reference's line read once, for any contents before it.

  For a piece and any contents `W` of the buffers before it, the buffer its last operation writes (for the side-by-side
  piece also the two cuts, for the last piece both results) holds afterwards one short term over `W` at the buffers
  the piece reads: the initial embedding's concatenation; the aggregation, the new embedding, the normalised rows as
  the reference spells them (`hostSide`, `hostEgoNext`, `hostNormOf`); the four embeddings side by side and their cuts;
  a sum with a product. Each is the fold unrolled over the piece's literal list, every operation's result read at its
  own buffer and any other buffer's contents carried past it.
-/
import proofs.«120809_j78615081386430_2_alg».proof.Proof.RefSeg
import proofs.«120809_j78615081386430_2_alg».proof.Proof.RefSide

noncomputable section

namespace Cert.ReferenceIdeal.RRun

open Cert.ReferenceIdeal Cert.ReferenceIdeal.Gen Idealize.ShloMosaic Idealize.ShloMosaic.TcCoe Idealize.SL.Sem Idealize.ShloMosaic.StableHlo

open Cert.NgcfHost

set_option maxRecDepth 8192

theorem rd_v0 (W : Valuation τ sig (Elt Ideal)) :
    after seg0 W (Proc.devRef .tc main_v0) = concatenate S35000x64 0 [⟨S20000x64, (W (Proc.devRef .tc main_arg0))⟩, ⟨S15000x64, (W (Proc.devRef .tc main_arg1))⟩] concatenates_S20000x64_S15000x64_S35000x64_d0 := by
  simp only [seg0]
  after_results_simp

theorem rd_v13 (W : Valuation τ sig (Elt Ideal)) :
    after seg1 W (Proc.devRef .tc main_v13) = hostSide (N := 35000) (E := 1000000) gather_S35000x64_S1000000x1_S1000000x64_1_0_n_n_0_1_164 scatter_S35000x64_S1000000x1_S1000000x64_1_0_0_1 bcast_S_S35000x64 bcast_S1000000_S1000000x1_0 bcast_S_S1000000 bcast_S1000000x1_S1000000x64_0_1 35000#32 (W (Proc.devRef .tc main_arg17)) (W (Proc.devRef .tc main_arg16)) (W (Proc.devRef .tc main_arg14)) (W (Proc.devRef .tc main_v0)) := by
  simp only [seg1]
  after_results_simp
  rfl

theorem rd_v33 (W : Valuation τ sig (Elt Ideal)) :
    after seg2 W (Proc.devRef .tc main_v33) = hostEgoNext (N := 35000) 0 bcast_S_S35000x64 slices_S3x64x64_S1x64x64_0_0_0 shapeCasts_S1x64x64_S64x64 slices_S3x64_S1x64_0_0 shapeCasts_S1x64_S64 bcast_S64_S1x64_1 bcast_S1x64_S35000x64_0_1 (W (Proc.devRef .tc main_v13)) (W (Proc.devRef .tc main_v0)) (W (Proc.devRef .tc main_arg2)) (W (Proc.devRef .tc main_arg4)) (W (Proc.devRef .tc main_arg3)) (W (Proc.devRef .tc main_arg5)) := by
  simp only [seg2]
  after_results_simp
  rfl

theorem rd_v38 (W : Valuation τ sig (Elt Ideal)) :
    after seg3 W (Proc.devRef .tc main_v38) = hostNormOf (N := 35000) reducesTo_S35000x64_S35000_d1 h_S_ bcast_S35000_S35000x1_0 bcast_S_S35000x1 bcast_S35000x1_S35000x64_0_1 (W (Proc.devRef .tc main_v33)) := by
  simp only [seg3]
  after_results_simp
  rfl

theorem rd_v51 (W : Valuation τ sig (Elt Ideal)) :
    after seg4 W (Proc.devRef .tc main_v51) = hostSide (N := 35000) (E := 1000000) gather_S35000x64_S1000000x1_S1000000x64_1_0_n_n_0_1_164 scatter_S35000x64_S1000000x1_S1000000x64_1_0_0_1 bcast_S_S35000x64 bcast_S1000000_S1000000x1_0 bcast_S_S1000000 bcast_S1000000x1_S1000000x64_0_1 35000#32 (W (Proc.devRef .tc main_arg17)) (W (Proc.devRef .tc main_arg16)) (W (Proc.devRef .tc main_arg14)) (W (Proc.devRef .tc main_v33)) := by
  simp only [seg4]
  after_results_simp
  rfl

theorem rd_v71 (W : Valuation τ sig (Elt Ideal)) :
    after seg5 W (Proc.devRef .tc main_v71) = hostEgoNext (N := 35000) 1 bcast_S_S35000x64 slices_S3x64x64_S1x64x64_1_0_0 shapeCasts_S1x64x64_S64x64 slices_S3x64_S1x64_1_0 shapeCasts_S1x64_S64 bcast_S64_S1x64_1 bcast_S1x64_S35000x64_0_1 (W (Proc.devRef .tc main_v51)) (W (Proc.devRef .tc main_v33)) (W (Proc.devRef .tc main_arg2)) (W (Proc.devRef .tc main_arg4)) (W (Proc.devRef .tc main_arg3)) (W (Proc.devRef .tc main_arg5)) := by
  simp only [seg5]
  after_results_simp
  rfl

theorem rd_v76 (W : Valuation τ sig (Elt Ideal)) :
    after seg6 W (Proc.devRef .tc main_v76) = hostNormOf (N := 35000) reducesTo_S35000x64_S35000_d1 h_S_ bcast_S35000_S35000x1_0 bcast_S_S35000x1 bcast_S35000x1_S35000x64_0_1 (W (Proc.devRef .tc main_v71)) := by
  simp only [seg6]
  after_results_simp
  rfl

theorem rd_v89 (W : Valuation τ sig (Elt Ideal)) :
    after seg7 W (Proc.devRef .tc main_v89) = hostSide (N := 35000) (E := 1000000) gather_S35000x64_S1000000x1_S1000000x64_1_0_n_n_0_1_164 scatter_S35000x64_S1000000x1_S1000000x64_1_0_0_1 bcast_S_S35000x64 bcast_S1000000_S1000000x1_0 bcast_S_S1000000 bcast_S1000000x1_S1000000x64_0_1 35000#32 (W (Proc.devRef .tc main_arg17)) (W (Proc.devRef .tc main_arg16)) (W (Proc.devRef .tc main_arg14)) (W (Proc.devRef .tc main_v71)) := by
  simp only [seg7]
  after_results_simp
  rfl

theorem rd_v109 (W : Valuation τ sig (Elt Ideal)) :
    after seg8 W (Proc.devRef .tc main_v109) = hostEgoNext (N := 35000) 2 bcast_S_S35000x64 slices_S3x64x64_S1x64x64_2_0_0 shapeCasts_S1x64x64_S64x64 slices_S3x64_S1x64_2_0 shapeCasts_S1x64_S64 bcast_S64_S1x64_1 bcast_S1x64_S35000x64_0_1 (W (Proc.devRef .tc main_v89)) (W (Proc.devRef .tc main_v71)) (W (Proc.devRef .tc main_arg2)) (W (Proc.devRef .tc main_arg4)) (W (Proc.devRef .tc main_arg3)) (W (Proc.devRef .tc main_arg5)) := by
  simp only [seg8]
  after_results_simp
  rfl

theorem rd_v114 (W : Valuation τ sig (Elt Ideal)) :
    after seg9 W (Proc.devRef .tc main_v114) = hostNormOf (N := 35000) reducesTo_S35000x64_S35000_d1 h_S_ bcast_S35000_S35000x1_0 bcast_S_S35000x1 bcast_S35000x1_S35000x64_0_1 (W (Proc.devRef .tc main_v109)) := by
  simp only [seg9]
  after_results_simp
  rfl

theorem rd_v115 (W : Valuation τ sig (Elt Ideal)) :
    after seg10 W (Proc.devRef .tc main_v115) = concatenate S35000x256 1 [⟨S35000x64, (W (Proc.devRef .tc main_v0))⟩, ⟨S35000x64, (W (Proc.devRef .tc main_v38))⟩, ⟨S35000x64, (W (Proc.devRef .tc main_v76))⟩, ⟨S35000x64, (W (Proc.devRef .tc main_v114))⟩] concatenates_S35000x64_S35000x64_S35000x64_S35000x64_S35000x256_d1 := by
  simp only [seg10]
  after_results_simp
  rfl

theorem rd_v116 (W : Valuation τ sig (Elt Ideal)) :
    after seg10 W (Proc.devRef .tc main_v116) = extractStridedSlice S20000x256 ![0, 0] (concatenate S35000x256 1 [⟨S35000x64, (W (Proc.devRef .tc main_v0))⟩, ⟨S35000x64, (W (Proc.devRef .tc main_v38))⟩, ⟨S35000x64, (W (Proc.devRef .tc main_v76))⟩, ⟨S35000x64, (W (Proc.devRef .tc main_v114))⟩] concatenates_S35000x64_S35000x64_S35000x64_S35000x64_S35000x256_d1) slices_S35000x256_S20000x256_0_0 := by
  simp only [seg10]
  after_results_simp
  rfl

theorem rd_v117 (W : Valuation τ sig (Elt Ideal)) :
    after seg10 W (Proc.devRef .tc main_v117) = extractStridedSlice S15000x256 ![20000, 0] (concatenate S35000x256 1 [⟨S35000x64, (W (Proc.devRef .tc main_v0))⟩, ⟨S35000x64, (W (Proc.devRef .tc main_v38))⟩, ⟨S35000x64, (W (Proc.devRef .tc main_v76))⟩, ⟨S35000x64, (W (Proc.devRef .tc main_v114))⟩] concatenates_S35000x64_S35000x64_S35000x64_S35000x64_S35000x256_d1) slices_S35000x256_S15000x256_20000_0 := by
  simp only [seg10]
  after_results_simp
  rfl

theorem rd_v118 (W : Valuation τ sig (Elt Ideal)) :
    after seg11 W (Proc.devRef .tc main_v118) = concatenate S7000x64 0 [⟨S4000x64, (W (Proc.devRef .tc main_arg6))⟩, ⟨S3000x64, (W (Proc.devRef .tc main_arg7))⟩] concatenates_S4000x64_S3000x64_S7000x64_d0 := by
  simp only [seg11]
  after_results_simp

theorem rd_v131 (W : Valuation τ sig (Elt Ideal)) :
    after seg12 W (Proc.devRef .tc main_v131) = hostSide (N := 7000) (E := 200000) gather_S7000x64_S200000x1_S200000x64_1_0_n_n_0_1_164 scatter_S7000x64_S200000x1_S200000x64_1_0_0_1 bcast_S_S7000x64 bcast_S200000_S200000x1_0 bcast_S_S200000 bcast_S200000x1_S200000x64_0_1 7000#32 (W (Proc.devRef .tc main_arg19)) (W (Proc.devRef .tc main_arg18)) (W (Proc.devRef .tc main_arg15)) (W (Proc.devRef .tc main_v118)) := by
  simp only [seg12]
  after_results_simp
  rfl

theorem rd_v151 (W : Valuation τ sig (Elt Ideal)) :
    after seg13 W (Proc.devRef .tc main_v151) = hostEgoNext (N := 7000) 0 bcast_S_S7000x64 slices_S3x64x64_S1x64x64_0_0_0 shapeCasts_S1x64x64_S64x64 slices_S3x64_S1x64_0_0 shapeCasts_S1x64_S64 bcast_S64_S1x64_1 bcast_S1x64_S7000x64_0_1 (W (Proc.devRef .tc main_v131)) (W (Proc.devRef .tc main_v118)) (W (Proc.devRef .tc main_arg8)) (W (Proc.devRef .tc main_arg10)) (W (Proc.devRef .tc main_arg9)) (W (Proc.devRef .tc main_arg11)) := by
  simp only [seg13]
  after_results_simp
  rfl

theorem rd_v156 (W : Valuation τ sig (Elt Ideal)) :
    after seg14 W (Proc.devRef .tc main_v156) = hostNormOf (N := 7000) reducesTo_S7000x64_S7000_d1 h_S_ bcast_S7000_S7000x1_0 bcast_S_S7000x1 bcast_S7000x1_S7000x64_0_1 (W (Proc.devRef .tc main_v151)) := by
  simp only [seg14]
  after_results_simp
  rfl

theorem rd_v169 (W : Valuation τ sig (Elt Ideal)) :
    after seg15 W (Proc.devRef .tc main_v169) = hostSide (N := 7000) (E := 200000) gather_S7000x64_S200000x1_S200000x64_1_0_n_n_0_1_164 scatter_S7000x64_S200000x1_S200000x64_1_0_0_1 bcast_S_S7000x64 bcast_S200000_S200000x1_0 bcast_S_S200000 bcast_S200000x1_S200000x64_0_1 7000#32 (W (Proc.devRef .tc main_arg19)) (W (Proc.devRef .tc main_arg18)) (W (Proc.devRef .tc main_arg15)) (W (Proc.devRef .tc main_v151)) := by
  simp only [seg15]
  after_results_simp
  rfl

theorem rd_v189 (W : Valuation τ sig (Elt Ideal)) :
    after seg16 W (Proc.devRef .tc main_v189) = hostEgoNext (N := 7000) 1 bcast_S_S7000x64 slices_S3x64x64_S1x64x64_1_0_0 shapeCasts_S1x64x64_S64x64 slices_S3x64_S1x64_1_0 shapeCasts_S1x64_S64 bcast_S64_S1x64_1 bcast_S1x64_S7000x64_0_1 (W (Proc.devRef .tc main_v169)) (W (Proc.devRef .tc main_v151)) (W (Proc.devRef .tc main_arg8)) (W (Proc.devRef .tc main_arg10)) (W (Proc.devRef .tc main_arg9)) (W (Proc.devRef .tc main_arg11)) := by
  simp only [seg16]
  after_results_simp
  rfl

theorem rd_v194 (W : Valuation τ sig (Elt Ideal)) :
    after seg17 W (Proc.devRef .tc main_v194) = hostNormOf (N := 7000) reducesTo_S7000x64_S7000_d1 h_S_ bcast_S7000_S7000x1_0 bcast_S_S7000x1 bcast_S7000x1_S7000x64_0_1 (W (Proc.devRef .tc main_v189)) := by
  simp only [seg17]
  after_results_simp
  rfl

theorem rd_v207 (W : Valuation τ sig (Elt Ideal)) :
    after seg18 W (Proc.devRef .tc main_v207) = hostSide (N := 7000) (E := 200000) gather_S7000x64_S200000x1_S200000x64_1_0_n_n_0_1_164 scatter_S7000x64_S200000x1_S200000x64_1_0_0_1 bcast_S_S7000x64 bcast_S200000_S200000x1_0 bcast_S_S200000 bcast_S200000x1_S200000x64_0_1 7000#32 (W (Proc.devRef .tc main_arg19)) (W (Proc.devRef .tc main_arg18)) (W (Proc.devRef .tc main_arg15)) (W (Proc.devRef .tc main_v189)) := by
  simp only [seg18]
  after_results_simp
  rfl

theorem rd_v227 (W : Valuation τ sig (Elt Ideal)) :
    after seg19 W (Proc.devRef .tc main_v227) = hostEgoNext (N := 7000) 2 bcast_S_S7000x64 slices_S3x64x64_S1x64x64_2_0_0 shapeCasts_S1x64x64_S64x64 slices_S3x64_S1x64_2_0 shapeCasts_S1x64_S64 bcast_S64_S1x64_1 bcast_S1x64_S7000x64_0_1 (W (Proc.devRef .tc main_v207)) (W (Proc.devRef .tc main_v189)) (W (Proc.devRef .tc main_arg8)) (W (Proc.devRef .tc main_arg10)) (W (Proc.devRef .tc main_arg9)) (W (Proc.devRef .tc main_arg11)) := by
  simp only [seg19]
  after_results_simp
  rfl

theorem rd_v232 (W : Valuation τ sig (Elt Ideal)) :
    after seg20 W (Proc.devRef .tc main_v232) = hostNormOf (N := 7000) reducesTo_S7000x64_S7000_d1 h_S_ bcast_S7000_S7000x1_0 bcast_S_S7000x1 bcast_S7000x1_S7000x64_0_1 (W (Proc.devRef .tc main_v227)) := by
  simp only [seg20]
  after_results_simp
  rfl

theorem rd_v233 (W : Valuation τ sig (Elt Ideal)) :
    after seg21 W (Proc.devRef .tc main_v233) = concatenate S7000x256 1 [⟨S7000x64, (W (Proc.devRef .tc main_v118))⟩, ⟨S7000x64, (W (Proc.devRef .tc main_v156))⟩, ⟨S7000x64, (W (Proc.devRef .tc main_v194))⟩, ⟨S7000x64, (W (Proc.devRef .tc main_v232))⟩] concatenates_S7000x64_S7000x64_S7000x64_S7000x64_S7000x256_d1 := by
  simp only [seg21]
  after_results_simp
  rfl

theorem rd_v234 (W : Valuation τ sig (Elt Ideal)) :
    after seg21 W (Proc.devRef .tc main_v234) = extractStridedSlice S4000x256 ![0, 0] (concatenate S7000x256 1 [⟨S7000x64, (W (Proc.devRef .tc main_v118))⟩, ⟨S7000x64, (W (Proc.devRef .tc main_v156))⟩, ⟨S7000x64, (W (Proc.devRef .tc main_v194))⟩, ⟨S7000x64, (W (Proc.devRef .tc main_v232))⟩] concatenates_S7000x64_S7000x64_S7000x64_S7000x64_S7000x256_d1) slices_S7000x256_S4000x256_0_0 := by
  simp only [seg21]
  after_results_simp
  rfl

theorem rd_v235 (W : Valuation τ sig (Elt Ideal)) :
    after seg21 W (Proc.devRef .tc main_v235) = extractStridedSlice S3000x256 ![4000, 0] (concatenate S7000x256 1 [⟨S7000x64, (W (Proc.devRef .tc main_v118))⟩, ⟨S7000x64, (W (Proc.devRef .tc main_v156))⟩, ⟨S7000x64, (W (Proc.devRef .tc main_v194))⟩, ⟨S7000x64, (W (Proc.devRef .tc main_v232))⟩] concatenates_S7000x64_S7000x64_S7000x64_S7000x64_S7000x256_d1) slices_S7000x256_S3000x256_4000_0 := by
  simp only [seg21]
  after_results_simp
  rfl

theorem rd_v237 (W : Valuation τ sig (Elt Ideal)) :
    after seg22 W (Proc.devRef .tc main_v237) = (addf (W (Proc.devRef .tc main_v116)) (Host.dotGeneral (φ₁ := .f32) (φ₂ := .f32) dot_S20000x4000_S4000x256_S20000x256_1_0_0_1_n_n none (W (Proc.devRef .tc main_arg12)) (W (Proc.devRef .tc main_v234))) : FVec Ideal S20000x256 .f32) := by
  simp only [seg22]
  after_results_simp

theorem rd_v239 (W : Valuation τ sig (Elt Ideal)) :
    after seg22 W (Proc.devRef .tc main_v239) = (addf (W (Proc.devRef .tc main_v117)) (Host.dotGeneral (φ₁ := .f32) (φ₂ := .f32) dot_S15000x3000_S3000x256_S15000x256_1_0_0_1_n_n none (W (Proc.devRef .tc main_arg13)) (W (Proc.devRef .tc main_v235))) : FVec Ideal S15000x256 .f32) := by
  simp only [seg22]
  after_results_simp

end Cert.ReferenceIdeal.RRun

end
-- ==== Proof.RefValue.lean ====
/-
  The reference's two results are the common value of the twenty arguments.

  The line of operations is followed piece by piece. With `A` the arguments' first contents, the contents after a piece,
  at the buffer the piece ends on, are: the initial embedding; then, layer after layer, the aggregation of the
  embedding entering the layer, the new embedding, the normalised output; the four embeddings side by side and their
  two cuts; and last, for each result, the cut of the one graph plus the map's product with the cut of the other. Each
  step reads the piece once (at whatever the buffers held before it), replaces what it read by what the earlier steps
  found — a buffer keeps its contents through the pieces that do not write it, an argument through all of them — and
  closes with the layer's law for that piece.
-/
import proofs.«120809_j78615081386430_2_alg».proof.Proof.SpecTop
import proofs.«120809_j78615081386430_2_alg».proof.Proof.RefStage

noncomputable section

namespace Cert.ReferenceIdeal.RRun

open Cert.ReferenceIdeal Cert.ReferenceIdeal.Gen Idealize.ShloMosaic Idealize.ShloMosaic.TcCoe Idealize.SL.Sem Idealize.ShloMosaic.StableHlo
open Cert.Ngcf Cert.NgcfHost

set_option maxRecDepth 8192

/-- The twenty arguments' contents, as the common value's record of them. -/
noncomputable def argsR (V : Valuation τ sig (Elt Ideal)) : Cert.Ngcf.Args :=
  ⟨V (Proc.devRef .tc main_arg0),
   V (Proc.devRef .tc main_arg1),
   V (Proc.devRef .tc main_arg2),
   V (Proc.devRef .tc main_arg3),
   V (Proc.devRef .tc main_arg4),
   V (Proc.devRef .tc main_arg5),
   V (Proc.devRef .tc main_arg6),
   V (Proc.devRef .tc main_arg7),
   V (Proc.devRef .tc main_arg8),
   V (Proc.devRef .tc main_arg9),
   V (Proc.devRef .tc main_arg10),
   V (Proc.devRef .tc main_arg11),
   V (Proc.devRef .tc main_arg12),
   V (Proc.devRef .tc main_arg13),
   V (Proc.devRef .tc main_arg14),
   V (Proc.devRef .tc main_arg15),
   V (Proc.devRef .tc main_arg16),
   V (Proc.devRef .tc main_arg17),
   V (Proc.devRef .tc main_arg18),
   V (Proc.devRef .tc main_arg19)⟩

/-! No piece writes an argument's buffer. -/
theorem ut_arg17 : Untouched main_arg17 := ⟨by decide, by decide, by decide, by decide, by decide, by decide, by decide, by decide, by decide, by decide, by decide, by decide, by decide, by decide, by decide, by decide, by decide, by decide, by decide, by decide, by decide, by decide, by decide⟩
theorem ut_arg16 : Untouched main_arg16 := ⟨by decide, by decide, by decide, by decide, by decide, by decide, by decide, by decide, by decide, by decide, by decide, by decide, by decide, by decide, by decide, by decide, by decide, by decide, by decide, by decide, by decide, by decide, by decide⟩
theorem ut_arg14 : Untouched main_arg14 := ⟨by decide, by decide, by decide, by decide, by decide, by decide, by decide, by decide, by decide, by decide, by decide, by decide, by decide, by decide, by decide, by decide, by decide, by decide, by decide, by decide, by decide, by decide, by decide⟩
theorem ut_arg2 : Untouched main_arg2 := ⟨by decide, by decide, by decide, by decide, by decide, by decide, by decide, by decide, by decide, by decide, by decide, by decide, by decide, by decide, by decide, by decide, by decide, by decide, by decide, by decide, by decide, by decide, by decide⟩
theorem ut_arg4 : Untouched main_arg4 := ⟨by decide, by decide, by decide, by decide, by decide, by decide, by decide, by decide, by decide, by decide, by decide, by decide, by decide, by decide, by decide, by decide, by decide, by decide, by decide, by decide, by decide, by decide, by decide⟩
theorem ut_arg3 : Untouched main_arg3 := ⟨by decide, by decide, by decide, by decide, by decide, by decide, by decide, by decide, by decide, by decide, by decide, by decide, by decide, by decide, by decide, by decide, by decide, by decide, by decide, by decide, by decide, by decide, by decide⟩
theorem ut_arg5 : Untouched main_arg5 := ⟨by decide, by decide, by decide, by decide, by decide, by decide, by decide, by decide, by decide, by decide, by decide, by decide, by decide, by decide, by decide, by decide, by decide, by decide, by decide, by decide, by decide, by decide, by decide⟩
theorem ut_arg6 : Untouched main_arg6 := ⟨by decide, by decide, by decide, by decide, by decide, by decide, by decide, by decide, by decide, by decide, by decide, by decide, by decide, by decide, by decide, by decide, by decide, by decide, by decide, by decide, by decide, by decide, by decide⟩
theorem ut_arg7 : Untouched main_arg7 := ⟨by decide, by decide, by decide, by decide, by decide, by decide, by decide, by decide, by decide, by decide, by decide, by decide, by decide, by decide, by decide, by decide, by decide, by decide, by decide, by decide, by decide, by decide, by decide⟩
theorem ut_arg19 : Untouched main_arg19 := ⟨by decide, by decide, by decide, by decide, by decide, by decide, by decide, by decide, by decide, by decide, by decide, by decide, by decide, by decide, by decide, by decide, by decide, by decide, by decide, by decide, by decide, by decide, by decide⟩
theorem ut_arg18 : Untouched main_arg18 := ⟨by decide, by decide, by decide, by decide, by decide, by decide, by decide, by decide, by decide, by decide, by decide, by decide, by decide, by decide, by decide, by decide, by decide, by decide, by decide, by decide, by decide, by decide, by decide⟩
theorem ut_arg15 : Untouched main_arg15 := ⟨by decide, by decide, by decide, by decide, by decide, by decide, by decide, by decide, by decide, by decide, by decide, by decide, by decide, by decide, by decide, by decide, by decide, by decide, by decide, by decide, by decide, by decide, by decide⟩
theorem ut_arg8 : Untouched main_arg8 := ⟨by decide, by decide, by decide, by decide, by decide, by decide, by decide, by decide, by decide, by decide, by decide, by decide, by decide, by decide, by decide, by decide, by decide, by decide, by decide, by decide, by decide, by decide, by decide⟩
theorem ut_arg10 : Untouched main_arg10 := ⟨by decide, by decide, by decide, by decide, by decide, by decide, by decide, by decide, by decide, by decide, by decide, by decide, by decide, by decide, by decide, by decide, by decide, by decide, by decide, by decide, by decide, by decide, by decide⟩
theorem ut_arg9 : Untouched main_arg9 := ⟨by decide, by decide, by decide, by decide, by decide, by decide, by decide, by decide, by decide, by decide, by decide, by decide, by decide, by decide, by decide, by decide, by decide, by decide, by decide, by decide, by decide, by decide, by decide⟩
theorem ut_arg11 : Untouched main_arg11 := ⟨by decide, by decide, by decide, by decide, by decide, by decide, by decide, by decide, by decide, by decide, by decide, by decide, by decide, by decide, by decide, by decide, by decide, by decide, by decide, by decide, by decide, by decide, by decide⟩
theorem ut_arg12 : Untouched main_arg12 := ⟨by decide, by decide, by decide, by decide, by decide, by decide, by decide, by decide, by decide, by decide, by decide, by decide, by decide, by decide, by decide, by decide, by decide, by decide, by decide, by decide, by decide, by decide, by decide⟩
theorem ut_arg13 : Untouched main_arg13 := ⟨by decide, by decide, by decide, by decide, by decide, by decide, by decide, by decide, by decide, by decide, by decide, by decide, by decide, by decide, by decide, by decide, by decide, by decide, by decide, by decide, by decide, by decide, by decide⟩

theorem val_v0 (V : Valuation τ sig (Elt Ideal)) : P0 V (Proc.devRef .tc main_v0) = egoInit0 (argsR V) := by
  rw [P0_eq, rd_v0]
  rfl

theorem val_v13 (V : Valuation τ sig (Elt Ideal)) : P1 V (Proc.devRef .tc main_v13) = agg0 (argsR V) (egoInit0 (argsR V)) := by
  have he : P0 V (Proc.devRef .tc main_v0) = (egoInit0 (argsR V)) := (val_v0 V)
  rw [P1_eq, rd_v13, P0_arg V main_arg17 ut_arg17, P0_arg V main_arg16 ut_arg16, P0_arg V main_arg14 ut_arg14, he]
  exact hostSide_eq _ _ _ _ _ _ _ _ _ _ _

theorem val_v33 (V : Valuation τ sig (Elt Ideal)) : P2 V (Proc.devRef .tc main_v33) = egoNext (agg0 (argsR V)) (argsR V).gcW0 (argsR V).biW0 (argsR V).gcb0 (argsR V).bib0 0 (egoInit0 (argsR V)) := by
  have he : P1 V (Proc.devRef .tc main_v0) = (egoInit0 (argsR V)) := ((keepS1 _ main_v0 (by decide)).trans (val_v0 V))
  have hs : P1 V (Proc.devRef .tc main_v13) = agg0 (argsR V) (egoInit0 (argsR V)) := (val_v13 V)
  rw [P2_eq, rd_v33, P1_arg V main_arg2 ut_arg2, P1_arg V main_arg4 ut_arg4, P1_arg V main_arg3 ut_arg3, P1_arg V main_arg5 ut_arg5, he, hs]
  exact hostEgoNext_eq (agg0 (argsR V)) 0 (by decide) _ _ _ _ _ _ _ _ _ _ _ _

theorem val_v38 (V : Valuation τ sig (Elt Ideal)) : P3 V (Proc.devRef .tc main_v38) = normNext (agg0 (argsR V)) (argsR V).gcW0 (argsR V).biW0 (argsR V).gcb0 (argsR V).bib0 0 (egoInit0 (argsR V)) := by
  have he : P2 V (Proc.devRef .tc main_v33) = (egoNext (agg0 (argsR V)) (argsR V).gcW0 (argsR V).biW0 (argsR V).gcb0 (argsR V).bib0 0 (egoInit0 (argsR V))) := (val_v33 V)
  rw [P3_eq, rd_v38, he]
  exact hostNormOf_egoNext (agg0 (argsR V)) _ _ _ _ _ _ _ _ _ 0 _

theorem val_v51 (V : Valuation τ sig (Elt Ideal)) : P4 V (Proc.devRef .tc main_v51) = agg0 (argsR V) (egoNext (agg0 (argsR V)) (argsR V).gcW0 (argsR V).biW0 (argsR V).gcb0 (argsR V).bib0 0 (egoInit0 (argsR V))) := by
  have he : P3 V (Proc.devRef .tc main_v33) = (egoNext (agg0 (argsR V)) (argsR V).gcW0 (argsR V).biW0 (argsR V).gcb0 (argsR V).bib0 0 (egoInit0 (argsR V))) := ((keepS3 _ main_v33 (by decide)).trans (val_v33 V))
  rw [P4_eq, rd_v51, P3_arg V main_arg17 ut_arg17, P3_arg V main_arg16 ut_arg16, P3_arg V main_arg14 ut_arg14, he]
  exact hostSide_eq _ _ _ _ _ _ _ _ _ _ _

theorem val_v71 (V : Valuation τ sig (Elt Ideal)) : P5 V (Proc.devRef .tc main_v71) = egoNext (agg0 (argsR V)) (argsR V).gcW0 (argsR V).biW0 (argsR V).gcb0 (argsR V).bib0 1 (egoNext (agg0 (argsR V)) (argsR V).gcW0 (argsR V).biW0 (argsR V).gcb0 (argsR V).bib0 0 (egoInit0 (argsR V))) := by
  have he : P4 V (Proc.devRef .tc main_v33) = (egoNext (agg0 (argsR V)) (argsR V).gcW0 (argsR V).biW0 (argsR V).gcb0 (argsR V).bib0 0 (egoInit0 (argsR V))) := ((keepS4 _ main_v33 (by decide)).trans ((keepS3 _ main_v33 (by decide)).trans (val_v33 V)))
  have hs : P4 V (Proc.devRef .tc main_v51) = agg0 (argsR V) (egoNext (agg0 (argsR V)) (argsR V).gcW0 (argsR V).biW0 (argsR V).gcb0 (argsR V).bib0 0 (egoInit0 (argsR V))) := (val_v51 V)
  rw [P5_eq, rd_v71, P4_arg V main_arg2 ut_arg2, P4_arg V main_arg4 ut_arg4, P4_arg V main_arg3 ut_arg3, P4_arg V main_arg5 ut_arg5, he, hs]
  exact hostEgoNext_eq (agg0 (argsR V)) 1 (by decide) _ _ _ _ _ _ _ _ _ _ _ _

theorem val_v76 (V : Valuation τ sig (Elt Ideal)) : P6 V (Proc.devRef .tc main_v76) = normNext (agg0 (argsR V)) (argsR V).gcW0 (argsR V).biW0 (argsR V).gcb0 (argsR V).bib0 1 (egoNext (agg0 (argsR V)) (argsR V).gcW0 (argsR V).biW0 (argsR V).gcb0 (argsR V).bib0 0 (egoInit0 (argsR V))) := by
  have he : P5 V (Proc.devRef .tc main_v71) = (egoNext (agg0 (argsR V)) (argsR V).gcW0 (argsR V).biW0 (argsR V).gcb0 (argsR V).bib0 1 (egoNext (agg0 (argsR V)) (argsR V).gcW0 (argsR V).biW0 (argsR V).gcb0 (argsR V).bib0 0 (egoInit0 (argsR V)))) := (val_v71 V)
  rw [P6_eq, rd_v76, he]
  exact hostNormOf_egoNext (agg0 (argsR V)) _ _ _ _ _ _ _ _ _ 1 _

theorem val_v89 (V : Valuation τ sig (Elt Ideal)) : P7 V (Proc.devRef .tc main_v89) = agg0 (argsR V) (egoNext (agg0 (argsR V)) (argsR V).gcW0 (argsR V).biW0 (argsR V).gcb0 (argsR V).bib0 1 (egoNext (agg0 (argsR V)) (argsR V).gcW0 (argsR V).biW0 (argsR V).gcb0 (argsR V).bib0 0 (egoInit0 (argsR V)))) := by
  have he : P6 V (Proc.devRef .tc main_v71) = (egoNext (agg0 (argsR V)) (argsR V).gcW0 (argsR V).biW0 (argsR V).gcb0 (argsR V).bib0 1 (egoNext (agg0 (argsR V)) (argsR V).gcW0 (argsR V).biW0 (argsR V).gcb0 (argsR V).bib0 0 (egoInit0 (argsR V)))) := ((keepS6 _ main_v71 (by decide)).trans (val_v71 V))
  rw [P7_eq, rd_v89, P6_arg V main_arg17 ut_arg17, P6_arg V main_arg16 ut_arg16, P6_arg V main_arg14 ut_arg14, he]
  exact hostSide_eq _ _ _ _ _ _ _ _ _ _ _

theorem val_v109 (V : Valuation τ sig (Elt Ideal)) : P8 V (Proc.devRef .tc main_v109) = egoNext (agg0 (argsR V)) (argsR V).gcW0 (argsR V).biW0 (argsR V).gcb0 (argsR V).bib0 2 (egoNext (agg0 (argsR V)) (argsR V).gcW0 (argsR V).biW0 (argsR V).gcb0 (argsR V).bib0 1 (egoNext (agg0 (argsR V)) (argsR V).gcW0 (argsR V).biW0 (argsR V).gcb0 (argsR V).bib0 0 (egoInit0 (argsR V)))) := by
  have he : P7 V (Proc.devRef .tc main_v71) = (egoNext (agg0 (argsR V)) (argsR V).gcW0 (argsR V).biW0 (argsR V).gcb0 (argsR V).bib0 1 (egoNext (agg0 (argsR V)) (argsR V).gcW0 (argsR V).biW0 (argsR V).gcb0 (argsR V).bib0 0 (egoInit0 (argsR V)))) := ((keepS7 _ main_v71 (by decide)).trans ((keepS6 _ main_v71 (by decide)).trans (val_v71 V)))
  have hs : P7 V (Proc.devRef .tc main_v89) = agg0 (argsR V) (egoNext (agg0 (argsR V)) (argsR V).gcW0 (argsR V).biW0 (argsR V).gcb0 (argsR V).bib0 1 (egoNext (agg0 (argsR V)) (argsR V).gcW0 (argsR V).biW0 (argsR V).gcb0 (argsR V).bib0 0 (egoInit0 (argsR V)))) := (val_v89 V)
  rw [P8_eq, rd_v109, P7_arg V main_arg2 ut_arg2, P7_arg V main_arg4 ut_arg4, P7_arg V main_arg3 ut_arg3, P7_arg V main_arg5 ut_arg5, he, hs]
  exact hostEgoNext_eq (agg0 (argsR V)) 2 (by decide) _ _ _ _ _ _ _ _ _ _ _ _

theorem val_v114 (V : Valuation τ sig (Elt Ideal)) : P9 V (Proc.devRef .tc main_v114) = normNext (agg0 (argsR V)) (argsR V).gcW0 (argsR V).biW0 (argsR V).gcb0 (argsR V).bib0 2 (egoNext (agg0 (argsR V)) (argsR V).gcW0 (argsR V).biW0 (argsR V).gcb0 (argsR V).bib0 1 (egoNext (agg0 (argsR V)) (argsR V).gcW0 (argsR V).biW0 (argsR V).gcb0 (argsR V).bib0 0 (egoInit0 (argsR V)))) := by
  have he : P8 V (Proc.devRef .tc main_v109) = (egoNext (agg0 (argsR V)) (argsR V).gcW0 (argsR V).biW0 (argsR V).gcb0 (argsR V).bib0 2 (egoNext (agg0 (argsR V)) (argsR V).gcW0 (argsR V).biW0 (argsR V).gcb0 (argsR V).bib0 1 (egoNext (agg0 (argsR V)) (argsR V).gcW0 (argsR V).biW0 (argsR V).gcb0 (argsR V).bib0 0 (egoInit0 (argsR V))))) := (val_v109 V)
  rw [P9_eq, rd_v114, he]
  exact hostNormOf_egoNext (agg0 (argsR V)) _ _ _ _ _ _ _ _ _ 2 _

theorem val_v115 (V : Valuation τ sig (Elt Ideal)) : P10 V (Proc.devRef .tc main_v115) = emb0 (argsR V) := by
  have h0 : P9 V (Proc.devRef .tc main_v0) = (egoInit0 (argsR V)) := ((keepS9 _ main_v0 (by decide)).trans ((keepS8 _ main_v0 (by decide)).trans ((keepS7 _ main_v0 (by decide)).trans ((keepS6 _ main_v0 (by decide)).trans ((keepS5 _ main_v0 (by decide)).trans ((keepS4 _ main_v0 (by decide)).trans ((keepS3 _ main_v0 (by decide)).trans ((keepS2 _ main_v0 (by decide)).trans ((keepS1 _ main_v0 (by decide)).trans (val_v0 V))))))))))
  have h1 : P9 V (Proc.devRef .tc main_v38) = (normNext (agg0 (argsR V)) (argsR V).gcW0 (argsR V).biW0 (argsR V).gcb0 (argsR V).bib0 0 (egoInit0 (argsR V))) := ((keepS9 _ main_v38 (by decide)).trans ((keepS8 _ main_v38 (by decide)).trans ((keepS7 _ main_v38 (by decide)).trans ((keepS6 _ main_v38 (by decide)).trans ((keepS5 _ main_v38 (by decide)).trans ((keepS4 _ main_v38 (by decide)).trans (val_v38 V)))))))
  have h2 : P9 V (Proc.devRef .tc main_v76) = (normNext (agg0 (argsR V)) (argsR V).gcW0 (argsR V).biW0 (argsR V).gcb0 (argsR V).bib0 1 (egoNext (agg0 (argsR V)) (argsR V).gcW0 (argsR V).biW0 (argsR V).gcb0 (argsR V).bib0 0 (egoInit0 (argsR V)))) := ((keepS9 _ main_v76 (by decide)).trans ((keepS8 _ main_v76 (by decide)).trans ((keepS7 _ main_v76 (by decide)).trans (val_v76 V))))
  have h3 : P9 V (Proc.devRef .tc main_v114) = (normNext (agg0 (argsR V)) (argsR V).gcW0 (argsR V).biW0 (argsR V).gcb0 (argsR V).bib0 2 (egoNext (agg0 (argsR V)) (argsR V).gcW0 (argsR V).biW0 (argsR V).gcb0 (argsR V).bib0 1 (egoNext (agg0 (argsR V)) (argsR V).gcW0 (argsR V).biW0 (argsR V).gcb0 (argsR V).bib0 0 (egoInit0 (argsR V))))) := (val_v114 V)
  rw [P10_eq, rd_v115, h0, h1, h2, h3]
  rfl

theorem val_v116 (V : Valuation τ sig (Elt Ideal)) : P10 V (Proc.devRef .tc main_v116) = extractStridedSlice Cert.KernelIdeal.S20000x256 ![0, 0] (emb0 (argsR V)) Cert.KernelIdeal.Gen.slices_S35000x256_S20000x256_0_0 := by
  have h0 : P9 V (Proc.devRef .tc main_v0) = (egoInit0 (argsR V)) := ((keepS9 _ main_v0 (by decide)).trans ((keepS8 _ main_v0 (by decide)).trans ((keepS7 _ main_v0 (by decide)).trans ((keepS6 _ main_v0 (by decide)).trans ((keepS5 _ main_v0 (by decide)).trans ((keepS4 _ main_v0 (by decide)).trans ((keepS3 _ main_v0 (by decide)).trans ((keepS2 _ main_v0 (by decide)).trans ((keepS1 _ main_v0 (by decide)).trans (val_v0 V))))))))))
  have h1 : P9 V (Proc.devRef .tc main_v38) = (normNext (agg0 (argsR V)) (argsR V).gcW0 (argsR V).biW0 (argsR V).gcb0 (argsR V).bib0 0 (egoInit0 (argsR V))) := ((keepS9 _ main_v38 (by decide)).trans ((keepS8 _ main_v38 (by decide)).trans ((keepS7 _ main_v38 (by decide)).trans ((keepS6 _ main_v38 (by decide)).trans ((keepS5 _ main_v38 (by decide)).trans ((keepS4 _ main_v38 (by decide)).trans (val_v38 V)))))))
  have h2 : P9 V (Proc.devRef .tc main_v76) = (normNext (agg0 (argsR V)) (argsR V).gcW0 (argsR V).biW0 (argsR V).gcb0 (argsR V).bib0 1 (egoNext (agg0 (argsR V)) (argsR V).gcW0 (argsR V).biW0 (argsR V).gcb0 (argsR V).bib0 0 (egoInit0 (argsR V)))) := ((keepS9 _ main_v76 (by decide)).trans ((keepS8 _ main_v76 (by decide)).trans ((keepS7 _ main_v76 (by decide)).trans (val_v76 V))))
  have h3 : P9 V (Proc.devRef .tc main_v114) = (normNext (agg0 (argsR V)) (argsR V).gcW0 (argsR V).biW0 (argsR V).gcb0 (argsR V).bib0 2 (egoNext (agg0 (argsR V)) (argsR V).gcW0 (argsR V).biW0 (argsR V).gcb0 (argsR V).bib0 1 (egoNext (agg0 (argsR V)) (argsR V).gcW0 (argsR V).biW0 (argsR V).gcb0 (argsR V).bib0 0 (egoInit0 (argsR V))))) := (val_v114 V)
  rw [P10_eq, rd_v116, h0, h1, h2, h3]
  rfl

theorem val_v117 (V : Valuation τ sig (Elt Ideal)) : P10 V (Proc.devRef .tc main_v117) = extractStridedSlice Cert.KernelIdeal.S15000x256 ![20000, 0] (emb0 (argsR V)) Cert.KernelIdeal.Gen.slices_S35000x256_S15000x256_20000_0 := by
  have h0 : P9 V (Proc.devRef .tc main_v0) = (egoInit0 (argsR V)) := ((keepS9 _ main_v0 (by decide)).trans ((keepS8 _ main_v0 (by decide)).trans ((keepS7 _ main_v0 (by decide)).trans ((keepS6 _ main_v0 (by decide)).trans ((keepS5 _ main_v0 (by decide)).trans ((keepS4 _ main_v0 (by decide)).trans ((keepS3 _ main_v0 (by decide)).trans ((keepS2 _ main_v0 (by decide)).trans ((keepS1 _ main_v0 (by decide)).trans (val_v0 V))))))))))
  have h1 : P9 V (Proc.devRef .tc main_v38) = (normNext (agg0 (argsR V)) (argsR V).gcW0 (argsR V).biW0 (argsR V).gcb0 (argsR V).bib0 0 (egoInit0 (argsR V))) := ((keepS9 _ main_v38 (by decide)).trans ((keepS8 _ main_v38 (by decide)).trans ((keepS7 _ main_v38 (by decide)).trans ((keepS6 _ main_v38 (by decide)).trans ((keepS5 _ main_v38 (by decide)).trans ((keepS4 _ main_v38 (by decide)).trans (val_v38 V)))))))
  have h2 : P9 V (Proc.devRef .tc main_v76) = (normNext (agg0 (argsR V)) (argsR V).gcW0 (argsR V).biW0 (argsR V).gcb0 (argsR V).bib0 1 (egoNext (agg0 (argsR V)) (argsR V).gcW0 (argsR V).biW0 (argsR V).gcb0 (argsR V).bib0 0 (egoInit0 (argsR V)))) := ((keepS9 _ main_v76 (by decide)).trans ((keepS8 _ main_v76 (by decide)).trans ((keepS7 _ main_v76 (by decide)).trans (val_v76 V))))
  have h3 : P9 V (Proc.devRef .tc main_v114) = (normNext (agg0 (argsR V)) (argsR V).gcW0 (argsR V).biW0 (argsR V).gcb0 (argsR V).bib0 2 (egoNext (agg0 (argsR V)) (argsR V).gcW0 (argsR V).biW0 (argsR V).gcb0 (argsR V).bib0 1 (egoNext (agg0 (argsR V)) (argsR V).gcW0 (argsR V).biW0 (argsR V).gcb0 (argsR V).bib0 0 (egoInit0 (argsR V))))) := (val_v114 V)
  rw [P10_eq, rd_v117, h0, h1, h2, h3]
  rfl

theorem val_v118 (V : Valuation τ sig (Elt Ideal)) : P11 V (Proc.devRef .tc main_v118) = egoInit1 (argsR V) := by
  rw [P11_eq, rd_v118, P10_arg V main_arg6 ut_arg6, P10_arg V main_arg7 ut_arg7]
  rfl

theorem val_v131 (V : Valuation τ sig (Elt Ideal)) : P12 V (Proc.devRef .tc main_v131) = agg1 (argsR V) (egoInit1 (argsR V)) := by
  have he : P11 V (Proc.devRef .tc main_v118) = (egoInit1 (argsR V)) := (val_v118 V)
  rw [P12_eq, rd_v131, P11_arg V main_arg19 ut_arg19, P11_arg V main_arg18 ut_arg18, P11_arg V main_arg15 ut_arg15, he]
  exact hostSide_eq _ _ _ _ _ _ _ _ _ _ _

theorem val_v151 (V : Valuation τ sig (Elt Ideal)) : P13 V (Proc.devRef .tc main_v151) = egoNext (agg1 (argsR V)) (argsR V).gcW1 (argsR V).biW1 (argsR V).gcb1 (argsR V).bib1 0 (egoInit1 (argsR V)) := by
  have he : P12 V (Proc.devRef .tc main_v118) = (egoInit1 (argsR V)) := ((keepS12 _ main_v118 (by decide)).trans (val_v118 V))
  have hs : P12 V (Proc.devRef .tc main_v131) = agg1 (argsR V) (egoInit1 (argsR V)) := (val_v131 V)
  rw [P13_eq, rd_v151, P12_arg V main_arg8 ut_arg8, P12_arg V main_arg10 ut_arg10, P12_arg V main_arg9 ut_arg9, P12_arg V main_arg11 ut_arg11, he, hs]
  exact hostEgoNext_eq (agg1 (argsR V)) 0 (by decide) _ _ _ _ _ _ _ _ _ _ _ _

theorem val_v156 (V : Valuation τ sig (Elt Ideal)) : P14 V (Proc.devRef .tc main_v156) = normNext (agg1 (argsR V)) (argsR V).gcW1 (argsR V).biW1 (argsR V).gcb1 (argsR V).bib1 0 (egoInit1 (argsR V)) := by
  have he : P13 V (Proc.devRef .tc main_v151) = (egoNext (agg1 (argsR V)) (argsR V).gcW1 (argsR V).biW1 (argsR V).gcb1 (argsR V).bib1 0 (egoInit1 (argsR V))) := (val_v151 V)
  rw [P14_eq, rd_v156, he]
  exact hostNormOf_egoNext (agg1 (argsR V)) _ _ _ _ _ _ _ _ _ 0 _

theorem val_v169 (V : Valuation τ sig (Elt Ideal)) : P15 V (Proc.devRef .tc main_v169) = agg1 (argsR V) (egoNext (agg1 (argsR V)) (argsR V).gcW1 (argsR V).biW1 (argsR V).gcb1 (argsR V).bib1 0 (egoInit1 (argsR V))) := by
  have he : P14 V (Proc.devRef .tc main_v151) = (egoNext (agg1 (argsR V)) (argsR V).gcW1 (argsR V).biW1 (argsR V).gcb1 (argsR V).bib1 0 (egoInit1 (argsR V))) := ((keepS14 _ main_v151 (by decide)).trans (val_v151 V))
  rw [P15_eq, rd_v169, P14_arg V main_arg19 ut_arg19, P14_arg V main_arg18 ut_arg18, P14_arg V main_arg15 ut_arg15, he]
  exact hostSide_eq _ _ _ _ _ _ _ _ _ _ _

theorem val_v189 (V : Valuation τ sig (Elt Ideal)) : P16 V (Proc.devRef .tc main_v189) = egoNext (agg1 (argsR V)) (argsR V).gcW1 (argsR V).biW1 (argsR V).gcb1 (argsR V).bib1 1 (egoNext (agg1 (argsR V)) (argsR V).gcW1 (argsR V).biW1 (argsR V).gcb1 (argsR V).bib1 0 (egoInit1 (argsR V))) := by
  have he : P15 V (Proc.devRef .tc main_v151) = (egoNext (agg1 (argsR V)) (argsR V).gcW1 (argsR V).biW1 (argsR V).gcb1 (argsR V).bib1 0 (egoInit1 (argsR V))) := ((keepS15 _ main_v151 (by decide)).trans ((keepS14 _ main_v151 (by decide)).trans (val_v151 V)))
  have hs : P15 V (Proc.devRef .tc main_v169) = agg1 (argsR V) (egoNext (agg1 (argsR V)) (argsR V).gcW1 (argsR V).biW1 (argsR V).gcb1 (argsR V).bib1 0 (egoInit1 (argsR V))) := (val_v169 V)
  rw [P16_eq, rd_v189, P15_arg V main_arg8 ut_arg8, P15_arg V main_arg10 ut_arg10, P15_arg V main_arg9 ut_arg9, P15_arg V main_arg11 ut_arg11, he, hs]
  exact hostEgoNext_eq (agg1 (argsR V)) 1 (by decide) _ _ _ _ _ _ _ _ _ _ _ _

theorem val_v194 (V : Valuation τ sig (Elt Ideal)) : P17 V (Proc.devRef .tc main_v194) = normNext (agg1 (argsR V)) (argsR V).gcW1 (argsR V).biW1 (argsR V).gcb1 (argsR V).bib1 1 (egoNext (agg1 (argsR V)) (argsR V).gcW1 (argsR V).biW1 (argsR V).gcb1 (argsR V).bib1 0 (egoInit1 (argsR V))) := by
  have he : P16 V (Proc.devRef .tc main_v189) = (egoNext (agg1 (argsR V)) (argsR V).gcW1 (argsR V).biW1 (argsR V).gcb1 (argsR V).bib1 1 (egoNext (agg1 (argsR V)) (argsR V).gcW1 (argsR V).biW1 (argsR V).gcb1 (argsR V).bib1 0 (egoInit1 (argsR V)))) := (val_v189 V)
  rw [P17_eq, rd_v194, he]
  exact hostNormOf_egoNext (agg1 (argsR V)) _ _ _ _ _ _ _ _ _ 1 _

theorem val_v207 (V : Valuation τ sig (Elt Ideal)) : P18 V (Proc.devRef .tc main_v207) = agg1 (argsR V) (egoNext (agg1 (argsR V)) (argsR V).gcW1 (argsR V).biW1 (argsR V).gcb1 (argsR V).bib1 1 (egoNext (agg1 (argsR V)) (argsR V).gcW1 (argsR V).biW1 (argsR V).gcb1 (argsR V).bib1 0 (egoInit1 (argsR V)))) := by
  have he : P17 V (Proc.devRef .tc main_v189) = (egoNext (agg1 (argsR V)) (argsR V).gcW1 (argsR V).biW1 (argsR V).gcb1 (argsR V).bib1 1 (egoNext (agg1 (argsR V)) (argsR V).gcW1 (argsR V).biW1 (argsR V).gcb1 (argsR V).bib1 0 (egoInit1 (argsR V)))) := ((keepS17 _ main_v189 (by decide)).trans (val_v189 V))
  rw [P18_eq, rd_v207, P17_arg V main_arg19 ut_arg19, P17_arg V main_arg18 ut_arg18, P17_arg V main_arg15 ut_arg15, he]
  exact hostSide_eq _ _ _ _ _ _ _ _ _ _ _

theorem val_v227 (V : Valuation τ sig (Elt Ideal)) : P19 V (Proc.devRef .tc main_v227) = egoNext (agg1 (argsR V)) (argsR V).gcW1 (argsR V).biW1 (argsR V).gcb1 (argsR V).bib1 2 (egoNext (agg1 (argsR V)) (argsR V).gcW1 (argsR V).biW1 (argsR V).gcb1 (argsR V).bib1 1 (egoNext (agg1 (argsR V)) (argsR V).gcW1 (argsR V).biW1 (argsR V).gcb1 (argsR V).bib1 0 (egoInit1 (argsR V)))) := by
  have he : P18 V (Proc.devRef .tc main_v189) = (egoNext (agg1 (argsR V)) (argsR V).gcW1 (argsR V).biW1 (argsR V).gcb1 (argsR V).bib1 1 (egoNext (agg1 (argsR V)) (argsR V).gcW1 (argsR V).biW1 (argsR V).gcb1 (argsR V).bib1 0 (egoInit1 (argsR V)))) := ((keepS18 _ main_v189 (by decide)).trans ((keepS17 _ main_v189 (by decide)).trans (val_v189 V)))
  have hs : P18 V (Proc.devRef .tc main_v207) = agg1 (argsR V) (egoNext (agg1 (argsR V)) (argsR V).gcW1 (argsR V).biW1 (argsR V).gcb1 (argsR V).bib1 1 (egoNext (agg1 (argsR V)) (argsR V).gcW1 (argsR V).biW1 (argsR V).gcb1 (argsR V).bib1 0 (egoInit1 (argsR V)))) := (val_v207 V)
  rw [P19_eq, rd_v227, P18_arg V main_arg8 ut_arg8, P18_arg V main_arg10 ut_arg10, P18_arg V main_arg9 ut_arg9, P18_arg V main_arg11 ut_arg11, he, hs]
  exact hostEgoNext_eq (agg1 (argsR V)) 2 (by decide) _ _ _ _ _ _ _ _ _ _ _ _

theorem val_v232 (V : Valuation τ sig (Elt Ideal)) : P20 V (Proc.devRef .tc main_v232) = normNext (agg1 (argsR V)) (argsR V).gcW1 (argsR V).biW1 (argsR V).gcb1 (argsR V).bib1 2 (egoNext (agg1 (argsR V)) (argsR V).gcW1 (argsR V).biW1 (argsR V).gcb1 (argsR V).bib1 1 (egoNext (agg1 (argsR V)) (argsR V).gcW1 (argsR V).biW1 (argsR V).gcb1 (argsR V).bib1 0 (egoInit1 (argsR V)))) := by
  have he : P19 V (Proc.devRef .tc main_v227) = (egoNext (agg1 (argsR V)) (argsR V).gcW1 (argsR V).biW1 (argsR V).gcb1 (argsR V).bib1 2 (egoNext (agg1 (argsR V)) (argsR V).gcW1 (argsR V).biW1 (argsR V).gcb1 (argsR V).bib1 1 (egoNext (agg1 (argsR V)) (argsR V).gcW1 (argsR V).biW1 (argsR V).gcb1 (argsR V).bib1 0 (egoInit1 (argsR V))))) := (val_v227 V)
  rw [P20_eq, rd_v232, he]
  exact hostNormOf_egoNext (agg1 (argsR V)) _ _ _ _ _ _ _ _ _ 2 _

theorem val_v233 (V : Valuation τ sig (Elt Ideal)) : P21 V (Proc.devRef .tc main_v233) = emb1 (argsR V) := by
  have h0 : P20 V (Proc.devRef .tc main_v118) = (egoInit1 (argsR V)) := ((keepS20 _ main_v118 (by decide)).trans ((keepS19 _ main_v118 (by decide)).trans ((keepS18 _ main_v118 (by decide)).trans ((keepS17 _ main_v118 (by decide)).trans ((keepS16 _ main_v118 (by decide)).trans ((keepS15 _ main_v118 (by decide)).trans ((keepS14 _ main_v118 (by decide)).trans ((keepS13 _ main_v118 (by decide)).trans ((keepS12 _ main_v118 (by decide)).trans (val_v118 V))))))))))
  have h1 : P20 V (Proc.devRef .tc main_v156) = (normNext (agg1 (argsR V)) (argsR V).gcW1 (argsR V).biW1 (argsR V).gcb1 (argsR V).bib1 0 (egoInit1 (argsR V))) := ((keepS20 _ main_v156 (by decide)).trans ((keepS19 _ main_v156 (by decide)).trans ((keepS18 _ main_v156 (by decide)).trans ((keepS17 _ main_v156 (by decide)).trans ((keepS16 _ main_v156 (by decide)).trans ((keepS15 _ main_v156 (by decide)).trans (val_v156 V)))))))
  have h2 : P20 V (Proc.devRef .tc main_v194) = (normNext (agg1 (argsR V)) (argsR V).gcW1 (argsR V).biW1 (argsR V).gcb1 (argsR V).bib1 1 (egoNext (agg1 (argsR V)) (argsR V).gcW1 (argsR V).biW1 (argsR V).gcb1 (argsR V).bib1 0 (egoInit1 (argsR V)))) := ((keepS20 _ main_v194 (by decide)).trans ((keepS19 _ main_v194 (by decide)).trans ((keepS18 _ main_v194 (by decide)).trans (val_v194 V))))
  have h3 : P20 V (Proc.devRef .tc main_v232) = (normNext (agg1 (argsR V)) (argsR V).gcW1 (argsR V).biW1 (argsR V).gcb1 (argsR V).bib1 2 (egoNext (agg1 (argsR V)) (argsR V).gcW1 (argsR V).biW1 (argsR V).gcb1 (argsR V).bib1 1 (egoNext (agg1 (argsR V)) (argsR V).gcW1 (argsR V).biW1 (argsR V).gcb1 (argsR V).bib1 0 (egoInit1 (argsR V))))) := (val_v232 V)
  rw [P21_eq, rd_v233, h0, h1, h2, h3]
  rfl

theorem val_v234 (V : Valuation τ sig (Elt Ideal)) : P21 V (Proc.devRef .tc main_v234) = extractStridedSlice Cert.KernelIdeal.S4000x256 ![0, 0] (emb1 (argsR V)) Cert.KernelIdeal.Gen.slices_S7000x256_S4000x256_0_0 := by
  have h0 : P20 V (Proc.devRef .tc main_v118) = (egoInit1 (argsR V)) := ((keepS20 _ main_v118 (by decide)).trans ((keepS19 _ main_v118 (by decide)).trans ((keepS18 _ main_v118 (by decide)).trans ((keepS17 _ main_v118 (by decide)).trans ((keepS16 _ main_v118 (by decide)).trans ((keepS15 _ main_v118 (by decide)).trans ((keepS14 _ main_v118 (by decide)).trans ((keepS13 _ main_v118 (by decide)).trans ((keepS12 _ main_v118 (by decide)).trans (val_v118 V))))))))))
  have h1 : P20 V (Proc.devRef .tc main_v156) = (normNext (agg1 (argsR V)) (argsR V).gcW1 (argsR V).biW1 (argsR V).gcb1 (argsR V).bib1 0 (egoInit1 (argsR V))) := ((keepS20 _ main_v156 (by decide)).trans ((keepS19 _ main_v156 (by decide)).trans ((keepS18 _ main_v156 (by decide)).trans ((keepS17 _ main_v156 (by decide)).trans ((keepS16 _ main_v156 (by decide)).trans ((keepS15 _ main_v156 (by decide)).trans (val_v156 V)))))))
  have h2 : P20 V (Proc.devRef .tc main_v194) = (normNext (agg1 (argsR V)) (argsR V).gcW1 (argsR V).biW1 (argsR V).gcb1 (argsR V).bib1 1 (egoNext (agg1 (argsR V)) (argsR V).gcW1 (argsR V).biW1 (argsR V).gcb1 (argsR V).bib1 0 (egoInit1 (argsR V)))) := ((keepS20 _ main_v194 (by decide)).trans ((keepS19 _ main_v194 (by decide)).trans ((keepS18 _ main_v194 (by decide)).trans (val_v194 V))))
  have h3 : P20 V (Proc.devRef .tc main_v232) = (normNext (agg1 (argsR V)) (argsR V).gcW1 (argsR V).biW1 (argsR V).gcb1 (argsR V).bib1 2 (egoNext (agg1 (argsR V)) (argsR V).gcW1 (argsR V).biW1 (argsR V).gcb1 (argsR V).bib1 1 (egoNext (agg1 (argsR V)) (argsR V).gcW1 (argsR V).biW1 (argsR V).gcb1 (argsR V).bib1 0 (egoInit1 (argsR V))))) := (val_v232 V)
  rw [P21_eq, rd_v234, h0, h1, h2, h3]
  rfl

theorem val_v235 (V : Valuation τ sig (Elt Ideal)) : P21 V (Proc.devRef .tc main_v235) = extractStridedSlice Cert.KernelIdeal.S3000x256 ![4000, 0] (emb1 (argsR V)) Cert.KernelIdeal.Gen.slices_S7000x256_S3000x256_4000_0 := by
  have h0 : P20 V (Proc.devRef .tc main_v118) = (egoInit1 (argsR V)) := ((keepS20 _ main_v118 (by decide)).trans ((keepS19 _ main_v118 (by decide)).trans ((keepS18 _ main_v118 (by decide)).trans ((keepS17 _ main_v118 (by decide)).trans ((keepS16 _ main_v118 (by decide)).trans ((keepS15 _ main_v118 (by decide)).trans ((keepS14 _ main_v118 (by decide)).trans ((keepS13 _ main_v118 (by decide)).trans ((keepS12 _ main_v118 (by decide)).trans (val_v118 V))))))))))
  have h1 : P20 V (Proc.devRef .tc main_v156) = (normNext (agg1 (argsR V)) (argsR V).gcW1 (argsR V).biW1 (argsR V).gcb1 (argsR V).bib1 0 (egoInit1 (argsR V))) := ((keepS20 _ main_v156 (by decide)).trans ((keepS19 _ main_v156 (by decide)).trans ((keepS18 _ main_v156 (by decide)).trans ((keepS17 _ main_v156 (by decide)).trans ((keepS16 _ main_v156 (by decide)).trans ((keepS15 _ main_v156 (by decide)).trans (val_v156 V)))))))
  have h2 : P20 V (Proc.devRef .tc main_v194) = (normNext (agg1 (argsR V)) (argsR V).gcW1 (argsR V).biW1 (argsR V).gcb1 (argsR V).bib1 1 (egoNext (agg1 (argsR V)) (argsR V).gcW1 (argsR V).biW1 (argsR V).gcb1 (argsR V).bib1 0 (egoInit1 (argsR V)))) := ((keepS20 _ main_v194 (by decide)).trans ((keepS19 _ main_v194 (by decide)).trans ((keepS18 _ main_v194 (by decide)).trans (val_v194 V))))
  have h3 : P20 V (Proc.devRef .tc main_v232) = (normNext (agg1 (argsR V)) (argsR V).gcW1 (argsR V).biW1 (argsR V).gcb1 (argsR V).bib1 2 (egoNext (agg1 (argsR V)) (argsR V).gcW1 (argsR V).biW1 (argsR V).gcb1 (argsR V).bib1 1 (egoNext (agg1 (argsR V)) (argsR V).gcW1 (argsR V).biW1 (argsR V).gcb1 (argsR V).bib1 0 (egoInit1 (argsR V))))) := (val_v232 V)
  rw [P21_eq, rd_v235, h0, h1, h2, h3]
  rfl

theorem val_v237 (V : Valuation τ sig (Elt Ideal)) : P22 V (Proc.devRef .tc main_v237) = userSpec (argsR V) := by
  have hb : P21 V (Proc.devRef .tc main_v116) = extractStridedSlice Cert.KernelIdeal.S20000x256 ![0, 0] (emb0 (argsR V)) Cert.KernelIdeal.Gen.slices_S35000x256_S20000x256_0_0 := ((keepS21 _ main_v116 (by decide)).trans ((keepS20 _ main_v116 (by decide)).trans ((keepS19 _ main_v116 (by decide)).trans ((keepS18 _ main_v116 (by decide)).trans ((keepS17 _ main_v116 (by decide)).trans ((keepS16 _ main_v116 (by decide)).trans ((keepS15 _ main_v116 (by decide)).trans ((keepS14 _ main_v116 (by decide)).trans ((keepS13 _ main_v116 (by decide)).trans ((keepS12 _ main_v116 (by decide)).trans ((keepS11 _ main_v116 (by decide)).trans (val_v116 V))))))))))))
  have hr : P21 V (Proc.devRef .tc main_v234) = extractStridedSlice Cert.KernelIdeal.S4000x256 ![0, 0] (emb1 (argsR V)) Cert.KernelIdeal.Gen.slices_S7000x256_S4000x256_0_0 := (val_v234 V)
  rw [P22_eq, rd_v237, P21_arg V main_arg12 ut_arg12, hb, hr]
  exact hostCombine_eq _ _ _

theorem val_v239 (V : Valuation τ sig (Elt Ideal)) : P22 V (Proc.devRef .tc main_v239) = itemSpec (argsR V) := by
  have hb : P21 V (Proc.devRef .tc main_v117) = extractStridedSlice Cert.KernelIdeal.S15000x256 ![20000, 0] (emb0 (argsR V)) Cert.KernelIdeal.Gen.slices_S35000x256_S15000x256_20000_0 := ((keepS21 _ main_v117 (by decide)).trans ((keepS20 _ main_v117 (by decide)).trans ((keepS19 _ main_v117 (by decide)).trans ((keepS18 _ main_v117 (by decide)).trans ((keepS17 _ main_v117 (by decide)).trans ((keepS16 _ main_v117 (by decide)).trans ((keepS15 _ main_v117 (by decide)).trans ((keepS14 _ main_v117 (by decide)).trans ((keepS13 _ main_v117 (by decide)).trans ((keepS12 _ main_v117 (by decide)).trans ((keepS11 _ main_v117 (by decide)).trans (val_v117 V))))))))))))
  have hr : P21 V (Proc.devRef .tc main_v235) = extractStridedSlice Cert.KernelIdeal.S3000x256 ![4000, 0] (emb1 (argsR V)) Cert.KernelIdeal.Gen.slices_S7000x256_S3000x256_4000_0 := (val_v235 V)
  rw [P22_eq, rd_v239, P21_arg V main_arg13 ut_arg13, hb, hr]
  exact hostCombine_eq _ _ _

/-- The reference's first result, from any contents `V`, is the common value of the arguments' contents. -/
theorem ref_user (V : Valuation τ sig (Elt Ideal)) :
    StableHlo.after ops V (Proc.devRef .tc main_v237) = Cert.Ngcf.userSpec (argsR V) := by
  rw [after_ops_P]
  exact val_v237 V

/-- The reference's second result, from any contents `V`, is the common value of the arguments' contents. -/
theorem ref_item (V : Valuation τ sig (Elt Ideal)) :
    StableHlo.after ops V (Proc.devRef .tc main_v239) = Cert.Ngcf.itemSpec (argsR V) := by
  rw [after_ops_P]
  exact val_v239 V

end Cert.ReferenceIdeal.RRun

end
-- ==== Proof.lean ====
/-
  The certificate of the two-graph message-passing kernel against its reference.

  Frames: the printed kernel runs as fifteen segments — seven stretches of host operations and eight kernel regions,
  six layer updates on row tiles and two row-tiled map products — each region's body leaving every argument array
  alone; the reference is one straight line of host operations, none of which writes an argument.
  Values, on the extended reals: both programs end with the user rows of graph 0's four embeddings plus the user map
  times the user rows of graph 1's, and likewise for the items (`Cert.Ngcf.userSpec`, `itemSpec`).  The kernel
  computes a layer with one fused 128-lane product against a block-diagonal weight; the reference with two 64-lane
  products; the two agree because a sum over the fused lanes splits and the products with the zero blocks vanish,
  infinities included, so the precondition is never opened.  The aggregation along the edges is the same host
  computation in both and is carried as one function.
-/
import proofs.«120809_j78615081386430_2_alg».proof.Defs
import proofs.«120809_j78615081386430_2_alg».proof.Proof.Gen.Kernel
import proofs.«120809_j78615081386430_2_alg».proof.Proof.Gen.KernelIdeal
import proofs.«120809_j78615081386430_2_alg».proof.Proof.Gen.ReferenceIdeal
import proofs.«120809_j78615081386430_2_alg».proof.Proof.Gen.Pre_finite_inputs
import proofs.«120809_j78615081386430_2_alg».proof.Proof.KRun
import proofs.«120809_j78615081386430_2_alg».proof.Proof.KiRun
import proofs.«120809_j78615081386430_2_alg».proof.Proof.KiValue
import proofs.«120809_j78615081386430_2_alg».proof.Proof.RefFrame
import proofs.«120809_j78615081386430_2_alg».proof.Proof.RefValue
import Idealize.ShloMosaic.Adequacy
import Idealize.ShloMosaic.Init

noncomputable section

namespace Cert.Proof

open Idealize.ShloMosaic Idealize.SL.Sem

open Cert.KernelIdeal.KF (argsK ker_user ker_item)
open Cert.ReferenceIdeal.RRun (argsR ref_user ref_item)

/-- The word-level kernel runs and leaves its arguments alone. -/
theorem frame_k : Cert.frame_Kernel := fun m ρ _ => Cert.Kernel.KF.frame m ρ

/-- So does the idealized kernel. -/
theorem frame_ki : Cert.frame_KernelIdeal := fun m ρ _ => Cert.KernelIdeal.KF.frame m ρ

/-- The two programs' argument arrays, gathered, are equal when the memories agree on the arguments. -/
theorem args_agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    argsR (fun b => m' (c, b)) = argsK m c := by
  obtain ⟨h0, h1, h2, h3, h4, h5, h6, h7, h8, h9, h10, h11, h12, h13, h14, h15, h16, h17, h18, h19⟩ := h
  unfold argsR argsK
  congr 1

/-- Both idealized programs end at the common value of arguments that agree. -/
theorem algebraic : Cert.algebraic_KernelIdeal_ReferenceIdeal := by
  intro m ρ m' ρ' _ hagree
  refine ⟨fun c => Cert.Ngcf.userSpec (argsK m c), fun c => Cert.Ngcf.itemSpec (argsK m c), ?_, ?_⟩
  · exact (θ_run Cert.KernelIdeal.defs _ _).mono
      (fun r h c => ⟨(h c).1.trans (ker_user m ρ c), (h c).2.1.trans (ker_item m ρ c), (h c).2.2⟩)
      (Cert.KernelIdeal.KF.run_valued (F := Ideal) m ρ)
  · refine (θ_run Cert.ReferenceIdeal.defs _ _).mono (fun r h c => ?_) (Cert.ReferenceIdeal.RRun.run (F := Ideal) m' ρ')
    have hA := args_agree m m' c (hagree c)
    exact ⟨(h c).1.trans ((ref_user _).trans (congrArg Cert.Ngcf.userSpec hA)),
      (h c).2.1.trans ((ref_item _).trans (congrArg Cert.Ngcf.itemSpec hA)), (h c).2.2⟩

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RRun.frame_ri, trivial, algebraic⟩

end Cert.Proof

end
